-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S10000x128 : Shape := ⟨2, ![10000, 128]⟩
abbrev S320000x16 : Shape := ⟨2, ![320000, 16]⟩
abbrev S544x272 : Shape := ⟨2, ![544, 272]⟩
abbrev S544 : Shape := ⟨1, ![544]⟩
abbrev S16x544 : Shape := ⟨2, ![16, 544]⟩
abbrev S16 : Shape := ⟨1, ![16]⟩
abbrev S320000 : Shape := ⟨1, ![320000]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S320000x16 : S_.BroadcastsInDim S320000x16 (![] : Fin 0 → Fin S320000x16.rank)
  reducesTo_S320000x16_S_d0_1 : S320000x16.ReducesTo [0, 1] S_
  bcast_S_S544x272 : S_.BroadcastsInDim S544x272 (![] : Fin 0 → Fin S544x272.rank)
  reducesTo_S544x272_S_d0_1 : S544x272.ReducesTo [0, 1] S_
  bcast_S_S544 : S_.BroadcastsInDim S544 (![] : Fin 0 → Fin S544.rank)
  reducesTo_S544_S_d0 : S544.ReducesTo [0] S_
  bcast_S_S16x544 : S_.BroadcastsInDim S16x544 (![] : Fin 0 → Fin S16x544.rank)
  reducesTo_S16x544_S_d0_1 : S16x544.ReducesTo [0, 1] S_
  bcast_S_S16 : S_.BroadcastsInDim S16 (![] : Fin 0 → Fin S16.rank)
  reducesTo_S16_S_d0 : S16.ReducesTo [0] S_
  bcast_S_S320000 : S_.BroadcastsInDim S320000 (![] : Fin 0 → Fin S320000.rank)
  reducesTo_S320000_S_d0 : S320000.ReducesTo [0] S_

variable [Facts]

def fn_part2 {F : FTy → Type} [FloatOps F] (main_arg7 : IVec S320000 32) (main_v28 : IVec S_ 1) (main_v33 : IVec S320000 1) : IVec S_ 1 :=
  let main_c_12 : IVec S_ 1 := constantI S_ 1 1#1
  let main_v34 : IVec S_ 1 := (fun x v => Host.reduce IntOp.andi x v reducesTo_S320000_S_d0 h_S_) main_v33 main_c_12
  let main_v35 : IVec S_ 1 := andi main_v28 main_v34
  let main_c_13 : IVec S_ 32 := constantI S_ 32 0#32
  let main_v36 : IVec S320000 32 := broadcastInDim S320000 ![] bcast_S_S320000 main_c_13
  let main_v37 : IVec S320000 1 := cmpi .sge main_arg7 main_v36
  let main_c_14 : IVec S_ 32 := constantI S_ 32 9999#32
  let main_v38 : IVec S320000 32 := broadcastInDim S320000 ![] bcast_S_S320000 main_c_14
  let main_v39 : IVec S320000 1 := cmpi .sle main_arg7 main_v38
  let main_v40 : IVec S320000 1 := andi main_v37 main_v39
  let main_c_15 : IVec S_ 1 := constantI S_ 1 1#1
  let main_v41 : IVec S_ 1 := (fun x v => Host.reduce IntOp.andi x v reducesTo_S320000_S_d0 h_S_) main_v40 main_c_15
  let main_v42 : IVec S_ 1 := andi main_v35 main_v41
  main_v42

def fn_part1 {F : FTy → Type} [FloatOps F] (main_arg4 : FVec F S16x544 .f32) (main_arg5 : FVec F S16 .f32) (main_arg6 : IVec S320000 32) (main_arg7 : IVec S320000 32) (main_v13 : IVec S_ 1) (main_v16 : IVec S544 1) : IVec S_ 1 :=
  let main_c_5 : IVec S_ 1 := constantI S_ 1 1#1
  let main_v17 : IVec S_ 1 := (fun x v => Host.reduce IntOp.andi x v reducesTo_S544_S_d0 h_S_) main_v16 main_c_5
  let main_v18 : IVec S_ 1 := andi main_v13 main_v17
  let main_v19 : FVec F S16x544 .f32 := Host.absf main_arg4
  let main_cst_6 : FVec F S_ .f32 := constant S_ .f32 0x7F800000#32
  let main_v20 : FVec F S16x544 .f32 := broadcastInDim S16x544 ![] bcast_S_S16x544 main_cst_6
  let main_v21 : IVec S16x544 1 := cmpf .olt main_v19 main_v20
  let main_c_7 : IVec S_ 1 := constantI S_ 1 1#1
  let main_v22 : IVec S_ 1 := (fun x v => Host.reduce IntOp.andi x v reducesTo_S16x544_S_d0_1 h_S_) main_v21 main_c_7
  let main_v23 : IVec S_ 1 := andi main_v18 main_v22
  let main_v24 : FVec F S16 .f32 := Host.absf main_arg5
  let main_cst_8 : FVec F S_ .f32 := constant S_ .f32 0x7F800000#32
  let main_v25 : FVec F S16 .f32 := broadcastInDim S16 ![] bcast_S_S16 main_cst_8
  let main_v26 : IVec S16 1 := cmpf .olt main_v24 main_v25
  let main_c_9 : IVec S_ 1 := constantI S_ 1 1#1
  let main_v27 : IVec S_ 1 := (fun x v => Host.reduce IntOp.andi x v reducesTo_S16_S_d0 h_S_) main_v26 main_c_9
  let main_v28 : IVec S_ 1 := andi main_v23 main_v27
  let main_c_10 : IVec S_ 32 := constantI S_ 32 0#32
  let main_v29 : IVec S320000 32 := broadcastInDim S320000 ![] bcast_S_S320000 main_c_10
  let main_v30 : IVec S320000 1 := cmpi .sge main_arg6 main_v29
  let main_c_11 : IVec S_ 32 := constantI S_ 32 9999#32
  let main_v31 : IVec S320000 32 := broadcastInDim S320000 ![] bcast_S_S320000 main_c_11
  let main_v32 : IVec S320000 1 := cmpi .sle main_arg6 main_v31
  let main_v33 : IVec S320000 1 := andi main_v30 main_v32
  fn_part2 (F := F) main_arg7 main_v28 main_v33

def fn {F : FTy → Type} [FloatOps F] (main_arg0 : FVec F S10000x128 .f32) (main_arg1 : FVec F S320000x16 .f32) (main_arg2 : FVec F S544x272 .f32) (main_arg3 : FVec F S544 .f32) (main_arg4 : FVec F S16x544 .f32) (main_arg5 : FVec F S16 .f32) (main_arg6 : IVec S320000 32) (main_arg7 : IVec S320000 32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S320000x16 .f32 := Host.absf main_arg1
  let main_cst_0 : FVec F S_ .f32 := constant S_ .f32 0x7F800000#32
  let main_v5 : FVec F S320000x16 .f32 := broadcastInDim S320000x16 ![] bcast_S_S320000x16 main_cst_0
  let main_v6 : IVec S320000x16 1 := cmpf .olt main_v4 main_v5
  let main_c_1 : IVec S_ 1 := constantI S_ 1 1#1
  let main_v7 : IVec S_ 1 := (fun x v => Host.reduce IntOp.andi x v reducesTo_S320000x16_S_d0_1 h_S_) main_v6 main_c_1
  let main_v8 : IVec S_ 1 := andi main_v3 main_v7
  let main_v9 : FVec F S544x272 .f32 := Host.absf main_arg2
  let main_cst_2 : FVec F S_ .f32 := constant S_ .f32 0x7F800000#32
  let main_v10 : FVec F S544x272 .f32 := broadcastInDim S544x272 ![] bcast_S_S544x272 main_cst_2
  let main_v11 : IVec S544x272 1 := cmpf .olt main_v9 main_v10
  let main_c_3 : IVec S_ 1 := constantI S_ 1 1#1
  let main_v12 : IVec S_ 1 := (fun x v => Host.reduce IntOp.andi x v reducesTo_S544x272_S_d0_1 h_S_) main_v11 main_c_3
  let main_v13 : IVec S_ 1 := andi main_v8 main_v12
  let main_v14 : FVec F S544 .f32 := Host.absf main_arg3
  let main_cst_4 : FVec F S_ .f32 := constant S_ .f32 0x7F800000#32
  let main_v15 : FVec F S544 .f32 := broadcastInDim S544 ![] bcast_S_S544 main_cst_4
  let main_v16 : IVec S544 1 := cmpf .olt main_v14 main_v15
  fn_part1 (F := F) main_arg4 main_arg5 main_arg6 main_arg7 main_v13 main_v16
-- ==== Kernel.lean ====
abbrev S10000x128 : Shape := ⟨2, ![10000, 128]⟩
abbrev S320000x16 : Shape := ⟨2, ![320000, 16]⟩
abbrev S544x272 : Shape := ⟨2, ![544, 272]⟩
abbrev S544 : Shape := ⟨1, ![544]⟩
abbrev S16x544 : Shape := ⟨2, ![16, 544]⟩
abbrev S16 : Shape := ⟨1, ![16]⟩
abbrev S320000 : Shape := ⟨1, ![320000]⟩
abbrev S272x544 : Shape := ⟨2, ![272, 544]⟩
abbrev S256x544 : Shape := ⟨2, ![256, 544]⟩
abbrev S1x544 : Shape := ⟨2, ![1, 544]⟩
abbrev S544x16 : Shape := ⟨2, ![544, 16]⟩
abbrev S1x16 : Shape := ⟨2, ![1, 16]⟩
abbrev S320000x256 : Shape := ⟨2, ![320000, 256]⟩
abbrev S10000 : Shape := ⟨1, ![10000]⟩
abbrev S40x128 : Shape := ⟨2, ![40, 128]⟩
abbrev S_ : Shape := ⟨0, ![]⟩
abbrev S624x128 : Shape := ⟨2, ![624, 128]⟩
abbrev S16x128 : Shape := ⟨2, ![16, 128]⟩
abbrev S40 : Shape := ⟨1, ![40]⟩
abbrev S6400x256 : Shape := ⟨2, ![6400, 256]⟩
abbrev S6400x16 : Shape := ⟨2, ![6400, 16]⟩
abbrev S6400x544 : Shape := ⟨2, ![6400, 544]⟩

abbrev nBuf : Table → Nat
  | .hbm => 19
  | .local .tc .vmem => 11
  | .shared => 1
  | .local .scVector .vmem => 6
  | _ => 0

abbrev bufTy : (tb : Table) → Fin (nBuf tb) → BufTy
  | .hbm, ⟨0, _⟩ => ⟨S10000x128, .f32⟩
  | .hbm, ⟨1, _⟩ => ⟨S320000x16, .f32⟩
  | .hbm, ⟨2, _⟩ => ⟨S544x272, .f32⟩
  | .hbm, ⟨3, _⟩ => ⟨S544, .f32⟩
  | .hbm, ⟨4, _⟩ => ⟨S16x544, .f32⟩
  | .hbm, ⟨5, _⟩ => ⟨S16, .f32⟩
  | .hbm, ⟨6, _⟩ => ⟨S320000, .i32⟩
  | .hbm, ⟨7, _⟩ => ⟨S320000, .i32⟩
  | .hbm, ⟨8, _⟩ => ⟨S272x544, .f32⟩
  | .hbm, ⟨9, _⟩ => ⟨S256x544, .f32⟩
  | .hbm, ⟨10, _⟩ => ⟨S256x544, .bf16⟩
  | .hbm, ⟨11, _⟩ => ⟨S16x544, .f32⟩
  | .hbm, ⟨12, _⟩ => ⟨S16x544, .bf16⟩
  | .hbm, ⟨13, _⟩ => ⟨S1x544, .f32⟩
  | .hbm, ⟨14, _⟩ => ⟨S544x16, .f32⟩
  | .hbm, ⟨15, _⟩ => ⟨S544x16, .bf16⟩
  | .hbm, ⟨16, _⟩ => ⟨S1x16, .f32⟩
  | .hbm, ⟨17, _⟩ => ⟨S320000x256, .f32⟩
  | .hbm, ⟨18, _⟩ => ⟨S320000x16, .f32⟩
  | .local .tc .vmem, ⟨0, _⟩ => ⟨S6400x256, .f32⟩
  | .local .tc .vmem, ⟨1, _⟩ => ⟨S6400x256, .f32⟩
  | .local .tc .vmem, ⟨2, _⟩ => ⟨S6400x16, .f32⟩
  | .local .tc .vmem, ⟨3, _⟩ => ⟨S6400x16, .f32⟩
  | .local .tc .vmem, ⟨4, _⟩ => ⟨S256x544, .bf16⟩
  | .local .tc .vmem, ⟨5, _⟩ => ⟨S16x544, .bf16⟩
  | .local .tc .vmem, ⟨6, _⟩ => ⟨S1x544, .f32⟩
  | .local .tc .vmem, ⟨7, _⟩ => ⟨S544x16, .bf16⟩
  | .local .tc .vmem, ⟨8, _⟩ => ⟨S1x16, .f32⟩
  | .local .tc .vmem, ⟨9, _⟩ => ⟨S6400x16, .f32⟩
  | .local .tc .vmem, ⟨10, _⟩ => ⟨S6400x16, .f32⟩
  | .shared, ⟨0, _⟩ => ⟨S10000x128, .f32⟩
  | .local .scVector .vmem, ⟨0, _⟩ => ⟨S10000, .i32⟩
  | .local .scVector .vmem, ⟨1, _⟩ => ⟨S10000, .i32⟩
  | .local .scVector .vmem, ⟨2, _⟩ => ⟨S40x128, .f32⟩
  | .local .scVector .vmem, ⟨3, _⟩ => ⟨S40x128, .f32⟩
  | .local .scVector .vmem, ⟨4, _⟩ => ⟨S40x128, .f32⟩
  | .local .scVector .vmem, ⟨5, _⟩ => ⟨S40x128, .f32⟩
  | _, _ => ⟨S10000x128, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 5 → Bool
  | ⟨0, _⟩ => false
  | ⟨1, _⟩ => false
  | ⟨2, _⟩ => false
  | ⟨3, _⟩ => false
  | ⟨4, _⟩ => false
  | _ => false

abbrev dmaSemScoped : Fin 23 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTables nBuf rfl bufTy 5 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_arg0_scv : Ref sig .scVector := ⟨.hbm, 0, rfl⟩
abbrev main_arg6_scv : Ref sig .scVector := ⟨.hbm, 6, rfl⟩
abbrev main_arg7_scv : Ref sig .scVector := ⟨.hbm, 7, rfl⟩
abbrev main_v9_scv : Ref sig .scVector := ⟨.hbm, 17, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg3_0 : Ref sig .tc := ⟨.vmem, 5, rfl⟩
abbrev cc1_stg4_0 : Ref sig .tc := ⟨.vmem, 6, rfl⟩
abbrev cc1_stg5_0 : Ref sig .tc := ⟨.vmem, 7, rfl⟩
abbrev cc1_stg6_0 : Ref sig .tc := ⟨.vmem, 8, rfl⟩
abbrev cc1_stg7_0 : Ref sig .tc := ⟨.vmem, 9, rfl⟩
abbrev cc1_stg7_1 : Ref sig .tc := ⟨.vmem, 10, rfl⟩
abbrev cc0_scratch0 : Ref sig .scVector := ⟨.shared, 0, rfl⟩
abbrev cc0_scratch1 : Ref sig .scVector := ⟨.vmem, 0, rfl⟩
abbrev cc0_scratch2 : Ref sig .scVector := ⟨.vmem, 1, rfl⟩
abbrev cc0_scratch3 : Ref sig .scVector := ⟨.vmem, 2, rfl⟩
abbrev cc0_scratch4 : Ref sig .scVector := ⟨.vmem, 3, rfl⟩
abbrev cc0_scratch5 : Ref sig .scVector := ⟨.vmem, 4, rfl⟩
abbrev cc0_scratch6 : Ref sig .scVector := ⟨.vmem, 5, rfl⟩
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem7_0 : DmaSem sig := 21
abbrev cc1_sem7_1 : DmaSem sig := 22
abbrev sc_start : Sem sig := 0
abbrev sc_done : Sem sig := 1
abbrev sc_go : Sem sig := 2
abbrev sc_taskDone : Sem sig := 3
abbrev sc_bar0 : Sem sig := 4

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg1 : BitVec 32 := BitVec.ofNat 32 (i 1).val
  let c624_i32_0 : BitVec 32 := 624#32
  let v4 : BitVec 32 := Scalar.muli arg1 c624_i32_0
  let c0_i32_52_r0 : BitVec 32 := 0#32
  ![v4.toNat, 0]
def k0_off2 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10000_i32 : BitVec 32 := 10000#32
  let v2 : BitVec 32 := Scalar.muli v1 c10000_i32
  ![v2.toNat]
def k0_mult1 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10000_i32 : BitVec 32 := 10000#32
  let v2 : BitVec 32 := Scalar.muli v1 c10000_i32
  let c0_i32_18 : BitVec 32 := 0#32
  let v20 : BitVec 32 := Scalar.addi v2 c0_i32_18
  v20
def k0_off3 (i : grid0.Coords) (c0_i32_18 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10000_i32 : BitVec 32 := 10000#32
  let v2 : BitVec 32 := Scalar.muli v1 c10000_i32
  let v20 : BitVec 32 := Scalar.addi v2 c0_i32_18
  let v21 : BitVec 32 := v20
  let c0_i32_19 : BitVec 32 := 0#32
  ![v21.toNat, 0]
def k0_off4 (i : grid0.Coords) (c0_i32_18 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10000_i32 : BitVec 32 := 10000#32
  let v2 : BitVec 32 := Scalar.muli v1 c10000_i32
  let v20 : BitVec 32 := Scalar.addi v2 c0_i32_18
  let v21 : BitVec 32 := v20
  let c128_i32 : BitVec 32 := 128#32
  ![v21.toNat, 128]
def k0_mult2 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10000_i32 : BitVec 32 := 10000#32
  let v2 : BitVec 32 := Scalar.muli v1 c10000_i32
  let c40_i32_28 : BitVec 32 := 40#32
  let v30 : BitVec 32 := Scalar.addi v2 c40_i32_28
  v30
@[reducible] def k0_t1_loop : Scf.Loop 32 :=
  let c1_i32 : BitVec 32 := 1#32
  let c124_i32 : BitVec 32 := 124#32
  let v36 : BitVec 32 := Scalar.addi c1_i32 c124_i32
  let c1_i32_34 : BitVec 32 := 1#32
  ⟨c1_i32, v36, c1_i32_34⟩
def k0_off5 (k0_t1 : Fin k0_t1_loop.trips) (c0_i32_61 : BitVec 32) : Fin 1 → Nat :=
  let c1_i32 : BitVec 32 := 1#32
  let c1_i32_34 : BitVec 32 := 1#32
  let arg21 : BitVec 32 := Scf.iv c1_i32 c1_i32_34 k0_t1
  let c2_i32_52 : BitVec 32 := 2#32
  let v45 : BitVec 32 := Scalar.muli arg21 c2_i32_52
  let v50 : BitVec 32 := Scalar.addi v45 c0_i32_61
  let c40_i32_62 : BitVec 32 := 40#32
  let v51 : BitVec 32 := Scalar.muli v50 c40_i32_62
  ![v51.toNat]
def k0_mult3 (i : grid0.Coords) (k0_t1 : Fin k0_t1_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10000_i32 : BitVec 32 := 10000#32
  let v2 : BitVec 32 := Scalar.muli v1 c10000_i32
  let c1_i32 : BitVec 32 := 1#32
  let c1_i32_34 : BitVec 32 := 1#32
  let arg21 : BitVec 32 := Scf.iv c1_i32 c1_i32_34 k0_t1
  let c2_i32_52 : BitVec 32 := 2#32
  let v45 : BitVec 32 := Scalar.muli arg21 c2_i32_52
  let c0_i32_87 : BitVec 32 := 0#32
  let v72 : BitVec 32 := Scalar.addi v45 c0_i32_87
  let c40_i32_88 : BitVec 32 := 40#32
  let v73 : BitVec 32 := Scalar.muli v72 c40_i32_88
  let v74 : BitVec 32 := Scalar.addi v2 v73
  v74
def k0_off6 (i : grid0.Coords) (k0_t1 : Fin k0_t1_loop.trips) (c0_i32_87 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10000_i32 : BitVec 32 := 10000#32
  let v2 : BitVec 32 := Scalar.muli v1 c10000_i32
  let c1_i32 : BitVec 32 := 1#32
  let c1_i32_34 : BitVec 32 := 1#32
  let arg21 : BitVec 32 := Scf.iv c1_i32 c1_i32_34 k0_t1
  let c2_i32_52 : BitVec 32 := 2#32
  let v45 : BitVec 32 := Scalar.muli arg21 c2_i32_52
  let v72 : BitVec 32 := Scalar.addi v45 c0_i32_87
  let c40_i32_88 : BitVec 32 := 40#32
  let v73 : BitVec 32 := Scalar.muli v72 c40_i32_88
  let v74 : BitVec 32 := Scalar.addi v2 v73
  let v75 : BitVec 32 := v74
  let c0_i32_89 : BitVec 32 := 0#32
  ![v75.toNat, 0]
def k0_off7 (i : grid0.Coords) (k0_t1 : Fin k0_t1_loop.trips) (c0_i32_87 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10000_i32 : BitVec 32 := 10000#32
  let v2 : BitVec 32 := Scalar.muli v1 c10000_i32
  let c1_i32 : BitVec 32 := 1#32
  let c1_i32_34 : BitVec 32 := 1#32
  let arg21 : BitVec 32 := Scf.iv c1_i32 c1_i32_34 k0_t1
  let c2_i32_52 : BitVec 32 := 2#32
  let v45 : BitVec 32 := Scalar.muli arg21 c2_i32_52
  let v72 : BitVec 32 := Scalar.addi v45 c0_i32_87
  let c40_i32_88 : BitVec 32 := 40#32
  let v73 : BitVec 32 := Scalar.muli v72 c40_i32_88
  let v74 : BitVec 32 := Scalar.addi v2 v73
  let v75 : BitVec 32 := v74
  let c128_i32_91 : BitVec 32 := 128#32
  ![v75.toNat, 128]
def k0_mult4 (i : grid0.Coords) (k0_t1 : Fin k0_t1_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10000_i32 : BitVec 32 := 10000#32
  let v2 : BitVec 32 := Scalar.muli v1 c10000_i32
  let c1_i32 : BitVec 32 := 1#32
  let c1_i32_34 : BitVec 32 := 1#32
  let arg21 : BitVec 32 := Scf.iv c1_i32 c1_i32_34 k0_t1
  let c2_i32_52 : BitVec 32 := 2#32
  let v45 : BitVec 32 := Scalar.muli arg21 c2_i32_52
  let c1_i32_97 : BitVec 32 := 1#32
  let v84 : BitVec 32 := Scalar.addi v45 c1_i32_97
  let c40_i32_98 : BitVec 32 := 40#32
  let v85 : BitVec 32 := Scalar.muli v84 c40_i32_98
  let v86 : BitVec 32 := Scalar.addi v2 v85
  v86
abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S6400x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S6400x16 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x544 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S16x544 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x544 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S544x16 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x16 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S6400x16 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  transposes_S544x272_S272x544_1_0 : S544x272.Transposes [1, 0] S272x544
  slices_S272x544_S256x544_0_0 : S272x544.Slices ![0, 0] S256x544
  bitsLt_bf16_f32 : FTy.bits .bf16 < FTy.bits .f32
  slices_S272x544_S16x544_256_0 : S272x544.Slices ![256, 0] S16x544
  shapeCasts_S544_S1x544 : S544.ShapeCasts S1x544
  transposes_S16x544_S544x16_1_0 : S16x544.Transposes [1, 0] S544x16
  shapeCasts_S16_S1x16 : S16.ShapeCasts S1x16
  inb_S10000x128_S16x128_9984_0 : ∀ a, (![9984, 0] : Fin 2 → Nat) a + S16x128.size a ≤ S10000x128.size a
  inb_S10000_S40_0 : ∀ a, (![0] : Fin 1 → Nat) a + S40.size a ≤ S10000.size a
  inb_S10000x128_S10000x128_0_0 : ∀ a, (![0, 0] : Fin 2 → Nat) a + S10000x128.size a ≤ S10000x128.size a
  gathers_S10000x128_S40x128 : S10000x128.Gathers 0 S40x128
  inb_S10000_S40_40 : ∀ a, (![40] : Fin 1 → Nat) a + S40.size a ≤ S10000.size a
  inb_S320000x256_S40x128_0_0 : ∀ a, (![0, 0] : Fin 2 → Nat) a + S40x128.size a ≤ S320000x256.size a
  inb_S320000x256_S40x128_0_128 : ∀ a, (![0, 128] : Fin 2 → Nat) a + S40x128.size a ≤ S320000x256.size a
  inb_S6400x256_S6400x256_0_0 : ∀ a, (![0, 0] : Fin 2 → Nat) a + S6400x256.size a ≤ S6400x256.size a
  h_S6400x256 : 0 < S6400x256.numel
  shapeCasts_S6400x256_S6400x256 : S6400x256.ShapeCasts S6400x256
  inb_S256x544_S256x544_0_0 : ∀ a, (![0, 0] : Fin 2 → Nat) a + S256x544.size a ≤ S256x544.size a
  h_S256x544 : 0 < S256x544.numel
  shapeCasts_S256x544_S256x544 : S256x544.ShapeCasts S256x544
  inb_S6400x16_S6400x16_0_0 : ∀ a, (![0, 0] : Fin 2 → Nat) a + S6400x16.size a ≤ S6400x16.size a
  h_S6400x16 : 0 < S6400x16.numel
  inb_S16x544_S16x544_0_0 : ∀ a, (![0, 0] : Fin 2 → Nat) a + S16x544.size a ≤ S16x544.size a
  h_S16x544 : 0 < S16x544.numel
  shapeCasts_S16x544_S16x544 : S16x544.ShapeCasts S16x544
  inb_S1x544_S1x544_0_0 : ∀ a, (![0, 0] : Fin 2 → Nat) a + S1x544.size a ≤ S1x544.size a
  h_S1x544 : 0 < S1x544.numel
  shapeCasts_S1x544_S1x544 : S1x544.ShapeCasts S1x544
  broadcasts_S1x544_S6400x544 : S1x544.Broadcasts S6400x544
  inb_S544x16_S544x16_0_0 : ∀ a, (![0, 0] : Fin 2 → Nat) a + S544x16.size a ≤ S544x16.size a
  h_S544x16 : 0 < S544x16.numel
  shapeCasts_S544x16_S544x16 : S544x16.ShapeCasts S544x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S6400x16 : S1x16.Broadcasts S6400x16
  dot_S6400x256_S256x544_S6400x544_1_0_0_1_n_n_wf : DotDims.WF S6400x256 S256x544 S6400x544 [1] [0] [0] [1] [] []
  dot_S6400x16_S16x544_S6400x544_1_0_0_1_n_n_wf : DotDims.WF S6400x16 S16x544 S6400x544 [1] [0] [0] [1] [] []
  dot_S6400x544_S544x16_S6400x16_1_0_0_1_n_n_wf : DotDims.WF S6400x544 S544x16 S6400x16 [1] [0] [0] [1] [] []
  hcc0_scratch7 : 0 + S_.numel ≤ 23
  hcc0_scratch8 : 1 + S_.numel ≤ 23
  hcc0_scratch9 : 2 + S_.numel ≤ 23
  hcc0_scratch10 : 3 + S_.numel ≤ 23
  hcc0_scratch11 : 4 + S_.numel ≤ 23
  hcc0_scratch12 : 5 + S_.numel ≤ 23
  hcc0_scratch13 : 6 + S_.numel ≤ 23
  hcc0_scratch14 : 7 + S_.numel ≤ 23
  hcc0_scoped0 : 8 + S_.numel ≤ 23
  hcc0_scoped1 : 9 + S_.numel ≤ 23
  hcc0_scoped2 : 10 + S_.numel ≤ 23
  hcc0_scoped3 : 11 + S_.numel ≤ 23
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S624x128.size a ≤ S10000x128.size a
  k0_off2_inb : ∀ i : grid0.Coords, ∀ a, (k0_off2 i) a + S10000.size a ≤ S320000.size a
  k0_mult1_dvd : ∀ i : grid0.Coords, 8 ∣ (k0_mult1 i).toNat
  k0_off3_inb : ∀ i : grid0.Coords, ∀ (r : Fin 2), ∀ a, (k0_off3 i (BitVec.ofNat 32 (40 * r.val))) a + S40x128.size a ≤ S320000x256.size a
  k0_off4_inb : ∀ i : grid0.Coords, ∀ (r : Fin 2), ∀ a, (k0_off4 i (BitVec.ofNat 32 (40 * r.val))) a + S40x128.size a ≤ S320000x256.size a
  k0_mult2_dvd : ∀ i : grid0.Coords, 8 ∣ (k0_mult2 i).toNat
  k0_t1_ok : k0_t1_loop.OK
  k0_off5_inb : ∀ k0_t1 : Fin k0_t1_loop.trips, ∀ (r : Fin 2), ∀ a, (k0_off5 k0_t1 (BitVec.ofNat 32 r.val)) a + S40.size a ≤ S10000.size a
  k0_mult3_dvd : ∀ (i : grid0.Coords) (k0_t1 : Fin k0_t1_loop.trips), 8 ∣ (k0_mult3 i k0_t1).toNat
  k0_off6_inb : ∀ (i : grid0.Coords) (k0_t1 : Fin k0_t1_loop.trips), ∀ (r : Fin 2), ∀ a, (k0_off6 i k0_t1 (BitVec.ofNat 32 r.val)) a + S40x128.size a ≤ S320000x256.size a
  k0_off7_inb : ∀ (i : grid0.Coords) (k0_t1 : Fin k0_t1_loop.trips), ∀ (r : Fin 2), ∀ a, (k0_off7 i k0_t1 (BitVec.ofNat 32 r.val)) a + S40x128.size a ≤ S320000x256.size a
  k0_mult4_dvd : ∀ (i : grid0.Coords) (k0_t1 : Fin k0_t1_loop.trips), 8 ∣ (k0_mult4 i k0_t1).toNat
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S6400x256.size a ≤ S320000x256.size a
  hwx1_0 : ∀ i : grid1.Coords, EltTy.bits .f32 = 32 ∨ (Rect.block (s := S320000x256) S6400x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S6400x16.size a ≤ S320000x16.size a
  hwx1_1 : ∀ i : grid1.Coords, EltTy.bits .f32 = 32 ∨ (Rect.block (s := S320000x16) S6400x16.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x544.size a ≤ S256x544.size a
  hwx1_2 : ∀ i : grid1.Coords, EltTy.bits .bf16 = 32 ∨ (Rect.block (s := S256x544) S256x544.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S16x544.size a ≤ S16x544.size a
  hwx1_3 : ∀ i : grid1.Coords, EltTy.bits .bf16 = 32 ∨ (Rect.block (s := S16x544) S16x544.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x544.size a ≤ S1x544.size a
  hwx1_4 : ∀ i : grid1.Coords, EltTy.bits .f32 = 32 ∨ (Rect.block (s := S1x544) S1x544.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S544x16.size a ≤ S544x16.size a
  hwx1_5 : ∀ i : grid1.Coords, EltTy.bits .bf16 = 32 ∨ (Rect.block (s := S544x16) S544x16.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x16.size a ≤ S1x16.size a
  hwx1_6 : ∀ i : grid1.Coords, EltTy.bits .f32 = 32 ∨ (Rect.block (s := S1x16) S1x16.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S6400x16.size a ≤ S320000x16.size a
  hwx1_7 : ∀ i : grid1.Coords, EltTy.bits .f32 = 32 ∨ (Rect.block (s := S320000x16) S6400x16.size (cc1_transform_7 i) (hinb1_7 i)).WholeWords (EltTy.packing .f32)

variable [Facts₀]

abbrev cc0_scratch7 : DmaSems sig S_ := SemArray.consecutive 0 S_ hcc0_scratch7
abbrev cc0_scratch8 : DmaSems sig S_ := SemArray.consecutive 1 S_ hcc0_scratch8
abbrev cc0_scratch9 : DmaSems sig S_ := SemArray.consecutive 2 S_ hcc0_scratch9
abbrev cc0_scratch10 : DmaSems sig S_ := SemArray.consecutive 3 S_ hcc0_scratch10
abbrev cc0_scratch11 : DmaSems sig S_ := SemArray.consecutive 4 S_ hcc0_scratch11
abbrev cc0_scratch12 : DmaSems sig S_ := SemArray.consecutive 5 S_ hcc0_scratch12
abbrev cc0_scratch13 : DmaSems sig S_ := SemArray.consecutive 6 S_ hcc0_scratch13
abbrev cc0_scratch14 : DmaSems sig S_ := SemArray.consecutive 7 S_ hcc0_scratch14
abbrev cc0_scoped0 : DmaSems sig S_ := SemArray.consecutive 8 S_ hcc0_scoped0
abbrev cc0_scoped1 : DmaSems sig S_ := SemArray.consecutive 9 S_ hcc0_scoped1
abbrev cc0_scoped2 : DmaSems sig S_ := SemArray.consecutive 10 S_ hcc0_scoped2
abbrev cc0_scoped3 : DmaSems sig S_ := SemArray.consecutive 11 S_ hcc0_scoped3
def dot_S6400x256_S256x544_S6400x544_1_0_0_1_n_n : DotDims S6400x256 S256x544 S6400x544 where
  lhsContracting := [1]
  rhsContracting := [0]
  lhsNonContracting := [0]
  rhsNonContracting := [1]
  lhsBatch := []
  rhsBatch := []
  wf := dot_S6400x256_S256x544_S6400x544_1_0_0_1_n_n_wf
def dot_S6400x16_S16x544_S6400x544_1_0_0_1_n_n : DotDims S6400x16 S16x544 S6400x544 where
  lhsContracting := [1]
  rhsContracting := [0]
  lhsNonContracting := [0]
  rhsNonContracting := [1]
  lhsBatch := []
  rhsBatch := []
  wf := dot_S6400x16_S16x544_S6400x544_1_0_0_1_n_n_wf
def dot_S6400x544_S544x16_S6400x16_1_0_0_1_n_n : DotDims S6400x544 S544x16 S6400x16 where
  lhsContracting := [1]
  rhsContracting := [0]
  lhsNonContracting := [0]
  rhsNonContracting := [1]
  lhsBatch := []
  rhsBatch := []
  wf := dot_S6400x544_S544x16_S6400x16_1_0_0_1_n_n_wf

abbrev win1_0 : Pipeline.Window sig grid1 :=
  Pipeline.Window.ofSpec (Memref.whole main_v9) S6400x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S6400x16.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S256x544.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v4) S16x544.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v5) S1x544.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v7) S544x16.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v8) S1x16.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v10) S6400x16.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S10000x128 : Shape := ⟨2, ![10000, 128]⟩
abbrev S320000x16 : Shape := ⟨2, ![320000, 16]⟩
abbrev S544x272 : Shape := ⟨2, ![544, 272]⟩
abbrev S544 : Shape := ⟨1, ![544]⟩
abbrev S16x544 : Shape := ⟨2, ![16, 544]⟩
abbrev S16 : Shape := ⟨1, ![16]⟩
abbrev S320000 : Shape := ⟨1, ![320000]⟩
abbrev S_ : Shape := ⟨0, ![]⟩
abbrev S320000x1 : Shape := ⟨2, ![320000, 1]⟩
abbrev S1 : Shape := ⟨1, ![1]⟩
abbrev S1x1 : Shape := ⟨2, ![1, 1]⟩
abbrev S320000x128 : Shape := ⟨2, ![320000, 128]⟩
abbrev S320000x272 : Shape := ⟨2, ![320000, 272]⟩
abbrev S272x544 : Shape := ⟨2, ![272, 544]⟩
abbrev S320000x544 : Shape := ⟨2, ![320000, 544]⟩
abbrev S1x544 : Shape := ⟨2, ![1, 544]⟩
abbrev S544x16 : Shape := ⟨2, ![544, 16]⟩
abbrev S1x16 : Shape := ⟨2, ![1, 16]⟩

abbrev nBuf : Space → Nat
  | .hbm => 73
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S320000x16, .f32⟩
  | .hbm, ⟨2, _⟩ => ⟨S544x272, .f32⟩
  | .hbm, ⟨3, _⟩ => ⟨S544, .f32⟩
  | .hbm, ⟨4, _⟩ => ⟨S16x544, .f32⟩
  | .hbm, ⟨5, _⟩ => ⟨S16, .f32⟩
  | .hbm, ⟨6, _⟩ => ⟨S320000, .i32⟩
  | .hbm, ⟨7, _⟩ => ⟨S320000, .i32⟩
  | .hbm, ⟨8, _⟩ => ⟨S_, .i32⟩
  | .hbm, ⟨9, _⟩ => ⟨S320000, .i32⟩
  | .hbm, ⟨10, _⟩ => ⟨S320000, .i1⟩
  | .hbm, ⟨11, _⟩ => ⟨S_, .i32⟩
  | .hbm, ⟨12, _⟩ => ⟨S320000, .i32⟩
  | .hbm, ⟨13, _⟩ => ⟨S320000, .i32⟩
  | .hbm, ⟨14, _⟩ => ⟨S320000, .i32⟩
  | .hbm, ⟨15, _⟩ => ⟨S320000x1, .i32⟩
  | .hbm, ⟨16, _⟩ => ⟨S1, .i32⟩
  | .hbm, ⟨17, _⟩ => ⟨S_, .i32⟩
  | .hbm, ⟨18, _⟩ => ⟨S320000x1, .i32⟩
  | .hbm, ⟨19, _⟩ => ⟨S320000x1, .i1⟩
  | .hbm, ⟨20, _⟩ => ⟨S1x1, .i32⟩
  | .hbm, ⟨21, _⟩ => ⟨S320000x1, .i32⟩
  | .hbm, ⟨22, _⟩ => ⟨S320000x1, .i1⟩
  | .hbm, ⟨23, _⟩ => ⟨S320000x1, .i1⟩
  | .hbm, ⟨24, _⟩ => ⟨S_, .i1⟩
  | .hbm, ⟨25, _⟩ => ⟨S320000, .i1⟩
  | .hbm, ⟨26, _⟩ => ⟨S320000x128, .f32⟩
  | .hbm, ⟨27, _⟩ => ⟨S320000x128, .i1⟩
  | .hbm, ⟨28, _⟩ => ⟨S_, .f32⟩
  | .hbm, ⟨29, _⟩ => ⟨S320000x128, .f32⟩
  | .hbm, ⟨30, _⟩ => ⟨S320000x128, .f32⟩
  | .hbm, ⟨31, _⟩ => ⟨S_, .i32⟩
  | .hbm, ⟨32, _⟩ => ⟨S320000, .i32⟩
  | .hbm, ⟨33, _⟩ => ⟨S320000, .i1⟩
  | .hbm, ⟨34, _⟩ => ⟨S_, .i32⟩
  | .hbm, ⟨35, _⟩ => ⟨S320000, .i32⟩
  | .hbm, ⟨36, _⟩ => ⟨S320000, .i32⟩
  | .hbm, ⟨37, _⟩ => ⟨S320000, .i32⟩
  | .hbm, ⟨38, _⟩ => ⟨S320000x1, .i32⟩
  | .hbm, ⟨39, _⟩ => ⟨S1, .i32⟩
  | .hbm, ⟨40, _⟩ => ⟨S_, .i32⟩
  | .hbm, ⟨41, _⟩ => ⟨S320000x1, .i32⟩
  | .hbm, ⟨42, _⟩ => ⟨S320000x1, .i1⟩
  | .hbm, ⟨43, _⟩ => ⟨S1x1, .i32⟩
  | .hbm, ⟨44, _⟩ => ⟨S320000x1, .i32⟩
  | .hbm, ⟨45, _⟩ => ⟨S320000x1, .i1⟩
  | .hbm, ⟨46, _⟩ => ⟨S320000x1, .i1⟩
  | .hbm, ⟨47, _⟩ => ⟨S_, .i1⟩
  | .hbm, ⟨48, _⟩ => ⟨S320000, .i1⟩
  | .hbm, ⟨49, _⟩ => ⟨S320000x128, .f32⟩
  | .hbm, ⟨50, _⟩ => ⟨S320000x128, .i1⟩
  | .hbm, ⟨51, _⟩ => ⟨S_, .f32⟩
  | .hbm, ⟨52, _⟩ => ⟨S320000x128, .f32⟩
  | .hbm, ⟨53, _⟩ => ⟨S320000x128, .f32⟩
  | .hbm, ⟨54, _⟩ => ⟨S320000x272, .f32⟩
  | .hbm, ⟨55, _⟩ => ⟨S272x544, .f32⟩
  | .hbm, ⟨56, _⟩ => ⟨S320000x544, .f32⟩
  | .hbm, ⟨57, _⟩ => ⟨S1x544, .f32⟩
  | .hbm, ⟨58, _⟩ => ⟨S320000x544, .f32⟩
  | .hbm, ⟨59, _⟩ => ⟨S320000x544, .f32⟩
  | .hbm, ⟨60, _⟩ => ⟨S320000x544, .f32⟩
  | .hbm, ⟨61, _⟩ => ⟨S320000x544, .f32⟩
  | .hbm, ⟨62, _⟩ => ⟨S_, .f32⟩
  | .hbm, ⟨63, _⟩ => ⟨S320000x544, .f32⟩
  | .hbm, ⟨64, _⟩ => ⟨S320000x544, .f32⟩
  | .hbm, ⟨65, _⟩ => ⟨S_, .f32⟩
  | .hbm, ⟨66, _⟩ => ⟨S320000x544, .f32⟩
  | .hbm, ⟨67, _⟩ => ⟨S320000x544, .f32⟩
  | .hbm, ⟨68, _⟩ => ⟨S544x16, .f32⟩
  | .hbm, ⟨69, _⟩ => ⟨S320000x16, .f32⟩
  | .hbm, ⟨70, _⟩ => ⟨S1x16, .f32⟩
  | .hbm, ⟨71, _⟩ => ⟨S320000x16, .f32⟩
  | .hbm, ⟨72, _⟩ => ⟨S320000x16, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_c : Ref sig .tc := ⟨.hbm, 8, rfl⟩
abbrev main_call0_v0 : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_c_1 : Ref sig .tc := ⟨.hbm, 16, rfl⟩
abbrev main_call0_c_2 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_3 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_call0_cst : Ref sig .tc := ⟨.hbm, 28, rfl⟩
abbrev main_call0_v15 : Ref sig .tc := ⟨.hbm, 29, rfl⟩
abbrev main_v0 : Ref sig .tc := ⟨.hbm, 30, rfl⟩
abbrev main_call1_c : Ref sig .tc := ⟨.hbm, 31, rfl⟩
abbrev main_call1_v0 : Ref sig .tc := ⟨.hbm, 32, rfl⟩
abbrev main_call1_v1 : Ref sig .tc := ⟨.hbm, 33, rfl⟩
abbrev main_call1_c_0 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_call1_v5 : Ref sig .tc := ⟨.hbm, 38, rfl⟩
abbrev main_call1_c_1 : Ref sig .tc := ⟨.hbm, 39, rfl⟩
abbrev main_call1_c_2 : Ref sig .tc := ⟨.hbm, 40, rfl⟩
abbrev main_call1_v6 : Ref sig .tc := ⟨.hbm, 41, rfl⟩
abbrev main_call1_v7 : Ref sig .tc := ⟨.hbm, 42, rfl⟩
abbrev main_call1_v8 : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_call1_c_3 : Ref sig .tc := ⟨.hbm, 47, rfl⟩
abbrev main_call1_v12 : Ref sig .tc := ⟨.hbm, 48, rfl⟩
abbrev main_call1_v13 : Ref sig .tc := ⟨.hbm, 49, rfl⟩
abbrev main_call1_v14 : Ref sig .tc := ⟨.hbm, 50, rfl⟩
abbrev main_call1_cst : Ref sig .tc := ⟨.hbm, 51, rfl⟩
abbrev main_call1_v15 : Ref sig .tc := ⟨.hbm, 52, rfl⟩
abbrev main_v1 : Ref sig .tc := ⟨.hbm, 53, rfl⟩
abbrev main_v2 : Ref sig .tc := ⟨.hbm, 54, rfl⟩
abbrev main_v3 : Ref sig .tc := ⟨.hbm, 55, rfl⟩
abbrev main_v4 : Ref sig .tc := ⟨.hbm, 56, rfl⟩
abbrev main_v5 : Ref sig .tc := ⟨.hbm, 57, rfl⟩
abbrev main_v6 : Ref sig .tc := ⟨.hbm, 58, rfl⟩
abbrev main_v7 : Ref sig .tc := ⟨.hbm, 59, rfl⟩
abbrev main_v8 : Ref sig .tc := ⟨.hbm, 60, rfl⟩
abbrev main_v9 : Ref sig .tc := ⟨.hbm, 61, rfl⟩
abbrev main_cst : Ref sig .tc := ⟨.hbm, 62, rfl⟩
abbrev main_v10 : Ref sig .tc := ⟨.hbm, 63, rfl⟩
abbrev main_v11 : Ref sig .tc := ⟨.hbm, 64, rfl⟩
abbrev main_cst_0 : Ref sig .tc := ⟨.hbm, 65, rfl⟩
abbrev main_v12 : Ref sig .tc := ⟨.hbm, 66, rfl⟩
abbrev main_v13 : Ref sig .tc := ⟨.hbm, 67, rfl⟩
abbrev main_v14 : Ref sig .tc := ⟨.hbm, 68, rfl⟩
abbrev main_v15 : Ref sig .tc := ⟨.hbm, 69, rfl⟩
abbrev main_v16 : Ref sig .tc := ⟨.hbm, 70, rfl⟩
abbrev main_v17 : Ref sig .tc := ⟨.hbm, 71, rfl⟩
abbrev main_v18 : Ref sig .tc := ⟨.hbm, 72, rfl⟩

abbrev nD : Nat := 1
abbrev τ : Topo := Topo.v7x

variable {F : FTy → Type} [FloatOps F]

class Facts₀ : Prop where
  bcast_S_S320000 : S_.BroadcastsInDim S320000 (![] : Fin 0 → Fin S320000.rank)
  bcast_S320000_S320000x1_0 : S320000.BroadcastsInDim S320000x1 (![0] : Fin 1 → Fin S320000x1.rank)
  bcast_S_S320000x1 : S_.BroadcastsInDim S320000x1 (![] : Fin 0 → Fin S320000x1.rank)
  bcast_S1_S1x1_1 : S1.BroadcastsInDim S1x1 (![1] : Fin 1 → Fin S1x1.rank)
  bcast_S1x1_S320000x1_0_1 : S1x1.BroadcastsInDim S320000x1 (![0, 1] : Fin 2 → Fin S320000x1.rank)
  reducesTo_S320000x1_S320000_d1 : S320000x1.ReducesTo [1] S320000
  h_S_ : 0 < S_.numel
  bcast_S320000_S320000x128_0 : S320000.BroadcastsInDim S320000x128 (![0] : Fin 1 → Fin S320000x128.rank)
  bcast_S_S320000x128 : S_.BroadcastsInDim S320000x128 (![] : Fin 0 → Fin S320000x128.rank)
  concatenates_S320000x128_S320000x128_S320000x16_S320000x272_d1 : Shape.Concatenates [S320000x128, S320000x128, S320000x16] S320000x272 1
  transposes_S544x272_S272x544_1_0 : S544x272.Transposes [1, 0] S272x544
  bcast_S544_S1x544_1 : S544.BroadcastsInDim S1x544 (![1] : Fin 1 → Fin S1x544.rank)
  bcast_S1x544_S320000x544_0_1 : S1x544.BroadcastsInDim S320000x544 (![0, 1] : Fin 2 → Fin S320000x544.rank)
  bcast_S_S320000x544 : S_.BroadcastsInDim S320000x544 (![] : Fin 0 → Fin S320000x544.rank)
  transposes_S16x544_S544x16_1_0 : S16x544.Transposes [1, 0] S544x16
  bcast_S16_S1x16_1 : S16.BroadcastsInDim S1x16 (![1] : Fin 1 → Fin S1x16.rank)
  bcast_S1x16_S320000x16_0_1 : S1x16.BroadcastsInDim S320000x16 (![0, 1] : Fin 2 → Fin S320000x16.rank)
  gather_S10000x128_S320000x1_S320000x128_1_0_n_n_0_1_1128_wf : GatherDims.WF S10000x128 S320000x1 S320000x128 [1] [0] [] [0] [] 1 ![1, 128]
  dot_S320000x272_S272x544_S320000x544_1_0_0_1_n_n_wf : DotDims.WF S320000x272 S272x544 S320000x544 [1] [0] [0] [1] [] []
  dot_S320000x544_S544x16_S320000x16_1_0_0_1_n_n_wf : DotDims.WF S320000x544 S544x16 S320000x16 [1] [0] [0] [1] [] []

variable [Facts₀]

def gather_S10000x128_S320000x1_S320000x128_1_0_n_n_0_1_1128 : GatherDims S10000x128 S320000x1 S320000x128 where
  offsetDims := [1]
  collapsedSliceDims := [0]
  operandBatchingDims := []
  startIndicesBatchingDims := []
  startIndexMap := [0]
  indexVectorDim := 1
  sliceSizes := ![1, 128]
  wf := gather_S10000x128_S320000x1_S320000x128_1_0_n_n_0_1_1128_wf
def dot_S320000x272_S272x544_S320000x544_1_0_0_1_n_n : DotDims S320000x272 S272x544 S320000x544 where
  lhsContracting := [1]
  rhsContracting := [0]
  lhsNonContracting := [0]
  rhsNonContracting := [1]
  lhsBatch := []
  rhsBatch := []
  wf := dot_S320000x272_S272x544_S320000x544_1_0_0_1_n_n_wf
def dot_S320000x544_S544x16_S320000x16_1_0_0_1_n_n : DotDims S320000x544 S544x16 S320000x16 where
  lhsContracting := [1]
  rhsContracting := [0]
  lhsNonContracting := [0]
  rhsNonContracting := [1]
  lhsBatch := []
  rhsBatch := []
  wf := dot_S320000x544_S544x16_S320000x16_1_0_0_1_n_n_wf

class Facts : Prop extends Facts₀ where

variable [Facts]
-- ==== Proof.ScSetup.lean ====
/-
  The SparseCore program as the launch theorem reads it: its configuration, the body table, the side facts of the
  handshake semaphores, and the resource algebra of the proof — the handshakes' rounds, the subcore barrier's rounds,
  the TensorCore pipeline's rounds and the counters of the tiles' own transfers.
-/
import proofs.«206088_g82248623718559_cont_9to1c4b_230_21_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«206088_g82248623718559_cont_9to1c4b_230_21_alg».proof.Proof.Gen.KernelIdeal
import proofs.«206088_g82248623718559_cont_9to1c4b_230_21_alg».proof.Proof.Gen.KernelIdeal.Skeleton

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev coreOf (c : Fin ((K (F := F)).nCore 0)) : Fin τ.nSC := (K (F := F)).core 0 c
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UB : Type := URounds (GSem nD τ sig) ℕ
abbrev UR : Type := URounds (GSem nD τ sig) Unit
abbrev UU : Type := UH × (UB × (UR × Counters))

local notation "𝕄" => MT nD τ sig (HIx 1) (Elt F) ℕ UU ℕ

abbrev EH : Emb UH (MT nD τ sig (HIx 1) (Elt F) ℕ UU ℕ) := embL
/-- The barrier cells' rounds: the first component of the right factor. -/
def EB : Emb UB (MT nD τ sig (HIx 1) (Elt F) ℕ UU ℕ) :=
  ((Emb.inl : Emb UB (UB × (UR × Counters))).trans (Emb.inr : Emb (UB × (UR × Counters)) UU)).trans
    (uEmb (nD := nD) (sig := sig) (Ix := HIx 1) (Val := Elt F) (Name := ℕ) (U := UU) (Lvl := ℕ)).toEmb
instance EB_landsIn : (EB : Emb UB 𝕄).LandsIn (upEmb : UEmb _ 𝕄) := by unfold EB; infer_instance
/-- The pipeline's staging cells' rounds: the second component of the right factor. -/
def ER : Emb UR (MT nD τ sig (HIx 1) (Elt F) ℕ UU ℕ) :=
  (((Emb.inl : Emb UR (UR × Counters)).trans (Emb.inr : Emb (UR × Counters) (UB × (UR × Counters)))).trans
      (Emb.inr : Emb (UB × (UR × Counters)) UU)).trans
    (uEmb (nD := nD) (sig := sig) (Ix := HIx 1) (Val := Elt F) (Name := ℕ) (U := UU) (Lvl := ℕ)).toEmb
instance ER_landsIn : (ER : Emb UR 𝕄).LandsIn (upEmb : UEmb _ 𝕄) := by unfold ER; infer_instance

theorem nSub_eq : τ.nSub = 16 := rfl
theorem nSC_eq : τ.nSC = 2 := rfl

end Cert.Proof.KI

end
-- ==== Proof.ScRes.lean ====
/-
  The vocabulary of the SparseCore kernel's resources. Tile s of SparseCore c is tile number w = 2 s + c: it copies rows
  624 s … 624 s + 623 of the node table into its SparseCore's shared table (tile 15 also the last sixteen rows,
  9984 … 9999), reads entries 10000 w … 10000 w + 9999 of the two index arrays, and writes rows 10000 w … 10000 w + 9999
  of the gathered array. The blocks of the shared table are pairwise disjoint and cover it; so do the 32 row parts of
  the gathered array.
-/
import proofs.«206088_g82248623718559_cont_9to1c4b_230_21_alg».proof.Proof.ScSetup

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "nV" => (Memref.whole Cert.KernelIdeal.main_arg0_scv : Memref Cert.KernelIdeal.sig Kind.scVector Space.hbm Cert.KernelIdeal.S10000x128 EltTy.f32)
local notation "sV" => (Memref.whole Cert.KernelIdeal.main_arg6_scv : Memref Cert.KernelIdeal.sig Kind.scVector Space.hbm Cert.KernelIdeal.S320000 EltTy.i32)
local notation "rV" => (Memref.whole Cert.KernelIdeal.main_arg7_scv : Memref Cert.KernelIdeal.sig Kind.scVector Space.hbm Cert.KernelIdeal.S320000 EltTy.i32)
local notation "oV" => (Memref.whole Cert.KernelIdeal.main_v9_scv : Memref Cert.KernelIdeal.sig Kind.scVector Space.hbm Cert.KernelIdeal.S320000x256 EltTy.f32)
local notation "shV" => (Memref.whole Cert.KernelIdeal.cc0_scratch0 : Memref Cert.KernelIdeal.sig Kind.scVector Space.shared Cert.KernelIdeal.S10000x128 EltTy.f32)
local notation "isV" => (Memref.whole Cert.KernelIdeal.cc0_scratch1 : Memref Cert.KernelIdeal.sig Kind.scVector Space.vmem Cert.KernelIdeal.S10000 EltTy.i32)
local notation "irV" => (Memref.whole Cert.KernelIdeal.cc0_scratch2 : Memref Cert.KernelIdeal.sig Kind.scVector Space.vmem Cert.KernelIdeal.S10000 EltTy.i32)
local notation "b0V" => (Memref.whole Cert.KernelIdeal.cc0_scratch3 : Memref Cert.KernelIdeal.sig Kind.scVector Space.vmem Cert.KernelIdeal.S40x128 EltTy.f32)
local notation "b1V" => (Memref.whole Cert.KernelIdeal.cc0_scratch4 : Memref Cert.KernelIdeal.sig Kind.scVector Space.vmem Cert.KernelIdeal.S40x128 EltTy.f32)
local notation "b2V" => (Memref.whole Cert.KernelIdeal.cc0_scratch5 : Memref Cert.KernelIdeal.sig Kind.scVector Space.vmem Cert.KernelIdeal.S40x128 EltTy.f32)
local notation "b3V" => (Memref.whole Cert.KernelIdeal.cc0_scratch6 : Memref Cert.KernelIdeal.sig Kind.scVector Space.vmem Cert.KernelIdeal.S40x128 EltTy.f32)

/-! ## Places -/

abbrev cV (L : grid0.Coords) : Fin τ.nSC := (L 0).castLE hcore0
abbrev jV (L : grid0.Coords) : Fin τ.nSub := (L 1).castLE hsub0
def coordsV (c : Fin (grid0.bound 0)) (s : Fin (grid0.bound 1)) : grid0.Coords :=
  fun | 0 => c | 1 => s | ⟨_ + 2, h⟩ => absurd h (Nat.not_lt.2 (Nat.le_add_left _ _))

abbrev xLoc (d : Dev nD) : Loc nD τ sig := (SparseCore.T d).loc main_arg0
abbrev sLoc (d : Dev nD) : Loc nD τ sig := (SparseCore.T d).loc main_arg6
abbrev rLoc (d : Dev nD) : Loc nD τ sig := (SparseCore.T d).loc main_arg7
abbrev oLoc (d : Dev nD) : Loc nD τ sig := (SparseCore.T d).loc main_v9
/-- SparseCore c's shared table, as every tile of it addresses it. -/
abbrev shRef (c : Fin τ.nSC) : DevRef τ sig := ⟨.shared, ⟨0, by decide⟩, c⟩
abbrev shLoc (d : Dev nD) (c : Fin τ.nSC) : Loc nD τ sig := (d, shRef c)

/-! ## The shared table's blocks -/

/-- Tile L's block of 624 rows, as the kernel slices it. -/
abbrev blkRect (L : grid0.Coords) : Rect S10000x128 := Rect.unit (s := S10000x128) (k0_off1 L) S624x128.size (k0_off1_inb L)
abbrev blkSet (L : grid0.Coords) : Finset S10000x128.Idx := ((nV).view.slice (blkRect L)).set
abbrev shBlk (L : grid0.Coords) : Memref sig .scVector .shared S624x128 .f32 := (shV).slice (blkRect L) (fun _ => rfl)
/-- The last sixteen rows. -/
abbrev tailRect : Rect S10000x128 := Rect.unit (s := S10000x128) ![9984, 0] S16x128.size inb_S10000x128_S16x128_9984_0
abbrev tailSet : Finset S10000x128.Idx := ((nV).view.slice tailRect).set
abbrev shTail : Memref sig .scVector .shared S16x128 .f32 := (shV).slice tailRect (fun _ => rfl)

/-- What tile s contributes to the shared table: its block, and on tile 15 also the tail. -/
def blkAll (s : Fin 16) : Finset S10000x128.Idx :=
  blkSet (coordsV ⟨0, by decide⟩ ⟨s.val, s.isLt⟩) ∪ (if s.val = 15 then tailSet else ∅)

/-! ## The gathered array's row parts -/

theorem hdiv32 : 32 ∣ S320000x256.size 0 := ⟨10000, rfl⟩
/-- Worker w's rows of the gathered array: 10000 w … 10000 w + 9999, every column. -/
abbrev outRect (w : Fin 32) : Rect S320000x256 := Rect.part (s := S320000x256) (a₀ := 0) hdiv32 w
abbrev outSet (w : Fin 32) : Finset S320000x256.Idx := ((oV).view.slice (outRect w)).set
/-- The tile number of tile i of SparseCore c. -/
def wid (c : Fin τ.nSC) (i : Fin τ.nSub) : Fin 32 := ⟨2 * i.val + c.val, by have := c.isLt; have := i.isLt; simp only [nSC_eq, nSub_eq] at *; omega⟩

/-- The tail copy is made exactly on tile 15. -/
theorem tail_cond : ∀ L : grid0.Coords, (Scalar.cmpi CmpIPredicate.ne (Scalar.extui (Scalar.cmpi CmpIPredicate.eq (BitVec.ofNat 32 (L 1).val) 15#32)) 0#32 = 1#1) ↔ (L 1).val = 15 := by
  decide +kernel

variable (d : Dev nD) (L : grid0.Coords)

/-! ## The arrays as a tile's memrefs address them are the TensorCore's arrays -/

theorem pts_n (q : PosShare TreeShare) (f : Buf (Elt F) (xLoc d)) :
    ((nV).view.loc (V d (cV L) (jV L)) ↦{q} f : sProp 𝕄) = xLoc d ↦{q} f := by
  simp only [Memref.view_whole, View.set_whole]
theorem pts_s (q : PosShare TreeShare) (f : Buf (Elt F) (sLoc d)) :
    ((sV).view.loc (V d (cV L) (jV L)) ↦{q} f : sProp 𝕄) = sLoc d ↦{q} f := by
  simp only [Memref.view_whole, View.set_whole]
theorem pts_r (q : PosShare TreeShare) (f : Buf (Elt F) (rLoc d)) :
    ((rV).view.loc (V d (cV L) (jV L)) ↦{q} f : sProp 𝕄) = rLoc d ↦{q} f := by
  simp only [Memref.view_whole, View.set_whole]
theorem pts_sh (q : PosShare TreeShare) (f : Buf (Elt F) (shLoc d (cV L))) :
    ((shV).view.loc (V d (cV L) (jV L)) ↦{q} f : sProp 𝕄) = shLoc d (cV L) ↦{q} f := by
  simp only [Memref.view_whole, View.set_whole]; rfl
theorem pts_shBlk (q : PosShare TreeShare) (f : Buf (Elt F) (shLoc d (cV L))) :
    ((shBlk L).view.loc (V d (cV L) (jV L)) ↦[(shBlk L).view.set]{q} f : sProp 𝕄) = shLoc d (cV L) ↦[blkSet L]{q} f := rfl
theorem pts_shTail (q : PosShare TreeShare) (f : Buf (Elt F) (shLoc d (cV L))) :
    ((shTail).view.loc (V d (cV L) (jV L)) ↦[(shTail).view.set]{q} f : sProp 𝕄) = shLoc d (cV L) ↦[tailSet]{q} f := rfl
theorem pts_is (f : Buf (Elt F) ((V d (cV L) (jV L)).loc cc0_scratch1)) :
    ((isV).view.loc (V d (cV L) (jV L)) ↦{fullShare} f : sProp 𝕄) = (V d (cV L) (jV L)).loc cc0_scratch1 ↦{fullShare} f := rfl
theorem pts_ir (f : Buf (Elt F) ((V d (cV L) (jV L)).loc cc0_scratch2)) :
    ((irV).view.loc (V d (cV L) (jV L)) ↦{fullShare} f : sProp 𝕄) = (V d (cV L) (jV L)).loc cc0_scratch2 ↦{fullShare} f := rfl
theorem pts_b0 (f : Buf (Elt F) ((V d (cV L) (jV L)).loc cc0_scratch3)) :
    ((b0V).view.loc (V d (cV L) (jV L)) ↦{fullShare} f : sProp 𝕄) = (V d (cV L) (jV L)).loc cc0_scratch3 ↦{fullShare} f := rfl
theorem pts_b1 (f : Buf (Elt F) ((V d (cV L) (jV L)).loc cc0_scratch4)) :
    ((b1V).view.loc (V d (cV L) (jV L)) ↦{fullShare} f : sProp 𝕄) = (V d (cV L) (jV L)).loc cc0_scratch4 ↦{fullShare} f := rfl
theorem pts_b2 (f : Buf (Elt F) ((V d (cV L) (jV L)).loc cc0_scratch5)) :
    ((b2V).view.loc (V d (cV L) (jV L)) ↦{fullShare} f : sProp 𝕄) = (V d (cV L) (jV L)).loc cc0_scratch5 ↦{fullShare} f := rfl
theorem pts_b3 (f : Buf (Elt F) ((V d (cV L) (jV L)).loc cc0_scratch6)) :
    ((b3V).view.loc (V d (cV L) (jV L)) ↦{fullShare} f : sProp 𝕄) = (V d (cV L) (jV L)).loc cc0_scratch6 ↦{fullShare} f := rfl

end Cert.Proof.KI

end
-- ==== Proof.ScBarrier.lean ====
/-
  The subcore barrier's cells and what crosses it. Every tile of a SparseCore has one barrier semaphore; in its one
  round every tile of that SparseCore has a unit duty. Tile i's duty in tile j's round hands tile j a read share —
  the j-th of sixteen — of what tile i wrote of the shared table (its block of 624 rows, and on tile 15 the last
  sixteen rows), at the node table's contents. Leaving the barrier a tile therefore holds its read share of every
  block: of the whole shared table, equal to the node table.
-/
import proofs.«206088_g82248623718559_cont_9to1c4b_230_21_alg».proof.Proof.ScRes

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "nV" => (Memref.whole Cert.KernelIdeal.main_arg0_scv : Memref Cert.KernelIdeal.sig Kind.scVector Space.hbm Cert.KernelIdeal.S10000x128 EltTy.f32)
local notation "sV" => (Memref.whole Cert.KernelIdeal.main_arg6_scv : Memref Cert.KernelIdeal.sig Kind.scVector Space.hbm Cert.KernelIdeal.S320000 EltTy.i32)
local notation "rV" => (Memref.whole Cert.KernelIdeal.main_arg7_scv : Memref Cert.KernelIdeal.sig Kind.scVector Space.hbm Cert.KernelIdeal.S320000 EltTy.i32)
local notation "oV" => (Memref.whole Cert.KernelIdeal.main_v9_scv : Memref Cert.KernelIdeal.sig Kind.scVector Space.hbm Cert.KernelIdeal.S320000x256 EltTy.f32)
local notation "shV" => (Memref.whole Cert.KernelIdeal.cc0_scratch0 : Memref Cert.KernelIdeal.sig Kind.scVector Space.shared Cert.KernelIdeal.S10000x128 EltTy.f32)
local notation "isV" => (Memref.whole Cert.KernelIdeal.cc0_scratch1 : Memref Cert.KernelIdeal.sig Kind.scVector Space.vmem Cert.KernelIdeal.S10000 EltTy.i32)
local notation "irV" => (Memref.whole Cert.KernelIdeal.cc0_scratch2 : Memref Cert.KernelIdeal.sig Kind.scVector Space.vmem Cert.KernelIdeal.S10000 EltTy.i32)
local notation "b0V" => (Memref.whole Cert.KernelIdeal.cc0_scratch3 : Memref Cert.KernelIdeal.sig Kind.scVector Space.vmem Cert.KernelIdeal.S40x128 EltTy.f32)
local notation "b1V" => (Memref.whole Cert.KernelIdeal.cc0_scratch4 : Memref Cert.KernelIdeal.sig Kind.scVector Space.vmem Cert.KernelIdeal.S40x128 EltTy.f32)
local notation "b2V" => (Memref.whole Cert.KernelIdeal.cc0_scratch5 : Memref Cert.KernelIdeal.sig Kind.scVector Space.vmem Cert.KernelIdeal.S40x128 EltTy.f32)
local notation "b3V" => (Memref.whole Cert.KernelIdeal.cc0_scratch6 : Memref Cert.KernelIdeal.sig Kind.scVector Space.vmem Cert.KernelIdeal.S40x128 EltTy.f32)

variable (m : (ℓ : Loc nD τ sig) → Buf (Elt F) ℓ)

variable [FloatOps F]

/-! ## The barrier cells -/

/-- Tile (c, j)'s barrier semaphore of device d. -/
abbrev bcell (d : Dev nD) (c : Fin τ.nSC) (j : Fin τ.nSub) : GSem nD τ sig := (V d c j, .reg sc_bar0)

omit [FloatOps F] in
theorem sc_bar0_ne_go : (sc_bar0 : Sem sig) ≠ sc_go := by decide

def isBar (g : GSem nD τ sig) : Bool :=
  match g with
  | ((_, .scVector _ _), sm) => decide (sm = .reg sc_bar0)
  | _ => false

omit [FloatOps F] in
@[simp] theorem isBar_bcell (d : Dev nD) (c : Fin τ.nSC) (j : Fin τ.nSub) : isBar (bcell d c j) = true := by simp [isBar]

/-- The node table, read as contents of a SparseCore's shared table (the two arrays have one shape and element type). -/
abbrev nodesSh (d : Dev nD) (c : Fin τ.nSC) : Buf (Elt F) (shLoc d c) := m (xLoc d)

/-- The read share of the shared table that tile j takes: the j-th of sixteen. -/
abbrev tok16 (j : Fin τ.nSub) : PosShare TreeShare := Transfers.shareTok fullShare 16 (Fin.cast nSub_eq j)

/-- What duty n in tile (c, j)'s round hands over: tile n's part of the shared table at the node rows, at tile j's read share. -/
def bPay (g : GSem nD τ sig) (n : ℕ) : sProp 𝕄 :=
  match g with
  | ((d, .scVector c j), _) => if h : n < 16 then iprop(shLoc d c ↦[blkAll ⟨n, h⟩]{tok16 j} nodesSh m d c) else iprop(emp)
  | _ => iprop(emp)

/-- The barrier cells' schedule: one round on each, of one unit duty per tile of the SparseCore (named by its number). -/
def bRd : Rounds.Schedule (GSem nD τ sig) ℕ 𝕄 where
  duties g r := if isBar g ∧ r = 0 then (Finset.univ : Finset (Fin τ.nSub)).image Fin.val else ∅
  amount _ _ _ := 1
  payload g _ n := bPay m g n
  amount_pos _ _ _ _ := Nat.one_pos

instance bRd_payload_storable (g : GSem nD τ sig) (r n : ℕ) : BI.Storable (upEmb : UEmb _ 𝕄) ((bRd (F := F) m).payload g r n) := by
  show BI.Storable upEmb (bPay m g n)
  unfold bPay
  rcases g with ⟨⟨d, _ | c | ⟨c, i⟩⟩, sm⟩ <;> dsimp only <;> (repeat' split) <;> infer_instance

omit [FloatOps F] in
theorem bigSep_emp' {I : Type} (s : Finset I) : (bigSep s fun _ => iprop(emp)) = (iprop(emp) : sProp 𝕄) := bigSep_emp_const s

omit [FloatOps F] in
theorem bRd_duties₀ (d : Dev nD) (c : Fin τ.nSC) (j : Fin τ.nSub) : (bRd (F := F) m).duties (bcell d c j) 0 = (Finset.univ : Finset (Fin τ.nSub)).image Fin.val := by
  simp [bRd, isBar]
omit [FloatOps F] in
theorem bRd_mem₀ (d : Dev nD) (c : Fin τ.nSC) (j i : Fin τ.nSub) : i.val ∈ (bRd (F := F) m).duties (bcell d c j) 0 := by
  rw [bRd_duties₀]; exact Finset.mem_image_of_mem _ (Finset.mem_univ i)
omit [FloatOps F] in
theorem bRd_expect (d : Dev nD) (c : Fin τ.nSC) (j : Fin τ.nSub) : 0 + grid0.bound 1 = (bRd (F := F) m).expect (bcell d c j) 0 := by
  unfold Rounds.Schedule.expect; rw [bRd_duties₀]
  show 0 + 16 = ∑ x ∈ (Finset.univ : Finset (Fin 16)).image Fin.val, 1
  rw [Finset.sum_const, Finset.card_image_of_injective _ Fin.val_injective]; rfl

/-- What the launch has a tile owe for the barrier: a unit on every tile's cell of its SparseCore, at the call's index. -/
def oxV (d : Dev nD) (c : Fin τ.nSC) : CellTallies nD τ sig (HIx 1) := ∑ j : Fin (grid0.bound 1), tallyAt (bcell d c (j.castLE hsub0)) (some 0) 1

omit [FloatOps F] in
theorem oxV_none (d : Dev nD) (c : Fin τ.nSC) (g : GSem nD τ sig) : oxV d c g none = 0 := by
  unfold oxV
  rw [Finset.sum_apply, Finsupp.finsetSum_apply]
  exact Finset.sum_eq_zero fun j _ => by rw [tallyAt_apply, if_neg (fun e => nomatch e.2)]

omit [FloatOps F] in
theorem oxV_apply_pos {d : Dev nD} {c : Fin τ.nSC} {g : GSem nD τ sig} {ι : HIx 1} (h : 0 < oxV d c g ι) : ∃ j : Fin (grid0.bound 1), g = bcell d c (j.castLE hsub0) ∧ ι = some 0 := by
  unfold oxV at h
  rw [Finset.sum_apply, Finsupp.finsetSum_apply] at h
  obtain ⟨j, -, hj⟩ := Finset.exists_ne_zero_of_sum_ne_zero (Nat.pos_iff_ne_zero.mp h)
  rw [tallyAt_apply] at hj
  split at hj
  · next e => exact ⟨j, e.1, e.2⟩
  · exact absurd rfl hj

/-! ## The tile's own cells for the barrier: what the launch deals its proof -/

/-- Tile (c, i)'s barrier bundle: every tile's cell invariant of its SparseCore and that each has reached round 0, its own
    position at the origin of round 0, its duty token in every tile's round 0, and the credit for the sixteen units of
    its own round. -/
def bkit (d : Dev nD) (c : Fin τ.nSC) (i : Fin τ.nSub) : sProp 𝕄 :=
  iprop((∃ κ : GSem nD τ sig → ℕ, bigSep Finset.univ fun j : Fin (grid0.bound 1) =>
      cellInv EB (bRd (F := F) m) (κ (bcell d c (j.castLE hsub0))) (bcell d c (j.castLE hsub0)))
    ∗ (bigSep Finset.univ fun j : Fin (grid0.bound 1) => dutyTok EB (bcell d c (j.castLE hsub0)) 0 i.val)
    ∗ (bigSep Finset.univ fun j : Fin (grid0.bound 1) => reached EB (bcell d c (j.castLE hsub0)) 0)
    ∗ atPos EB (bcell d c i) 0 ∅ 0
    ∗ cred (tallyAt (bcell d c i) (some 0) (grid0.bound 1)))

end Cert.Proof.KI

end
-- ==== Proof.ScPay.lean ====
/-
  What the handshakes of the one SparseCore call carry. The TensorCore hands each SparseCore, for each of its sixteen
  tiles, a read share of the node table and of the two index arrays and the tile's 10000 rows of the gathered array;
  the sequencer adds the tile's part of its shared table. Back come the same shares, the tile's rows of the gathered
  array holding the gathered node rows, and the shared table's shares (the tile's sixteenth of the whole table and the
  rest of its own part). Each tile's proof consumes its barrier bundle, and each tile owes its sixteen arrivals.
-/
import proofs.«206088_g82248623718559_cont_9to1c4b_230_21_alg».proof.Proof.ScBarrier
import Idealize.ShloMosaic.Lib.ValueIdx

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "nV" => (Memref.whole Cert.KernelIdeal.main_arg0_scv : Memref Cert.KernelIdeal.sig Kind.scVector Space.hbm Cert.KernelIdeal.S10000x128 EltTy.f32)
local notation "sV" => (Memref.whole Cert.KernelIdeal.main_arg6_scv : Memref Cert.KernelIdeal.sig Kind.scVector Space.hbm Cert.KernelIdeal.S320000 EltTy.i32)
local notation "rV" => (Memref.whole Cert.KernelIdeal.main_arg7_scv : Memref Cert.KernelIdeal.sig Kind.scVector Space.hbm Cert.KernelIdeal.S320000 EltTy.i32)
local notation "oV" => (Memref.whole Cert.KernelIdeal.main_v9_scv : Memref Cert.KernelIdeal.sig Kind.scVector Space.hbm Cert.KernelIdeal.S320000x256 EltTy.f32)
local notation "shV" => (Memref.whole Cert.KernelIdeal.cc0_scratch0 : Memref Cert.KernelIdeal.sig Kind.scVector Space.shared Cert.KernelIdeal.S10000x128 EltTy.f32)
local notation "isV" => (Memref.whole Cert.KernelIdeal.cc0_scratch1 : Memref Cert.KernelIdeal.sig Kind.scVector Space.vmem Cert.KernelIdeal.S10000 EltTy.i32)
local notation "irV" => (Memref.whole Cert.KernelIdeal.cc0_scratch2 : Memref Cert.KernelIdeal.sig Kind.scVector Space.vmem Cert.KernelIdeal.S10000 EltTy.i32)
local notation "b0V" => (Memref.whole Cert.KernelIdeal.cc0_scratch3 : Memref Cert.KernelIdeal.sig Kind.scVector Space.vmem Cert.KernelIdeal.S40x128 EltTy.f32)
local notation "b1V" => (Memref.whole Cert.KernelIdeal.cc0_scratch4 : Memref Cert.KernelIdeal.sig Kind.scVector Space.vmem Cert.KernelIdeal.S40x128 EltTy.f32)
local notation "b2V" => (Memref.whole Cert.KernelIdeal.cc0_scratch5 : Memref Cert.KernelIdeal.sig Kind.scVector Space.vmem Cert.KernelIdeal.S40x128 EltTy.f32)
local notation "b3V" => (Memref.whole Cert.KernelIdeal.cc0_scratch6 : Memref Cert.KernelIdeal.sig Kind.scVector Space.vmem Cert.KernelIdeal.S40x128 EltTy.f32)

variable (m : (ℓ : Loc nD τ sig) → Buf (Elt F) ℓ)

variable [FloatOps F]

/-- The row a 32-bit word names, read unsigned (for a word below 10000, the word). -/
def rowU (w : BitVec 32) : Fin 10000 := ⟨w.toNat % 10000, Nat.mod_lt _ (by decide)⟩

omit [FloatOps F] in
theorem rowU_val {w : BitVec 32} (h : w.toNat < 10000) : (rowU w).val = w.toNat := Nat.mod_eq_of_lt h

/-- The gathered array: row e holds the sender's node row in columns 0 … 127 and the receiver's in columns 128 … 255. -/
def gatherC (d : Dev nD) : Buf (Elt F) (oLoc d) := fun x =>
  if h : (x 1).val < 128 then m (xLoc d) (ValueIdx.ix2 (rowU (m (sLoc d) (ValueIdx.ix1 (x 0)))) ⟨(x 1).val, h⟩)
  else m (xLoc d) (ValueIdx.ix2 (rowU (m (rLoc d) (ValueIdx.ix1 (x 0)))) ⟨(x 1).val - 128, by have := ValueIdx.idx2_lt1 x; omega⟩)

/-- Worker w's read share of a whole array: the w-th of thirty-two. -/
abbrev tok32 (w : Fin 32) : PosShare TreeShare := Transfers.shareTok fullShare 32 w

/-- What tile number w takes of the TensorCore's arrays: read shares of the node table and the index arrays, and its rows of
    the gathered array at contents g. -/
def tileArr (d : Dev nD) (w : Fin 32) (g : Buf (Elt F) (oLoc d)) : sProp 𝕄 :=
  iprop((xLoc d ↦{tok32 w} m (xLoc d)) ∗ (sLoc d ↦{tok32 w} m (sLoc d)) ∗ (rLoc d ↦{tok32 w} m (rLoc d)) ∗ (oLoc d ↦[outSet w]{fullShare} g))

/-- Tile i's part of the shared table, at any contents. -/
def shIn (d : Dev nD) (c : Fin τ.nSC) (i : Fin 16) : sProp 𝕄 := iprop(∃ f, shLoc d c ↦[blkAll i]{fullShare} f)
/-- What tile i hands back of the shared table: its sixteenth of the whole table and the rest of its own part. -/
def shOut (d : Dev nD) (c : Fin τ.nSC) (i : Fin 16) : sProp 𝕄 :=
  iprop((shLoc d c ↦{Transfers.shareTok fullShare 16 i} nodesSh m d c) ∗ (shLoc d c ↦[blkAll i]{Transfers.shareDrop fullShare 16} nodesSh m d c))

def P : (K (F := F)).Pay (nD := nD) (Val := Elt F) (Name := ℕ) (U := UU) where
  st := fun q d c => match q with
    | 0 => bigSep Finset.univ fun i : Fin 16 => tileArr m d (wid (coreOf c) (Fin.cast nSub_eq.symm i)) (m (oLoc d))
  dn := fun q d c => match q with
    | 0 => bigSep Finset.univ fun i : Fin 16 => tileArr m d (wid (coreOf c) (Fin.cast nSub_eq.symm i)) (gatherC m d)
  go := fun q d c i => match q with
    | 0 => iprop(tileArr m d (wid (coreOf c) ((K (F := F)).sub 0 i)) (m (oLoc d)) ∗ shIn d (coreOf c) (Fin.cast nSub_zero i))
  td := fun q d c i => match q with
    | 0 => iprop(tileArr m d (wid (coreOf c) ((K (F := F)).sub 0 i)) (gatherC m d) ∗ shOut m d (coreOf c) (Fin.cast nSub_zero i))
  x := fun _ thr => match thr with
    | (d, .scVector c i) => if c.val < 2 then bkit m d c i else iprop(emp)
    | _ => iprop(emp)
  ox := fun _ thr => match thr with
    | (d, .scVector c _) => if c.val < 2 then oxV d c else 0
    | _ => 0
  ox_band := by
    intro q thr g ι h
    obtain rfl : q = 0 := Subsingleton.elim _ _
    rcases thr with ⟨d, _ | c | ⟨c, i⟩⟩
    · exact absurd h (lt_irrefl 0)
    · exact absurd h (lt_irrefl 0)
    · dsimp only at h
      split at h
      · obtain ⟨j, rfl, rfl⟩ := oxV_apply_pos h
        rw [(K (F := F)).lev_V_reg d c (j.castLE hsub0) (show (sc_bar0 : Sem sig) ≠ (K (F := F)).go from sc_bar0_ne_go)]; exact ⟨le_rfl, by decide⟩
      · exact absurd h (lt_irrefl 0)
  ox_tc := fun _ _ => rfl
  ox_sc := fun _ _ _ h => absurd rfl h
  ox_vc := by
    intro q d c i h
    obtain rfl : q = 0 := Subsingleton.elim _ _
    dsimp only at h
    split at h
    · next hc => exact ⟨rfl, hc, i.isLt⟩
    · exact absurd rfl h

instance P_storable : (P (F := F) m).IsStorable where
  st q d c := match q with
    | 0 => by unfold P tileArr; dsimp only; infer_instance
  dn q d c := match q with
    | 0 => by unfold P tileArr; dsimp only; infer_instance
  go q d c i := match q with
    | 0 => by unfold P tileArr shIn; dsimp only; infer_instance
  td q d c i := match q with
    | 0 => by unfold P tileArr shOut; dsimp only; infer_instance

end Cert.Proof.KI

end
-- ==== Proof.ScGeom.lean ====
/-
  The geometry of the SparseCore kernel's element sets: pure facts about finite sets of array indices.

  The node table's 10000 rows are cut into sixteen blocks of 624 rows and a tail of sixteen rows; tile s holds block
  s, tile 15 also the tail: these sixteen sets are pairwise disjoint and cover the table. The gathered array's
  320000 rows are cut into 32 parts of 10000 rows, part w = 2 s + c for tile s of SparseCore c; a part is cut into
  250 chunks of 40 rows, each in two halves of 128 columns: the rectangles the kernel writes. The offsets the
  kernel computes are these rows and columns.
-/
import proofs.«206088_g82248623718559_cont_9to1c4b_230_21_alg».proof.Proof.ScRes
import Idealize.ShloMosaic.Lib.ValueIdx

noncomputable section

namespace Cert.Proof.KI

open Cert.KernelIdeal Cert.KernelIdeal.Gen

open Idealize.ShloMosaic Idealize.ShloMosaic.ValueIdx

local notation "nV" => (Memref.whole Cert.KernelIdeal.main_arg0_scv : Memref Cert.KernelIdeal.sig Kind.scVector Space.hbm Cert.KernelIdeal.S10000x128 EltTy.f32)
local notation "sV" => (Memref.whole Cert.KernelIdeal.main_arg6_scv : Memref Cert.KernelIdeal.sig Kind.scVector Space.hbm Cert.KernelIdeal.S320000 EltTy.i32)
local notation "rV" => (Memref.whole Cert.KernelIdeal.main_arg7_scv : Memref Cert.KernelIdeal.sig Kind.scVector Space.hbm Cert.KernelIdeal.S320000 EltTy.i32)
local notation "oV" => (Memref.whole Cert.KernelIdeal.main_v9_scv : Memref Cert.KernelIdeal.sig Kind.scVector Space.hbm Cert.KernelIdeal.S320000x256 EltTy.f32)

/-! ## Membership in a unit-stride rectangle of a whole array -/

/-- Rank two: each coordinate lies between the offset and the offset plus the size. -/
theorem mem_unit2 {n0 n1 : Nat} (off size : Fin 2 → Nat) (inb) (i : (⟨2, ![n0, n1]⟩ : Shape).Idx) :
    i ∈ (Rect.unit (s := ⟨2, ![n0, n1]⟩) off size inb).set
      ↔ (off 0 ≤ (i 0).val ∧ (i 0).val < off 0 + size 0) ∧ (off 1 ≤ (i 1).val ∧ (i 1).val < off 1 + size 1) := by
  rw [Rect.mem_set_unit]; exact Fin.forall_fin_two

/-- Rank one. -/
theorem mem_unit1 {n0 : Nat} (off size : Fin 1 → Nat) (inb) (i : (⟨1, ![n0]⟩ : Shape).Idx) :
    i ∈ (Rect.unit (s := ⟨1, ![n0]⟩) off size inb).set ↔ (off 0 ≤ (i 0).val ∧ (i 0).val < off 0 + size 0) := by
  rw [Rect.mem_set_unit]; exact Fin.forall_fin_one

/-- A rank-1 index's coordinate is below the extent. -/
theorem idx1_lt {n : Nat} (j : (⟨1, ![n]⟩ : Shape).Idx) : (j 0).val < n := (j 0).isLt

/-- A tile's coordinates: the SparseCore is below 2 and the tile below 16. -/
theorem L0_lt (L : grid0.Coords) : (L 0).val < 2 := (L 0).isLt
theorem L1_lt (L : grid0.Coords) : (L 1).val < 16 := (L 1).isLt

/-! ## A slice of a whole array holds its rectangle's elements -/

theorem nV_slice_set (r : Rect S10000x128) : ((nV).view.slice r).set = r.set := View.set_slice_whole main_arg0_scv r
theorem sV_slice_set (r : Rect S320000) : ((sV).view.slice r).set = r.set := View.set_slice_whole main_arg6_scv r
theorem rV_slice_set (r : Rect S320000) : ((rV).view.slice r).set = r.set := View.set_slice_whole main_arg7_scv r
theorem oV_slice_set (r : Rect S320000x256) : ((oV).view.slice r).set = r.set := View.set_slice_whole main_v9_scv r

/-! ## The shared table -/

/-- Tile L's block: rows 624 s … 624 s + 623. -/
theorem mem_blkSet (L : grid0.Coords) (i : S10000x128.Idx) :
    i ∈ blkSet L ↔ 624 * (L 1).val ≤ (i 0).val ∧ (i 0).val < 624 * (L 1).val + 624 := by
  rw [show blkSet L = (blkRect L).set from nV_slice_set _, mem_unit2]
  have e0 : k0_off1 L 0 = 624 * (L 1).val := by rw [k0_off1_eq L]; rfl
  have e1 : k0_off1 L 1 = 0 := by rw [k0_off1_eq L]; rfl
  rw [e0, e1]
  show (624 * (L 1).val ≤ (i 0).val ∧ (i 0).val < 624 * (L 1).val + 624) ∧ (0 ≤ (i 1).val ∧ (i 1).val < 0 + 128) ↔ _
  have := idx2_lt1 i
  constructor
  · intro h; exact h.1
  · intro h; exact ⟨h, by omega⟩

/-- The tail: rows 9984 … 9999. -/
theorem mem_tailSet (i : S10000x128.Idx) : i ∈ tailSet ↔ 9984 ≤ (i 0).val := by
  rw [show tailSet = tailRect.set from nV_slice_set _, mem_unit2]
  show (9984 ≤ (i 0).val ∧ (i 0).val < 9984 + 16) ∧ (0 ≤ (i 1).val ∧ (i 1).val < 0 + 128) ↔ _
  have := idx2_lt0 i
  have := idx2_lt1 i
  constructor
  · intro h; exact h.1.1
  · intro h; exact ⟨⟨h, by omega⟩, by omega⟩

/-- What tile s holds: its block, and for s = 15 the tail as well. -/
theorem mem_blkAll (s : Fin 16) (i : S10000x128.Idx) :
    i ∈ blkAll s ↔ (624 * s.val ≤ (i 0).val ∧ (i 0).val < 624 * s.val + 624) ∨ (s.val = 15 ∧ 9984 ≤ (i 0).val) := by
  unfold blkAll
  rw [Finset.mem_union, mem_blkSet]
  show (624 * s.val ≤ (i 0).val ∧ (i 0).val < 624 * s.val + 624) ∨ _ ↔ _
  by_cases h : s.val = 15
  · rw [if_pos h, mem_tailSet]; exact ⟨fun h' => h'.imp id fun h2 => ⟨h, h2⟩, fun h' => h'.imp id fun h2 => h2.2⟩
  · rw [if_neg h]
    exact ⟨fun h' => h'.elim Or.inl fun h2 => absurd h2 (Finset.notMem_empty i), fun h' => h'.elim Or.inl fun h2 => absurd h2.1 h⟩

/-- A block lies below the tail. -/
theorem blkSet_disjoint_tailSet (L : grid0.Coords) : Disjoint (blkSet L) tailSet :=
  Finset.disjoint_left.2 fun i h1 h2 => by
    rw [mem_blkSet] at h1; rw [mem_tailSet] at h2; have := L1_lt L; omega

/-- Off tile 15 a tile holds its block. -/
theorem blkAll_eq (L : grid0.Coords) (h : (L 1).val ≠ 15) : blkAll (Fin.cast (by rfl) (L 1)) = blkSet L := by
  ext i
  rw [mem_blkAll, mem_blkSet]
  show (624 * (L 1).val ≤ (i 0).val ∧ (i 0).val < 624 * (L 1).val + 624) ∨ ((L 1).val = 15 ∧ _) ↔ _
  exact ⟨fun h' => h'.elim id fun h2 => absurd h2.1 h, Or.inl⟩

/-- Tile 15 holds its block and the tail. -/
theorem blkAll_eq15 (L : grid0.Coords) (h : (L 1).val = 15) : blkAll (Fin.cast (by rfl) (L 1)) = blkSet L ∪ tailSet := by
  ext i
  rw [mem_blkAll, Finset.mem_union, mem_blkSet, mem_tailSet]
  show (624 * (L 1).val ≤ (i 0).val ∧ (i 0).val < 624 * (L 1).val + 624) ∨ ((L 1).val = 15 ∧ _) ↔ _
  exact ⟨fun h' => h'.imp id fun h2 => h2.2, fun h' => h'.imp id fun h2 => ⟨h, h2⟩⟩

/-- The sixteen tiles' holdings are pairwise disjoint. -/
theorem blkAll_disjoint : ∀ s ∈ (Finset.univ : Finset (Fin 16)), ∀ s' ∈ (Finset.univ : Finset (Fin 16)), s ≠ s' →
    Disjoint (blkAll s) (blkAll s') := fun s _ s' _ hne =>
  Finset.disjoint_left.2 fun i h1 h2 => by
    rw [mem_blkAll] at h1 h2
    have hv : s.val ≠ s'.val := fun e => hne (Fin.ext e)
    have := s.isLt; have := s'.isLt
    omega

/-- The sixteen tiles' holdings cover the table. -/
theorem blkAll_cover : (Finset.univ : Finset (Fin 16)).biUnion blkAll = Finset.univ := by
  ext i
  simp only [Finset.mem_biUnion, Finset.mem_univ, true_and, iff_true]
  have h0 := idx2_lt0 i
  by_cases h : (i 0).val < 9984
  · exact ⟨⟨(i 0).val / 624, by omega⟩, (mem_blkAll _ i).2 (Or.inl (by show 624 * ((i 0).val / 624) ≤ _ ∧ _ < 624 * ((i 0).val / 624) + 624; omega))⟩
  · exact ⟨⟨15, by omega⟩, (mem_blkAll _ i).2 (Or.inr ⟨rfl, by omega⟩)⟩

/-! ## The gathered array's 32 row parts -/

/-- A part as a set is its rectangle's elements. -/
theorem outSet_eq (w : Fin 32) : outSet w = (outRect w).set := oV_slice_set _

/-- Part w: rows 10000 w … 10000 w + 9999, every column. -/
theorem mem_outSet (w : Fin 32) (i : S320000x256.Idx) :
    i ∈ outSet w ↔ 10000 * w.val ≤ (i 0).val ∧ (i 0).val < 10000 * w.val + 10000 := by
  rw [outSet_eq, mem_unit2]
  show (w.val * 10000 ≤ (i 0).val ∧ (i 0).val < w.val * 10000 + 10000) ∧ (0 * 256 ≤ (i 1).val ∧ (i 1).val < 0 * 256 + 256) ↔ _
  have := idx2_lt1 i
  constructor
  · intro h; omega
  · intro h; omega

/-- The 32 parts are pairwise disjoint. -/
theorem outSet_disjoint : ∀ w ∈ (Finset.univ : Finset (Fin 32)), ∀ w' ∈ (Finset.univ : Finset (Fin 32)), w ≠ w' →
    Disjoint (outSet w) (outSet w') := fun w _ w' _ h => by
  rw [outSet_eq, outSet_eq]; exact Rect.part_disjoint hdiv32 h

/-- The 32 parts cover the array. -/
theorem outSet_cover : (Finset.univ : Finset (Fin 32)).biUnion outSet = Finset.univ :=
  (Finset.biUnion_congr rfl fun w _ => outSet_eq w).trans (Rect.biUnion_part hdiv32)

/-- The tile number of tile s of SparseCore c is 2 s + c. -/
theorem wid_val (c : Fin τ.nSC) (s : Fin τ.nSub) : (wid c s).val = 2 * s.val + c.val := rfl

/-- The tile number of the tile at L. -/
theorem wid_L (L : grid0.Coords) : (wid (cV L) (jV L)).val = 2 * (L 1).val + (L 0).val := rfl

/-- The pairs (SparseCore, tile) are the 32 tile numbers. -/
def widEquiv : Fin τ.nSC × Fin τ.nSub ≃ Fin 32 where
  toFun p := wid p.1 p.2
  invFun w := (⟨w.val % 2, Nat.mod_lt _ (by decide)⟩, ⟨w.val / 2, by have := w.isLt; show w.val / 2 < 16; omega⟩)
  left_inv p := by
    have h1 : p.1.val < 2 := p.1.isLt
    have h2 : p.2.val < 16 := p.2.isLt
    refine Prod.ext (Fin.ext ?_) (Fin.ext ?_)
    · show (2 * p.2.val + p.1.val) % 2 = p.1.val; omega
    · show (2 * p.2.val + p.1.val) / 2 = p.2.val; omega
  right_inv w := Fin.ext (by show 2 * (w.val / 2) + w.val % 2 = w.val; omega)

theorem widEquiv_apply (c : Fin τ.nSC) (s : Fin τ.nSub) : widEquiv (c, s) = wid c s := rfl

/-! ## The chunks of a part -/

/-- Chunk j of the part of the tile at L, half h: 40 rows from row 10000 w + 40 j, 128 columns from column 128 h. -/
def chunkSet (L : grid0.Coords) (j : Fin 250) (h : Fin 2) : Finset S320000x256.Idx :=
  (Rect.unit (s := S320000x256) ![10000 * (2 * (L 1).val + (L 0).val) + 40 * j.val, 128 * h.val] S40x128.size
    (Rect.inb₂ (by have := L0_lt L; have := L1_lt L; have := j.isLt; show 10000 * (2 * (L 1).val + (L 0).val) + 40 * j.val + 40 ≤ 320000; omega)
      (by have := h.isLt; show 128 * h.val + 128 ≤ 256; omega))).set

theorem mem_chunkSet (L : grid0.Coords) (j : Fin 250) (h : Fin 2) (i : S320000x256.Idx) :
    i ∈ chunkSet L j h
      ↔ (10000 * (2 * (L 1).val + (L 0).val) + 40 * j.val ≤ (i 0).val ∧ (i 0).val < 10000 * (2 * (L 1).val + (L 0).val) + 40 * j.val + 40)
        ∧ (128 * h.val ≤ (i 1).val ∧ (i 1).val < 128 * h.val + 128) := by
  unfold chunkSet
  rw [mem_unit2]
  rfl

/-- The 500 chunk halves of a part are pairwise disjoint. -/
theorem chunkSet_disjoint (L : grid0.Coords) : ∀ p ∈ (Finset.univ : Finset (Fin 250 × Fin 2)), ∀ p' ∈ (Finset.univ : Finset (Fin 250 × Fin 2)),
    p ≠ p' → Disjoint (chunkSet L p.1 p.2) (chunkSet L p'.1 p'.2) := fun p _ p' _ hne =>
  Finset.disjoint_left.2 fun i h1 h2 => by
    rw [mem_chunkSet] at h1 h2
    refine hne (Prod.ext (Fin.ext ?_) (Fin.ext ?_))
    · omega
    · omega

/-- The 500 chunk halves of a part cover it. -/
theorem chunkSet_cover (L : grid0.Coords) :
    (Finset.univ : Finset (Fin 250 × Fin 2)).biUnion (fun p => chunkSet L p.1 p.2) = outSet (wid (cV L) (jV L)) := by
  ext i
  rw [mem_outSet, wid_L]
  simp only [Finset.mem_biUnion, Finset.mem_univ, true_and, mem_chunkSet]
  have h1 := idx2_lt1 i
  constructor
  · rintro ⟨p, hp⟩
    have := p.1.isLt
    omega
  · intro hi
    refine ⟨(⟨((i 0).val - 10000 * (2 * (L 1).val + (L 0).val)) / 40, by omega⟩, ⟨(i 1).val / 128, by omega⟩), ?_⟩
    show (10000 * (2 * (L 1).val + (L 0).val) + 40 * (((i 0).val - 10000 * (2 * (L 1).val + (L 0).val)) / 40) ≤ (i 0).val ∧ (i 0).val < 10000 * (2 * (L 1).val + (L 0).val) + 40 * (((i 0).val - 10000 * (2 * (L 1).val + (L 0).val)) / 40) + 40)
        ∧ (128 * ((i 1).val / 128) ≤ (i 1).val ∧ (i 1).val < 128 * ((i 1).val / 128) + 128)
    omega

/-- The loop runs at most 124 times. -/
theorem trips_le : k0_t1_loop.trips ≤ 124 := k0_t1_abs.2.1

/-- The first two chunks' left halves, as the kernel slices them. -/
theorem slice_off3 (L : grid0.Coords) (r : Fin 2) (inb) :
    ((oV).view.slice (Rect.unit (s := S320000x256) (k0_off3 L (BitVec.ofNat 32 (40 * r.val))) S40x128.size inb)).set
      = chunkSet L ⟨r.val, by have := r.isLt; omega⟩ 0 := by
  ext i
  rw [oV_slice_set, mem_unit2, mem_chunkSet]
  have e0 : k0_off3 L (BitVec.ofNat 32 (40 * r.val)) 0 = 20000 * (L 1).val + 10000 * (L 0).val + 40 * r.val := by rw [k0_off3_eq L r]; rfl
  have e1 : k0_off3 L (BitVec.ofNat 32 (40 * r.val)) 1 = 0 := by rw [k0_off3_eq L r]; rfl
  rw [e0, e1]
  show (_ ≤ (i 0).val ∧ (i 0).val < _ + 40) ∧ (0 ≤ (i 1).val ∧ (i 1).val < 0 + 128) ↔ (10000 * (2 * (L 1).val + (L 0).val) + 40 * r.val ≤ (i 0).val ∧ (i 0).val < 10000 * (2 * (L 1).val + (L 0).val) + 40 * r.val + 40) ∧ (128 * 0 ≤ (i 1).val ∧ (i 1).val < 128 * 0 + 128)
  constructor <;> intro h <;> omega

/-- The first two chunks' right halves. -/
theorem slice_off4 (L : grid0.Coords) (r : Fin 2) (inb) :
    ((oV).view.slice (Rect.unit (s := S320000x256) (k0_off4 L (BitVec.ofNat 32 (40 * r.val))) S40x128.size inb)).set
      = chunkSet L ⟨r.val, by have := r.isLt; omega⟩ 1 := by
  ext i
  rw [oV_slice_set, mem_unit2, mem_chunkSet]
  have e0 : k0_off4 L (BitVec.ofNat 32 (40 * r.val)) 0 = 20000 * (L 1).val + 10000 * (L 0).val + 40 * r.val := by rw [k0_off4_eq L r]; rfl
  have e1 : k0_off4 L (BitVec.ofNat 32 (40 * r.val)) 1 = 128 := by rw [k0_off4_eq L r]; rfl
  rw [e0, e1]
  show (_ ≤ (i 0).val ∧ (i 0).val < _ + 40) ∧ (128 ≤ (i 1).val ∧ (i 1).val < 128 + 128) ↔ (10000 * (2 * (L 1).val + (L 0).val) + 40 * r.val ≤ (i 0).val ∧ (i 0).val < 10000 * (2 * (L 1).val + (L 0).val) + 40 * r.val + 40) ∧ (128 * 1 ≤ (i 1).val ∧ (i 1).val < 128 * 1 + 128)
  constructor <;> intro h <;> omega

/-- The loop's chunks' left halves: trip k, row r of the trip is chunk 2 k + r + 2. -/
theorem slice_off6 (L : grid0.Coords) (k : Fin k0_t1_loop.trips) (r : Fin 2) (inb) :
    ((oV).view.slice (Rect.unit (s := S320000x256) (k0_off6 L k (BitVec.ofNat 32 r.val)) S40x128.size inb)).set
      = chunkSet L ⟨2 * k.val + r.val + 2, by have := r.isLt; have := k.isLt; have := trips_le; omega⟩ 0 := by
  ext i
  rw [oV_slice_set, mem_unit2, mem_chunkSet]
  have e0 : k0_off6 L k (BitVec.ofNat 32 r.val) 0 = 20000 * (L 1).val + 10000 * (L 0).val + 80 * k.val + 40 * r.val + 80 := by rw [k0_off6_eq L k r]; rfl
  have e1 : k0_off6 L k (BitVec.ofNat 32 r.val) 1 = 0 := by rw [k0_off6_eq L k r]; rfl
  rw [e0, e1]
  show (_ ≤ (i 0).val ∧ (i 0).val < _ + 40) ∧ (0 ≤ (i 1).val ∧ (i 1).val < 0 + 128) ↔ (10000 * (2 * (L 1).val + (L 0).val) + 40 * (2 * k.val + r.val + 2) ≤ (i 0).val ∧ (i 0).val < 10000 * (2 * (L 1).val + (L 0).val) + 40 * (2 * k.val + r.val + 2) + 40) ∧ (128 * 0 ≤ (i 1).val ∧ (i 1).val < 128 * 0 + 128)
  constructor <;> intro h <;> omega

/-- The loop's chunks' right halves. -/
theorem slice_off7 (L : grid0.Coords) (k : Fin k0_t1_loop.trips) (r : Fin 2) (inb) :
    ((oV).view.slice (Rect.unit (s := S320000x256) (k0_off7 L k (BitVec.ofNat 32 r.val)) S40x128.size inb)).set
      = chunkSet L ⟨2 * k.val + r.val + 2, by have := r.isLt; have := k.isLt; have := trips_le; omega⟩ 1 := by
  ext i
  rw [oV_slice_set, mem_unit2, mem_chunkSet]
  have e0 : k0_off7 L k (BitVec.ofNat 32 r.val) 0 = 20000 * (L 1).val + 10000 * (L 0).val + 80 * k.val + 40 * r.val + 80 := by rw [k0_off7_eq L k r]; rfl
  have e1 : k0_off7 L k (BitVec.ofNat 32 r.val) 1 = 128 := by rw [k0_off7_eq L k r]; rfl
  rw [e0, e1]
  show (_ ≤ (i 0).val ∧ (i 0).val < _ + 40) ∧ (128 ≤ (i 1).val ∧ (i 1).val < 128 + 128) ↔ (10000 * (2 * (L 1).val + (L 0).val) + 40 * (2 * k.val + r.val + 2) ≤ (i 0).val ∧ (i 0).val < 10000 * (2 * (L 1).val + (L 0).val) + 40 * (2 * k.val + r.val + 2) + 40) ∧ (128 * 1 ≤ (i 1).val ∧ (i 1).val < 128 * 1 + 128)
  constructor <;> intro h <;> omega

/-- The tile's entries of the senders array, as the kernel slices it: entries 10000 w … 10000 w + 9999. -/
theorem mem_slice_off2_s (L : grid0.Coords) (inb) (i : S320000.Idx) :
    i ∈ ((sV).view.slice (Rect.unit (s := S320000) (k0_off2 L) S10000.size inb)).set
      ↔ 10000 * (2 * (L 1).val + (L 0).val) ≤ (i 0).val ∧ (i 0).val < 10000 * (2 * (L 1).val + (L 0).val) + 10000 := by
  rw [sV_slice_set, mem_unit1]
  have e0 : k0_off2 L 0 = 20000 * (L 1).val + 10000 * (L 0).val := by rw [k0_off2_eq L]; rfl
  rw [e0]
  show (_ ≤ (i 0).val ∧ (i 0).val < _ + 10000) ↔ _
  constructor <;> intro h <;> omega

/-- The same for the receivers array. -/
theorem mem_slice_off2_r (L : grid0.Coords) (inb) (i : S320000.Idx) :
    i ∈ ((rV).view.slice (Rect.unit (s := S320000) (k0_off2 L) S10000.size inb)).set
      ↔ 10000 * (2 * (L 1).val + (L 0).val) ≤ (i 0).val ∧ (i 0).val < 10000 * (2 * (L 1).val + (L 0).val) + 10000 := by
  rw [rV_slice_set, mem_unit1]
  have e0 : k0_off2 L 0 = 20000 * (L 1).val + 10000 * (L 0).val := by rw [k0_off2_eq L]; rfl
  rw [e0]
  show (_ ≤ (i 0).val ∧ (i 0).val < _ + 10000) ↔ _
  constructor <;> intro h <;> omega

end Cert.Proof.KI

end
-- ==== Proof.ScSplit.lean ====
/-
  How one SparseCore's operands of the call split among its sixteen tiles, and how the tiles' results join.

  The TensorCore's arrays arrive already cut per tile and pass through. The SparseCore's shared table is among the
  sequencer's own buffers, whole, at some contents: it is cut along the sixteen tiles' parts (pairwise disjoint,
  covering the table), and tile i takes part i. Coming back, tile i returns its sixteenth of a read share of the
  WHOLE table at the node table's contents and the remainder of its own part. Each tile's share of the whole is cut
  along the parts; exchanging the two products gives, per part, all sixteen read shares of it; with the part's
  remainder these are the part at the full share; and the parts are the table.
-/
import proofs.«206088_g82248623718559_cont_9to1c4b_230_21_alg».proof.Proof.ScPay
import proofs.«206088_g82248623718559_cont_9to1c4b_230_21_alg».proof.Proof.ScGeom

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

variable [FloatOps F]

/-! ## Index bookkeeping: the call's sixteen tasks are the sixteen tiles -/

omit [FloatOps F] in
theorem tasks16 (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

omit [FloatOps F] in
theorem sub_cast (i : Fin ((K (F := F)).nSub 0)) : (K (F := F)).sub 0 i = Fin.cast nSub_eq.symm (Fin.cast nSub_zero i) := Fin.ext rfl

/-! ## The handshake payloads, as equations -/

theorem P_st (d : Dev nD) (c : Fin ((K (F := F)).nCore 0)) :
    (P m).st 0 d c = bigSep Finset.univ fun i : Fin 16 => tileArr m d (wid (coreOf c) (Fin.cast nSub_eq.symm i)) (m (oLoc d)) := rfl
theorem P_dn (d : Dev nD) (c : Fin ((K (F := F)).nCore 0)) :
    (P m).dn 0 d c = bigSep Finset.univ fun i : Fin 16 => tileArr m d (wid (coreOf c) (Fin.cast nSub_eq.symm i)) (gatherC m d) := rfl
theorem P_go (d : Dev nD) (c : Fin ((K (F := F)).nCore 0)) (i : Fin ((K (F := F)).nSub 0)) :
    (P m).go 0 d c i = iprop(tileArr m d (wid (coreOf c) (Fin.cast nSub_eq.symm (Fin.cast nSub_zero i))) (m (oLoc d)) ∗ shIn d (coreOf c) (Fin.cast nSub_zero i)) := by
  rw [← sub_cast]; rfl
theorem P_td (d : Dev nD) (c : Fin ((K (F := F)).nCore 0)) (i : Fin ((K (F := F)).nSub 0)) :
    (P m).td 0 d c i = iprop(tileArr m d (wid (coreOf c) (Fin.cast nSub_eq.symm (Fin.cast nSub_zero i))) (gatherC m d) ∗ shOut m d (coreOf c) (Fin.cast nSub_zero i)) := by
  rw [← sub_cast]; rfl

theorem go_all (d : Dev nD) (c : Fin ((K (F := F)).nCore 0)) :
    (bigSep Finset.univ fun i : Fin ((K (F := F)).nSub 0) => (P m).go 0 d c i)
      = iprop((bigSep Finset.univ fun i : Fin 16 => tileArr m d (wid (coreOf c) (Fin.cast nSub_eq.symm i)) (m (oLoc d)))
          ∗ bigSep Finset.univ fun i : Fin 16 => shIn (F := F) d (coreOf c) i) := by
  rw [← bigSep_sep', ← tasks16 (F := F) (fun i => iprop(tileArr m d (wid (coreOf c) (Fin.cast nSub_eq.symm i)) (m (oLoc d)) ∗ shIn d (coreOf c) i))]
  exact bigSep_congr fun i _ => P_go m d c i
theorem td_all (d : Dev nD) (c : Fin ((K (F := F)).nCore 0)) :
    (bigSep Finset.univ fun i : Fin ((K (F := F)).nSub 0) => (P m).td 0 d c i)
      = iprop((bigSep Finset.univ fun i : Fin 16 => tileArr m d (wid (coreOf c) (Fin.cast nSub_eq.symm i)) (gatherC m d))
          ∗ bigSep Finset.univ fun i : Fin 16 => shOut m d (coreOf c) i) := by
  rw [← bigSep_sep', ← tasks16 (F := F) (fun i => iprop(tileArr m d (wid (coreOf c) (Fin.cast nSub_eq.symm i)) (gatherC m d) ∗ shOut m d (coreOf c) i))]
  exact bigSep_congr fun i _ => P_td m d c i

/-! ## The shared table and its sixteen parts -/

omit [FloatOps F] in
/-- The shared table is among the sequencer's own buffers: it, at some contents, and the rest. -/
theorem ownBufs_S (d : Dev nD) (c : Fin τ.nSC) :
    (ownBufs (S d c) : sProp 𝕄)
      = iprop((∃ f, shLoc d c ↦{fullShare} f) ∗ bigSep ((ownRefs (τ := τ) (.scScalar c)).erase (shRef c)) fun b => iprop(∃ f, ((d, b) : Loc nD τ sig) ↦{fullShare} f)) := by
  unfold SparseCore.Cfg.ownBufs
  have h : shRef c ∈ ownRefs (τ := τ) (sig := sig) (.scScalar c) := (mem_ownRefs (p := Proc.scScalar c) (b := shRef c)).mpr rfl
  exact SparseCore.bigSep_erase' h

omit [FloatOps F] in
/-- At any share and contents, the table is its sixteen parts. -/
theorem shPts_blks (d : Dev nD) (c : Fin τ.nSC) (q : PosShare TreeShare) (f : Buf (Elt F) (shLoc d c)) :
    (shLoc d c ↦{q} f : sProp 𝕄) = bigSep Finset.univ fun i : Fin 16 => shLoc d c ↦[blkAll i]{q} f := by
  rw [← pointsTo_biUnion Finset.univ (ℓ := shLoc d c) blkAll blkAll_disjoint, blkAll_cover]; try rfl

omit [FloatOps F] in
/-- Going out: each tile its part, at the contents the table happens to hold. -/
theorem shIn_split (d : Dev nD) (c : Fin τ.nSC) (f : Buf (Elt F) (shLoc d c)) :
    (shLoc d c ↦{fullShare} f : sProp 𝕄) ⊢ bigSep Finset.univ fun i : Fin 16 => shIn (F := F) d c i := by
  rw [shPts_blks d c fullShare f]
  refine bigSep_mono fun i _ => ?_
  unfold shIn
  exact BI.BIClass.exists_intro (Φ := fun g => (shLoc d c ↦[blkAll i]{fullShare} g : sProp 𝕄)) f

/-- Coming back: the sixteen read shares of the whole table and the sixteen remainders of the parts are the table. -/
theorem shOut_join (d : Dev nD) (c : Fin τ.nSC) :
    (bigSep Finset.univ fun i : Fin 16 => shOut m d c i) ⊢ (iprop(∃ f, shLoc d c ↦{fullShare} f) : sProp 𝕄) := by
  unfold shOut
  rw [bigSep_sep']
  have h1 : (bigSep Finset.univ fun i : Fin 16 => (shLoc d c ↦{Transfers.shareTok fullShare 16 i} nodesSh m d c : sProp 𝕄))
      = bigSep Finset.univ fun j : Fin 16 => bigSep Finset.univ fun i : Fin 16 =>
          (shLoc d c ↦[blkAll j]{Transfers.shareTok fullShare 16 i} nodesSh m d c : sProp 𝕄) := by
    rw [← bigSep_univ_comm]
    exact bigSep_congr fun i _ => shPts_blks d c _ _
  rw [h1, ← bigSep_sep']
  refine (bigSep_mono (Ψ := fun j : Fin 16 => (shLoc d c ↦[blkAll j]{fullShare} nodesSh m d c : sProp 𝕄)) fun j _ => ?_).trans ?_
  · exact sep_comm.1.trans (Transfers.pointsTo_toks_join fullShare 16)
  · rw [← shPts_blks d c fullShare (nodesSh m d c)]
    exact BI.BIClass.exists_intro (Φ := fun g => (shLoc d c ↦{fullShare} g : sProp 𝕄)) (nodesSh m d c)

/-! ## The split -/

theorem vecSplit : (K (F := F)).VecSplit (P m) 0 := by
  intro d c
  rw [go_all, td_all, P_st, P_dn, ownBufs_S]
  iintro ⟨Harr, ⟨%fsh, Hsh⟩, Hrest⟩; imodintro
  isplitl [Harr Hsh]
  · isplitl [Harr]; · iexact Harr
    iapply (shIn_split d (coreOf c) fsh); iexact Hsh
  iintro ⟨Harr, Hsh⟩
  isplitl [Harr]; · iexact Harr
  isplitl [Hsh]; · iapply (shOut_join m d (coreOf c)); iexact Hsh
  iexact Hrest

end Cert.Proof.KI

end
-- ==== Proof.ScLaunch.lean ====
/-
  The launch element of the proof's resource algebra, and what the launch hands every thread.

  The element is the handshakes' rounds at launch, the barrier cells' rounds at launch (one cell per tile of both
  SparseCores of every device, and for every pair of tiles of one SparseCore the one tile's duty token in the
  other's round 0), the TensorCore pipeline's staging cells' rounds at launch, and no transfer counted. From it, the
  credit for the tiles' debts and the tiles' free semaphores at zero: the handshakes' element stays whole; the
  barrier cells' invariants are allocated and every tile is dealt its barrier bundle; every device is dealt its
  pipeline's staging cells' launch state and the duty tokens of the transfers its loop will issue.
-/
import proofs.«206088_g82248623718559_cont_9to1c4b_230_21_alg».proof.Proof.ScPay
import proofs.«206088_g82248623718559_cont_9to1c4b_230_21_alg».proof.Proof.Gen.KernelIdeal.Launch

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

variable [FloatOps F]

/-! ## The barrier cells and the duty tokens -/

abbrev DCI : Type := Dev nD × Fin τ.nSC × Fin τ.nSub
abbrev bcell₃ (x : DCI) : GSem nD τ sig := bcell x.1 x.2.1 x.2.2

def bCells : Finset (GSem nD τ sig) := Finset.univ.image bcell₃
/-- Tile i's token in tile j's cell, for every pair of tiles of one SparseCore. -/
def bToks : Finset (GSem nD τ sig × ℕ × ℕ) :=
  Finset.univ.image fun x : DCI × Fin (grid0.bound 1) => (bcell x.1.1 x.1.2.1 (x.2.castLE hsub0), 0, x.1.2.2.val)

/-! ## The TensorCore pipeline's staging cells -/

/-- The one admissible choice of prefetched tables: none. -/
abbrev admL : (p : Fin 1) → (pcfgs (F := F) p).Adm := fun p => (cfgs p).toPCfg_adm
/-- The pipeline's configuration at that choice. -/
abbrev cfgsP : Fin 1 → Pipeline.Cfg sig Λ₀ := Pipeline.pin (pcfgs (F := F)) admL
omit [FloatOps F] in
theorem hinjP : Function.Injective (Pipeline.cellOf (nD := nD) (τ := τ) (cfgsP (F := F))) := cellOf_inj

/-- What the launch deals device d for the pipeline: its staging cells' launch state and its loop's duty tokens. -/
abbrev G (d : Dev nD) : sProp 𝕄 :=
  iprop(Pipeline.cellsGhost (cfgsP (F := F)) ER 0 d ∗ Pipeline.toksInit (cfgsP (F := F)) ER 0 d)

/-! ## The launch element -/

def u₀ : UU :=
  (initOf (K (F := F)).hsCells (K (F := F)).hsToks,
    (initOf bCells bToks, (initOf (Pipeline.cells (cfgsP (F := F)) hinjP) (Pipeline.launchToks (cfgsP (F := F)) hinjP), 1)))

omit [FloatOps F] in
theorem bcell₃_injective : Function.Injective (bcell₃ : DCI → GSem nD τ sig) := fun a b e => by
  obtain ⟨h1, h2⟩ := Prod.mk.inj (Prod.mk.inj e).1; obtain ⟨h3, h4⟩ := Proc.scVector.inj h2
  exact Prod.ext h1 (Prod.ext h3 h4)

omit [FloatOps F] in
/-- The element's three rounds components, each owned through its embedding. -/
theorem ownU_split (a : UH) (b : UB) (r : UR) :
    (ownU ((a, (b, (r, 1))) : UU) : sProp 𝕄) ⊢ iprop(BI.own (EH a) ∗ BI.own (EB b) ∗ BI.own (ER r)) := by
  have h1 : (ownU ((a, (b, (r, 1))) : UU) : sProp 𝕄) ⊢ iprop(BI.own (EH a)
      ∗ BI.own ((uEmb (nD := nD) (sig := sig) (Ix := HIx 1) (Val := Elt F) (Name := ℕ) (U := UU) (Lvl := ℕ)).toEmb ((1 : UH), (b, ((r, 1) : UR × Counters))))) :=
    BI.own_op_elim ((uEmb (nD := nD) (sig := sig) (Ix := HIx 1) (Val := Elt F) (Name := ℕ) (U := UU) (Lvl := ℕ)).toEmb.op_of_mem
      (Prod.mk_mem_op (URA.mem_op_one a) (URA.mem_one_op (b, ((r, 1) : UR × Counters)))))
  have h2 : (BI.own ((uEmb (nD := nD) (sig := sig) (Ix := HIx 1) (Val := Elt F) (Name := ℕ) (U := UU) (Lvl := ℕ)).toEmb ((1 : UH), (b, ((r, 1) : UR × Counters)))) : sProp 𝕄)
      ⊢ iprop(BI.own (EB b) ∗ BI.own (ER r)) :=
    BI.own_op_elim ((uEmb (nD := nD) (sig := sig) (Ix := HIx 1) (Val := Elt F) (Name := ℕ) (U := UU) (Lvl := ℕ)).toEmb.op_of_mem
      (Prod.mk_mem_op (URA.mem_one_op (1 : UH)) (Prod.mk_mem_op (URA.mem_op_one b) (URA.mem_one_op ((r, 1) : UR × Counters)))))
  exact h1.trans (sep_mono .rfl h2)

omit [FloatOps F] in
/-- The pipeline's component funds every device's staging cells and tokens. -/
theorem pipe_fund :
    (BI.own (ER (initOf (Pipeline.cells (cfgsP (F := F)) hinjP) (Pipeline.launchToks (cfgsP (F := F)) hinjP))) : sProp 𝕄)
      ⊢ iprop(|==> bigSep Finset.univ (G (F := F))) := by
  refine (Pipeline.fund_ghost (cfgsP (F := F)) ER hinjP).trans (BI.bupd_mono ?_)
  rw [bigSep_sep']
  refine sep_mono (bigSep_mono fun c _ => ?_) (bigSep_mono fun c _ => ?_)
  · exact Entails.of_eq (bigSep_univ_of_subsingleton (0 : Fin 1))
  · exact Entails.of_eq (bigSep_univ_of_subsingleton (0 : Fin 1))

omit [FloatOps F] in
/-- Every barrier semaphore at zero, out of the free semaphores the launch hands over. -/
theorem sems_b : ((K (F := F)).freeSems0 : sProp 𝕄) ⊢ bigSep bCells fun g => semVal g 0 := by
  unfold SparseCore.Cfg.freeSems0 bCells
  rw [SparseCore.bigSep_image_of_injOn (fun a _ b _ e => bcell₃_injective e)]
  refine sep_elim_right.trans (bigSep_mono fun dci _ => ?_)
  unfold SparseCore.Cfg.vcSems0
  exact bigSep_elim (Φ := fun sm : SemLoc sig => (semVal (V dci.1 dci.2.1 dci.2.2, sm) 0 : sProp 𝕄))
    (Finset.mem_erase.mpr ⟨fun h => sc_bar0_ne_go (SemLoc.reg.inj h), Finset.mem_filter.mpr ⟨Finset.mem_univ _, by decide⟩⟩)

/-- The barrier cells' invariants, allocated at once. -/
theorem invs_b : iprop((bigSep bCells fun g => (semVal g 0 : sProp 𝕄)) ∗ bigSep bCells fun g => roundState EB (bRd (F := F) m) g 0)
    ⊢ |={Set.univ}=> iprop(∃ κ : GSem nD τ sig → ℕ, bigSep bCells fun g => cellInv EB (bRd (F := F) m) (κ g) g) := by
  refine (Rounds.bodies_intro EB (bRd (F := F) m) bCells).trans ((inv_alloc_family bCells (Rounds.body EB (bRd (F := F) m)) ∅ (E := Set.univ)).trans ?_)
  iintro H
  imod H with ⟨%κ, -, Hinv⟩
  imodintro; iexists κ; iexact Hinv

omit [FloatOps F] in
theorem sum_tallyAt_one (g : GSem nD τ sig) (ι : HIx 1) : ∀ n : ℕ, ∑ _ : Fin n, tallyAt g ι 1 = (tallyAt g ι n : CellTallies nD τ sig (HIx 1))
  | 0 => by rw [Finset.sum_empty' Finset.univ_eq_empty, tallyAt_zero]
  | n + 1 => by rw [Fin.sum_univ_castSucc, sum_tallyAt_one g ι n, tallyAt_add]
where
  Finset.sum_empty' {α β : Type} [AddCommMonoid β] {s : Finset α} (h : s = ∅) {f : α → β} : ∑ x ∈ s, f x = 0 := by rw [h, Finset.sum_empty]

/-- The credit for the tiles' debts, regrouped: each tile the sixteen units of its own cell. -/
theorem creds_b : ((P (F := F) m).oxCred : sProp 𝕄)
    ⊢ bigSep Finset.univ fun dci : DCI => if dci.2.1.val < 2 then cred (tallyAt (bcell₃ dci) (some 0) (grid0.bound 1)) else (BI.emp : sProp 𝕄) := by
  unfold SparseCore.Cfg.Pay.oxCred
  rw [SparseCore.Cfg.bigSep_threads (fun thr : Thread nD τ => (cred ((P (F := F) m).oxFrom 0 thr) : sProp 𝕄))]
  refine sep_elim_right.trans (sep_elim_right.trans ?_)
  rw [bigSep_univ_prod, bigSep_univ_prod (fun dci : DCI => if dci.2.1.val < 2 then (cred (tallyAt (bcell₃ dci) (some 0) (grid0.bound 1)) : sProp 𝕄) else BI.emp)]
  refine bigSep_mono fun d _ => ?_
  rw [bigSep_univ_prod, bigSep_univ_prod (fun ci : Fin τ.nSC × Fin τ.nSub => if ci.1.val < 2 then (cred (tallyAt (bcell₃ (d, ci)) (some 0) (grid0.bound 1)) : sProp 𝕄) else BI.emp)]
  refine bigSep_mono fun c _ => ?_
  dsimp only
  by_cases hc : c.val < 2
  · simp only [hc, ↓reduceIte]
    have hox : ∀ i, (P (F := F) m).oxFrom 0 (V d c i) = oxV d c := fun i => by
      rw [show (0 : ℕ) = (0 : Fin 1).val from rfl, (P m).oxFrom_step, (P m).oxFrom_end _ (n := (0 : Fin 1).val + 1) le_rfl, add_zero]; exact if_pos hc
    simp only [hox]
    unfold oxV
    rw [SparseCore.Cfg.cred_finsum, bigSep_univ_comm]
    refine bigSep_mono fun j _ => ?_
    rw [← SparseCore.Cfg.cred_finsum, sum_tallyAt_one]; rfl
  · simp only [hc, ↓reduceIte]
    exact bigSep_mono fun _ _ => fun _ _ => trivial

omit [FloatOps F] in
/-- A persistent resource beside a big separating conjunction goes to each conjunct. -/
theorem bigSep_mono_frame {I : Type} [DecidableEq I] {R : sProp 𝕄} [BI.Persistent R] {s : Finset I} {Φ Ψ : I → sProp 𝕄}
    (h : ∀ i ∈ s, iprop(R ∗ Φ i) ⊢ Ψ i) : iprop(R ∗ bigSep s Φ) ⊢ bigSep s Ψ := by
  induction s using Finset.induction_on with
  | empty => rw [bigSep_empty, bigSep_empty]; exact sep_elim_right
  | insert a s ha ih =>
    rw [SparseCore.bigSep_insert' ha, SparseCore.bigSep_insert' ha]
    iintro ⟨#HR, H1, H2⟩
    isplitl [H1]
    · iapply (h a (Finset.mem_insert_self _ _)); isplitr; · iexact HR
      iexact H1
    · iapply (ih fun i hi => h i (Finset.mem_insert_of_mem hi)); isplitr; · iexact HR
      iexact H2

omit [FloatOps F] in
theorem toks_eq : (bigSep bToks fun x => (dutyTok EB x.1 x.2.1 x.2.2 : sProp 𝕄))
    = bigSep Finset.univ fun dci : DCI => bigSep Finset.univ fun j : Fin (grid0.bound 1) => dutyTok EB (bcell dci.1 dci.2.1 (j.castLE hsub0)) 0 dci.2.2.val := by
  unfold bToks
  rw [SparseCore.bigSep_image_of_injOn, bigSep_univ_prod]
  rintro ⟨⟨d, c, i⟩, j⟩ - ⟨⟨d', c', i'⟩, j'⟩ - e
  have e1 := (Prod.mk.inj (Prod.mk.inj e).1).1
  have e2 : i.val = i'.val := (Prod.mk.inj (Prod.mk.inj e).2).2
  obtain ⟨rfl, h⟩ := Prod.mk.inj e1
  obtain ⟨rfl, hj⟩ := Proc.scVector.inj h
  have hj' : j = j' := Fin.ext (congrArg Fin.val hj)
  subst hj'
  have hi' : i = i' := Fin.ext e2
  subst hi'
  rfl

theorem Px_T (d : Dev nD) : (bigSep Finset.univ fun q : Fin 1 => (P (F := F) m).x q (SparseCore.T d)) = iprop(emp) :=
  bigSep_univ_of_subsingleton (0 : Fin 1)
theorem Px_S (d : Dev nD) (c : Fin τ.nSC) : (bigSep Finset.univ fun q : Fin 1 => (P (F := F) m).x q (S d c)) = iprop(emp) :=
  bigSep_univ_of_subsingleton (0 : Fin 1)
theorem Px_V (d : Dev nD) (c : Fin τ.nSC) (i : Fin τ.nSub) :
    (bigSep Finset.univ fun q : Fin 1 => (P (F := F) m).x q (V d c i)) = if c.val < 2 then bkit m d c i else iprop(emp) :=
  bigSep_univ_of_subsingleton (0 : Fin 1)

omit [FloatOps F] in
theorem bCells_eq (Φ : GSem nD τ sig → sProp 𝕄) : bigSep bCells Φ = bigSep Finset.univ fun x : DCI => Φ (bcell₃ x) := by
  unfold bCells; exact SparseCore.bigSep_image_of_injOn (fun a _ b _ e => bcell₃_injective e) Φ

/-- What every tile is handed alike: every barrier cell's invariant, and that each has reached round 0. -/
abbrev shared : sProp 𝕄 :=
  iprop((∃ κ : GSem nD τ sig → ℕ, bigSep Finset.univ fun x : DCI => cellInv EB (bRd (F := F) m) (κ (bcell₃ x)) (bcell₃ x))
    ∗ bigSep Finset.univ fun x : DCI => reached EB (bcell₃ x) 0)
/-- What each tile is handed of its own: its position, its tokens, its credit. -/
abbrev mine (dci : DCI) : sProp 𝕄 :=
  iprop(atPos EB (bcell₃ dci) 0 ∅ 0
    ∗ (bigSep Finset.univ fun j : Fin (grid0.bound 1) => dutyTok EB (bcell dci.1 dci.2.1 (j.castLE hsub0)) 0 dci.2.2.val)
    ∗ (if dci.2.1.val < 2 then cred (tallyAt (bcell₃ dci) (some 0) (grid0.bound 1)) else BI.emp))

/-- One tile's bundle out of those. -/
theorem kit_intro (dci : DCI) : iprop(shared (F := F) m ∗ mine dci) ⊢ (if dci.2.1.val < 2 then bkit (F := F) m dci.1 dci.2.1 dci.2.2 else iprop(emp) : sProp 𝕄) := by
  obtain ⟨d, c, i⟩ := dci
  iintro ⟨⟨#Hinv, #Hr⟩, Hat, Htok, Hcred⟩
  dsimp only
  split
  · unfold bkit
    isplitr
    · icases Hinv with ⟨%κ, Hinv⟩
      iexists κ
      iapply (SparseCore.ent (bigSep_mono_frame (s := (Finset.univ : Finset (Fin (grid0.bound 1)))) (Φ := fun _ => iprop(emp))
        (R := bigSep Finset.univ fun x : DCI => cellInv EB (bRd (F := F) m) (κ (bcell₃ x)) (bcell₃ x)) fun j _ =>
          sep_elim_left.trans (bigSep_elim (Φ := fun x : DCI => (cellInv EB (bRd (F := F) m) (κ (bcell₃ x)) (bcell₃ x) : sProp 𝕄))
            (i := (d, c, Fin.castLE hsub0 j)) (Finset.mem_univ _))))
      isplitl; · iexact Hinv
      rw [bigSep_emp']; iempintro
    isplitl [Htok]; · iexact Htok
    isplitr
    · iapply (SparseCore.ent (bigSep_mono_frame (s := (Finset.univ : Finset (Fin (grid0.bound 1)))) (Φ := fun _ => iprop(emp))
        (R := bigSep Finset.univ fun x : DCI => reached EB (bcell₃ x) 0) fun j _ =>
          sep_elim_left.trans (bigSep_elim (Φ := fun x : DCI => (reached EB (bcell₃ x) 0 : sProp 𝕄)) (i := (d, c, Fin.castLE hsub0 j)) (Finset.mem_univ _))))
      isplitl; · iexact Hr
      rw [bigSep_emp']; iempintro
    isplitl [Hat]; · iexact Hat
    iexact Hcred
  · iempintro

/-- Each tile its bundle. -/
theorem kits_deal :
    iprop(shared (F := F) m ∗ (bigSep Finset.univ fun x : DCI => atPos EB (bcell₃ x) 0 ∅ 0)
        ∗ (bigSep Finset.univ fun dci : DCI => bigSep Finset.univ fun j : Fin (grid0.bound 1) => dutyTok EB (bcell dci.1 dci.2.1 (j.castLE hsub0)) 0 dci.2.2.val)
        ∗ (bigSep Finset.univ fun dci : DCI => if dci.2.1.val < 2 then cred (tallyAt (bcell₃ dci) (some 0) (grid0.bound 1)) else BI.emp))
      ⊢ (bigSep Finset.univ fun thr : Thread nD τ => bigSep Finset.univ fun q : Fin 1 => (P (F := F) m).x q thr : sProp 𝕄) := by
  rw [SparseCore.Cfg.bigSep_threads (fun thr : Thread nD τ => bigSep Finset.univ fun q : Fin 1 => (P m).x q thr)]
  simp only [Px_T, Px_S, Px_V, bigSep_emp']
  iintro ⟨#Hsh, Hat, Htok, Hcred⟩
  isplitr; · iempintro
  isplitr; · iempintro
  iapply (bigSep_mono_frame (R := shared (F := F) m) (Φ := mine (F := F)) fun dci _ => kit_intro (F := F) m dci)
  isplitr; · iexact Hsh
  unfold mine
  rw [bigSep_sep', bigSep_sep']
  isplitl [Hat]; · iexact Hat
  isplitl [Htok]; · iexact Htok
  iexact Hcred

/-! ## The launch element funds the handshakes, every device's pipeline cells, and every tile's barrier bundle -/

theorem hu₀ : iprop(ownU (u₀ (F := F)) ∗ (P (F := F) m).oxCred ∗ (K (F := F)).freeSems0)
    ⊢ |={Set.univ}=> iprop(BI.own (EH (initOf (K (F := F)).hsCells (K (F := F)).hsToks)) ∗ bigSep Finset.univ (G (F := F))
        ∗ (bigSep Finset.univ fun thr : Thread nD τ => bigSep Finset.univ fun q : Fin 1 => (P m).x q thr) : sProp 𝕄) := by
  unfold u₀
  iintro ⟨Hu, Hcred, Hfree⟩
  ihave H := (ownU_split _ _ _) $$ Hu
  icases H with ⟨HH, HB, HR⟩
  imod (Rounds.fund EB (bRd (F := F) m) bCells bToks) $$ HB with ⟨Hst, #Hr, Hat, Htok⟩
  imod (pipe_fund (F := F)) $$ HR with HG
  ihave Hsems := (sems_b (F := F)) $$ Hfree
  imod (invs_b (F := F) m) $$ [Hsems Hst] with ⟨%κ, #Hinv⟩
  · isplitl [Hsems] <;> iassumption
  ihave Hcred' := (creds_b m) $$ Hcred
  ihave Hinv' := (Entails.of_eq (bCells_eq (F := F) fun g => cellInv EB (bRd (F := F) m) (κ g) g)) $$ Hinv
  ihave Hr' := (Entails.of_eq (bCells_eq (F := F) fun g => reached EB g 0)) $$ Hr
  ihave Hat' := (Entails.of_eq (bCells_eq (F := F) fun g => atPos EB g 0 ∅ 0)) $$ Hat
  ihave Htok' := (Entails.of_eq (toks_eq (F := F))) $$ Htok
  imodintro
  isplitl [HH]; · iexact HH
  isplitl [HG]; · iexact HG
  iapply (kits_deal m)
  isplitr
  · isplitl; · iexists κ; iexact Hinv'
    iexact Hr'
  isplitl [Hat']; · iexact Hat'
  isplitl [Htok']; · iexact Htok'
  iexact Hcred'

end Cert.Proof.KI

end
-- ==== Proof.TcRegionBody.lean ====
/-
  The dense network's block program on the TensorCore: what one run of it leaves in its eight staging buffers.

  The program loads the seven input blocks whole, computes the payload, and stores it over the whole output
  block. Run on staging buffers holding input blocks x0 … x6 it therefore ends with the inputs as they were and
  the output buffer at the payload of x0 … x6.
-/
import proofs.«206088_g82248623718559_cont_9to1c4b_230_21_alg».proof.Proof.ScSetup
import proofs.«206088_g82248623718559_cont_9to1c4b_230_21_alg».proof.Proof.Gen.KernelIdeal.Launch
import proofs.«206088_g82248623718559_cont_9to1c4b_230_21_alg».proof.Proof.Gen.KernelIdeal.Points
import Idealize.ShloMosaic.Lib.Pipeline.FrameBody
import Idealize.ShloMosaic.Lib.Ring

set_option maxRecDepth 16384

noncomputable section

namespace Cert.Proof.KI

open Cert.KernelIdeal Cert.KernelIdeal.Gen
open Idealize.ShloMosaic Idealize.ShloMosaic.TcCoe Idealize.ShloMosaic.Tactic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-! ## The body's accesses: each a whole block -/

abbrev r1_0 : Rect S6400x256 := Rect.unit (s := S6400x256) ![0, 0] S6400x256.size inb_S6400x256_S6400x256_0_0
abbrev r1_1 : Rect S6400x16 := Rect.unit (s := S6400x16) ![0, 0] S6400x16.size inb_S6400x16_S6400x16_0_0
abbrev r1_2 : Rect S256x544 := Rect.unit (s := S256x544) ![0, 0] S256x544.size inb_S256x544_S256x544_0_0
abbrev r1_3 : Rect S16x544 := Rect.unit (s := S16x544) ![0, 0] S16x544.size inb_S16x544_S16x544_0_0
abbrev r1_4 : Rect S1x544 := Rect.unit (s := S1x544) ![0, 0] S1x544.size inb_S1x544_S1x544_0_0
abbrev r1_5 : Rect S544x16 := Rect.unit (s := S544x16) ![0, 0] S544x16.size inb_S544x16_S544x16_0_0
abbrev r1_6 : Rect S1x16 := Rect.unit (s := S1x16) ![0, 0] S1x16.size inb_S1x16_S1x16_0_0

/-- The output block after the body, from the seven input blocks: its one store as a piece. -/
def out1_7 (x0 : Vec F S6400x256 .f32) (x1 : Vec F S6400x16 .f32) (x2 : Vec F S256x544 .bf16) (x3 : Vec F S16x544 .bf16)
    (x4 : Vec F S1x544 .f32) (x5 : Vec F S544x16 .bf16) (x6 : Vec F S1x16 .f32) : Vec F S6400x16 .f32 :=
  View.canon [⟨r1_1, k1_pay1 (View.ld x0 r1_0) (View.ld x2 r1_2) (View.ld x1 r1_1) (View.ld x3 r1_3) (View.ld x4 r1_4)
    (View.ld x5 r1_5) (View.ld x6 r1_6)⟩]

/-- The store covers the output block. -/
theorem cover1_7 (p0 : Vec F S6400x16 .f32) (y : S6400x16.Idx) :
    ∃ pc ∈ ([⟨r1_1, p0⟩] : List (View.Piece (Elt F) S6400x16 .f32)), y ∈ pc.1.set :=
  View.cover_of_tiled [⟨r1_1, p0⟩] S6400x16.size (by rfl) y

set_option maxHeartbeats 1000000 in
/-- The block program on whole staging memrefs, the inputs' at x0 … x6 and the output's at anything, runs to the
    continuation holding the inputs' as they were and the output's at the payload of the inputs. -/
theorem sound_kernel (c : Dev nD) (E : Set ℕ) (i : grid1.Coords)
    (arg1 : Memref sig .tc .vmem S6400x256 .f32) (harg1 : arg1.IsWhole) (arg2 : Memref sig .tc .vmem S6400x16 .f32) (harg2 : arg2.IsWhole)
    (arg3 : Memref sig .tc .vmem S256x544 .bf16) (harg3 : arg3.IsWhole) (arg4 : Memref sig .tc .vmem S16x544 .bf16) (harg4 : arg4.IsWhole)
    (arg5 : Memref sig .tc .vmem S1x544 .f32) (harg5 : arg5.IsWhole) (arg6 : Memref sig .tc .vmem S544x16 .bf16) (harg6 : arg6.IsWhole)
    (arg7 : Memref sig .tc .vmem S1x16 .f32) (harg7 : arg7.IsWhole) (arg8 : Memref sig .tc .vmem S6400x16 .f32) (harg8 : arg8.IsWhole)
    (x0 : Vec F S6400x256 .f32) (x1 : Vec F S6400x16 .f32) (x2 : Vec F S256x544 .bf16) (x3 : Vec F S16x544 .bf16)
    (x4 : Vec F S1x544 .f32) (x5 : Vec F S544x16 .bf16) (x6 : Vec F S1x16 .f32) (K' : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare (out1_7 x0 x1 x2 x3 x4 x5 x6)) -∗ K' ⟨⟩))
      ⊢ wp frame (wpE (defs₀ (F := F)) Variants.none c none) E
          (cc1__mlp_body i arg1 harg1 arg2 harg2 arg3 harg3 arg4 harg4 arg5 harg5 arg6 harg6 arg7 harg7 arg8 harg8) K' := by
  simp only [cc1__mlp_body_eq_skeleton]; unfold cc1__mlp_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover1_7 _)

end Cert.Proof.KI

end
-- ==== Proof.TcRegion.lean ====
/-
  The dense network's pipeline on the TensorCore as one step of the TensorCore's program.

  The pipeline visits the 50 blocks of 6400 edges in order; at block t it stages block t of the gathered node rows
  and of the edge features (and, once, the weights and biases), runs the block program, and writes the output block
  back to rows 6400 t … 6400 t + 6399 of the result. Its proof data: every input staging buffer holds its array's
  block at every point, the output buffer after the body holds the payload of the input blocks, the core owes
  nothing throughout. From that the region rule gives: entered holding the eight arrays whole, the region returns
  the seven inputs unchanged and the result array with block t equal to the payload of the inputs' blocks at t.
-/
import proofs.«206088_g82248623718559_cont_9to1c4b_230_21_alg».proof.Proof.TcRegionBody
import Idealize.ShloMosaic.Lib.Pipeline.Regions
import Idealize.ShloMosaic.Lib.Pipeline.Value

set_option maxRecDepth 16384

noncomputable section

namespace Cert.Proof.KI

open Cert.KernelIdeal Cert.KernelIdeal.Gen
open Idealize.ShloMosaic Idealize.ShloMosaic.TcCoe Idealize.ShloMosaic.Tactic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-- The one admissible choice of prefetched tables: none. -/
abbrev adm : (p : Fin 1) → (pcfgs (F := F) p).Adm := fun p => (cfgs p).toPCfg_adm

variable (B : Set (SemLoc sig × HIx 1)) (Vv : (c : Dev nD) → (b : Ref sig .tc) → Buf (Elt F) ((c : Thread nD τ).loc b))

/-! ## The windows' blocks -/

/-- Window w's block at point t, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (Vv c (Pipeline.arrRef spec1 w))

theorem before1_0_of {c : Dev nD} (dat : Dat τ (Elt F) (HIx 1) ℕ UU ℕ cfg1 c) (hA : dat.A 0 = Vv c (Pipeline.arrRef spec1 0))
    (hafter : ∀ t, dat.after 0 t = iblk Vv c 0 t) (t : Fin cfg1.N) (d) : dat.before 0 t d = iblk Vv c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_1_of {c : Dev nD} (dat : Dat τ (Elt F) (HIx 1) ℕ UU ℕ cfg1 c) (hA : dat.A 1 = Vv c (Pipeline.arrRef spec1 1))
    (hafter : ∀ t, dat.after 1 t = iblk Vv c 1 t) (t : Fin cfg1.N) (d) : dat.before 1 t d = iblk Vv c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before1_2_of {c : Dev nD} (dat : Dat τ (Elt F) (HIx 1) ℕ UU ℕ cfg1 c) (hA : dat.A 2 = Vv c (Pipeline.arrRef spec1 2))
    (hafter : ∀ t, dat.after 2 t = iblk Vv c 2 t) (t : Fin cfg1.N) (d) : dat.before 2 t d = iblk Vv c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before1_3_of {c : Dev nD} (dat : Dat τ (Elt F) (HIx 1) ℕ UU ℕ cfg1 c) (hA : dat.A 3 = Vv c (Pipeline.arrRef spec1 3))
    (hafter : ∀ t, dat.after 3 t = iblk Vv c 3 t) (t : Fin cfg1.N) (d) : dat.before 3 t d = iblk Vv c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before1_4_of {c : Dev nD} (dat : Dat τ (Elt F) (HIx 1) ℕ UU ℕ cfg1 c) (hA : dat.A 4 = Vv c (Pipeline.arrRef spec1 4))
    (hafter : ∀ t, dat.after 4 t = iblk Vv c 4 t) (t : Fin cfg1.N) (d) : dat.before 4 t d = iblk Vv c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before1_5_of {c : Dev nD} (dat : Dat τ (Elt F) (HIx 1) ℕ UU ℕ cfg1 c) (hA : dat.A 5 = Vv c (Pipeline.arrRef spec1 5))
    (hafter : ∀ t, dat.after 5 t = iblk Vv c 5 t) (t : Fin cfg1.N) (d) : dat.before 5 t d = iblk Vv c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before1_6_of {c : Dev nD} (dat : Dat τ (Elt F) (HIx 1) ℕ UU ℕ cfg1 c) (hA : dat.A 6 = Vv c (Pipeline.arrRef spec1 6))
    (hafter : ∀ t, dat.after 6 t = iblk Vv c 6 t) (t : Fin cfg1.N) (d) : dat.before 6 t d = iblk Vv c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The proof data -/

/-- The arrays as the region finds them; after the body at point t each input buffer at its block and the output
    buffer at the payload of the input blocks; nothing of the core's own in the invariant; nothing owed; the recorded
    pairs within B; full shares. -/
def dats (_ : Fin 1) (c : Dev nD) : Dat τ (Elt F) (HIx 1) ℕ UU ℕ cfg1 c where
  A w := Vv c (Pipeline.arrRef spec1 w)
  after w t := match w with
    | ⟨0, _⟩ => iblk Vv c 0 t
    | ⟨1, _⟩ => iblk Vv c 1 t
    | ⟨2, _⟩ => iblk Vv c 2 t
    | ⟨3, _⟩ => iblk Vv c 3 t
    | ⟨4, _⟩ => iblk Vv c 4 t
    | ⟨5, _⟩ => iblk Vv c 5 t
    | ⟨6, _⟩ => iblk Vv c 6 t
    | ⟨7, _⟩ => out1_7 (iblk Vv c 0 t) (iblk Vv c 1 t) (iblk Vv c 2 t) (iblk Vv c 3 t) (iblk Vv c 4 t) (iblk Vv c 5 t) (iblk Vv c 6 t)
  Φ _ := Pipeline.scopedRest spec1 c
  q _ := fullShare
  owed _ := 0
  recorded _ := B

theorem A_eq (c : Dev nD) (w : Fin cfg1.W) : (dats B Vv 0 c).A w = Vv c (Pipeline.arrRef spec1 w) := by
  dsimp only [dats]

theorem after1_0 (c : Dev nD) (t : Fin cfg1.N) : (dats B Vv 0 c).after 0 t = iblk Vv c 0 t := by dsimp only [dats]
theorem after1_1 (c : Dev nD) (t : Fin cfg1.N) : (dats B Vv 0 c).after 1 t = iblk Vv c 1 t := by dsimp only [dats]
theorem after1_2 (c : Dev nD) (t : Fin cfg1.N) : (dats B Vv 0 c).after 2 t = iblk Vv c 2 t := by dsimp only [dats]
theorem after1_3 (c : Dev nD) (t : Fin cfg1.N) : (dats B Vv 0 c).after 3 t = iblk Vv c 3 t := by dsimp only [dats]
theorem after1_4 (c : Dev nD) (t : Fin cfg1.N) : (dats B Vv 0 c).after 4 t = iblk Vv c 4 t := by dsimp only [dats]
theorem after1_5 (c : Dev nD) (t : Fin cfg1.N) : (dats B Vv 0 c).after 5 t = iblk Vv c 5 t := by dsimp only [dats]
theorem after1_6 (c : Dev nD) (t : Fin cfg1.N) : (dats B Vv 0 c).after 6 t = iblk Vv c 6 t := by dsimp only [dats]
theorem after1_7 (c : Dev nD) (t : Fin cfg1.N) :
    (dats B Vv 0 c).after 7 t = out1_7 (iblk Vv c 0 t) (iblk Vv c 1 t) (iblk Vv c 2 t) (iblk Vv c 3 t) (iblk Vv c 4 t) (iblk Vv c 5 t) (iblk Vv c 6 t) := by dsimp only [dats]

theorem before1_0 (c : Dev nD) (t : Fin cfg1.N) (d) : (dats B Vv 0 c).before 0 t d = iblk Vv c 0 t :=
  before1_0_of Vv (dats B Vv 0 c) (A_eq B Vv c 0) (after1_0 B Vv c) t d
theorem before1_1 (c : Dev nD) (t : Fin cfg1.N) (d) : (dats B Vv 0 c).before 1 t d = iblk Vv c 1 t :=
  before1_1_of Vv (dats B Vv 0 c) (A_eq B Vv c 1) (after1_1 B Vv c) t d
theorem before1_2 (c : Dev nD) (t : Fin cfg1.N) (d) : (dats B Vv 0 c).before 2 t d = iblk Vv c 2 t :=
  before1_2_of Vv (dats B Vv 0 c) (A_eq B Vv c 2) (after1_2 B Vv c) t d
theorem before1_3 (c : Dev nD) (t : Fin cfg1.N) (d) : (dats B Vv 0 c).before 3 t d = iblk Vv c 3 t :=
  before1_3_of Vv (dats B Vv 0 c) (A_eq B Vv c 3) (after1_3 B Vv c) t d
theorem before1_4 (c : Dev nD) (t : Fin cfg1.N) (d) : (dats B Vv 0 c).before 4 t d = iblk Vv c 4 t :=
  before1_4_of Vv (dats B Vv 0 c) (A_eq B Vv c 4) (after1_4 B Vv c) t d
theorem before1_5 (c : Dev nD) (t : Fin cfg1.N) (d) : (dats B Vv 0 c).before 5 t d = iblk Vv c 5 t :=
  before1_5_of Vv (dats B Vv 0 c) (A_eq B Vv c 5) (after1_5 B Vv c) t d
theorem before1_6 (c : Dev nD) (t : Fin cfg1.N) (d) : (dats B Vv 0 c).before 6 t d = iblk Vv c 6 t :=
  before1_6_of Vv (dats B Vv 0 c) (A_eq B Vv c 6) (after1_6 B Vv c) t d

/-! ## The body obligation -/

def bodyPre (c : Dev nD) (t : Fin cfg1.N) : sProp 𝕄 :=
  iprop((dats B Vv 0 c).Φ t.castSucc ∗ (dats B Vv 0 c).owesAt (none : HIx 1) t.castSucc
    ∗ (∃ d, owns (c : Thread nD τ) (st1_0 t) fullShare ((dats B Vv 0 c).before 0 t d))
    ∗ (∃ d, owns (c : Thread nD τ) (st1_1 t) fullShare ((dats B Vv 0 c).before 1 t d))
    ∗ (∃ d, owns (c : Thread nD τ) (st1_2 t) fullShare ((dats B Vv 0 c).before 2 t d))
    ∗ (∃ d, owns (c : Thread nD τ) (st1_3 t) fullShare ((dats B Vv 0 c).before 3 t d))
    ∗ (∃ d, owns (c : Thread nD τ) (st1_4 t) fullShare ((dats B Vv 0 c).before 4 t d))
    ∗ (∃ d, owns (c : Thread nD τ) (st1_5 t) fullShare ((dats B Vv 0 c).before 5 t d))
    ∗ (∃ d, owns (c : Thread nD τ) (st1_6 t) fullShare ((dats B Vv 0 c).before 6 t d))
    ∗ (∃ d, owns (c : Thread nD τ) (st1_7 t) fullShare ((dats B Vv 0 c).before 7 t d)))

def bodyPost (c : Dev nD) (t : Fin cfg1.N) : sProp 𝕄 :=
  iprop((dats B Vv 0 c).Φ t.succ ∗ (dats B Vv 0 c).owesAt (none : HIx 1) t.succ
    ∗ owns (c : Thread nD τ) (st1_0 t) fullShare ((dats B Vv 0 c).after 0 t)
    ∗ owns (c : Thread nD τ) (st1_1 t) fullShare ((dats B Vv 0 c).after 1 t)
    ∗ owns (c : Thread nD τ) (st1_2 t) fullShare ((dats B Vv 0 c).after 2 t)
    ∗ owns (c : Thread nD τ) (st1_3 t) fullShare ((dats B Vv 0 c).after 3 t)
    ∗ owns (c : Thread nD τ) (st1_4 t) fullShare ((dats B Vv 0 c).after 4 t)
    ∗ owns (c : Thread nD τ) (st1_5 t) fullShare ((dats B Vv 0 c).after 5 t)
    ∗ owns (c : Thread nD τ) (st1_6 t) fullShare ((dats B Vv 0 c).after 6 t)
    ∗ owns (c : Thread nD τ) (st1_7 t) fullShare ((dats B Vv 0 c).after 7 t))

theorem sound_body (c : Dev nD) (t : Fin cfg1.N) :
    bodyPre B Vv c t ⊢ wp frame (wpE (defs₀ (F := F)) Variants.none c none) Set.univ (bodyAt1 t) (fun _ => bodyPost B Vv c t) := by
  unfold bodyPre bodyPost bodyAt1
  simp only [before1_0, before1_1, before1_2, before1_3, before1_4, before1_5, before1_6]
  rw [show (dats B Vv 0 c).Φ t.succ = (dats B Vv 0 c).Φ t.castSucc from rfl,
    show (dats B Vv 0 c).owesAt (none : HIx 1) t.succ = (dats B Vv 0 c).owesAt (none : HIx 1) t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid1.coords t) _ _ _ _ _ _ _ _ _ _ _ _ _ _ _ _
    (iblk Vv c 0 t) (iblk Vv c 1 t) (iblk Vv c 2 t) (iblk Vv c 3 t) (iblk Vv c 4 t) (iblk Vv c 5 t) (iblk Vv c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation (c : Dev nD) : BodyObligation (dats (F := F) B Vv 0 c) (defs₀ (F := F)) Variants.none (none : HIx 1) Set.univ := fun t => by
  rw [bigSep_W1, bigSep_W1]
  exact sound_body B Vv c t

end Cert.Proof.KI

end
-- ==== Proof.TcRegionCall.lean ====
/-
  Entering the dense network's pipeline from the TensorCore's program, and what it returns.
-/
import proofs.«206088_g82248623718559_cont_9to1c4b_230_21_alg».proof.Proof.TcRegion

set_option maxRecDepth 16384

noncomputable section

namespace Cert.Proof.KI

open Cert.KernelIdeal Cert.KernelIdeal.Gen
open Idealize.ShloMosaic Idealize.ShloMosaic.TcCoe Idealize.ShloMosaic.Tactic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

variable (L : GSem nD τ sig → Finset (HIx 1)) (lv : GSem nD τ sig → HIx 1 → ℕ)
variable (B : Set (SemLoc sig × HIx 1)) (Vv : (c : Dev nD) → (b : Ref sig .tc) → Buf (Elt F) ((c : Thread nD τ).loc b))

theorem share_full (c : Dev nD) (w : Fin cfg1.W) : (dats B Vv 0 c).share w = fullShare :=
  (dats B Vv 0 c).share_full (fun _ => rfl) w

theorem prefHeld_none (c : Dev nD) (q) (pf) :
    (Pipeline.prefHeld (Ix := HIx 1) (Name := ℕ) (U := UU) (Lvl := ℕ) (Val := Elt F) (pcfgs (F := F) 0).pre c q pf : sProp 𝕄) = BI.emp :=
by
  unfold Pipeline.prefHeld; rw [Finset.univ_eq_empty]; exact bigSep_empty

theorem Φ_eq (c : Dev nD) (t : Fin (cfg1.N + 1)) : (dats B Vv 0 c).Φ t = Pipeline.scopedRest spec1 c := by dsimp only [dats]

theorem scopedRest_pin (c : Dev nD) :
    (Pipeline.scopedRest (τ := τ) (Ix := HIx 1) (Name := ℕ) (U := UU) (Lvl := ℕ) (Val := Elt F) (Pipeline.pin (pcfgs (F := F)) adm 0).spec c)
      = Pipeline.scopedRest spec1 c := rfl

/-- The result array after the region: the write-backs of all 50 points applied to what the array held. -/
def Rout (c : Dev nD) : Buf (Elt F) ((c : Thread nD τ).loc main_v10) := (dats B Vv 0 c).arrAt 7 cfg1.N

/-- What the region is entered with: the eight arrays whole, the core owing nothing with its recorded pairs in B. -/
def regionPre (c : Dev nD) : sProp 𝕄 :=
  iprop((bigSep Finset.univ fun w : Fin 8 => (((c : Thread nD τ).loc (Pipeline.arrRef spec1 w)) ↦{fullShare} Vv c (Pipeline.arrRef spec1 w) : sProp 𝕄))
    ∗ Pipeline.owesWithin c 0 B)

/-- What it returns: the arrays after the write-backs, the core owing nothing. -/
def regionPost (c : Dev nD) : sProp 𝕄 :=
  iprop((bigSep Finset.univ fun w : Fin 8 => (((c : Thread nD τ).loc (Pipeline.arrRef spec1 w)) ↦{fullShare} (dats B Vv 0 c).arrAt w cfg1.N : sProp 𝕄))
    ∗ Pipeline.owesWithin c 0 (B ∪ cfg1.waitPairs (none : HIx 1)))

/-- The region as the region rule reads it. -/
def region : Pipeline.RegionSeg (pcfgs (F := F)) adm (dats B Vv) (none : HIx 1) defs₀ 𝒱₀ L lv (0 : Fin 1) where
  win := winFacts1.to₀
  block_pos := block_pos1
  stage_whole := stage_whole1
  K := PEmpty
  osem k := k.elim
  ho := Pipeline.OwnSemFacts.none _
  hbody c := (body_obligation B Vv c).loose
  hwaits := Pipeline.hwaits_of_owed_zero _ _ _ _ L lv 0 fun _ _ => rfl
  pre := regionPre B Vv
  post := regionPost B Vv
  X _ := BI.emp
  Y _ := BI.emp
  Z _ := BI.emp
  hentry c := by
    rw [Pipeline.ownSems0_none, prefHeld_none, Pipeline.arrays_eq cfgs (dats B Vv) 0 c arr_whole1 (share_full B Vv c)]
    unfold regionPre
    iintro ⟨⟨Ha, ⟨%W, %hW, HO⟩⟩, -, -⟩
    imodintro
    isplitl [Ha]; · iexact Ha
    isplitr; · iempintro
    isplitl [HO]
    · iexists W; isplitr; · ipureintro; exact fun p hp => Or.inl (hW hp)
      iexact HO
    isplitr <;> iempintro
  hin c := by
    rw [scopedRest_pin, Φ_eq]
    iintro ⟨-, -, H⟩; iexact H
  hout c := by
    rw [Pipeline.ownSems0_none, scopedRest_pin, Φ_eq]
    iintro H
    isplitr; · iempintro
    isplitr; · iempintro
    iexact H
  hexit c := by
    rw [Pipeline.arrays_eq cfgs (dats B Vv) 0 c arr_whole1 (share_full B Vv c)]
    unfold regionPost
    iintro ⟨Ha, HO, -, -⟩
    imodintro
    isplitl [Ha]; · iexact Ha
    iexact HO

theorem region_pre (c : Dev nD) : (region L lv B Vv).pre c = regionPre B Vv c := rfl
theorem region_post (c : Dev nD) : (region L lv B Vv).post c = regionPost B Vv c := rfl

/-- The call of the pipeline in the extended signature is the lift of the call in the pipeline's own. -/
theorem lift_entry :
    SparseCore.liftProg (Q := 1) (.op (.customCall (Pipeline.entry (0 : Fin 1)) ()) fun _ => .ret ⟨⟩)
      = (Prog.lift (.customCall (SparseCore.inner (Pipeline.entry 0)) ()) :
          Prog (TpuEff nD τ sig (Elt F) (SparseCore.Sig (ΛP (F := F)) 1) .tc) PUnit) := rfl

/-- The program's staging cells are pairwise distinct, at the one admissible choice of tables. -/
theorem phinj : Function.Injective (Pipeline.cellOf (nD := nD) (τ := τ) (Pipeline.pin (pcfgs (F := F)) adm)) :=
  (launch1.toP (Val := Elt F)).cellOf_inj adm

set_option backward.isDefEq.respectTransparency.types false in
/-- THE REGION as a step of the TensorCore's program: holding the region boundary, the eight arrays whole, the core
    owing nothing, the level facts and the pipeline's staging cells' ghost state, the call of the pipeline runs to the
    continuation, which gets the boundary back, the arrays after the write-backs and the core owing nothing. -/
theorem tc_region (d : Dev nD) {α : Type}
    (k : PUnit → Prog (TpuEff nD τ sig (Elt F) (SparseCore.Sig (ΛP (F := F)) 1) .tc) α) (Q : α → sProp 𝕄) :
    iprop(boundary (d : Thread nD τ) ∗ regionPre B Vv d ∗ levAts L lv
        ∗ Pipeline.cellsGhost (Pipeline.pin (pcfgs (F := F)) adm) ER 0 d ∗ Pipeline.toksInit (Pipeline.pin (pcfgs (F := F)) adm) ER 0 d
        ∗ (iprop(boundary (d : Thread nD τ) ∗ regionPost B Vv d)
            -∗ wp frame (wpE ((K (F := F)).defs D) 𝒱 (d : Thread nD τ) none) Set.univ (k ⟨⟩) Q))
      ⊢ wp frame (wpE ((K (F := F)).defs D) 𝒱 (d : Thread nD τ) none) Set.univ
          (Prog.lift (.customCall (SparseCore.inner (Pipeline.entry 0)) ()) >>= k) Q := by
  rw [wp_bind, ← lift_entry]
  refine BIBase.Entails.trans ?_ ((K (F := F)).wp_liftProg D 𝒱 (d : Thread nD τ) Set.univ none
    (.op (.customCall (Pipeline.entry 0) ()) fun _ => .ret ⟨⟩)
    (fun a => wp frame (wpE ((K (F := F)).defs D) 𝒱 (d : Thread nD τ) none) Set.univ (k a) Q))
  refine BIBase.Entails.trans ?_ (Pipeline.RegionSeg.wp (pcfgs (F := F)) adm (dats B Vv) (none : HIx 1) phinj ER defs₀ 𝒱₀ L lv (region L lv B Vv) d none
    (fun _ h => nomatch h) (fun _ => .ret ⟨⟩)
    (fun a => wp frame (wpE ((K (F := F)).defs D) 𝒱 (d : Thread nD τ) none) Set.univ (k a) Q))
  rw [region_pre, region_post]
  iintro ⟨Hb, Hpre, #Hlev, Hg, Ht, Hk⟩
  isplitl [Hk]
  · iintro ⟨Hb, Hpost⟩
    rw [wp_ret]
    imodintro
    iapply Hk
    isplitl [Hb]; · iexact Hb
    iexact Hpost
  isplitl [Hb]; · iexact Hb
  isplitl [Hpre]; · iexact Hpre
  isplitr; · iexact Hlev
  isplitl [Hg]; · iexact Hg
  iexact Ht

end Cert.Proof.KI

end
-- ==== Proof.ScMainDefs.lean ====
/-
  @main on the TensorCore, the vocabulary: the TensorCore's nineteen arrays, the nine host operations that run before
  the two kernels, the contents of the arrays after them and after the SparseCore call, what @main leaves for the
  claim (the eight arguments unchanged and the result array at what the dense network's pipeline leaves in it), and
  how the final memory reads it.
-/
import proofs.«206088_g82248623718559_cont_9to1c4b_230_21_alg».proof.Proof.ScPay
import proofs.«206088_g82248623718559_cont_9to1c4b_230_21_alg».proof.Proof.TcRegionCall
import Idealize.ShloMosaic.Lib.StableHlo.Run

set_option maxRecDepth 16384

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_split held_sdiff_result wp_hlo_within)

variable {F : FTy → Type}

local notation "𝕄" => MT nD τ sig (HIx 1) (Elt F) ℕ UU ℕ

/-! ## The TensorCore's arrays -/

abbrev a0' : DevRef τ sig := Proc.devRef .tc (main_arg0 : Ref sig .tc)
abbrev a1' : DevRef τ sig := Proc.devRef .tc (main_arg1 : Ref sig .tc)
abbrev a2' : DevRef τ sig := Proc.devRef .tc (main_arg2 : Ref sig .tc)
abbrev a3' : DevRef τ sig := Proc.devRef .tc (main_arg3 : Ref sig .tc)
abbrev a4' : DevRef τ sig := Proc.devRef .tc (main_arg4 : Ref sig .tc)
abbrev a5' : DevRef τ sig := Proc.devRef .tc (main_arg5 : Ref sig .tc)
abbrev a6' : DevRef τ sig := Proc.devRef .tc (main_arg6 : Ref sig .tc)
abbrev a7' : DevRef τ sig := Proc.devRef .tc (main_arg7 : Ref sig .tc)
abbrev v0' : DevRef τ sig := Proc.devRef .tc (main_v0 : Ref sig .tc)
abbrev v1' : DevRef τ sig := Proc.devRef .tc (main_v1 : Ref sig .tc)
abbrev v2' : DevRef τ sig := Proc.devRef .tc (main_v2 : Ref sig .tc)
abbrev v3' : DevRef τ sig := Proc.devRef .tc (main_v3 : Ref sig .tc)
abbrev v4' : DevRef τ sig := Proc.devRef .tc (main_v4 : Ref sig .tc)
abbrev v5' : DevRef τ sig := Proc.devRef .tc (main_v5 : Ref sig .tc)
abbrev v6' : DevRef τ sig := Proc.devRef .tc (main_v6 : Ref sig .tc)
abbrev v7' : DevRef τ sig := Proc.devRef .tc (main_v7 : Ref sig .tc)
abbrev v8' : DevRef τ sig := Proc.devRef .tc (main_v8 : Ref sig .tc)
abbrev v9' : DevRef τ sig := Proc.devRef .tc (main_v9 : Ref sig .tc)
abbrev v10' : DevRef τ sig := Proc.devRef .tc (main_v10 : Ref sig .tc)

/-- The TensorCore's nineteen arrays, all unscoped. -/
abbrev S19 : Finset (DevRef τ sig) := {a0', a1', a2', a3', a4', a5', a6', a7', v0', v1', v2', v3', v4', v5', v6', v7', v8', v9', v10'}

variable [FloatOps F]

/-! ## The nine host operations -/

abbrev op0 : HloOp τ sig (Elt F) := StableHlo.unary main_arg2 main_v0 ((transpose S272x544 [1, 0] · transposes_S544x272_S272x544_1_0) : (⟨S544x272, .f32⟩ : BufTy).Contents (Elt F) → (⟨S272x544, .f32⟩ : BufTy).Contents (Elt F))
abbrev op1 : HloOp τ sig (Elt F) := StableHlo.unary main_v0 main_v1 ((extractStridedSlice S256x544 ![0, 0] · slices_S272x544_S256x544_0_0) : (⟨S272x544, .f32⟩ : BufTy).Contents (Elt F) → (⟨S256x544, .f32⟩ : BufTy).Contents (Elt F))
abbrev op2 : HloOp τ sig (Elt F) := StableHlo.unary main_v1 main_v2 ((truncf .bf16 · bitsLt_bf16_f32) : (⟨S256x544, .f32⟩ : BufTy).Contents (Elt F) → (⟨S256x544, .bf16⟩ : BufTy).Contents (Elt F))
abbrev op3 : HloOp τ sig (Elt F) := StableHlo.unary main_v0 main_v3 ((extractStridedSlice S16x544 ![256, 0] · slices_S272x544_S16x544_256_0) : (⟨S272x544, .f32⟩ : BufTy).Contents (Elt F) → (⟨S16x544, .f32⟩ : BufTy).Contents (Elt F))
abbrev op4 : HloOp τ sig (Elt F) := StableHlo.unary main_v3 main_v4 ((truncf .bf16 · bitsLt_bf16_f32) : (⟨S16x544, .f32⟩ : BufTy).Contents (Elt F) → (⟨S16x544, .bf16⟩ : BufTy).Contents (Elt F))
abbrev op5 : HloOp τ sig (Elt F) := StableHlo.reshape main_arg3 main_v5 rfl shapeCasts_S544_S1x544
abbrev op6 : HloOp τ sig (Elt F) := StableHlo.unary main_arg4 main_v6 ((transpose S544x16 [1, 0] · transposes_S16x544_S544x16_1_0) : (⟨S16x544, .f32⟩ : BufTy).Contents (Elt F) → (⟨S544x16, .f32⟩ : BufTy).Contents (Elt F))
abbrev op7 : HloOp τ sig (Elt F) := StableHlo.unary main_v6 main_v7 ((truncf .bf16 · bitsLt_bf16_f32) : (⟨S544x16, .f32⟩ : BufTy).Contents (Elt F) → (⟨S544x16, .bf16⟩ : BufTy).Contents (Elt F))
abbrev op8 : HloOp τ sig (Elt F) := StableHlo.reshape main_arg5 main_v8 rfl shapeCasts_S16_S1x16

variable (m : (ℓ : Loc nD τ sig) → Buf (Elt F) ℓ) (ρ : Dev nD → PrngReg)

/-! ## The valuations -/

/-- The launch valuation. -/
def V0 (d : Dev nD) : Valuation τ sig (Elt F) := fun b => m (d, b)
/-- After the nine host operations. -/
def V9 (d : Dev nD) : Valuation τ sig (Elt F) :=
  (op8 (F := F)).result ((op7 (F := F)).result ((op6 (F := F)).result ((op5 (F := F)).result ((op4 (F := F)).result
    ((op3 (F := F)).result ((op2 (F := F)).result ((op1 (F := F)).result ((op0 (F := F)).result (V0 m d)))))))))
/-- After the SparseCore call: the gathered array in place. -/
def V10 (d : Dev nD) : Valuation τ sig (Elt F) := Function.update (V9 m d) v9' (gatherC m d)
/-- What the region is entered with, as a family over the devices. -/
def Vreg : (c : Dev nD) → (b : Ref sig .tc) → Buf (Elt F) ((c.tc : Thread nD τ).loc b) := fun c b => V10 m c (Proc.devRef .tc b)

/-- The pairs the TensorCore may have recorded when the region is entered: those at or below level 8. -/
def Breg (d : Dev nD) : Set (SemLoc sig × HIx 1) := {p | (K (F := F)).lev (T d, p.1) p.2 ≤ 8}

/-! ## What @main leaves -/

/-- The eight arguments at their launch contents and the result array at what the region leaves in it. -/
def FIN (d : Dev nD) : sProp 𝕄 :=
  iprop(((SparseCore.T d).loc main_arg0 ↦{fullShare} m ((SparseCore.T d).loc main_arg0)) ∗ ((SparseCore.T d).loc main_arg1 ↦{fullShare} m ((SparseCore.T d).loc main_arg1))
    ∗ ((SparseCore.T d).loc main_arg2 ↦{fullShare} m ((SparseCore.T d).loc main_arg2)) ∗ ((SparseCore.T d).loc main_arg3 ↦{fullShare} m ((SparseCore.T d).loc main_arg3))
    ∗ ((SparseCore.T d).loc main_arg4 ↦{fullShare} m ((SparseCore.T d).loc main_arg4)) ∗ ((SparseCore.T d).loc main_arg5 ↦{fullShare} m ((SparseCore.T d).loc main_arg5))
    ∗ ((SparseCore.T d).loc main_arg6 ↦{fullShare} m ((SparseCore.T d).loc main_arg6)) ∗ ((SparseCore.T d).loc main_arg7 ↦{fullShare} m ((SparseCore.T d).loc main_arg7))
    ∗ ((SparseCore.T d).loc main_v10 ↦{fullShare} Rout (Breg (F := F) d) (Vreg m) d))

/-- The final memory: every argument at its launch contents, the result array at the region's result. -/
def fq (d : Dev nD) (s' : Phys nD τ sig (Elt F)) : Prop :=
  s'.mem.mem ((SparseCore.T d).loc main_arg0) = m ((SparseCore.T d).loc main_arg0) ∧ s'.mem.mem ((SparseCore.T d).loc main_arg1) = m ((SparseCore.T d).loc main_arg1)
    ∧ s'.mem.mem ((SparseCore.T d).loc main_arg2) = m ((SparseCore.T d).loc main_arg2) ∧ s'.mem.mem ((SparseCore.T d).loc main_arg3) = m ((SparseCore.T d).loc main_arg3)
    ∧ s'.mem.mem ((SparseCore.T d).loc main_arg4) = m ((SparseCore.T d).loc main_arg4) ∧ s'.mem.mem ((SparseCore.T d).loc main_arg5) = m ((SparseCore.T d).loc main_arg5)
    ∧ s'.mem.mem ((SparseCore.T d).loc main_arg6) = m ((SparseCore.T d).loc main_arg6) ∧ s'.mem.mem ((SparseCore.T d).loc main_arg7) = m ((SparseCore.T d).loc main_arg7)
    ∧ s'.mem.mem ((SparseCore.T d).loc main_v10) = Rout (Breg (F := F) d) (Vreg m) d

/-- A whole array held at the full share has, in the final memory, the contents it is held at. -/
theorem agree_one (s' : Phys nD τ sig (Elt F)) (ℓ : Loc nD τ sig) (f : Buf (Elt F) ℓ) :
    iprop(SI s' ∗ (ℓ ↦{fullShare} f)) ⊢ (iprop(⌜s'.mem.mem ℓ = f⌝ ∗ SI s') : sProp 𝕄) := by
  iintro ⟨HSI, Hx⟩
  ihave H := (persistent_entails_right (SI_pointsTo_agree (st := s') (ℓ := ℓ) (I := Finset.univ) (q := fullShare) (f := f))) $$ [HSI Hx]
  · isplitl [HSI] <;> iassumption
  icases H with ⟨%h1, HSI, -⟩
  isplitr
  · ipureintro; exact funext fun i => h1 i (Finset.mem_univ i)
  · iexact HSI

theorem hfin (d : Dev nD) (s' : Phys nD τ sig (Elt F)) : iprop(FIN m d ∗ SI s') ⊢ (⌜fq m d s'⌝ : sProp 𝕄) := by
  unfold FIN
  iintro ⟨⟨H0, H1, H2, H3, H4, H5, H6, H7, H10⟩, HSI⟩
  ihave H := (agree_one s' _ _) $$ [HSI H0]
  · isplitl [HSI] <;> iassumption
  icases H with ⟨%e0, HSI⟩
  ihave H := (agree_one s' _ _) $$ [HSI H1]
  · isplitl [HSI] <;> iassumption
  icases H with ⟨%e1, HSI⟩
  ihave H := (agree_one s' _ _) $$ [HSI H2]
  · isplitl [HSI] <;> iassumption
  icases H with ⟨%e2, HSI⟩
  ihave H := (agree_one s' _ _) $$ [HSI H3]
  · isplitl [HSI] <;> iassumption
  icases H with ⟨%e3, HSI⟩
  ihave H := (agree_one s' _ _) $$ [HSI H4]
  · isplitl [HSI] <;> iassumption
  icases H with ⟨%e4, HSI⟩
  ihave H := (agree_one s' _ _) $$ [HSI H5]
  · isplitl [HSI] <;> iassumption
  icases H with ⟨%e5, HSI⟩
  ihave H := (agree_one s' _ _) $$ [HSI H6]
  · isplitl [HSI] <;> iassumption
  icases H with ⟨%e6, HSI⟩
  ihave H := (agree_one s' _ _) $$ [HSI H7]
  · isplitl [HSI] <;> iassumption
  icases H with ⟨%e7, HSI⟩
  ihave H := (agree_one s' _ _) $$ [HSI H10]
  · isplitl [HSI] <;> iassumption
  icases H with ⟨%e10, HSI⟩
  ipureintro
  exact ⟨e0, e1, e2, e3, e4, e5, e6, e7, e10⟩

end Cert.Proof.KI

end
-- ==== Proof.LibIdealReal.lean ====
/-
  Laws of the exact extended-real arithmetic used when two programs compute one real-valued formula in different
  arrangements: a product with a reciprocal against a quotient, a quotient of a product by a nonzero real constant
  against the product with that constant's reciprocal, the square against the power with exponent two, a sum of
  negated terms against the negated sum, and a quotient of a sum against the sum of the quotients.

  The extended reals are not a field: `0 / 0` and `0 * (1 / 0)` differ, opposite infinities do not cancel, and
  negation does not distribute over `⊤ + ⊥`. Each law below therefore names what it needs: a nonzero divisor, or that
  the terms are real numbers. The predicate `IsReal` says that an extended real is (the image of) a real number, and
  is closed under the operations met here, so that the needed facts propagate through a long formula step by step.
-/
import Idealize.ShloMosaic.PureOps.Ideal

noncomputable section

namespace Cert.LibIdealReal

open Idealize.ShloMosaic
open scoped BigOperators

variable {ι : Type*}

/-! ## Quotients -/

/-- `x * (1 / y) = x / y` for a divisor other than zero (an infinite divisor included: both sides are `x * 0`). At
    `y = 0` the law fails for `x = 0`: the quotient is the junk value `⊥`, the product `0 * ⊤ = 0`. -/
theorem mul_recip (x y : EReal) (hy : y ≠ 0) : x * Ideal.div 1 y = Ideal.div x y := by
  unfold Ideal.div; rw [if_neg hy, if_neg hy, one_mul]

/-- The quotient of two real numbers, the divisor nonzero, is the real quotient. -/
theorem div_coe_coe (x : ℝ) {y : ℝ} (hy : y ≠ 0) : Ideal.div (x : EReal) (y : EReal) = ((x / y : ℝ) : EReal) := by
  rw [Ideal.div_coe hy, ← EReal.coe_mul, _root_.mul_one_div]

/-- `(a * b) / D = a * (b * (1 / D))` for a nonzero real constant `D`, whatever `a` and `b` are: multiplication of
    extended reals is associative. -/
theorem div_mul_assoc {D : ℝ} (hD : D ≠ 0) (a b : EReal) :
    Ideal.div (a * b) (D : EReal) = a * (b * ((1 / D : ℝ) : EReal)) := by
  rw [Ideal.div_coe hD, mul_assoc]

/-- The power with exponent two of a real number is its square. -/
theorem pow_two (r : ℝ) : Ideal.pow (r : EReal) ((2 : ℝ) : EReal) = (r : EReal) * (r : EReal) := by
  show ((Real.rpow r 2 : ℝ) : EReal) = _
  rw [← EReal.coe_mul]; congr 1
  show r ^ (2 : ℝ) = r * r
  rw [Real.rpow_two, sq]

/-! ## Finite sums of real numbers -/

/-- The inclusion of the reals commutes with finite sums. -/
theorem coe_sum (A : Finset ι) (f : ι → ℝ) : ((∑ j ∈ A, f j : ℝ) : EReal) = ∑ j ∈ A, (f j : EReal) := by
  induction A using Finset.cons_induction with
  | empty => rw [Finset.sum_empty, Finset.sum_empty, EReal.coe_zero]
  | cons a A ha ih => rw [Finset.sum_cons, Finset.sum_cons, EReal.coe_add, ih]

/-- `0 - x` is `-x`. -/
theorem zero_sub_coe (x : ℝ) : (0 : EReal) - (x : EReal) = ((-x : ℝ) : EReal) := by
  rw [← EReal.coe_zero, ← EReal.coe_sub, zero_sub]

/-- Summing `0 - x j` over real terms gives the negated sum. -/
theorem sum_zero_sub (A : Finset ι) (x : ι → ℝ) :
    ∑ j ∈ A, ((0 : EReal) - (x j : EReal)) = -(∑ j ∈ A, (x j : EReal)) := by
  rw [← coe_sum, ← EReal.coe_neg, ← Finset.sum_neg_distrib, coe_sum]
  exact Finset.sum_congr rfl fun j _ => zero_sub_coe (x j)

/-- A sum of real numbers divided by a nonzero real is the sum of the quotients. -/
theorem div_sum (A : Finset ι) (L : ι → ℝ) {n : ℝ} (hn : n ≠ 0) :
    Ideal.div (∑ j ∈ A, (L j : EReal)) (n : EReal) = ∑ j ∈ A, Ideal.div (L j : EReal) (n : EReal) := by
  rw [← coe_sum, div_coe_coe _ hn, Finset.sum_div, coe_sum]
  exact Finset.sum_congr rfl fun j _ => (div_coe_coe _ hn).symm

/-! ## Being a real number -/

/-- An extended real that is a real number. -/
def IsReal (x : EReal) : Prop := ∃ r : ℝ, x = (r : EReal)

theorem IsReal.coe (r : ℝ) : IsReal (r : EReal) := ⟨r, rfl⟩
theorem IsReal.zero : IsReal (0 : EReal) := ⟨0, EReal.coe_zero.symm⟩
theorem IsReal.one : IsReal (1 : EReal) := ⟨1, EReal.coe_one.symm⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.neg {x : EReal} (hx : IsReal x) : IsReal (-x) := by
  obtain ⟨a, rfl⟩ := hx; exact ⟨-a, (EReal.coe_neg a).symm⟩

theorem IsReal.max {x y : EReal} (hx : IsReal x) (hy : IsReal y) : IsReal (max x y) := by
  rcases max_choice x y with h | h <;> rw [h] <;> assumption

/-- A quotient of real numbers, the divisor nonzero, is a real number. -/
theorem IsReal.div {x y : EReal} (hx : IsReal x) (hy : IsReal y) (h0 : y ≠ 0) : IsReal (Ideal.div x y) := by
  obtain ⟨a, rfl⟩ := hx; obtain ⟨b, rfl⟩ := hy
  have hb : b ≠ 0 := fun h => h0 (by rw [h, EReal.coe_zero])
  exact ⟨a / b, div_coe_coe a hb⟩

theorem IsReal.exp {x : EReal} (hx : IsReal x) : IsReal (Ideal.exp x) := by
  obtain ⟨a, rfl⟩ := hx; exact ⟨Real.exp a, rfl⟩

/-- The logarithm of a positive real number is a real number. -/
theorem IsReal.log {x : EReal} (hx : IsReal x) (hpos : 0 < x) : IsReal (Ideal.log x) := by
  obtain ⟨a, rfl⟩ := hx
  have ha : 0 < a := by exact_mod_cast hpos
  exact ⟨Real.log a, by rw [Ideal.log_coe, if_neg (not_le.mpr ha)]⟩

theorem IsReal.sum (A : Finset ι) (f : ι → EReal) (h : ∀ j ∈ A, IsReal (f j)) : IsReal (∑ j ∈ A, f j) := by
  induction A using Finset.cons_induction with
  | empty => rw [Finset.sum_empty]; exact IsReal.zero
  | cons a A ha ih =>
    rw [Finset.sum_cons]
    exact (h a (Finset.mem_cons_self a A)).add (ih fun j hj => h j (Finset.mem_cons_of_mem hj))

theorem IsReal.ne_bot {x : EReal} (hx : IsReal x) : x ≠ ⊥ := by
  obtain ⟨a, rfl⟩ := hx; exact EReal.coe_ne_bot a

theorem IsReal.ne_top {x : EReal} (hx : IsReal x) : x ≠ ⊤ := by
  obtain ⟨a, rfl⟩ := hx; exact EReal.coe_ne_top a

/-- The square of a real number read on the extended reals is the power with exponent two. -/
theorem IsReal.pow_two {x : EReal} (hx : IsReal x) : Ideal.pow x ((2 : ℝ) : EReal) = x * x := by
  obtain ⟨a, rfl⟩ := hx; exact Cert.LibIdealReal.pow_two a

end Cert.LibIdealReal

end
-- ==== Proof.PreFacts.lean ====
/-
  The precondition decoded. The printed predicate is a conjunction, by the bitwise and of one-bit words, of eight
  "all entries" tests: for each of the six float arrays that every entry's absolute value lies below +infinity, and
  for each of the two integer arrays that every entry, read signed, lies between 0 and 9999. A test over all
  entries is a fold by "and" from 1; that the fold is 1 says that every entry's test is 1.

  From the integer tests: an entry between 0 and 9999 signed is below 10000 unsigned. From the float tests, at the
  exact extended-real arithmetic: max x (-x) < +infinity excludes both infinities, so x is a real number.
-/
import proofs.«206088_g82248623718559_cont_9to1c4b_230_21_alg».proof.Pre_input_domain
import proofs.«206088_g82248623718559_cont_9to1c4b_230_21_alg».proof.Proof.LibIdealReal
import Idealize.ShloMosaic.Lib.ReduceAll
import Idealize.ShloMosaic.Lib.ValueIdx

noncomputable section

namespace Cert.PreFacts

open Idealize.ShloMosaic Idealize.ShloMosaic.ValueIdx
open Cert.Pre_input_domain
open Cert.LibIdealReal (IsReal)

/-- The rank-0 shape has one index. -/
instance : Subsingleton S_.Idx := ⟨fun a b => funext fun d => d.elim0⟩

/-- The elementwise and of two arrays of words, at an index. -/
theorem andi_apply {s : Shape} {w : Nat} (x y : IVec s w) (i : s.Idx) : andi x y i = IntOp.andi (x i) (y i) := rfl

/-- A word between 0 and 9999 read signed is below 10000 read unsigned. -/
theorem toNat_lt_of_signed (w : BitVec 32) (h0 : IntOp.cmpi .sge w 0#32 = 1#1) (h1 : IntOp.cmpi .sle w 9999#32 = 1#1) :
    w.toNat < 10000 := by
  rw [IntOp.cmpi_sge] at h0
  rw [IntOp.cmpi_sle] at h1
  have z : (0#32 : BitVec 32).toInt = 0 := by decide
  have n : (9999#32 : BitVec 32).toInt = 9999 := by decide
  rw [z] at h0
  rw [n] at h1
  have hc := BitVec.toInt_eq_toNat_cond w
  have hl := w.isLt
  split at hc <;> omega

variable [Facts]
variable {F : FTy → Type} [FloatOps F]

/-- The conjunction split: each of the eight tests holds at every index. -/
theorem conj (a0 : FVec F S10000x128 .f32) (a1 : FVec F S320000x16 .f32) (a2 : FVec F S544x272 .f32) (a3 : FVec F S544 .f32)
    (a4 : FVec F S16x544 .f32) (a5 : FVec F S16 .f32) (a6 a7 : IVec S320000 32)
    (h : Cert.Pre_input_domain.fn (F := F) a0 a1 a2 a3 a4 a5 a6 a7 = fun _ => 1#1) :
    (∀ i, FloatOps.cmpf .olt (FloatOps.hostAbsf (a0 i)) (FloatOps.ofBits (F := F) .f32 0x7F800000#32) = 1#1)
    ∧ (∀ i, FloatOps.cmpf .olt (FloatOps.hostAbsf (a1 i)) (FloatOps.ofBits (F := F) .f32 0x7F800000#32) = 1#1)
    ∧ (∀ i, FloatOps.cmpf .olt (FloatOps.hostAbsf (a2 i)) (FloatOps.ofBits (F := F) .f32 0x7F800000#32) = 1#1)
    ∧ (∀ i, FloatOps.cmpf .olt (FloatOps.hostAbsf (a3 i)) (FloatOps.ofBits (F := F) .f32 0x7F800000#32) = 1#1)
    ∧ (∀ i, FloatOps.cmpf .olt (FloatOps.hostAbsf (a4 i)) (FloatOps.ofBits (F := F) .f32 0x7F800000#32) = 1#1)
    ∧ (∀ i, FloatOps.cmpf .olt (FloatOps.hostAbsf (a5 i)) (FloatOps.ofBits (F := F) .f32 0x7F800000#32) = 1#1)
    ∧ (∀ i, IntOp.cmpi .sge (a6 i) 0#32 = 1#1 ∧ IntOp.cmpi .sle (a6 i) 9999#32 = 1#1)
    ∧ (∀ i, IntOp.cmpi .sge (a7 i) 0#32 = 1#1 ∧ IntOp.cmpi .sle (a7 i) 9999#32 = 1#1) := by
  have e := congrFun h ix0
  unfold Cert.Pre_input_domain.fn Cert.Pre_input_domain.fn_part1 Cert.Pre_input_domain.fn_part2 at e
  dsimp only at e
  simp only [andi_apply, IntOp.andi_eq_one] at e
  obtain ⟨⟨⟨⟨⟨⟨⟨h0, h1⟩, h2⟩, h3⟩, h4⟩, h5⟩, h6⟩, h7⟩ := e
  refine ⟨fun i => Host.reduce_andi_all _ _ _ _ ix0 h0 i, fun i => Host.reduce_andi_all _ _ _ _ ix0 h1 i,
    fun i => Host.reduce_andi_all _ _ _ _ ix0 h2 i, fun i => Host.reduce_andi_all _ _ _ _ ix0 h3 i,
    fun i => Host.reduce_andi_all _ _ _ _ ix0 h4 i, fun i => Host.reduce_andi_all _ _ _ _ ix0 h5 i,
    fun i => IntOp.andi_eq_one.1 (Host.reduce_andi_all _ _ _ _ ix0 h6 i),
    fun i => IntOp.andi_eq_one.1 (Host.reduce_andi_all _ _ _ _ ix0 h7 i)⟩

/-- Every sender and every receiver word is below 10000 read unsigned. -/
theorem idx_lt (a0 : FVec F S10000x128 .f32) (a1 : FVec F S320000x16 .f32) (a2 : FVec F S544x272 .f32) (a3 : FVec F S544 .f32)
    (a4 : FVec F S16x544 .f32) (a5 : FVec F S16 .f32) (a6 a7 : IVec S320000 32)
    (h : Cert.Pre_input_domain.fn (F := F) a0 a1 a2 a3 a4 a5 a6 a7 = fun _ => 1#1) :
    (∀ e : Fin 320000, (a6 (ix1 e)).toNat < 10000) ∧ (∀ e : Fin 320000, (a7 (ix1 e)).toNat < 10000) := by
  obtain ⟨-, -, -, -, -, -, h6, h7⟩ := conj a0 a1 a2 a3 a4 a5 a6 a7 h
  exact ⟨fun e => toNat_lt_of_signed _ (h6 (ix1 e)).1 (h6 (ix1 e)).2, fun e => toNat_lt_of_signed _ (h7 (ix1 e)).1 (h7 (ix1 e)).2⟩

/-- At the exact arithmetic: an extended real whose absolute value lies below +infinity is a real number. -/
theorem isReal_of_abs_lt (x : EReal)
    (h : FloatOps.cmpf (F := Ideal) (φ := .f32) .olt (FloatOps.hostAbsf (F := Ideal) (φ := .f32) x) (FloatOps.ofBits (F := Ideal) .f32 0x7F800000#32) = 1#1) :
    IsReal x := by
  have hinf : Ideal.ofBits .f32 0x7F800000#32 = (⊤ : EReal) := by simp [Ideal.ofBits, Ideal.ieee]
  have h' : Ideal.cmp .olt (max x (-x)) (Ideal.ofBits .f32 0x7F800000#32) = 1#1 := h
  rw [hinf] at h'
  induction x using EReal.rec with
  | bot => exact absurd h' (by simp [Ideal.cmp])
  | coe r => exact ⟨r, rfl⟩
  | top => exact absurd h' (by simp [Ideal.cmp])

/-- At the exact arithmetic every entry of the six float arrays is a real number. -/
theorem real_inputs (a0 : FVec Ideal S10000x128 .f32) (a1 : FVec Ideal S320000x16 .f32) (a2 : FVec Ideal S544x272 .f32)
    (a3 : FVec Ideal S544 .f32) (a4 : FVec Ideal S16x544 .f32) (a5 : FVec Ideal S16 .f32) (a6 a7 : IVec S320000 32)
    (h : Cert.Pre_input_domain.fn (F := Ideal) a0 a1 a2 a3 a4 a5 a6 a7 = fun _ => 1#1) :
    (∀ i, IsReal (a0 i)) ∧ (∀ i, IsReal (a1 i)) ∧ (∀ i, IsReal (a2 i)) ∧ (∀ i, IsReal (a3 i)) ∧ (∀ i, IsReal (a4 i))
      ∧ (∀ i, IsReal (a5 i)) := by
  obtain ⟨h0, h1, h2, h3, h4, h5, -, -⟩ := conj a0 a1 a2 a3 a4 a5 a6 a7 h
  exact ⟨fun i => isReal_of_abs_lt _ (h0 i), fun i => isReal_of_abs_lt _ (h1 i), fun i => isReal_of_abs_lt _ (h2 i),
    fun i => isReal_of_abs_lt _ (h3 i), fun i => isReal_of_abs_lt _ (h4 i), fun i => isReal_of_abs_lt _ (h5 i)⟩

end Cert.PreFacts

end
-- ==== Proof.ScRun.lean ====
/-
  The whole program's run.

  Every weakly fair execution of the program's threads — @main on the TensorCore, the two sequencers, the thirty-two
  tiles — from a launch memory m terminates without fault, and ends with the eight argument arrays as launched and
  the result array at what the dense network's pipeline leaves in it when entered with the gathered node rows and
  the host operations' values. This is the launch theorem applied to the pieces: the tiles' obligation, the split
  of the call's operands, @main on the TensorCore, the launch element, and the reading of the final memory.
-/
import proofs.«206088_g82248623718559_cont_9to1c4b_230_21_alg».proof.Proof.ScSplit
import proofs.«206088_g82248623718559_cont_9to1c4b_230_21_alg».proof.Proof.ScLaunch
import proofs.«206088_g82248623718559_cont_9to1c4b_230_21_alg».proof.Proof.ScMainDefs
import proofs.«206088_g82248623718559_cont_9to1c4b_230_21_alg».proof.Proof.PreFacts

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F] (m : (ℓ : Loc nD τ sig) → Buf (Elt F) ℓ) (ρ : Dev nD → PrngReg)

/-! ## What the run leaves -/

/-- The result array at the pipeline's result over the launch memory, and the eight arguments unchanged. -/
def QC : PUnit × MemSt nD τ sig (Elt F) → Prop := fun r => ∀ c : Dev nD,
  r.2.mem ((c.tc : Thread nD τ).loc main_v10) = Rout (Breg (F := F) c) (Vreg m) c
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)

theorem QC_of_fq (s' : Phys nD τ sig (Elt F)) (h : ∀ d, fq m d s') : QC m (⟨⟩, s'.mem) := fun c => by
  obtain ⟨e0, e1, e2, e3, e4, e5, e6, e7, e10⟩ := h c
  exact ⟨e10, e0, e1, e2, e3, e4, e5, e6, e7⟩

/-! ## The run -/

/-- The program's run, from the tiles' obligation and @main's. -/
theorem run_main [∀ e, Nonempty (Elt F e)]
    (htile : (K (F := F)).TileObl (D (F := F)) 𝒱 (P m) v₀ 0)
    (hmain : ∀ (κ : GSem nD τ sig → ℕ) (d : Dev nD),
      iprop((K (F := F)).ctx EH (P m) κ ∗ (K (F := F)).tcSt EH d 0 ∗ (K (F := F)).tcRes m ρ d ∗ G (F := F) d)
        ⊢ wp frame (wpE ((K (F := F)).defs (D (F := F))) 𝒱 (SparseCore.T d) none) Set.univ (main (F := F) d)
            fun _ => iprop((K (F := F)).tcSt EH d 1 ∗ FIN m d)) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => htile)
    (fun q _ => match q with | 0 => vecSplit m)
    m ρ main (G (F := F)) (FIN m) (u₀ (F := F)) (hu₀ m) hmain (fq m) (hfin m) (QC m) (QC_of_fq m)

/-- The frame: the run with the result dropped — the eight arguments end as launched. -/
theorem run_frame [∀ e, Nonempty (Elt F e)]
    (htile : (K (F := F)).TileObl (D (F := F)) 𝒱 (P m) v₀ 0)
    (hmain : ∀ (κ : GSem nD τ sig → ℕ) (d : Dev nD),
      iprop((K (F := F)).ctx EH (P m) κ ∗ (K (F := F)).tcSt EH d 0 ∗ (K (F := F)).tcRes m ρ d ∗ G (F := F) d)
        ⊢ wp frame (wpE ((K (F := F)).defs (D (F := F))) 𝒱 (SparseCore.T d) none) Set.univ (main (F := F) d)
            fun _ => iprop((K (F := F)).tcSt EH d 1 ∗ FIN m d)) :
    θ_run (Cert.KernelIdeal.defs (F := F)) (Cert.KernelIdeal.threads (F := F)) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run _ _ _).mono (fun _ h c => (h c).2) (run_main m ρ htile hmain)

/-! ## The precondition gives the row numbers' ranges -/

/-- Where the input predicate holds of the launch memory's arguments on every device, every sender and every receiver
    word is below 10000 read unsigned. -/
theorem idx_of_pre [Cert.Pre_input_domain.Facts]
    (hpre : ∀ c : Dev nD, Cert.Pre_input_domain.fn (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) = fun _ => 1#1) :
    (∀ (d : Dev nD) (e : Fin 320000), (m (sLoc d) (ValueIdx.ix1 e)).toNat < 10000)
      ∧ (∀ (d : Dev nD) (e : Fin 320000), (m (rLoc d) (ValueIdx.ix1 e)).toNat < 10000) :=
  ⟨fun d e => (Cert.PreFacts.idx_lt _ _ _ _ _ _ _ _ (hpre d)).1 e, fun d e => (Cert.PreFacts.idx_lt _ _ _ _ _ _ _ _ (hpre d)).2 e⟩

end Cert.Proof.KI

end
-- ==== Proof.ScMain.lean ====
/-
  @main on the TensorCore: the nine host operations, the SparseCore call, the dense network's pipeline.

  The host operations run over the nineteen arrays held whole. For the SparseCore call the node table and the two
  index arrays go out as 32 read shares each and the gathered array as its 32 row parts, one of each per tile;
  they come back and are joined, the gathered array now holding the gathered rows. The pipeline is then entered with
  its eight arrays whole and returns the seven inputs unchanged and the result array. What is left for the claim is
  the eight arguments at their launch contents and the result array.
-/
import proofs.«206088_g82248623718559_cont_9to1c4b_230_21_alg».proof.Proof.ScMainDefs
import proofs.«206088_g82248623718559_cont_9to1c4b_230_21_alg».proof.Proof.ScGeom

set_option maxRecDepth 16384

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_split held_sdiff_result wp_hlo_within)

variable {F : FTy → Type}

local notation "𝕄" => MT nD τ sig (HIx 1) (Elt F) ℕ UU ℕ

variable [FloatOps F]
variable (m : (ℓ : Loc nD τ sig) → Buf (Elt F) ℓ) (ρ : Dev nD → PrngReg)

/-! ## The nineteen arrays one by one -/

omit [FloatOps F] in
theorem held_S19 (d : Dev nD) (W : Valuation τ sig (Elt F)) :
    (held (SparseCore.T d) S19 W : sProp 𝕄)
      = iprop(((SparseCore.T d).loc main_arg0 ↦{fullShare} W a0')
      ∗ ((SparseCore.T d).loc main_arg1 ↦{fullShare} W a1')
      ∗ ((SparseCore.T d).loc main_arg2 ↦{fullShare} W a2')
      ∗ ((SparseCore.T d).loc main_arg3 ↦{fullShare} W a3')
      ∗ ((SparseCore.T d).loc main_arg4 ↦{fullShare} W a4')
      ∗ ((SparseCore.T d).loc main_arg5 ↦{fullShare} W a5')
      ∗ ((SparseCore.T d).loc main_arg6 ↦{fullShare} W a6')
      ∗ ((SparseCore.T d).loc main_arg7 ↦{fullShare} W a7')
      ∗ ((SparseCore.T d).loc main_v0 ↦{fullShare} W v0')
      ∗ ((SparseCore.T d).loc main_v1 ↦{fullShare} W v1')
      ∗ ((SparseCore.T d).loc main_v2 ↦{fullShare} W v2')
      ∗ ((SparseCore.T d).loc main_v3 ↦{fullShare} W v3')
      ∗ ((SparseCore.T d).loc main_v4 ↦{fullShare} W v4')
      ∗ ((SparseCore.T d).loc main_v5 ↦{fullShare} W v5')
      ∗ ((SparseCore.T d).loc main_v6 ↦{fullShare} W v6')
      ∗ ((SparseCore.T d).loc main_v7 ↦{fullShare} W v7')
      ∗ ((SparseCore.T d).loc main_v8 ↦{fullShare} W v8')
      ∗ ((SparseCore.T d).loc main_v9 ↦{fullShare} W v9')
      ∗ ((SparseCore.T d).loc main_v10 ↦{fullShare} W v10')) := by
  unfold held S19
  rw [SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄)
      = iprop(((SparseCore.T d).loc main_arg0 ↦{fullShare} W main_arg0)
      ∗ ((SparseCore.T d).loc main_arg1 ↦{fullShare} W main_arg1)
      ∗ ((SparseCore.T d).loc main_arg2 ↦{fullShare} W main_arg2)
      ∗ ((SparseCore.T d).loc main_arg3 ↦{fullShare} W main_arg3)
      ∗ ((SparseCore.T d).loc main_arg4 ↦{fullShare} W main_arg4)
      ∗ ((SparseCore.T d).loc main_arg5 ↦{fullShare} W main_arg5)
      ∗ ((SparseCore.T d).loc main_arg6 ↦{fullShare} W main_arg6)
      ∗ ((SparseCore.T d).loc main_arg7 ↦{fullShare} W main_arg7)
      ∗ ((SparseCore.T d).loc main_v0 ↦{fullShare} W main_v0)
      ∗ ((SparseCore.T d).loc main_v1 ↦{fullShare} W main_v1)
      ∗ ((SparseCore.T d).loc main_v2 ↦{fullShare} W main_v2)
      ∗ ((SparseCore.T d).loc main_v3 ↦{fullShare} W main_v3)
      ∗ ((SparseCore.T d).loc main_v4 ↦{fullShare} W main_v4)
      ∗ ((SparseCore.T d).loc main_v5 ↦{fullShare} W main_v5)
      ∗ ((SparseCore.T d).loc main_v6 ↦{fullShare} W main_v6)
      ∗ ((SparseCore.T d).loc main_v7 ↦{fullShare} W main_v7)
      ∗ ((SparseCore.T d).loc main_v8 ↦{fullShare} W main_v8)
      ∗ ((SparseCore.T d).loc main_v9 ↦{fullShare} W main_v9)
      ∗ ((SparseCore.T d).loc main_v10 ↦{fullShare} W main_v10)) := by
  unfold unscopedBufs
  rw [show (Finset.univ.filter fun b : Ref sig .tc => ¬ b.isScoped) = {main_arg0, main_arg1, main_arg2, main_arg3, main_arg4, main_arg5, main_arg6, main_arg7, main_v0, main_v1, main_v2, main_v3, main_v4, main_v5, main_v6, main_v7, main_v8, main_v9, main_v10} by decide,
    SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

omit [FloatOps F] in
theorem unscoped_held (d : Dev nD) : (unscopedBufs d (fun b => m ((SparseCore.T d).loc b)) : sProp 𝕄) = held (SparseCore.T d) S19 (V0 m d) := by
  rw [unscopedBufs_eq, held_S19]; rfl

/-! ## What the host operations leave unchanged -/

/-- An array none of the nine operations writes holds its launch contents after them. -/
theorem V9_keep (d : Dev nD) (b : DevRef τ sig) (h0 : b ∉ ({v0'} : Finset (DevRef τ sig))) (h1 : b ∉ ({v1'} : Finset (DevRef τ sig)))
    (h2 : b ∉ ({v2'} : Finset (DevRef τ sig))) (h3 : b ∉ ({v3'} : Finset (DevRef τ sig))) (h4 : b ∉ ({v4'} : Finset (DevRef τ sig)))
    (h5 : b ∉ ({v5'} : Finset (DevRef τ sig))) (h6 : b ∉ ({v6'} : Finset (DevRef τ sig))) (h7 : b ∉ ({v7'} : Finset (DevRef τ sig)))
    (h8 : b ∉ ({v8'} : Finset (DevRef τ sig))) : V9 m d b = V0 m d b := by
  unfold V9
  rw [(op8 (F := F)).result_of_not_mem _ h8, (op7 (F := F)).result_of_not_mem _ h7, (op6 (F := F)).result_of_not_mem _ h6,
    (op5 (F := F)).result_of_not_mem _ h5, (op4 (F := F)).result_of_not_mem _ h4, (op3 (F := F)).result_of_not_mem _ h3,
    (op2 (F := F)).result_of_not_mem _ h2, (op1 (F := F)).result_of_not_mem _ h1, (op0 (F := F)).result_of_not_mem _ h0]

theorem V9_a0 (d : Dev nD) : V9 m d a0' = m ((SparseCore.T d).loc main_arg0) :=
  V9_keep m d a0' (by decide) (by decide) (by decide) (by decide) (by decide) (by decide) (by decide) (by decide) (by decide)
theorem V9_a1 (d : Dev nD) : V9 m d a1' = m ((SparseCore.T d).loc main_arg1) :=
  V9_keep m d a1' (by decide) (by decide) (by decide) (by decide) (by decide) (by decide) (by decide) (by decide) (by decide)
theorem V9_a2 (d : Dev nD) : V9 m d a2' = m ((SparseCore.T d).loc main_arg2) :=
  V9_keep m d a2' (by decide) (by decide) (by decide) (by decide) (by decide) (by decide) (by decide) (by decide) (by decide)
theorem V9_a3 (d : Dev nD) : V9 m d a3' = m ((SparseCore.T d).loc main_arg3) :=
  V9_keep m d a3' (by decide) (by decide) (by decide) (by decide) (by decide) (by decide) (by decide) (by decide) (by decide)
theorem V9_a4 (d : Dev nD) : V9 m d a4' = m ((SparseCore.T d).loc main_arg4) :=
  V9_keep m d a4' (by decide) (by decide) (by decide) (by decide) (by decide) (by decide) (by decide) (by decide) (by decide)
theorem V9_a5 (d : Dev nD) : V9 m d a5' = m ((SparseCore.T d).loc main_arg5) :=
  V9_keep m d a5' (by decide) (by decide) (by decide) (by decide) (by decide) (by decide) (by decide) (by decide) (by decide)
theorem V9_a6 (d : Dev nD) : V9 m d a6' = m ((SparseCore.T d).loc main_arg6) :=
  V9_keep m d a6' (by decide) (by decide) (by decide) (by decide) (by decide) (by decide) (by decide) (by decide) (by decide)
theorem V9_a7 (d : Dev nD) : V9 m d a7' = m ((SparseCore.T d).loc main_arg7) :=
  V9_keep m d a7' (by decide) (by decide) (by decide) (by decide) (by decide) (by decide) (by decide) (by decide) (by decide)
theorem V9_v9 (d : Dev nD) : V9 m d v9' = m (oLoc d) :=
  V9_keep m d v9' (by decide) (by decide) (by decide) (by decide) (by decide) (by decide) (by decide) (by decide) (by decide)

theorem hop0 : (op0 (F := F)).bufs ⊆ S19 := show ({a2', v0'} : Finset (DevRef τ sig)) ⊆ S19 by decide
theorem hop1 : (op1 (F := F)).bufs ⊆ S19 := show ({v0', v1'} : Finset (DevRef τ sig)) ⊆ S19 by decide
theorem hop2 : (op2 (F := F)).bufs ⊆ S19 := show ({v1', v2'} : Finset (DevRef τ sig)) ⊆ S19 by decide
theorem hop3 : (op3 (F := F)).bufs ⊆ S19 := show ({v0', v3'} : Finset (DevRef τ sig)) ⊆ S19 by decide
theorem hop4 : (op4 (F := F)).bufs ⊆ S19 := show ({v3', v4'} : Finset (DevRef τ sig)) ⊆ S19 by decide
theorem hop5 : (op5 (F := F)).bufs ⊆ S19 := show ({a3', v5'} : Finset (DevRef τ sig)) ⊆ S19 by decide
theorem hop6 : (op6 (F := F)).bufs ⊆ S19 := show ({a4', v6'} : Finset (DevRef τ sig)) ⊆ S19 by decide
theorem hop7 : (op7 (F := F)).bufs ⊆ S19 := show ({v6', v7'} : Finset (DevRef τ sig)) ⊆ S19 by decide
theorem hop8 : (op8 (F := F)).bufs ⊆ S19 := show ({a5', v8'} : Finset (DevRef τ sig)) ⊆ S19 by decide

/-! ## The call's operands among the 32 tile numbers -/

/-- The pairs (SparseCore of the call, tile) are the 32 tile numbers. -/
def wEquiv : Fin ((K (F := F)).nCore 0) × Fin 16 ≃ Fin 32 where
  toFun p := wid (coreOf p.1) (Fin.cast nSub_eq.symm p.2)
  invFun w := (⟨w.val % 2, Nat.mod_lt _ (by decide)⟩, ⟨w.val / 2, by have := w.isLt; omega⟩)
  left_inv p := by
    have h1 : p.1.val < 2 := p.1.isLt
    have h2 : p.2.val < 16 := p.2.isLt
    refine Prod.ext (Fin.ext ?_) (Fin.ext ?_)
    · show (2 * p.2.val + p.1.val) % 2 = p.1.val; omega
    · show (2 * p.2.val + p.1.val) / 2 = p.2.val; omega
  right_inv w := Fin.ext (by show 2 * (w.val / 2) + w.val % 2 = w.val; omega)

omit [FloatOps F] in
theorem bigSep_workers (Φ : Fin 32 → sProp 𝕄) :
    (bigSep Finset.univ fun c : Fin ((K (F := F)).nCore 0) => bigSep Finset.univ fun i : Fin 16 => Φ (wid (coreOf c) (Fin.cast nSub_eq.symm i)))
      = bigSep Finset.univ Φ := by
  rw [bigSep_univ_equiv (wEquiv (F := F)) Φ, bigSep_univ_prod]
  rfl

theorem st_eq (d : Dev nD) (c : Fin ((K (F := F)).nCore 0)) :
    (P m).st 0 d c = bigSep Finset.univ fun i : Fin 16 => tileArr m d (wid (coreOf c) (Fin.cast nSub_eq.symm i)) (m (oLoc d)) := rfl
theorem dn_eq (d : Dev nD) (c : Fin ((K (F := F)).nCore 0)) :
    (P m).dn 0 d c = bigSep Finset.univ fun i : Fin 16 => tileArr m d (wid (coreOf c) (Fin.cast nSub_eq.symm i)) (gatherC m d) := rfl

theorem st0_eq (d : Dev nD) :
    (bigSep Finset.univ fun c : Fin ((K (F := F)).nCore 0) => (P m).st 0 d c) = bigSep Finset.univ fun w : Fin 32 => tileArr m d w (m (oLoc d)) := by
  simp only [st_eq]
  exact bigSep_workers (fun w => tileArr m d w (m (oLoc d)))
theorem dn0_eq (d : Dev nD) :
    (bigSep Finset.univ fun c : Fin ((K (F := F)).nCore 0) => (P m).dn 0 d c) = bigSep Finset.univ fun w : Fin 32 => tileArr m d w (gatherC m d) := by
  simp only [dn_eq]
  exact bigSep_workers (fun w => tileArr m d w (gatherC m d))

omit [FloatOps F] in
/-- The tile numbers' takings, array by array. -/
theorem tiles_eq (d : Dev nD) (g : Buf (Elt F) (oLoc d)) :
    (bigSep Finset.univ fun w : Fin 32 => tileArr m d w g)
      = iprop((bigSep Finset.univ fun w : Fin 32 => xLoc d ↦{tok32 w} m (xLoc d)) ∗ (bigSep Finset.univ fun w : Fin 32 => sLoc d ↦{tok32 w} m (sLoc d))
          ∗ (bigSep Finset.univ fun w : Fin 32 => rLoc d ↦{tok32 w} m (rLoc d)) ∗ (bigSep Finset.univ fun w : Fin 32 => oLoc d ↦[outSet w]{fullShare} g)) := by
  unfold tileArr
  rw [bigSep_sep', bigSep_sep', bigSep_sep']

omit [FloatOps F] in
/-- The gathered array whole is its 32 row parts. -/
theorem o_rows (d : Dev nD) (g : Buf (Elt F) (oLoc d)) :
    (oLoc d ↦{fullShare} g : sProp 𝕄) = bigSep Finset.univ fun w : Fin 32 => oLoc d ↦[outSet w]{fullShare} g := by
  rw [← pointsTo_biUnion Finset.univ (ℓ := oLoc d) outSet outSet_disjoint, outSet_cover]; try rfl

/-- What the TensorCore keeps of the three read arrays while the tile numbers hold their shares. -/
def kept (d : Dev nD) : sProp 𝕄 :=
  iprop((xLoc d ↦{Transfers.shareDrop fullShare 32} m (xLoc d)) ∗ (sLoc d ↦{Transfers.shareDrop fullShare 32} m (sLoc d))
    ∗ (rLoc d ↦{Transfers.shareDrop fullShare 32} m (rLoc d)))

omit [FloatOps F] in
theorem call_split (d : Dev nD) (g : Buf (Elt F) (oLoc d)) :
    iprop((xLoc d ↦{fullShare} m (xLoc d)) ∗ (sLoc d ↦{fullShare} m (sLoc d)) ∗ (rLoc d ↦{fullShare} m (rLoc d)) ∗ (oLoc d ↦{fullShare} g))
      ⊢ (iprop(kept m d ∗ bigSep Finset.univ fun w : Fin 32 => tileArr m d w g) : sProp 𝕄) := by
  rw [tiles_eq, o_rows]
  unfold kept
  iintro ⟨Hx, Hs, Hr, Ho⟩
  ihave Hx' := (Transfers.pointsTo_toks_split fullShare 32) $$ Hx
  icases Hx' with ⟨Hxk, Hxt⟩
  ihave Hs' := (Transfers.pointsTo_toks_split fullShare 32) $$ Hs
  icases Hs' with ⟨Hsk, Hst⟩
  ihave Hr' := (Transfers.pointsTo_toks_split fullShare 32) $$ Hr
  icases Hr' with ⟨Hrk, Hrt⟩
  isplitl [Hxk Hsk Hrk]
  · isplitl [Hxk]; · iexact Hxk
    isplitl [Hsk]; · iexact Hsk
    iexact Hrk
  isplitl [Hxt]; · iexact Hxt
  isplitl [Hst]; · iexact Hst
  isplitl [Hrt]; · iexact Hrt
  iexact Ho

omit [FloatOps F] in
theorem call_join (d : Dev nD) (g : Buf (Elt F) (oLoc d)) :
    iprop(kept m d ∗ bigSep Finset.univ fun w : Fin 32 => tileArr m d w g)
      ⊢ (iprop((xLoc d ↦{fullShare} m (xLoc d)) ∗ (sLoc d ↦{fullShare} m (sLoc d)) ∗ (rLoc d ↦{fullShare} m (rLoc d)) ∗ (oLoc d ↦{fullShare} g)) : sProp 𝕄) := by
  rw [tiles_eq, o_rows]
  unfold kept
  iintro ⟨⟨Hxk, Hsk, Hrk⟩, Hxt, Hst, Hrt, Ho⟩
  isplitl [Hxk Hxt]
  · iapply (Transfers.pointsTo_toks_join fullShare 32)
    isplitl [Hxk] <;> iassumption
  isplitl [Hsk Hst]
  · iapply (Transfers.pointsTo_toks_join fullShare 32)
    isplitl [Hsk] <;> iassumption
  isplitl [Hrk Hrt]
  · iapply (Transfers.pointsTo_toks_join fullShare 32)
    isplitl [Hrk] <;> iassumption
  iexact Ho

/-! ## After the host operations -/

theorem held_V9 (d : Dev nD) :
    (held (SparseCore.T d) S19 ((op8 (F := F)).result ((op7 (F := F)).result ((op6 (F := F)).result ((op5 (F := F)).result ((op4 (F := F)).result ((op3 (F := F)).result ((op2 (F := F)).result ((op1 (F := F)).result ((op0 (F := F)).result (V0 m d)))))))))) : sProp 𝕄)
      = iprop(((SparseCore.T d).loc main_arg0 ↦{fullShare} m ((SparseCore.T d).loc main_arg0))
      ∗ ((SparseCore.T d).loc main_arg1 ↦{fullShare} m ((SparseCore.T d).loc main_arg1))
      ∗ ((SparseCore.T d).loc main_arg2 ↦{fullShare} m ((SparseCore.T d).loc main_arg2))
      ∗ ((SparseCore.T d).loc main_arg3 ↦{fullShare} m ((SparseCore.T d).loc main_arg3))
      ∗ ((SparseCore.T d).loc main_arg4 ↦{fullShare} m ((SparseCore.T d).loc main_arg4))
      ∗ ((SparseCore.T d).loc main_arg5 ↦{fullShare} m ((SparseCore.T d).loc main_arg5))
      ∗ ((SparseCore.T d).loc main_arg6 ↦{fullShare} m ((SparseCore.T d).loc main_arg6))
      ∗ ((SparseCore.T d).loc main_arg7 ↦{fullShare} m ((SparseCore.T d).loc main_arg7))
      ∗ ((SparseCore.T d).loc main_v0 ↦{fullShare} V9 m d v0')
      ∗ ((SparseCore.T d).loc main_v1 ↦{fullShare} V9 m d v1')
      ∗ ((SparseCore.T d).loc main_v2 ↦{fullShare} V9 m d v2')
      ∗ ((SparseCore.T d).loc main_v3 ↦{fullShare} V9 m d v3')
      ∗ ((SparseCore.T d).loc main_v4 ↦{fullShare} V9 m d v4')
      ∗ ((SparseCore.T d).loc main_v5 ↦{fullShare} V9 m d v5')
      ∗ ((SparseCore.T d).loc main_v6 ↦{fullShare} V9 m d v6')
      ∗ ((SparseCore.T d).loc main_v7 ↦{fullShare} V9 m d v7')
      ∗ ((SparseCore.T d).loc main_v8 ↦{fullShare} V9 m d v8')
      ∗ ((SparseCore.T d).loc main_v9 ↦{fullShare} m (oLoc d))
      ∗ ((SparseCore.T d).loc main_v10 ↦{fullShare} V9 m d v10')) := by
  show held (SparseCore.T d) S19 (V9 m d) = _
  rw [held_S19, V9_a0, V9_a1, V9_a2, V9_a3, V9_a4, V9_a5, V9_a6, V9_a7, V9_v9]

/-! ## The region's arrays -/

theorem Vreg_v9 (d : Dev nD) : Vreg m d main_v9 = gatherC m d := by
  show Function.update (V9 m d) v9' (gatherC m d) v9' = _
  exact Function.update_self _ _ _
/-- An array other than the gathered one is, at the region's entry, as the host operations left it. -/
theorem Vreg_ne (d : Dev nD) (b : Ref sig .tc) (h : Proc.devRef .tc b ≠ v9') : Vreg m d b = V9 m d (Proc.devRef .tc b) := by
  show Function.update (V9 m d) v9' (gatherC m d) (Proc.devRef .tc b) = _
  exact Function.update_of_ne h _ _
theorem Vreg_a1 (d : Dev nD) : Vreg m d main_arg1 = m ((SparseCore.T d).loc main_arg1) := (Vreg_ne m d main_arg1 (by decide)).trans (V9_a1 m d)
theorem Vreg_v2 (d : Dev nD) : Vreg m d main_v2 = V9 m d v2' := Vreg_ne m d main_v2 (by decide)
theorem Vreg_v4 (d : Dev nD) : Vreg m d main_v4 = V9 m d v4' := Vreg_ne m d main_v4 (by decide)
theorem Vreg_v5 (d : Dev nD) : Vreg m d main_v5 = V9 m d v5' := Vreg_ne m d main_v5 (by decide)
theorem Vreg_v7 (d : Dev nD) : Vreg m d main_v7 = V9 m d v7' := Vreg_ne m d main_v7 (by decide)
theorem Vreg_v8 (d : Dev nD) : Vreg m d main_v8 = V9 m d v8' := Vreg_ne m d main_v8 (by decide)
theorem Vreg_v10 (d : Dev nD) : Vreg m d main_v10 = V9 m d v10' := Vreg_ne m d main_v10 (by decide)

/-- The region's precondition from the eight arrays as @main holds them after the call. -/
theorem regionPre_intro (d : Dev nD) :
    iprop(((SparseCore.T d).loc main_v9 ↦{fullShare} gatherC m d) ∗ ((SparseCore.T d).loc main_arg1 ↦{fullShare} m ((SparseCore.T d).loc main_arg1))
        ∗ ((SparseCore.T d).loc main_v2 ↦{fullShare} V9 m d v2') ∗ ((SparseCore.T d).loc main_v4 ↦{fullShare} V9 m d v4')
        ∗ ((SparseCore.T d).loc main_v5 ↦{fullShare} V9 m d v5') ∗ ((SparseCore.T d).loc main_v7 ↦{fullShare} V9 m d v7')
        ∗ ((SparseCore.T d).loc main_v8 ↦{fullShare} V9 m d v8') ∗ ((SparseCore.T d).loc main_v10 ↦{fullShare} V9 m d v10')
        ∗ Pipeline.owesWithin d 0 (Breg (F := F) d))
      ⊢ (regionPre (Breg (F := F) d) (Vreg m) d : sProp 𝕄) := by
  unfold regionPre
  rw [bigSep_W1]
  show _ ⊢ iprop((((SparseCore.T d).loc main_v9 ↦{fullShare} Vreg m d main_v9) ∗ ((SparseCore.T d).loc main_arg1 ↦{fullShare} Vreg m d main_arg1)
        ∗ ((SparseCore.T d).loc main_v2 ↦{fullShare} Vreg m d main_v2) ∗ ((SparseCore.T d).loc main_v4 ↦{fullShare} Vreg m d main_v4)
        ∗ ((SparseCore.T d).loc main_v5 ↦{fullShare} Vreg m d main_v5) ∗ ((SparseCore.T d).loc main_v7 ↦{fullShare} Vreg m d main_v7)
        ∗ ((SparseCore.T d).loc main_v8 ↦{fullShare} Vreg m d main_v8) ∗ ((SparseCore.T d).loc main_v10 ↦{fullShare} Vreg m d main_v10))
        ∗ Pipeline.owesWithin d 0 (Breg (F := F) d))
  rw [Vreg_v9, Vreg_a1, Vreg_v2, Vreg_v4, Vreg_v5, Vreg_v7, Vreg_v8, Vreg_v10]
  iintro ⟨H0, H1, H2, H3, H4, H5, H6, H7, HO⟩
  isplitr [HO]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  iexact HO

/-- What the region returns that @main still needs: the edge features unchanged, the result array, what is owed. -/
theorem regionPost_elim (d : Dev nD) :
    (regionPost (Breg (F := F) d) (Vreg m) d : sProp 𝕄)
      ⊢ iprop(((SparseCore.T d).loc main_arg1 ↦{fullShare} m ((SparseCore.T d).loc main_arg1))
          ∗ ((SparseCore.T d).loc main_v10 ↦{fullShare} Rout (Breg (F := F) d) (Vreg m) d)
          ∗ Pipeline.owesWithin d 0 (Breg (F := F) d ∪ cfg1.waitPairs (none : HIx 1))) := by
  unfold regionPost
  rw [bigSep_W1]
  have e1 : (dats (Breg (F := F) d) (Vreg m) 0 d).arrAt 1 cfg1.N = m ((SparseCore.T d).loc main_arg1) :=
    (((dats (Breg (F := F) d) (Vreg m) 0 d).arrAt_in 1 rfl cfg1.N).trans (A_eq (Breg (F := F) d) (Vreg m) d 1)).trans (Vreg_a1 m d)
  rw [e1]
  iintro ⟨⟨-, H1, -, -, -, -, -, H7⟩, HO⟩
  isplitl [H1]; · iexact H1
  isplitl [H7]; · iexact H7
  iexact HO

/-! ## What the TensorCore owes around the region -/

theorem tcSt_region (d : Dev nD) :
    (K (F := F)).tcSt EH d 1
      ⊢ (iprop(Pipeline.owesWithin d 0 (Breg (F := F) d)
          ∗ (Pipeline.owesWithin d 0 (Breg (F := F) d ∪ cfg1.waitPairs (none : HIx 1)) -∗ (K (F := F)).tcSt EH d 1)) : sProp 𝕄) := by
  unfold SparseCore.Cfg.tcSt
  rw [(K (F := F)).Otc_end d (le_refl 1)]
  iintro ⟨⟨%W, %hW, HO⟩, Hrest⟩
  isplitl [HO]
  · iexists W
    isplitr
    · ipureintro; intro p hp; exact hW p (Finset.mem_coe.1 hp)
    · iexact HO
  iintro ⟨%W', %hW', HO'⟩
  isplitl [HO']
  · iexists W'
    isplitr
    · ipureintro
      intro p hp
      rcases hW' (Finset.mem_coe.2 hp) with h | ⟨w, s, rfl⟩
      · exact h
      · exact Nat.zero_le _
    · iexact HO'
  iexact Hrest

/-! ## The region as the last step of @main -/

set_option backward.isDefEq.respectTransparency.types false in
theorem tc_region_ret (L : GSem nD τ sig → Finset (HIx 1)) (lv : GSem nD τ sig → HIx 1 → ℕ) (B : Set (SemLoc sig × HIx 1))
    (Vv : (c : Dev nD) → (b : Ref sig .tc) → Buf (Elt F) ((c.tc : Thread nD τ).loc b)) (d : Dev nD) (Φ : PUnit → sProp 𝕄) :
    iprop(boundary (SparseCore.T d) ∗ regionPre B Vv d ∗ levAts L lv
        ∗ Pipeline.cellsGhost (Pipeline.pin (pcfgs (F := F)) adm) ER 0 d ∗ Pipeline.toksInit (Pipeline.pin (pcfgs (F := F)) adm) ER 0 d
        ∗ (iprop(boundary (SparseCore.T d) ∗ regionPost B Vv d) -∗ Φ ⟨⟩))
      ⊢ wp frame (wpE ((K (F := F)).defs D) 𝒱 (SparseCore.T d) none) Set.univ
          (Prog.lift (.customCall (SparseCore.inner (Pipeline.entry 0)) ())) Φ := by
  refine BIBase.Entails.trans ?_ (tc_region L lv B Vv d (fun a => Prog.ret a) Φ)
  iintro ⟨Hb, Hpre, Hlev, Hg, Ht, Hk⟩
  isplitl [Hb]; · iexact Hb
  isplitl [Hpre]; · iexact Hpre
  isplitl [Hlev]; · iexact Hlev
  isplitl [Hg]; · iexact Hg
  isplitl [Ht]; · iexact Ht
  iintro Hpost
  rw [wp_ret]
  imodintro
  iapply Hk
  iexact Hpost

/-! ## @main -/

/-- @main on device d's TensorCore. -/
theorem hmain (κ : GSem nD τ sig → ℕ) (d : Dev nD) :
    iprop((K (F := F)).ctx EH (P m) κ (K (F := F)).lev ∗ (K (F := F)).tcSt EH d 0 ∗ (K (F := F)).tcRes m ρ d
        ∗ (Pipeline.cellsGhost (Pipeline.pin (pcfgs (F := F)) adm) ER 0 d ∗ Pipeline.toksInit (Pipeline.pin (pcfgs (F := F)) adm) ER 0 d))
      ⊢ wp frame (wpE ((K (F := F)).defs (D (F := F))) 𝒱 (SparseCore.T d) none) Set.univ (main (F := F) d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, Hg, Ht⟩
  iapply (wp_hlo_within 𝒱 (SparseCore.T d) none Set.univ (op := op0) (S := S19) hop0 (V := V0 m d)) $$ [Hb Hheld]
  · isplitl [Hb] <;> iassumption
  iintro ⟨Hb, Hheld⟩
  rw [wp_ret]; imodintro
  iapply (wp_hlo_within 𝒱 (SparseCore.T d) none Set.univ (op := op1) (S := S19) hop1 (V := (op0 (F := F)).result (V0 m d))) $$ [Hb Hheld]
  · isplitl [Hb] <;> iassumption
  iintro ⟨Hb, Hheld⟩
  rw [wp_ret]; imodintro
  iapply (wp_hlo_within 𝒱 (SparseCore.T d) none Set.univ (op := op2) (S := S19) hop2 (V := (op1 (F := F)).result ((op0 (F := F)).result (V0 m d)))) $$ [Hb Hheld]
  · isplitl [Hb] <;> iassumption
  iintro ⟨Hb, Hheld⟩
  rw [wp_ret]; imodintro
  iapply (wp_hlo_within 𝒱 (SparseCore.T d) none Set.univ (op := op3) (S := S19) hop3 (V := (op2 (F := F)).result ((op1 (F := F)).result ((op0 (F := F)).result (V0 m d))))) $$ [Hb Hheld]
  · isplitl [Hb] <;> iassumption
  iintro ⟨Hb, Hheld⟩
  rw [wp_ret]; imodintro
  iapply (wp_hlo_within 𝒱 (SparseCore.T d) none Set.univ (op := op4) (S := S19) hop4 (V := (op3 (F := F)).result ((op2 (F := F)).result ((op1 (F := F)).result ((op0 (F := F)).result (V0 m d)))))) $$ [Hb Hheld]
  · isplitl [Hb] <;> iassumption
  iintro ⟨Hb, Hheld⟩
  rw [wp_ret]; imodintro
  iapply (wp_hlo_within 𝒱 (SparseCore.T d) none Set.univ (op := op5) (S := S19) hop5 (V := (op4 (F := F)).result ((op3 (F := F)).result ((op2 (F := F)).result ((op1 (F := F)).result ((op0 (F := F)).result (V0 m d))))))) $$ [Hb Hheld]
  · isplitl [Hb] <;> iassumption
  iintro ⟨Hb, Hheld⟩
  rw [wp_ret]; imodintro
  iapply (wp_hlo_within 𝒱 (SparseCore.T d) none Set.univ (op := op6) (S := S19) hop6 (V := (op5 (F := F)).result ((op4 (F := F)).result ((op3 (F := F)).result ((op2 (F := F)).result ((op1 (F := F)).result ((op0 (F := F)).result (V0 m d)))))))) $$ [Hb Hheld]
  · isplitl [Hb] <;> iassumption
  iintro ⟨Hb, Hheld⟩
  rw [wp_ret]; imodintro
  iapply (wp_hlo_within 𝒱 (SparseCore.T d) none Set.univ (op := op7) (S := S19) hop7 (V := (op6 (F := F)).result ((op5 (F := F)).result ((op4 (F := F)).result ((op3 (F := F)).result ((op2 (F := F)).result ((op1 (F := F)).result ((op0 (F := F)).result (V0 m d))))))))) $$ [Hb Hheld]
  · isplitl [Hb] <;> iassumption
  iintro ⟨Hb, Hheld⟩
  rw [wp_ret]; imodintro
  iapply (wp_hlo_within 𝒱 (SparseCore.T d) none Set.univ (op := op8) (S := S19) hop8 (V := (op7 (F := F)).result ((op6 (F := F)).result ((op5 (F := F)).result ((op4 (F := F)).result ((op3 (F := F)).result ((op2 (F := F)).result ((op1 (F := F)).result ((op0 (F := F)).result (V0 m d)))))))))) $$ [Hb Hheld]
  · isplitl [Hb] <;> iassumption
  iintro ⟨Hb, Hheld⟩
  rw [wp_ret]; imodintro
  -- the SparseCore call
  ihave Hh := (Entails.of_eq (held_V9 (F := F) m d)) $$ Hheld
  icases Hh with ⟨Ha0, Ha1, Ha2, Ha3, Ha4, Ha5, Ha6, Ha7, Hv0, Hv1, Hv2, Hv3, Hv4, Hv5, Hv6, Hv7, Hv8, Hv9, Hv10⟩
  ihave Hsp := (call_split m d (m (oLoc d))) $$ [Ha0 Ha6 Ha7 Hv9]
  · isplitl [Ha0]; · iexact Ha0
    isplitl [Ha6]; · iexact Ha6
    isplitl [Ha7]; · iexact Ha7
    iexact Hv9
  icases Hsp with ⟨Hkept, Htiles⟩
  iapply ((K (F := F)).wp_run (D (F := F)) 𝒱 (EH := EH) (P := P m) κ d 0) $$ [Hst Htiles Hkept Hb Ha1 Ha2 Ha3 Ha4 Ha5 Hv2 Hv4 Hv5 Hv7 Hv8 Hv10 Hg Ht]
  isplitr; · iexact Hctx
  isplitl [Hst]; · iexact Hst
  isplitl [Htiles]
  · rw [st0_eq]; iexact Htiles
  iintro ⟨Hst, Hdn⟩
  ihave Hdn' := (Entails.of_eq (dn0_eq m d)) $$ Hdn
  ihave Hj := (call_join m d (gatherC m d)) $$ [Hkept Hdn']
  · isplitl [Hkept] <;> iassumption
  icases Hj with ⟨Ha0, Ha6, Ha7, Hv9⟩
  -- the dense network's pipeline
  ihave Hst := (Entails.of_eq (show (K (F := F)).tcSt EH d ((0 : Fin 1).val + 1) = (K (F := F)).tcSt EH d 1 from rfl)) $$ Hst
  ihave Hso := (tcSt_region (F := F) d) $$ Hst
  icases Hso with ⟨HO, Hback⟩
  ihave Hlev := (SparseCore.Cfg.ctx_levAts κ) $$ Hctx
  iapply (tc_region_ret (K (F := F)).L (K (F := F)).lev (Breg (F := F) d) (Vreg m) d _) $$ [Hb Hv9 Ha1 Hv2 Hv4 Hv5 Hv7 Hv8 Hv10 HO Hlev Hg Ht Hback Ha0 Ha2 Ha3 Ha4 Ha5 Ha6 Ha7]
  isplitl [Hb]; · iexact Hb
  isplitl [Hv9 Ha1 Hv2 Hv4 Hv5 Hv7 Hv8 Hv10 HO]
  · iapply (regionPre_intro m d)
    isplitl [Hv9]; · iexact Hv9
    isplitl [Ha1]; · iexact Ha1
    isplitl [Hv2]; · iexact Hv2
    isplitl [Hv4]; · iexact Hv4
    isplitl [Hv5]; · iexact Hv5
    isplitl [Hv7]; · iexact Hv7
    isplitl [Hv8]; · iexact Hv8
    isplitl [Hv10]; · iexact Hv10
    iexact HO
  isplitl [Hlev]; · iexact Hlev
  isplitl [Hg]; · iexact Hg
  isplitl [Ht]; · iexact Ht
  iintro ⟨Hb, Hpost⟩
  ihave Hp := (regionPost_elim m d) $$ Hpost
  icases Hp with ⟨Ha1, Hv10, HO⟩
  imodintro
  isplitl [HO Hback]
  · iapply Hback; iexact HO
  unfold FIN
  isplitl [Ha0]; · iexact Ha0
  isplitl [Ha1]; · iexact Ha1
  isplitl [Ha2]; · iexact Ha2
  isplitl [Ha3]; · iexact Ha3
  isplitl [Ha4]; · iexact Ha4
  isplitl [Ha5]; · iexact Ha5
  isplitl [Ha6]; · iexact Ha6
  isplitl [Ha7]; · iexact Ha7
  iexact Hv10

/-! ## The host stages' values -/

theorem V9_v2 (d : Dev nD) :
    V9 m d v2' = truncf .bf16 (extractStridedSlice S256x544 ![0, 0] (transpose S272x544 [1, 0] (m ((SparseCore.T d).loc main_arg2))
      transposes_S544x272_S272x544_1_0) slices_S272x544_S256x544_0_0) bitsLt_bf16_f32 := by
  unfold V9
  rw [(op8 (F := F)).result_of_not_mem _ (show v2' ∉ ({v8'} : Finset (DevRef τ sig)) by decide),
    (op7 (F := F)).result_of_not_mem _ (show v2' ∉ ({v7'} : Finset (DevRef τ sig)) by decide),
    (op6 (F := F)).result_of_not_mem _ (show v2' ∉ ({v6'} : Finset (DevRef τ sig)) by decide),
    (op5 (F := F)).result_of_not_mem _ (show v2' ∉ ({v5'} : Finset (DevRef τ sig)) by decide),
    (op4 (F := F)).result_of_not_mem _ (show v2' ∉ ({v4'} : Finset (DevRef τ sig)) by decide),
    (op3 (F := F)).result_of_not_mem _ (show v2' ∉ ({v3'} : Finset (DevRef τ sig)) by decide)]
  rw [StableHlo.unary_result, StableHlo.unary_result, StableHlo.unary_result]
  rfl

theorem V9_v4 (d : Dev nD) :
    V9 m d v4' = truncf .bf16 (extractStridedSlice S16x544 ![256, 0] (transpose S272x544 [1, 0] (m ((SparseCore.T d).loc main_arg2))
      transposes_S544x272_S272x544_1_0) slices_S272x544_S16x544_256_0) bitsLt_bf16_f32 := by
  unfold V9
  rw [(op8 (F := F)).result_of_not_mem _ (show v4' ∉ ({v8'} : Finset (DevRef τ sig)) by decide),
    (op7 (F := F)).result_of_not_mem _ (show v4' ∉ ({v7'} : Finset (DevRef τ sig)) by decide),
    (op6 (F := F)).result_of_not_mem _ (show v4' ∉ ({v6'} : Finset (DevRef τ sig)) by decide),
    (op5 (F := F)).result_of_not_mem _ (show v4' ∉ ({v5'} : Finset (DevRef τ sig)) by decide)]
  rw [StableHlo.unary_result, StableHlo.unary_result]
  rw [(op2 (F := F)).result_of_not_mem _ (show v0' ∉ ({v2'} : Finset (DevRef τ sig)) by decide),
    (op1 (F := F)).result_of_not_mem _ (show v0' ∉ ({v1'} : Finset (DevRef τ sig)) by decide)]
  rw [StableHlo.unary_result]
  rfl

theorem V9_v5 (d : Dev nD) : V9 m d v5' = shapeCast S1x544 (m ((SparseCore.T d).loc main_arg3)) shapeCasts_S544_S1x544 := by
  unfold V9
  rw [(op8 (F := F)).result_of_not_mem _ (show v5' ∉ ({v8'} : Finset (DevRef τ sig)) by decide),
    (op7 (F := F)).result_of_not_mem _ (show v5' ∉ ({v7'} : Finset (DevRef τ sig)) by decide),
    (op6 (F := F)).result_of_not_mem _ (show v5' ∉ ({v6'} : Finset (DevRef τ sig)) by decide)]
  rw [StableHlo.reshape_result]
  rw [(op4 (F := F)).result_of_not_mem _ (show a3' ∉ ({v4'} : Finset (DevRef τ sig)) by decide),
    (op3 (F := F)).result_of_not_mem _ (show a3' ∉ ({v3'} : Finset (DevRef τ sig)) by decide),
    (op2 (F := F)).result_of_not_mem _ (show a3' ∉ ({v2'} : Finset (DevRef τ sig)) by decide),
    (op1 (F := F)).result_of_not_mem _ (show a3' ∉ ({v1'} : Finset (DevRef τ sig)) by decide),
    (op0 (F := F)).result_of_not_mem _ (show a3' ∉ ({v0'} : Finset (DevRef τ sig)) by decide)]
  rfl

theorem V9_v7 (d : Dev nD) :
    V9 m d v7' = truncf .bf16 (transpose S544x16 [1, 0] (m ((SparseCore.T d).loc main_arg4)) transposes_S16x544_S544x16_1_0) bitsLt_bf16_f32 := by
  unfold V9
  rw [(op8 (F := F)).result_of_not_mem _ (show v7' ∉ ({v8'} : Finset (DevRef τ sig)) by decide)]
  rw [StableHlo.unary_result, StableHlo.unary_result]
  rw [(op5 (F := F)).result_of_not_mem _ (show a4' ∉ ({v5'} : Finset (DevRef τ sig)) by decide), (op4 (F := F)).result_of_not_mem _ (show a4' ∉ ({v4'} : Finset (DevRef τ sig)) by decide),
    (op3 (F := F)).result_of_not_mem _ (show a4' ∉ ({v3'} : Finset (DevRef τ sig)) by decide),
    (op2 (F := F)).result_of_not_mem _ (show a4' ∉ ({v2'} : Finset (DevRef τ sig)) by decide),
    (op1 (F := F)).result_of_not_mem _ (show a4' ∉ ({v1'} : Finset (DevRef τ sig)) by decide),
    (op0 (F := F)).result_of_not_mem _ (show a4' ∉ ({v0'} : Finset (DevRef τ sig)) by decide)]
  rfl

theorem V9_v8 (d : Dev nD) : V9 m d v8' = shapeCast S1x16 (m ((SparseCore.T d).loc main_arg5)) shapeCasts_S16_S1x16 := by
  unfold V9
  rw [StableHlo.reshape_result]
  rw [(op7 (F := F)).result_of_not_mem _ (show a5' ∉ ({v7'} : Finset (DevRef τ sig)) by decide),
    (op6 (F := F)).result_of_not_mem _ (show a5' ∉ ({v6'} : Finset (DevRef τ sig)) by decide),
    (op5 (F := F)).result_of_not_mem _ (show a5' ∉ ({v5'} : Finset (DevRef τ sig)) by decide),
    (op4 (F := F)).result_of_not_mem _ (show a5' ∉ ({v4'} : Finset (DevRef τ sig)) by decide),
    (op3 (F := F)).result_of_not_mem _ (show a5' ∉ ({v3'} : Finset (DevRef τ sig)) by decide),
    (op2 (F := F)).result_of_not_mem _ (show a5' ∉ ({v2'} : Finset (DevRef τ sig)) by decide),
    (op1 (F := F)).result_of_not_mem _ (show a5' ∉ ({v1'} : Finset (DevRef τ sig)) by decide),
    (op0 (F := F)).result_of_not_mem _ (show a5' ∉ ({v0'} : Finset (DevRef τ sig)) by decide)]
  rfl

/-- The region's eight arrays as functions of the launch memory. -/
theorem Vreg_v2_eq (d : Dev nD) : Vreg m d main_v2 = truncf .bf16 (extractStridedSlice S256x544 ![0, 0] (transpose S272x544 [1, 0] (m ((SparseCore.T d).loc main_arg2))
      transposes_S544x272_S272x544_1_0) slices_S272x544_S256x544_0_0) bitsLt_bf16_f32 := (Vreg_v2 m d).trans (V9_v2 m d)
theorem Vreg_v4_eq (d : Dev nD) : Vreg m d main_v4 = truncf .bf16 (extractStridedSlice S16x544 ![256, 0] (transpose S272x544 [1, 0] (m ((SparseCore.T d).loc main_arg2))
      transposes_S544x272_S272x544_1_0) slices_S272x544_S16x544_256_0) bitsLt_bf16_f32 := (Vreg_v4 m d).trans (V9_v4 m d)
theorem Vreg_v5_eq (d : Dev nD) : Vreg m d main_v5 = shapeCast S1x544 (m ((SparseCore.T d).loc main_arg3)) shapeCasts_S544_S1x544 := (Vreg_v5 m d).trans (V9_v5 m d)
theorem Vreg_v7_eq (d : Dev nD) : Vreg m d main_v7 = truncf .bf16 (transpose S544x16 [1, 0] (m ((SparseCore.T d).loc main_arg4)) transposes_S16x544_S544x16_1_0) bitsLt_bf16_f32 :=
  (Vreg_v7 m d).trans (V9_v7 m d)
theorem Vreg_v8_eq (d : Dev nD) : Vreg m d main_v8 = shapeCast S1x16 (m ((SparseCore.T d).loc main_arg5)) shapeCasts_S16_S1x16 := (Vreg_v8 m d).trans (V9_v8 m d)

end Cert.Proof.KI

end
-- ==== Proof.ScCross.lean ====
/-
  What crosses the subcore barrier, and the shares a tile splits its read share of the shared table into.

  Before the barrier a tile holds its own part of its SparseCore's shared table whole, at the node rows. It splits
  sixteen read shares off it, one per tile of the SparseCore — these are what its duty in each tile's round hands
  over — and keeps the remainder. After the barrier its own round has collected, from each of the sixteen tiles,
  that tile's part at this tile's read share: together the whole shared table at that share. For its four
  concurrent gathers it splits that share into a remainder and four read shares, and joins them back. A tile's own
  part is its block of 624 rows, and on tile 15 also the last sixteen rows.
-/
import proofs.«206088_g82248623718559_cont_9to1c4b_230_21_alg».proof.Proof.ScBarrier
import proofs.«206088_g82248623718559_cont_9to1c4b_230_21_alg».proof.Proof.ScGeom
import proofs.«206088_g82248623718559_cont_9to1c4b_230_21_alg».proof.Proof.ScSplit

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "nV" => (Memref.whole Cert.KernelIdeal.main_arg0_scv : Memref Cert.KernelIdeal.sig Kind.scVector Space.hbm Cert.KernelIdeal.S10000x128 EltTy.f32)
local notation "shV" => (Memref.whole Cert.KernelIdeal.cc0_scratch0 : Memref Cert.KernelIdeal.sig Kind.scVector Space.shared Cert.KernelIdeal.S10000x128 EltTy.f32)

variable (m : (ℓ : Loc nD τ sig) → Buf (Elt F) ℓ)

variable [FloatOps F]

/-- The tile's number among the sixteen of its SparseCore. -/
abbrev jL (L : grid0.Coords) : Fin 16 := Fin.cast (rfl : grid0.bound 1 = 16) (L 1)

/-! ## Across the barrier -/

/-- What tile L's duty in tile j's round hands over: L's own part at the j-th read share. -/
theorem pay_out (d : Dev nD) (L : grid0.Coords) (j : Fin (grid0.bound 1)) :
    (bRd (F := F) m).payload (bcell d (cV L) (j.castLE hsub0)) 0 (jV L).val
      = (shLoc d (cV L) ↦[blkAll (jL L)]{Transfers.shareTokN fullShare j.val} nodesSh m d (cV L) : sProp 𝕄) := by
  show bPay m (bcell d (cV L) (j.castLE hsub0)) (jV L).val = _
  unfold bPay; dsimp only
  rw [dif_pos (show (jV L).val < 16 from (L 1).isLt)]
  rfl

/-- Before the barrier: the tile's own part, whole, is what its sixteen duties hand over and a remainder. -/
theorem pays_intro (d : Dev nD) (L : grid0.Coords) :
    (shLoc d (cV L) ↦[blkAll (jL L)]{fullShare} nodesSh m d (cV L) : sProp 𝕄)
      ⊢ iprop((bigSep Finset.univ fun j : Fin (grid0.bound 1) => (bRd (F := F) m).payload (bcell d (cV L) (j.castLE hsub0)) 0 (jV L).val)
          ∗ (shLoc d (cV L) ↦[blkAll (jL L)]{Transfers.shareDrop fullShare 16} nodesSh m d (cV L))) := by
  have e : (bigSep Finset.univ fun i : Fin 16 => (shLoc d (cV L) ↦[blkAll (jL L)]{Transfers.shareTok fullShare 16 i} nodesSh m d (cV L) : sProp 𝕄))
      = bigSep Finset.univ fun j : Fin (grid0.bound 1) => (bRd (F := F) m).payload (bcell d (cV L) (j.castLE hsub0)) 0 (jV L).val :=
    bigSep_congr fun j _ => (pay_out m d L j).symm
  rw [← e]
  exact (Transfers.pointsTo_toks_split fullShare 16).trans sep_comm.1

/-- What tile i's duty in tile L's round hands over: i's part at L's read share. -/
theorem pay_in (d : Dev nD) (L : grid0.Coords) (i : Fin τ.nSub) :
    (bRd (F := F) m).payload (bcell d (cV L) (jV L)) 0 i.val
      = (shLoc d (cV L) ↦[blkAll (Fin.cast nSub_eq i)]{tok16 (jV L)} nodesSh m d (cV L) : sProp 𝕄) := by
  show bPay m (bcell d (cV L) (jV L)) i.val = _
  unfold bPay; dsimp only
  rw [dif_pos (show i.val < 16 from i.isLt)]
  rfl

/-- After the barrier: what the tile's own round collected is the whole shared table at the tile's read share. -/
theorem pays_elim (d : Dev nD) (L : grid0.Coords) :
    (bigSep ((bRd (F := F) m).duties (bcell d (cV L) (jV L)) 0 \ ∅) fun n => (bRd (F := F) m).payload (bcell d (cV L) (jV L)) 0 n)
      ⊢ (shLoc d (cV L) ↦{tok16 (jV L)} nodesSh m d (cV L) : sProp 𝕄) := by
  rw [Finset.sdiff_empty, bRd_duties₀, SparseCore.bigSep_image_of_injOn (Fin.val_injective.injOn),
    shPts_blks d (cV L) (tok16 (jV L)) (nodesSh m d (cV L))]
  exact Entails.of_eq (bigSep_congr fun i _ => pay_in m d L i)

/-! ## A read share split into a remainder and four read shares -/

omit [FloatOps F] in
theorem bigSep_range4 (Φ : ℕ → sProp 𝕄) : bigSep (Finset.range 4) Φ = iprop(Φ 0 ∗ Φ 1 ∗ Φ 2 ∗ Φ 3) := by
  rw [show Finset.range 4 = insert 0 (insert 1 (insert 2 {3})) from by decide,
    bigSep_insert (by decide), bigSep_insert (by decide), bigSep_insert (by decide), bigSep_singleton]
  rfl

omit [FloatOps F] in
/-- Split: the remainder and the four read shares. -/
theorem share4_split {ℓ : Loc nD τ sig} (Sx : Finset (Idx ℓ)) (q : PosShare TreeShare) (f : Buf (Elt F) ℓ) :
    (ℓ ↦[Sx]{q} f : sProp 𝕄)
      ⊢ iprop((ℓ ↦[Sx]{Transfers.shareDrop q 4} f) ∗ (ℓ ↦[Sx]{Transfers.shareTokN q 0} f) ∗ (ℓ ↦[Sx]{Transfers.shareTokN q 1} f)
          ∗ (ℓ ↦[Sx]{Transfers.shareTokN q 2} f) ∗ (ℓ ↦[Sx]{Transfers.shareTokN q 3} f)) := by
  rw [← bigSep_range4 (fun i => (ℓ ↦[Sx]{Transfers.shareTokN q i} f : sProp 𝕄))]
  exact (Transfers.pointsTo_toks_range q 4).1

omit [FloatOps F] in
/-- Joined back. -/
theorem share4_join {ℓ : Loc nD τ sig} (Sx : Finset (Idx ℓ)) (q : PosShare TreeShare) (f : Buf (Elt F) ℓ) :
    iprop((ℓ ↦[Sx]{Transfers.shareDrop q 4} f) ∗ (ℓ ↦[Sx]{Transfers.shareTokN q 0} f) ∗ (ℓ ↦[Sx]{Transfers.shareTokN q 1} f)
        ∗ (ℓ ↦[Sx]{Transfers.shareTokN q 2} f) ∗ (ℓ ↦[Sx]{Transfers.shareTokN q 3} f))
      ⊢ (ℓ ↦[Sx]{q} f : sProp 𝕄) := by
  rw [← bigSep_range4 (fun i => (ℓ ↦[Sx]{Transfers.shareTokN q i} f : sProp 𝕄))]
  exact (Transfers.pointsTo_toks_range q 4).2

omit [FloatOps F] in
/-- The tile's read share of the whole shared table, split for its four concurrent gathers. -/
theorem tok4_split (d : Dev nD) (L : grid0.Coords) (f : Buf (Elt F) (shLoc d (cV L))) :
    (shLoc d (cV L) ↦{tok16 (jV L)} f : sProp 𝕄)
      ⊢ iprop((shLoc d (cV L) ↦{Transfers.shareDrop (tok16 (jV L)) 4} f) ∗ (shLoc d (cV L) ↦{Transfers.shareTokN (tok16 (jV L)) 0} f)
          ∗ (shLoc d (cV L) ↦{Transfers.shareTokN (tok16 (jV L)) 1} f) ∗ (shLoc d (cV L) ↦{Transfers.shareTokN (tok16 (jV L)) 2} f)
          ∗ (shLoc d (cV L) ↦{Transfers.shareTokN (tok16 (jV L)) 3} f)) :=
  share4_split Finset.univ (tok16 (jV L)) f

omit [FloatOps F] in
theorem tok4_join (d : Dev nD) (L : grid0.Coords) (f : Buf (Elt F) (shLoc d (cV L))) :
    iprop((shLoc d (cV L) ↦{Transfers.shareDrop (tok16 (jV L)) 4} f) ∗ (shLoc d (cV L) ↦{Transfers.shareTokN (tok16 (jV L)) 0} f)
        ∗ (shLoc d (cV L) ↦{Transfers.shareTokN (tok16 (jV L)) 1} f) ∗ (shLoc d (cV L) ↦{Transfers.shareTokN (tok16 (jV L)) 2} f)
        ∗ (shLoc d (cV L) ↦{Transfers.shareTokN (tok16 (jV L)) 3} f))
      ⊢ (shLoc d (cV L) ↦{tok16 (jV L)} f : sProp 𝕄) :=
  share4_join Finset.univ (tok16 (jV L)) f

/-! ## A tile's own part -/

omit [FloatOps F] in
/-- Off tile 15 the tile's part is its block. -/
theorem own_part_eq (d : Dev nD) (L : grid0.Coords) (h : (L 1).val ≠ 15) (q : PosShare TreeShare) (f : Buf (Elt F) (shLoc d (cV L))) :
    (shLoc d (cV L) ↦[blkSet L]{q} f : sProp 𝕄) = shLoc d (cV L) ↦[blkAll (jL L)]{q} f := by
  rw [show blkAll (jL L) = blkSet L from blkAll_eq L h]

omit [FloatOps F] in
/-- On tile 15 it is the block and the last sixteen rows: joined, -/
theorem own_part15_join (d : Dev nD) (L : grid0.Coords) (h : (L 1).val = 15) (q : PosShare TreeShare) (f : Buf (Elt F) (shLoc d (cV L))) :
    iprop((shLoc d (cV L) ↦[blkSet L]{q} f) ∗ (shLoc d (cV L) ↦[tailSet]{q} f)) ⊢ (shLoc d (cV L) ↦[blkAll (jL L)]{q} f : sProp 𝕄) := by
  rw [show blkAll (jL L) = blkSet L ∪ tailSet from blkAll_eq15 L h]
  exact (pointsTo_union (blkSet_disjoint_tailSet L)).2

omit [FloatOps F] in
/-- and split. -/
theorem own_part15_split (d : Dev nD) (L : grid0.Coords) (h : (L 1).val = 15) (q : PosShare TreeShare) (f : Buf (Elt F) (shLoc d (cV L))) :
    (shLoc d (cV L) ↦[blkAll (jL L)]{q} f : sProp 𝕄) ⊢ iprop((shLoc d (cV L) ↦[blkSet L]{q} f) ∗ (shLoc d (cV L) ↦[tailSet]{q} f)) := by
  rw [show blkAll (jL L) = blkSet L ∪ tailSet from blkAll_eq15 L h]
  exact (pointsTo_union (blkSet_disjoint_tailSet L)).1

end Cert.Proof.KI

end
-- ==== Proof.ScTileObl.lean ====
/-
  The gather task as the launch theorem asks for it.

  The launch theorem asks, for tile i of SparseCore c of the call's grid, for a proof about the body table's entry at
  that tile, from what the call hands the tile to what the tile hands back. The table's entry at a tile of the grid is
  the gather program at the tile's coordinates on the whole arrays and the tile's scratch; what the call hands over and
  takes back are the tile's shares of the arrays and its part of the shared table, named by the tile's number.
  So the obligation is the theorem about the gather program at symbolic coordinates, read at the tile's.
-/
import proofs.«206088_g82248623718559_cont_9to1c4b_230_21_alg».proof.Proof.ScCross

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "nV" => (Memref.whole Cert.KernelIdeal.main_arg0_scv : Memref Cert.KernelIdeal.sig Kind.scVector Space.hbm Cert.KernelIdeal.S10000x128 EltTy.f32)
local notation "sV" => (Memref.whole Cert.KernelIdeal.main_arg6_scv : Memref Cert.KernelIdeal.sig Kind.scVector Space.hbm Cert.KernelIdeal.S320000 EltTy.i32)
local notation "rV" => (Memref.whole Cert.KernelIdeal.main_arg7_scv : Memref Cert.KernelIdeal.sig Kind.scVector Space.hbm Cert.KernelIdeal.S320000 EltTy.i32)
local notation "oV" => (Memref.whole Cert.KernelIdeal.main_v9_scv : Memref Cert.KernelIdeal.sig Kind.scVector Space.hbm Cert.KernelIdeal.S320000x256 EltTy.f32)
local notation "shV" => (Memref.whole Cert.KernelIdeal.cc0_scratch0 : Memref Cert.KernelIdeal.sig Kind.scVector Space.shared Cert.KernelIdeal.S10000x128 EltTy.f32)
local notation "isV" => (Memref.whole Cert.KernelIdeal.cc0_scratch1 : Memref Cert.KernelIdeal.sig Kind.scVector Space.vmem Cert.KernelIdeal.S10000 EltTy.i32)
local notation "irV" => (Memref.whole Cert.KernelIdeal.cc0_scratch2 : Memref Cert.KernelIdeal.sig Kind.scVector Space.vmem Cert.KernelIdeal.S10000 EltTy.i32)
local notation "b0V" => (Memref.whole Cert.KernelIdeal.cc0_scratch3 : Memref Cert.KernelIdeal.sig Kind.scVector Space.vmem Cert.KernelIdeal.S40x128 EltTy.f32)
local notation "b1V" => (Memref.whole Cert.KernelIdeal.cc0_scratch4 : Memref Cert.KernelIdeal.sig Kind.scVector Space.vmem Cert.KernelIdeal.S40x128 EltTy.f32)
local notation "b2V" => (Memref.whole Cert.KernelIdeal.cc0_scratch5 : Memref Cert.KernelIdeal.sig Kind.scVector Space.vmem Cert.KernelIdeal.S40x128 EltTy.f32)
local notation "b3V" => (Memref.whole Cert.KernelIdeal.cc0_scratch6 : Memref Cert.KernelIdeal.sig Kind.scVector Space.vmem Cert.KernelIdeal.S40x128 EltTy.f32)

variable (m : (ℓ : Loc nD τ sig) → Buf (Elt F) ℓ)

variable [FloatOps F]

/-- The body table's entry at a vector subcore: the gather program at the subcore's coordinates, on the whole arrays
    and the subcore's scratch, where the subcore is in the grid. -/
theorem defs₀_vector (c : Fin τ.nSC) (s : Fin τ.nSub) :
    defs₀ (F := F) (.scVector c s) 0 ()
      = SparseCore.onTile hcore0 hsub0 (fun c s => cc0__gather_body (coordsV c s) nV (Memref.isWhole_whole _) sV (Memref.isWhole_whole _) rV (Memref.isWhole_whole _) oV (Memref.isWhole_whole _)
          shV (Memref.isWhole_whole _) isV (Memref.isWhole_whole _) irV (Memref.isWhole_whole _) b0V (Memref.isWhole_whole _) b1V (Memref.isWhole_whole _)
          b2V (Memref.isWhole_whole _) b3V (Memref.isWhole_whole _) cc0_scratch7 cc0_scratch8 cc0_scratch9 cc0_scratch10 cc0_scratch11 cc0_scratch12
          cc0_scratch13 cc0_scratch14 cc0_scoped0 cc0_scoped1 cc0_scoped2 cc0_scoped3) ⟨⟩ c s := rfl

set_option maxRecDepth 16384 in
/-- The launch theorem's obligation for the gather call, from the theorem about the gather program at symbolic
    coordinates. -/
theorem tileObl (hF : (K (F := F)).Facts)
    (tile_body : ∀ (d : Dev nD) (L : grid0.Coords) (O : CellTallies nD τ sig (HIx 1)) (W : Waits sig (HIx 1)), (∀ g, O g none = 0) →
      (∀ g ι, 0 < O g ι → 8 * (0 : Fin 1).val + 6 ≤ (K (F := F)).lev g ι) →
      iprop(levAts (K (F := F)).L (K (F := F)).lev ∗ bkit m d (cV L) (jV L)
          ∗ (tileArr m d (wid (cV L) (jV L)) (m (oLoc d)) ∗ shIn d (cV L) (jL L))
          ∗ scopedBufs (V d (cV L) (jV L)) ∗ scopedSems0 (V d (cV L) (jV L)) ∗ owes (V d (cV L) (jV L)) (O + oxV d (cV L)) W)
        ⊢ wp frame (wpE (defs₀ (F := F)) 𝒱₀ (V d (cV L) (jV L)) none) Set.univ
            (cc0__gather_body L nV (Memref.isWhole_whole _) sV (Memref.isWhole_whole _) rV (Memref.isWhole_whole _) oV (Memref.isWhole_whole _)
          shV (Memref.isWhole_whole _) isV (Memref.isWhole_whole _) irV (Memref.isWhole_whole _) b0V (Memref.isWhole_whole _) b1V (Memref.isWhole_whole _)
          b2V (Memref.isWhole_whole _) b3V (Memref.isWhole_whole _) cc0_scratch7 cc0_scratch8 cc0_scratch9 cc0_scratch10 cc0_scratch11 cc0_scratch12
          cc0_scratch13 cc0_scratch14 cc0_scoped0 cc0_scoped1 cc0_scoped2 cc0_scoped3)
            fun _ => iprop((tileArr m d (wid (cV L) (jV L)) (gatherC m d) ∗ shOut m d (cV L) (jL L))
              ∗ scopedBufs (V d (cV L) (jV L)) ∗ scopedSems0 (V d (cV L) (jV L))
              ∗ ∃ W', ⌜∀ p ∈ W', p ∈ W ∨ p.2 = none ∨ p.2 = some (0 : Fin 1)⌝ ∗ owes (V d (cV L) (jV L)) O W')) :
    (K (F := F)).TileObl (D (F := F)) 𝒱 (P m) v₀ 0 := by
  intro d c i O W hO hOlev _
  have hc : ((K (F := F)).core 0 c).val < 2 := c.isLt
  have hci : ((K (F := F)).core 0 c).val < grid0.bound 0 ∧ ((K (F := F)).sub 0 i).val < grid0.bound 1 := ⟨c.isLt, i.isLt⟩
  rw [show (P m).ox 0 (V d ((K (F := F)).core 0 c) ((K (F := F)).sub 0 i)) = oxV d ((K (F := F)).core 0 c) from if_pos hc,
    show (P m).x 0 (V d ((K (F := F)).core 0 c) ((K (F := F)).sub 0 i)) = bkit m d ((K (F := F)).core 0 c) ((K (F := F)).sub 0 i) from if_pos hc]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body d (coordsV ⟨_, hci.1⟩ ⟨_, hci.2⟩) O W hO hOlev

end Cert.Proof.KI

end
-- ==== Proof.ScValue.lean ====
/-
  What a tile's transfers leave, restated through the launch memory.

  A tile copies its 624 rows of the node table (tile 15 also the last sixteen rows) into the same rows of its
  SparseCore's shared table: on those rows the shared table then holds the node table. It copies its 10000 entries
  of each index array into its own lists: entry i of a list is entry 10000 w + i of the array (w the tile's
  number), so every entry of a list, through whichever window it is read, is below 10000.
-/
import proofs.«206088_g82248623718559_cont_9to1c4b_230_21_alg».proof.Proof.ScPay
import proofs.«206088_g82248623718559_cont_9to1c4b_230_21_alg».proof.Proof.ScGeom
import Idealize.ShloMosaic.Lib.Pipeline.Value

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "nV" => (Memref.whole Cert.KernelIdeal.main_arg0_scv : Memref Cert.KernelIdeal.sig Kind.scVector Space.hbm Cert.KernelIdeal.S10000x128 EltTy.f32)
local notation "sV" => (Memref.whole Cert.KernelIdeal.main_arg6_scv : Memref Cert.KernelIdeal.sig Kind.scVector Space.hbm Cert.KernelIdeal.S320000 EltTy.i32)
local notation "rV" => (Memref.whole Cert.KernelIdeal.main_arg7_scv : Memref Cert.KernelIdeal.sig Kind.scVector Space.hbm Cert.KernelIdeal.S320000 EltTy.i32)
local notation "oV" => (Memref.whole Cert.KernelIdeal.main_v9_scv : Memref Cert.KernelIdeal.sig Kind.scVector Space.hbm Cert.KernelIdeal.S320000x256 EltTy.f32)
local notation "shV" => (Memref.whole Cert.KernelIdeal.cc0_scratch0 : Memref Cert.KernelIdeal.sig Kind.scVector Space.shared Cert.KernelIdeal.S10000x128 EltTy.f32)
local notation "isV" => (Memref.whole Cert.KernelIdeal.cc0_scratch1 : Memref Cert.KernelIdeal.sig Kind.scVector Space.vmem Cert.KernelIdeal.S10000 EltTy.i32)
local notation "irV" => (Memref.whole Cert.KernelIdeal.cc0_scratch2 : Memref Cert.KernelIdeal.sig Kind.scVector Space.vmem Cert.KernelIdeal.S10000 EltTy.i32)
local notation "b0V" => (Memref.whole Cert.KernelIdeal.cc0_scratch3 : Memref Cert.KernelIdeal.sig Kind.scVector Space.vmem Cert.KernelIdeal.S40x128 EltTy.f32)
local notation "b1V" => (Memref.whole Cert.KernelIdeal.cc0_scratch4 : Memref Cert.KernelIdeal.sig Kind.scVector Space.vmem Cert.KernelIdeal.S40x128 EltTy.f32)
local notation "b2V" => (Memref.whole Cert.KernelIdeal.cc0_scratch5 : Memref Cert.KernelIdeal.sig Kind.scVector Space.vmem Cert.KernelIdeal.S40x128 EltTy.f32)
local notation "b3V" => (Memref.whole Cert.KernelIdeal.cc0_scratch6 : Memref Cert.KernelIdeal.sig Kind.scVector Space.vmem Cert.KernelIdeal.S40x128 EltTy.f32)

variable [FloatOps F] (m : (ℓ : Loc nD τ sig) → Buf (Elt F) ℓ) (d : Dev nD) (L : grid0.Coords)

/-! ## The shared table's block -/

/-- After the copy of the tile's 624 node rows, the shared table's block holds the node table's rows. -/
theorem shBlk_restate (q : PosShare TreeShare) (fsh : Buf (Elt F) (shLoc d (cV L))) (pay : S624x128.Idx → Elt F .f32)
    (hpay : pay = ReadAs.same.apply (View.read (Elt F) ((nV).slice (blkRect L) (fun _ => rfl)).view (m (xLoc d)))) :
    ((shBlk L).view.loc (V d (cV L) (jV L)) ↦[(shBlk L).view.set]{q} (shBlk L).view.writes (Elt F) fsh [⟨Rect.whole S624x128, pay⟩] : sProp 𝕄)
      = (shLoc d (cV L) ↦[blkSet L]{q} nodesSh m d (cV L)) := by
  subst hpay
  rw [pts_shBlk]
  refine pointsTo_congr fun i hi => ?_
  obtain ⟨x, rfl⟩ := View.exists_emb_of_mem_set (shBlk L).view (show i ∈ (shBlk L).view.set from hi)
  have h1 := View.read_writes_cons_emb (shBlk L).view fsh (Rect.whole S624x128)
    (ReadAs.same.apply (View.read (Elt F) ((nV).slice (blkRect L) (fun _ => rfl)).view (m (xLoc d)))) [] x
  rw [Rect.emb_whole_apply] at h1
  exact ((cast_eq _ _).symm.trans ((View.read_apply _ _).symm.trans h1)).trans ((View.read_apply _ _).trans (cast_eq _ _))

/-- After tile 15's copy of the last sixteen node rows, the shared table's tail holds the node table's rows. -/
theorem shTail_restate (q : PosShare TreeShare) (fsh : Buf (Elt F) (shLoc d (cV L))) (pay : S16x128.Idx → Elt F .f32)
    (hpay : pay = ReadAs.same.apply (View.read (Elt F) ((nV).slice tailRect (fun _ => rfl)).view (m (xLoc d)))) :
    ((shTail).view.loc (V d (cV L) (jV L)) ↦[(shTail).view.set]{q} (shTail).view.writes (Elt F) fsh [⟨Rect.whole S16x128, pay⟩] : sProp 𝕄)
      = (shLoc d (cV L) ↦[tailSet]{q} nodesSh m d (cV L)) := by
  subst hpay
  rw [pts_shTail]
  refine pointsTo_congr fun i hi => ?_
  obtain ⟨x, rfl⟩ := View.exists_emb_of_mem_set (shTail).view (show i ∈ (shTail).view.set from hi)
  have h1 := View.read_writes_cons_emb (shTail).view fsh (Rect.whole S16x128)
    (ReadAs.same.apply (View.read (Elt F) ((nV).slice tailRect (fun _ => rfl)).view (m (xLoc d)))) [] x
  rw [Rect.emb_whole_apply] at h1
  exact ((cast_eq _ _).symm.trans ((View.read_apply _ _).symm.trans h1)).trans ((View.read_apply _ _).trans (cast_eq _ _))

/-! ## The index lists -/

/-- Entry y of the copied window of the senders array is the array's entry 10000 w + y, w the tile's number. -/
theorem pay_s_apply (y : S10000.Idx) :
    ReadAs.same.apply (View.read (Elt F) ((sV).slice (Rect.unit (s := S320000) (k0_off2 L) S10000.size (k0_off2_inb L)) (fun _ => rfl)).view (m (sLoc d))) y
      = m (sLoc d) (ValueIdx.ix1 ⟨10000 * (2 * (L 1).val + (L 0).val) + (y 0).val,
          by have := L0_lt L; have := L1_lt L; have := idx1_lt y; omega⟩) := by
  refine ((View.read_apply _ _).trans (cast_eq _ _)).trans (congrArg (m (sLoc d)) (funext fun a => Fin.ext ?_))
  match a with
  | ⟨0, _⟩ =>
    show k0_off2 L 0 + 1 * (y 0).val = 10000 * (2 * (L 1).val + (L 0).val) + (y 0).val
    have e0 : k0_off2 L 0 = 20000 * (L 1).val + 10000 * (L 0).val := by rw [k0_off2_eq L]; rfl
    rw [e0]; omega

/-- After the copy, entry i of the tile's senders list is entry 10000 w + i of the senders array. -/
theorem s_list_apply (f : Buf (Elt F) ((V d (cV L) (jV L)).loc cc0_scratch1)) (pay : S10000.Idx → Elt F .i32)
    (hpay : pay = ReadAs.same.apply (View.read (Elt F) ((sV).slice (Rect.unit (s := S320000) (k0_off2 L) S10000.size (k0_off2_inb L)) (fun _ => rfl)).view (m (sLoc d))))
    (i : Fin 10000) :
    (View.write (Elt F) (isV).view f pay Finset.univ) (ValueIdx.ix1 i)
      = m (sLoc d) (ValueIdx.ix1 ⟨10000 * (2 * (L 1).val + (L 0).val) + i.val,
          by have := L0_lt L; have := L1_lt L; have := i.isLt; omega⟩) := by
  subst hpay
  rw [View.write_whole_univ]
  exact pay_s_apply m d L (ValueIdx.ix1 i)

/-- Every entry of the tile's senders list, read through any window of the list, is below 10000. -/
theorem idx_inb_s (hlt : ∀ e : Fin 320000, ((m (sLoc d) : IVec S320000 32) (ValueIdx.ix1 e)).toNat < 10000)
    (f : Buf (Elt F) ((V d (cV L) (jV L)).loc cc0_scratch1)) (pay : S10000.Idx → Elt F .i32)
    (hpay : pay = ReadAs.same.apply (View.read (Elt F) ((sV).slice (Rect.unit (s := S320000) (k0_off2 L) S10000.size (k0_off2_inb L)) (fun _ => rfl)).view (m (sLoc d))))
    (r : Rect S10000) (hr : ∀ a, r.stride a = 1) :
    ∀ x, (((isV).slice r hr).view.read (Elt F) (View.write (Elt F) (isV).view f pay Finset.univ) x).toNat < 10000 := by
  subst hpay; intro x
  rw [View.write_whole_univ]
  rw [show ∀ (g : S10000.Idx → Elt F .i32) (y : r.shape.Idx), ((isV).slice r hr).view.read (Elt F) g y = g (r.emb y) from
    fun g y => (View.read_apply _ _).trans (cast_eq _ _)]
  rw [pay_s_apply]
  exact hlt _

/-- Entry y of the copied window of the receivers array is the array's entry 10000 w + y, w the tile's number. -/
theorem pay_r_apply (y : S10000.Idx) :
    ReadAs.same.apply (View.read (Elt F) ((rV).slice (Rect.unit (s := S320000) (k0_off2 L) S10000.size (k0_off2_inb L)) (fun _ => rfl)).view (m (rLoc d))) y
      = m (rLoc d) (ValueIdx.ix1 ⟨10000 * (2 * (L 1).val + (L 0).val) + (y 0).val,
          by have := L0_lt L; have := L1_lt L; have := idx1_lt y; omega⟩) := by
  refine ((View.read_apply _ _).trans (cast_eq _ _)).trans (congrArg (m (rLoc d)) (funext fun a => Fin.ext ?_))
  match a with
  | ⟨0, _⟩ =>
    show k0_off2 L 0 + 1 * (y 0).val = 10000 * (2 * (L 1).val + (L 0).val) + (y 0).val
    have e0 : k0_off2 L 0 = 20000 * (L 1).val + 10000 * (L 0).val := by rw [k0_off2_eq L]; rfl
    rw [e0]; omega

/-- After the copy, entry i of the tile's receivers list is entry 10000 w + i of the receivers array. -/
theorem r_list_apply (f : Buf (Elt F) ((V d (cV L) (jV L)).loc cc0_scratch2)) (pay : S10000.Idx → Elt F .i32)
    (hpay : pay = ReadAs.same.apply (View.read (Elt F) ((rV).slice (Rect.unit (s := S320000) (k0_off2 L) S10000.size (k0_off2_inb L)) (fun _ => rfl)).view (m (rLoc d))))
    (i : Fin 10000) :
    (View.write (Elt F) (irV).view f pay Finset.univ) (ValueIdx.ix1 i)
      = m (rLoc d) (ValueIdx.ix1 ⟨10000 * (2 * (L 1).val + (L 0).val) + i.val,
          by have := L0_lt L; have := L1_lt L; have := i.isLt; omega⟩) := by
  subst hpay
  rw [View.write_whole_univ]
  exact pay_r_apply m d L (ValueIdx.ix1 i)

/-- Every entry of the tile's receivers list, read through any window of the list, is below 10000. -/
theorem idx_inb_r (hlt : ∀ e : Fin 320000, ((m (rLoc d) : IVec S320000 32) (ValueIdx.ix1 e)).toNat < 10000)
    (f : Buf (Elt F) ((V d (cV L) (jV L)).loc cc0_scratch2)) (pay : S10000.Idx → Elt F .i32)
    (hpay : pay = ReadAs.same.apply (View.read (Elt F) ((rV).slice (Rect.unit (s := S320000) (k0_off2 L) S10000.size (k0_off2_inb L)) (fun _ => rfl)).view (m (rLoc d))))
    (r : Rect S10000) (hr : ∀ a, r.stride a = 1) :
    ∀ x, (((irV).slice r hr).view.read (Elt F) (View.write (Elt F) (irV).view f pay Finset.univ) x).toNat < 10000 := by
  subst hpay; intro x
  rw [View.write_whole_univ]
  rw [show ∀ (g : S10000.Idx → Elt F .i32) (y : r.shape.Idx), ((irV).slice r hr).view.read (Elt F) g y = g (r.emb y) from
    fun g y => (View.read_apply _ _).trans (cast_eq _ _)]
  rw [pay_r_apply]
  exact hlt _

end Cert.Proof.KI

end
-- ==== Proof.ScGather.lean ====
/-
  The row gather read at an index.

  A list of 40 row numbers names, for position y, the row whose number is the list's y-th word; the gathered 40 x 128
  array holds at (y, k) entry k of that row of the table.
-/
import proofs.«206088_g82248623718559_cont_9to1c4b_230_21_alg».proof.Proof.ScValue
import Idealize.ShloMosaic.Lib.SparseCore.Stream

noncomputable section

namespace Cert.Proof.KI

open Cert.KernelIdeal Cert.KernelIdeal.Gen

open Idealize.ShloMosaic Idealize.ShloMosaic.ValueIdx

variable {F : FTy → Type}

local notation "shV" => (Memref.whole Cert.KernelIdeal.cc0_scratch0 : Memref Cert.KernelIdeal.sig Kind.scVector Space.shared Cert.KernelIdeal.S10000x128 EltTy.f32)
local notation "isV" => (Memref.whole Cert.KernelIdeal.cc0_scratch1 : Memref Cert.KernelIdeal.sig Kind.scVector Space.vmem Cert.KernelIdeal.S10000 EltTy.i32)
local notation "irV" => (Memref.whole Cert.KernelIdeal.cc0_scratch2 : Memref Cert.KernelIdeal.sig Kind.scVector Space.vmem Cert.KernelIdeal.S10000 EltTy.i32)

/-- A rank-one array's index at a row-major position is that position. -/
theorem rowMajor1_symm {n : Nat} (k : Fin (⟨1, ![n]⟩ : Shape).numel) (h : k.val < n) :
    (⟨1, ![n]⟩ : Shape).rowMajor.symm k = ix1 ⟨k.val, h⟩ := by
  apply (⟨1, ![n]⟩ : Shape).rowMajor.injective
  rw [Equiv.apply_symm_apply]
  exact Fin.ext (Shape.rowMajor_val_one (d := ![n]) (ix1 ⟨k.val, h⟩)).symm

/-- The row that entry k of a list of words names is the k-th word. -/
theorem rows_val {n o z : ℕ} (idx : (⟨1, ![n]⟩ : Shape).Idx → Elt F .i32) (hn : (⟨1, ![n]⟩ : Shape).numel = o)
    (h : ∀ x, (idx x).toNat < z) (k : Fin o) (hk : k.val < n) :
    (SparseCore.rows idx hn h k).val = (idx (ix1 ⟨k.val, hk⟩)).toNat := by
  show (idx ((⟨1, ![n]⟩ : Shape).rowMajor.symm (k.cast hn.symm))).toNat = _
  rw [rowMajor1_symm (k.cast hn.symm) hk]
  rfl

/-- The gathered array at (y, k): entry k of the table's row that position y names. -/
theorem gatherPayload_ix2 (g : S10000x128.Idx → Elt F .f32)
    (r : Fin (S40x128.size gathers_S10000x128_S40x128.axis') → Fin (S10000x128.size gathers_S10000x128_S40x128.axis))
    (y : Fin 40) (k : Fin 128) :
    SparseCore.gatherPayload gathers_S10000x128_S40x128 g r (ix2 y k)
      = g (ix2 (n0 := 10000) (n1 := 128) ⟨(r y).val, (r y).isLt⟩ k) := by
  unfold SparseCore.gatherPayload
  refine congrArg g (funext fun b => Fin.ext ?_)
  match b with
  | ⟨0, _⟩ => exact congrArg Fin.val (Shape.Gathers.idx_axis gathers_S10000x128_S40x128 r (ix2 y k))
  | ⟨1, _⟩ => exact Shape.Gathers.idx_of_ne gathers_S10000x128_S40x128 r (ix2 y k) ⟨1, by decide⟩ (by decide)

/-! ## Reading through the kernel's windows -/

/-- A 40-entry window of the tile's senders list read at y: the list's entry at the window's offset plus y. -/
theorem win_read_s (lst : S10000.Idx → Elt F .i32) (off : Fin 1 → ℕ) (inb : ∀ a, off a + S40.size a ≤ S10000.size a)
    (hr : ∀ a, (Rect.unit (s := S10000) off S40.size inb).stride a = 1) (y : Fin 40) :
    ((isV).slice (Rect.unit (s := S10000) off S40.size inb) hr).view.read (Elt F) lst (ix1 y)
      = lst (ix1 ⟨off 0 + y.val, by have := inb 0; have := y.isLt; show off 0 + y.val < 10000; have e : S40.size 0 = 40 := rfl; have e' : S10000.size 0 = 10000 := rfl; omega⟩) := by
  refine ((View.read_apply _ _).trans (cast_eq _ _)).trans (congrArg lst (funext fun a => Fin.ext ?_))
  match a with
  | ⟨0, _⟩ =>
    show off 0 + 1 * y.val = off 0 + y.val
    omega

/-- A 40-entry window of the tile's receivers list read at y: the list's entry at the window's offset plus y. -/
theorem win_read_r (lst : S10000.Idx → Elt F .i32) (off : Fin 1 → ℕ) (inb : ∀ a, off a + S40.size a ≤ S10000.size a)
    (hr : ∀ a, (Rect.unit (s := S10000) off S40.size inb).stride a = 1) (y : Fin 40) :
    ((irV).slice (Rect.unit (s := S10000) off S40.size inb) hr).view.read (Elt F) lst (ix1 y)
      = lst (ix1 ⟨off 0 + y.val, by have := inb 0; have := y.isLt; show off 0 + y.val < 10000; have e : S40.size 0 = 40 := rfl; have e' : S10000.size 0 = 10000 := rfl; omega⟩) := by
  refine ((View.read_apply _ _).trans (cast_eq _ _)).trans (congrArg lst (funext fun a => Fin.ext ?_))
  match a with
  | ⟨0, _⟩ =>
    show off 0 + 1 * y.val = off 0 + y.val
    omega

/-- The shared table read through its whole-shape window is its contents. -/
theorem sh_read_whole (f : S10000x128.Idx → Elt F .f32) (inb : ∀ a, (![0, 0] : Fin 2 → ℕ) a + S10000x128.size a ≤ S10000x128.size a)
    (hr : ∀ a, (Rect.unit (s := S10000x128) ![0, 0] S10000x128.size inb).stride a = 1) (i : S10000x128.Idx) :
    ((shV).slice (Rect.unit (s := S10000x128) ![0, 0] S10000x128.size inb) hr).view.read (Elt F) f i = f i := by
  refine ((View.read_apply _ _).trans (cast_eq _ _)).trans (congrArg f (funext fun a => Fin.ext ?_))
  match a with
  | ⟨0, _⟩ => show 0 + 1 * (i 0).val = (i 0).val; omega
  | ⟨1, _⟩ => show 0 + 1 * (i 1).val = (i 1).val; omega

/-! ## The gathered array's entries -/

variable [FloatOps F] (m : (ℓ : Loc nD τ sig) → Buf (Elt F) ℓ) (d : Dev nD)

/-- In the left half of a row the gathered array holds the sender's node row. -/
theorem gatherC_left (e : Fin 320000) (k : Fin 128) :
    gatherC m d (ix2 (n0 := 320000) (n1 := 256) e ⟨k.val, by have := k.isLt; omega⟩)
      = m (xLoc d) (ix2 (rowU (m (sLoc d) (ix1 e))) k) := by
  unfold gatherC
  rw [dif_pos (show ((ix2 (n0 := 320000) (n1 := 256) e ⟨k.val, by have := k.isLt; omega⟩ : S320000x256.Idx) 1).val < 128 from k.isLt)]
  rfl

/-- In the right half of a row the gathered array holds the receiver's node row. -/
theorem gatherC_right (e : Fin 320000) (k : Fin 128) :
    gatherC m d (ix2 (n0 := 320000) (n1 := 256) e ⟨128 + k.val, by have := k.isLt; omega⟩)
      = m (xLoc d) (ix2 (rowU (m (rLoc d) (ix1 e))) k) := by
  unfold gatherC
  rw [dif_neg (show ¬ ((ix2 (n0 := 320000) (n1 := 256) e ⟨128 + k.val, by have := k.isLt; omega⟩ : S320000x256.Idx) 1).val < 128 from by
    show ¬ (128 + k.val < 128); omega)]
  refine congrArg (m (xLoc d)) (congrArg (ix2 _) (Fin.ext ?_))
  show 128 + k.val - 128 = k.val
  omega

/-- A gather through a window of the senders list whose y-th word is the senders array's entry base + y, from a
    table that holds the node table: at (y, k) it is the gathered array's entry (base + y, k). -/
theorem gathered_left (gs : S10000x128.Idx → Elt F .f32) (lw : S40.Idx → Elt F .i32)
    (hn : S40.numel = S40x128.size gathers_S10000x128_S40x128.axis')
    (hin : ∀ x, (lw x).toNat < S10000x128.size gathers_S10000x128_S40x128.axis)
    (base : ℕ) (hb : base + 40 ≤ 320000) (hgs : ∀ i, gs i = m (xLoc d) i)
    (hlw : ∀ y : Fin 40, lw (ix1 y) = m (sLoc d) (ix1 ⟨base + y.val, by have := y.isLt; omega⟩))
    (hlt : ∀ e : Fin 320000, ((m (sLoc d) : IVec S320000 32) (ix1 e)).toNat < 10000) (y : Fin 40) (k : Fin 128) :
    SparseCore.gatherPayload gathers_S10000x128_S40x128 gs (SparseCore.rows lw hn hin) (ix2 y k)
      = gatherC m d (ix2 (n0 := 320000) (n1 := 256) ⟨base + y.val, by have := y.isLt; omega⟩ ⟨k.val, by have := k.isLt; omega⟩) := by
  rw [gatherPayload_ix2, hgs, gatherC_left]
  refine congrArg (m (xLoc d)) (congrArg (fun r : Fin 10000 => ix2 r k) (Fin.ext ?_))
  show (SparseCore.rows lw hn hin y).val = (rowU (m (sLoc d) (ix1 ⟨base + y.val, _⟩))).val
  rw [rows_val lw hn hin y y.isLt, hlw y, rowU_val (hlt _)]

/-- A gather through a window of the receivers list whose y-th word is the receivers array's entry base + y, from a
    table that holds the node table: at (y, k) it is the gathered array's entry (base + y, 128 + k). -/
theorem gathered_right (gs : S10000x128.Idx → Elt F .f32) (lw : S40.Idx → Elt F .i32)
    (hn : S40.numel = S40x128.size gathers_S10000x128_S40x128.axis')
    (hin : ∀ x, (lw x).toNat < S10000x128.size gathers_S10000x128_S40x128.axis)
    (base : ℕ) (hb : base + 40 ≤ 320000) (hgs : ∀ i, gs i = m (xLoc d) i)
    (hlw : ∀ y : Fin 40, lw (ix1 y) = m (rLoc d) (ix1 ⟨base + y.val, by have := y.isLt; omega⟩))
    (hlt : ∀ e : Fin 320000, ((m (rLoc d) : IVec S320000 32) (ix1 e)).toNat < 10000) (y : Fin 40) (k : Fin 128) :
    SparseCore.gatherPayload gathers_S10000x128_S40x128 gs (SparseCore.rows lw hn hin) (ix2 y k)
      = gatherC m d (ix2 (n0 := 320000) (n1 := 256) ⟨base + y.val, by have := y.isLt; omega⟩ ⟨128 + k.val, by have := k.isLt; omega⟩) := by
  rw [gatherPayload_ix2, hgs, gatherC_right]
  refine congrArg (m (xLoc d)) (congrArg (fun r : Fin 10000 => ix2 r k) (Fin.ext ?_))
  show (SparseCore.rows lw hn hin y).val = (rowU (m (rLoc d) (ix1 ⟨base + y.val, _⟩))).val
  rw [rows_val lw hn hin y y.isLt, hlw y, rowU_val (hlt _)]

end Cert.Proof.KI

end
-- ==== Proof.ScOwn.lean ====
/-
  A tile's own storage, opened. The launch hands a tile every semaphore of its own at zero and every buffer of its
  own whole at some contents; the kernel uses twelve of the semaphores (one per row buffer and per copy) and six of
  the buffers (the two index lists and the four row buffers). Each is taken out of the tile's set in turn, leaving
  the rest as a set that can be put back.
-/
import proofs.«206088_g82248623718559_cont_9to1c4b_230_21_alg».proof.Proof.ScPay

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The tile's semaphores -/

/-- The cell of a tile's one-semaphore array. -/
abbrev dcell (d : Dev nD) (c : Fin τ.nSC) (i : Fin τ.nSub) (s : DmaSems sig S_) : GSem nD τ sig := (V d c i, .dma s.sem)

/-- Cells of different semaphores are different. -/
theorem dcell_ne (d : Dev nD) (c : Fin τ.nSC) (i : Fin τ.nSub) {s t : DmaSems sig S_} (h : s.sem ≠ t.sem) :
    dcell d c i s ≠ dcell d c i t := fun e => h (SemLoc.dma.inj (Prod.mk.inj e).2)

/-- A scoped semaphore's cell is among the tile's own. -/
theorem dcell_mem (d : Dev nD) (c : Fin τ.nSC) (i : Fin τ.nSub) (s : DmaSems sig S_)
    (h : (SemLoc.dma s.sem : SemLoc sig).isScoped .scVector = true) : dcell d c i s ∈ ownCells (V d c i) :=
  (mem_ownCells (g := dcell d c i s)).mpr ⟨rfl, h⟩

/-- References of different buffers of a tile are different buffers of the device. -/
theorem dref_ne (c : Fin τ.nSC) (i : Fin τ.nSub) {a b : Ref sig .scVector} (h : a ≠ b) :
    (Proc.scVector c i).devRef a ≠ (Proc.scVector (τ := τ) c i).devRef b := fun e => h (Proc.devRef_injective _ e)

variable (d : Dev nD) (L : grid0.Coords)

set_option maxRecDepth 16384 in
/-- The tile's semaphores at zero: the twelve the kernel uses, and the rest. -/
theorem ownSems0_V :
    (ownSems0 (V d (cV L) (jV L)) : sProp 𝕄)
      = iprop(semVal (dcell d (cV L) (jV L) cc0_scratch7) 0
          ∗ semVal (dcell d (cV L) (jV L) cc0_scratch8) 0
          ∗ semVal (dcell d (cV L) (jV L) cc0_scratch9) 0
          ∗ semVal (dcell d (cV L) (jV L) cc0_scratch10) 0
          ∗ semVal (dcell d (cV L) (jV L) cc0_scratch11) 0
          ∗ semVal (dcell d (cV L) (jV L) cc0_scratch12) 0
          ∗ semVal (dcell d (cV L) (jV L) cc0_scratch13) 0
          ∗ semVal (dcell d (cV L) (jV L) cc0_scratch14) 0
          ∗ semVal (dcell d (cV L) (jV L) cc0_scoped0) 0
          ∗ semVal (dcell d (cV L) (jV L) cc0_scoped1) 0
          ∗ semVal (dcell d (cV L) (jV L) cc0_scoped2) 0
          ∗ semVal (dcell d (cV L) (jV L) cc0_scoped3) 0
          ∗ bigSep (((((((((((((ownCells (V d (cV L) (jV L))).erase (dcell d (cV L) (jV L) cc0_scratch7)).erase (dcell d (cV L) (jV L) cc0_scratch8)).erase (dcell d (cV L) (jV L) cc0_scratch9)).erase (dcell d (cV L) (jV L) cc0_scratch10)).erase (dcell d (cV L) (jV L) cc0_scratch11)).erase (dcell d (cV L) (jV L) cc0_scratch12)).erase (dcell d (cV L) (jV L) cc0_scratch13)).erase (dcell d (cV L) (jV L) cc0_scratch14)).erase (dcell d (cV L) (jV L) cc0_scoped0)).erase (dcell d (cV L) (jV L) cc0_scoped1)).erase (dcell d (cV L) (jV L) cc0_scoped2)).erase (dcell d (cV L) (jV L) cc0_scoped3)) fun g => semVal g 0) := by
  unfold SparseCore.Cfg.ownSems0
  rw [SparseCore.bigSep_erase' (dcell_mem d (cV L) (jV L) cc0_scratch7 (by decide)),
    SparseCore.bigSep_erase' (Finset.mem_erase.mpr ⟨dcell_ne d (cV L) (jV L) (by decide), dcell_mem d (cV L) (jV L) cc0_scratch8 (by decide)⟩),
    SparseCore.bigSep_erase' (Finset.mem_erase.mpr ⟨dcell_ne d (cV L) (jV L) (by decide), Finset.mem_erase.mpr ⟨dcell_ne d (cV L) (jV L) (by decide), dcell_mem d (cV L) (jV L) cc0_scratch9 (by decide)⟩⟩),
    SparseCore.bigSep_erase' (Finset.mem_erase.mpr ⟨dcell_ne d (cV L) (jV L) (by decide), Finset.mem_erase.mpr ⟨dcell_ne d (cV L) (jV L) (by decide), Finset.mem_erase.mpr ⟨dcell_ne d (cV L) (jV L) (by decide), dcell_mem d (cV L) (jV L) cc0_scratch10 (by decide)⟩⟩⟩),
    SparseCore.bigSep_erase' (Finset.mem_erase.mpr ⟨dcell_ne d (cV L) (jV L) (by decide), Finset.mem_erase.mpr ⟨dcell_ne d (cV L) (jV L) (by decide), Finset.mem_erase.mpr ⟨dcell_ne d (cV L) (jV L) (by decide), Finset.mem_erase.mpr ⟨dcell_ne d (cV L) (jV L) (by decide), dcell_mem d (cV L) (jV L) cc0_scratch11 (by decide)⟩⟩⟩⟩),
    SparseCore.bigSep_erase' (Finset.mem_erase.mpr ⟨dcell_ne d (cV L) (jV L) (by decide), Finset.mem_erase.mpr ⟨dcell_ne d (cV L) (jV L) (by decide), Finset.mem_erase.mpr ⟨dcell_ne d (cV L) (jV L) (by decide), Finset.mem_erase.mpr ⟨dcell_ne d (cV L) (jV L) (by decide), Finset.mem_erase.mpr ⟨dcell_ne d (cV L) (jV L) (by decide), dcell_mem d (cV L) (jV L) cc0_scratch12 (by decide)⟩⟩⟩⟩⟩),
    SparseCore.bigSep_erase' (Finset.mem_erase.mpr ⟨dcell_ne d (cV L) (jV L) (by decide), Finset.mem_erase.mpr ⟨dcell_ne d (cV L) (jV L) (by decide), Finset.mem_erase.mpr ⟨dcell_ne d (cV L) (jV L) (by decide), Finset.mem_erase.mpr ⟨dcell_ne d (cV L) (jV L) (by decide), Finset.mem_erase.mpr ⟨dcell_ne d (cV L) (jV L) (by decide), Finset.mem_erase.mpr ⟨dcell_ne d (cV L) (jV L) (by decide), dcell_mem d (cV L) (jV L) cc0_scratch13 (by decide)⟩⟩⟩⟩⟩⟩),
    SparseCore.bigSep_erase' (Finset.mem_erase.mpr ⟨dcell_ne d (cV L) (jV L) (by decide), Finset.mem_erase.mpr ⟨dcell_ne d (cV L) (jV L) (by decide), Finset.mem_erase.mpr ⟨dcell_ne d (cV L) (jV L) (by decide), Finset.mem_erase.mpr ⟨dcell_ne d (cV L) (jV L) (by decide), Finset.mem_erase.mpr ⟨dcell_ne d (cV L) (jV L) (by decide), Finset.mem_erase.mpr ⟨dcell_ne d (cV L) (jV L) (by decide), Finset.mem_erase.mpr ⟨dcell_ne d (cV L) (jV L) (by decide), dcell_mem d (cV L) (jV L) cc0_scratch14 (by decide)⟩⟩⟩⟩⟩⟩⟩),
    SparseCore.bigSep_erase' (Finset.mem_erase.mpr ⟨dcell_ne d (cV L) (jV L) (by decide), Finset.mem_erase.mpr ⟨dcell_ne d (cV L) (jV L) (by decide), Finset.mem_erase.mpr ⟨dcell_ne d (cV L) (jV L) (by decide), Finset.mem_erase.mpr ⟨dcell_ne d (cV L) (jV L) (by decide), Finset.mem_erase.mpr ⟨dcell_ne d (cV L) (jV L) (by decide), Finset.mem_erase.mpr ⟨dcell_ne d (cV L) (jV L) (by decide), Finset.mem_erase.mpr ⟨dcell_ne d (cV L) (jV L) (by decide), Finset.mem_erase.mpr ⟨dcell_ne d (cV L) (jV L) (by decide), dcell_mem d (cV L) (jV L) cc0_scoped0 (by decide)⟩⟩⟩⟩⟩⟩⟩⟩),
    SparseCore.bigSep_erase' (Finset.mem_erase.mpr ⟨dcell_ne d (cV L) (jV L) (by decide), Finset.mem_erase.mpr ⟨dcell_ne d (cV L) (jV L) (by decide), Finset.mem_erase.mpr ⟨dcell_ne d (cV L) (jV L) (by decide), Finset.mem_erase.mpr ⟨dcell_ne d (cV L) (jV L) (by decide), Finset.mem_erase.mpr ⟨dcell_ne d (cV L) (jV L) (by decide), Finset.mem_erase.mpr ⟨dcell_ne d (cV L) (jV L) (by decide), Finset.mem_erase.mpr ⟨dcell_ne d (cV L) (jV L) (by decide), Finset.mem_erase.mpr ⟨dcell_ne d (cV L) (jV L) (by decide), Finset.mem_erase.mpr ⟨dcell_ne d (cV L) (jV L) (by decide), dcell_mem d (cV L) (jV L) cc0_scoped1 (by decide)⟩⟩⟩⟩⟩⟩⟩⟩⟩),
    SparseCore.bigSep_erase' (Finset.mem_erase.mpr ⟨dcell_ne d (cV L) (jV L) (by decide), Finset.mem_erase.mpr ⟨dcell_ne d (cV L) (jV L) (by decide), Finset.mem_erase.mpr ⟨dcell_ne d (cV L) (jV L) (by decide), Finset.mem_erase.mpr ⟨dcell_ne d (cV L) (jV L) (by decide), Finset.mem_erase.mpr ⟨dcell_ne d (cV L) (jV L) (by decide), Finset.mem_erase.mpr ⟨dcell_ne d (cV L) (jV L) (by decide), Finset.mem_erase.mpr ⟨dcell_ne d (cV L) (jV L) (by decide), Finset.mem_erase.mpr ⟨dcell_ne d (cV L) (jV L) (by decide), Finset.mem_erase.mpr ⟨dcell_ne d (cV L) (jV L) (by decide), Finset.mem_erase.mpr ⟨dcell_ne d (cV L) (jV L) (by decide), dcell_mem d (cV L) (jV L) cc0_scoped2 (by decide)⟩⟩⟩⟩⟩⟩⟩⟩⟩⟩),
    SparseCore.bigSep_erase' (Finset.mem_erase.mpr ⟨dcell_ne d (cV L) (jV L) (by decide), Finset.mem_erase.mpr ⟨dcell_ne d (cV L) (jV L) (by decide), Finset.mem_erase.mpr ⟨dcell_ne d (cV L) (jV L) (by decide), Finset.mem_erase.mpr ⟨dcell_ne d (cV L) (jV L) (by decide), Finset.mem_erase.mpr ⟨dcell_ne d (cV L) (jV L) (by decide), Finset.mem_erase.mpr ⟨dcell_ne d (cV L) (jV L) (by decide), Finset.mem_erase.mpr ⟨dcell_ne d (cV L) (jV L) (by decide), Finset.mem_erase.mpr ⟨dcell_ne d (cV L) (jV L) (by decide), Finset.mem_erase.mpr ⟨dcell_ne d (cV L) (jV L) (by decide), Finset.mem_erase.mpr ⟨dcell_ne d (cV L) (jV L) (by decide), Finset.mem_erase.mpr ⟨dcell_ne d (cV L) (jV L) (by decide), dcell_mem d (cV L) (jV L) cc0_scoped3 (by decide)⟩⟩⟩⟩⟩⟩⟩⟩⟩⟩⟩)]

/-! ## The tile's buffers -/

/-- The tile's buffers whole at some contents: the two index lists and the four row buffers, and the rest. -/
theorem ownBufs_V :
    (ownBufs (V d (cV L) (jV L)) : sProp 𝕄)
      = iprop((∃ f, (V d (cV L) (jV L)).loc cc0_scratch1 ↦{fullShare} f)
          ∗ (∃ f, (V d (cV L) (jV L)).loc cc0_scratch2 ↦{fullShare} f)
          ∗ (∃ f, (V d (cV L) (jV L)).loc cc0_scratch3 ↦{fullShare} f)
          ∗ (∃ f, (V d (cV L) (jV L)).loc cc0_scratch4 ↦{fullShare} f)
          ∗ (∃ f, (V d (cV L) (jV L)).loc cc0_scratch5 ↦{fullShare} f)
          ∗ (∃ f, (V d (cV L) (jV L)).loc cc0_scratch6 ↦{fullShare} f)
          ∗ bigSep (((((((ownRefs (τ := τ) (.scVector (cV L) (jV L))).erase ((Proc.scVector (cV L) (jV L)).devRef cc0_scratch1)).erase ((Proc.scVector (cV L) (jV L)).devRef cc0_scratch2)).erase ((Proc.scVector (cV L) (jV L)).devRef cc0_scratch3)).erase ((Proc.scVector (cV L) (jV L)).devRef cc0_scratch4)).erase ((Proc.scVector (cV L) (jV L)).devRef cc0_scratch5)).erase ((Proc.scVector (cV L) (jV L)).devRef cc0_scratch6))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L)) (b := (Proc.scVector (cV L) (jV L)).devRef cc0_scratch1) rfl)).trans ?_
  rw [SparseCore.bigSep_erase' (Finset.mem_erase.mpr ⟨dref_ne (cV L) (jV L) (by decide), SparseCore.Cfg.mem_ownRefs_of_owner (p := Proc.scVector (cV L) (jV L)) (b := (Proc.scVector (cV L) (jV L)).devRef cc0_scratch2) rfl⟩),
    SparseCore.bigSep_erase' (Finset.mem_erase.mpr ⟨dref_ne (cV L) (jV L) (by decide), Finset.mem_erase.mpr ⟨dref_ne (cV L) (jV L) (by decide), SparseCore.Cfg.mem_ownRefs_of_owner (p := Proc.scVector (cV L) (jV L)) (b := (Proc.scVector (cV L) (jV L)).devRef cc0_scratch3) rfl⟩⟩),
    SparseCore.bigSep_erase' (Finset.mem_erase.mpr ⟨dref_ne (cV L) (jV L) (by decide), Finset.mem_erase.mpr ⟨dref_ne (cV L) (jV L) (by decide), Finset.mem_erase.mpr ⟨dref_ne (cV L) (jV L) (by decide), SparseCore.Cfg.mem_ownRefs_of_owner (p := Proc.scVector (cV L) (jV L)) (b := (Proc.scVector (cV L) (jV L)).devRef cc0_scratch4) rfl⟩⟩⟩),
    SparseCore.bigSep_erase' (Finset.mem_erase.mpr ⟨dref_ne (cV L) (jV L) (by decide), Finset.mem_erase.mpr ⟨dref_ne (cV L) (jV L) (by decide), Finset.mem_erase.mpr ⟨dref_ne (cV L) (jV L) (by decide), Finset.mem_erase.mpr ⟨dref_ne (cV L) (jV L) (by decide), SparseCore.Cfg.mem_ownRefs_of_owner (p := Proc.scVector (cV L) (jV L)) (b := (Proc.scVector (cV L) (jV L)).devRef cc0_scratch5) rfl⟩⟩⟩⟩),
    SparseCore.bigSep_erase' (Finset.mem_erase.mpr ⟨dref_ne (cV L) (jV L) (by decide), Finset.mem_erase.mpr ⟨dref_ne (cV L) (jV L) (by decide), Finset.mem_erase.mpr ⟨dref_ne (cV L) (jV L) (by decide), Finset.mem_erase.mpr ⟨dref_ne (cV L) (jV L) (by decide), Finset.mem_erase.mpr ⟨dref_ne (cV L) (jV L) (by decide), SparseCore.Cfg.mem_ownRefs_of_owner (p := Proc.scVector (cV L) (jV L)) (b := (Proc.scVector (cV L) (jV L)).devRef cc0_scratch6) rfl⟩⟩⟩⟩⟩)]

end Cert.Proof.KI

end
-- ==== Proof.ScChunks.lean ====
/-
  The chunks of a tile's part of the gathered array, in the order the tile writes them.

  A part is 250 chunks of 40 rows, each in two halves of 128 columns. The tile writes chunks 0 and 1 before its loop
  and chunks 2 k + 2 and 2 k + 3 in trip k, for k = 0 … 123. So the chunks still to be written at the head of trip k
  are those from 2 k + 2 on, and the chunks done are those below 2 k; each set loses, or gains, four halves per trip.
-/
import proofs.«206088_g82248623718559_cont_9to1c4b_230_21_alg».proof.Proof.ScGeom
import proofs.«206088_g82248623718559_cont_9to1c4b_230_21_alg».proof.Proof.ScPay

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-- A tile's part of the gathered array is its 500 chunk halves. -/
theorem out_chunks (d : Dev nD) (L : grid0.Coords) (f : Buf (Elt F) (oLoc d)) :
    (oLoc d ↦[outSet (wid (cV L) (jV L))]{fullShare} f : sProp 𝕄)
      = bigSep (Finset.univ : Finset (Fin 250 × Fin 2)) fun p => oLoc d ↦[chunkSet L p.1 p.2]{fullShare} f := by
  rw [← pointsTo_biUnion Finset.univ (ℓ := oLoc d) (fun p : Fin 250 × Fin 2 => chunkSet L p.1 p.2) (chunkSet_disjoint L), chunkSet_cover]

/-- The loop runs 124 times. -/
theorem trips_eq : k0_t1_loop.trips = 124 := by decide

/-! ## The chunk halves still to be written, and those done -/

/-- At the head of trip k: the halves of the chunks from 2 k + 2 on. -/
def remCh (k : ℕ) : Finset (Fin 250 × Fin 2) := Finset.univ.filter fun p => 2 * k + 2 ≤ p.1.val
/-- At the head of trip k: the halves of the chunks below 2 k. -/
def doneCh (k : ℕ) : Finset (Fin 250 × Fin 2) := Finset.univ.filter fun p => p.1.val < 2 * k

/-- A chunk half is named by its two numbers. -/
theorem mem_pair (p : Fin 250 × Fin 2) (j : Fin 250) (h : Fin 2) : p = (j, h) ↔ p.1.val = j.val ∧ p.2.val = h.val :=
  ⟨fun e => e ▸ ⟨rfl, rfl⟩, fun ⟨h1, h2⟩ => Prod.ext (Fin.ext h1) (Fin.ext h2)⟩

/-- Four elements taken out of a finite separating conjunction. -/
theorem bigSep_four {M : Type} [URA M] {I : Type} [DecidableEq I] (Φ : I → sProp M) (a b c e : I) (t s : Finset I)
    (hs : s = insert a (insert b (insert c (insert e t)))) (ha : a ∉ insert b (insert c (insert e t))) (hb : b ∉ insert c (insert e t))
    (hc : c ∉ insert e t) (he : e ∉ t) :
    bigSep s Φ = iprop(Φ a ∗ Φ b ∗ Φ c ∗ Φ e ∗ bigSep t Φ) := by
  subst hs
  rw [SparseCore.bigSep_insert' ha, SparseCore.bigSep_insert' hb, SparseCore.bigSep_insert' hc, SparseCore.bigSep_insert' he]

/-- All the halves: chunks 0 and 1, written before the loop, and the rest. -/
theorem bigSep_chunks_start {M : Type} [URA M] (Φ : Fin 250 × Fin 2 → sProp M) :
    bigSep Finset.univ Φ
      = iprop(Φ (⟨0, by omega⟩, 0) ∗ Φ (⟨0, by omega⟩, 1) ∗ Φ (⟨1, by omega⟩, 0) ∗ Φ (⟨1, by omega⟩, 1) ∗ bigSep (remCh 0) Φ) :=
  bigSep_four Φ _ _ _ _ (remCh 0) Finset.univ
    (by
    have h0 : ((0 : Fin 2) : ℕ) = 0 := rfl
    have h1 : ((1 : Fin 2) : ℕ) = 1 := rfl
    ext p
    have hp2 := p.2.isLt
    have hp1 := p.1.isLt
    simp only [Finset.mem_insert, Finset.mem_filter, Finset.mem_univ, _root_.true_and, mem_pair, remCh, doneCh]
    constructor
    · intro hh; omega
    · intro hh; first | trivial | omega)
    (by
    have h0 : ((0 : Fin 2) : ℕ) = 0 := rfl
    have h1 : ((1 : Fin 2) : ℕ) = 1 := rfl
    simp only [Finset.mem_insert, Finset.mem_filter, Finset.mem_univ, _root_.true_and, mem_pair, remCh, doneCh, not_or]
    omega)
    (by
    have h0 : ((0 : Fin 2) : ℕ) = 0 := rfl
    have h1 : ((1 : Fin 2) : ℕ) = 1 := rfl
    simp only [Finset.mem_insert, Finset.mem_filter, Finset.mem_univ, _root_.true_and, mem_pair, remCh, doneCh, not_or]
    omega)
    (by
    have h0 : ((0 : Fin 2) : ℕ) = 0 := rfl
    have h1 : ((1 : Fin 2) : ℕ) = 1 := rfl
    simp only [Finset.mem_insert, Finset.mem_filter, Finset.mem_univ, _root_.true_and, mem_pair, remCh, doneCh, not_or]
    omega)
    (by
    have h0 : ((0 : Fin 2) : ℕ) = 0 := rfl
    have h1 : ((1 : Fin 2) : ℕ) = 1 := rfl
    simp only [Finset.mem_insert, Finset.mem_filter, Finset.mem_univ, _root_.true_and, mem_pair, remCh, doneCh, not_or]
    omega)

/-- Trip k writes chunks 2 k + 2 and 2 k + 3. -/
theorem bigSep_remCh_step {M : Type} [URA M] (Φ : Fin 250 × Fin 2 → sProp M) (k : ℕ) (h : k < 124) :
    bigSep (remCh k) Φ
      = iprop(Φ (⟨2 * k + 2, by omega⟩, 0) ∗ Φ (⟨2 * k + 2, by omega⟩, 1) ∗ Φ (⟨2 * k + 3, by omega⟩, 0) ∗ Φ (⟨2 * k + 3, by omega⟩, 1)
          ∗ bigSep (remCh (k + 1)) Φ) :=
  bigSep_four Φ _ _ _ _ (remCh (k + 1)) (remCh k)
    (by
    have h0 : ((0 : Fin 2) : ℕ) = 0 := rfl
    have h1 : ((1 : Fin 2) : ℕ) = 1 := rfl
    ext p
    have hp2 := p.2.isLt
    have hp1 := p.1.isLt
    simp only [Finset.mem_insert, Finset.mem_filter, Finset.mem_univ, _root_.true_and, mem_pair, remCh, doneCh]
    constructor
    · intro hh; omega
    · intro hh; first | trivial | omega)
    (by
    have h0 : ((0 : Fin 2) : ℕ) = 0 := rfl
    have h1 : ((1 : Fin 2) : ℕ) = 1 := rfl
    simp only [Finset.mem_insert, Finset.mem_filter, Finset.mem_univ, _root_.true_and, mem_pair, remCh, doneCh, not_or]
    omega)
    (by
    have h0 : ((0 : Fin 2) : ℕ) = 0 := rfl
    have h1 : ((1 : Fin 2) : ℕ) = 1 := rfl
    simp only [Finset.mem_insert, Finset.mem_filter, Finset.mem_univ, _root_.true_and, mem_pair, remCh, doneCh, not_or]
    omega)
    (by
    have h0 : ((0 : Fin 2) : ℕ) = 0 := rfl
    have h1 : ((1 : Fin 2) : ℕ) = 1 := rfl
    simp only [Finset.mem_insert, Finset.mem_filter, Finset.mem_univ, _root_.true_and, mem_pair, remCh, doneCh, not_or]
    omega)
    (by
    have h0 : ((0 : Fin 2) : ℕ) = 0 := rfl
    have h1 : ((1 : Fin 2) : ℕ) = 1 := rfl
    simp only [Finset.mem_insert, Finset.mem_filter, Finset.mem_univ, _root_.true_and, mem_pair, remCh, doneCh, not_or]
    omega)

/-- After the last trip nothing is left to write. -/
theorem remCh_end : remCh 124 = ∅ :=
  Finset.eq_empty_of_forall_notMem fun p hp => by
    have h := (Finset.mem_filter.1 hp).2
    have := p.1.isLt
    omega

theorem bigSep_remCh_end {M : Type} [URA M] (Φ : Fin 250 × Fin 2 → sProp M) : bigSep (remCh 124) Φ = (BI.emp : sProp M) := by
  rw [remCh_end, bigSep_empty]

/-- Before the first trip nothing is done. -/
theorem doneCh_zero : doneCh 0 = ∅ :=
  Finset.eq_empty_of_forall_notMem fun p hp => by
    have h := (Finset.mem_filter.1 hp).2
    omega

/-- By the head of trip k + 1 chunks 2 k and 2 k + 1 are done as well. -/
theorem bigSep_doneCh_step {M : Type} [URA M] (Φ : Fin 250 × Fin 2 → sProp M) (k : ℕ) (h : k < 125) :
    bigSep (doneCh (k + 1)) Φ
      = iprop(Φ (⟨2 * k, by omega⟩, 0) ∗ Φ (⟨2 * k, by omega⟩, 1) ∗ Φ (⟨2 * k + 1, by omega⟩, 0) ∗ Φ (⟨2 * k + 1, by omega⟩, 1)
          ∗ bigSep (doneCh k) Φ) :=
  bigSep_four Φ _ _ _ _ (doneCh k) (doneCh (k + 1))
    (by
    have h0 : ((0 : Fin 2) : ℕ) = 0 := rfl
    have h1 : ((1 : Fin 2) : ℕ) = 1 := rfl
    ext p
    have hp2 := p.2.isLt
    have hp1 := p.1.isLt
    simp only [Finset.mem_insert, Finset.mem_filter, Finset.mem_univ, _root_.true_and, mem_pair, remCh, doneCh]
    constructor
    · intro hh; omega
    · intro hh; first | trivial | omega)
    (by
    have h0 : ((0 : Fin 2) : ℕ) = 0 := rfl
    have h1 : ((1 : Fin 2) : ℕ) = 1 := rfl
    simp only [Finset.mem_insert, Finset.mem_filter, Finset.mem_univ, _root_.true_and, mem_pair, remCh, doneCh, not_or]
    omega)
    (by
    have h0 : ((0 : Fin 2) : ℕ) = 0 := rfl
    have h1 : ((1 : Fin 2) : ℕ) = 1 := rfl
    simp only [Finset.mem_insert, Finset.mem_filter, Finset.mem_univ, _root_.true_and, mem_pair, remCh, doneCh, not_or]
    omega)
    (by
    have h0 : ((0 : Fin 2) : ℕ) = 0 := rfl
    have h1 : ((1 : Fin 2) : ℕ) = 1 := rfl
    simp only [Finset.mem_insert, Finset.mem_filter, Finset.mem_univ, _root_.true_and, mem_pair, remCh, doneCh, not_or]
    omega)
    (by
    have h0 : ((0 : Fin 2) : ℕ) = 0 := rfl
    have h1 : ((1 : Fin 2) : ℕ) = 1 := rfl
    simp only [Finset.mem_insert, Finset.mem_filter, Finset.mem_univ, _root_.true_and, mem_pair, remCh, doneCh, not_or]
    omega)

/-- In the end every chunk is done. -/
theorem doneCh_end : doneCh 125 = Finset.univ :=
  Finset.filter_true_of_mem fun p _ => by have := p.1.isLt; omega

end Cert.Proof.KI

end
-- ==== Proof.ScChunk.lean ====
/-
  The gathered rows, written out. A row buffer filled by a gather through the 40-entry window at offset 40 j of one of
  the tile's lists holds the gathered array's entries of rows 10000 w + 40 j … + 39 in one half of the columns; copied
  out to that chunk of the gathered array, the chunk holds the gathered array there.
-/
import proofs.«206088_g82248623718559_cont_9to1c4b_230_21_alg».proof.Proof.ScGather

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

local notation "nV" => (Memref.whole Cert.KernelIdeal.main_arg0_scv : Memref Cert.KernelIdeal.sig Kind.scVector Space.hbm Cert.KernelIdeal.S10000x128 EltTy.f32)
local notation "sV" => (Memref.whole Cert.KernelIdeal.main_arg6_scv : Memref Cert.KernelIdeal.sig Kind.scVector Space.hbm Cert.KernelIdeal.S320000 EltTy.i32)
local notation "rV" => (Memref.whole Cert.KernelIdeal.main_arg7_scv : Memref Cert.KernelIdeal.sig Kind.scVector Space.hbm Cert.KernelIdeal.S320000 EltTy.i32)
local notation "oV" => (Memref.whole Cert.KernelIdeal.main_v9_scv : Memref Cert.KernelIdeal.sig Kind.scVector Space.hbm Cert.KernelIdeal.S320000x256 EltTy.f32)
local notation "shV" => (Memref.whole Cert.KernelIdeal.cc0_scratch0 : Memref Cert.KernelIdeal.sig Kind.scVector Space.shared Cert.KernelIdeal.S10000x128 EltTy.f32)
local notation "isV" => (Memref.whole Cert.KernelIdeal.cc0_scratch1 : Memref Cert.KernelIdeal.sig Kind.scVector Space.vmem Cert.KernelIdeal.S10000 EltTy.i32)
local notation "irV" => (Memref.whole Cert.KernelIdeal.cc0_scratch2 : Memref Cert.KernelIdeal.sig Kind.scVector Space.vmem Cert.KernelIdeal.S10000 EltTy.i32)
local notation "b0V" => (Memref.whole Cert.KernelIdeal.cc0_scratch3 : Memref Cert.KernelIdeal.sig Kind.scVector Space.vmem Cert.KernelIdeal.S40x128 EltTy.f32)
local notation "b1V" => (Memref.whole Cert.KernelIdeal.cc0_scratch4 : Memref Cert.KernelIdeal.sig Kind.scVector Space.vmem Cert.KernelIdeal.S40x128 EltTy.f32)
local notation "b2V" => (Memref.whole Cert.KernelIdeal.cc0_scratch5 : Memref Cert.KernelIdeal.sig Kind.scVector Space.vmem Cert.KernelIdeal.S40x128 EltTy.f32)
local notation "b3V" => (Memref.whole Cert.KernelIdeal.cc0_scratch6 : Memref Cert.KernelIdeal.sig Kind.scVector Space.vmem Cert.KernelIdeal.S40x128 EltTy.f32)

/-- A buffer written whole through a view and read back through it is what was written. -/
theorem read_whole_piece {κ : Kind} {sp : Space} {s : Shape} {e : EltTy} (v : View sig κ sp s e) (f : v.ty.Contents (Elt F))
    (G : s.Idx → Elt F e) (x : s.Idx) :
    v.read (Elt F) (v.writes (Elt F) f [⟨Rect.whole s, G⟩]) x = G x := by
  have h := View.read_writes_cons_emb v f (Rect.whole s) G [] x
  rwa [Rect.emb_whole_apply] at h

variable [FloatOps F] (m : (ℓ : Loc nD τ sig) → Buf (Elt F) ℓ) (d : Dev nD) (L : grid0.Coords)

/-! ## What a gather leaves in a row buffer -/

/-- A gather through the 40-entry window at offset 40 j of the tile's senders list, from the shared table holding the
    node table: at (y, k) it is the gathered array's entry (10000 w + 40 j + y, k). -/
theorem gathered_s (off1 : Fin 1 → ℕ) (inb1 : ∀ a, off1 a + S40.size a ≤ S10000.size a) (j : ℕ) (hoff1 : off1 = ![40 * j])
    (hj : 40 * j + 40 ≤ 10000)
    (fl : Buf (Elt F) ((V d (cV L) (jV L)).loc cc0_scratch1)) (pay : S10000.Idx → Elt F .i32)
    (hpay : pay = ReadAs.same.apply (View.read (Elt F) ((sV).slice (Rect.unit (s := S320000) (k0_off2 L) S10000.size (k0_off2_inb L)) (fun _ => rfl)).view (m (sLoc d))))
    (hn : S40.numel = S40x128.size gathers_S10000x128_S40x128.axis')
    (hin : ∀ x, ((View.read (Elt F) ((isV).slice (Rect.unit (s := S10000) off1 S40.size inb1) (fun _ => rfl)).view
      (View.write (Elt F) (isV).view fl pay Finset.univ)) x).toNat < S10000x128.size gathers_S10000x128_S40x128.axis)
    (hlt : ∀ e : Fin 320000, ((m (sLoc d) : IVec S320000 32) (ix1 e)).toNat < 10000) (y : Fin 40) (k : Fin 128) :
    SparseCore.gatherPayload gathers_S10000x128_S40x128
        (View.read (Elt F) ((shV).slice (Rect.unit (s := S10000x128) ![0, 0] S10000x128.size inb_S10000x128_S10000x128_0_0) (fun _ => rfl)).view (nodesSh m d (cV L)))
        (SparseCore.rows (View.read (Elt F) ((isV).slice (Rect.unit (s := S10000) off1 S40.size inb1) (fun _ => rfl)).view
          (View.write (Elt F) (isV).view fl pay Finset.univ)) hn hin) (ix2 y k)
      = gatherC m d (ix2 (n0 := 320000) (n1 := 256)
          ⟨10000 * (2 * (L 1).val + (L 0).val) + 40 * j + y.val, by have := L0_lt L; have := L1_lt L; have := y.isLt; omega⟩
          ⟨k.val, by have := k.isLt; omega⟩) := by
  subst hoff1
  refine gathered_left m d _ _ hn hin (10000 * (2 * (L 1).val + (L 0).val) + 40 * j)
    (by have := L0_lt L; have := L1_lt L; omega) (fun i => sh_read_whole _ _ _ i) (fun y' => ?_) hlt y k
  refine (win_read_s _ _ inb1 _ y').trans ((s_list_apply m d L fl pay hpay _).trans ?_)
  refine congrArg (m (sLoc d)) (congrArg ix1 (Fin.ext ?_))
  show 10000 * (2 * (L 1).val + (L 0).val) + (40 * j + y'.val) = 10000 * (2 * (L 1).val + (L 0).val) + 40 * j + y'.val
  omega

/-- A gather through the 40-entry window at offset 40 j of the tile's receivers list, from the shared table holding the
    node table: at (y, k) it is the gathered array's entry (10000 w + 40 j + y, 128 + k). -/
theorem gathered_r (off1 : Fin 1 → ℕ) (inb1 : ∀ a, off1 a + S40.size a ≤ S10000.size a) (j : ℕ) (hoff1 : off1 = ![40 * j])
    (hj : 40 * j + 40 ≤ 10000)
    (fl : Buf (Elt F) ((V d (cV L) (jV L)).loc cc0_scratch2)) (pay : S10000.Idx → Elt F .i32)
    (hpay : pay = ReadAs.same.apply (View.read (Elt F) ((rV).slice (Rect.unit (s := S320000) (k0_off2 L) S10000.size (k0_off2_inb L)) (fun _ => rfl)).view (m (rLoc d))))
    (hn : S40.numel = S40x128.size gathers_S10000x128_S40x128.axis')
    (hin : ∀ x, ((View.read (Elt F) ((irV).slice (Rect.unit (s := S10000) off1 S40.size inb1) (fun _ => rfl)).view
      (View.write (Elt F) (irV).view fl pay Finset.univ)) x).toNat < S10000x128.size gathers_S10000x128_S40x128.axis)
    (hlt : ∀ e : Fin 320000, ((m (rLoc d) : IVec S320000 32) (ix1 e)).toNat < 10000) (y : Fin 40) (k : Fin 128) :
    SparseCore.gatherPayload gathers_S10000x128_S40x128
        (View.read (Elt F) ((shV).slice (Rect.unit (s := S10000x128) ![0, 0] S10000x128.size inb_S10000x128_S10000x128_0_0) (fun _ => rfl)).view (nodesSh m d (cV L)))
        (SparseCore.rows (View.read (Elt F) ((irV).slice (Rect.unit (s := S10000) off1 S40.size inb1) (fun _ => rfl)).view
          (View.write (Elt F) (irV).view fl pay Finset.univ)) hn hin) (ix2 y k)
      = gatherC m d (ix2 (n0 := 320000) (n1 := 256)
          ⟨10000 * (2 * (L 1).val + (L 0).val) + 40 * j + y.val, by have := L0_lt L; have := L1_lt L; have := y.isLt; omega⟩
          ⟨128 + k.val, by have := k.isLt; omega⟩) := by
  subst hoff1
  refine gathered_right m d _ _ hn hin (10000 * (2 * (L 1).val + (L 0).val) + 40 * j)
    (by have := L0_lt L; have := L1_lt L; omega) (fun i => sh_read_whole _ _ _ i) (fun y' => ?_) hlt y k
  refine (win_read_r _ _ inb1 _ y').trans ((r_list_apply m d L fl pay hpay _).trans ?_)
  refine congrArg (m (rLoc d)) (congrArg ix1 (Fin.ext ?_))
  show 10000 * (2 * (L 1).val + (L 0).val) + (40 * j + y'.val) = 10000 * (2 * (L 1).val + (L 0).val) + 40 * j + y'.val
  omega

/-! ## What the copy out leaves in the chunk -/

/-- Chunk j, half h of the tile's part, written whole with what a row buffer holds after it was written whole with G,
    where G is the gathered array on that chunk: the chunk holds the gathered array. -/
theorem chunk_restate (bM : Memref sig .scVector .vmem S40x128 .f32) (f : bM.view.ty.Contents (Elt F)) (G : S40x128.Idx → Elt F .f32)
    (go : Buf (Elt F) (oLoc d)) (off2 : Fin 2 → ℕ) (inb2 : ∀ a, off2 a + S40x128.size a ≤ S320000x256.size a)
    (j : Fin 250) (h : Fin 2)
    (h0 : off2 0 = 10000 * (2 * (L 1).val + (L 0).val) + 40 * j.val) (h1 : off2 1 = 128 * h.val)
    (hG : ∀ (y : Fin 40) (k : Fin 128), G (ix2 y k) = gatherC m d (ix2 (n0 := 320000) (n1 := 256)
      ⟨10000 * (2 * (L 1).val + (L 0).val) + 40 * j.val + y.val, by have := L0_lt L; have := L1_lt L; have := j.isLt; have := y.isLt; omega⟩
      ⟨128 * h.val + k.val, by have := h.isLt; have := k.isLt; omega⟩)) :
    ((((oV).slice (Rect.unit (s := S320000x256) off2 S40x128.size inb2) (fun _ => rfl)).view.loc (V d (cV L) (jV L)) ↦[((oV).slice (Rect.unit (s := S320000x256) off2 S40x128.size inb2) (fun _ => rfl)).view.set]{fullShare}
        ((oV).slice (Rect.unit (s := S320000x256) off2 S40x128.size inb2) (fun _ => rfl)).view.writes (Elt F) go
          [⟨Rect.whole S40x128, ReadAs.same.apply (View.read (Elt F) bM.view (bM.view.writes (Elt F) f [⟨Rect.whole S40x128, G⟩]))⟩]) : sProp 𝕄)
      = (oLoc d ↦[chunkSet L j h]{fullShare} gatherC m d) := by
  have hset : ((oV).slice (Rect.unit (s := S320000x256) off2 S40x128.size inb2) (fun _ => rfl)).view.set = chunkSet L j h := by
    ext i
    rw [show ((oV).slice (Rect.unit (s := S320000x256) off2 S40x128.size inb2) (fun _ => rfl)).view.set = (Rect.unit (s := S320000x256) off2 S40x128.size inb2).set from oV_slice_set _, mem_unit2, mem_chunkSet, h0, h1]
    rfl
  show (oLoc d ↦[((oV).slice (Rect.unit (s := S320000x256) off2 S40x128.size inb2) (fun _ => rfl)).view.set]{fullShare} _ : sProp 𝕄) = _
  rw [hset]
  refine pointsTo_congr fun i hi => ?_
  rw [← hset] at hi
  obtain ⟨x, rfl⟩ := View.exists_emb_of_mem_set ((oV).slice (Rect.unit (s := S320000x256) off2 S40x128.size inb2) (fun _ => rfl)).view hi
  obtain ⟨y, k, rfl⟩ : ∃ (y : Fin 40) (k : Fin 128), x = ix2 y k := ⟨x 0, x 1, eq_ix2 x⟩
  have e1 := read_whole_piece (F := F) ((oV).slice (Rect.unit (s := S320000x256) off2 S40x128.size inb2) (fun _ => rfl)).view go
    (ReadAs.same.apply (View.read (Elt F) bM.view (bM.view.writes (Elt F) f [⟨Rect.whole S40x128, G⟩]))) (ix2 y k)
  refine ((cast_eq _ _).symm.trans ((View.read_apply _ _).symm.trans e1)).trans ?_
  refine (read_whole_piece (F := F) bM.view f G (ix2 y k)).trans ((hG y k).trans (congrArg (gatherC m d) (funext fun a => Fin.ext ?_)))
  match a with
  | ⟨0, _⟩ =>
    show 10000 * (2 * (L 1).val + (L 0).val) + 40 * j.val + y.val = off2 0 + 1 * y.val
    rw [h0]; omega
  | ⟨1, _⟩ =>
    show 128 * h.val + k.val = off2 1 + 1 * k.val
    rw [h1]; omega

/-- The two steps together for the senders list: the chunk's left half holds the gathered array. -/
theorem chunk_s (bM : Memref sig .scVector .vmem S40x128 .f32) (f : bM.view.ty.Contents (Elt F)) (go : Buf (Elt F) (oLoc d))
    (off1 : Fin 1 → ℕ) (inb1 : ∀ a, off1 a + S40.size a ≤ S10000.size a) (j : ℕ) (hoff1 : off1 = ![40 * j]) (hj : 40 * j + 40 ≤ 10000)
    (fl : Buf (Elt F) ((V d (cV L) (jV L)).loc cc0_scratch1)) (pay : S10000.Idx → Elt F .i32)
    (hpay : pay = ReadAs.same.apply (View.read (Elt F) ((sV).slice (Rect.unit (s := S320000) (k0_off2 L) S10000.size (k0_off2_inb L)) (fun _ => rfl)).view (m (sLoc d))))
    (hn : S40.numel = S40x128.size gathers_S10000x128_S40x128.axis')
    (hin : ∀ x, ((View.read (Elt F) ((isV).slice (Rect.unit (s := S10000) off1 S40.size inb1) (fun _ => rfl)).view
      (View.write (Elt F) (isV).view fl pay Finset.univ)) x).toNat < S10000x128.size gathers_S10000x128_S40x128.axis)
    (hlt : ∀ e : Fin 320000, ((m (sLoc d) : IVec S320000 32) (ix1 e)).toNat < 10000)
    (off2 : Fin 2 → ℕ) (inb2 : ∀ a, off2 a + S40x128.size a ≤ S320000x256.size a)
    (h0 : off2 0 = 10000 * (2 * (L 1).val + (L 0).val) + 40 * j) (h1 : off2 1 = 0) :
    ((((oV).slice (Rect.unit (s := S320000x256) off2 S40x128.size inb2) (fun _ => rfl)).view.loc (V d (cV L) (jV L)) ↦[((oV).slice (Rect.unit (s := S320000x256) off2 S40x128.size inb2) (fun _ => rfl)).view.set]{fullShare}
        ((oV).slice (Rect.unit (s := S320000x256) off2 S40x128.size inb2) (fun _ => rfl)).view.writes (Elt F) go
          [⟨Rect.whole S40x128, ReadAs.same.apply (View.read (Elt F) bM.view (bM.view.writes (Elt F) f [⟨Rect.whole S40x128,
            SparseCore.gatherPayload gathers_S10000x128_S40x128
              (View.read (Elt F) ((shV).slice (Rect.unit (s := S10000x128) ![0, 0] S10000x128.size inb_S10000x128_S10000x128_0_0) (fun _ => rfl)).view (nodesSh m d (cV L)))
              (SparseCore.rows (View.read (Elt F) ((isV).slice (Rect.unit (s := S10000) off1 S40.size inb1) (fun _ => rfl)).view
                (View.write (Elt F) (isV).view fl pay Finset.univ)) hn hin)⟩]))⟩]) : sProp 𝕄)
      = (oLoc d ↦[chunkSet L ⟨j, by omega⟩ 0]{fullShare} gatherC m d) := by
  refine chunk_restate m d L bM f _ go off2 inb2 ⟨j, by omega⟩ 0 h0 (h1.trans rfl) (fun y k => ?_)
  refine (gathered_s m d L off1 inb1 j hoff1 hj fl pay hpay hn hin hlt y k).trans
    (congrArg (gatherC m d) (congrArg (ix2 _) (Fin.ext ?_)))
  show k.val = 128 * 0 + k.val
  omega

/-- The two steps together for the receivers list: the chunk's right half holds the gathered array. -/
theorem chunk_r (bM : Memref sig .scVector .vmem S40x128 .f32) (f : bM.view.ty.Contents (Elt F)) (go : Buf (Elt F) (oLoc d))
    (off1 : Fin 1 → ℕ) (inb1 : ∀ a, off1 a + S40.size a ≤ S10000.size a) (j : ℕ) (hoff1 : off1 = ![40 * j]) (hj : 40 * j + 40 ≤ 10000)
    (fl : Buf (Elt F) ((V d (cV L) (jV L)).loc cc0_scratch2)) (pay : S10000.Idx → Elt F .i32)
    (hpay : pay = ReadAs.same.apply (View.read (Elt F) ((rV).slice (Rect.unit (s := S320000) (k0_off2 L) S10000.size (k0_off2_inb L)) (fun _ => rfl)).view (m (rLoc d))))
    (hn : S40.numel = S40x128.size gathers_S10000x128_S40x128.axis')
    (hin : ∀ x, ((View.read (Elt F) ((irV).slice (Rect.unit (s := S10000) off1 S40.size inb1) (fun _ => rfl)).view
      (View.write (Elt F) (irV).view fl pay Finset.univ)) x).toNat < S10000x128.size gathers_S10000x128_S40x128.axis)
    (hlt : ∀ e : Fin 320000, ((m (rLoc d) : IVec S320000 32) (ix1 e)).toNat < 10000)
    (off2 : Fin 2 → ℕ) (inb2 : ∀ a, off2 a + S40x128.size a ≤ S320000x256.size a)
    (h0 : off2 0 = 10000 * (2 * (L 1).val + (L 0).val) + 40 * j) (h1 : off2 1 = 128) :
    ((((oV).slice (Rect.unit (s := S320000x256) off2 S40x128.size inb2) (fun _ => rfl)).view.loc (V d (cV L) (jV L)) ↦[((oV).slice (Rect.unit (s := S320000x256) off2 S40x128.size inb2) (fun _ => rfl)).view.set]{fullShare}
        ((oV).slice (Rect.unit (s := S320000x256) off2 S40x128.size inb2) (fun _ => rfl)).view.writes (Elt F) go
          [⟨Rect.whole S40x128, ReadAs.same.apply (View.read (Elt F) bM.view (bM.view.writes (Elt F) f [⟨Rect.whole S40x128,
            SparseCore.gatherPayload gathers_S10000x128_S40x128
              (View.read (Elt F) ((shV).slice (Rect.unit (s := S10000x128) ![0, 0] S10000x128.size inb_S10000x128_S10000x128_0_0) (fun _ => rfl)).view (nodesSh m d (cV L)))
              (SparseCore.rows (View.read (Elt F) ((irV).slice (Rect.unit (s := S10000) off1 S40.size inb1) (fun _ => rfl)).view
                (View.write (Elt F) (irV).view fl pay Finset.univ)) hn hin)⟩]))⟩]) : sProp 𝕄)
      = (oLoc d ↦[chunkSet L ⟨j, by omega⟩ 1]{fullShare} gatherC m d) := by
  refine chunk_restate m d L bM f _ go off2 inb2 ⟨j, by omega⟩ 1 h0 (h1.trans rfl) (fun y k => ?_)
  refine (gathered_r m d L off1 inb1 j hoff1 hj fl pay hpay hn hin hlt y k).trans
    (congrArg (gatherC m d) (congrArg (ix2 _) (Fin.ext ?_)))
  show 128 + k.val = 128 * 1 + k.val
  omega

end Cert.Proof.KI

end
-- ==== Proof.ScTileLem.lean ====
import proofs.«206088_g82248623718559_cont_9to1c4b_230_21_alg».proof.Proof.ScValue
import proofs.«206088_g82248623718559_cont_9to1c4b_230_21_alg».proof.Proof.ScGather
import proofs.«206088_g82248623718559_cont_9to1c4b_230_21_alg».proof.Proof.ScOwn
import proofs.«206088_g82248623718559_cont_9to1c4b_230_21_alg».proof.Proof.ScCross
import proofs.«206088_g82248623718559_cont_9to1c4b_230_21_alg».proof.Proof.ScChunks
import proofs.«206088_g82248623718559_cont_9to1c4b_230_21_alg».proof.Proof.ScChunk
import Idealize.ShloMosaic.Lib.SparseCore.Stream

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

open Idealize.ShloMosaic.ValueIdx (ix1 ix2)

variable {F : FTy → Type}

local notation "𝕄" => MT nD τ sig (HIx 1) (Elt F) ℕ UU ℕ

local notation "nV" => (Memref.whole Cert.KernelIdeal.main_arg0_scv : Memref Cert.KernelIdeal.sig Kind.scVector Space.hbm Cert.KernelIdeal.S10000x128 EltTy.f32)
local notation "sV" => (Memref.whole Cert.KernelIdeal.main_arg6_scv : Memref Cert.KernelIdeal.sig Kind.scVector Space.hbm Cert.KernelIdeal.S320000 EltTy.i32)
local notation "rV" => (Memref.whole Cert.KernelIdeal.main_arg7_scv : Memref Cert.KernelIdeal.sig Kind.scVector Space.hbm Cert.KernelIdeal.S320000 EltTy.i32)
local notation "oV" => (Memref.whole Cert.KernelIdeal.main_v9_scv : Memref Cert.KernelIdeal.sig Kind.scVector Space.hbm Cert.KernelIdeal.S320000x256 EltTy.f32)
local notation "shV" => (Memref.whole Cert.KernelIdeal.cc0_scratch0 : Memref Cert.KernelIdeal.sig Kind.scVector Space.shared Cert.KernelIdeal.S10000x128 EltTy.f32)
local notation "isV" => (Memref.whole Cert.KernelIdeal.cc0_scratch1 : Memref Cert.KernelIdeal.sig Kind.scVector Space.vmem Cert.KernelIdeal.S10000 EltTy.i32)
local notation "irV" => (Memref.whole Cert.KernelIdeal.cc0_scratch2 : Memref Cert.KernelIdeal.sig Kind.scVector Space.vmem Cert.KernelIdeal.S10000 EltTy.i32)
local notation "b0V" => (Memref.whole Cert.KernelIdeal.cc0_scratch3 : Memref Cert.KernelIdeal.sig Kind.scVector Space.vmem Cert.KernelIdeal.S40x128 EltTy.f32)
local notation "b1V" => (Memref.whole Cert.KernelIdeal.cc0_scratch4 : Memref Cert.KernelIdeal.sig Kind.scVector Space.vmem Cert.KernelIdeal.S40x128 EltTy.f32)
local notation "b2V" => (Memref.whole Cert.KernelIdeal.cc0_scratch5 : Memref Cert.KernelIdeal.sig Kind.scVector Space.vmem Cert.KernelIdeal.S40x128 EltTy.f32)
local notation "b3V" => (Memref.whole Cert.KernelIdeal.cc0_scratch6 : Memref Cert.KernelIdeal.sig Kind.scVector Space.vmem Cert.KernelIdeal.S40x128 EltTy.f32)

variable (m : (ℓ : Loc nD τ sig) → Buf (Elt F) ℓ)

variable [FloatOps F]

variable (d : Dev nD) (L : grid0.Coords)

/-
  The tile's loop: its invariant, and the restatement of a write-out in flight. A row buffer filled by a gather of
  forty consecutive entries of an index list holds forty node rows; copied out to a chunk of the gathered array it
  leaves that chunk holding exactly the gathered array's entries there.
-/

/-! ## The pre-loop output chunks, as the kernel slices them -/

theorem inb3_0 : ∀ a, (k0_off3 L 0#32) a + S40x128.size a ≤ S320000x256.size a := k0_off3_inb L 0
theorem inb3_1 : ∀ a, (k0_off3 L 40#32) a + S40x128.size a ≤ S320000x256.size a := k0_off3_inb L 1
theorem inb4_0 : ∀ a, (k0_off4 L 0#32) a + S40x128.size a ≤ S320000x256.size a := k0_off4_inb L 0
theorem inb4_1 : ∀ a, (k0_off4 L 40#32) a + S40x128.size a ≤ S320000x256.size a := k0_off4_inb L 1
abbrev oC30 : Memref sig .scVector .hbm S40x128 .f32 := (oV).slice (Rect.unit (s := S320000x256) (k0_off3 L 0#32) S40x128.size (inb3_0 L)) (fun _ => rfl)
abbrev oC31 : Memref sig .scVector .hbm S40x128 .f32 := (oV).slice (Rect.unit (s := S320000x256) (k0_off3 L 40#32) S40x128.size (inb3_1 L)) (fun _ => rfl)
abbrev oC40 : Memref sig .scVector .hbm S40x128 .f32 := (oV).slice (Rect.unit (s := S320000x256) (k0_off4 L 0#32) S40x128.size (inb4_0 L)) (fun _ => rfl)
abbrev oC41 : Memref sig .scVector .hbm S40x128 .f32 := (oV).slice (Rect.unit (s := S320000x256) (k0_off4 L 40#32) S40x128.size (inb4_1 L)) (fun _ => rfl)

/-- The loop's output chunks of trip k, as the kernel slices them. -/
abbrev oC60 (k : Fin k0_t1_loop.trips) : Memref sig .scVector .hbm S40x128 .f32 := (oV).slice (Rect.unit (s := S320000x256) (k0_off6 L k 0#32) S40x128.size (k0_off6_inb L k 0)) (fun _ => rfl)
abbrev oC61 (k : Fin k0_t1_loop.trips) : Memref sig .scVector .hbm S40x128 .f32 := (oV).slice (Rect.unit (s := S320000x256) (k0_off6 L k 1#32) S40x128.size (k0_off6_inb L k 1)) (fun _ => rfl)
abbrev oC70 (k : Fin k0_t1_loop.trips) : Memref sig .scVector .hbm S40x128 .f32 := (oV).slice (Rect.unit (s := S320000x256) (k0_off7 L k 0#32) S40x128.size (k0_off7_inb L k 0)) (fun _ => rfl)
abbrev oC71 (k : Fin k0_t1_loop.trips) : Memref sig .scVector .hbm S40x128 .f32 := (oV).slice (Rect.unit (s := S320000x256) (k0_off7 L k 1#32) S40x128.size (k0_off7_inb L k 1)) (fun _ => rfl)

omit [FloatOps F] in
theorem set_oC30 : (oC30 L).view.set = chunkSet L ⟨0, by omega⟩ 0 := slice_off3 L 0 _
omit [FloatOps F] in
theorem set_oC40 : (oC40 L).view.set = chunkSet L ⟨0, by omega⟩ 1 := slice_off4 L 0 _
omit [FloatOps F] in
theorem set_oC31 : (oC31 L).view.set = chunkSet L ⟨1, by omega⟩ 0 := slice_off3 L 1 _
omit [FloatOps F] in
theorem set_oC41 : (oC41 L).view.set = chunkSet L ⟨1, by omega⟩ 1 := slice_off4 L 1 _
omit [FloatOps F] in
theorem set_oC60 (k : Fin k0_t1_loop.trips) (h : 2 * k.val + 2 < 250) : (oC60 L k).view.set = chunkSet L ⟨2 * k.val + 2, h⟩ 0 :=
  (slice_off6 L k 0 _).trans (by congr 2)
omit [FloatOps F] in
theorem set_oC70 (k : Fin k0_t1_loop.trips) (h : 2 * k.val + 2 < 250) : (oC70 L k).view.set = chunkSet L ⟨2 * k.val + 2, h⟩ 1 :=
  (slice_off7 L k 0 _).trans (by congr 2)
omit [FloatOps F] in
theorem set_oC61 (k : Fin k0_t1_loop.trips) (h : 2 * k.val + 3 < 250) : (oC61 L k).view.set = chunkSet L ⟨2 * k.val + 3, h⟩ 0 :=
  (slice_off6 L k 1 _).trans (by congr 2)
omit [FloatOps F] in
theorem set_oC71 (k : Fin k0_t1_loop.trips) (h : 2 * k.val + 3 < 250) : (oC71 L k).view.set = chunkSet L ⟨2 * k.val + 3, h⟩ 1 :=
  (slice_off7 L k 1 _).trans (by congr 2)

/-! A chunk of the gathered array as the tile's memref addresses it is the TensorCore's array on that chunk. -/
theorem pts_oC30 (g : Buf (Elt F) (oLoc d)) : ((oC30 L).view.loc (V d (cV L) (jV L)) ↦[(oC30 L).view.set]{fullShare} g : sProp 𝕄) = oLoc d ↦[chunkSet L ⟨0, by omega⟩ 0]{fullShare} g := by
  rw [set_oC30]
theorem pts_oC40 (g : Buf (Elt F) (oLoc d)) : ((oC40 L).view.loc (V d (cV L) (jV L)) ↦[(oC40 L).view.set]{fullShare} g : sProp 𝕄) = oLoc d ↦[chunkSet L ⟨0, by omega⟩ 1]{fullShare} g := by
  rw [set_oC40]
theorem pts_oC31 (g : Buf (Elt F) (oLoc d)) : ((oC31 L).view.loc (V d (cV L) (jV L)) ↦[(oC31 L).view.set]{fullShare} g : sProp 𝕄) = oLoc d ↦[chunkSet L ⟨1, by omega⟩ 0]{fullShare} g := by
  rw [set_oC31]
theorem pts_oC41 (g : Buf (Elt F) (oLoc d)) : ((oC41 L).view.loc (V d (cV L) (jV L)) ↦[(oC41 L).view.set]{fullShare} g : sProp 𝕄) = oLoc d ↦[chunkSet L ⟨1, by omega⟩ 1]{fullShare} g := by
  rw [set_oC41]
theorem pts_oC60 (k : Fin k0_t1_loop.trips) (h : 2 * k.val + 2 < 250) (g : Buf (Elt F) (oLoc d)) : ((oC60 L k).view.loc (V d (cV L) (jV L)) ↦[(oC60 L k).view.set]{fullShare} g : sProp 𝕄) = oLoc d ↦[chunkSet L ⟨2 * k.val + 2, h⟩ 0]{fullShare} g := by
  rw [set_oC60 L k h]
theorem pts_oC70 (k : Fin k0_t1_loop.trips) (h : 2 * k.val + 2 < 250) (g : Buf (Elt F) (oLoc d)) : ((oC70 L k).view.loc (V d (cV L) (jV L)) ↦[(oC70 L k).view.set]{fullShare} g : sProp 𝕄) = oLoc d ↦[chunkSet L ⟨2 * k.val + 2, h⟩ 1]{fullShare} g := by
  rw [set_oC70 L k h]
theorem pts_oC61 (k : Fin k0_t1_loop.trips) (h : 2 * k.val + 3 < 250) (g : Buf (Elt F) (oLoc d)) : ((oC61 L k).view.loc (V d (cV L) (jV L)) ↦[(oC61 L k).view.set]{fullShare} g : sProp 𝕄) = oLoc d ↦[chunkSet L ⟨2 * k.val + 3, h⟩ 0]{fullShare} g := by
  rw [set_oC61 L k h]
theorem pts_oC71 (k : Fin k0_t1_loop.trips) (h : 2 * k.val + 3 < 250) (g : Buf (Elt F) (oLoc d)) : ((oC71 L k).view.loc (V d (cV L) (jV L)) ↦[(oC71 L k).view.set]{fullShare} g : sProp 𝕄) = oLoc d ↦[chunkSet L ⟨2 * k.val + 3, h⟩ 1]{fullShare} g := by
  rw [set_oC71 L k h]

/-! ## The recorded waits stay within what the launch allows -/

/-- Every recorded wait is one the tile started with, or sits at the kernel's own index, or at the call's. -/
def okW (W W' : Waits sig (HIx 1)) : Prop := ∀ p ∈ W', p ∈ W ∨ p.2 = none ∨ p.2 = some (0 : Fin 1)
omit [FloatOps F] in
theorem okW_refl (W : Waits sig (HIx 1)) : okW W W := fun _ hp => .inl hp
omit [FloatOps F] in
theorem okW_none {W W' : Waits sig (HIx 1)} (h : okW W W') (s : SemLoc sig) : okW W (insert (s, (default : HIx 1)) W') := by
  intro p hp
  rcases Finset.mem_insert.mp hp with rfl | hp
  · exact .inr (.inl rfl)
  · exact h p hp
omit [FloatOps F] in
theorem okW_some {W W' : Waits sig (HIx 1)} (h : okW W W') (s : SemLoc sig) : okW W (insert (s, (some 0 : HIx 1)) W') := by
  intro p hp
  rcases Finset.mem_insert.mp hp with rfl | hp
  · exact .inr (.inr rfl)
  · exact h p hp

/-! ## The loop's invariant -/

/-- Chunk j, half h, of the tile's rows of the gathered array; empty past the last chunk. -/
def chN (j : ℕ) (h : Fin 2) : Finset S320000x256.Idx := if hj : j < 250 then chunkSet L ⟨j, hj⟩ h else ∅

/-- A write-out in flight on write semaphore s: it delivers the chunk holding its gathered rows, and the row buffer back. -/
def WF (s : DmaSems sig S_) (b : Memref sig .scVector .vmem S40x128 .f32) (j : ℕ) (h : Fin 2) (f : Buf (Elt F) (b.view.loc (V d (cV L) (jV L)))) : sProp 𝕄 :=
  Transfers.Flight countersEmb (V d (cV L) (jV L)) (SemLoc.dma s.sem) (default : HIx 1) 163840
    iprop((oLoc d ↦[chN L j h]{fullShare} gatherC m d) ∗ (b.view.loc (V d (cV L) (jV L)) ↦[b.view.set]{fullShare} f))

/-- Before trip k: the write-outs of chunks 2k and 2k+1 are in flight, the chunks below are done, those from 2k+2 on
    untouched; the gather semaphores are at zero, the tile holds its four read shares of the shared table and its two
    index lists whole. -/
def inv (O : CellTallies nD τ sig (HIx 1)) (W : Waits sig (HIx 1))
    (cs : Buf (Elt F) ((isV).view.loc (V d (cV L) (jV L)))) (cr : Buf (Elt F) ((irV).view.loc (V d (cV L) (jV L))))
    (k : ℕ) (_ : PUnit) : sProp 𝕄 :=
  iprop(Transfers.MayWaits (V d (cV L) (jV L)) (default : HIx 1) O
    ∗ (∃ F0 F1 F2 F3,
        WF m d L cc0_scratch11 b0V (2 * k) 0 F0 ∗ ((b0V).view.loc (V d (cV L) (jV L)) ↦[Finset.univ \ (b0V).view.set]{fullShare} F0)
        ∗ WF m d L cc0_scratch12 b1V (2 * k) 1 F1 ∗ ((b1V).view.loc (V d (cV L) (jV L)) ↦[Finset.univ \ (b1V).view.set]{fullShare} F1)
        ∗ WF m d L cc0_scratch13 b2V (2 * k + 1) 0 F2 ∗ ((b2V).view.loc (V d (cV L) (jV L)) ↦[Finset.univ \ (b2V).view.set]{fullShare} F2)
        ∗ WF m d L cc0_scratch14 b3V (2 * k + 1) 1 F3 ∗ ((b3V).view.loc (V d (cV L) (jV L)) ↦[Finset.univ \ (b3V).view.set]{fullShare} F3))
    ∗ semVal (V d (cV L) (jV L), SemLoc.dma cc0_scratch7.sem) 0 ∗ semVal (V d (cV L) (jV L), SemLoc.dma cc0_scratch8.sem) 0
    ∗ semVal (V d (cV L) (jV L), SemLoc.dma cc0_scratch9.sem) 0 ∗ semVal (V d (cV L) (jV L), SemLoc.dma cc0_scratch10.sem) 0
    ∗ ((shV).view.loc (V d (cV L) (jV L)) ↦{Transfers.shareTokN (tok16 (jV L)) 0} m (xLoc d))
    ∗ ((shV).view.loc (V d (cV L) (jV L)) ↦{Transfers.shareTokN (tok16 (jV L)) 1} m (xLoc d))
    ∗ ((shV).view.loc (V d (cV L) (jV L)) ↦{Transfers.shareTokN (tok16 (jV L)) 2} m (xLoc d))
    ∗ ((shV).view.loc (V d (cV L) (jV L)) ↦{Transfers.shareTokN (tok16 (jV L)) 3} m (xLoc d))
    ∗ ((isV).view.loc (V d (cV L) (jV L)) ↦{fullShare} cs)
    ∗ ((irV).view.loc (V d (cV L) (jV L)) ↦{fullShare} cr)
    ∗ (bigSep (doneCh k) fun p => oLoc d ↦[chunkSet L p.1 p.2]{fullShare} gatherC m d)
    ∗ (bigSep (remCh k) fun p => oLoc d ↦[chunkSet L p.1 p.2]{fullShare} m (oLoc d))
    ∗ ∃ W', ⌜okW W W'⌝ ∗ owes (V d (cV L) (jV L)) O W')

/-! ## The kernel's offsets as numbers -/

omit [FloatOps F] in
theorem off3_0 (r : Fin 2) : k0_off3 L (BitVec.ofNat 32 (40 * r.val)) 0 = 10000 * (2 * (L 1).val + (L 0).val) + 40 * r.val := by
  rw [k0_off3_eq L r]; show 20000 * (L 1).val + 10000 * (L 0).val + 40 * r.val = _; omega
omit [FloatOps F] in
theorem off3_1 (r : Fin 2) : k0_off3 L (BitVec.ofNat 32 (40 * r.val)) 1 = 0 := by rw [k0_off3_eq L r]; rfl
omit [FloatOps F] in
theorem off4_0 (r : Fin 2) : k0_off4 L (BitVec.ofNat 32 (40 * r.val)) 0 = 10000 * (2 * (L 1).val + (L 0).val) + 40 * r.val := by
  rw [k0_off4_eq L r]; show 20000 * (L 1).val + 10000 * (L 0).val + 40 * r.val = _; omega
omit [FloatOps F] in
theorem off4_1 (r : Fin 2) : k0_off4 L (BitVec.ofNat 32 (40 * r.val)) 1 = 128 := by rw [k0_off4_eq L r]; rfl
omit [FloatOps F] in
theorem off6_0 (k : Fin k0_t1_loop.trips) (r : Fin 2) : k0_off6 L k (BitVec.ofNat 32 r.val) 0 = 10000 * (2 * (L 1).val + (L 0).val) + 40 * (2 * k.val + r.val + 2) := by
  rw [k0_off6_eq L k r]; show 20000 * (L 1).val + 10000 * (L 0).val + 80 * k.val + 40 * r.val + 80 = _; omega
omit [FloatOps F] in
theorem off6_1 (k : Fin k0_t1_loop.trips) (r : Fin 2) : k0_off6 L k (BitVec.ofNat 32 r.val) 1 = 0 := by rw [k0_off6_eq L k r]; rfl
omit [FloatOps F] in
theorem off7_0 (k : Fin k0_t1_loop.trips) (r : Fin 2) : k0_off7 L k (BitVec.ofNat 32 r.val) 0 = 10000 * (2 * (L 1).val + (L 0).val) + 40 * (2 * k.val + r.val + 2) := by
  rw [k0_off7_eq L k r]; show 20000 * (L 1).val + 10000 * (L 0).val + 80 * k.val + 40 * r.val + 80 = _; omega
omit [FloatOps F] in
theorem off7_1 (k : Fin k0_t1_loop.trips) (r : Fin 2) : k0_off7 L k (BitVec.ofNat 32 r.val) 1 = 128 := by rw [k0_off7_eq L k r]; rfl
omit [FloatOps F] in
theorem off5 (k : Fin k0_t1_loop.trips) (r : Fin 2) : k0_off5 k (BitVec.ofNat 32 r.val) = ![40 * (2 * k.val + r.val + 2)] := by
  rw [k0_off5_eq k r]; congr 1; omega

/-! ## The loop's offsets at trip k, in the invariant's numbering -/

omit [FloatOps F] in
theorem chN_eq (j : ℕ) (hj : j < 250) (h : Fin 2) : chN L j h = chunkSet L ⟨j, hj⟩ h := dif_pos hj

omit [FloatOps F] in
theorem off5_0 (k : Fin k0_t1_loop.trips) : k0_off5 k 0#32 = ![40 * (2 * (k.val + 1))] :=
  (off5 k 0).trans (by congr 1)
omit [FloatOps F] in
theorem off5_1 (k : Fin k0_t1_loop.trips) : k0_off5 k 1#32 = ![40 * (2 * (k.val + 1) + 1)] :=
  (off5 k 1).trans (by congr 1)
omit [FloatOps F] in
theorem off6_00 (k : Fin k0_t1_loop.trips) : k0_off6 L k 0#32 0 = 10000 * (2 * (L 1).val + (L 0).val) + 40 * (2 * (k.val + 1)) := off6_0 L k 0
omit [FloatOps F] in
theorem off6_10 (k : Fin k0_t1_loop.trips) : k0_off6 L k 1#32 0 = 10000 * (2 * (L 1).val + (L 0).val) + 40 * (2 * (k.val + 1) + 1) := off6_0 L k 1
omit [FloatOps F] in
theorem off7_00 (k : Fin k0_t1_loop.trips) : k0_off7 L k 0#32 0 = 10000 * (2 * (L 1).val + (L 0).val) + 40 * (2 * (k.val + 1)) := off7_0 L k 0
omit [FloatOps F] in
theorem off7_10 (k : Fin k0_t1_loop.trips) : k0_off7 L k 1#32 0 = 10000 * (2 * (L 1).val + (L 0).val) + 40 * (2 * (k.val + 1) + 1) := off7_0 L k 1

/-! ## A write-out in flight delivers its chunk at the gathered array -/

/-- The left half: a row buffer filled by the gather of the senders' entries 40 j … 40 j + 39, being copied out to
    chunk j's columns 0 … 127. -/
theorem wf_s (s : DmaSems sig S_) (bM : Memref sig .scVector .vmem S40x128 .f32) (f : bM.view.ty.Contents (Elt F)) (go : Buf (Elt F) (oLoc d))
    (off1 : Fin 1 → ℕ) (inb1 : ∀ a, off1 a + S40.size a ≤ S10000.size a) (j : ℕ) (hoff1 : off1 = ![40 * j]) (hj : 40 * j + 40 ≤ 10000)
    (fl : Buf (Elt F) ((V d (cV L) (jV L)).loc cc0_scratch1)) (pay : S10000.Idx → Elt F .i32)
    (hpay : pay = ReadAs.same.apply (View.read (Elt F) ((sV).slice (Rect.unit (s := S320000) (k0_off2 L) S10000.size (k0_off2_inb L)) (fun _ => rfl)).view (m (sLoc d))))
    (hn : S40.numel = S40x128.size gathers_S10000x128_S40x128.axis')
    (hin : ∀ x, ((View.read (Elt F) ((isV).slice (Rect.unit (s := S10000) off1 S40.size inb1) (fun _ => rfl)).view
      (View.write (Elt F) (isV).view fl pay Finset.univ)) x).toNat < S10000x128.size gathers_S10000x128_S40x128.axis)
    (hlt : ∀ e : Fin 320000, ((m (sLoc d) : IVec S320000 32) (ix1 e)).toNat < 10000)
    (off2 : Fin 2 → ℕ) (inb2 : ∀ a, off2 a + S40x128.size a ≤ S320000x256.size a)
    (h0 : off2 0 = 10000 * (2 * (L 1).val + (L 0).val) + 40 * j) (h1 : off2 1 = 0)
    (G Dp : S40x128.Idx → Elt F .f32)
    (hG : G = SparseCore.gatherPayload gathers_S10000x128_S40x128
        (View.read (Elt F) ((shV).slice (Rect.unit (s := S10000x128) ![0, 0] S10000x128.size inb_S10000x128_S10000x128_0_0) (fun _ => rfl)).view (nodesSh m d (cV L)))
        (SparseCore.rows (View.read (Elt F) ((isV).slice (Rect.unit (s := S10000) off1 S40.size inb1) (fun _ => rfl)).view
          (View.write (Elt F) (isV).view fl pay Finset.univ)) hn hin))
    (hD : Dp = ReadAs.same.apply (View.read (Elt F) bM.view (bM.view.writes (Elt F) f [⟨Rect.whole S40x128, G⟩]))) :
    (Transfers.Flight countersEmb (V d (cV L) (jV L)) (SemLoc.dma s.sem) (default : HIx 1) 163840
      iprop((((oV).slice (Rect.unit (s := S320000x256) off2 S40x128.size inb2) (fun _ => rfl)).view.loc (V d (cV L) (jV L)) ↦[((oV).slice (Rect.unit (s := S320000x256) off2 S40x128.size inb2) (fun _ => rfl)).view.set]{fullShare}
          ((oV).slice (Rect.unit (s := S320000x256) off2 S40x128.size inb2) (fun _ => rfl)).view.writes (Elt F) go [⟨Rect.whole S40x128, Dp⟩])
        ∗ (bM.view.loc (V d (cV L) (jV L)) ↦[bM.view.set]{fullShare} bM.view.writes (Elt F) f [⟨Rect.whole S40x128, G⟩])) : sProp 𝕄)
      ⊢ WF m d L s bM j 0 (bM.view.writes (Elt F) f [⟨Rect.whole S40x128, G⟩]) := by
  subst hG hD
  unfold WF chN
  rw [dif_pos (show j < 250 by omega), chunk_s m d L bM f go off1 inb1 j hoff1 hj fl pay hpay hn hin hlt off2 inb2 h0 h1]

/-- The right half: the same for the receivers' entries and columns 128 … 255. -/
theorem wf_r (s : DmaSems sig S_) (bM : Memref sig .scVector .vmem S40x128 .f32) (f : bM.view.ty.Contents (Elt F)) (go : Buf (Elt F) (oLoc d))
    (off1 : Fin 1 → ℕ) (inb1 : ∀ a, off1 a + S40.size a ≤ S10000.size a) (j : ℕ) (hoff1 : off1 = ![40 * j]) (hj : 40 * j + 40 ≤ 10000)
    (fl : Buf (Elt F) ((V d (cV L) (jV L)).loc cc0_scratch2)) (pay : S10000.Idx → Elt F .i32)
    (hpay : pay = ReadAs.same.apply (View.read (Elt F) ((rV).slice (Rect.unit (s := S320000) (k0_off2 L) S10000.size (k0_off2_inb L)) (fun _ => rfl)).view (m (rLoc d))))
    (hn : S40.numel = S40x128.size gathers_S10000x128_S40x128.axis')
    (hin : ∀ x, ((View.read (Elt F) ((irV).slice (Rect.unit (s := S10000) off1 S40.size inb1) (fun _ => rfl)).view
      (View.write (Elt F) (irV).view fl pay Finset.univ)) x).toNat < S10000x128.size gathers_S10000x128_S40x128.axis)
    (hlt : ∀ e : Fin 320000, ((m (rLoc d) : IVec S320000 32) (ix1 e)).toNat < 10000)
    (off2 : Fin 2 → ℕ) (inb2 : ∀ a, off2 a + S40x128.size a ≤ S320000x256.size a)
    (h0 : off2 0 = 10000 * (2 * (L 1).val + (L 0).val) + 40 * j) (h1 : off2 1 = 128)
    (G Dp : S40x128.Idx → Elt F .f32)
    (hG : G = SparseCore.gatherPayload gathers_S10000x128_S40x128
        (View.read (Elt F) ((shV).slice (Rect.unit (s := S10000x128) ![0, 0] S10000x128.size inb_S10000x128_S10000x128_0_0) (fun _ => rfl)).view (nodesSh m d (cV L)))
        (SparseCore.rows (View.read (Elt F) ((irV).slice (Rect.unit (s := S10000) off1 S40.size inb1) (fun _ => rfl)).view
          (View.write (Elt F) (irV).view fl pay Finset.univ)) hn hin))
    (hD : Dp = ReadAs.same.apply (View.read (Elt F) bM.view (bM.view.writes (Elt F) f [⟨Rect.whole S40x128, G⟩]))) :
    (Transfers.Flight countersEmb (V d (cV L) (jV L)) (SemLoc.dma s.sem) (default : HIx 1) 163840
      iprop((((oV).slice (Rect.unit (s := S320000x256) off2 S40x128.size inb2) (fun _ => rfl)).view.loc (V d (cV L) (jV L)) ↦[((oV).slice (Rect.unit (s := S320000x256) off2 S40x128.size inb2) (fun _ => rfl)).view.set]{fullShare}
          ((oV).slice (Rect.unit (s := S320000x256) off2 S40x128.size inb2) (fun _ => rfl)).view.writes (Elt F) go [⟨Rect.whole S40x128, Dp⟩])
        ∗ (bM.view.loc (V d (cV L) (jV L)) ↦[bM.view.set]{fullShare} bM.view.writes (Elt F) f [⟨Rect.whole S40x128, G⟩])) : sProp 𝕄)
      ⊢ WF m d L s bM j 1 (bM.view.writes (Elt F) f [⟨Rect.whole S40x128, G⟩]) := by
  subst hG hD
  unfold WF chN
  rw [dif_pos (show j < 250 by omega), chunk_r m d L bM f go off1 inb1 j hoff1 hj fl pay hpay hn hin hlt off2 inb2 h0 h1]

end Cert.Proof.KI

end
-- ==== Proof.ScTile.lean ====
/-
  One tile's task. It copies its block of the node table into its SparseCore's shared table (tile 15 also the last
  sixteen rows) and its 10000 senders and receivers into its two index lists, each copy waited for at once; meets the
  other tiles at the barrier, handing each a read share of what it wrote and leaving with its read share of the whole
  table, which now equals the node table; then gathers, forty entries of a list at a time, the named rows into one
  of four row buffers and copies each buffer out to its chunk of the gathered array, two chunks in flight at a time.
  Each chunk ends holding exactly the gathered array's entries there: row e, columns 0 … 127 the sender's node row,
  columns 128 … 255 the receiver's. The loop's invariant at trip k: chunks below 2k done, chunks 2k and 2k+1 being
  written out, the chunks from 2k+2 on untouched. Every index read is below 10000 by the precondition.
-/
import proofs.«206088_g82248623718559_cont_9to1c4b_230_21_alg».proof.Proof.ScTileLem

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

open Idealize.ShloMosaic.ValueIdx (ix1 ix2)

variable {F : FTy → Type}

local notation "𝕄" => MT nD τ sig (HIx 1) (Elt F) ℕ UU ℕ

local notation "nV" => (Memref.whole Cert.KernelIdeal.main_arg0_scv : Memref Cert.KernelIdeal.sig Kind.scVector Space.hbm Cert.KernelIdeal.S10000x128 EltTy.f32)
local notation "sV" => (Memref.whole Cert.KernelIdeal.main_arg6_scv : Memref Cert.KernelIdeal.sig Kind.scVector Space.hbm Cert.KernelIdeal.S320000 EltTy.i32)
local notation "rV" => (Memref.whole Cert.KernelIdeal.main_arg7_scv : Memref Cert.KernelIdeal.sig Kind.scVector Space.hbm Cert.KernelIdeal.S320000 EltTy.i32)
local notation "oV" => (Memref.whole Cert.KernelIdeal.main_v9_scv : Memref Cert.KernelIdeal.sig Kind.scVector Space.hbm Cert.KernelIdeal.S320000x256 EltTy.f32)
local notation "shV" => (Memref.whole Cert.KernelIdeal.cc0_scratch0 : Memref Cert.KernelIdeal.sig Kind.scVector Space.shared Cert.KernelIdeal.S10000x128 EltTy.f32)
local notation "isV" => (Memref.whole Cert.KernelIdeal.cc0_scratch1 : Memref Cert.KernelIdeal.sig Kind.scVector Space.vmem Cert.KernelIdeal.S10000 EltTy.i32)
local notation "irV" => (Memref.whole Cert.KernelIdeal.cc0_scratch2 : Memref Cert.KernelIdeal.sig Kind.scVector Space.vmem Cert.KernelIdeal.S10000 EltTy.i32)
local notation "b0V" => (Memref.whole Cert.KernelIdeal.cc0_scratch3 : Memref Cert.KernelIdeal.sig Kind.scVector Space.vmem Cert.KernelIdeal.S40x128 EltTy.f32)
local notation "b1V" => (Memref.whole Cert.KernelIdeal.cc0_scratch4 : Memref Cert.KernelIdeal.sig Kind.scVector Space.vmem Cert.KernelIdeal.S40x128 EltTy.f32)
local notation "b2V" => (Memref.whole Cert.KernelIdeal.cc0_scratch5 : Memref Cert.KernelIdeal.sig Kind.scVector Space.vmem Cert.KernelIdeal.S40x128 EltTy.f32)
local notation "b3V" => (Memref.whole Cert.KernelIdeal.cc0_scratch6 : Memref Cert.KernelIdeal.sig Kind.scVector Space.vmem Cert.KernelIdeal.S40x128 EltTy.f32)

variable (m : (ℓ : Loc nD τ sig) → Buf (Elt F) ℓ)

variable [FloatOps F]

section Body

variable (d : Dev nD) (L : grid0.Coords)

set_option maxHeartbeats 8000000 in
/-- The task of a tile other than tile 15. -/
theorem tile_body_lt (hF : (K (F := F)).Facts)
    (hs : ∀ e : Fin 320000, ((m (sLoc d) : IVec S320000 32) (ix1 e)).toNat < 10000)
    (hr : ∀ e : Fin 320000, ((m (rLoc d) : IVec S320000 32) (ix1 e)).toNat < 10000)
    (h15 : (L 1).val ≠ 15)
    (O : CellTallies nD τ sig (HIx 1)) (W : Waits sig (HIx 1)) (hO : ∀ g, O g none = 0)
    (hOlev : ∀ g ι, 0 < O g ι → 8 * (0 : Fin 1).val + 6 ≤ (K (F := F)).lev g ι) :
    iprop(levAts (K (F := F)).L (K (F := F)).lev ∗ bkit m d (cV L) (jV L)
        ∗ (tileArr m d (wid (cV L) (jV L)) (m (oLoc d)) ∗ shIn d (cV L) (jL L))
        ∗ scopedBufs (V d (cV L) (jV L)) ∗ scopedSems0 (V d (cV L) (jV L)) ∗ owes (V d (cV L) (jV L)) (O + oxV d (cV L)) W)
      ⊢ wp frame (wpE (defs₀ (F := F)) 𝒱₀ (V d (cV L) (jV L)) none) Set.univ
          (cc0__gather_body L nV (Memref.isWhole_whole _) sV (Memref.isWhole_whole _) rV (Memref.isWhole_whole _) oV (Memref.isWhole_whole _)
            shV (Memref.isWhole_whole _) isV (Memref.isWhole_whole _) irV (Memref.isWhole_whole _)
            b0V (Memref.isWhole_whole _) b1V (Memref.isWhole_whole _) b2V (Memref.isWhole_whole _) b3V (Memref.isWhole_whole _)
            cc0_scratch7 cc0_scratch8 cc0_scratch9 cc0_scratch10 cc0_scratch11 cc0_scratch12 cc0_scratch13 cc0_scratch14
            cc0_scoped0 cc0_scoped1 cc0_scoped2 cc0_scoped3)
          fun _ => iprop((tileArr m d (wid (cV L) (jV L)) (gatherC m d) ∗ shOut m d (cV L) (jL L))
            ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') := by
  simp only [cc0__gather_body_eq_skeleton]; unfold cc0__gather_body_skel
  simp only [k0_part2_eq_skeleton, k0_part3_eq_skeleton]; unfold k0_part2_skel k0_part3_skel
  rw [(K (F := F)).scopedBufs_V hF d (cV L) (jV L), SparseCore.Cfg.scopedSems0_V (Val := Elt F) d (cV L) (jV L), ownSems0_V, ownBufs_V]
  unfold bkit tileArr shIn
  iintro ⟨#Hlv, ⟨⟨%κ, #Hinv⟩, Htoks, #Hrch, Hat, Hcred⟩, ⟨⟨Hn, Hs, Hr, Ho⟩, ⟨%fsh, Hsh⟩⟩, ⟨⟨%fis, His⟩, ⟨%fir, Hir⟩, ⟨%f0, Hb0⟩, ⟨%f1, Hb1⟩, ⟨%f2, Hb2⟩, ⟨%f3, Hb3⟩, Hbufs⟩, ⟨Hg0, Hg1, Hg2, Hg3, Hw0, Hw1, Hw2, Hw3, Hsem0, Hsem1, Hsem2, Hsem3, Hsems⟩, HO⟩
  have k0_h1 : ¬ (Scalar.cmpi CmpIPredicate.ne (Scalar.extui (Scalar.cmpi CmpIPredicate.eq (BitVec.ofNat 32 (L 1).val) 15#32)) 0#32 = 1#1) :=
    fun h => h15 ((tail_cond L).mp h)
  have hO' : ∀ g, (O + oxV d (cV L)) g none = 0 := fun g => by rw [Pi.add_apply, Finsupp.add_apply, hO g, oxV_none]
  ihave Hmw1 := (show levAts (K (F := F)).L (K (F := F)).lev ⊢ Transfers.MayWaits (V d (cV L) (jV L)) (default : HIx 1) (O + oxV d (cV L)) from
    (K (F := F)).mayWaits_none (thr := V d (cV L) (jV L)) hO') $$ Hlv
  ihave Hmw2 := (show levAts (K (F := F)).L (K (F := F)).lev ⊢ Transfers.MayWaits (V d (cV L) (jV L)) (default : HIx 1) O from
    (K (F := F)).mayWaits_none (thr := V d (cV L) (jV L)) hO) $$ Hlv
  ihave Hn' := (Entails.of_eq (pts_n (F := F) d L _ _).symm) $$ Hn
  ihave Hs' := (Entails.of_eq (pts_s (F := F) d L _ _).symm) $$ Hs
  ihave Hr' := (Entails.of_eq (pts_r (F := F) d L _ _).symm) $$ Hr
  ihave His' := (Entails.of_eq (pts_is (F := F) d L _).symm) $$ His
  ihave Hir' := (Entails.of_eq (pts_ir (F := F) d L _).symm) $$ Hir
  ihave Hsh1 := (Entails.of_eq (own_part_eq (F := F) d L h15 fullShare fsh).symm) $$ Hsh
  ihave Hsh' := (Entails.of_eq (pts_shBlk (F := F) d L fullShare _).symm) $$ Hsh1
  -- the copies of the tile's block of the node table and of its two index lists, each waited for
  sl_exec
  -- the block now holds the node rows; a read share of it goes to every tile across the barrier, and a read share of
  -- every tile's part comes back: the whole shared table at the node rows
  ihave Hsh2 := (Entails.of_eq (shBlk_restate (F := F) m d L fullShare fsh (tile_body_lt.sl.dma0 m d L) rfl)) $$ Hsh'
  ihave Hsh3 := (Entails.of_eq (own_part_eq (F := F) d L h15 fullShare (nodesSh m d (cV L)))) $$ Hsh2
  ihave Hp := (pays_intro (F := F) m d L) $$ Hsh3
  icases Hp with ⟨Hpays, Hdrop⟩
  rw [bind_assoc]
  iapply (SparseCore.wp_subcoreBarrier 𝒱₀ none EB (bRd (F := F) m) d (sc := cV L) (i := jV L) sc_bar0 (grid0.bound 1) hsub0 (L 1) rfl κ (fun _ => 0) (jV L).val
      (fun j => bRd_mem₀ m d _ _ _) (fun _ => rfl) (bRd_expect m d _ _) (some 0) O _) $$ [HO Htoks Hpays Hcred Hat]
  · isplitr; · iexact Hinv
    isplitl [HO]; · iexact HO
    isplitl [Htoks Hpays]
    · rw [bigSep_sep', bigSep_sep']
      isplitl [Htoks]; · iexact Htoks
      isplitl [Hpays]; · iexact Hpays
      iexact Hrch
    isplitl [Hcred]; · iexact Hcred
    isplitl [Hat]; · iexact Hat
    iapply ((K (F := F)).mayOwe_of_bound (thr := V d (cV L) (jV L)) 3 (fun p hp => by
        rw [Finset.mem_singleton] at hp; subst hp
        show (K (F := F)).lev (bcell d (cV L) (jV L)) (some 0) ≤ 3
        rw [(K (F := F)).lev_V_reg d _ _ (show (sc_bar0 : Sem sig) ≠ (K (F := F)).go from sc_bar0_ne_go)]; exact le_rfl)
      (fun g ι hg => lt_of_lt_of_le (by decide) (hOlev g ι hg)))
    iexact Hlv
  iintro ⟨HO, Hat, -, Hgot⟩
  ihave Hwhole := (pays_elim (F := F) m d L) $$ Hgot
  ihave Ht := (tok4_split (F := F) d L _) $$ Hwhole
  icases Ht with ⟨Htd, Ht0, Ht1, Ht2, Ht3⟩
  ihave Ht0' := (Entails.of_eq (pts_sh (F := F) d L _ _).symm) $$ Ht0
  ihave Ht1' := (Entails.of_eq (pts_sh (F := F) d L _ _).symm) $$ Ht1
  ihave Ht2' := (Entails.of_eq (pts_sh (F := F) d L _ _).symm) $$ Ht2
  ihave Ht3' := (Entails.of_eq (pts_sh (F := F) d L _ _).symm) $$ Ht3
  ihave Hb0' := (Entails.of_eq (pts_b0 (F := F) d L _).symm) $$ Hb0
  ihave Hb1' := (Entails.of_eq (pts_b1 (F := F) d L _).symm) $$ Hb1
  ihave Hb2' := (Entails.of_eq (pts_b2 (F := F) d L _).symm) $$ Hb2
  ihave Hb3' := (Entails.of_eq (pts_b3 (F := F) d L _).symm) $$ Hb3
  -- every entry of the two index lists names a row of the table
  have hin_s := idx_inb_s (F := F) m d L hs fis (tile_body_lt.sl.dma0_1 m d L) rfl
  have hin_r := idx_inb_r (F := F) m d L hr fir (tile_body_lt.sl.dma0_2 m d L) rfl
  -- the first two chunks' gathers, the waits for chunk 0's
  sl_exec
  -- the tile's rows of the gathered array, in chunks of 40 rows and two halves
  ihave Hoc := (Entails.of_eq (out_chunks (F := F) d L (m (oLoc d)))) $$ Ho
  ihave Hoc' := (Entails.of_eq (bigSep_chunks_start (fun p : Fin 250 × Fin 2 => (oLoc d ↦[chunkSet L p.1 p.2]{fullShare} m (oLoc d) : sProp 𝕄)))) $$ Hoc
  icases Hoc' with ⟨Hc00, Hc01, Hc10, Hc11, Hrem⟩
  ihave Hc00' := (Entails.of_eq (pts_oC30 (F := F) d L _).symm) $$ Hc00
  ihave Hc01' := (Entails.of_eq (pts_oC40 (F := F) d L _).symm) $$ Hc01
  ihave Hc10' := (Entails.of_eq (pts_oC31 (F := F) d L _).symm) $$ Hc10
  ihave Hc11' := (Entails.of_eq (pts_oC41 (F := F) d L _).symm) $$ Hc11
  -- chunk 0 is copied out, chunk 1's gathers are waited for and it is copied out
  sl_exec
  -- each write-out in flight delivers its chunk at the gathered array
  ihave Hw0 := (wf_s (F := F) m d L cc0_scratch11 b0V f0 (m (oLoc d)) ![0] inb_S10000_S40_0 0 rfl (by omega) fis (tile_body_lt.sl.dma0_1 m d L) rfl rfl (hin_s _ _) hs
    (k0_off3 L 0#32) (inb3_0 L) (off3_0 L 0) (off3_1 L 0) (tile_body_lt.sl.gather0 m d L fis hin_s) (tile_body_lt.sl.dma0_3 m d L fis f0 hin_s) rfl rfl) $$ [Hw0]
  · iexact Hw0
  ihave Hw1 := (wf_r (F := F) m d L cc0_scratch12 b1V f1 (m (oLoc d)) ![0] inb_S10000_S40_0 0 rfl (by omega) fir (tile_body_lt.sl.dma0_2 m d L) rfl rfl (hin_r _ _) hr
    (k0_off4 L 0#32) (inb4_0 L) (off4_0 L 0) (off4_1 L 0) (tile_body_lt.sl.gather1 m d L fir hin_r) (tile_body_lt.sl.dma0_4 m d L fir f1 hin_r) rfl rfl) $$ [Hw1]
  · iexact Hw1
  ihave Hw2 := (wf_s (F := F) m d L cc0_scratch13 b2V f2 (m (oLoc d)) ![40] inb_S10000_S40_40 1 rfl (by omega) fis (tile_body_lt.sl.dma0_1 m d L) rfl rfl (hin_s _ _) hs
    (k0_off3 L 40#32) (inb3_1 L) (off3_0 L 1) (off3_1 L 1) (tile_body_lt.sl.gather2 m d L fis hin_s) (tile_body_lt.sl.dma0_5 m d L fis f2 hin_s) rfl rfl) $$ [Hw2]
  · iexact Hw2
  ihave Hw3 := (wf_r (F := F) m d L cc0_scratch14 b3V f3 (m (oLoc d)) ![40] inb_S10000_S40_40 1 rfl (by omega) fir (tile_body_lt.sl.dma0_2 m d L) rfl rfl (hin_r _ _) hr
    (k0_off4 L 40#32) (inb4_1 L) (off4_0 L 1) (off4_1 L 1) (tile_body_lt.sl.gather3 m d L fir hin_r) (tile_body_lt.sl.dma0_6 m d L fir f3 hin_r) rfl rfl) $$ [Hw3]
  · iexact Hw3
  ihave Hdone := (show (iprop(emp) : sProp 𝕄) ⊢ bigSep (doneCh 0) fun p => oLoc d ↦[chunkSet L p.1 p.2]{fullShare} gatherC m d from by
    rw [doneCh_zero, bigSep_empty]; exact Entails.refl _) $$ []
  · iempintro
  sl_for (inv m d L O W (View.write (Elt F) (isV).view fis (tile_body_lt.sl.dma0_1 m d L) Finset.univ) (View.write (Elt F) (irV).view fir (tile_body_lt.sl.dma0_2 m d L) Finset.univ))
    $$ [Hmw2 Hw0 Hb0' Hw1 Hb1' Hw2 Hb2' Hw3 Hb3' Hg0 Hg1 Hg2 Hg3 Ht0' Ht1' Ht2' Ht3' His' Hir' Hdone Hrem HO]
  case region =>
    intro k _
    have hk : k.val < 124 := lt_of_lt_of_eq k.isLt trips_eq
    unfold inv WF
    iintro ⟨#Hmw, ⟨%F0, %F1, %F2, %F3, Hw0, Hb0, Hw1, Hb1, Hw2, Hb2, Hw3, Hb3⟩, Hg0, Hg1, Hg2, Hg3, Ht0, Ht1, Ht2, Ht3, His, Hir, Hdone, Hrem, %W', %hW', HO⟩
    -- this trip's chunks 2k+2 and 2k+3, out of the untouched ones
    ihave Hrem' := (Entails.of_eq (bigSep_remCh_step (fun p : Fin 250 × Fin 2 => (oLoc d ↦[chunkSet L p.1 p.2]{fullShare} m (oLoc d) : sProp 𝕄)) k.val hk)) $$ Hrem
    icases Hrem' with ⟨Hc00, Hc01, Hc10, Hc11, Hrem⟩
    ihave Hc00' := (Entails.of_eq (pts_oC60 (F := F) d L k _ _).symm) $$ Hc00
    ihave Hc01' := (Entails.of_eq (pts_oC70 (F := F) d L k _ _).symm) $$ Hc01
    ihave Hc10' := (Entails.of_eq (pts_oC61 (F := F) d L k _ _).symm) $$ Hc10
    ihave Hc11' := (Entails.of_eq (pts_oC71 (F := F) d L k _ _).symm) $$ Hc11
    sl_exec (disch := exact View.amount_pos _ _ (show 0 < S40x128.numel by decide))
    sl_step
    -- this trip's four write-outs, each delivering its chunk at the gathered array
    ihave Hw0 := (wf_s (F := F) m d L cc0_scratch11 b0V F0 (m (oLoc d)) (k0_off5 k 0#32) (k0_off5_inb k 0) (2 * (k.val + 1)) (off5_0 k) (by omega) fis (tile_body_lt.sl.dma0_1 m d L) rfl rfl (hin_s _ _) hs
      (k0_off6 L k 0#32) (k0_off6_inb L k 0) (off6_00 L k) (off6_1 L k 0) (tile_body_lt.sl.gather0_1 m d L fis hin_s k) (tile_body_lt.sl.dma0_7 m d L fis hin_s k F0) rfl rfl) $$ [Hw0]
    · iexact Hw0
    ihave Hw1 := (wf_r (F := F) m d L cc0_scratch12 b1V F1 (m (oLoc d)) (k0_off5 k 0#32) (k0_off5_inb k 0) (2 * (k.val + 1)) (off5_0 k) (by omega) fir (tile_body_lt.sl.dma0_2 m d L) rfl rfl (hin_r _ _) hr
      (k0_off7 L k 0#32) (k0_off7_inb L k 0) (off7_00 L k) (off7_1 L k 0) (tile_body_lt.sl.gather1_1 m d L fir hin_r k) (tile_body_lt.sl.dma0_8 m d L fir hin_r k F1) rfl rfl) $$ [Hw1]
    · iexact Hw1
    ihave Hw2 := (wf_s (F := F) m d L cc0_scratch13 b2V F2 (m (oLoc d)) (k0_off5 k 1#32) (k0_off5_inb k 1) (2 * (k.val + 1) + 1) (off5_1 k) (by omega) fis (tile_body_lt.sl.dma0_1 m d L) rfl rfl (hin_s _ _) hs
      (k0_off6 L k 1#32) (k0_off6_inb L k 1) (off6_10 L k) (off6_1 L k 1) (tile_body_lt.sl.gather2_1 m d L fis hin_s k) (tile_body_lt.sl.dma0_9 m d L fis hin_s k F2) rfl rfl) $$ [Hw2]
    · iexact Hw2
    ihave Hw3 := (wf_r (F := F) m d L cc0_scratch14 b3V F3 (m (oLoc d)) (k0_off5 k 1#32) (k0_off5_inb k 1) (2 * (k.val + 1) + 1) (off5_1 k) (by omega) fir (tile_body_lt.sl.dma0_2 m d L) rfl rfl (hin_r _ _) hr
      (k0_off7 L k 1#32) (k0_off7_inb L k 1) (off7_10 L k) (off7_1 L k 1) (tile_body_lt.sl.gather3_1 m d L fir hin_r k) (tile_body_lt.sl.dma0_10 m d L fir hin_r k F3) rfl rfl) $$ [Hw3]
    · iexact Hw3
    unfold WF
    -- chunks 2k and 2k+1 join the done ones
    rw [chN_eq L (2 * k.val) (by omega) 0, chN_eq L (2 * k.val) (by omega) 1, chN_eq L (2 * k.val + 1) (by omega) 0, chN_eq L (2 * k.val + 1) (by omega) 1]
    ihave Hdone := (Entails.of_eq (bigSep_doneCh_step (fun p : Fin 250 × Fin 2 => (oLoc d ↦[chunkSet L p.1 p.2]{fullShare} gatherC m d : sProp 𝕄)) k.val (by omega)).symm) $$ [Hdone Hw0_dst Hw1_dst Hw2_dst Hw3_dst]
    · isplitl [Hw0_dst]; · iexact Hw0_dst
      isplitl [Hw1_dst]; · iexact Hw1_dst
      isplitl [Hw2_dst]; · iexact Hw2_dst
      isplitl [Hw3_dst]; · iexact Hw3_dst
      iexact Hdone
    isplitr; · iexact Hmw
    isplitl [Hw0 Hb0 Hw1 Hb1 Hw2 Hb2 Hw3 Hb3]
    · iexists _; iexists _; iexists _; iexists _
      isplitl [Hw0]; · iexact Hw0
      isplitl [Hb0]; · iexact Hb0
      isplitl [Hw1]; · iexact Hw1
      isplitl [Hb1]; · iexact Hb1
      isplitl [Hw2]; · iexact Hw2
      isplitl [Hb2]; · iexact Hb2
      isplitl [Hw3]; · iexact Hw3
      iexact Hb3
    isplitl [Hg0]; · iexact Hg0
    isplitl [Hg1]; · iexact Hg1
    isplitl [Hg2]; · iexact Hg2
    isplitl [Hg3]; · iexact Hg3
    isplitl [Ht0]; · iexact Ht0
    isplitl [Ht1]; · iexact Ht1
    isplitl [Ht2]; · iexact Ht2
    isplitl [Ht3]; · iexact Ht3
    isplitl [His]; · iexact His
    isplitl [Hir]; · iexact Hir
    isplitl [Hdone]; · iexact Hdone
    isplitl [Hrem]; · iexact Hrem
    iexists _; isplitr
    swap; · iexact HO
    ipureintro
    exact okW_none (okW_none (okW_none (okW_none (okW_none (okW_none (okW_none (okW_none hW' _) _) _) _) _) _) _) _
  -- the invariant holds before the first trip
  · unfold inv
    isplitr; · iexact Hmw2
    isplitl [Hw0 Hb0' Hw1 Hb1' Hw2 Hb2' Hw3 Hb3']
    · iexists _; iexists _; iexists _; iexists _
      isplitl [Hw0]; · iexact Hw0
      isplitl [Hb0']; · iexact Hb0'
      isplitl [Hw1]; · iexact Hw1
      isplitl [Hb1']; · iexact Hb1'
      isplitl [Hw2]; · iexact Hw2
      isplitl [Hb2']; · iexact Hb2'
      isplitl [Hw3]; · iexact Hw3
      iexact Hb3'
    isplitl [Hg0]; · iexact Hg0
    isplitl [Hg1]; · iexact Hg1
    isplitl [Hg2]; · iexact Hg2
    isplitl [Hg3]; · iexact Hg3
    isplitl [Ht0']; · iexact Ht0'
    isplitl [Ht1']; · iexact Ht1'
    isplitl [Ht2']; · iexact Ht2'
    isplitl [Ht3']; · iexact Ht3'
    isplitl [His']; · iexact His'
    isplitl [Hir']; · iexact Hir'
    isplitl [Hdone]; · iexact Hdone
    isplitl [Hrem]; · iexact Hrem
    iexists _; isplitr
    swap; · iexact HO
    ipureintro
    exact okW_none (okW_none (okW_none (okW_none (okW_some (okW_none (okW_none (okW_none (okW_refl W) _) _) _) _) _) _) _) _
  -- after the last trip: the last two chunks' write-outs are waited for
  iintro %_ HI
  unfold inv WF
  icases HI with ⟨-, ⟨%F0, %F1, %F2, %F3, Hw0, Hb0, Hw1, Hb1, Hw2, Hb2, Hw3, Hb3⟩, Hg0, Hg1, Hg2, Hg3, Ht0, Ht1, Ht2, Ht3, His, Hir, Hdone, Hrem, %W', %hW', HO⟩
  sl_exec
  sl_step
  -- all 250 chunks are done: the tile's rows hold the gathered array
  have htr : Scf.trips k0_t1_loop.lb k0_t1_loop.ub k0_t1_loop.st = 124 := trips_eq
  rw [htr, chN_eq L (2 * 124) (by omega) 0, chN_eq L (2 * 124) (by omega) 1, chN_eq L (2 * 124 + 1) (by omega) 0, chN_eq L (2 * 124 + 1) (by omega) 1]
  ihave Hdone := (Entails.of_eq (bigSep_doneCh_step (fun p : Fin 250 × Fin 2 => (oLoc d ↦[chunkSet L p.1 p.2]{fullShare} gatherC m d : sProp 𝕄)) 124 (by omega)).symm) $$ [Hdone Hw0_dst Hw1_dst Hw2_dst Hw3_dst]
  · isplitl [Hw0_dst]; · iexact Hw0_dst
    isplitl [Hw1_dst]; · iexact Hw1_dst
    isplitl [Hw2_dst]; · iexact Hw2_dst
    isplitl [Hw3_dst]; · iexact Hw3_dst
    iexact Hdone
  rw [show doneCh (124 + 1) = Finset.univ from doneCh_end]
  ihave Ho := (Entails.of_eq (out_chunks (F := F) d L (gatherC m d)).symm) $$ Hdone
  isplitl [Hn' Hs' Hr' Ho Htd Ht0 Ht1 Ht2 Ht3 Hdrop]
  · isplitl [Hn' Hs' Hr' Ho]
    · isplitl [Hn']; · iapply (Entails.of_eq (pts_n (F := F) d L _ _)); iexact Hn'
      isplitl [Hs']; · iapply (Entails.of_eq (pts_s (F := F) d L _ _)); iexact Hs'
      isplitl [Hr']; · iapply (Entails.of_eq (pts_r (F := F) d L _ _)); iexact Hr'
      iexact Ho
    · unfold shOut
      isplitl [Htd Ht0 Ht1 Ht2 Ht3]
      · iapply (tok4_join (F := F) d L _)
        isplitl [Htd]; · iexact Htd
        isplitl [Ht0]; · iapply (Entails.of_eq (pts_sh (F := F) d L _ _)); iexact Ht0
        isplitl [Ht1]; · iapply (Entails.of_eq (pts_sh (F := F) d L _ _)); iexact Ht1
        isplitl [Ht2]; · iapply (Entails.of_eq (pts_sh (F := F) d L _ _)); iexact Ht2
        iapply (Entails.of_eq (pts_sh (F := F) d L _ _)); iexact Ht3
      · iexact Hdrop
  isplitl [His Hir Hb0 Hb1 Hb2 Hb3 Hbufs]
  · isplitl [His]; · iexists _; iapply (Entails.of_eq (pts_is (F := F) d L _)); iexact His
    isplitl [Hir]; · iexists _; iapply (Entails.of_eq (pts_ir (F := F) d L _)); iexact Hir
    isplitl [Hb0]; · iexists _; iapply (Entails.of_eq (pts_b0 (F := F) d L _)); iexact Hb0
    isplitl [Hb1]; · iexists _; iapply (Entails.of_eq (pts_b1 (F := F) d L _)); iexact Hb1
    isplitl [Hb2]; · iexists _; iapply (Entails.of_eq (pts_b2 (F := F) d L _)); iexact Hb2
    isplitl [Hb3]; · iexists _; iapply (Entails.of_eq (pts_b3 (F := F) d L _)); iexact Hb3
    iexact Hbufs
  isplitl [Hg0 Hg1 Hg2 Hg3 Hw0 Hw1 Hw2 Hw3 Hsem0 Hsem1 Hsem2 Hsem3 Hsems]
  · isplitl [Hg0]; · iexact Hg0
    isplitl [Hg1]; · iexact Hg1
    isplitl [Hg2]; · iexact Hg2
    isplitl [Hg3]; · iexact Hg3
    isplitl [Hw0]; · iexact Hw0
    isplitl [Hw1]; · iexact Hw1
    isplitl [Hw2]; · iexact Hw2
    isplitl [Hw3]; · iexact Hw3
    isplitl [Hsem0]; · iexact Hsem0
    isplitl [Hsem1]; · iexact Hsem1
    isplitl [Hsem2]; · iexact Hsem2
    isplitl [Hsem3]; · iexact Hsem3
    iexact Hsems
  iexists _; isplitr
  swap; · iexact HO
  ipureintro
  exact okW_none (okW_none (okW_none (okW_none hW' _) _) _) _

set_option maxHeartbeats 8000000 in
/-- The task of tile 15, which also copies the last sixteen rows of the node table. -/
theorem tile_body_15 (hF : (K (F := F)).Facts)
    (hs : ∀ e : Fin 320000, ((m (sLoc d) : IVec S320000 32) (ix1 e)).toNat < 10000)
    (hr : ∀ e : Fin 320000, ((m (rLoc d) : IVec S320000 32) (ix1 e)).toNat < 10000)
    (h15 : (L 1).val = 15)
    (O : CellTallies nD τ sig (HIx 1)) (W : Waits sig (HIx 1)) (hO : ∀ g, O g none = 0)
    (hOlev : ∀ g ι, 0 < O g ι → 8 * (0 : Fin 1).val + 6 ≤ (K (F := F)).lev g ι) :
    iprop(levAts (K (F := F)).L (K (F := F)).lev ∗ bkit m d (cV L) (jV L)
        ∗ (tileArr m d (wid (cV L) (jV L)) (m (oLoc d)) ∗ shIn d (cV L) (jL L))
        ∗ scopedBufs (V d (cV L) (jV L)) ∗ scopedSems0 (V d (cV L) (jV L)) ∗ owes (V d (cV L) (jV L)) (O + oxV d (cV L)) W)
      ⊢ wp frame (wpE (defs₀ (F := F)) 𝒱₀ (V d (cV L) (jV L)) none) Set.univ
          (cc0__gather_body L nV (Memref.isWhole_whole _) sV (Memref.isWhole_whole _) rV (Memref.isWhole_whole _) oV (Memref.isWhole_whole _)
            shV (Memref.isWhole_whole _) isV (Memref.isWhole_whole _) irV (Memref.isWhole_whole _)
            b0V (Memref.isWhole_whole _) b1V (Memref.isWhole_whole _) b2V (Memref.isWhole_whole _) b3V (Memref.isWhole_whole _)
            cc0_scratch7 cc0_scratch8 cc0_scratch9 cc0_scratch10 cc0_scratch11 cc0_scratch12 cc0_scratch13 cc0_scratch14
            cc0_scoped0 cc0_scoped1 cc0_scoped2 cc0_scoped3)
          fun _ => iprop((tileArr m d (wid (cV L) (jV L)) (gatherC m d) ∗ shOut m d (cV L) (jL L))
            ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') := by
  simp only [cc0__gather_body_eq_skeleton]; unfold cc0__gather_body_skel
  simp only [k0_part2_eq_skeleton, k0_part3_eq_skeleton]; unfold k0_part2_skel k0_part3_skel
  rw [(K (F := F)).scopedBufs_V hF d (cV L) (jV L), SparseCore.Cfg.scopedSems0_V (Val := Elt F) d (cV L) (jV L), ownSems0_V, ownBufs_V]
  unfold bkit tileArr shIn
  iintro ⟨#Hlv, ⟨⟨%κ, #Hinv⟩, Htoks, #Hrch, Hat, Hcred⟩, ⟨⟨Hn, Hs, Hr, Ho⟩, ⟨%fsh, Hsh⟩⟩, ⟨⟨%fis, His⟩, ⟨%fir, Hir⟩, ⟨%f0, Hb0⟩, ⟨%f1, Hb1⟩, ⟨%f2, Hb2⟩, ⟨%f3, Hb3⟩, Hbufs⟩, ⟨Hg0, Hg1, Hg2, Hg3, Hw0, Hw1, Hw2, Hw3, Hsem0, Hsem1, Hsem2, Hsem3, Hsems⟩, HO⟩
  have k0_h1 : Scalar.cmpi CmpIPredicate.ne (Scalar.extui (Scalar.cmpi CmpIPredicate.eq (BitVec.ofNat 32 (L 1).val) 15#32)) 0#32 = 1#1 :=
    (tail_cond L).mpr h15
  have hO' : ∀ g, (O + oxV d (cV L)) g none = 0 := fun g => by rw [Pi.add_apply, Finsupp.add_apply, hO g, oxV_none]
  ihave Hmw1 := (show levAts (K (F := F)).L (K (F := F)).lev ⊢ Transfers.MayWaits (V d (cV L) (jV L)) (default : HIx 1) (O + oxV d (cV L)) from
    (K (F := F)).mayWaits_none (thr := V d (cV L) (jV L)) hO') $$ Hlv
  ihave Hmw2 := (show levAts (K (F := F)).L (K (F := F)).lev ⊢ Transfers.MayWaits (V d (cV L) (jV L)) (default : HIx 1) O from
    (K (F := F)).mayWaits_none (thr := V d (cV L) (jV L)) hO) $$ Hlv
  ihave Hn' := (Entails.of_eq (pts_n (F := F) d L _ _).symm) $$ Hn
  ihave Hs' := (Entails.of_eq (pts_s (F := F) d L _ _).symm) $$ Hs
  ihave Hr' := (Entails.of_eq (pts_r (F := F) d L _ _).symm) $$ Hr
  ihave His' := (Entails.of_eq (pts_is (F := F) d L _).symm) $$ His
  ihave Hir' := (Entails.of_eq (pts_ir (F := F) d L _).symm) $$ Hir
  ihave Hsh0 := (own_part15_split (F := F) d L h15 fullShare fsh) $$ Hsh
  icases Hsh0 with ⟨Hsh1, Htl1⟩
  ihave Hsh' := (Entails.of_eq (pts_shBlk (F := F) d L fullShare _).symm) $$ Hsh1
  ihave Htl' := (Entails.of_eq (pts_shTail (F := F) d L fullShare _).symm) $$ Htl1
  -- the copies of the tile's block and of the last sixteen rows of the node table, and of its two index lists, each waited for
  sl_exec
  -- the block now holds the node rows; a read share of it goes to every tile across the barrier, and a read share of
  -- every tile's part comes back: the whole shared table at the node rows
  ihave Hsh2 := (Entails.of_eq (shBlk_restate (F := F) m d L fullShare fsh (tile_body_15.sl.dma0 m d L) rfl)) $$ Hsh'
  ihave Htl2 := (Entails.of_eq (shTail_restate (F := F) m d L fullShare fsh (tile_body_15.sl.dma0_1 m d) rfl)) $$ Htl'
  ihave Hsh3 := (own_part15_join (F := F) d L h15 fullShare (nodesSh m d (cV L))) $$ [Hsh2 Htl2]
  · isplitl [Hsh2]; · iexact Hsh2
    iexact Htl2
  ihave Hp := (pays_intro (F := F) m d L) $$ Hsh3
  icases Hp with ⟨Hpays, Hdrop⟩
  rw [bind_assoc]
  iapply (SparseCore.wp_subcoreBarrier 𝒱₀ none EB (bRd (F := F) m) d (sc := cV L) (i := jV L) sc_bar0 (grid0.bound 1) hsub0 (L 1) rfl κ (fun _ => 0) (jV L).val
      (fun j => bRd_mem₀ m d _ _ _) (fun _ => rfl) (bRd_expect m d _ _) (some 0) O _) $$ [HO Htoks Hpays Hcred Hat]
  · isplitr; · iexact Hinv
    isplitl [HO]; · iexact HO
    isplitl [Htoks Hpays]
    · rw [bigSep_sep', bigSep_sep']
      isplitl [Htoks]; · iexact Htoks
      isplitl [Hpays]; · iexact Hpays
      iexact Hrch
    isplitl [Hcred]; · iexact Hcred
    isplitl [Hat]; · iexact Hat
    iapply ((K (F := F)).mayOwe_of_bound (thr := V d (cV L) (jV L)) 3 (fun p hp => by
        rw [Finset.mem_singleton] at hp; subst hp
        show (K (F := F)).lev (bcell d (cV L) (jV L)) (some 0) ≤ 3
        rw [(K (F := F)).lev_V_reg d _ _ (show (sc_bar0 : Sem sig) ≠ (K (F := F)).go from sc_bar0_ne_go)]; exact le_rfl)
      (fun g ι hg => lt_of_lt_of_le (by decide) (hOlev g ι hg)))
    iexact Hlv
  iintro ⟨HO, Hat, -, Hgot⟩
  ihave Hwhole := (pays_elim (F := F) m d L) $$ Hgot
  ihave Ht := (tok4_split (F := F) d L _) $$ Hwhole
  icases Ht with ⟨Htd, Ht0, Ht1, Ht2, Ht3⟩
  ihave Ht0' := (Entails.of_eq (pts_sh (F := F) d L _ _).symm) $$ Ht0
  ihave Ht1' := (Entails.of_eq (pts_sh (F := F) d L _ _).symm) $$ Ht1
  ihave Ht2' := (Entails.of_eq (pts_sh (F := F) d L _ _).symm) $$ Ht2
  ihave Ht3' := (Entails.of_eq (pts_sh (F := F) d L _ _).symm) $$ Ht3
  ihave Hb0' := (Entails.of_eq (pts_b0 (F := F) d L _).symm) $$ Hb0
  ihave Hb1' := (Entails.of_eq (pts_b1 (F := F) d L _).symm) $$ Hb1
  ihave Hb2' := (Entails.of_eq (pts_b2 (F := F) d L _).symm) $$ Hb2
  ihave Hb3' := (Entails.of_eq (pts_b3 (F := F) d L _).symm) $$ Hb3
  -- every entry of the two index lists names a row of the table
  have hin_s := idx_inb_s (F := F) m d L hs fis (tile_body_15.sl.dma0_2 m d L) rfl
  have hin_r := idx_inb_r (F := F) m d L hr fir (tile_body_15.sl.dma0_3 m d L) rfl
  -- the first two chunks' gathers, the waits for chunk 0's
  sl_exec
  -- the tile's rows of the gathered array, in chunks of 40 rows and two halves
  ihave Hoc := (Entails.of_eq (out_chunks (F := F) d L (m (oLoc d)))) $$ Ho
  ihave Hoc' := (Entails.of_eq (bigSep_chunks_start (fun p : Fin 250 × Fin 2 => (oLoc d ↦[chunkSet L p.1 p.2]{fullShare} m (oLoc d) : sProp 𝕄)))) $$ Hoc
  icases Hoc' with ⟨Hc00, Hc01, Hc10, Hc11, Hrem⟩
  ihave Hc00' := (Entails.of_eq (pts_oC30 (F := F) d L _).symm) $$ Hc00
  ihave Hc01' := (Entails.of_eq (pts_oC40 (F := F) d L _).symm) $$ Hc01
  ihave Hc10' := (Entails.of_eq (pts_oC31 (F := F) d L _).symm) $$ Hc10
  ihave Hc11' := (Entails.of_eq (pts_oC41 (F := F) d L _).symm) $$ Hc11
  -- chunk 0 is copied out, chunk 1's gathers are waited for and it is copied out
  sl_exec
  -- each write-out in flight delivers its chunk at the gathered array
  ihave Hw0 := (wf_s (F := F) m d L cc0_scratch11 b0V f0 (m (oLoc d)) ![0] inb_S10000_S40_0 0 rfl (by omega) fis (tile_body_15.sl.dma0_2 m d L) rfl rfl (hin_s _ _) hs
    (k0_off3 L 0#32) (inb3_0 L) (off3_0 L 0) (off3_1 L 0) (tile_body_15.sl.gather0 m d L fis hin_s) (tile_body_15.sl.dma0_4 m d L fis f0 hin_s) rfl rfl) $$ [Hw0]
  · iexact Hw0
  ihave Hw1 := (wf_r (F := F) m d L cc0_scratch12 b1V f1 (m (oLoc d)) ![0] inb_S10000_S40_0 0 rfl (by omega) fir (tile_body_15.sl.dma0_3 m d L) rfl rfl (hin_r _ _) hr
    (k0_off4 L 0#32) (inb4_0 L) (off4_0 L 0) (off4_1 L 0) (tile_body_15.sl.gather1 m d L fir hin_r) (tile_body_15.sl.dma0_5 m d L fir f1 hin_r) rfl rfl) $$ [Hw1]
  · iexact Hw1
  ihave Hw2 := (wf_s (F := F) m d L cc0_scratch13 b2V f2 (m (oLoc d)) ![40] inb_S10000_S40_40 1 rfl (by omega) fis (tile_body_15.sl.dma0_2 m d L) rfl rfl (hin_s _ _) hs
    (k0_off3 L 40#32) (inb3_1 L) (off3_0 L 1) (off3_1 L 1) (tile_body_15.sl.gather2 m d L fis hin_s) (tile_body_15.sl.dma0_6 m d L fis f2 hin_s) rfl rfl) $$ [Hw2]
  · iexact Hw2
  ihave Hw3 := (wf_r (F := F) m d L cc0_scratch14 b3V f3 (m (oLoc d)) ![40] inb_S10000_S40_40 1 rfl (by omega) fir (tile_body_15.sl.dma0_3 m d L) rfl rfl (hin_r _ _) hr
    (k0_off4 L 40#32) (inb4_1 L) (off4_0 L 1) (off4_1 L 1) (tile_body_15.sl.gather3 m d L fir hin_r) (tile_body_15.sl.dma0_7 m d L fir f3 hin_r) rfl rfl) $$ [Hw3]
  · iexact Hw3
  ihave Hdone := (show (iprop(emp) : sProp 𝕄) ⊢ bigSep (doneCh 0) fun p => oLoc d ↦[chunkSet L p.1 p.2]{fullShare} gatherC m d from by
    rw [doneCh_zero, bigSep_empty]; exact Entails.refl _) $$ []
  · iempintro
  sl_for (inv m d L O W (View.write (Elt F) (isV).view fis (tile_body_15.sl.dma0_2 m d L) Finset.univ) (View.write (Elt F) (irV).view fir (tile_body_15.sl.dma0_3 m d L) Finset.univ))
    $$ [Hmw2 Hw0 Hb0' Hw1 Hb1' Hw2 Hb2' Hw3 Hb3' Hg0 Hg1 Hg2 Hg3 Ht0' Ht1' Ht2' Ht3' His' Hir' Hdone Hrem HO]
  case region =>
    intro k _
    have hk : k.val < 124 := lt_of_lt_of_eq k.isLt trips_eq
    unfold inv WF
    iintro ⟨#Hmw, ⟨%F0, %F1, %F2, %F3, Hw0, Hb0, Hw1, Hb1, Hw2, Hb2, Hw3, Hb3⟩, Hg0, Hg1, Hg2, Hg3, Ht0, Ht1, Ht2, Ht3, His, Hir, Hdone, Hrem, %W', %hW', HO⟩
    -- this trip's chunks 2k+2 and 2k+3, out of the untouched ones
    ihave Hrem' := (Entails.of_eq (bigSep_remCh_step (fun p : Fin 250 × Fin 2 => (oLoc d ↦[chunkSet L p.1 p.2]{fullShare} m (oLoc d) : sProp 𝕄)) k.val hk)) $$ Hrem
    icases Hrem' with ⟨Hc00, Hc01, Hc10, Hc11, Hrem⟩
    ihave Hc00' := (Entails.of_eq (pts_oC60 (F := F) d L k _ _).symm) $$ Hc00
    ihave Hc01' := (Entails.of_eq (pts_oC70 (F := F) d L k _ _).symm) $$ Hc01
    ihave Hc10' := (Entails.of_eq (pts_oC61 (F := F) d L k _ _).symm) $$ Hc10
    ihave Hc11' := (Entails.of_eq (pts_oC71 (F := F) d L k _ _).symm) $$ Hc11
    sl_exec (disch := exact View.amount_pos _ _ (show 0 < S40x128.numel by decide))
    sl_step
    -- this trip's four write-outs, each delivering its chunk at the gathered array
    ihave Hw0 := (wf_s (F := F) m d L cc0_scratch11 b0V F0 (m (oLoc d)) (k0_off5 k 0#32) (k0_off5_inb k 0) (2 * (k.val + 1)) (off5_0 k) (by omega) fis (tile_body_15.sl.dma0_2 m d L) rfl rfl (hin_s _ _) hs
      (k0_off6 L k 0#32) (k0_off6_inb L k 0) (off6_00 L k) (off6_1 L k 0) (tile_body_15.sl.gather0_1 m d L fis hin_s k) (tile_body_15.sl.dma0_8 m d L fis hin_s k F0) rfl rfl) $$ [Hw0]
    · iexact Hw0
    ihave Hw1 := (wf_r (F := F) m d L cc0_scratch12 b1V F1 (m (oLoc d)) (k0_off5 k 0#32) (k0_off5_inb k 0) (2 * (k.val + 1)) (off5_0 k) (by omega) fir (tile_body_15.sl.dma0_3 m d L) rfl rfl (hin_r _ _) hr
      (k0_off7 L k 0#32) (k0_off7_inb L k 0) (off7_00 L k) (off7_1 L k 0) (tile_body_15.sl.gather1_1 m d L fir hin_r k) (tile_body_15.sl.dma0_9 m d L fir hin_r k F1) rfl rfl) $$ [Hw1]
    · iexact Hw1
    ihave Hw2 := (wf_s (F := F) m d L cc0_scratch13 b2V F2 (m (oLoc d)) (k0_off5 k 1#32) (k0_off5_inb k 1) (2 * (k.val + 1) + 1) (off5_1 k) (by omega) fis (tile_body_15.sl.dma0_2 m d L) rfl rfl (hin_s _ _) hs
      (k0_off6 L k 1#32) (k0_off6_inb L k 1) (off6_10 L k) (off6_1 L k 1) (tile_body_15.sl.gather2_1 m d L fis hin_s k) (tile_body_15.sl.dma0_10 m d L fis hin_s k F2) rfl rfl) $$ [Hw2]
    · iexact Hw2
    ihave Hw3 := (wf_r (F := F) m d L cc0_scratch14 b3V F3 (m (oLoc d)) (k0_off5 k 1#32) (k0_off5_inb k 1) (2 * (k.val + 1) + 1) (off5_1 k) (by omega) fir (tile_body_15.sl.dma0_3 m d L) rfl rfl (hin_r _ _) hr
      (k0_off7 L k 1#32) (k0_off7_inb L k 1) (off7_10 L k) (off7_1 L k 1) (tile_body_15.sl.gather3_1 m d L fir hin_r k) (tile_body_15.sl.dma0_11 m d L fir hin_r k F3) rfl rfl) $$ [Hw3]
    · iexact Hw3
    unfold WF
    -- chunks 2k and 2k+1 join the done ones
    rw [chN_eq L (2 * k.val) (by omega) 0, chN_eq L (2 * k.val) (by omega) 1, chN_eq L (2 * k.val + 1) (by omega) 0, chN_eq L (2 * k.val + 1) (by omega) 1]
    ihave Hdone := (Entails.of_eq (bigSep_doneCh_step (fun p : Fin 250 × Fin 2 => (oLoc d ↦[chunkSet L p.1 p.2]{fullShare} gatherC m d : sProp 𝕄)) k.val (by omega)).symm) $$ [Hdone Hw0_dst Hw1_dst Hw2_dst Hw3_dst]
    · isplitl [Hw0_dst]; · iexact Hw0_dst
      isplitl [Hw1_dst]; · iexact Hw1_dst
      isplitl [Hw2_dst]; · iexact Hw2_dst
      isplitl [Hw3_dst]; · iexact Hw3_dst
      iexact Hdone
    isplitr; · iexact Hmw
    isplitl [Hw0 Hb0 Hw1 Hb1 Hw2 Hb2 Hw3 Hb3]
    · iexists _; iexists _; iexists _; iexists _
      isplitl [Hw0]; · iexact Hw0
      isplitl [Hb0]; · iexact Hb0
      isplitl [Hw1]; · iexact Hw1
      isplitl [Hb1]; · iexact Hb1
      isplitl [Hw2]; · iexact Hw2
      isplitl [Hb2]; · iexact Hb2
      isplitl [Hw3]; · iexact Hw3
      iexact Hb3
    isplitl [Hg0]; · iexact Hg0
    isplitl [Hg1]; · iexact Hg1
    isplitl [Hg2]; · iexact Hg2
    isplitl [Hg3]; · iexact Hg3
    isplitl [Ht0]; · iexact Ht0
    isplitl [Ht1]; · iexact Ht1
    isplitl [Ht2]; · iexact Ht2
    isplitl [Ht3]; · iexact Ht3
    isplitl [His]; · iexact His
    isplitl [Hir]; · iexact Hir
    isplitl [Hdone]; · iexact Hdone
    isplitl [Hrem]; · iexact Hrem
    iexists _; isplitr
    swap; · iexact HO
    ipureintro
    exact okW_none (okW_none (okW_none (okW_none (okW_none (okW_none (okW_none (okW_none hW' _) _) _) _) _) _) _) _
  -- the invariant holds before the first trip
  · unfold inv
    isplitr; · iexact Hmw2
    isplitl [Hw0 Hb0' Hw1 Hb1' Hw2 Hb2' Hw3 Hb3']
    · iexists _; iexists _; iexists _; iexists _
      isplitl [Hw0]; · iexact Hw0
      isplitl [Hb0']; · iexact Hb0'
      isplitl [Hw1]; · iexact Hw1
      isplitl [Hb1']; · iexact Hb1'
      isplitl [Hw2]; · iexact Hw2
      isplitl [Hb2']; · iexact Hb2'
      isplitl [Hw3]; · iexact Hw3
      iexact Hb3'
    isplitl [Hg0]; · iexact Hg0
    isplitl [Hg1]; · iexact Hg1
    isplitl [Hg2]; · iexact Hg2
    isplitl [Hg3]; · iexact Hg3
    isplitl [Ht0']; · iexact Ht0'
    isplitl [Ht1']; · iexact Ht1'
    isplitl [Ht2']; · iexact Ht2'
    isplitl [Ht3']; · iexact Ht3'
    isplitl [His']; · iexact His'
    isplitl [Hir']; · iexact Hir'
    isplitl [Hdone]; · iexact Hdone
    isplitl [Hrem]; · iexact Hrem
    iexists _; isplitr
    swap; · iexact HO
    ipureintro
    exact okW_none (okW_none (okW_none (okW_none (okW_some (okW_none (okW_none (okW_none (okW_none (okW_refl W) _) _) _) _) _) _) _) _) _
  -- after the last trip: the last two chunks' write-outs are waited for
  iintro %_ HI
  unfold inv WF
  icases HI with ⟨-, ⟨%F0, %F1, %F2, %F3, Hw0, Hb0, Hw1, Hb1, Hw2, Hb2, Hw3, Hb3⟩, Hg0, Hg1, Hg2, Hg3, Ht0, Ht1, Ht2, Ht3, His, Hir, Hdone, Hrem, %W', %hW', HO⟩
  sl_exec
  sl_step
  -- all 250 chunks are done: the tile's rows hold the gathered array
  have htr : Scf.trips k0_t1_loop.lb k0_t1_loop.ub k0_t1_loop.st = 124 := trips_eq
  rw [htr, chN_eq L (2 * 124) (by omega) 0, chN_eq L (2 * 124) (by omega) 1, chN_eq L (2 * 124 + 1) (by omega) 0, chN_eq L (2 * 124 + 1) (by omega) 1]
  ihave Hdone := (Entails.of_eq (bigSep_doneCh_step (fun p : Fin 250 × Fin 2 => (oLoc d ↦[chunkSet L p.1 p.2]{fullShare} gatherC m d : sProp 𝕄)) 124 (by omega)).symm) $$ [Hdone Hw0_dst Hw1_dst Hw2_dst Hw3_dst]
  · isplitl [Hw0_dst]; · iexact Hw0_dst
    isplitl [Hw1_dst]; · iexact Hw1_dst
    isplitl [Hw2_dst]; · iexact Hw2_dst
    isplitl [Hw3_dst]; · iexact Hw3_dst
    iexact Hdone
  rw [show doneCh (124 + 1) = Finset.univ from doneCh_end]
  ihave Ho := (Entails.of_eq (out_chunks (F := F) d L (gatherC m d)).symm) $$ Hdone
  isplitl [Hn' Hs' Hr' Ho Htd Ht0 Ht1 Ht2 Ht3 Hdrop]
  · isplitl [Hn' Hs' Hr' Ho]
    · isplitl [Hn']; · iapply (Entails.of_eq (pts_n (F := F) d L _ _)); iexact Hn'
      isplitl [Hs']; · iapply (Entails.of_eq (pts_s (F := F) d L _ _)); iexact Hs'
      isplitl [Hr']; · iapply (Entails.of_eq (pts_r (F := F) d L _ _)); iexact Hr'
      iexact Ho
    · unfold shOut
      isplitl [Htd Ht0 Ht1 Ht2 Ht3]
      · iapply (tok4_join (F := F) d L _)
        isplitl [Htd]; · iexact Htd
        isplitl [Ht0]; · iapply (Entails.of_eq (pts_sh (F := F) d L _ _)); iexact Ht0
        isplitl [Ht1]; · iapply (Entails.of_eq (pts_sh (F := F) d L _ _)); iexact Ht1
        isplitl [Ht2]; · iapply (Entails.of_eq (pts_sh (F := F) d L _ _)); iexact Ht2
        iapply (Entails.of_eq (pts_sh (F := F) d L _ _)); iexact Ht3
      · iexact Hdrop
  isplitl [His Hir Hb0 Hb1 Hb2 Hb3 Hbufs]
  · isplitl [His]; · iexists _; iapply (Entails.of_eq (pts_is (F := F) d L _)); iexact His
    isplitl [Hir]; · iexists _; iapply (Entails.of_eq (pts_ir (F := F) d L _)); iexact Hir
    isplitl [Hb0]; · iexists _; iapply (Entails.of_eq (pts_b0 (F := F) d L _)); iexact Hb0
    isplitl [Hb1]; · iexists _; iapply (Entails.of_eq (pts_b1 (F := F) d L _)); iexact Hb1
    isplitl [Hb2]; · iexists _; iapply (Entails.of_eq (pts_b2 (F := F) d L _)); iexact Hb2
    isplitl [Hb3]; · iexists _; iapply (Entails.of_eq (pts_b3 (F := F) d L _)); iexact Hb3
    iexact Hbufs
  isplitl [Hg0 Hg1 Hg2 Hg3 Hw0 Hw1 Hw2 Hw3 Hsem0 Hsem1 Hsem2 Hsem3 Hsems]
  · isplitl [Hg0]; · iexact Hg0
    isplitl [Hg1]; · iexact Hg1
    isplitl [Hg2]; · iexact Hg2
    isplitl [Hg3]; · iexact Hg3
    isplitl [Hw0]; · iexact Hw0
    isplitl [Hw1]; · iexact Hw1
    isplitl [Hw2]; · iexact Hw2
    isplitl [Hw3]; · iexact Hw3
    isplitl [Hsem0]; · iexact Hsem0
    isplitl [Hsem1]; · iexact Hsem1
    isplitl [Hsem2]; · iexact Hsem2
    isplitl [Hsem3]; · iexact Hsem3
    iexact Hsems
  iexists _; isplitr
  swap; · iexact HO
  ipureintro
  exact okW_none (okW_none (okW_none (okW_none hW' _) _) _) _

end Body

/-- One tile's task, whichever tile it is. -/
theorem tile_body (hs : ∀ (d : Dev nD) (e : Fin 320000), ((m (sLoc d) : IVec S320000 32) (ix1 e)).toNat < 10000)
    (hr : ∀ (d : Dev nD) (e : Fin 320000), ((m (rLoc d) : IVec S320000 32) (ix1 e)).toNat < 10000)
    (d : Dev nD) (L : grid0.Coords) (O : CellTallies nD τ sig (HIx 1)) (W : Waits sig (HIx 1)) (hO : ∀ g, O g none = 0)
    (hOlev : ∀ g ι, 0 < O g ι → 8 * (0 : Fin 1).val + 6 ≤ (K (F := F)).lev g ι) :
    iprop(levAts (K (F := F)).L (K (F := F)).lev ∗ bkit m d (cV L) (jV L)
        ∗ (tileArr m d (wid (cV L) (jV L)) (m (oLoc d)) ∗ shIn d (cV L) (jL L))
        ∗ scopedBufs (V d (cV L) (jV L)) ∗ scopedSems0 (V d (cV L) (jV L)) ∗ owes (V d (cV L) (jV L)) (O + oxV d (cV L)) W)
      ⊢ wp frame (wpE (defs₀ (F := F)) 𝒱₀ (V d (cV L) (jV L)) none) Set.univ
          (cc0__gather_body L nV (Memref.isWhole_whole _) sV (Memref.isWhole_whole _) rV (Memref.isWhole_whole _) oV (Memref.isWhole_whole _)
            shV (Memref.isWhole_whole _) isV (Memref.isWhole_whole _) irV (Memref.isWhole_whole _)
            b0V (Memref.isWhole_whole _) b1V (Memref.isWhole_whole _) b2V (Memref.isWhole_whole _) b3V (Memref.isWhole_whole _)
            cc0_scratch7 cc0_scratch8 cc0_scratch9 cc0_scratch10 cc0_scratch11 cc0_scratch12 cc0_scratch13 cc0_scratch14
            cc0_scoped0 cc0_scoped1 cc0_scoped2 cc0_scoped3)
          fun _ => iprop((tileArr m d (wid (cV L) (jV L)) (gatherC m d) ∗ shOut m d (cV L) (jL L))
            ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') := by
  by_cases h15 : (L 1).val = 15
  · exact tile_body_15 m d L facts (hs d) (hr d) h15 O W hO hOlev
  · exact tile_body_lt m d L facts (hs d) (hr d) h15 O W hO hOlev

end Cert.Proof.KI

end
-- ==== Proof.TcRegionValue.lean ====
/-
  The result array of the dense network's pipeline, block by block.

  The output window's block at point t is rows 6400 t … 6400 t + 6399 of the result, and two points' blocks share
  no row; so after the 50 write-backs block t of the result is what point t wrote: the payload of the seven input
  blocks at t. The gathered node rows and the edge features move with the output (block t is rows 6400 t …); the
  weights and biases are staged whole. The seven input arrays are never written.
-/
import proofs.«206088_g82248623718559_cont_9to1c4b_230_21_alg».proof.Proof.TcRegionCall
import Idealize.ShloMosaic.Lib.ValueIdx

set_option maxRecDepth 16384

noncomputable section

namespace Cert.Proof.KI

open Cert.KernelIdeal Cert.KernelIdeal.Gen
open Idealize.ShloMosaic Idealize.ShloMosaic.TcCoe Idealize.ShloMosaic.Tactic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

open Idealize.ShloMosaic.ValueIdx

variable (B : Set (SemLoc sig × HIx 1)) (Vv : (c : Dev nD) → (b : Ref sig .tc) → Buf (Elt F) ((c : Thread nD τ).loc b))

theorem hz2 : (![0, 0] : Fin 2 → Nat) = fun _ => 0 := funext fun a => by fin_cases a <;> rfl

/-- The output block after the body is the payload of the input blocks. -/
theorem out1_7_eq (x0 : Vec F S6400x256 .f32) (x1 : Vec F S6400x16 .f32) (x2 : Vec F S256x544 .bf16) (x3 : Vec F S16x544 .bf16)
    (x4 : Vec F S1x544 .f32) (x5 : Vec F S544x16 .bf16) (x6 : Vec F S1x16 .f32) :
    out1_7 x0 x1 x2 x3 x4 x5 x6 = k1_pay1 x0 x2 x1 x3 x4 x5 x6 := by
  unfold out1_7
  rw [View.canon_unit_zero hz2]
  simp only [View.ld_unit_zero (S := S6400x256) hz2, View.ld_unit_zero (S := S6400x16) hz2, View.ld_unit_zero (S := S256x544) hz2,
    View.ld_unit_zero (S := S16x544) hz2, View.ld_unit_zero (S := S1x544) hz2, View.ld_unit_zero (S := S544x16) hz2,
    View.ld_unit_zero (S := S1x16) hz2]

/-- The seven input arrays are never written. -/
theorem arrAt_in_eq (c : Dev nD) (w : Fin cfg1.W) (hw : (cfg1.win w).isOut = false) (n : Nat) :
    (dats B Vv 0 c).arrAt w n = Vv c (Pipeline.arrRef spec1 w) :=
  ((dats B Vv 0 c).arrAt_in w hw n).trans (A_eq B Vv c w)

/-- Distinct grid points write distinct blocks of the result. -/
theorem idx_inj7 : ∀ t t' : Fin cfg1.N, win1_7.index t = win1_7.index t' → t = t' :=
  (by decide +kernel : ∀ t t' : Fin grid1.N, win1_7.index t = win1_7.index t' → t = t')

theorem disjoint7 : ∀ t t' : Fin cfg1.N, (cfg1.win 7).flush t = true → (cfg1.win 7).flush t' = true → t ≠ t' →
    Disjoint ((cfg1.win 7).blk t).view.set ((cfg1.win 7).blk t').view.set :=
  fun t t' _ _ hne => (cfg1.win 7).disjoint_blk fun h => hne (idx_inj7 t t' h)

/-- Block t of the result, read back through the window, is the payload of the input blocks at t. -/
theorem blocks7 (c : Dev nD) (t : Fin cfg1.N) :
    ((cfg1.win 7).blk t).view.read (Elt F) (Rout B Vv c)
      = k1_pay1 (iblk Vv c 0 t) (iblk Vv c 2 t) (iblk Vv c 1 t) (iblk Vv c 3 t) (iblk Vv c 4 t) (iblk Vv c 5 t) (iblk Vv c 6 t) := by
  unfold Rout
  rw [(dats B Vv 0 c).read_blk_arrAt_eq_flushed 7 disjoint7 cfg1.N t t.isLt (flush1_7 t)]
  show (cfg1.win 7).cut (grid1.coords t) ((dats B Vv 0 c).after 7 t) = _
  rw [after1_7, out1_7_eq]
  rfl

/-- The printed index maps, decided over the grid: the gathered rows, the edge features and the result are at block
    (t, 0); the weights and biases at block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_7.index t (0 : Fin 2) = t.val ∧ win1_7.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0 :=
  (by decide +kernel : ∀ t : Fin grid1.N, _)

/-- Row 6400 t + p is one of the 320000 rows. -/
theorem row_lt (t : Fin cfg1.N) (p : Fin 6400) : 6400 * t.val + p.val < 320000 := by
  have h : t.val < grid1.N := t.isLt
  rw [N_1] at h
  have := p.isLt
  omega

/-- Entry (p, n) of the output window's block at point t is entry (6400 t + p, n) of the result. -/
theorem emb7 (t : Fin cfg1.N) (p : Fin 6400) (n : Fin 16) :
    ((cfg1.win 7).blk t).view.emb (ix2 p n) = ix2 ⟨6400 * t.val + p.val, row_lt t p⟩ n := by
  obtain ⟨_, _, _, _, e0, e1, _⟩ := idx_facts t
  funext a; apply Fin.ext
  match a with
  | ⟨0, _⟩ => show win1_7.index t (0 : Fin 2) * 6400 + 1 * p.val = 6400 * t.val + p.val; omega
  | ⟨1, _⟩ => show win1_7.index t (1 : Fin 2) * 16 + 1 * n.val = n.val; omega

/-- THE RESULT, index by index: entry (6400 t + p, n) is entry (p, n) of the payload of the input blocks at t. -/
theorem Rout_apply (c : Dev nD) (t : Fin cfg1.N) (p : Fin 6400) (n : Fin 16) :
    Rout B Vv c (ix2 ⟨6400 * t.val + p.val, row_lt t p⟩ n)
      = k1_pay1 (iblk Vv c 0 t) (iblk Vv c 2 t) (iblk Vv c 1 t) (iblk Vv c 3 t) (iblk Vv c 4 t) (iblk Vv c 5 t) (iblk Vv c 6 t) (ix2 p n) := by
  rw [← emb7 t p n]
  exact congrFun (blocks7 B Vv c t) (ix2 p n)

/-- Entry (p, k) of the gathered rows' block at point t is entry (6400 t + p, k) of the gathered array. -/
theorem iblk0_apply (c : Dev nD) (t : Fin cfg1.N) (p : Fin 6400) (k : Fin 256) :
    iblk Vv c 0 t (ix2 p k) = Vv c main_v9 (ix2 ⟨6400 * t.val + p.val, row_lt t p⟩ k) := by
  obtain ⟨e0, e1, _⟩ := idx_facts t
  show Vv c main_v9 (((cfg1.win 0).blk t).view.emb (ix2 p k)) = _
  congr 1
  funext a; apply Fin.ext
  match a with
  | ⟨0, _⟩ => show win1_0.index t (0 : Fin 2) * 6400 + 1 * p.val = 6400 * t.val + p.val; omega
  | ⟨1, _⟩ => show win1_0.index t (1 : Fin 2) * 256 + 1 * k.val = k.val; omega

/-- Entry (p, k) of the edge features' block at point t is entry (6400 t + p, k) of the edge features. -/
theorem iblk1_apply (c : Dev nD) (t : Fin cfg1.N) (p : Fin 6400) (k : Fin 16) :
    iblk Vv c 1 t (ix2 p k) = Vv c main_arg1 (ix2 ⟨6400 * t.val + p.val, row_lt t p⟩ k) := by
  obtain ⟨_, _, e0, e1, _⟩ := idx_facts t
  show Vv c main_arg1 (((cfg1.win 1).blk t).view.emb (ix2 p k)) = _
  congr 1
  funext a; apply Fin.ext
  match a with
  | ⟨0, _⟩ => show win1_1.index t (0 : Fin 2) * 6400 + 1 * p.val = 6400 * t.val + p.val; omega
  | ⟨1, _⟩ => show win1_1.index t (1 : Fin 2) * 16 + 1 * k.val = k.val; omega

/-- Window 2's block is its whole array at every point. -/
theorem iblk2_eq (c : Dev nD) (t : Fin cfg1.N) : iblk Vv c 2 t = Vv c main_v2 := by
  obtain ⟨_, _, _, _, _, _, e20, e21, e30, e31, e40, e41, e50, e51, e60, e61⟩ := idx_facts t
  funext j
  show Vv c main_v2 (((cfg1.win 2).blk t).view.emb j) = Vv c main_v2 j
  congr 1
  funext a; apply Fin.ext
  match a with
  | ⟨0, _⟩ => show win1_2.index t (0 : Fin 2) * 256 + 1 * (j 0).val = (j 0).val; omega
  | ⟨1, _⟩ => show win1_2.index t (1 : Fin 2) * 544 + 1 * (j 1).val = (j 1).val; omega

/-- Window 3's block is its whole array at every point. -/
theorem iblk3_eq (c : Dev nD) (t : Fin cfg1.N) : iblk Vv c 3 t = Vv c main_v4 := by
  obtain ⟨_, _, _, _, _, _, e20, e21, e30, e31, e40, e41, e50, e51, e60, e61⟩ := idx_facts t
  funext j
  show Vv c main_v4 (((cfg1.win 3).blk t).view.emb j) = Vv c main_v4 j
  congr 1
  funext a; apply Fin.ext
  match a with
  | ⟨0, _⟩ => show win1_3.index t (0 : Fin 2) * 16 + 1 * (j 0).val = (j 0).val; omega
  | ⟨1, _⟩ => show win1_3.index t (1 : Fin 2) * 544 + 1 * (j 1).val = (j 1).val; omega

/-- Window 4's block is its whole array at every point. -/
theorem iblk4_eq (c : Dev nD) (t : Fin cfg1.N) : iblk Vv c 4 t = Vv c main_v5 := by
  obtain ⟨_, _, _, _, _, _, e20, e21, e30, e31, e40, e41, e50, e51, e60, e61⟩ := idx_facts t
  funext j
  show Vv c main_v5 (((cfg1.win 4).blk t).view.emb j) = Vv c main_v5 j
  congr 1
  funext a; apply Fin.ext
  match a with
  | ⟨0, _⟩ => show win1_4.index t (0 : Fin 2) * 1 + 1 * (j 0).val = (j 0).val; omega
  | ⟨1, _⟩ => show win1_4.index t (1 : Fin 2) * 544 + 1 * (j 1).val = (j 1).val; omega

/-- Window 5's block is its whole array at every point. -/
theorem iblk5_eq (c : Dev nD) (t : Fin cfg1.N) : iblk Vv c 5 t = Vv c main_v7 := by
  obtain ⟨_, _, _, _, _, _, e20, e21, e30, e31, e40, e41, e50, e51, e60, e61⟩ := idx_facts t
  funext j
  show Vv c main_v7 (((cfg1.win 5).blk t).view.emb j) = Vv c main_v7 j
  congr 1
  funext a; apply Fin.ext
  match a with
  | ⟨0, _⟩ => show win1_5.index t (0 : Fin 2) * 544 + 1 * (j 0).val = (j 0).val; omega
  | ⟨1, _⟩ => show win1_5.index t (1 : Fin 2) * 16 + 1 * (j 1).val = (j 1).val; omega

/-- Window 6's block is its whole array at every point. -/
theorem iblk6_eq (c : Dev nD) (t : Fin cfg1.N) : iblk Vv c 6 t = Vv c main_v8 := by
  obtain ⟨_, _, _, _, _, _, e20, e21, e30, e31, e40, e41, e50, e51, e60, e61⟩ := idx_facts t
  funext j
  show Vv c main_v8 (((cfg1.win 6).blk t).view.emb j) = Vv c main_v8 j
  congr 1
  funext a; apply Fin.ext
  match a with
  | ⟨0, _⟩ => show win1_6.index t (0 : Fin 2) * 1 + 1 * (j 0).val = (j 0).val; omega
  | ⟨1, _⟩ => show win1_6.index t (1 : Fin 2) * 16 + 1 * (j 1).val = (j 1).val; omega

end Cert.Proof.KI

end
-- ==== Proof.LibMatmul.lean ====
/-
  A plain matrix product read at an index, over the extended reals.

  For l : [A, K] and r : [K, B], contracted over the one shared axis with no batch axes, entry (a, b) of the
  product is the sum over k of l(a, k) · r(k, b) — for the host's dot product and for the kernel's matrix
  product into a zero accumulator alike. Generic in A, K, B.
-/
import Idealize.ShloMosaic.Lib.ValueIdx
import Idealize.ShloMosaic.PureOps.Ideal.Laws

noncomputable section

open scoped BigOperators

namespace Idealize.ShloMosaic.MatmulIdx

open Idealize.ShloMosaic Idealize.ShloMosaic.ValueIdx

/-- The dimension numbers of l @ r for l : [A, K], r : [K, B]: contract axis 1 of l with axis 0 of r. -/
abbrev mmDims (A K B : Nat)
    (wf : DotDims.WF ⟨2, ![A, K]⟩ ⟨2, ![K, B]⟩ ⟨2, ![A, B]⟩ [1] [0] [0] [1] [] []) :
    DotDims ⟨2, ![A, K]⟩ ⟨2, ![K, B]⟩ ⟨2, ![A, B]⟩ where
  lhsContracting := [1]
  rhsContracting := [0]
  lhsNonContracting := [0]
  rhsNonContracting := [1]
  lhsBatch := []
  rhsBatch := []
  wf := wf

variable {A K B : Nat} (wf : DotDims.WF ⟨2, ![A, K]⟩ ⟨2, ![K, B]⟩ ⟨2, ![A, B]⟩ [1] [0] [0] [1] [] [])

theorem lhs_row (j : (⟨2, ![A, B]⟩ : Shape).Idx) (q : (mmDims A K B wf).contr.Idx) :
    ((mmDims A K B wf).lhsIdx j q 0).val = (j 0).val := by
  unfold DotDims.lhsIdx
  rw [dif_neg (show ¬(0 : Fin (⟨2, ![A, K]⟩ : Shape).rank) ∈ (mmDims A K B wf).lhsBatch from List.not_mem_nil),
    dif_pos (show (0 : Fin (⟨2, ![A, K]⟩ : Shape).rank) ∈ (mmDims A K B wf).lhsNonContracting from List.mem_singleton.mpr rfl)]
  rfl

theorem lhs_contr (j : (⟨2, ![A, B]⟩ : Shape).Idx) (q : (mmDims A K B wf).contr.Idx) :
    ((mmDims A K B wf).lhsIdx j q 1).val = (q ⟨0, (Nat.zero_lt_one : 0 < (mmDims A K B wf).contr.rank)⟩).val :=
  (mmDims A K B wf).lhsIdx_val_of_single rfl j q

theorem rhs_contr (j : (⟨2, ![A, B]⟩ : Shape).Idx) (q : (mmDims A K B wf).contr.Idx) :
    ((mmDims A K B wf).rhsIdx j q 0).val = (q ⟨0, (Nat.zero_lt_one : 0 < (mmDims A K B wf).contr.rank)⟩).val :=
  (mmDims A K B wf).rhsIdx_val_of_single rfl j q

theorem rhs_col (j : (⟨2, ![A, B]⟩ : Shape).Idx) (q : (mmDims A K B wf).contr.Idx) :
    ((mmDims A K B wf).rhsIdx j q 1).val = (j 1).val := by
  unfold DotDims.rhsIdx
  rw [dif_neg (show ¬(1 : Fin (⟨2, ![K, B]⟩ : Shape).rank) ∈ (mmDims A K B wf).rhsBatch from List.not_mem_nil),
    dif_pos (show (1 : Fin (⟨2, ![K, B]⟩ : Shape).rank) ∈ (mmDims A K B wf).rhsNonContracting from List.mem_singleton.mpr rfl)]
  rfl

/-- The contraction's index set is the K positions of the shared axis: the sum over it is the sum over k. -/
theorem contr_sum (l : (⟨2, ![A, K]⟩ : Shape).Idx → EReal) (r : (⟨2, ![K, B]⟩ : Shape).Idx → EReal) (a : Fin A) (b : Fin B) :
    ∑ q : (mmDims A K B wf).contr.Idx, l ((mmDims A K B wf).lhsIdx (ix2 a b) q) * r ((mmDims A K B wf).rhsIdx (ix2 a b) q)
      = ∑ k : Fin K, l (ix2 a k) * r (ix2 k b) := by
  rw [← Equiv.sum_comp (contrEquiv1 (mmDims A K B wf) K rfl rfl).symm]
  refine Finset.sum_congr rfl fun k _ => ?_
  have hk := contrEquiv1_symm_val (mmDims A K B wf) K rfl rfl k
  have el : (mmDims A K B wf).lhsIdx (ix2 a b) ((contrEquiv1 (mmDims A K B wf) K rfl rfl).symm k) = ix2 a k :=
    funext fun x => Fin.ext (by
      match x with
      | ⟨0, _⟩ => exact lhs_row wf _ _
      | ⟨1, _⟩ => exact (lhs_contr wf _ _).trans hk)
  have er : (mmDims A K B wf).rhsIdx (ix2 a b) ((contrEquiv1 (mmDims A K B wf) K rfl rfl).symm k) = ix2 k b :=
    funext fun x => Fin.ext (by
      match x with
      | ⟨0, _⟩ => exact (rhs_contr wf _ _).trans hk
      | ⟨1, _⟩ => exact rhs_col wf _ _)
  rw [el, er]

/-- The host's dot product at (a, b). -/
theorem dotGeneral_ix2 {φ₁ φ₂ : FTy} (prec : Option ContractPrecision) (sched : HostSchedule)
    (l : FVec Ideal ⟨2, ![A, K]⟩ φ₁) (r : FVec Ideal ⟨2, ![K, B]⟩ φ₂) (a : Fin A) (b : Fin B) :
    FloatOps.dotGeneral (mmDims A K B wf) prec sched l r (ix2 a b) = ∑ k : Fin K, l (ix2 a k) * r (ix2 k b) :=
  (Ideal.dotGeneral_apply _ prec sched l r _).trans (contr_sum wf l r a b)

/-- The kernel's matrix product into a zero accumulator at (a, b). -/
theorem matmul_zero_ix2 {φ₁ φ₂ : FTy} (prec : Option ContractPrecision)
    (l : FVec Ideal ⟨2, ![A, K]⟩ φ₁) (r : FVec Ideal ⟨2, ![K, B]⟩ φ₂) (a : Fin A) (b : Fin B) :
    FloatOps.matmul (mmDims A K B wf) prec l r (constant ⟨2, ![A, B]⟩ .f32 0x00000000#32) (ix2 a b)
      = ∑ k : Fin K, l (ix2 a k) * r (ix2 k b) :=
  (Ideal.matmul_constant_zero_apply _ prec l r _).trans (contr_sum wf l r a b)

end Idealize.ShloMosaic.MatmulIdx

end
-- ==== Proof.MlpPayload.lean ====
/-
  The dense two-layer network of the edge update, read at one entry of a block.

  For one block of 6400 edges the body forms, from the gathered node rows g : [6400, 256], the edge features
  e : [6400, 16], the two pieces A : [256, 544], C : [16, 544] of the first weight matrix, the bias rows
  b₁ : [1, 544], b₂ : [1, 16] and the second weight matrix B : [544, 16],

      x = g · A + e · C + b₁,   h = ½ · tanh(½ · x) + ½,   y = h · B + b₂.

  Over the extended reals every change of float format is the identity and every product is exact, so entry
  (p, n) of y is the double sum written out below: a sum over the 544 hidden units of the activation of a sum
  over 256 + 16 input features.
-/
import proofs.«206088_g82248623718559_cont_9to1c4b_230_21_alg».proof.Proof.Gen.KernelIdeal.Skeleton
import proofs.«206088_g82248623718559_cont_9to1c4b_230_21_alg».proof.Proof.LibMatmul
import Idealize.ShloMosaic.Lib.ValueLayout

noncomputable section

open scoped BigOperators

namespace Cert.MlpPayload

open Idealize.ShloMosaic Idealize.ShloMosaic.ValueIdx Cert.KernelIdeal Cert.KernelIdeal.Gen

/-- The float literal 0.5, kept as its word. -/
abbrev half : EReal := Ideal.ofBits .f32 0x3F000000#32

/-- Entry (p, j) of g · A: a sum over the 256 gathered features. -/
theorem mm1 (l : FVec Ideal S6400x256 .bf16) (r : FVec Ideal S256x544 .bf16) (p : Fin 6400) (j : Fin 544) :
    matmul dot_S6400x256_S256x544_S6400x544_1_0_0_1_n_n none l r (constant S6400x544 .f32 0x00000000#32) (ix2 p j)
      = ∑ k : Fin 256, l (ix2 p k) * r (ix2 k j) :=
  MatmulIdx.matmul_zero_ix2 (A := 6400) (K := 256) (B := 544) dot_S6400x256_S256x544_S6400x544_1_0_0_1_n_n_wf none l r p j

/-- Entry (p, j) of e · C: a sum over the 16 edge features. -/
theorem mm2 (l : FVec Ideal S6400x16 .bf16) (r : FVec Ideal S16x544 .bf16) (p : Fin 6400) (j : Fin 544) :
    matmul dot_S6400x16_S16x544_S6400x544_1_0_0_1_n_n none l r (constant S6400x544 .f32 0x00000000#32) (ix2 p j)
      = ∑ k : Fin 16, l (ix2 p k) * r (ix2 k j) :=
  MatmulIdx.matmul_zero_ix2 (A := 6400) (K := 16) (B := 544) dot_S6400x16_S16x544_S6400x544_1_0_0_1_n_n_wf none l r p j

/-- Entry (p, n) of h · B: a sum over the 544 hidden units. -/
theorem mm3 (l : FVec Ideal S6400x544 .bf16) (r : FVec Ideal S544x16 .bf16) (p : Fin 6400) (n : Fin 16) :
    matmul dot_S6400x544_S544x16_S6400x16_1_0_0_1_n_n none l r (constant S6400x16 .f32 0x00000000#32) (ix2 p n)
      = ∑ j : Fin 544, l (ix2 p j) * r (ix2 j n) :=
  MatmulIdx.matmul_zero_ix2 (A := 6400) (K := 544) (B := 16) dot_S6400x544_S544x16_S6400x16_1_0_0_1_n_n_wf none l r p n

/-- The hyperbolic tangent of an array, at an index. -/
theorem tanh_apply {s : Shape} {φ : FTy} (a : FVec Ideal s φ) (i : s.Idx) :
    Idealize.ShloMosaic.tanh a i = Ideal.tanh (a i) := rfl

/-- The block's result at (p, n): y(p, n) = Σ_j (½ · tanh(½ · (Σ_k g(p,k)·A(k,j) + Σ_k e(p,k)·C(k,j) + b₁(j))) + ½) · B(j,n) + b₂(n). -/
theorem pay_apply (v0 : Vec Ideal S6400x256 .f32) (v3 : Vec Ideal S256x544 .bf16) (v6 : Vec Ideal S6400x16 .f32)
    (v8 : Vec Ideal S16x544 .bf16) (v12 : Vec Ideal S1x544 .f32) (v24 : Vec Ideal S544x16 .bf16) (v27 : Vec Ideal S1x16 .f32)
    (p : Fin 6400) (n : Fin 16) :
    Cert.KernelIdeal.Gen.k1_pay1 (F := Ideal) v0 v3 v6 v8 v12 v24 v27 (ix2 p n)
      = (∑ j : Fin 544,
          (half * Ideal.tanh (half * (((∑ k : Fin 256, v0 (ix2 p k) * v3 (ix2 k j))
              + (∑ k : Fin 16, v6 (ix2 p k) * v8 (ix2 k j))) + v12 (ix2 0 j))) + half) * v24 (ix2 j n))
        + v27 (ix2 0 n) := by
  unfold Cert.KernelIdeal.Gen.k1_pay1
  simp only [shapeCast_self]
  rw [addf_apply, mm3, broadcastTo_1b_ab_apply]
  refine congrArg₂ (· + ·) (Finset.sum_congr rfl fun j _ => congrArg (· * v24 (ix2 j n)) ?_) rfl
  rw [truncf_apply, addf_apply, mulf_apply, broadcast_apply]
  rw [tanh_apply, mulf_apply, broadcast_apply, addf_apply, addf_apply, mm1, mm2, broadcastTo_1b_ab_apply]
  rfl

end Cert.MlpPayload

end
-- ==== Proof.Spec.lean ====
/-
  The function both programs compute, stated index by index over the argument arrays.

  For edge e the input row has 272 features: the 128 entries of the sender's node row, the 128 entries of the
  receiver's node row, and the edge's own 16 features. The first layer is the affine map with weights W1 (one row
  of 272 weights per hidden unit) and bias b1, followed by the logistic function 1 / (1 + exp (-x)); the second
  layer is the affine map with weights W2 and bias b2. A row number is the integer read signed and clamped into
  the table's rows; for integers already between 0 and 9999 that is the integer itself.
-/
import Idealize.ShloMosaic.Lib.ValueIdx
import Idealize.ShloMosaic.PureOps.Ideal

noncomputable section

open scoped BigOperators

namespace Cert.Spec

open Idealize.ShloMosaic Idealize.ShloMosaic.ValueIdx

/-- A rank-2 array of extended reals. -/
abbrev A2 (a b : Nat) : Type := (⟨2, ![a, b]⟩ : Shape).Idx → EReal
/-- A rank-1 array of extended reals. -/
abbrev A1 (a : Nat) : Type := (⟨1, ![a]⟩ : Shape).Idx → EReal
/-- A rank-1 array of 32-bit integers. -/
abbrev I1 (a : Nat) : Type := (⟨1, ![a]⟩ : Shape).Idx → BitVec 32

/-- The node row an integer names: read signed and clamped into the 10000 rows. -/
def rowOf (w : BitVec 32) : Fin 10000 := ⟨min w.toInt.toNat 9999, by omega⟩

/-- For an integer between 0 and 9999 the row is the integer read unsigned. -/
theorem rowOf_val_of_lt {w : BitVec 32} (h : w.toNat < 10000) : (rowOf w).val = w.toNat := by
  have hi : w.toInt = (w.toNat : Int) := by
    rw [BitVec.toInt_eq_toNat_cond]; split
    · rfl
    · omega
  show min w.toInt.toNat 9999 = w.toNat
  rw [hi, Int.toNat_natCast]; omega

/-- Feature k of edge e: the sender's node row, then the receiver's node row, then the edge's own features. -/
def feat (nodes : A2 10000 128) (edges : A2 320000 16) (snd rcv : I1 320000) (e : Fin 320000) (k : Fin 272) : EReal :=
  if h : k.val < 128 then nodes (ix2 (rowOf (snd (ix1 e))) ⟨k.val, h⟩)
  else if h2 : k.val < 256 then nodes (ix2 (rowOf (rcv (ix1 e))) ⟨k.val - 128, by omega⟩)
  else edges (ix2 e ⟨k.val - 256, by omega⟩)

/-- Hidden unit j of edge e before the activation: the weighted sum of the 272 features plus the bias. -/
def lin1 (nodes : A2 10000 128) (edges : A2 320000 16) (W1 : A2 544 272) (b1 : A1 544) (snd rcv : I1 320000)
    (e : Fin 320000) (j : Fin 544) : EReal :=
  (∑ k : Fin 272, feat nodes edges snd rcv e k * W1 (ix2 j k)) + b1 (ix1 j)

/-- Hidden unit j of edge e: the logistic function of the first layer. -/
def hid (nodes : A2 10000 128) (edges : A2 320000 16) (W1 : A2 544 272) (b1 : A1 544) (snd rcv : I1 320000)
    (e : Fin 320000) (j : Fin 544) : EReal :=
  Ideal.div 1 (1 + Ideal.exp (-(lin1 nodes edges W1 b1 snd rcv e j)))

/-- Output n of edge e: the weighted sum of the 544 hidden units plus the bias. -/
def out (nodes : A2 10000 128) (edges : A2 320000 16) (W1 : A2 544 272) (b1 : A1 544) (W2 : A2 16 544) (b2 : A1 16)
    (snd rcv : I1 320000) (e : Fin 320000) (n : Fin 16) : EReal :=
  (∑ j : Fin 544, hid nodes edges W1 b1 snd rcv e j * W2 (ix2 n j)) + b2 (ix1 n)

/-- The result array. -/
def G (nodes : A2 10000 128) (edges : A2 320000 16) (W1 : A2 544 272) (b1 : A1 544) (W2 : A2 16 544) (b2 : A1 16)
    (snd rcv : I1 320000) : A2 320000 16 :=
  fun i => out nodes edges W1 b1 W2 b2 snd rcv (i 0) (i 1)

theorem G_ix2 (nodes : A2 10000 128) (edges : A2 320000 16) (W1 : A2 544 272) (b1 : A1 544) (W2 : A2 16 544) (b2 : A1 16)
    (snd rcv : I1 320000) (e : Fin 320000) (n : Fin 16) :
    G nodes edges W1 b1 W2 b2 snd rcv (ix2 e n) = out nodes edges W1 b1 W2 b2 snd rcv e n := rfl

end Cert.Spec

end
-- ==== Proof.MlpAlgebra.lean ====
/-
  The law that joins the two programs' arithmetic, over the extended reals for real data.

  One program computes the logistic function as 1 / (1 + exp (-x)), the other as (1/2) tanh (x/2) + 1/2; for a
  real x the two are equal, since tanh y = (exp y - exp (-y)) / (exp y + exp (-y)) and so, with a = exp (x/2),
  (1/2) (a - 1/a) / (a + 1/a) + 1/2 = a / (a + 1/a) = 1 / (1 + 1/a^2) = 1 / (1 + exp (-x)).

  One program forms the 272-term weighted sum of an edge's features at once, the other as the sum over the first
  256 features (the two gathered node rows) plus the sum over the last 16 (the edge's own features); a finite sum
  splits so whatever its terms are. Only the logistic law needs its argument to be a real number, and the first
  layer's value is one when the node features, edge features, weights and biases are.
-/
import proofs.«206088_g82248623718559_cont_9to1c4b_230_21_alg».proof.Proof.Spec
import proofs.«206088_g82248623718559_cont_9to1c4b_230_21_alg».proof.Proof.LibIdealReal
import Mathlib.Analysis.SpecialFunctions.Trigonometric.DerivHyp

noncomputable section

open scoped BigOperators

namespace Cert.MlpAlgebra

open Idealize.ShloMosaic Idealize.ShloMosaic.ValueIdx
open Cert.LibIdealReal (IsReal)
open Cert.Spec

/-- The constant one half as the program writes it. -/
def half : EReal := Ideal.ofBits .f32 0x3F000000#32

/-- The f32 pattern 0x3F000000 is the real one half. -/
theorem half_eq : half = (((1 : ℝ) / 2 : ℝ) : EReal) := by
  unfold half
  simp [Ideal.ofBits, Ideal.ieee, -EReal.coe_mul]; norm_num

/-- The logistic function of a real number in its two forms. -/
theorem real_logistic (x : ℝ) :
    ((1 : ℝ) / 2) * Real.tanh (((1 : ℝ) / 2) * x) + (1 : ℝ) / 2 = 1 / (1 + Real.exp (-x)) := by
  have ha : 0 < Real.exp (((1 : ℝ) / 2) * x) := Real.exp_pos _
  have e1 : Real.exp (-(((1 : ℝ) / 2) * x)) = (Real.exp (((1 : ℝ) / 2) * x))⁻¹ := Real.exp_neg _
  have e2 : Real.exp (-x) = (Real.exp (((1 : ℝ) / 2) * x))⁻¹ * (Real.exp (((1 : ℝ) / 2) * x))⁻¹ := by
    rw [← e1, ← Real.exp_add]; congr 1; ring
  rw [Real.tanh_eq_sinh_div_cosh, Real.sinh_eq, Real.cosh_eq, e1, e2]
  generalize Real.exp (((1 : ℝ) / 2) * x) = a at ha
  have hne : a ≠ 0 := ha.ne'
  field_simp
  ring

/-- The two forms of the logistic function agree on a real number, in the exact extended-real arithmetic. -/
theorem logistic_coe (x : ℝ) :
    half * Ideal.tanh (half * (x : EReal)) + half = Ideal.div 1 (1 + Ideal.exp (-(x : EReal))) := by
  have hpos : (1 : ℝ) + Real.exp (-x) ≠ 0 := (add_pos one_pos (Real.exp_pos _)).ne'
  rw [half_eq, ← EReal.coe_mul, Ideal.tanh_coe, ← EReal.coe_mul, ← EReal.coe_add, ← EReal.coe_neg, Ideal.exp_coe,
    ← EReal.coe_one, ← EReal.coe_add, Cert.LibIdealReal.div_coe_coe _ hpos, real_logistic]

/-- The same for an extended real that is a real number. -/
theorem logistic_of_isReal {x : EReal} (hx : IsReal x) :
    half * Ideal.tanh (half * x) + half = Ideal.div 1 (1 + Ideal.exp (-x)) := by
  obtain ⟨r, rfl⟩ := hx; exact logistic_coe r

/-- A sum of 272 terms is the sum of the first 256 plus the sum of the last 16. -/
theorem sum_split (f : Fin 272 → EReal) :
    ∑ k : Fin 272, f k = (∑ k : Fin 256, f (Fin.castLE (by omega) k)) + ∑ k : Fin 16, f ⟨256 + k.val, by omega⟩ :=
  Fin.sum_univ_add (a := 256) (b := 16) f

section Arrays

variable (nodes : A2 10000 128) (edges : A2 320000 16) (W1 : A2 544 272) (b1 : A1 544) (W2 : A2 16 544) (b2 : A1 16)
  (snd rcv : I1 320000)

/-- The 256 gathered features of edge e: the sender's node row, then the receiver's node row. -/
def gath (e : Fin 320000) (k : Fin 256) : EReal := feat nodes edges snd rcv e (Fin.castLE (by omega) k)

/-- A gathered feature by cases: below 128 the sender's row, from 128 on the receiver's row. -/
theorem gath_eq (e : Fin 320000) (k : Fin 256) :
    gath nodes edges snd rcv e k
      = if h : k.val < 128 then nodes (ix2 (rowOf (snd (ix1 e))) ⟨k.val, h⟩)
        else nodes (ix2 (rowOf (rcv (ix1 e))) ⟨k.val - 128, by omega⟩) := by
  unfold gath feat
  by_cases h : k.val < 128
  · rw [dif_pos (show (Fin.castLE (by omega : 256 ≤ 272) k).val < 128 from h), dif_pos h]
    rfl
  · rw [dif_neg (show ¬ (Fin.castLE (by omega : 256 ≤ 272) k).val < 128 from h),
      dif_pos (show (Fin.castLE (by omega : 256 ≤ 272) k).val < 256 from k.isLt), dif_neg h]
    rfl

/-- The last 16 features of edge e are the edge's own. -/
theorem feat_hi (e : Fin 320000) (k : Fin 16) : feat nodes edges snd rcv e ⟨256 + k.val, by omega⟩ = edges (ix2 e k) := by
  unfold feat
  rw [dif_neg (show ¬ (256 + k.val < 128) by omega), dif_neg (show ¬ (256 + k.val < 256) by omega)]
  exact congrArg (fun q => edges (ix2 e q)) (Fin.ext (show 256 + k.val - 256 = k.val by omega))

/-- Every feature is a real number when the node and edge features are. -/
theorem feat_isReal (hn : ∀ i, IsReal (nodes i)) (he : ∀ i, IsReal (edges i)) (e : Fin 320000) (k : Fin 272) :
    IsReal (feat nodes edges snd rcv e k) := by
  unfold feat
  split
  · exact hn _
  · split
    · exact hn _
    · exact he _

/-- The first layer's value before the activation is a real number when its data are. -/
theorem lin1_isReal (hn : ∀ i, IsReal (nodes i)) (he : ∀ i, IsReal (edges i)) (hW1 : ∀ i, IsReal (W1 i))
    (hb1 : ∀ i, IsReal (b1 i)) (e : Fin 320000) (j : Fin 544) : IsReal (lin1 nodes edges W1 b1 snd rcv e j) := by
  unfold lin1
  exact (IsReal.sum _ _ fun k _ => (feat_isReal nodes edges snd rcv hn he e k).mul (hW1 _)).add (hb1 _)

/-- The first layer's weighted sum split at feature 256: the gathered part plus the edge part, then the bias. -/
theorem lin1_split (e : Fin 320000) (j : Fin 544) :
    lin1 nodes edges W1 b1 snd rcv e j
      = ((∑ k : Fin 256, gath nodes edges snd rcv e k * W1 (ix2 j (Fin.castLE (by omega) k)))
          + (∑ k : Fin 16, edges (ix2 e k) * W1 (ix2 j ⟨256 + k.val, by omega⟩))) + b1 (ix1 j) := by
  unfold lin1 gath
  rw [sum_split (fun k => feat nodes edges snd rcv e k * W1 (ix2 j k))]
  simp only [feat_hi]

/-- One output entry in the arrangement of the second program: the split first-layer sum, the bias added after,
    the logistic function as (1/2) tanh (x/2) + 1/2. -/
theorem out_eq_kernel_form (hn : ∀ i, IsReal (nodes i)) (he : ∀ i, IsReal (edges i)) (hW1 : ∀ i, IsReal (W1 i))
    (hb1 : ∀ i, IsReal (b1 i)) (e : Fin 320000) (n : Fin 16) :
    out nodes edges W1 b1 W2 b2 snd rcv e n
      = (∑ j : Fin 544,
          (half * Ideal.tanh (half *
              (((∑ k : Fin 256, gath nodes edges snd rcv e k * W1 (ix2 j (Fin.castLE (by omega) k)))
                + (∑ k : Fin 16, edges (ix2 e k) * W1 (ix2 j ⟨256 + k.val, by omega⟩))) + b1 (ix1 j))) + half)
            * W2 (ix2 n j)) + b2 (ix1 n) := by
  unfold out hid
  refine congrArg (· + b2 (ix1 n)) (Finset.sum_congr rfl fun j _ => ?_)
  rw [← lin1_split nodes edges W1 b1 snd rcv e j,
    logistic_of_isReal (lin1_isReal nodes edges W1 b1 snd rcv hn he hW1 hb1 e j)]

end Arrays

end Cert.MlpAlgebra

end
-- ==== Proof.MlpJoin.lean ====
/-
  One entry of a block's result is the specified output of its edge.

  When the block's seven inputs are, entry by entry, the edge's 256 gathered node features, its 16 own features,
  the two pieces of the transposed first weight matrix (rows 0–255 and rows 256–271), the first bias, the
  transposed second weight matrix and the second bias, the double sum the block computes is the specified
  output in its split arrangement; for real data that is the specified output itself.
-/
import proofs.«206088_g82248623718559_cont_9to1c4b_230_21_alg».proof.Proof.MlpPayload
import proofs.«206088_g82248623718559_cont_9to1c4b_230_21_alg».proof.Proof.MlpAlgebra

noncomputable section

open scoped BigOperators

namespace Cert.MlpJoin

open Idealize.ShloMosaic Idealize.ShloMosaic.ValueIdx Cert.KernelIdeal Cert.KernelIdeal.Gen
open Cert.LibIdealReal (IsReal)
open Cert.Spec

/-- Entry (p, n) of the block holding edge e is output n of edge e. -/
theorem pay_eq_out (nodes : A2 10000 128) (edges : A2 320000 16) (W1 : A2 544 272) (b1 : A1 544) (W2 : A2 16 544)
    (b2 : A1 16) (snd rcv : I1 320000)
    (hn : ∀ i, IsReal (nodes i)) (he : ∀ i, IsReal (edges i)) (hW1 : ∀ i, IsReal (W1 i)) (hb1 : ∀ i, IsReal (b1 i))
    (v0 : Vec Ideal S6400x256 .f32) (v3 : Vec Ideal S256x544 .bf16) (v6 : Vec Ideal S6400x16 .f32)
    (v8 : Vec Ideal S16x544 .bf16) (v12 : Vec Ideal S1x544 .f32) (v24 : Vec Ideal S544x16 .bf16) (v27 : Vec Ideal S1x16 .f32)
    (e : Fin 320000) (p : Fin 6400)
    (h0 : ∀ k : Fin 256, v0 (ix2 p k) = Cert.MlpAlgebra.gath nodes edges snd rcv e k)
    (h3 : ∀ (k : Fin 256) (j : Fin 544), v3 (ix2 k j) = W1 (ix2 j (Fin.castLE (by omega) k)))
    (h6 : ∀ k : Fin 16, v6 (ix2 p k) = edges (ix2 e k))
    (h8 : ∀ (k : Fin 16) (j : Fin 544), v8 (ix2 k j) = W1 (ix2 j ⟨256 + k.val, by omega⟩))
    (h12 : ∀ j : Fin 544, v12 (ix2 (0 : Fin 1) j) = b1 (ix1 j))
    (h24 : ∀ (j : Fin 544) (n : Fin 16), v24 (ix2 j n) = W2 (ix2 n j))
    (h27 : ∀ n : Fin 16, v27 (ix2 (0 : Fin 1) n) = b2 (ix1 n))
    (n : Fin 16) :
    Cert.KernelIdeal.Gen.k1_pay1 (F := Ideal) v0 v3 v6 v8 v12 v24 v27 (ix2 p n)
      = out nodes edges W1 b1 W2 b2 snd rcv e n := by
  rw [Cert.MlpPayload.pay_apply,
    Cert.MlpAlgebra.out_eq_kernel_form nodes edges W1 b1 W2 b2 snd rcv hn he hW1 hb1 e n, h27 n]
  refine congrArg (· + b2 (ix1 n)) (Finset.sum_congr rfl fun j _ => ?_)
  rw [h24 j n, h12 j, Finset.sum_congr rfl (fun k _ => by rw [h0 k, h3 k j] :
        ∀ k ∈ (Finset.univ : Finset (Fin 256)), v0 (ix2 p k) * v3 (ix2 k j)
          = Cert.MlpAlgebra.gath nodes edges snd rcv e k * W1 (ix2 j (Fin.castLE (by omega) k))),
    Finset.sum_congr rfl (fun k _ => by rw [h6 k, h8 k j] :
        ∀ k ∈ (Finset.univ : Finset (Fin 16)), v6 (ix2 p k) * v8 (ix2 k j)
          = edges (ix2 e k) * W1 (ix2 j ⟨256 + k.val, by omega⟩))]
  rfl

end Cert.MlpJoin

end
-- ==== Proof.TcRegionJoin.lean ====
/-
  The result array of the dense network's pipeline is the specified output, for real data.

  Every row e of the 320000 is row p = e mod 6400 of block t = e div 6400. Entry (e, n) of the result is entry
  (p, n) of the payload of the input blocks at t; when the gathered array holds, row by row, each edge's 256
  gathered node features, and the staged weights and biases are the two pieces of the transposed first weight
  matrix, the first bias, the transposed second weight matrix and the second bias, that entry is output n of
  edge e.
-/
import proofs.«206088_g82248623718559_cont_9to1c4b_230_21_alg».proof.Proof.TcRegionValue
import proofs.«206088_g82248623718559_cont_9to1c4b_230_21_alg».proof.Proof.MlpJoin

noncomputable section

namespace Cert.Proof.KI

open Cert.KernelIdeal Cert.KernelIdeal.Gen
open Idealize.ShloMosaic Idealize.ShloMosaic.TcCoe Idealize.ShloMosaic.ValueIdx
open Idealize.ShloMosaic.SparseCore.Cfg (HIx)
open Cert.LibIdealReal (IsReal)
open Cert.Spec

variable (B : Set (SemLoc sig × HIx 1)) (Vv : (c : Dev nD) → (b : Ref sig .tc) → Buf (Elt Ideal) ((c : Thread nD τ).loc b))
variable (nodes : A2 10000 128) (edges : A2 320000 16) (W1 : A2 544 272) (b1 : A1 544) (W2 : A2 16 544) (b2 : A1 16) (snd rcv : I1 320000)

/-- Entry (6400 t + p, n) of the result is output n of edge 6400 t + p. -/
theorem Rout_block_eq_out (c : Dev nD)
    (hn : ∀ i, IsReal (nodes i)) (he : ∀ i, IsReal (edges i)) (hW1 : ∀ i, IsReal (W1 i)) (hb1 : ∀ i, IsReal (b1 i))
    (h9 : ∀ (e : Fin 320000) (k : Fin 256), Vv c main_v9 (ix2 e k) = Cert.MlpAlgebra.gath nodes edges snd rcv e k)
    (h1 : ∀ (e : Fin 320000) (k : Fin 16), Vv c main_arg1 (ix2 e k) = edges (ix2 e k))
    (h2 : ∀ (k : Fin 256) (j : Fin 544), Vv c main_v2 (ix2 k j) = W1 (ix2 j (Fin.castLE (by omega) k)))
    (h4 : ∀ (k : Fin 16) (j : Fin 544), Vv c main_v4 (ix2 k j) = W1 (ix2 j ⟨256 + k.val, by omega⟩))
    (h5 : ∀ j : Fin 544, Vv c main_v5 (ix2 (0 : Fin 1) j) = b1 (ix1 j))
    (h7 : ∀ (j : Fin 544) (n : Fin 16), Vv c main_v7 (ix2 j n) = W2 (ix2 n j))
    (h8 : ∀ n : Fin 16, Vv c main_v8 (ix2 (0 : Fin 1) n) = b2 (ix1 n))
    (t : Fin cfg1.N) (p : Fin 6400) (n : Fin 16) :
    Rout B Vv c (ix2 ⟨6400 * t.val + p.val, row_lt t p⟩ n)
      = out nodes edges W1 b1 W2 b2 snd rcv ⟨6400 * t.val + p.val, row_lt t p⟩ n := by
  rw [Rout_apply]
  exact Cert.MlpJoin.pay_eq_out nodes edges W1 b1 W2 b2 snd rcv hn he hW1 hb1 _ _ _ _ _ _ _ ⟨6400 * t.val + p.val, row_lt t p⟩ p
    (fun k => (iblk0_apply Vv c t p k).trans (h9 _ k))
    (fun k j => by rw [iblk2_eq]; exact h2 k j)
    (fun k => (iblk1_apply Vv c t p k).trans (h1 _ k))
    (fun k j => by rw [iblk3_eq]; exact h4 k j)
    (fun j => by rw [iblk4_eq]; exact h5 j)
    (fun j n => by rw [iblk5_eq]; exact h7 j n)
    (fun n => by rw [iblk6_eq]; exact h8 n) n

/-- THE RESULT IS THE SPECIFIED ARRAY, entry by entry. -/
theorem Rout_eq_out (c : Dev nD)
    (hn : ∀ i, IsReal (nodes i)) (he : ∀ i, IsReal (edges i)) (hW1 : ∀ i, IsReal (W1 i)) (hb1 : ∀ i, IsReal (b1 i))
    (h9 : ∀ (e : Fin 320000) (k : Fin 256), Vv c main_v9 (ix2 e k) = Cert.MlpAlgebra.gath nodes edges snd rcv e k)
    (h1 : ∀ (e : Fin 320000) (k : Fin 16), Vv c main_arg1 (ix2 e k) = edges (ix2 e k))
    (h2 : ∀ (k : Fin 256) (j : Fin 544), Vv c main_v2 (ix2 k j) = W1 (ix2 j (Fin.castLE (by omega) k)))
    (h4 : ∀ (k : Fin 16) (j : Fin 544), Vv c main_v4 (ix2 k j) = W1 (ix2 j ⟨256 + k.val, by omega⟩))
    (h5 : ∀ j : Fin 544, Vv c main_v5 (ix2 (0 : Fin 1) j) = b1 (ix1 j))
    (h7 : ∀ (j : Fin 544) (n : Fin 16), Vv c main_v7 (ix2 j n) = W2 (ix2 n j))
    (h8 : ∀ n : Fin 16, Vv c main_v8 (ix2 (0 : Fin 1) n) = b2 (ix1 n))
    (e : Fin 320000) (n : Fin 16) :
    Rout B Vv c (ix2 e n) = out nodes edges W1 b1 W2 b2 snd rcv e n := by
  have hN : grid1.N = 50 := N_1
  obtain ⟨t, p, rfl⟩ : ∃ (t : Fin cfg1.N) (p : Fin 6400), e = ⟨6400 * t.val + p.val, row_lt t p⟩ :=
    ⟨⟨e.val / 6400, by have := e.isLt; show e.val / 6400 < grid1.N; rw [hN]; omega⟩, ⟨e.val % 6400, Nat.mod_lt _ (by norm_num)⟩,
      Fin.ext (by show e.val = 6400 * (e.val / 6400) + e.val % 6400; omega)⟩
  exact Rout_block_eq_out B Vv nodes edges W1 b1 W2 b2 snd rcv c hn he hW1 hb1 h9 h1 h2 h4 h5 h7 h8 t p n

/-- The same as an equation of arrays. -/
theorem Rout_eq_G (c : Dev nD)
    (hn : ∀ i, IsReal (nodes i)) (he : ∀ i, IsReal (edges i)) (hW1 : ∀ i, IsReal (W1 i)) (hb1 : ∀ i, IsReal (b1 i))
    (h9 : ∀ (e : Fin 320000) (k : Fin 256), Vv c main_v9 (ix2 e k) = Cert.MlpAlgebra.gath nodes edges snd rcv e k)
    (h1 : ∀ (e : Fin 320000) (k : Fin 16), Vv c main_arg1 (ix2 e k) = edges (ix2 e k))
    (h2 : ∀ (k : Fin 256) (j : Fin 544), Vv c main_v2 (ix2 k j) = W1 (ix2 j (Fin.castLE (by omega) k)))
    (h4 : ∀ (k : Fin 16) (j : Fin 544), Vv c main_v4 (ix2 k j) = W1 (ix2 j ⟨256 + k.val, by omega⟩))
    (h5 : ∀ j : Fin 544, Vv c main_v5 (ix2 (0 : Fin 1) j) = b1 (ix1 j))
    (h7 : ∀ (j : Fin 544) (n : Fin 16), Vv c main_v7 (ix2 j n) = W2 (ix2 n j))
    (h8 : ∀ n : Fin 16, Vv c main_v8 (ix2 (0 : Fin 1) n) = b2 (ix1 n)) :
    Rout B Vv c = G nodes edges W1 b1 W2 b2 snd rcv := by
  funext i
  obtain ⟨e, n, rfl⟩ : ∃ (e : Fin 320000) (n : Fin 16), i = ix2 e n := ⟨i 0, i 1, eq_ix2 i⟩
  exact Rout_eq_out B Vv nodes edges W1 b1 W2 b2 snd rcv c hn he hW1 hb1 h9 h1 h2 h4 h5 h7 h8 e n

end Cert.Proof.KI

end
-- ==== Proof.HostStages.lean ====
/-
  The host operations that run before the two kernels, each as a function of the argument arrays, read at an index.

  The first layer's weights W1 : [544, 272] are transposed to [272, 544]; rows 0..255 of the transpose are the
  weights of the 256 gathered features and rows 256..271 those of the edge's own 16 features; each part is then
  rounded to bf16, which at the exact arithmetic changes nothing. So the first part at (k, j) is W1 at (j, k) and
  the second part at (k, j) is W1 at (j, 256 + k). The second layer's weights W2 : [16, 544] are transposed and
  rounded: at (j, n) that is W2 at (n, j). The two biases are reshaped to a single row: at (0, j) the row is the
  bias at j.
-/
import proofs.«206088_g82248623718559_cont_9to1c4b_230_21_alg».proof.KernelIdeal
import Idealize.ShloMosaic.Lib.ValueIdx
import Idealize.ShloMosaic.Lib.Pipeline.Value

noncomputable section

namespace Cert.HostStages

open Idealize.ShloMosaic Idealize.ShloMosaic.ValueIdx
open Cert.KernelIdeal Cert.KernelIdeal.Facts₀

variable [Cert.KernelIdeal.Facts]

/-- The transpose of the first layer's weights. -/
def w1t (W1 : FVec Ideal S544x272 .f32) : FVec Ideal S272x544 .f32 :=
  transpose S272x544 [1, 0] W1 transposes_S544x272_S272x544_1_0

/-- The weights of the 256 gathered features: rows 0..255 of the transpose, rounded to bf16. -/
def w1ab (W1 : FVec Ideal S544x272 .f32) : FVec Ideal S256x544 .bf16 :=
  truncf .bf16 (extractStridedSlice S256x544 ![0, 0] (transpose S272x544 [1, 0] W1 transposes_S544x272_S272x544_1_0)
    slices_S272x544_S256x544_0_0) bitsLt_bf16_f32

/-- The weights of the edge's own 16 features: rows 256..271 of the transpose, rounded to bf16. -/
def w1c (W1 : FVec Ideal S544x272 .f32) : FVec Ideal S16x544 .bf16 :=
  truncf .bf16 (extractStridedSlice S16x544 ![256, 0] (transpose S272x544 [1, 0] W1 transposes_S544x272_S272x544_1_0)
    slices_S272x544_S16x544_256_0) bitsLt_bf16_f32

/-- The first layer's bias as a single row. -/
def b1r (b1 : FVec Ideal S544 .f32) : FVec Ideal S1x544 .f32 := shapeCast S1x544 b1 shapeCasts_S544_S1x544

/-- The transpose of the second layer's weights, rounded to bf16. -/
def w2t (W2 : FVec Ideal S16x544 .f32) : FVec Ideal S544x16 .bf16 :=
  truncf .bf16 (transpose S544x16 [1, 0] W2 transposes_S16x544_S544x16_1_0) bitsLt_bf16_f32

/-- The second layer's bias as a single row. -/
def b2r (b2 : FVec Ideal S16 .f32) : FVec Ideal S1x16 .f32 := shapeCast S1x16 b2 shapeCasts_S16_S1x16

/-- The transpose at (k, j) is the weight at (j, k). -/
theorem w1t_apply (W1 : FVec Ideal S544x272 .f32) (k : Fin 272) (j : Fin 544) : w1t W1 (ix2 k j) = W1 (ix2 j k) := by
  unfold w1t
  exact transpose_apply _ _ _ (ix2 k j) (ix2 j k) (fun b => match b with | ⟨0, _⟩ => rfl | ⟨1, _⟩ => rfl)

/-- The gathered features' weights at (k, j) are W1 at (j, k). -/
theorem w1ab_apply (W1 : FVec Ideal S544x272 .f32) (k : Fin 256) (j : Fin 544) :
    w1ab W1 (ix2 k j) = W1 (ix2 j (Fin.castLE (by omega) k)) := by
  unfold w1ab
  rw [truncf_apply]
  refine (extractStridedSlice_apply _ _ _ (ix2 k j) (ix2 (Fin.castLE (by omega) k) j) (fun a => ?_)).trans ?_
  · match a with
    | ⟨0, _⟩ => show k.val = 0 + k.val; omega
    | ⟨1, _⟩ => show j.val = 0 + j.val; omega
  · exact w1t_apply W1 _ j

/-- The edge features' weights at (k, j) are W1 at (j, 256 + k). -/
theorem w1c_apply (W1 : FVec Ideal S544x272 .f32) (k : Fin 16) (j : Fin 544) :
    w1c W1 (ix2 k j) = W1 (ix2 j ⟨256 + k.val, by omega⟩) := by
  unfold w1c
  rw [truncf_apply]
  refine (extractStridedSlice_apply _ _ _ (ix2 k j) (ix2 ⟨256 + k.val, by omega⟩ j) (fun a => ?_)).trans ?_
  · match a with
    | ⟨0, _⟩ => show 256 + k.val = 256 + k.val; rfl
    | ⟨1, _⟩ => show j.val = 0 + j.val; omega
  · exact w1t_apply W1 _ j

/-- The first bias row at (0, j) is the bias at j. -/
theorem b1r_apply (b1 : FVec Ideal S544 .f32) (j : Fin 544) : b1r b1 (ix2 0 j) = b1 (ix1 j) := by
  unfold b1r
  refine shapeCast_apply _ _ (ix2 0 j) (ix1 j) ?_
  rw [Shape.rowMajor_val_one, Shape.rowMajor_val_two]
  show j.val = 0 * 544 + j.val
  omega

/-- The second layer's transposed weights at (j, n) are W2 at (n, j). -/
theorem w2t_apply (W2 : FVec Ideal S16x544 .f32) (j : Fin 544) (n : Fin 16) : w2t W2 (ix2 j n) = W2 (ix2 n j) := by
  unfold w2t
  rw [truncf_apply]
  exact transpose_apply _ _ _ (ix2 j n) (ix2 n j) (fun b => match b with | ⟨0, _⟩ => rfl | ⟨1, _⟩ => rfl)

/-- The second bias row at (0, n) is the bias at n. -/
theorem b2r_apply (b2 : FVec Ideal S16 .f32) (n : Fin 16) : b2r b2 (ix2 0 n) = b2 (ix1 n) := by
  unfold b2r
  refine shapeCast_apply _ _ (ix2 0 n) (ix1 n) ?_
  rw [Shape.rowMajor_val_one, Shape.rowMajor_val_two]
  show n.val = 0 * 16 + n.val
  omega

end Cert.HostStages

end
-- ==== Proof.TcValue.lean ====
/-
  One output entry in the arrangement the second program computes it in, joined to the specification.

  The gathered array holds, for edge e, the sender's node row in columns 0..127 and the receiver's node row in columns
  128..255: the first 256 features of the edge. With the host stages read at an index (the transposed and split
  weights are the weights, the bias rows the biases), the entry the second program computes is the specification's
  entry in the split arrangement, and the two arrangements agree for real data.
-/
import proofs.«206088_g82248623718559_cont_9to1c4b_230_21_alg».proof.Proof.Spec
import proofs.«206088_g82248623718559_cont_9to1c4b_230_21_alg».proof.Proof.MlpAlgebra
import proofs.«206088_g82248623718559_cont_9to1c4b_230_21_alg».proof.Proof.MlpPayload
import proofs.«206088_g82248623718559_cont_9to1c4b_230_21_alg».proof.Proof.HostStages

noncomputable section

open scoped BigOperators

namespace Cert.TcValue

open Idealize.ShloMosaic Idealize.ShloMosaic.ValueIdx
open Cert.LibIdealReal (IsReal)
open Cert.Spec Cert.HostStages

/-- The gathered array: row e holds the sender's node row, then the receiver's node row. -/
def gOut (nodes : A2 10000 128) (snd rcv : I1 320000) : A2 320000 256 := fun i =>
  if h : (i 1).val < 128 then nodes (ix2 (rowOf (snd (ix1 (i 0)))) ⟨(i 1).val, h⟩)
  else nodes (ix2 (rowOf (rcv (ix1 (i 0)))) ⟨(i 1).val - 128, by have := idx2_lt1 i; omega⟩)

/-- The gathered array at (e, k) is feature k of edge e. -/
theorem gOut_ix2 (nodes : A2 10000 128) (edges : A2 320000 16) (snd rcv : I1 320000) (e : Fin 320000) (k : Fin 256) :
    gOut nodes snd rcv (ix2 e k) = Cert.MlpAlgebra.gath nodes edges snd rcv e k :=
  (Cert.MlpAlgebra.gath_eq nodes edges snd rcv e k).symm

variable [Cert.KernelIdeal.Facts]

/-- The entry the second program computes, over the gathered array and the host stages, is the specification's. -/
theorem tc_value (nodes : A2 10000 128) (edges : A2 320000 16) (W1 : A2 544 272) (b1 : A1 544) (W2 : A2 16 544) (b2 : A1 16)
    (snd rcv : I1 320000) (hn : ∀ i, IsReal (nodes i)) (he : ∀ i, IsReal (edges i)) (hW1 : ∀ i, IsReal (W1 i))
    (hb1 : ∀ i, IsReal (b1 i)) (e : Fin 320000) (n : Fin 16) :
    (∑ j : Fin 544,
        (Cert.MlpPayload.half * Ideal.tanh (Cert.MlpPayload.half *
            (((∑ k : Fin 256, gOut nodes snd rcv (ix2 e k) * w1ab W1 (ix2 k j))
              + (∑ k : Fin 16, edges (ix2 e k) * w1c W1 (ix2 k j))) + b1r b1 (ix2 0 j))) + Cert.MlpPayload.half)
          * w2t W2 (ix2 j n)) + b2r b2 (ix2 0 n)
      = Cert.Spec.out nodes edges W1 b1 W2 b2 snd rcv e n := by
  rw [Cert.MlpAlgebra.out_eq_kernel_form nodes edges W1 b1 W2 b2 snd rcv hn he hW1 hb1 e n]
  simp only [w1ab_apply, w1c_apply, b1r_apply, w2t_apply, b2r_apply, gOut_ix2 nodes edges snd rcv]
  rfl

end Cert.TcValue

end
-- ==== Proof.TcJoin.lean ====
/-
  The result array of the dense network's pipeline, over the launch memory, is the specified array.

  When the pipeline is entered with the gathered array holding for every edge its sender's and its receiver's node
  rows, the edge features as launched, and the staged weights and biases at the host operations' values — the two
  pieces of the transposed first weight matrix, the first bias as a row, the transposed second weight matrix, the
  second bias as a row — then for real data and row numbers below 10000 the result is the specified array of the
  launch memory's eight argument arrays. A row number below 10000 read unsigned is the same row read signed and
  clamped.
-/
import proofs.«206088_g82248623718559_cont_9to1c4b_230_21_alg».proof.Proof.TcRegionJoin
import proofs.«206088_g82248623718559_cont_9to1c4b_230_21_alg».proof.Proof.ScPay
import proofs.«206088_g82248623718559_cont_9to1c4b_230_21_alg».proof.Proof.HostStages
import proofs.«206088_g82248623718559_cont_9to1c4b_230_21_alg».proof.Proof.TcValue

noncomputable section

namespace Cert.Proof.KI

open Cert.KernelIdeal Cert.KernelIdeal.Gen
open Idealize.ShloMosaic Idealize.ShloMosaic.TcCoe Idealize.ShloMosaic.ValueIdx
open Idealize.ShloMosaic.SparseCore.Cfg (HIx)
open Cert.LibIdealReal (IsReal)
open Cert.Spec

variable (m : (ℓ : Loc nD τ sig) → Buf (Elt Ideal) ℓ) (d : Dev nD)

/-- For row numbers below 10000 the gathered array is the specification's. -/
theorem gatherC_eq_gOut
    (hs : ∀ e : Fin 320000, (m ((SparseCore.T d : Thread nD τ).loc main_arg6) (ix1 e)).toNat < 10000)
    (hr : ∀ e : Fin 320000, (m ((SparseCore.T d : Thread nD τ).loc main_arg7) (ix1 e)).toNat < 10000) (x : S320000x256.Idx) :
    gatherC m d x = Cert.TcValue.gOut (m ((SparseCore.T d : Thread nD τ).loc main_arg0)) (m ((SparseCore.T d : Thread nD τ).loc main_arg6)) (m ((SparseCore.T d : Thread nD τ).loc main_arg7)) x := by
  have es : rowU (m (sLoc d) (ix1 (x 0))) = rowOf (m (sLoc d) (ix1 (x 0))) :=
    Fin.ext ((rowU_val (hs (x 0))).trans (rowOf_val_of_lt (hs (x 0))).symm)
  have er : rowU (m (rLoc d) (ix1 (x 0))) = rowOf (m (rLoc d) (ix1 (x 0))) :=
    Fin.ext ((rowU_val (hr (x 0))).trans (rowOf_val_of_lt (hr (x 0))).symm)
  unfold gatherC Cert.TcValue.gOut
  dsimp only
  rw [es, er]

/-- THE RESULT OVER THE LAUNCH MEMORY: the specified array of the eight argument arrays. -/
theorem tc_join (B : Set (SemLoc sig × HIx 1)) (Vv : (c : Dev nD) → (b : Ref sig .tc) → Buf (Elt Ideal) ((c : Thread nD τ).loc b))
    (h9 : Vv d main_v9 = gatherC m d)
    (h1 : Vv d main_arg1 = m ((SparseCore.T d : Thread nD τ).loc main_arg1))
    (h2 : Vv d main_v2 = Cert.HostStages.w1ab (m ((SparseCore.T d : Thread nD τ).loc main_arg2)))
    (h4 : Vv d main_v4 = Cert.HostStages.w1c (m ((SparseCore.T d : Thread nD τ).loc main_arg2)))
    (h5 : Vv d main_v5 = Cert.HostStages.b1r (m ((SparseCore.T d : Thread nD τ).loc main_arg3)))
    (h7 : Vv d main_v7 = Cert.HostStages.w2t (m ((SparseCore.T d : Thread nD τ).loc main_arg4)))
    (h8 : Vv d main_v8 = Cert.HostStages.b2r (m ((SparseCore.T d : Thread nD τ).loc main_arg5)))
    (hreal : (∀ i, IsReal (m ((SparseCore.T d : Thread nD τ).loc main_arg0) i)) ∧ (∀ i, IsReal (m ((SparseCore.T d : Thread nD τ).loc main_arg1) i)) ∧ (∀ i, IsReal (m ((SparseCore.T d : Thread nD τ).loc main_arg2) i))
      ∧ (∀ i, IsReal (m ((SparseCore.T d : Thread nD τ).loc main_arg3) i)) ∧ (∀ i, IsReal (m ((SparseCore.T d : Thread nD τ).loc main_arg4) i)) ∧ (∀ i, IsReal (m ((SparseCore.T d : Thread nD τ).loc main_arg5) i)))
    (hs : ∀ e : Fin 320000, (m ((SparseCore.T d : Thread nD τ).loc main_arg6) (ix1 e)).toNat < 10000)
    (hr : ∀ e : Fin 320000, (m ((SparseCore.T d : Thread nD τ).loc main_arg7) (ix1 e)).toNat < 10000) :
    Rout B Vv d = Cert.Spec.G (m ((SparseCore.T d : Thread nD τ).loc main_arg0)) (m ((SparseCore.T d : Thread nD τ).loc main_arg1)) (m ((SparseCore.T d : Thread nD τ).loc main_arg2)) (m ((SparseCore.T d : Thread nD τ).loc main_arg3))
      (m ((SparseCore.T d : Thread nD τ).loc main_arg4)) (m ((SparseCore.T d : Thread nD τ).loc main_arg5)) (m ((SparseCore.T d : Thread nD τ).loc main_arg6)) (m ((SparseCore.T d : Thread nD τ).loc main_arg7)) := by
  obtain ⟨hn, he, hW1, hb1, -, -⟩ := hreal
  refine Rout_eq_G B Vv (m ((SparseCore.T d : Thread nD τ).loc main_arg0)) (m ((SparseCore.T d : Thread nD τ).loc main_arg1)) (m ((SparseCore.T d : Thread nD τ).loc main_arg2)) (m ((SparseCore.T d : Thread nD τ).loc main_arg3))
    (m ((SparseCore.T d : Thread nD τ).loc main_arg4)) (m ((SparseCore.T d : Thread nD τ).loc main_arg5)) (m ((SparseCore.T d : Thread nD τ).loc main_arg6)) (m ((SparseCore.T d : Thread nD τ).loc main_arg7)) d hn he hW1 hb1
    (fun e k => ?_) (fun e k => ?_) (fun k j => ?_) (fun k j => ?_) (fun j => ?_) (fun j n => ?_) (fun n => ?_)
  · rw [h9]
    exact (gatherC_eq_gOut m d hs hr (ix2 e k)).trans (Cert.TcValue.gOut_ix2 _ (m ((SparseCore.T d : Thread nD τ).loc main_arg1)) _ _ e k)
  · rw [h1]
  · rw [h2]; exact Cert.HostStages.w1ab_apply _ k j
  · rw [h4]; exact Cert.HostStages.w1c_apply _ k j
  · rw [h5]; exact Cert.HostStages.b1r_apply _ j
  · rw [h7]; exact Cert.HostStages.w2t_apply _ j n
  · rw [h8]; exact Cert.HostStages.b2r_apply _ n

end Cert.Proof.KI

end
-- ==== Proof.RefOps.lean ====
/-
  The reference program as a list of operations, and the term they compose.

  The reference is a straight line of array operations: two masked row lookups (the sender's and the receiver's
  node rows, each a clamp-and-gather with an in-range mask), the three feature blocks laid side by side, the first
  affine layer, the logistic function written 1 / (1 + exp (-x)), and the second affine layer. Its run from any
  memory ends with the result array at the composition of those operations applied to the eight argument arrays,
  and with the arguments as they were.
-/
import proofs.«206088_g82248623718559_cont_9to1c4b_230_21_alg».proof.Proof.Gen.ReferenceIdeal
import Idealize.ShloMosaic.Lib.StableHlo.Run

noncomputable section

namespace Cert.RefSide

open Cert.ReferenceIdeal Cert.ReferenceIdeal.Gen Idealize.ShloMosaic Idealize.ShloMosaic.TcCoe Idealize.SL.Sem Idealize.ShloMosaic.StableHlo

variable {F : FTy → Type} [FloatOps F]

/-! ## The composed term -/

/-- A negative row number counts from the end: i + 10000 where i < 0, i elsewhere. -/
def wrapT (idx : IVec S320000 32) : IVec S320000 32 :=
  select (cmpi .slt idx (broadcastInDim S320000 ![] bcast_S_S320000 (constantI S_ 32 0#32)))
    (addi idx (broadcastInDim S320000 ![] bcast_S_S320000 (constantI S_ 32 10000#32))) idx

/-- The row numbers as a one-column array. -/
def colT (idx : IVec S320000 32) : IVec S320000x1 32 :=
  broadcastInDim S320000x1 ![0] bcast_S320000_S320000x1_0 (wrapT idx)

/-- Per edge, whether its row number lies in 0 … 9999. -/
def maskT (idx : IVec S320000 32) : IVec S320000 1 :=
  Host.reduce IntOp.andi
    (andi (cmpi .sge (colT idx) (broadcastInDim S320000x1 ![] bcast_S_S320000x1 (constantI S_ 32 0#32)))
      (cmpi .sle (colT idx)
        (broadcastInDim S320000x1 ![0, 1] bcast_S1x1_S320000x1_0_1
          (broadcastInDim S1x1 ![1] bcast_S1_S1x1_1 (constantI S1 32 9999#32)))))
    (constantI S_ 1 1#1) reducesTo_S320000x1_S320000_d1 h_S_

/-- The masked row lookup: the table's row where the row number is in range, the fill value elsewhere. -/
def takeT (tbl : FVec F S10000x128 .f32) (idx : IVec S320000 32) : FVec F S320000x128 .f32 :=
  select (broadcastInDim S320000x128 ![0] bcast_S320000_S320000x128_0 (maskT idx))
    (Host.gather gather_S10000x128_S320000x1_S320000x128_1_0_n_n_0_1_1128 tbl (colT idx))
    (broadcastInDim S320000x128 ![] bcast_S_S320000x128 (constant S_ .f32 0x7FC00000#32))

/-- The 272 features of every edge: the two looked-up rows and the edge's own features side by side. -/
def catT (nodes : FVec F S10000x128 .f32) (edges : FVec F S320000x16 .f32) (snd rcv : IVec S320000 32) :
    FVec F S320000x272 .f32 :=
  concatenate S320000x272 1 [⟨S320000x128, takeT nodes snd⟩, ⟨S320000x128, takeT nodes rcv⟩, ⟨S320000x16, edges⟩]
    concatenates_S320000x128_S320000x128_S320000x16_S320000x272_d1

/-- The first affine layer. -/
def lin1T (nodes : FVec F S10000x128 .f32) (edges : FVec F S320000x16 .f32) (W1 : FVec F S544x272 .f32)
    (b1 : FVec F S544 .f32) (snd rcv : IVec S320000 32) : FVec F S320000x544 .f32 :=
  addf
    (Host.dotGeneral dot_S320000x272_S272x544_S320000x544_1_0_0_1_n_n none (catT nodes edges snd rcv)
      (transpose S272x544 [1, 0] W1 transposes_S544x272_S272x544_1_0))
    (broadcastInDim S320000x544 ![0, 1] bcast_S1x544_S320000x544_0_1 (broadcastInDim S1x544 ![1] bcast_S544_S1x544_1 b1))

/-- The logistic function of the first layer, written 1 / (1 + exp (-x)). -/
def hidT (nodes : FVec F S10000x128 .f32) (edges : FVec F S320000x16 .f32) (W1 : FVec F S544x272 .f32)
    (b1 : FVec F S544 .f32) (snd rcv : IVec S320000 32) : FVec F S320000x544 .f32 :=
  Host.divf (broadcastInDim S320000x544 ![] bcast_S_S320000x544 (constant S_ .f32 0x3F800000#32))
    (addf (broadcastInDim S320000x544 ![] bcast_S_S320000x544 (constant S_ .f32 0x3F800000#32))
      (Host.exp (Host.negf (lin1T nodes edges W1 b1 snd rcv))))

/-- The second affine layer: the reference's result as a function of its eight arguments. -/
def outT (nodes : FVec F S10000x128 .f32) (edges : FVec F S320000x16 .f32) (W1 : FVec F S544x272 .f32)
    (b1 : FVec F S544 .f32) (W2 : FVec F S16x544 .f32) (b2 : FVec F S16 .f32) (snd rcv : IVec S320000 32) :
    FVec F S320000x16 .f32 :=
  addf
    (Host.dotGeneral dot_S320000x544_S544x16_S320000x16_1_0_0_1_n_n none (hidT nodes edges W1 b1 snd rcv)
      (transpose S544x16 [1, 0] W2 transposes_S16x544_S544x16_1_0))
    (broadcastInDim S320000x16 ![0, 1] bcast_S1x16_S320000x16_0_1 (broadcastInDim S1x16 ![1] bcast_S16_S1x16_1 b2))

/-! ## The program as a list of operations -/

/-- The program's 65 operations in order: the first lookup's twenty-three (its row-number wrap inlined as one
    select), the second lookup's twenty-three, then the nineteen of the two layers. -/
abbrev ops : List (HloOp τ sig (Elt F)) :=
  [ StableHlo.TRef.nullary main_call0.c (constantI S_ 32 0#32),
    StableHlo.TRef.unary main_call0.c main_call0.v0 (broadcastInDim S320000 ![] bcast_S_S320000),
    StableHlo.TRef.binary (.of main_arg6 : StableHlo.TRef sig ⟨S320000, .i32⟩) main_call0.v0 main_call0.v1 (cmpi .slt),
    StableHlo.TRef.nullary main_call0.c_0 (constantI S_ 32 10000#32),
    StableHlo.TRef.unary main_call0.c_0 main_call0.v2 (broadcastInDim S320000 ![] bcast_S_S320000),
    StableHlo.TRef.binary (.of main_arg6 : StableHlo.TRef sig ⟨S320000, .i32⟩) main_call0.v2 main_call0.v3 addi,
    StableHlo.TRef.ternary main_call0.v1 main_call0.v3 (.of main_arg6 : StableHlo.TRef sig ⟨S320000, .i32⟩) main_call0.call0.v0 select,
    StableHlo.TRef.unary main_call0.call0.v0 main_call0.v5 (broadcastInDim S320000x1 ![0] bcast_S320000_S320000x1_0),
    StableHlo.TRef.nullary main_call0.c_1 (constantI S1 32 9999#32),
    StableHlo.TRef.nullary main_call0.c_2 (constantI S_ 32 0#32),
    StableHlo.TRef.unary main_call0.c_2 main_call0.v6 (broadcastInDim S320000x1 ![] bcast_S_S320000x1),
    StableHlo.TRef.binary main_call0.v5 main_call0.v6 main_call0.v7 (cmpi .sge),
    StableHlo.TRef.unary main_call0.c_1 main_call0.v8 (broadcastInDim S1x1 ![1] bcast_S1_S1x1_1),
    StableHlo.TRef.unary main_call0.v8 main_call0.v9 (broadcastInDim S320000x1 ![0, 1] bcast_S1x1_S320000x1_0_1),
    StableHlo.TRef.binary main_call0.v5 main_call0.v9 main_call0.v10 (cmpi .sle),
    StableHlo.TRef.binary main_call0.v7 main_call0.v10 main_call0.v11 andi,
    StableHlo.TRef.nullary main_call0.c_3 (constantI S_ 1 1#1),
    StableHlo.TRef.binary main_call0.v11 main_call0.c_3 main_call0.v12 (fun x v => Host.reduce IntOp.andi x v reducesTo_S320000x1_S320000_d1 h_S_),
    StableHlo.TRef.binary (.of main_arg0 : StableHlo.TRef sig ⟨S10000x128, .f32⟩) main_call0.v5 main_call0.v13 (fun x i => Host.gather gather_S10000x128_S320000x1_S320000x128_1_0_n_n_0_1_1128 x i),
    StableHlo.TRef.unary main_call0.v12 main_call0.v14 (broadcastInDim S320000x128 ![0] bcast_S320000_S320000x128_0),
    StableHlo.TRef.nullary main_call0.cst (constant S_ .f32 0x7FC00000#32),
    StableHlo.TRef.unary main_call0.cst main_call0.v15 (broadcastInDim S320000x128 ![] bcast_S_S320000x128),
    StableHlo.TRef.ternary main_call0.v14 main_call0.v13 main_call0.v15 main_call0.v16 select,
    StableHlo.TRef.nullary main_call1.c (constantI S_ 32 0#32),
    StableHlo.TRef.unary main_call1.c main_call1.v0 (broadcastInDim S320000 ![] bcast_S_S320000),
    StableHlo.TRef.binary (.of main_arg7 : StableHlo.TRef sig ⟨S320000, .i32⟩) main_call1.v0 main_call1.v1 (cmpi .slt),
    StableHlo.TRef.nullary main_call1.c_0 (constantI S_ 32 10000#32),
    StableHlo.TRef.unary main_call1.c_0 main_call1.v2 (broadcastInDim S320000 ![] bcast_S_S320000),
    StableHlo.TRef.binary (.of main_arg7 : StableHlo.TRef sig ⟨S320000, .i32⟩) main_call1.v2 main_call1.v3 addi,
    StableHlo.TRef.ternary main_call1.v1 main_call1.v3 (.of main_arg7 : StableHlo.TRef sig ⟨S320000, .i32⟩) main_call1.call0.v0 select,
    StableHlo.TRef.unary main_call1.call0.v0 main_call1.v5 (broadcastInDim S320000x1 ![0] bcast_S320000_S320000x1_0),
    StableHlo.TRef.nullary main_call1.c_1 (constantI S1 32 9999#32),
    StableHlo.TRef.nullary main_call1.c_2 (constantI S_ 32 0#32),
    StableHlo.TRef.unary main_call1.c_2 main_call1.v6 (broadcastInDim S320000x1 ![] bcast_S_S320000x1),
    StableHlo.TRef.binary main_call1.v5 main_call1.v6 main_call1.v7 (cmpi .sge),
    StableHlo.TRef.unary main_call1.c_1 main_call1.v8 (broadcastInDim S1x1 ![1] bcast_S1_S1x1_1),
    StableHlo.TRef.unary main_call1.v8 main_call1.v9 (broadcastInDim S320000x1 ![0, 1] bcast_S1x1_S320000x1_0_1),
    StableHlo.TRef.binary main_call1.v5 main_call1.v9 main_call1.v10 (cmpi .sle),
    StableHlo.TRef.binary main_call1.v7 main_call1.v10 main_call1.v11 andi,
    StableHlo.TRef.nullary main_call1.c_3 (constantI S_ 1 1#1),
    StableHlo.TRef.binary main_call1.v11 main_call1.c_3 main_call1.v12 (fun x v => Host.reduce IntOp.andi x v reducesTo_S320000x1_S320000_d1 h_S_),
    StableHlo.TRef.binary (.of main_arg0 : StableHlo.TRef sig ⟨S10000x128, .f32⟩) main_call1.v5 main_call1.v13 (fun x i => Host.gather gather_S10000x128_S320000x1_S320000x128_1_0_n_n_0_1_1128 x i),
    StableHlo.TRef.unary main_call1.v12 main_call1.v14 (broadcastInDim S320000x128 ![0] bcast_S320000_S320000x128_0),
    StableHlo.TRef.nullary main_call1.cst (constant S_ .f32 0x7FC00000#32),
    StableHlo.TRef.unary main_call1.cst main_call1.v15 (broadcastInDim S320000x128 ![] bcast_S_S320000x128),
    StableHlo.TRef.ternary main_call1.v14 main_call1.v13 main_call1.v15 main_call1.v16 select,
    StableHlo.nary ![main_v0, main_v1, main_arg1] main_v2 (fun u => concatenate S320000x272 1 [⟨S320000x128, u 0⟩, ⟨S320000x128, u 1⟩, ⟨S320000x16, u 2⟩] concatenates_S320000x128_S320000x128_S320000x16_S320000x272_d1),
    StableHlo.unary main_arg2 main_v3 ((transpose S272x544 [1, 0] · transposes_S544x272_S272x544_1_0) : (⟨S544x272, .f32⟩ : BufTy).Contents (Elt F) → (⟨S272x544, .f32⟩ : BufTy).Contents (Elt F)),
    StableHlo.binary main_v2 main_v3 main_v4 ((fun l r => Host.dotGeneral dot_S320000x272_S272x544_S320000x544_1_0_0_1_n_n none l r) : (⟨S320000x272, .f32⟩ : BufTy).Contents (Elt F) → (⟨S272x544, .f32⟩ : BufTy).Contents (Elt F) → (⟨S320000x544, .f32⟩ : BufTy).Contents (Elt F)),
    StableHlo.unary main_arg3 main_v5 (broadcastInDim S1x544 ![1] bcast_S544_S1x544_1 : (⟨S544, .f32⟩ : BufTy).Contents (Elt F) → (⟨S1x544, .f32⟩ : BufTy).Contents (Elt F)),
    StableHlo.unary main_v5 main_v6 (broadcastInDim S320000x544 ![0, 1] bcast_S1x544_S320000x544_0_1 : (⟨S1x544, .f32⟩ : BufTy).Contents (Elt F) → (⟨S320000x544, .f32⟩ : BufTy).Contents (Elt F)),
    StableHlo.binary main_v4 main_v6 main_v7 (addf : (⟨S320000x544, .f32⟩ : BufTy).Contents (Elt F) → (⟨S320000x544, .f32⟩ : BufTy).Contents (Elt F) → (⟨S320000x544, .f32⟩ : BufTy).Contents (Elt F)),
    StableHlo.unary main_v7 main_v8 (Host.negf : (⟨S320000x544, .f32⟩ : BufTy).Contents (Elt F) → (⟨S320000x544, .f32⟩ : BufTy).Contents (Elt F)),
    StableHlo.unary main_v8 main_v9 (Host.exp : (⟨S320000x544, .f32⟩ : BufTy).Contents (Elt F) → (⟨S320000x544, .f32⟩ : BufTy).Contents (Elt F)),
    StableHlo.nullary main_cst (constant S_ .f32 0x3F800000#32),
    StableHlo.unary main_cst main_v10 (broadcastInDim S320000x544 ![] bcast_S_S320000x544 : (⟨S_, .f32⟩ : BufTy).Contents (Elt F) → (⟨S320000x544, .f32⟩ : BufTy).Contents (Elt F)),
    StableHlo.binary main_v10 main_v9 main_v11 (addf : (⟨S320000x544, .f32⟩ : BufTy).Contents (Elt F) → (⟨S320000x544, .f32⟩ : BufTy).Contents (Elt F) → (⟨S320000x544, .f32⟩ : BufTy).Contents (Elt F)),
    StableHlo.nullary main_cst_0 (constant S_ .f32 0x3F800000#32),
    StableHlo.unary main_cst_0 main_v12 (broadcastInDim S320000x544 ![] bcast_S_S320000x544 : (⟨S_, .f32⟩ : BufTy).Contents (Elt F) → (⟨S320000x544, .f32⟩ : BufTy).Contents (Elt F)),
    StableHlo.binary main_v12 main_v11 main_v13 (Host.divf : (⟨S320000x544, .f32⟩ : BufTy).Contents (Elt F) → (⟨S320000x544, .f32⟩ : BufTy).Contents (Elt F) → (⟨S320000x544, .f32⟩ : BufTy).Contents (Elt F)),
    StableHlo.unary main_arg4 main_v14 ((transpose S544x16 [1, 0] · transposes_S16x544_S544x16_1_0) : (⟨S16x544, .f32⟩ : BufTy).Contents (Elt F) → (⟨S544x16, .f32⟩ : BufTy).Contents (Elt F)),
    StableHlo.binary main_v13 main_v14 main_v15 ((fun l r => Host.dotGeneral dot_S320000x544_S544x16_S320000x16_1_0_0_1_n_n none l r) : (⟨S320000x544, .f32⟩ : BufTy).Contents (Elt F) → (⟨S544x16, .f32⟩ : BufTy).Contents (Elt F) → (⟨S320000x16, .f32⟩ : BufTy).Contents (Elt F)),
    StableHlo.unary main_arg5 main_v16 (broadcastInDim S1x16 ![1] bcast_S16_S1x16_1 : (⟨S16, .f32⟩ : BufTy).Contents (Elt F) → (⟨S1x16, .f32⟩ : BufTy).Contents (Elt F)),
    StableHlo.unary main_v16 main_v17 (broadcastInDim S320000x16 ![0, 1] bcast_S1x16_S320000x16_0_1 : (⟨S1x16, .f32⟩ : BufTy).Contents (Elt F) → (⟨S320000x16, .f32⟩ : BufTy).Contents (Elt F)),
    StableHlo.binary main_v15 main_v17 main_v18 (addf : (⟨S320000x16, .f32⟩ : BufTy).Contents (Elt F) → (⟨S320000x16, .f32⟩ : BufTy).Contents (Elt F) → (⟨S320000x16, .f32⟩ : BufTy).Contents (Elt F)) ]

set_option maxHeartbeats 4000000 in
/-- The program is that straight line: the lookup's definition unfolded at its two calls, and the steps re-associated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., nary_bufs_sub .., unary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., unary_bufs_sub .., binary_bufs_sub .., unary_bufs_sub .., unary_bufs_sub .., binary_bufs_sub ..⟩

end Cert.RefSide

end
-- ==== Proof.RefNary.lean ====
/-
  An operation with three operands of their own types (a concatenation of three arrays), read after it has run:
  the result buffer holds the operation's function of the three operands' contents, each read at its own buffer.
-/
import Idealize.ShloMosaic.Lib.StableHlo.Run

noncomputable section

namespace Cert.RefSide

open Idealize.ShloMosaic Idealize.ShloMosaic.StableHlo

variable {τ : Topo} {sig : RefSig} {Val : EltTy → Type} {x a b y : Ref sig .tc}

/-- The result of a three-operand operation with each operand's contents at its own buffer. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- The same equation, the result buffer's reference read as it is spelt. -/
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

end Cert.RefSide

end
-- ==== Proof.LibTypedRef.lean ====
/-
  Typed references: contents moved to a typed reference's buffer and back are unchanged.

  An operation of a module-local function (a relu, a log_softmax, … that the program calls) is written over typed
  references: each operand is read from its buffer at the value's own type and each result is stored at the buffer's
  type, two transports along the same equation of types. Read after a fold of such operations, every intermediate value
  therefore appears wrapped as "stored, then read": the wrapping is the identity, whatever the reference. (After
  rewriting with `ofBuf_toBuf` only the line's own ends keep a transport — the first operand read and the last result
  stored — and each of those is the identity by computation at the literal reference.)
-/
import Idealize.ShloMosaic.Lib.StableHlo

namespace Cert.LibTypedRef

open Idealize.ShloMosaic Idealize.ShloMosaic.StableHlo

variable {sig : RefSig} {Val : EltTy → Type} {T : BufTy}

/-- A value stored at a typed reference's buffer and read back is the value. -/
theorem ofBuf_toBuf (x : TRef sig T) (v : T.Contents Val) : x.ofBuf (x.toBuf v) = v := by
  obtain ⟨r, rfl, h2, h3⟩ := x
  rfl

/-- Buffer contents read at the value's type and stored back are the contents. -/
theorem toBuf_ofBuf (x : TRef sig T) (v : x.ref.ty.Contents Val) : x.toBuf (x.ofBuf v) = v := by
  obtain ⟨r, rfl, h2, h3⟩ := x
  rfl

end Cert.LibTypedRef
-- ==== Proof.RefRun.lean ====
/-
  The reference program's run.

  The reference is a straight line of array operations: two masked row lookups (the sender's and the receiver's
  node rows, each a wrap of negative row numbers, a clamped gather and an in-range mask), the three feature blocks
  laid side by side, the first affine layer, the logistic function written 1 / (1 + exp (-x)), and the second affine
  layer. Its run from any memory ends with the result array at the composition of those operations applied to the
  eight argument arrays, and with the arguments as they were. The line is read in two stretches: the two lookups
  first, then the layers over the lookups' results.
-/
import proofs.«206088_g82248623718559_cont_9to1c4b_230_21_alg».proof.Proof.RefOps
import proofs.«206088_g82248623718559_cont_9to1c4b_230_21_alg».proof.Proof.RefNary
import proofs.«206088_g82248623718559_cont_9to1c4b_230_21_alg».proof.Proof.LibTypedRef

noncomputable section

namespace Cert.RefSide

open Cert.ReferenceIdeal Cert.ReferenceIdeal.Gen Idealize.ShloMosaic Idealize.ShloMosaic.TcCoe Idealize.SL.Sem Idealize.ShloMosaic.StableHlo

variable {F : FTy → Type} [FloatOps F]

/-- The contents after two stretches of operations are the second stretch's over the first's. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih _

/-- The two lookups' forty-six operations. -/
abbrev opsA : List (HloOp τ sig (Elt F)) :=
  [ StableHlo.TRef.nullary main_call0.c (constantI S_ 32 0#32),
    StableHlo.TRef.unary main_call0.c main_call0.v0 (broadcastInDim S320000 ![] bcast_S_S320000),
    StableHlo.TRef.binary (.of main_arg6 : StableHlo.TRef sig ⟨S320000, .i32⟩) main_call0.v0 main_call0.v1 (cmpi .slt),
    StableHlo.TRef.nullary main_call0.c_0 (constantI S_ 32 10000#32),
    StableHlo.TRef.unary main_call0.c_0 main_call0.v2 (broadcastInDim S320000 ![] bcast_S_S320000),
    StableHlo.TRef.binary (.of main_arg6 : StableHlo.TRef sig ⟨S320000, .i32⟩) main_call0.v2 main_call0.v3 addi,
    StableHlo.TRef.ternary main_call0.v1 main_call0.v3 (.of main_arg6 : StableHlo.TRef sig ⟨S320000, .i32⟩) main_call0.call0.v0 select,
    StableHlo.TRef.unary main_call0.call0.v0 main_call0.v5 (broadcastInDim S320000x1 ![0] bcast_S320000_S320000x1_0),
    StableHlo.TRef.nullary main_call0.c_1 (constantI S1 32 9999#32),
    StableHlo.TRef.nullary main_call0.c_2 (constantI S_ 32 0#32),
    StableHlo.TRef.unary main_call0.c_2 main_call0.v6 (broadcastInDim S320000x1 ![] bcast_S_S320000x1),
    StableHlo.TRef.binary main_call0.v5 main_call0.v6 main_call0.v7 (cmpi .sge),
    StableHlo.TRef.unary main_call0.c_1 main_call0.v8 (broadcastInDim S1x1 ![1] bcast_S1_S1x1_1),
    StableHlo.TRef.unary main_call0.v8 main_call0.v9 (broadcastInDim S320000x1 ![0, 1] bcast_S1x1_S320000x1_0_1),
    StableHlo.TRef.binary main_call0.v5 main_call0.v9 main_call0.v10 (cmpi .sle),
    StableHlo.TRef.binary main_call0.v7 main_call0.v10 main_call0.v11 andi,
    StableHlo.TRef.nullary main_call0.c_3 (constantI S_ 1 1#1),
    StableHlo.TRef.binary main_call0.v11 main_call0.c_3 main_call0.v12 (fun x v => Host.reduce IntOp.andi x v reducesTo_S320000x1_S320000_d1 h_S_),
    StableHlo.TRef.binary (.of main_arg0 : StableHlo.TRef sig ⟨S10000x128, .f32⟩) main_call0.v5 main_call0.v13 (fun x i => Host.gather gather_S10000x128_S320000x1_S320000x128_1_0_n_n_0_1_1128 x i),
    StableHlo.TRef.unary main_call0.v12 main_call0.v14 (broadcastInDim S320000x128 ![0] bcast_S320000_S320000x128_0),
    StableHlo.TRef.nullary main_call0.cst (constant S_ .f32 0x7FC00000#32),
    StableHlo.TRef.unary main_call0.cst main_call0.v15 (broadcastInDim S320000x128 ![] bcast_S_S320000x128),
    StableHlo.TRef.ternary main_call0.v14 main_call0.v13 main_call0.v15 main_call0.v16 select,
    StableHlo.TRef.nullary main_call1.c (constantI S_ 32 0#32),
    StableHlo.TRef.unary main_call1.c main_call1.v0 (broadcastInDim S320000 ![] bcast_S_S320000),
    StableHlo.TRef.binary (.of main_arg7 : StableHlo.TRef sig ⟨S320000, .i32⟩) main_call1.v0 main_call1.v1 (cmpi .slt),
    StableHlo.TRef.nullary main_call1.c_0 (constantI S_ 32 10000#32),
    StableHlo.TRef.unary main_call1.c_0 main_call1.v2 (broadcastInDim S320000 ![] bcast_S_S320000),
    StableHlo.TRef.binary (.of main_arg7 : StableHlo.TRef sig ⟨S320000, .i32⟩) main_call1.v2 main_call1.v3 addi,
    StableHlo.TRef.ternary main_call1.v1 main_call1.v3 (.of main_arg7 : StableHlo.TRef sig ⟨S320000, .i32⟩) main_call1.call0.v0 select,
    StableHlo.TRef.unary main_call1.call0.v0 main_call1.v5 (broadcastInDim S320000x1 ![0] bcast_S320000_S320000x1_0),
    StableHlo.TRef.nullary main_call1.c_1 (constantI S1 32 9999#32),
    StableHlo.TRef.nullary main_call1.c_2 (constantI S_ 32 0#32),
    StableHlo.TRef.unary main_call1.c_2 main_call1.v6 (broadcastInDim S320000x1 ![] bcast_S_S320000x1),
    StableHlo.TRef.binary main_call1.v5 main_call1.v6 main_call1.v7 (cmpi .sge),
    StableHlo.TRef.unary main_call1.c_1 main_call1.v8 (broadcastInDim S1x1 ![1] bcast_S1_S1x1_1),
    StableHlo.TRef.unary main_call1.v8 main_call1.v9 (broadcastInDim S320000x1 ![0, 1] bcast_S1x1_S320000x1_0_1),
    StableHlo.TRef.binary main_call1.v5 main_call1.v9 main_call1.v10 (cmpi .sle),
    StableHlo.TRef.binary main_call1.v7 main_call1.v10 main_call1.v11 andi,
    StableHlo.TRef.nullary main_call1.c_3 (constantI S_ 1 1#1),
    StableHlo.TRef.binary main_call1.v11 main_call1.c_3 main_call1.v12 (fun x v => Host.reduce IntOp.andi x v reducesTo_S320000x1_S320000_d1 h_S_),
    StableHlo.TRef.binary (.of main_arg0 : StableHlo.TRef sig ⟨S10000x128, .f32⟩) main_call1.v5 main_call1.v13 (fun x i => Host.gather gather_S10000x128_S320000x1_S320000x128_1_0_n_n_0_1_1128 x i),
    StableHlo.TRef.unary main_call1.v12 main_call1.v14 (broadcastInDim S320000x128 ![0] bcast_S320000_S320000x128_0),
    StableHlo.TRef.nullary main_call1.cst (constant S_ .f32 0x7FC00000#32),
    StableHlo.TRef.unary main_call1.cst main_call1.v15 (broadcastInDim S320000x128 ![] bcast_S_S320000x128),
    StableHlo.TRef.ternary main_call1.v14 main_call1.v13 main_call1.v15 main_call1.v16 select ]

/-- The layers' nineteen operations. -/
abbrev opsB : List (HloOp τ sig (Elt F)) :=
  [ StableHlo.nary ![main_v0, main_v1, main_arg1] main_v2 (fun u => concatenate S320000x272 1 [⟨S320000x128, u 0⟩, ⟨S320000x128, u 1⟩, ⟨S320000x16, u 2⟩] concatenates_S320000x128_S320000x128_S320000x16_S320000x272_d1),
    StableHlo.unary main_arg2 main_v3 ((transpose S272x544 [1, 0] · transposes_S544x272_S272x544_1_0) : (⟨S544x272, .f32⟩ : BufTy).Contents (Elt F) → (⟨S272x544, .f32⟩ : BufTy).Contents (Elt F)),
    StableHlo.binary main_v2 main_v3 main_v4 ((fun l r => Host.dotGeneral dot_S320000x272_S272x544_S320000x544_1_0_0_1_n_n none l r) : (⟨S320000x272, .f32⟩ : BufTy).Contents (Elt F) → (⟨S272x544, .f32⟩ : BufTy).Contents (Elt F) → (⟨S320000x544, .f32⟩ : BufTy).Contents (Elt F)),
    StableHlo.unary main_arg3 main_v5 (broadcastInDim S1x544 ![1] bcast_S544_S1x544_1 : (⟨S544, .f32⟩ : BufTy).Contents (Elt F) → (⟨S1x544, .f32⟩ : BufTy).Contents (Elt F)),
    StableHlo.unary main_v5 main_v6 (broadcastInDim S320000x544 ![0, 1] bcast_S1x544_S320000x544_0_1 : (⟨S1x544, .f32⟩ : BufTy).Contents (Elt F) → (⟨S320000x544, .f32⟩ : BufTy).Contents (Elt F)),
    StableHlo.binary main_v4 main_v6 main_v7 (addf : (⟨S320000x544, .f32⟩ : BufTy).Contents (Elt F) → (⟨S320000x544, .f32⟩ : BufTy).Contents (Elt F) → (⟨S320000x544, .f32⟩ : BufTy).Contents (Elt F)),
    StableHlo.unary main_v7 main_v8 (Host.negf : (⟨S320000x544, .f32⟩ : BufTy).Contents (Elt F) → (⟨S320000x544, .f32⟩ : BufTy).Contents (Elt F)),
    StableHlo.unary main_v8 main_v9 (Host.exp : (⟨S320000x544, .f32⟩ : BufTy).Contents (Elt F) → (⟨S320000x544, .f32⟩ : BufTy).Contents (Elt F)),
    StableHlo.nullary main_cst (constant S_ .f32 0x3F800000#32),
    StableHlo.unary main_cst main_v10 (broadcastInDim S320000x544 ![] bcast_S_S320000x544 : (⟨S_, .f32⟩ : BufTy).Contents (Elt F) → (⟨S320000x544, .f32⟩ : BufTy).Contents (Elt F)),
    StableHlo.binary main_v10 main_v9 main_v11 (addf : (⟨S320000x544, .f32⟩ : BufTy).Contents (Elt F) → (⟨S320000x544, .f32⟩ : BufTy).Contents (Elt F) → (⟨S320000x544, .f32⟩ : BufTy).Contents (Elt F)),
    StableHlo.nullary main_cst_0 (constant S_ .f32 0x3F800000#32),
    StableHlo.unary main_cst_0 main_v12 (broadcastInDim S320000x544 ![] bcast_S_S320000x544 : (⟨S_, .f32⟩ : BufTy).Contents (Elt F) → (⟨S320000x544, .f32⟩ : BufTy).Contents (Elt F)),
    StableHlo.binary main_v12 main_v11 main_v13 (Host.divf : (⟨S320000x544, .f32⟩ : BufTy).Contents (Elt F) → (⟨S320000x544, .f32⟩ : BufTy).Contents (Elt F) → (⟨S320000x544, .f32⟩ : BufTy).Contents (Elt F)),
    StableHlo.unary main_arg4 main_v14 ((transpose S544x16 [1, 0] · transposes_S16x544_S544x16_1_0) : (⟨S16x544, .f32⟩ : BufTy).Contents (Elt F) → (⟨S544x16, .f32⟩ : BufTy).Contents (Elt F)),
    StableHlo.binary main_v13 main_v14 main_v15 ((fun l r => Host.dotGeneral dot_S320000x544_S544x16_S320000x16_1_0_0_1_n_n none l r) : (⟨S320000x544, .f32⟩ : BufTy).Contents (Elt F) → (⟨S544x16, .f32⟩ : BufTy).Contents (Elt F) → (⟨S320000x16, .f32⟩ : BufTy).Contents (Elt F)),
    StableHlo.unary main_arg5 main_v16 (broadcastInDim S1x16 ![1] bcast_S16_S1x16_1 : (⟨S16, .f32⟩ : BufTy).Contents (Elt F) → (⟨S1x16, .f32⟩ : BufTy).Contents (Elt F)),
    StableHlo.unary main_v16 main_v17 (broadcastInDim S320000x16 ![0, 1] bcast_S1x16_S320000x16_0_1 : (⟨S1x16, .f32⟩ : BufTy).Contents (Elt F) → (⟨S320000x16, .f32⟩ : BufTy).Contents (Elt F)),
    StableHlo.binary main_v15 main_v17 main_v18 (addf : (⟨S320000x16, .f32⟩ : BufTy).Contents (Elt F) → (⟨S320000x16, .f32⟩ : BufTy).Contents (Elt F) → (⟨S320000x16, .f32⟩ : BufTy).Contents (Elt F)) ]

set_option maxRecDepth 16384 in
theorem ops_split : (ops : List (HloOp τ sig (Elt F))) = opsA ++ opsB := rfl

/-! ## The lookups -/

attribute [local irreducible] Host.reduce Host.gather in
set_option maxHeartbeats 4000000 in
/-- After the lookups the first result buffer holds the sender rows. -/
theorem lookups_v0 (V : Valuation τ sig (Elt F)) :
    after opsA V (main_v0 : DevRef τ sig) = takeT (V (main_arg0 : DevRef τ sig)) (V (main_arg6 : DevRef τ sig)) := by
  simp (disch := decide) only [after_cons, after_nil,
      nullary_result', unary_result', binary_result', ternary_result', nary3_result',
      nullary_result_ne', unary_result_ne', binary_result_ne', ternary_result_ne', nary_result_ne']
  simp only [Cert.LibTypedRef.ofBuf_toBuf]
  unfold takeT maskT colT wrapT
  rfl

attribute [local irreducible] Host.reduce Host.gather in
set_option maxHeartbeats 4000000 in
/-- After the lookups the second result buffer holds the receiver rows. -/
theorem lookups_v1 (V : Valuation τ sig (Elt F)) :
    after opsA V (main_v1 : DevRef τ sig) = takeT (V (main_arg0 : DevRef τ sig)) (V (main_arg7 : DevRef τ sig)) := by
  simp (disch := decide) only [after_cons, after_nil,
      nullary_result', unary_result', binary_result', ternary_result', nary3_result',
      nullary_result_ne', unary_result_ne', binary_result_ne', ternary_result_ne', nary_result_ne']
  simp only [Cert.LibTypedRef.ofBuf_toBuf]
  unfold takeT maskT colT wrapT
  rfl

set_option maxHeartbeats 4000000 in
theorem lookups_arg0 (V : Valuation τ sig (Elt F)) :
    after opsA V (main_arg0 : DevRef τ sig) = V (main_arg0 : DevRef τ sig) := by
  simp (disch := decide) only [after_cons, after_nil,
      nullary_result', unary_result', binary_result', ternary_result', nary3_result',
      nullary_result_ne', unary_result_ne', binary_result_ne', ternary_result_ne', nary_result_ne']

set_option maxHeartbeats 4000000 in
theorem lookups_arg1 (V : Valuation τ sig (Elt F)) :
    after opsA V (main_arg1 : DevRef τ sig) = V (main_arg1 : DevRef τ sig) := by
  simp (disch := decide) only [after_cons, after_nil,
      nullary_result', unary_result', binary_result', ternary_result', nary3_result',
      nullary_result_ne', unary_result_ne', binary_result_ne', ternary_result_ne', nary_result_ne']

set_option maxHeartbeats 4000000 in
theorem lookups_arg2 (V : Valuation τ sig (Elt F)) :
    after opsA V (main_arg2 : DevRef τ sig) = V (main_arg2 : DevRef τ sig) := by
  simp (disch := decide) only [after_cons, after_nil,
      nullary_result', unary_result', binary_result', ternary_result', nary3_result',
      nullary_result_ne', unary_result_ne', binary_result_ne', ternary_result_ne', nary_result_ne']

set_option maxHeartbeats 4000000 in
theorem lookups_arg3 (V : Valuation τ sig (Elt F)) :
    after opsA V (main_arg3 : DevRef τ sig) = V (main_arg3 : DevRef τ sig) := by
  simp (disch := decide) only [after_cons, after_nil,
      nullary_result', unary_result', binary_result', ternary_result', nary3_result',
      nullary_result_ne', unary_result_ne', binary_result_ne', ternary_result_ne', nary_result_ne']

set_option maxHeartbeats 4000000 in
theorem lookups_arg4 (V : Valuation τ sig (Elt F)) :
    after opsA V (main_arg4 : DevRef τ sig) = V (main_arg4 : DevRef τ sig) := by
  simp (disch := decide) only [after_cons, after_nil,
      nullary_result', unary_result', binary_result', ternary_result', nary3_result',
      nullary_result_ne', unary_result_ne', binary_result_ne', ternary_result_ne', nary_result_ne']

set_option maxHeartbeats 4000000 in
theorem lookups_arg5 (V : Valuation τ sig (Elt F)) :
    after opsA V (main_arg5 : DevRef τ sig) = V (main_arg5 : DevRef τ sig) := by
  simp (disch := decide) only [after_cons, after_nil,
      nullary_result', unary_result', binary_result', ternary_result', nary3_result',
      nullary_result_ne', unary_result_ne', binary_result_ne', ternary_result_ne', nary_result_ne']

set_option maxHeartbeats 4000000 in
theorem lookups_arg6 (V : Valuation τ sig (Elt F)) :
    after opsA V (main_arg6 : DevRef τ sig) = V (main_arg6 : DevRef τ sig) := by
  simp (disch := decide) only [after_cons, after_nil,
      nullary_result', unary_result', binary_result', ternary_result', nary3_result',
      nullary_result_ne', unary_result_ne', binary_result_ne', ternary_result_ne', nary_result_ne']

set_option maxHeartbeats 4000000 in
theorem lookups_arg7 (V : Valuation τ sig (Elt F)) :
    after opsA V (main_arg7 : DevRef τ sig) = V (main_arg7 : DevRef τ sig) := by
  simp (disch := decide) only [after_cons, after_nil,
      nullary_result', unary_result', binary_result', ternary_result', nary3_result',
      nullary_result_ne', unary_result_ne', binary_result_ne', ternary_result_ne', nary_result_ne']

/-! ## The layers -/

set_option maxHeartbeats 4000000 in
/-- After the layers the result buffer holds the second layer of the side-by-side features. -/
theorem layers_out (V : Valuation τ sig (Elt F)) :
    after opsB V (main_v18 : DevRef τ sig)
      = addf
          (Host.dotGeneral dot_S320000x544_S544x16_S320000x16_1_0_0_1_n_n none
            (Host.divf (broadcastInDim S320000x544 ![] bcast_S_S320000x544 (constant S_ .f32 0x3F800000#32))
              (addf (broadcastInDim S320000x544 ![] bcast_S_S320000x544 (constant S_ .f32 0x3F800000#32))
                (Host.exp (Host.negf
                  (addf
                    (Host.dotGeneral dot_S320000x272_S272x544_S320000x544_1_0_0_1_n_n none
                      (concatenate S320000x272 1 [⟨S320000x128, (V (main_v0 : DevRef τ sig))⟩, ⟨S320000x128, (V (main_v1 : DevRef τ sig))⟩, ⟨S320000x16, (V (main_arg1 : DevRef τ sig))⟩]
                        concatenates_S320000x128_S320000x128_S320000x16_S320000x272_d1)
                      (transpose S272x544 [1, 0] (V (main_arg2 : DevRef τ sig)) transposes_S544x272_S272x544_1_0))
                    (broadcastInDim S320000x544 ![0, 1] bcast_S1x544_S320000x544_0_1
                      (broadcastInDim S1x544 ![1] bcast_S544_S1x544_1 (V (main_arg3 : DevRef τ sig)))))))))
            (transpose S544x16 [1, 0] (V (main_arg4 : DevRef τ sig)) transposes_S16x544_S544x16_1_0))
          (broadcastInDim S320000x16 ![0, 1] bcast_S1x16_S320000x16_0_1 (broadcastInDim S1x16 ![1] bcast_S16_S1x16_1 (V (main_arg5 : DevRef τ sig)))) := by
  simp (disch := decide) only [after_cons, after_nil,
      nullary_result', unary_result', binary_result', ternary_result', nary3_result',
      nullary_result_ne', unary_result_ne', binary_result_ne', ternary_result_ne', nary_result_ne']
  rfl

set_option maxHeartbeats 4000000 in
theorem layers_arg0 (V : Valuation τ sig (Elt F)) :
    after opsB V (main_arg0 : DevRef τ sig) = V (main_arg0 : DevRef τ sig) := by
  simp (disch := decide) only [after_cons, after_nil,
      nullary_result', unary_result', binary_result', ternary_result', nary3_result',
      nullary_result_ne', unary_result_ne', binary_result_ne', ternary_result_ne', nary_result_ne']

set_option maxHeartbeats 4000000 in
theorem layers_arg1 (V : Valuation τ sig (Elt F)) :
    after opsB V (main_arg1 : DevRef τ sig) = V (main_arg1 : DevRef τ sig) := by
  simp (disch := decide) only [after_cons, after_nil,
      nullary_result', unary_result', binary_result', ternary_result', nary3_result',
      nullary_result_ne', unary_result_ne', binary_result_ne', ternary_result_ne', nary_result_ne']

set_option maxHeartbeats 4000000 in
theorem layers_arg2 (V : Valuation τ sig (Elt F)) :
    after opsB V (main_arg2 : DevRef τ sig) = V (main_arg2 : DevRef τ sig) := by
  simp (disch := decide) only [after_cons, after_nil,
      nullary_result', unary_result', binary_result', ternary_result', nary3_result',
      nullary_result_ne', unary_result_ne', binary_result_ne', ternary_result_ne', nary_result_ne']

set_option maxHeartbeats 4000000 in
theorem layers_arg3 (V : Valuation τ sig (Elt F)) :
    after opsB V (main_arg3 : DevRef τ sig) = V (main_arg3 : DevRef τ sig) := by
  simp (disch := decide) only [after_cons, after_nil,
      nullary_result', unary_result', binary_result', ternary_result', nary3_result',
      nullary_result_ne', unary_result_ne', binary_result_ne', ternary_result_ne', nary_result_ne']

set_option maxHeartbeats 4000000 in
theorem layers_arg4 (V : Valuation τ sig (Elt F)) :
    after opsB V (main_arg4 : DevRef τ sig) = V (main_arg4 : DevRef τ sig) := by
  simp (disch := decide) only [after_cons, after_nil,
      nullary_result', unary_result', binary_result', ternary_result', nary3_result',
      nullary_result_ne', unary_result_ne', binary_result_ne', ternary_result_ne', nary_result_ne']

set_option maxHeartbeats 4000000 in
theorem layers_arg5 (V : Valuation τ sig (Elt F)) :
    after opsB V (main_arg5 : DevRef τ sig) = V (main_arg5 : DevRef τ sig) := by
  simp (disch := decide) only [after_cons, after_nil,
      nullary_result', unary_result', binary_result', ternary_result', nary3_result',
      nullary_result_ne', unary_result_ne', binary_result_ne', ternary_result_ne', nary_result_ne']

set_option maxHeartbeats 4000000 in
theorem layers_arg6 (V : Valuation τ sig (Elt F)) :
    after opsB V (main_arg6 : DevRef τ sig) = V (main_arg6 : DevRef τ sig) := by
  simp (disch := decide) only [after_cons, after_nil,
      nullary_result', unary_result', binary_result', ternary_result', nary3_result',
      nullary_result_ne', unary_result_ne', binary_result_ne', ternary_result_ne', nary_result_ne']

set_option maxHeartbeats 4000000 in
theorem layers_arg7 (V : Valuation τ sig (Elt F)) :
    after opsB V (main_arg7 : DevRef τ sig) = V (main_arg7 : DevRef τ sig) := by
  simp (disch := decide) only [after_cons, after_nil,
      nullary_result', unary_result', binary_result', ternary_result', nary3_result',
      nullary_result_ne', unary_result_ne', binary_result_ne', ternary_result_ne', nary_result_ne']

/-! ## The whole line -/

/-- The result buffer after the line holds the composed term of the arguments' contents. -/
theorem out_eq (V : Valuation τ sig (Elt F)) :
    after ops V (main_v18 : DevRef τ sig)
      = outT (V (main_arg0 : DevRef τ sig)) (V (main_arg1 : DevRef τ sig)) (V (main_arg2 : DevRef τ sig)) (V (main_arg3 : DevRef τ sig))
          (V (main_arg4 : DevRef τ sig)) (V (main_arg5 : DevRef τ sig)) (V (main_arg6 : DevRef τ sig)) (V (main_arg7 : DevRef τ sig)) := by
  rw [ops_split, after_append, layers_out, lookups_v0, lookups_v1, lookups_arg1, lookups_arg2, lookups_arg3, lookups_arg4,
    lookups_arg5]
  rfl

/-- No operation writes this argument. -/
theorem arg0_eq (V : Valuation τ sig (Elt F)) :
    after ops V (main_arg0 : DevRef τ sig) = V (main_arg0 : DevRef τ sig) := by
  rw [ops_split, after_append, layers_arg0, lookups_arg0]

/-- No operation writes this argument. -/
theorem arg1_eq (V : Valuation τ sig (Elt F)) :
    after ops V (main_arg1 : DevRef τ sig) = V (main_arg1 : DevRef τ sig) := by
  rw [ops_split, after_append, layers_arg1, lookups_arg1]

/-- No operation writes this argument. -/
theorem arg2_eq (V : Valuation τ sig (Elt F)) :
    after ops V (main_arg2 : DevRef τ sig) = V (main_arg2 : DevRef τ sig) := by
  rw [ops_split, after_append, layers_arg2, lookups_arg2]

/-- No operation writes this argument. -/
theorem arg3_eq (V : Valuation τ sig (Elt F)) :
    after ops V (main_arg3 : DevRef τ sig) = V (main_arg3 : DevRef τ sig) := by
  rw [ops_split, after_append, layers_arg3, lookups_arg3]

/-- No operation writes this argument. -/
theorem arg4_eq (V : Valuation τ sig (Elt F)) :
    after ops V (main_arg4 : DevRef τ sig) = V (main_arg4 : DevRef τ sig) := by
  rw [ops_split, after_append, layers_arg4, lookups_arg4]

/-- No operation writes this argument. -/
theorem arg5_eq (V : Valuation τ sig (Elt F)) :
    after ops V (main_arg5 : DevRef τ sig) = V (main_arg5 : DevRef τ sig) := by
  rw [ops_split, after_append, layers_arg5, lookups_arg5]

/-- No operation writes this argument. -/
theorem arg6_eq (V : Valuation τ sig (Elt F)) :
    after ops V (main_arg6 : DevRef τ sig) = V (main_arg6 : DevRef τ sig) := by
  rw [ops_split, after_append, layers_arg6, lookups_arg6]

/-- No operation writes this argument. -/
theorem arg7_eq (V : Valuation τ sig (Elt F)) :
    after ops V (main_arg7 : DevRef τ sig) = V (main_arg7 : DevRef τ sig) := by
  rw [ops_split, after_append, layers_arg7, lookups_arg7]

/-- From any memory with zero counters, every weakly fair execution of the reference terminates with the result
    array at the composed term of the arguments' launch contents, and the arguments unchanged. -/
theorem run_term (m : (ℓ : Loc nD τ sig) → Buf (Elt F) ℓ) (g : Dev nD → PrngReg) :
    θ_run (defs (F := F)) (onTc (τ := τ) (main (F := F))) ⟨m, fun _ => 0, g⟩ fun r => ∀ c : Dev nD,
      r.2.mem ((c.tc : Thread nD τ).loc main_v18)
          = outT (m ((c.tc : Thread nD τ).loc main_arg0)) (m ((c.tc : Thread nD τ).loc main_arg1)) (m ((c.tc : Thread nD τ).loc main_arg2)) (m ((c.tc : Thread nD τ).loc main_arg3))
              (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v18).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _)⟩)
    (run_seq scopedRefs_eq scopedSems_eq defs main (fun _ => ops) main_eq (fun _ => ops_sub) m g)

end Cert.RefSide

end
-- ==== Proof.LibEdgeIndex.lean ====
/-
  Row gather and row scatter-add read at an index.

  A table of N rows (each a row of D entries, or a single entry) is read through a column of M integer row numbers:
  * the gather produces, for position e, the row whose number is the e-th integer read as a signed number and
    clamped into [0, N - 1];
  * the accumulating scatter adds, into row v, every update row e whose integer, read as a signed number and NOT
    clamped, equals v; an integer outside [0, N) names no row and its update is dropped.
  Over the extended reals the accumulated value is the exact sum, so row v of the result is the old row plus the
  sum of the update rows over the set { e | integer e = v }.
-/
import Idealize.ShloMosaic.Lib.ValueIdx
import Idealize.ShloMosaic.PureOps.Ideal

noncomputable section

open scoped BigOperators

namespace Idealize.ShloMosaic.EdgeIndex

open Idealize.ShloMosaic Idealize.ShloMosaic.ValueIdx

theorem fin2_one_ne_zero : ¬ (1 : Fin 2) = 0 := by decide

/-- Two rank-2 indices agree exactly when their coordinates do. -/
theorem ix2_eq_iff {n0 n1 : Nat} (a a' : Fin n0) (b b' : Fin n1) : ix2 a b = ix2 a' b' ↔ a = a' ∧ b = b' :=
  ⟨fun h => ⟨congrFun h 0, congrFun h 1⟩, fun h => by rw [h.1, h.2]⟩

/-- Two rank-1 indices agree exactly when their coordinates do. -/
theorem ix1_eq_iff {n0 : Nat} (a a' : Fin n0) : ix1 a = ix1 a' ↔ a = a' :=
  ⟨fun h => congrFun h 0, fun h => by rw [h]⟩

/-! ## Gather of whole rows of an [N, D] table at an [M, 1] column of row numbers -/

section RowGather
variable {α : Type}

/-- The dimension numbers of x[idx] for x : [N, D] and idx : [M] (as an [M, 1] column): result [M, D]. -/
abbrev rowGatherDims (N M D : Nat)
    (wf : GatherDims.WF ⟨2, ![N, D]⟩ ⟨2, ![M, 1]⟩ ⟨2, ![M, D]⟩ [1] [0] [] [0] [] 1 ![1, D]) :
    GatherDims ⟨2, ![N, D]⟩ ⟨2, ![M, 1]⟩ ⟨2, ![M, D]⟩ where
  offsetDims := [1]
  collapsedSliceDims := [0]
  operandBatchingDims := []
  startIndicesBatchingDims := []
  startIndexMap := [0]
  indexVectorDim := 1
  sliceSizes := ![1, D]
  wf := wf

/-- Entry (e, k) of the gathered array is entry k of the row numbered by the e-th integer, clamped. -/
theorem gather_row_apply {N M D w : Nat} (hN : 0 < N)
    (wf : GatherDims.WF ⟨2, ![N, D]⟩ ⟨2, ![M, 1]⟩ ⟨2, ![M, D]⟩ [1] [0] [] [0] [] 1 ![1, D])
    (x : (⟨2, ![N, D]⟩ : Shape).Idx → α) (idx : IVec ⟨2, ![M, 1]⟩ w) (e : Fin M) (k : Fin D) :
    Host.gather (rowGatherDims N M D wf) x idx (ix2 e k)
      = x (ix2 ⟨min (idx (ix2 e 0)).toInt.toNat (N - 1), by omega⟩ k) := by
  have h0 : ((rowGatherDims N M D wf).operandIdx (ix2 e k) idx (0 : Fin 2)).val
      = min (idx (ix2 e 0)).toInt.toNat (N - 1) := by
    show (rowGatherDims N M D wf).start (ix2 e k) idx (0 : Fin 2) + (rowGatherDims N M D wf).batchCoord (ix2 e k) (0 : Fin 2)
      + (rowGatherDims N M D wf).offCoord (ix2 e k) (0 : Fin 2) = _
    rw [GatherDims.batchCoord_eq_zero _ _ _ List.not_mem_nil, Nat.add_zero,
      GatherDims.offCoord_eq_zero _ _ _ (fun h => ((GatherDims.mem_sKept _ _).mp h).1 (List.mem_singleton.mpr rfl)),
      Nat.add_zero]
    unfold GatherDims.start
    rw [dif_pos (show (0 : Fin 2) ∈ (rowGatherDims N M D wf).startIndexMap from List.mem_singleton.mpr rfl)]
    have hsi : (rowGatherDims N M D wf).siIdx (ix2 e k) ⟨List.idxOf (0 : Fin 2) (rowGatherDims N M D wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  have h1 : ((rowGatherDims N M D wf).operandIdx (ix2 e k) idx (1 : Fin 2)).val = k.val := by
    show (rowGatherDims N M D wf).start (ix2 e k) idx (1 : Fin 2) + (rowGatherDims N M D wf).batchCoord (ix2 e k) (1 : Fin 2)
      + (rowGatherDims N M D wf).offCoord (ix2 e k) (1 : Fin 2) = _
    rw [GatherDims.batchCoord_eq_zero _ _ _ List.not_mem_nil, Nat.add_zero]
    have hs : (rowGatherDims N M D wf).start (ix2 e k) idx (1 : Fin 2) = 0 := by
      unfold GatherDims.start
      rw [dif_neg (fun h => absurd (List.mem_singleton.mp h) fin2_one_ne_zero)]
    rw [hs, Nat.zero_add]
    unfold GatherDims.offCoord
    rw [dif_pos ((GatherDims.mem_sKept _ _).mpr ⟨fun h => absurd (List.mem_singleton.mp h) fin2_one_ne_zero, List.not_mem_nil⟩)]
    rfl
  unfold Host.gather
  congr 1
  funext a
  refine Fin.ext ?_
  match a with
  | ⟨0, _⟩ => exact h0
  | ⟨1, _⟩ => exact h1

end RowGather

/-! ## Gather of single entries of an [N] table at an [M, 1] column of positions -/

section VecGather
variable {α : Type}

/-- The dimension numbers of x[idx] for x : [N] and idx : [M] (as an [M, 1] column): result [M]. -/
abbrev vecGatherDims (N M : Nat)
    (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

/-- Entry e of the gathered vector is the entry numbered by the e-th integer, clamped. -/
theorem gather_vec_apply {N M w : Nat} (hN : 0 < N)
    (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (e : Fin M) :
    Host.gather (vecGatherDims N M wf) x idx (ix1 e)
      = x (ix1 ⟨min (idx (ix2 e 0)).toInt.toNat (N - 1), by omega⟩) := by
  unfold Host.gather
  congr 1
  funext a
  obtain rfl : a = 0 := Subsingleton.elim _ _
  refine Fin.ext ?_
  show (vecGatherDims N M wf).start (ix1 e) idx 0 + (vecGatherDims N M wf).batchCoord (ix1 e) 0
      + (vecGatherDims N M wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N M wf).startIndexMap from List.mem_singleton.mpr rfl)]
  have hsi : (vecGatherDims N M wf).siIdx (ix1 e) ⟨List.idxOf (0 : Fin 1) (vecGatherDims N M wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

end VecGather

/-! ## Accumulating scatter of [M, D] update rows into an [N, D] table at an [M, 1] column of row numbers -/

section RowScatter

/-- The dimension numbers of x.at[idx].add(u) for x : [N, D], idx : [M] (as an [M, 1] column), u : [M, D]. -/
abbrev rowScatterDims (N M D : Nat)
    (wf : ScatterDims.WF ⟨2, ![N, D]⟩ ⟨2, ![M, 1]⟩ ⟨2, ![M, D]⟩ [1] [0] [0] 1) :
    ScatterDims ⟨2, ![N, D]⟩ ⟨2, ![M, 1]⟩ ⟨2, ![M, D]⟩ where
  updateWindowDims := [1]
  insertedWindowDims := [0]
  scatterDimsToOperandDims := [0]
  indexVectorDim := 1
  wf := wf

/-- Update entry (e, k) lands on entry (z, k) of the table, z the e-th integer read signed, when 0 ≤ z < N, and
    nowhere otherwise. -/
theorem resultIdx_row {N M D w : Nat}
    (wf : ScatterDims.WF ⟨2, ![N, D]⟩ ⟨2, ![M, 1]⟩ ⟨2, ![M, D]⟩ [1] [0] [0] 1)
    (idx : IVec ⟨2, ![M, 1]⟩ w) (e : Fin M) (k : Fin D) :
    (rowScatterDims N M D wf).resultIdx? (ix2 e k) idx =
      if h : 0 ≤ (idx (ix2 e 0)).toInt ∧ (idx (ix2 e 0)).toInt < (N : Int) then
        some (ix2 ⟨(idx (ix2 e 0)).toInt.toNat, by omega⟩ k) else none := by
  have hs0 : (rowScatterDims N M D wf).start (ix2 e k) idx (0 : Fin 2) = (idx (ix2 e 0)).toInt := by
    unfold ScatterDims.start
    rw [dif_pos (show (0 : Fin 2) ∈ (rowScatterDims N M D wf).scatterDimsToOperandDims from
      List.mem_singleton.mpr rfl)]
    have hsi : (rowScatterDims N M D wf).siIdx (ix2 e k)
        ⟨List.idxOf (0 : Fin 2) (rowScatterDims N M D wf).scatterDimsToOperandDims,
          List.idxOf_lt_length_iff.2 (List.mem_singleton.mpr rfl)⟩ = ix2 e 0 := by
      funext b; refine Fin.ext ?_
      match b with
      | ⟨0, _⟩ => rfl
      | ⟨1, _⟩ => rfl
    rw [hsi]
  have hw0 : (rowScatterDims N M D wf).window (ix2 e k) (0 : Fin 2) = 0 := by
    unfold ScatterDims.window
    rw [dif_neg (by simp [ScatterDims.sKept, Shape.kept])]
  have hs1 : (rowScatterDims N M D wf).start (ix2 e k) idx (1 : Fin 2) = 0 := by
    unfold ScatterDims.start
    rw [dif_neg (fun h => absurd (List.mem_singleton.mp h) fin2_one_ne_zero)]
  have hw1 : (rowScatterDims N M D wf).window (ix2 e k) (1 : Fin 2) = k.val := by
    unfold ScatterDims.window
    rw [dif_pos (by simp [ScatterDims.sKept, Shape.kept])]
    rfl
  unfold ScatterDims.resultIdx?
  by_cases h : 0 ≤ (idx (ix2 e 0)).toInt ∧ (idx (ix2 e 0)).toInt < (N : Int)
  · have hP0 : 0 ≤ (rowScatterDims N M D wf).start (ix2 e k) idx (0 : Fin 2) + ((rowScatterDims N M D wf).window (ix2 e k) (0 : Fin 2) : Int)
        ∧ (rowScatterDims N M D wf).start (ix2 e k) idx (0 : Fin 2) + ((rowScatterDims N M D wf).window (ix2 e k) (0 : Fin 2) : Int) < (N : Int) := by
      rw [hs0, hw0]; simpa using h
    have hP1 : 0 ≤ (rowScatterDims N M D wf).start (ix2 e k) idx (1 : Fin 2) + ((rowScatterDims N M D wf).window (ix2 e k) (1 : Fin 2) : Int)
        ∧ (rowScatterDims N M D wf).start (ix2 e k) idx (1 : Fin 2) + ((rowScatterDims N M D wf).window (ix2 e k) (1 : Fin 2) : Int) < (D : Int) := by
      rw [hs1, hw1]; exact ⟨by omega, by have := k.isLt; omega⟩
    have hall : ∀ a : Fin 2, 0 ≤ (rowScatterDims N M D wf).start (ix2 e k) idx a + ((rowScatterDims N M D wf).window (ix2 e k) a : Int)
        ∧ (rowScatterDims N M D wf).start (ix2 e k) idx a + ((rowScatterDims N M D wf).window (ix2 e k) a : Int)
          < (((⟨2, ![N, D]⟩ : Shape).size a : Nat) : Int) := fun a =>
      match a with
      | ⟨0, _⟩ => hP0
      | ⟨1, _⟩ => hP1
    rw [dif_pos hall, dif_pos h]
    congr 1
    funext a
    refine Fin.ext ?_
    match a with
    | ⟨0, _⟩ =>
      show ((rowScatterDims N M D wf).start (ix2 e k) idx (0 : Fin 2)
        + ((rowScatterDims N M D wf).window (ix2 e k) (0 : Fin 2) : Int)).toNat = (idx (ix2 e 0)).toInt.toNat
      rw [hs0, hw0]; simp
    | ⟨1, _⟩ =>
      show ((rowScatterDims N M D wf).start (ix2 e k) idx (1 : Fin 2)
        + ((rowScatterDims N M D wf).window (ix2 e k) (1 : Fin 2) : Int)).toNat = k.val
      rw [hs1, hw1]; simp
  · rw [dif_neg h, dif_neg]
    intro hall
    have h0 : 0 ≤ (rowScatterDims N M D wf).start (ix2 e k) idx (0 : Fin 2) + ((rowScatterDims N M D wf).window (ix2 e k) (0 : Fin 2) : Int)
        ∧ (rowScatterDims N M D wf).start (ix2 e k) idx (0 : Fin 2) + ((rowScatterDims N M D wf).window (ix2 e k) (0 : Fin 2) : Int) < (N : Int) :=
      hall 0
    rw [hs0, hw0] at h0
    exact h (by simpa using h0)

/-- Over the extended reals, entry (v, k) of the accumulated table is the old entry plus the sum of the update
    entries (e, k) over the positions e whose integer, read signed, is v. -/
theorem scatterAdd_row_apply {N M D w : Nat}
    (wf : ScatterDims.WF ⟨2, ![N, D]⟩ ⟨2, ![M, 1]⟩ ⟨2, ![M, D]⟩ [1] [0] [0] 1)
    (x : (⟨2, ![N, D]⟩ : Shape).Idx → EReal) (idx : IVec ⟨2, ![M, 1]⟩ w)
    (upd : (⟨2, ![M, D]⟩ : Shape).Idx → EReal) (v : Fin N) (k : Fin D) :
    Ideal.hostScatterAdd (rowScatterDims N M D wf) x idx upd (ix2 v k)
      = x (ix2 v k) + ∑ e ∈ Finset.univ.filter (fun e : Fin M => (idx (ix2 e 0)).toInt = (v.val : Int)), upd (ix2 e k) := by
  unfold Ideal.hostScatterAdd
  congr 1
  rw [Finset.sum_filter, sum_idx2, Finset.sum_filter]
  refine Finset.sum_congr rfl fun e _ => ?_
  by_cases hz : (idx (ix2 e 0)).toInt = (v.val : Int)
  · rw [if_pos hz]
    have hin : 0 ≤ (idx (ix2 e 0)).toInt ∧ (idx (ix2 e 0)).toInt < (N : Int) := by
      rw [hz]; exact ⟨by omega, by have := v.isLt; omega⟩
    rw [Finset.sum_eq_single k]
    · rw [if_pos]
      rw [resultIdx_row, dif_pos hin]
      congr 1
      rw [ix2_eq_iff]
      exact ⟨Fin.ext (by show (idx (ix2 e 0)).toInt.toNat = v.val; omega), rfl⟩
    · intro k' _ hk'
      rw [if_neg]
      rw [resultIdx_row, dif_pos hin]
      intro hh
      exact hk' ((ix2_eq_iff _ _ _ _).mp (Option.some.inj hh)).2
    · intro hk; exact absurd (Finset.mem_univ k) hk
  · rw [if_neg hz]
    refine Finset.sum_eq_zero fun k' _ => ?_
    rw [if_neg]
    rw [resultIdx_row]
    split
    · rename_i hin
      intro hh
      have := ((ix2_eq_iff _ _ _ _).mp (Option.some.inj hh)).1
      have hv : (idx (ix2 e 0)).toInt.toNat = v.val := congrArg Fin.val this
      exact hz (by omega)
    · intro hh; cases hh

end RowScatter

/-! ## Accumulating scatter of [M] updates into an [N] vector at an [M, 1] column of positions -/

section VecScatter

/-- The dimension numbers of x.at[idx].add(u) for x : [N], idx : [M] (as an [M, 1] column), u : [M]. -/
abbrev vecScatterDims (N M : Nat)
    (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

/-- Update e lands on entry z of the vector, z the e-th integer read signed, when 0 ≤ z < N, and nowhere otherwise. -/
theorem resultIdx_vec {N M w : Nat}
    (wf : ScatterDims.WF ⟨1, ![N]⟩ ⟨2, ![M, 1]⟩ ⟨1, ![M]⟩ [] [0] [0] 1)
    (idx : IVec ⟨2, ![M, 1]⟩ w) (e : Fin M) :
    (vecScatterDims N M wf).resultIdx? (ix1 e) idx =
      if h : 0 ≤ (idx (ix2 e 0)).toInt ∧ (idx (ix2 e 0)).toInt < (N : Int) then
        some (ix1 ⟨(idx (ix2 e 0)).toInt.toNat, by omega⟩) else none := by
  have hs0 : (vecScatterDims N M wf).start (ix1 e) idx (0 : Fin 1) = (idx (ix2 e 0)).toInt := by
    unfold ScatterDims.start
    rw [dif_pos (show (0 : Fin 1) ∈ (vecScatterDims N M wf).scatterDimsToOperandDims from
      List.mem_singleton.mpr rfl)]
    have hsi : (vecScatterDims N M wf).siIdx (ix1 e)
        ⟨List.idxOf (0 : Fin 1) (vecScatterDims N M wf).scatterDimsToOperandDims,
          List.idxOf_lt_length_iff.2 (List.mem_singleton.mpr rfl)⟩ = ix2 e 0 := by
      funext b; refine Fin.ext ?_
      match b with
      | ⟨0, _⟩ => rfl
      | ⟨1, _⟩ => rfl
    rw [hsi]
  have hw0 : (vecScatterDims N M wf).window (ix1 e) (0 : Fin 1) = 0 := by
    unfold ScatterDims.window
    rw [dif_neg (by simp [ScatterDims.sKept, Shape.kept])]
  unfold ScatterDims.resultIdx?
  by_cases h : 0 ≤ (idx (ix2 e 0)).toInt ∧ (idx (ix2 e 0)).toInt < (N : Int)
  · have hP0 : 0 ≤ (vecScatterDims N M wf).start (ix1 e) idx (0 : Fin 1) + ((vecScatterDims N M wf).window (ix1 e) (0 : Fin 1) : Int)
        ∧ (vecScatterDims N M wf).start (ix1 e) idx (0 : Fin 1) + ((vecScatterDims N M wf).window (ix1 e) (0 : Fin 1) : Int) < (N : Int) := by
      rw [hs0, hw0]; simpa using h
    have hall : ∀ a : Fin 1, 0 ≤ (vecScatterDims N M wf).start (ix1 e) idx a + ((vecScatterDims N M wf).window (ix1 e) a : Int)
        ∧ (vecScatterDims N M wf).start (ix1 e) idx a + ((vecScatterDims N M wf).window (ix1 e) a : Int)
          < (((⟨1, ![N]⟩ : Shape).size a : Nat) : Int) := fun a =>
      match a with
      | ⟨0, _⟩ => hP0
    rw [dif_pos hall, dif_pos h]
    congr 1
    funext a
    refine Fin.ext ?_
    match a with
    | ⟨0, _⟩ =>
      show ((vecScatterDims N M wf).start (ix1 e) idx (0 : Fin 1)
        + ((vecScatterDims N M wf).window (ix1 e) (0 : Fin 1) : Int)).toNat = (idx (ix2 e 0)).toInt.toNat
      rw [hs0, hw0]; simp
  · rw [dif_neg h, dif_neg]
    intro hall
    have h0 : 0 ≤ (vecScatterDims N M wf).start (ix1 e) idx (0 : Fin 1) + ((vecScatterDims N M wf).window (ix1 e) (0 : Fin 1) : Int)
        ∧ (vecScatterDims N M wf).start (ix1 e) idx (0 : Fin 1) + ((vecScatterDims N M wf).window (ix1 e) (0 : Fin 1) : Int) < (N : Int) :=
      hall 0
    rw [hs0, hw0] at h0
    exact h (by simpa using h0)

/-- Over the extended reals, entry v of the accumulated vector is the old entry plus the sum of the updates over the
    positions e whose integer, read signed, is v. -/
theorem scatterAdd_vec_apply {N M w : Nat}
    (wf : ScatterDims.WF ⟨1, ![N]⟩ ⟨2, ![M, 1]⟩ ⟨1, ![M]⟩ [] [0] [0] 1)
    (x : (⟨1, ![N]⟩ : Shape).Idx → EReal) (idx : IVec ⟨2, ![M, 1]⟩ w)
    (upd : (⟨1, ![M]⟩ : Shape).Idx → EReal) (v : Fin N) :
    Ideal.hostScatterAdd (vecScatterDims N M wf) x idx upd (ix1 v)
      = x (ix1 v) + ∑ e ∈ Finset.univ.filter (fun e : Fin M => (idx (ix2 e 0)).toInt = (v.val : Int)), upd (ix1 e) := by
  unfold Ideal.hostScatterAdd
  congr 1
  rw [Finset.sum_filter, Finset.sum_filter]
  rw [← Equiv.sum_comp (Equiv.ofBijective (fun e : Fin M => (ix1 e : (⟨1, ![M]⟩ : Shape).Idx))
    ⟨fun a b h => (ix1_eq_iff a b).mp h, fun j => ⟨j 0, (eq_ix1 j).symm⟩⟩)]
  refine Finset.sum_congr rfl fun e _ => ?_
  show (if (vecScatterDims N M wf).resultIdx? (ix1 e) idx = some (ix1 v) then upd (ix1 e) else 0) = _
  rw [resultIdx_vec]
  by_cases hz : (idx (ix2 e 0)).toInt = (v.val : Int)
  · have hin : 0 ≤ (idx (ix2 e 0)).toInt ∧ (idx (ix2 e 0)).toInt < (N : Int) := by
      rw [hz]; exact ⟨by omega, by have := v.isLt; omega⟩
    rw [dif_pos hin, if_pos hz, if_pos]
    congr 1
    rw [ix1_eq_iff]
    exact Fin.ext (by show (idx (ix2 e 0)).toInt.toNat = v.val; omega)
  · rw [if_neg hz, if_neg]
    split
    · intro hh
      have := (ix1_eq_iff _ _).mp (Option.some.inj hh)
      have hv : (idx (ix2 e 0)).toInt.toNat = v.val := congrArg Fin.val this
      exact hz (by omega)
    · intro hh; cases hh

end VecScatter

end Idealize.ShloMosaic.EdgeIndex

end
-- ==== Proof.LibBroadcastIn.lean ====
/-
  A host broadcast along named axes, read at an index, for the small shapes a per-row scale and a per-column bias
  take: a vector as a column, a column across the columns, a vector as a row, a row down the rows. Generic in the
  extents.
-/
import Idealize.ShloMosaic.Lib.Pipeline.Value
import Idealize.ShloMosaic.Lib.ValueIdx

noncomputable section

namespace Idealize.ShloMosaic.ValueIdx

variable {α : Type}

/-- A vector [a] as a column [a, 1]: entry (e, 0) is entry e. -/
theorem broadcastInDim_a_a1_apply {a : ℕ} (x : (⟨1, ![a]⟩ : Shape).Idx → α)
    (h : (⟨1, ![a]⟩ : Shape).BroadcastsInDim ⟨2, ![a, 1]⟩ ![0]) (e : Fin a) (u : Fin 1) :
    broadcastInDim ⟨2, ![a, 1]⟩ ![0] h x (ix2 e u) = x (ix1 e) := by
  refine broadcastInDim_apply ![0] h x (ix2 e u) (ix1 e) fun ax => ?_
  match ax with
  | ⟨0, _⟩ =>
    show e.val = if a = 1 then 0 else e.val
    have := e.isLt
    split <;> omega

/-- A column [a, 1] across b columns: entry (e, k) is entry (e, 0). -/
theorem broadcastInDim_a1_ab_apply {a b : ℕ} (x : (⟨2, ![a, 1]⟩ : Shape).Idx → α)
    (h : (⟨2, ![a, 1]⟩ : Shape).BroadcastsInDim ⟨2, ![a, b]⟩ ![0, 1]) (e : Fin a) (k : Fin b) :
    broadcastInDim ⟨2, ![a, b]⟩ ![0, 1] h x (ix2 e k) = x (ix2 e (0 : Fin 1)) := by
  refine broadcastInDim_apply ![0, 1] h x (ix2 e k) (ix2 e (0 : Fin 1)) fun ax => ?_
  match ax with
  | ⟨0, _⟩ =>
    show e.val = if a = 1 then 0 else e.val
    have := e.isLt
    split <;> omega
  | ⟨1, _⟩ =>
    show (0 : ℕ) = if (1 : ℕ) = 1 then 0 else k.val
    rw [if_pos rfl]

/-- A vector [b] as a row [1, b]: entry (0, k) is entry k. -/
theorem broadcastInDim_b_1b_apply {b : ℕ} (x : (⟨1, ![b]⟩ : Shape).Idx → α)
    (h : (⟨1, ![b]⟩ : Shape).BroadcastsInDim ⟨2, ![1, b]⟩ ![1]) (u : Fin 1) (k : Fin b) :
    broadcastInDim ⟨2, ![1, b]⟩ ![1] h x (ix2 u k) = x (ix1 k) := by
  refine broadcastInDim_apply ![1] h x (ix2 u k) (ix1 k) fun ax => ?_
  match ax with
  | ⟨0, _⟩ =>
    show k.val = if b = 1 then 0 else k.val
    have := k.isLt
    split <;> omega

/-- A row [1, b] down a rows: entry (n, k) is entry (0, k). -/
theorem broadcastInDim_1b_ab_apply {a b : ℕ} (x : (⟨2, ![1, b]⟩ : Shape).Idx → α)
    (h : (⟨2, ![1, b]⟩ : Shape).BroadcastsInDim ⟨2, ![a, b]⟩ ![0, 1]) (n : Fin a) (k : Fin b) :
    broadcastInDim ⟨2, ![a, b]⟩ ![0, 1] h x (ix2 n k) = x (ix2 (0 : Fin 1) k) := by
  refine broadcastInDim_apply ![0, 1] h x (ix2 n k) (ix2 (0 : Fin 1) k) fun ax => ?_
  match ax with
  | ⟨0, _⟩ =>
    show (0 : ℕ) = if (1 : ℕ) = 1 then 0 else n.val
    rw [if_pos rfl]
  | ⟨1, _⟩ =>
    show k.val = if b = 1 then 0 else k.val
    have := k.isLt
    split <;> omega

end Idealize.ShloMosaic.ValueIdx

end
-- ==== Proof.RefValueTake.lean ====
/-
  The masked row lookup read at an index.

  For row numbers between 0 and 9999 the lookup's wrap of negative numbers leaves the number as it is, its in-range
  mask is one everywhere, so the select returns the gathered row and never the fill value, and the gather's clamp of
  the signed reading into the table's rows is the row the specification names.
-/
import proofs.«206088_g82248623718559_cont_9to1c4b_230_21_alg».proof.Proof.RefOps
import proofs.«206088_g82248623718559_cont_9to1c4b_230_21_alg».proof.Proof.Spec
import proofs.«206088_g82248623718559_cont_9to1c4b_230_21_alg».proof.Proof.LibEdgeIndex
import proofs.«206088_g82248623718559_cont_9to1c4b_230_21_alg».proof.Proof.LibBroadcastIn
import Idealize.ShloMosaic.Lib.ReduceAll

noncomputable section

namespace Cert.RefSide

open Cert.ReferenceIdeal Cert.ReferenceIdeal.Gen Idealize.ShloMosaic Idealize.ShloMosaic.ValueIdx

/-- A word below 10000 reads the same signed and unsigned. -/
theorem toInt_of_lt {w : BitVec 32} (h : w.toNat < 10000) : w.toInt = (w.toNat : Int) := by
  rw [BitVec.toInt_eq_toNat_cond]; split
  · rfl
  · omega

/-- A reduction by "and" of an array of ones, from one, is one. -/
theorem reduce_andi_ones {s t u : Shape} {axes : List (Fin s.rank)} (x : s.Idx → BitVec 1) (init : u.Idx → BitVec 1)
    (h : s.ReducesTo axes t) (hu : 0 < u.numel) (j : t.Idx) (hx : ∀ i, x i = 1#1) (hi : ∀ k, init k = 1#1) :
    Host.reduce IntOp.andi x init h hu j = 1#1 := by
  rw [Host.reduce_eq_foldl]
  have key : ∀ (l : List s.Idx) (b : BitVec 1), b = 1#1 → l.foldl (fun r i => IntOp.andi r (x i)) b = 1#1 := by
    intro l
    induction l with
    | nil => intro b hb; exact hb
    | cons a l ih =>
      intro b hb
      rw [List.foldl_cons]
      exact ih _ (IntOp.andi_eq_one.mpr ⟨hb, hx a⟩)
  exact key _ _ (hi _)

/-- A vector [a] along the rows of [a, b]: entry (e, k) is entry e. -/
theorem broadcastInDim_a_ab_apply {α : Type} {a b : ℕ} (x : (⟨1, ![a]⟩ : Shape).Idx → α)
    (h : (⟨1, ![a]⟩ : Shape).BroadcastsInDim ⟨2, ![a, b]⟩ ![0]) (e : Fin a) (k : Fin b) :
    broadcastInDim ⟨2, ![a, b]⟩ ![0] h x (ix2 e k) = x (ix1 e) := by
  refine broadcastInDim_apply ![0] h x (ix2 e k) (ix1 e) fun ax => ?_
  match ax with
  | ⟨0, _⟩ =>
    show e.val = if a = 1 then 0 else e.val
    have := e.isLt
    split <;> omega

/-- A row number between 0 and 9999 is not wrapped. -/
theorem wrapT_apply (idx : IVec S320000 32) (i : S320000.Idx) (h : (idx i).toNat < 10000) : wrapT idx i = idx i := by
  unfold wrapT
  rw [select_apply]
  have hc : cmpi .slt idx (broadcastInDim S320000 ![] bcast_S_S320000 (constantI S_ 32 0#32)) i = 0#1 := by
    refine eq_zero_of_ne_one fun h1 => ?_
    have h2 : (idx i).toInt < (0#32 : BitVec 32).toInt := IntOp.cmpi_slt.mp h1
    rw [toInt_of_lt h, show (0#32 : BitVec 32).toInt = 0 from by decide] at h2
    omega
  rw [hc, select_zero]

/-- The one-column array of row numbers at (e, 0). -/
theorem colT_apply (idx : IVec S320000 32) (e : Fin 320000) (u : Fin 1) : colT idx (ix2 e u) = wrapT idx (ix1 e) := by
  unfold colT
  exact broadcastInDim_a_a1_apply _ _ e u

/-- The in-range mask is one where every row number lies in 0 … 9999. -/
theorem maskT_apply (idx : IVec S320000 32) (hidx : ∀ e : Fin 320000, (idx (ix1 e)).toNat < 10000) (j : S320000.Idx) :
    maskT idx j = 1#1 := by
  unfold maskT
  refine reduce_andi_ones _ _ _ _ j (fun i => ?_) (fun _ => rfl)
  obtain ⟨e, u, rfl⟩ : ∃ (e : Fin 320000) (u : Fin 1), i = ix2 e u := ⟨i 0, i 1, eq_ix2 i⟩
  have hcol : colT idx (ix2 e u) = idx (ix1 e) := by
    rw [colT_apply, wrapT_apply _ _ (hidx e)]
  have hlt := hidx e
  refine IntOp.andi_eq_one.mpr ⟨?_, ?_⟩
  · refine IntOp.cmpi_sge.mpr ?_
    show (0#32 : BitVec 32).toInt ≤ (colT idx (ix2 e u)).toInt
    rw [hcol, toInt_of_lt hlt, show (0#32 : BitVec 32).toInt = 0 from by decide]
    omega
  · refine IntOp.cmpi_sle.mpr ?_
    show (colT idx (ix2 e u)).toInt ≤ (9999#32 : BitVec 32).toInt
    rw [hcol, toInt_of_lt hlt, show (9999#32 : BitVec 32).toInt = 9999 from by decide]
    omega

/-- The lookup at (e, k): entry k of the table's row that the e-th row number names. -/
theorem takeT_apply (tbl : FVec Ideal S10000x128 .f32) (idx : IVec S320000 32)
    (hidx : ∀ e : Fin 320000, (idx (ix1 e)).toNat < 10000) (e : Fin 320000) (k : Fin 128) :
    takeT tbl idx (ix2 e k) = tbl (ix2 (Cert.Spec.rowOf (idx (ix1 e))) k) := by
  unfold takeT
  rw [select_apply]
  have hm : broadcastInDim S320000x128 ![0] bcast_S320000_S320000x128_0 (maskT idx) (ix2 e k) = 1#1 := by
    rw [broadcastInDim_a_ab_apply]; exact maskT_apply idx hidx _
  rw [hm, select_one]
  refine (Idealize.ShloMosaic.EdgeIndex.gather_row_apply (N := 10000) (M := 320000) (D := 128) (by decide)
    gather_S10000x128_S320000x1_S320000x128_1_0_n_n_0_1_1128_wf tbl (colT idx) e k).trans ?_
  have hc : colT idx (ix2 e 0) = idx (ix1 e) := by rw [colT_apply, wrapT_apply _ _ (hidx e)]
  have hrow : (⟨min (colT idx (ix2 e 0)).toInt.toNat (10000 - 1), by omega⟩ : Fin 10000) = Cert.Spec.rowOf (idx (ix1 e)) :=
    Fin.ext (by
      show min (colT idx (ix2 e 0)).toInt.toNat (10000 - 1) = min (idx (ix1 e)).toInt.toNat 9999
      rw [hc])
  exact congrArg (fun r : Fin 10000 => tbl (ix2 r k)) hrow

end Cert.RefSide

end
-- ==== Proof.LibHostDot.lean ====
/-
  The host's plain matrix product read at an index, over the extended reals, for a program's own record of
  dimension numbers: entry (a, b) of l @ r is the sum over k of l(a, k) · r(k, b). Generic in the extents.
-/
import proofs.«206088_g82248623718559_cont_9to1c4b_230_21_alg».proof.Proof.LibMatmul

noncomputable section

open scoped BigOperators

namespace Idealize.ShloMosaic.MatmulIdx

open Idealize.ShloMosaic Idealize.ShloMosaic.ValueIdx

theorem host_dot_ix2 {A K B : Nat} (wf : DotDims.WF ⟨2, ![A, K]⟩ ⟨2, ![K, B]⟩ ⟨2, ![A, B]⟩ [1] [0] [0] [1] [] [])
    (d : DotDims ⟨2, ![A, K]⟩ ⟨2, ![K, B]⟩ ⟨2, ![A, B]⟩) (hd : d = mmDims A K B wf) {φ₁ φ₂ : FTy}
    (prec : Option ContractPrecision) (l : FVec Ideal ⟨2, ![A, K]⟩ φ₁) (r : FVec Ideal ⟨2, ![K, B]⟩ φ₂) (a : Fin A) (b : Fin B) :
    Host.dotGeneral (F := Ideal) d prec l r (ix2 a b) = ∑ k : Fin K, l (ix2 a k) * r (ix2 k b) := by
  subst hd
  simp only [Host.dotGeneral]
  exact dotGeneral_ix2 wf prec _ l r a b

end Idealize.ShloMosaic.MatmulIdx

end
-- ==== Proof.RefValue.lean ====
/-
  The reference's composed term, read at an index, is the specification.

  With both row-number arrays between 0 and 9999 the two lookups return the node rows the specification names, so the
  side-by-side array is the specification's feature row (three cases on the column). A matrix product with a
  transposed weight matrix read at an index is the sum over the shared axis of the row entries times the weight rows'
  entries; a bias broadcast along the rows reads the bias entry; and the quotient, exponential and negation of the
  host are the ideal ones element by element, the constant being one.
-/
import proofs.«206088_g82248623718559_cont_9to1c4b_230_21_alg».proof.Proof.RefValueTake
import proofs.«206088_g82248623718559_cont_9to1c4b_230_21_alg».proof.Proof.LibHostDot
import Idealize.ShloMosaic.Lib.IdealHost
import Idealize.ShloMosaic.Lib.ValueLayout

noncomputable section

open scoped BigOperators

namespace Cert.RefSide

open Cert.ReferenceIdeal Cert.ReferenceIdeal.Gen Idealize.ShloMosaic Idealize.ShloMosaic.ValueIdx
  Idealize.ShloMosaic.MatmulIdx

variable (nodes : FVec Ideal S10000x128 .f32) (edges : FVec Ideal S320000x16 .f32) (W1 : FVec Ideal S544x272 .f32)
  (b1 : FVec Ideal S544 .f32) (W2 : FVec Ideal S16x544 .f32) (b2 : FVec Ideal S16 .f32) (snd rcv : IVec S320000 32)

/-- The host's exponential at an index is the exponential of the element. -/
theorem hostExp_apply {s : Shape} {φ : FTy} (x : FVec Ideal s φ) (i : s.Idx) : Host.exp x i = Ideal.exp (x i) := rfl

/-- The host's negation at an index is the negation of the element. -/
theorem hostNegf_apply {s : Shape} {φ : FTy} (x : FVec Ideal s φ) (i : s.Idx) : Host.negf x i = -(x i) := rfl

/-- The side-by-side array at (e, k) is feature k of edge e. -/
theorem catT_apply (hs : ∀ e : Fin 320000, (snd (ix1 e)).toNat < 10000) (hr : ∀ e : Fin 320000, (rcv (ix1 e)).toNat < 10000)
    (e : Fin 320000) (k : Fin 272) :
    catT nodes edges snd rcv (ix2 e k) = Cert.Spec.feat nodes edges snd rcv e k := by
  unfold catT Cert.Spec.feat
  by_cases h1 : k.val < 128
  · rw [dif_pos h1]
    refine (concatenate_apply_piece (t := S320000x272) 1 [⟨S320000x128, takeT nodes snd⟩, ⟨S320000x128, takeT nodes rcv⟩, ⟨S320000x16, edges⟩] concatenates_S320000x128_S320000x128_S320000x16_S320000x272_d1
      (ix2 e k) 0 (Nat.zero_lt_succ _) S320000x128 (takeT nodes snd) rfl rfl 0 rfl
      (ix2 e ⟨k.val, h1⟩) ?_ ?_).trans (takeT_apply nodes snd hs e ⟨k.val, h1⟩)
    · intro b hb
      match b with
      | ⟨0, _⟩ => rfl
      | ⟨1, _⟩ => exact absurd rfl hb
    · show 0 + k.val = k.val
      omega
  · rw [dif_neg h1]
    by_cases h2 : k.val < 256
    · rw [dif_pos h2]
      refine (concatenate_apply_piece (t := S320000x272) 1 [⟨S320000x128, takeT nodes snd⟩, ⟨S320000x128, takeT nodes rcv⟩, ⟨S320000x16, edges⟩] concatenates_S320000x128_S320000x128_S320000x16_S320000x272_d1
        (ix2 e k) 1 (Nat.succ_lt_succ (Nat.zero_lt_succ _)) S320000x128 (takeT nodes rcv) rfl rfl 128 rfl
        (ix2 e ⟨k.val - 128, by omega⟩) ?_ ?_).trans (takeT_apply nodes rcv hr e ⟨k.val - 128, by omega⟩)
      · intro b hb
        match b with
        | ⟨0, _⟩ => rfl
        | ⟨1, _⟩ => exact absurd rfl hb
      · show 128 + (k.val - 128) = k.val
        omega
    · rw [dif_neg h2]
      have hk := k.isLt
      refine concatenate_apply_piece (t := S320000x272) 1 [⟨S320000x128, takeT nodes snd⟩, ⟨S320000x128, takeT nodes rcv⟩, ⟨S320000x16, edges⟩] concatenates_S320000x128_S320000x128_S320000x16_S320000x272_d1
        (ix2 e k) 2 (Nat.succ_lt_succ (Nat.succ_lt_succ (Nat.zero_lt_succ _))) S320000x16 edges rfl rfl 256 rfl
        (ix2 e ⟨k.val - 256, by omega⟩) ?_ ?_
      · intro b hb
        match b with
        | ⟨0, _⟩ => rfl
        | ⟨1, _⟩ => exact absurd rfl hb
      · show 256 + (k.val - 256) = k.val
        omega

/-- The first layer at (e, j). -/
theorem lin1T_apply (hs : ∀ e : Fin 320000, (snd (ix1 e)).toNat < 10000) (hr : ∀ e : Fin 320000, (rcv (ix1 e)).toNat < 10000)
    (e : Fin 320000) (j : Fin 544) :
    lin1T nodes edges W1 b1 snd rcv (ix2 e j) = Cert.Spec.lin1 nodes edges W1 b1 snd rcv e j := by
  unfold lin1T Cert.Spec.lin1
  rw [addf_apply,
    host_dot_ix2 dot_S320000x272_S272x544_S320000x544_1_0_0_1_n_n_wf dot_S320000x272_S272x544_S320000x544_1_0_0_1_n_n rfl,
    broadcastInDim_1b_ab_apply, broadcastInDim_b_1b_apply]
  refine congrArg (· + b1 (ix1 j)) (Finset.sum_congr rfl fun k _ => ?_)
  rw [catT_apply nodes edges snd rcv hs hr e k, transpose_ix2_apply]

/-- The hidden layer at (e, j). -/
theorem hidT_apply (hs : ∀ e : Fin 320000, (snd (ix1 e)).toNat < 10000) (hr : ∀ e : Fin 320000, (rcv (ix1 e)).toNat < 10000)
    (e : Fin 320000) (j : Fin 544) :
    hidT nodes edges W1 b1 snd rcv (ix2 e j) = Cert.Spec.hid nodes edges W1 b1 snd rcv e j := by
  unfold hidT Cert.Spec.hid
  rw [hostDivf_apply, addf_apply, broadcastInDim_scalar_apply, constant_apply, Ideal.ofBits_one_f32, hostExp_apply,
    hostNegf_apply, lin1T_apply nodes edges W1 b1 snd rcv hs hr e j]

/-- The result at (e, n). -/
theorem outT_apply (hs : ∀ e : Fin 320000, (snd (ix1 e)).toNat < 10000) (hr : ∀ e : Fin 320000, (rcv (ix1 e)).toNat < 10000)
    (e : Fin 320000) (n : Fin 16) :
    outT nodes edges W1 b1 W2 b2 snd rcv (ix2 e n) = Cert.Spec.out nodes edges W1 b1 W2 b2 snd rcv e n := by
  unfold outT Cert.Spec.out
  rw [addf_apply,
    host_dot_ix2 dot_S320000x544_S544x16_S320000x16_1_0_0_1_n_n_wf dot_S320000x544_S544x16_S320000x16_1_0_0_1_n_n rfl,
    broadcastInDim_1b_ab_apply, broadcastInDim_b_1b_apply]
  refine congrArg (· + b2 (ix1 n)) (Finset.sum_congr rfl fun j _ => ?_)
  rw [hidT_apply nodes edges W1 b1 snd rcv hs hr e j, transpose_ix2_apply]

/-- The reference's composed term is the specification's array, given the row numbers' ranges. -/
theorem outT_eq_G (hs : ∀ e : Fin 320000, (snd (ix1 e)).toNat < 10000) (hr : ∀ e : Fin 320000, (rcv (ix1 e)).toNat < 10000) :
    outT nodes edges W1 b1 W2 b2 snd rcv = Cert.Spec.G nodes edges W1 b1 W2 b2 snd rcv := by
  funext i
  obtain ⟨e, n, rfl⟩ : ∃ (e : Fin 320000) (n : Fin 16), i = ix2 e n := ⟨i 0, i 1, eq_ix2 i⟩
  rw [Cert.Spec.G_ix2]
  exact outT_apply nodes edges W1 b1 W2 b2 snd rcv hs hr e n

end Cert.RefSide

end
-- ==== Proof.RefSide.lean ====
/-
  The reference side of the certificate: the reference's run ends with the result array at the specification's
  array of the arguments (given that both row-number arrays lie between 0 and 9999) and the arguments unchanged;
  and, with no condition at all, it runs and leaves its arguments unchanged.
-/
import proofs.«206088_g82248623718559_cont_9to1c4b_230_21_alg».proof.Defs
import proofs.«206088_g82248623718559_cont_9to1c4b_230_21_alg».proof.Proof.Gen.ReferenceIdeal
import proofs.«206088_g82248623718559_cont_9to1c4b_230_21_alg».proof.Proof.Gen.Pre_input_domain
import proofs.«206088_g82248623718559_cont_9to1c4b_230_21_alg».proof.Proof.RefRun
import proofs.«206088_g82248623718559_cont_9to1c4b_230_21_alg».proof.Proof.RefValue

noncomputable section

namespace Cert.RefSide

open Cert.ReferenceIdeal Idealize.ShloMosaic Idealize.ShloMosaic.ValueIdx Idealize.SL.Sem

/-- The reference's run with the result at the specification's array, given the row numbers' ranges. -/
theorem run (m : (ℓ : Loc nD τ sig) → Buf (Elt Ideal) ℓ) (g : Dev nD → PrngReg)
    (hs : ∀ (c : Dev nD) (e : Fin 320000), ((m ((c.tc : Thread nD τ).loc main_arg6) : IVec S320000 32) (ix1 e)).toNat < 10000)
    (hr : ∀ (c : Dev nD) (e : Fin 320000), ((m ((c.tc : Thread nD τ).loc main_arg7) : IVec S320000 32) (ix1 e)).toNat < 10000) :
    θ_run (Cert.ReferenceIdeal.defs (F := Ideal)) (onTc (τ := Cert.ReferenceIdeal.τ) (Cert.ReferenceIdeal.main (F := Ideal))) ⟨m, fun _ => 0, g⟩ (fun r => ∀ c : Dev nD,
      r.2.mem ((c.tc : Thread nD τ).loc main_v18)
          = Cert.Spec.G (m ((c.tc : Thread nD τ).loc main_arg0)) (m ((c.tc : Thread nD τ).loc main_arg1)) (m ((c.tc : Thread nD τ).loc main_arg2)) (m ((c.tc : Thread nD τ).loc main_arg3))
              (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run _ _ _).mono
    (fun _ h c => ⟨(h c).1.trans (outT_eq_G _ _ _ _ _ _ _ _ (hs c) (hr c)), (h c).2⟩)
    (run_term (F := Ideal) m g)

/-- The reference runs and leaves its arguments unchanged. -/
theorem frame : Cert.frame_ReferenceIdeal (hReferenceIdeal := Cert.ReferenceIdeal.Gen.facts)
    (hPre_input_domain := Cert.Pre_input_domain.Gen.facts) :=
  fun m g _ => (θ_run _ _ _).mono (fun _ h c => (h c).2) (run_term (F := Ideal) m g)

end Cert.RefSide

end
-- ==== Proof.ClaimsIdeal.lean ====
/-
  The claims at the exact arithmetic.

  The idealized kernel program's frame: under the input predicate the row numbers are in range, so the program runs
  and leaves its arguments as launched. The algebraic claim: from memories agreeing on the eight arguments, the
  idealized kernel program's result — what the dense network's pipeline leaves when entered with the gathered node
  rows and the host operations' values — is, for real data and row numbers in range, the specified array of the
  arguments; the idealized reference's result is the same specified array; the arguments are unchanged on both
  sides.
-/
import proofs.«206088_g82248623718559_cont_9to1c4b_230_21_alg».proof.Proof.ScRun
import proofs.«206088_g82248623718559_cont_9to1c4b_230_21_alg».proof.Proof.ScMain
import proofs.«206088_g82248623718559_cont_9to1c4b_230_21_alg».proof.Proof.ScTileObl
import proofs.«206088_g82248623718559_cont_9to1c4b_230_21_alg».proof.Proof.ScTile
import proofs.«206088_g82248623718559_cont_9to1c4b_230_21_alg».proof.Proof.TcJoin
import proofs.«206088_g82248623718559_cont_9to1c4b_230_21_alg».proof.Proof.RefSide

noncomputable section

namespace Cert.Proof.KI

open Cert.KernelIdeal Cert.KernelIdeal.Gen

open Idealize.ShloMosaic
open Idealize.ShloMosaic.SparseCore (S V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.LibIdealReal (IsReal)

/-- The values the pipeline is entered with, over the launch memory: the gathered node rows, the edge features, and
    the host operations' values of the weights and biases. -/
theorem Vreg_values (m : (ℓ : Loc nD τ sig) → Buf (Elt Ideal) ℓ) (d : Dev nD) :
    Vreg m d main_v9 = gatherC m d
      ∧ Vreg m d main_arg1 = m ((SparseCore.T d).loc main_arg1)
      ∧ Vreg m d main_v2 = Cert.HostStages.w1ab (m ((SparseCore.T d).loc main_arg2))
      ∧ Vreg m d main_v4 = Cert.HostStages.w1c (m ((SparseCore.T d).loc main_arg2))
      ∧ Vreg m d main_v5 = Cert.HostStages.b1r (m ((SparseCore.T d).loc main_arg3))
      ∧ Vreg m d main_v7 = Cert.HostStages.w2t (m ((SparseCore.T d).loc main_arg4))
      ∧ Vreg m d main_v8 = Cert.HostStages.b2r (m ((SparseCore.T d).loc main_arg5)) :=
  ⟨Vreg_v9 m d, Vreg_a1 m d, Vreg_v2_eq m d, Vreg_v4_eq m d, Vreg_v5_eq m d, Vreg_v7_eq m d, Vreg_v8_eq m d⟩

section Claims

/-- The idealized kernel program runs and leaves its arguments unchanged. -/
theorem frame_KI : Cert.frame_KernelIdeal (hKernelIdeal := Cert.KernelIdeal.Gen.facts) (hPre_input_domain := Cert.Pre_input_domain.Gen.facts) :=
  fun m g hpre =>
    haveI := Cert.Pre_input_domain.Gen.facts
    have hi := idx_of_pre (F := Ideal) m hpre
    run_frame m g (tileObl m facts (tile_body m hi.1 hi.2)) (hmain m g)

/-- The idealized kernel program and the idealized reference end with equal results and unchanged arguments. -/
theorem algebraic : Cert.algebraic_KernelIdeal_ReferenceIdeal (hKernelIdeal := Cert.KernelIdeal.Gen.facts)
    (hReferenceIdeal := Cert.ReferenceIdeal.Gen.facts) (hPre_input_domain := Cert.Pre_input_domain.Gen.facts) := by
  intro m g m' g' hpre hag
  haveI := Cert.Pre_input_domain.Gen.facts
  have hi := idx_of_pre (F := Ideal) m hpre
  refine ⟨fun c => Cert.Spec.G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)), ?_, ?_⟩
  · refine (θ_run _ _ _).mono (fun r h c => ⟨(h c).1.trans ?_, (h c).2⟩) (run_main m g (tileObl m facts (tile_body m hi.1 hi.2)) (hmain m g))
    obtain ⟨h9, h1, h2, h4, h5, h7, h8⟩ := Vreg_values m c
    exact tc_join m c (Breg (F := Ideal) c) (Vreg m) h9 h1 h2 h4 h5 h7 h8 (Cert.PreFacts.real_inputs _ _ _ _ _ _ _ _ (hpre c)) (hi.1 c) (hi.2 c)
  · refine (θ_run _ _ _).mono (fun r h c => ⟨(h c).1.trans ?hv, (h c).2⟩)
      (Cert.RefSide.run m' g' (fun c e => ?hs) (fun c e => ?hr))
    case hv =>
      obtain ⟨e0, e1, e2, e3, e4, e5, e6, e7⟩ := hag c
      rw [e0, e1, e2, e3, e4, e5, e6, e7]
    case hs => rw [(hag c).2.2.2.2.2.2.1]; exact hi.1 c e
    case hr => rw [(hag c).2.2.2.2.2.2.2]; exact hi.2 c e

end Claims

end Cert.Proof.KI

end
-- ==== Proof.KbSetup.lean ====
/-
  The SparseCore program as the launch theorem reads it: its configuration, the body table, the side facts of the
  handshake semaphores, and the resource algebra of the proof — the handshakes' rounds, the subcore barrier's rounds,
  the TensorCore pipeline's rounds and the counters of the tiles' own transfers.
-/
import proofs.«206088_g82248623718559_cont_9to1c4b_230_21_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«206088_g82248623718559_cont_9to1c4b_230_21_alg».proof.Proof.Gen.Kernel
import proofs.«206088_g82248623718559_cont_9to1c4b_230_21_alg».proof.Proof.Gen.Kernel.Skeleton

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev coreOf (c : Fin ((K (F := F)).nCore 0)) : Fin τ.nSC := (K (F := F)).core 0 c
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UB : Type := URounds (GSem nD τ sig) ℕ
abbrev UR : Type := URounds (GSem nD τ sig) Unit
abbrev UU : Type := UH × (UB × (UR × Counters))

local notation "𝕄" => MT nD τ sig (HIx 1) (Elt F) ℕ UU ℕ

abbrev EH : Emb UH (MT nD τ sig (HIx 1) (Elt F) ℕ UU ℕ) := embL
/-- The barrier cells' rounds: the first component of the right factor. -/
def EB : Emb UB (MT nD τ sig (HIx 1) (Elt F) ℕ UU ℕ) :=
  ((Emb.inl : Emb UB (UB × (UR × Counters))).trans (Emb.inr : Emb (UB × (UR × Counters)) UU)).trans
    (uEmb (nD := nD) (sig := sig) (Ix := HIx 1) (Val := Elt F) (Name := ℕ) (U := UU) (Lvl := ℕ)).toEmb
instance EB_landsIn : (EB : Emb UB 𝕄).LandsIn (upEmb : UEmb _ 𝕄) := by unfold EB; infer_instance
/-- The pipeline's staging cells' rounds: the second component of the right factor. -/
def ER : Emb UR (MT nD τ sig (HIx 1) (Elt F) ℕ UU ℕ) :=
  (((Emb.inl : Emb UR (UR × Counters)).trans (Emb.inr : Emb (UR × Counters) (UB × (UR × Counters)))).trans
      (Emb.inr : Emb (UB × (UR × Counters)) UU)).trans
    (uEmb (nD := nD) (sig := sig) (Ix := HIx 1) (Val := Elt F) (Name := ℕ) (U := UU) (Lvl := ℕ)).toEmb
instance ER_landsIn : (ER : Emb UR 𝕄).LandsIn (upEmb : UEmb _ 𝕄) := by unfold ER; infer_instance

theorem nSub_eq : τ.nSub = 16 := rfl
theorem nSC_eq : τ.nSC = 2 := rfl

end Cert.Proof.KB

end
-- ==== Proof.KbRes.lean ====
/-
  The vocabulary of the SparseCore kernel's resources. Tile s of SparseCore c is tile number w = 2 s + c: it copies rows
  624 s … 624 s + 623 of the node table into its SparseCore's shared table (tile 15 also the last sixteen rows,
  9984 … 9999), reads entries 10000 w … 10000 w + 9999 of the two index arrays, and writes rows 10000 w … 10000 w + 9999
  of the gathered array. The blocks of the shared table are pairwise disjoint and cover it; so do the 32 row parts of
  the gathered array.
-/
import proofs.«206088_g82248623718559_cont_9to1c4b_230_21_alg».proof.Proof.KbSetup

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "nV" => (Memref.whole Cert.Kernel.main_arg0_scv : Memref Cert.Kernel.sig Kind.scVector Space.hbm Cert.Kernel.S10000x128 EltTy.f32)
local notation "sV" => (Memref.whole Cert.Kernel.main_arg6_scv : Memref Cert.Kernel.sig Kind.scVector Space.hbm Cert.Kernel.S320000 EltTy.i32)
local notation "rV" => (Memref.whole Cert.Kernel.main_arg7_scv : Memref Cert.Kernel.sig Kind.scVector Space.hbm Cert.Kernel.S320000 EltTy.i32)
local notation "oV" => (Memref.whole Cert.Kernel.main_v9_scv : Memref Cert.Kernel.sig Kind.scVector Space.hbm Cert.Kernel.S320000x256 EltTy.f32)
local notation "shV" => (Memref.whole Cert.Kernel.cc0_scratch0 : Memref Cert.Kernel.sig Kind.scVector Space.shared Cert.Kernel.S10000x128 EltTy.f32)
local notation "isV" => (Memref.whole Cert.Kernel.cc0_scratch1 : Memref Cert.Kernel.sig Kind.scVector Space.vmem Cert.Kernel.S10000 EltTy.i32)
local notation "irV" => (Memref.whole Cert.Kernel.cc0_scratch2 : Memref Cert.Kernel.sig Kind.scVector Space.vmem Cert.Kernel.S10000 EltTy.i32)
local notation "b0V" => (Memref.whole Cert.Kernel.cc0_scratch3 : Memref Cert.Kernel.sig Kind.scVector Space.vmem Cert.Kernel.S40x128 EltTy.f32)
local notation "b1V" => (Memref.whole Cert.Kernel.cc0_scratch4 : Memref Cert.Kernel.sig Kind.scVector Space.vmem Cert.Kernel.S40x128 EltTy.f32)
local notation "b2V" => (Memref.whole Cert.Kernel.cc0_scratch5 : Memref Cert.Kernel.sig Kind.scVector Space.vmem Cert.Kernel.S40x128 EltTy.f32)
local notation "b3V" => (Memref.whole Cert.Kernel.cc0_scratch6 : Memref Cert.Kernel.sig Kind.scVector Space.vmem Cert.Kernel.S40x128 EltTy.f32)

/-! ## Places -/

abbrev cV (L : grid0.Coords) : Fin τ.nSC := (L 0).castLE hcore0
abbrev jV (L : grid0.Coords) : Fin τ.nSub := (L 1).castLE hsub0
def coordsV (c : Fin (grid0.bound 0)) (s : Fin (grid0.bound 1)) : grid0.Coords :=
  fun | 0 => c | 1 => s | ⟨_ + 2, h⟩ => absurd h (Nat.not_lt.2 (Nat.le_add_left _ _))

abbrev xLoc (d : Dev nD) : Loc nD τ sig := (SparseCore.T d).loc main_arg0
abbrev sLoc (d : Dev nD) : Loc nD τ sig := (SparseCore.T d).loc main_arg6
abbrev rLoc (d : Dev nD) : Loc nD τ sig := (SparseCore.T d).loc main_arg7
abbrev oLoc (d : Dev nD) : Loc nD τ sig := (SparseCore.T d).loc main_v9
/-- SparseCore c's shared table, as every tile of it addresses it. -/
abbrev shRef (c : Fin τ.nSC) : DevRef τ sig := ⟨.shared, ⟨0, by decide⟩, c⟩
abbrev shLoc (d : Dev nD) (c : Fin τ.nSC) : Loc nD τ sig := (d, shRef c)

/-! ## The shared table's blocks -/

/-- Tile L's block of 624 rows, as the kernel slices it. -/
abbrev blkRect (L : grid0.Coords) : Rect S10000x128 := Rect.unit (s := S10000x128) (k0_off1 L) S624x128.size (k0_off1_inb L)
abbrev blkSet (L : grid0.Coords) : Finset S10000x128.Idx := ((nV).view.slice (blkRect L)).set
abbrev shBlk (L : grid0.Coords) : Memref sig .scVector .shared S624x128 .f32 := (shV).slice (blkRect L) (fun _ => rfl)
/-- The last sixteen rows. -/
abbrev tailRect : Rect S10000x128 := Rect.unit (s := S10000x128) ![9984, 0] S16x128.size inb_S10000x128_S16x128_9984_0
abbrev tailSet : Finset S10000x128.Idx := ((nV).view.slice tailRect).set
abbrev shTail : Memref sig .scVector .shared S16x128 .f32 := (shV).slice tailRect (fun _ => rfl)

/-- What tile s contributes to the shared table: its block, and on tile 15 also the tail. -/
def blkAll (s : Fin 16) : Finset S10000x128.Idx :=
  blkSet (coordsV ⟨0, by decide⟩ ⟨s.val, s.isLt⟩) ∪ (if s.val = 15 then tailSet else ∅)

/-! ## The gathered array's row parts -/

theorem hdiv32 : 32 ∣ S320000x256.size 0 := ⟨10000, rfl⟩
/-- Worker w's rows of the gathered array: 10000 w … 10000 w + 9999, every column. -/
abbrev outRect (w : Fin 32) : Rect S320000x256 := Rect.part (s := S320000x256) (a₀ := 0) hdiv32 w
abbrev outSet (w : Fin 32) : Finset S320000x256.Idx := ((oV).view.slice (outRect w)).set
/-- The tile number of tile i of SparseCore c. -/
def wid (c : Fin τ.nSC) (i : Fin τ.nSub) : Fin 32 := ⟨2 * i.val + c.val, by have := c.isLt; have := i.isLt; simp only [nSC_eq, nSub_eq] at *; omega⟩

/-- The tail copy is made exactly on tile 15. -/
theorem tail_cond : ∀ L : grid0.Coords, (Scalar.cmpi CmpIPredicate.ne (Scalar.extui (Scalar.cmpi CmpIPredicate.eq (BitVec.ofNat 32 (L 1).val) 15#32)) 0#32 = 1#1) ↔ (L 1).val = 15 := by
  decide +kernel

variable (d : Dev nD) (L : grid0.Coords)

/-! ## The arrays as a tile's memrefs address them are the TensorCore's arrays -/

theorem pts_n (q : PosShare TreeShare) (f : Buf (Elt F) (xLoc d)) :
    ((nV).view.loc (V d (cV L) (jV L)) ↦{q} f : sProp 𝕄) = xLoc d ↦{q} f := by
  simp only [Memref.view_whole, View.set_whole]
theorem pts_s (q : PosShare TreeShare) (f : Buf (Elt F) (sLoc d)) :
    ((sV).view.loc (V d (cV L) (jV L)) ↦{q} f : sProp 𝕄) = sLoc d ↦{q} f := by
  simp only [Memref.view_whole, View.set_whole]
theorem pts_r (q : PosShare TreeShare) (f : Buf (Elt F) (rLoc d)) :
    ((rV).view.loc (V d (cV L) (jV L)) ↦{q} f : sProp 𝕄) = rLoc d ↦{q} f := by
  simp only [Memref.view_whole, View.set_whole]
theorem pts_sh (q : PosShare TreeShare) (f : Buf (Elt F) (shLoc d (cV L))) :
    ((shV).view.loc (V d (cV L) (jV L)) ↦{q} f : sProp 𝕄) = shLoc d (cV L) ↦{q} f := by
  simp only [Memref.view_whole, View.set_whole]; rfl
theorem pts_shBlk (q : PosShare TreeShare) (f : Buf (Elt F) (shLoc d (cV L))) :
    ((shBlk L).view.loc (V d (cV L) (jV L)) ↦[(shBlk L).view.set]{q} f : sProp 𝕄) = shLoc d (cV L) ↦[blkSet L]{q} f := rfl
theorem pts_shTail (q : PosShare TreeShare) (f : Buf (Elt F) (shLoc d (cV L))) :
    ((shTail).view.loc (V d (cV L) (jV L)) ↦[(shTail).view.set]{q} f : sProp 𝕄) = shLoc d (cV L) ↦[tailSet]{q} f := rfl
theorem pts_is (f : Buf (Elt F) ((V d (cV L) (jV L)).loc cc0_scratch1)) :
    ((isV).view.loc (V d (cV L) (jV L)) ↦{fullShare} f : sProp 𝕄) = (V d (cV L) (jV L)).loc cc0_scratch1 ↦{fullShare} f := rfl
theorem pts_ir (f : Buf (Elt F) ((V d (cV L) (jV L)).loc cc0_scratch2)) :
    ((irV).view.loc (V d (cV L) (jV L)) ↦{fullShare} f : sProp 𝕄) = (V d (cV L) (jV L)).loc cc0_scratch2 ↦{fullShare} f := rfl
theorem pts_b0 (f : Buf (Elt F) ((V d (cV L) (jV L)).loc cc0_scratch3)) :
    ((b0V).view.loc (V d (cV L) (jV L)) ↦{fullShare} f : sProp 𝕄) = (V d (cV L) (jV L)).loc cc0_scratch3 ↦{fullShare} f := rfl
theorem pts_b1 (f : Buf (Elt F) ((V d (cV L) (jV L)).loc cc0_scratch4)) :
    ((b1V).view.loc (V d (cV L) (jV L)) ↦{fullShare} f : sProp 𝕄) = (V d (cV L) (jV L)).loc cc0_scratch4 ↦{fullShare} f := rfl
theorem pts_b2 (f : Buf (Elt F) ((V d (cV L) (jV L)).loc cc0_scratch5)) :
    ((b2V).view.loc (V d (cV L) (jV L)) ↦{fullShare} f : sProp 𝕄) = (V d (cV L) (jV L)).loc cc0_scratch5 ↦{fullShare} f := rfl
theorem pts_b3 (f : Buf (Elt F) ((V d (cV L) (jV L)).loc cc0_scratch6)) :
    ((b3V).view.loc (V d (cV L) (jV L)) ↦{fullShare} f : sProp 𝕄) = (V d (cV L) (jV L)).loc cc0_scratch6 ↦{fullShare} f := rfl

end Cert.Proof.KB

end
-- ==== Proof.KbBarrier.lean ====
/-
  The subcore barrier's cells and what crosses it. Every tile of a SparseCore has one barrier semaphore; in its one
  round every tile of that SparseCore has a unit duty. Tile i's duty in tile j's round hands tile j a read share —
  the j-th of sixteen — of what tile i wrote of the shared table (its block of 624 rows, and on tile 15 the last
  sixteen rows), at the node table's contents. Leaving the barrier a tile therefore holds its read share of every
  block: of the whole shared table, equal to the node table.
-/
import proofs.«206088_g82248623718559_cont_9to1c4b_230_21_alg».proof.Proof.KbRes

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "nV" => (Memref.whole Cert.Kernel.main_arg0_scv : Memref Cert.Kernel.sig Kind.scVector Space.hbm Cert.Kernel.S10000x128 EltTy.f32)
local notation "sV" => (Memref.whole Cert.Kernel.main_arg6_scv : Memref Cert.Kernel.sig Kind.scVector Space.hbm Cert.Kernel.S320000 EltTy.i32)
local notation "rV" => (Memref.whole Cert.Kernel.main_arg7_scv : Memref Cert.Kernel.sig Kind.scVector Space.hbm Cert.Kernel.S320000 EltTy.i32)
local notation "oV" => (Memref.whole Cert.Kernel.main_v9_scv : Memref Cert.Kernel.sig Kind.scVector Space.hbm Cert.Kernel.S320000x256 EltTy.f32)
local notation "shV" => (Memref.whole Cert.Kernel.cc0_scratch0 : Memref Cert.Kernel.sig Kind.scVector Space.shared Cert.Kernel.S10000x128 EltTy.f32)
local notation "isV" => (Memref.whole Cert.Kernel.cc0_scratch1 : Memref Cert.Kernel.sig Kind.scVector Space.vmem Cert.Kernel.S10000 EltTy.i32)
local notation "irV" => (Memref.whole Cert.Kernel.cc0_scratch2 : Memref Cert.Kernel.sig Kind.scVector Space.vmem Cert.Kernel.S10000 EltTy.i32)
local notation "b0V" => (Memref.whole Cert.Kernel.cc0_scratch3 : Memref Cert.Kernel.sig Kind.scVector Space.vmem Cert.Kernel.S40x128 EltTy.f32)
local notation "b1V" => (Memref.whole Cert.Kernel.cc0_scratch4 : Memref Cert.Kernel.sig Kind.scVector Space.vmem Cert.Kernel.S40x128 EltTy.f32)
local notation "b2V" => (Memref.whole Cert.Kernel.cc0_scratch5 : Memref Cert.Kernel.sig Kind.scVector Space.vmem Cert.Kernel.S40x128 EltTy.f32)
local notation "b3V" => (Memref.whole Cert.Kernel.cc0_scratch6 : Memref Cert.Kernel.sig Kind.scVector Space.vmem Cert.Kernel.S40x128 EltTy.f32)

variable (m : (ℓ : Loc nD τ sig) → Buf (Elt F) ℓ)

variable [FloatOps F]

/-! ## The barrier cells -/

/-- Tile (c, j)'s barrier semaphore of device d. -/
abbrev bcell (d : Dev nD) (c : Fin τ.nSC) (j : Fin τ.nSub) : GSem nD τ sig := (V d c j, .reg sc_bar0)

omit [FloatOps F] in
theorem sc_bar0_ne_go : (sc_bar0 : Sem sig) ≠ sc_go := by decide

def isBar (g : GSem nD τ sig) : Bool :=
  match g with
  | ((_, .scVector _ _), sm) => decide (sm = .reg sc_bar0)
  | _ => false

omit [FloatOps F] in
@[simp] theorem isBar_bcell (d : Dev nD) (c : Fin τ.nSC) (j : Fin τ.nSub) : isBar (bcell d c j) = true := by simp [isBar]

/-- The node table, read as contents of a SparseCore's shared table (the two arrays have one shape and element type). -/
abbrev nodesSh (d : Dev nD) (c : Fin τ.nSC) : Buf (Elt F) (shLoc d c) := m (xLoc d)

/-- The read share of the shared table that tile j takes: the j-th of sixteen. -/
abbrev tok16 (j : Fin τ.nSub) : PosShare TreeShare := Transfers.shareTok fullShare 16 (Fin.cast nSub_eq j)

/-- What duty n in tile (c, j)'s round hands over: tile n's part of the shared table at the node rows, at tile j's read share. -/
def bPay (g : GSem nD τ sig) (n : ℕ) : sProp 𝕄 :=
  match g with
  | ((d, .scVector c j), _) => if h : n < 16 then iprop(shLoc d c ↦[blkAll ⟨n, h⟩]{tok16 j} nodesSh m d c) else iprop(emp)
  | _ => iprop(emp)

/-- The barrier cells' schedule: one round on each, of one unit duty per tile of the SparseCore (named by its number). -/
def bRd : Rounds.Schedule (GSem nD τ sig) ℕ 𝕄 where
  duties g r := if isBar g ∧ r = 0 then (Finset.univ : Finset (Fin τ.nSub)).image Fin.val else ∅
  amount _ _ _ := 1
  payload g _ n := bPay m g n
  amount_pos _ _ _ _ := Nat.one_pos

instance bRd_payload_storable (g : GSem nD τ sig) (r n : ℕ) : BI.Storable (upEmb : UEmb _ 𝕄) ((bRd (F := F) m).payload g r n) := by
  show BI.Storable upEmb (bPay m g n)
  unfold bPay
  rcases g with ⟨⟨d, _ | c | ⟨c, i⟩⟩, sm⟩ <;> dsimp only <;> (repeat' split) <;> infer_instance

omit [FloatOps F] in
theorem bigSep_emp' {I : Type} (s : Finset I) : (bigSep s fun _ => iprop(emp)) = (iprop(emp) : sProp 𝕄) := bigSep_emp_const s

omit [FloatOps F] in
theorem bRd_duties₀ (d : Dev nD) (c : Fin τ.nSC) (j : Fin τ.nSub) : (bRd (F := F) m).duties (bcell d c j) 0 = (Finset.univ : Finset (Fin τ.nSub)).image Fin.val := by
  simp [bRd, isBar]
omit [FloatOps F] in
theorem bRd_mem₀ (d : Dev nD) (c : Fin τ.nSC) (j i : Fin τ.nSub) : i.val ∈ (bRd (F := F) m).duties (bcell d c j) 0 := by
  rw [bRd_duties₀]; exact Finset.mem_image_of_mem _ (Finset.mem_univ i)
omit [FloatOps F] in
theorem bRd_expect (d : Dev nD) (c : Fin τ.nSC) (j : Fin τ.nSub) : 0 + grid0.bound 1 = (bRd (F := F) m).expect (bcell d c j) 0 := by
  unfold Rounds.Schedule.expect; rw [bRd_duties₀]
  show 0 + 16 = ∑ x ∈ (Finset.univ : Finset (Fin 16)).image Fin.val, 1
  rw [Finset.sum_const, Finset.card_image_of_injective _ Fin.val_injective]; rfl

/-- What the launch has a tile owe for the barrier: a unit on every tile's cell of its SparseCore, at the call's index. -/
def oxV (d : Dev nD) (c : Fin τ.nSC) : CellTallies nD τ sig (HIx 1) := ∑ j : Fin (grid0.bound 1), tallyAt (bcell d c (j.castLE hsub0)) (some 0) 1

omit [FloatOps F] in
theorem oxV_none (d : Dev nD) (c : Fin τ.nSC) (g : GSem nD τ sig) : oxV d c g none = 0 := by
  unfold oxV
  rw [Finset.sum_apply, Finsupp.finsetSum_apply]
  exact Finset.sum_eq_zero fun j _ => by rw [tallyAt_apply, if_neg (fun e => nomatch e.2)]

omit [FloatOps F] in
theorem oxV_apply_pos {d : Dev nD} {c : Fin τ.nSC} {g : GSem nD τ sig} {ι : HIx 1} (h : 0 < oxV d c g ι) : ∃ j : Fin (grid0.bound 1), g = bcell d c (j.castLE hsub0) ∧ ι = some 0 := by
  unfold oxV at h
  rw [Finset.sum_apply, Finsupp.finsetSum_apply] at h
  obtain ⟨j, -, hj⟩ := Finset.exists_ne_zero_of_sum_ne_zero (Nat.pos_iff_ne_zero.mp h)
  rw [tallyAt_apply] at hj
  split at hj
  · next e => exact ⟨j, e.1, e.2⟩
  · exact absurd rfl hj

/-! ## The tile's own cells for the barrier: what the launch deals its proof -/

/-- Tile (c, i)'s barrier bundle: every tile's cell invariant of its SparseCore and that each has reached round 0, its own
    position at the origin of round 0, its duty token in every tile's round 0, and the credit for the sixteen units of
    its own round. -/
def bkit (d : Dev nD) (c : Fin τ.nSC) (i : Fin τ.nSub) : sProp 𝕄 :=
  iprop((∃ κ : GSem nD τ sig → ℕ, bigSep Finset.univ fun j : Fin (grid0.bound 1) =>
      cellInv EB (bRd (F := F) m) (κ (bcell d c (j.castLE hsub0))) (bcell d c (j.castLE hsub0)))
    ∗ (bigSep Finset.univ fun j : Fin (grid0.bound 1) => dutyTok EB (bcell d c (j.castLE hsub0)) 0 i.val)
    ∗ (bigSep Finset.univ fun j : Fin (grid0.bound 1) => reached EB (bcell d c (j.castLE hsub0)) 0)
    ∗ atPos EB (bcell d c i) 0 ∅ 0
    ∗ cred (tallyAt (bcell d c i) (some 0) (grid0.bound 1)))

end Cert.Proof.KB

end
-- ==== Proof.KbPay.lean ====
/-
  What the handshakes of the one SparseCore call carry. The TensorCore hands each SparseCore, for each of its sixteen
  tiles, a read share of the node table and of the two index arrays and the tile's 10000 rows of the gathered array;
  the sequencer adds the tile's part of its shared table. Back come the same shares, the tile's rows of the gathered
  array holding the gathered node rows, and the shared table's shares (the tile's sixteenth of the whole table and the
  rest of its own part). Each tile's proof consumes its barrier bundle, and each tile owes its sixteen arrivals.
-/
import proofs.«206088_g82248623718559_cont_9to1c4b_230_21_alg».proof.Proof.KbBarrier
import Idealize.ShloMosaic.Lib.ValueIdx

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "nV" => (Memref.whole Cert.Kernel.main_arg0_scv : Memref Cert.Kernel.sig Kind.scVector Space.hbm Cert.Kernel.S10000x128 EltTy.f32)
local notation "sV" => (Memref.whole Cert.Kernel.main_arg6_scv : Memref Cert.Kernel.sig Kind.scVector Space.hbm Cert.Kernel.S320000 EltTy.i32)
local notation "rV" => (Memref.whole Cert.Kernel.main_arg7_scv : Memref Cert.Kernel.sig Kind.scVector Space.hbm Cert.Kernel.S320000 EltTy.i32)
local notation "oV" => (Memref.whole Cert.Kernel.main_v9_scv : Memref Cert.Kernel.sig Kind.scVector Space.hbm Cert.Kernel.S320000x256 EltTy.f32)
local notation "shV" => (Memref.whole Cert.Kernel.cc0_scratch0 : Memref Cert.Kernel.sig Kind.scVector Space.shared Cert.Kernel.S10000x128 EltTy.f32)
local notation "isV" => (Memref.whole Cert.Kernel.cc0_scratch1 : Memref Cert.Kernel.sig Kind.scVector Space.vmem Cert.Kernel.S10000 EltTy.i32)
local notation "irV" => (Memref.whole Cert.Kernel.cc0_scratch2 : Memref Cert.Kernel.sig Kind.scVector Space.vmem Cert.Kernel.S10000 EltTy.i32)
local notation "b0V" => (Memref.whole Cert.Kernel.cc0_scratch3 : Memref Cert.Kernel.sig Kind.scVector Space.vmem Cert.Kernel.S40x128 EltTy.f32)
local notation "b1V" => (Memref.whole Cert.Kernel.cc0_scratch4 : Memref Cert.Kernel.sig Kind.scVector Space.vmem Cert.Kernel.S40x128 EltTy.f32)
local notation "b2V" => (Memref.whole Cert.Kernel.cc0_scratch5 : Memref Cert.Kernel.sig Kind.scVector Space.vmem Cert.Kernel.S40x128 EltTy.f32)
local notation "b3V" => (Memref.whole Cert.Kernel.cc0_scratch6 : Memref Cert.Kernel.sig Kind.scVector Space.vmem Cert.Kernel.S40x128 EltTy.f32)

variable (m : (ℓ : Loc nD τ sig) → Buf (Elt F) ℓ)

variable [FloatOps F]

/-- The row a 32-bit word names, read unsigned (for a word below 10000, the word). -/
def rowU (w : BitVec 32) : Fin 10000 := ⟨w.toNat % 10000, Nat.mod_lt _ (by decide)⟩

omit [FloatOps F] in
theorem rowU_val {w : BitVec 32} (h : w.toNat < 10000) : (rowU w).val = w.toNat := Nat.mod_eq_of_lt h

/-- The gathered array: row e holds the sender's node row in columns 0 … 127 and the receiver's in columns 128 … 255. -/
def gatherC (d : Dev nD) : Buf (Elt F) (oLoc d) := fun x =>
  if h : (x 1).val < 128 then m (xLoc d) (ValueIdx.ix2 (rowU (m (sLoc d) (ValueIdx.ix1 (x 0)))) ⟨(x 1).val, h⟩)
  else m (xLoc d) (ValueIdx.ix2 (rowU (m (rLoc d) (ValueIdx.ix1 (x 0)))) ⟨(x 1).val - 128, by have := ValueIdx.idx2_lt1 x; omega⟩)

/-- Worker w's read share of a whole array: the w-th of thirty-two. -/
abbrev tok32 (w : Fin 32) : PosShare TreeShare := Transfers.shareTok fullShare 32 w

/-- What tile number w takes of the TensorCore's arrays: read shares of the node table and the index arrays, and its rows of
    the gathered array at contents g. -/
def tileArr (d : Dev nD) (w : Fin 32) (g : Buf (Elt F) (oLoc d)) : sProp 𝕄 :=
  iprop((xLoc d ↦{tok32 w} m (xLoc d)) ∗ (sLoc d ↦{tok32 w} m (sLoc d)) ∗ (rLoc d ↦{tok32 w} m (rLoc d)) ∗ (oLoc d ↦[outSet w]{fullShare} g))

/-- Tile i's part of the shared table, at any contents. -/
def shIn (d : Dev nD) (c : Fin τ.nSC) (i : Fin 16) : sProp 𝕄 := iprop(∃ f, shLoc d c ↦[blkAll i]{fullShare} f)
/-- What tile i hands back of the shared table: its sixteenth of the whole table and the rest of its own part. -/
def shOut (d : Dev nD) (c : Fin τ.nSC) (i : Fin 16) : sProp 𝕄 :=
  iprop((shLoc d c ↦{Transfers.shareTok fullShare 16 i} nodesSh m d c) ∗ (shLoc d c ↦[blkAll i]{Transfers.shareDrop fullShare 16} nodesSh m d c))

def P : (K (F := F)).Pay (nD := nD) (Val := Elt F) (Name := ℕ) (U := UU) where
  st := fun q d c => match q with
    | 0 => bigSep Finset.univ fun i : Fin 16 => tileArr m d (wid (coreOf c) (Fin.cast nSub_eq.symm i)) (m (oLoc d))
  dn := fun q d c => match q with
    | 0 => bigSep Finset.univ fun i : Fin 16 => tileArr m d (wid (coreOf c) (Fin.cast nSub_eq.symm i)) (gatherC m d)
  go := fun q d c i => match q with
    | 0 => iprop(tileArr m d (wid (coreOf c) ((K (F := F)).sub 0 i)) (m (oLoc d)) ∗ shIn d (coreOf c) (Fin.cast nSub_zero i))
  td := fun q d c i => match q with
    | 0 => iprop(tileArr m d (wid (coreOf c) ((K (F := F)).sub 0 i)) (gatherC m d) ∗ shOut m d (coreOf c) (Fin.cast nSub_zero i))
  x := fun _ thr => match thr with
    | (d, .scVector c i) => if c.val < 2 then bkit m d c i else iprop(emp)
    | _ => iprop(emp)
  ox := fun _ thr => match thr with
    | (d, .scVector c _) => if c.val < 2 then oxV d c else 0
    | _ => 0
  ox_band := by
    intro q thr g ι h
    obtain rfl : q = 0 := Subsingleton.elim _ _
    rcases thr with ⟨d, _ | c | ⟨c, i⟩⟩
    · exact absurd h (lt_irrefl 0)
    · exact absurd h (lt_irrefl 0)
    · dsimp only at h
      split at h
      · obtain ⟨j, rfl, rfl⟩ := oxV_apply_pos h
        rw [(K (F := F)).lev_V_reg d c (j.castLE hsub0) (show (sc_bar0 : Sem sig) ≠ (K (F := F)).go from sc_bar0_ne_go)]; exact ⟨le_rfl, by decide⟩
      · exact absurd h (lt_irrefl 0)
  ox_tc := fun _ _ => rfl
  ox_sc := fun _ _ _ h => absurd rfl h
  ox_vc := by
    intro q d c i h
    obtain rfl : q = 0 := Subsingleton.elim _ _
    dsimp only at h
    split at h
    · next hc => exact ⟨rfl, hc, i.isLt⟩
    · exact absurd rfl h

instance P_storable : (P (F := F) m).IsStorable where
  st q d c := match q with
    | 0 => by unfold P tileArr; dsimp only; infer_instance
  dn q d c := match q with
    | 0 => by unfold P tileArr; dsimp only; infer_instance
  go q d c i := match q with
    | 0 => by unfold P tileArr shIn; dsimp only; infer_instance
  td q d c i := match q with
    | 0 => by unfold P tileArr shOut; dsimp only; infer_instance

end Cert.Proof.KB

end
-- ==== Proof.KbGeom.lean ====
/-
  The geometry of the SparseCore kernel's element sets: pure facts about finite sets of array indices.

  The node table's 10000 rows are cut into sixteen blocks of 624 rows and a tail of sixteen rows; tile s holds block
  s, tile 15 also the tail: these sixteen sets are pairwise disjoint and cover the table. The gathered array's
  320000 rows are cut into 32 parts of 10000 rows, part w = 2 s + c for tile s of SparseCore c; a part is cut into
  250 chunks of 40 rows, each in two halves of 128 columns: the rectangles the kernel writes. The offsets the
  kernel computes are these rows and columns.
-/
import proofs.«206088_g82248623718559_cont_9to1c4b_230_21_alg».proof.Proof.KbRes
import Idealize.ShloMosaic.Lib.ValueIdx

noncomputable section

namespace Cert.Proof.KB

open Cert.Kernel Cert.Kernel.Gen

open Idealize.ShloMosaic Idealize.ShloMosaic.ValueIdx

local notation "nV" => (Memref.whole Cert.Kernel.main_arg0_scv : Memref Cert.Kernel.sig Kind.scVector Space.hbm Cert.Kernel.S10000x128 EltTy.f32)
local notation "sV" => (Memref.whole Cert.Kernel.main_arg6_scv : Memref Cert.Kernel.sig Kind.scVector Space.hbm Cert.Kernel.S320000 EltTy.i32)
local notation "rV" => (Memref.whole Cert.Kernel.main_arg7_scv : Memref Cert.Kernel.sig Kind.scVector Space.hbm Cert.Kernel.S320000 EltTy.i32)
local notation "oV" => (Memref.whole Cert.Kernel.main_v9_scv : Memref Cert.Kernel.sig Kind.scVector Space.hbm Cert.Kernel.S320000x256 EltTy.f32)

/-! ## Membership in a unit-stride rectangle of a whole array -/

/-- Rank two: each coordinate lies between the offset and the offset plus the size. -/
theorem mem_unit2 {n0 n1 : Nat} (off size : Fin 2 → Nat) (inb) (i : (⟨2, ![n0, n1]⟩ : Shape).Idx) :
    i ∈ (Rect.unit (s := ⟨2, ![n0, n1]⟩) off size inb).set
      ↔ (off 0 ≤ (i 0).val ∧ (i 0).val < off 0 + size 0) ∧ (off 1 ≤ (i 1).val ∧ (i 1).val < off 1 + size 1) := by
  rw [Rect.mem_set_unit]; exact Fin.forall_fin_two

/-- Rank one. -/
theorem mem_unit1 {n0 : Nat} (off size : Fin 1 → Nat) (inb) (i : (⟨1, ![n0]⟩ : Shape).Idx) :
    i ∈ (Rect.unit (s := ⟨1, ![n0]⟩) off size inb).set ↔ (off 0 ≤ (i 0).val ∧ (i 0).val < off 0 + size 0) := by
  rw [Rect.mem_set_unit]; exact Fin.forall_fin_one

/-- A rank-1 index's coordinate is below the extent. -/
theorem idx1_lt {n : Nat} (j : (⟨1, ![n]⟩ : Shape).Idx) : (j 0).val < n := (j 0).isLt

/-- A tile's coordinates: the SparseCore is below 2 and the tile below 16. -/
theorem L0_lt (L : grid0.Coords) : (L 0).val < 2 := (L 0).isLt
theorem L1_lt (L : grid0.Coords) : (L 1).val < 16 := (L 1).isLt

/-! ## A slice of a whole array holds its rectangle's elements -/

theorem nV_slice_set (r : Rect S10000x128) : ((nV).view.slice r).set = r.set := View.set_slice_whole main_arg0_scv r
theorem sV_slice_set (r : Rect S320000) : ((sV).view.slice r).set = r.set := View.set_slice_whole main_arg6_scv r
theorem rV_slice_set (r : Rect S320000) : ((rV).view.slice r).set = r.set := View.set_slice_whole main_arg7_scv r
theorem oV_slice_set (r : Rect S320000x256) : ((oV).view.slice r).set = r.set := View.set_slice_whole main_v9_scv r

/-! ## The shared table -/

/-- Tile L's block: rows 624 s … 624 s + 623. -/
theorem mem_blkSet (L : grid0.Coords) (i : S10000x128.Idx) :
    i ∈ blkSet L ↔ 624 * (L 1).val ≤ (i 0).val ∧ (i 0).val < 624 * (L 1).val + 624 := by
  rw [show blkSet L = (blkRect L).set from nV_slice_set _, mem_unit2]
  have e0 : k0_off1 L 0 = 624 * (L 1).val := by rw [k0_off1_eq L]; rfl
  have e1 : k0_off1 L 1 = 0 := by rw [k0_off1_eq L]; rfl
  rw [e0, e1]
  show (624 * (L 1).val ≤ (i 0).val ∧ (i 0).val < 624 * (L 1).val + 624) ∧ (0 ≤ (i 1).val ∧ (i 1).val < 0 + 128) ↔ _
  have := idx2_lt1 i
  constructor
  · intro h; exact h.1
  · intro h; exact ⟨h, by omega⟩

/-- The tail: rows 9984 … 9999. -/
theorem mem_tailSet (i : S10000x128.Idx) : i ∈ tailSet ↔ 9984 ≤ (i 0).val := by
  rw [show tailSet = tailRect.set from nV_slice_set _, mem_unit2]
  show (9984 ≤ (i 0).val ∧ (i 0).val < 9984 + 16) ∧ (0 ≤ (i 1).val ∧ (i 1).val < 0 + 128) ↔ _
  have := idx2_lt0 i
  have := idx2_lt1 i
  constructor
  · intro h; exact h.1.1
  · intro h; exact ⟨⟨h, by omega⟩, by omega⟩

/-- What tile s holds: its block, and for s = 15 the tail as well. -/
theorem mem_blkAll (s : Fin 16) (i : S10000x128.Idx) :
    i ∈ blkAll s ↔ (624 * s.val ≤ (i 0).val ∧ (i 0).val < 624 * s.val + 624) ∨ (s.val = 15 ∧ 9984 ≤ (i 0).val) := by
  unfold blkAll
  rw [Finset.mem_union, mem_blkSet]
  show (624 * s.val ≤ (i 0).val ∧ (i 0).val < 624 * s.val + 624) ∨ _ ↔ _
  by_cases h : s.val = 15
  · rw [if_pos h, mem_tailSet]; exact ⟨fun h' => h'.imp id fun h2 => ⟨h, h2⟩, fun h' => h'.imp id fun h2 => h2.2⟩
  · rw [if_neg h]
    exact ⟨fun h' => h'.elim Or.inl fun h2 => absurd h2 (Finset.notMem_empty i), fun h' => h'.elim Or.inl fun h2 => absurd h2.1 h⟩

/-- A block lies below the tail. -/
theorem blkSet_disjoint_tailSet (L : grid0.Coords) : Disjoint (blkSet L) tailSet :=
  Finset.disjoint_left.2 fun i h1 h2 => by
    rw [mem_blkSet] at h1; rw [mem_tailSet] at h2; have := L1_lt L; omega

/-- Off tile 15 a tile holds its block. -/
theorem blkAll_eq (L : grid0.Coords) (h : (L 1).val ≠ 15) : blkAll (Fin.cast (by rfl) (L 1)) = blkSet L := by
  ext i
  rw [mem_blkAll, mem_blkSet]
  show (624 * (L 1).val ≤ (i 0).val ∧ (i 0).val < 624 * (L 1).val + 624) ∨ ((L 1).val = 15 ∧ _) ↔ _
  exact ⟨fun h' => h'.elim id fun h2 => absurd h2.1 h, Or.inl⟩

/-- Tile 15 holds its block and the tail. -/
theorem blkAll_eq15 (L : grid0.Coords) (h : (L 1).val = 15) : blkAll (Fin.cast (by rfl) (L 1)) = blkSet L ∪ tailSet := by
  ext i
  rw [mem_blkAll, Finset.mem_union, mem_blkSet, mem_tailSet]
  show (624 * (L 1).val ≤ (i 0).val ∧ (i 0).val < 624 * (L 1).val + 624) ∨ ((L 1).val = 15 ∧ _) ↔ _
  exact ⟨fun h' => h'.imp id fun h2 => h2.2, fun h' => h'.imp id fun h2 => ⟨h, h2⟩⟩

/-- The sixteen tiles' holdings are pairwise disjoint. -/
theorem blkAll_disjoint : ∀ s ∈ (Finset.univ : Finset (Fin 16)), ∀ s' ∈ (Finset.univ : Finset (Fin 16)), s ≠ s' →
    Disjoint (blkAll s) (blkAll s') := fun s _ s' _ hne =>
  Finset.disjoint_left.2 fun i h1 h2 => by
    rw [mem_blkAll] at h1 h2
    have hv : s.val ≠ s'.val := fun e => hne (Fin.ext e)
    have := s.isLt; have := s'.isLt
    omega

/-- The sixteen tiles' holdings cover the table. -/
theorem blkAll_cover : (Finset.univ : Finset (Fin 16)).biUnion blkAll = Finset.univ := by
  ext i
  simp only [Finset.mem_biUnion, Finset.mem_univ, true_and, iff_true]
  have h0 := idx2_lt0 i
  by_cases h : (i 0).val < 9984
  · exact ⟨⟨(i 0).val / 624, by omega⟩, (mem_blkAll _ i).2 (Or.inl (by show 624 * ((i 0).val / 624) ≤ _ ∧ _ < 624 * ((i 0).val / 624) + 624; omega))⟩
  · exact ⟨⟨15, by omega⟩, (mem_blkAll _ i).2 (Or.inr ⟨rfl, by omega⟩)⟩

/-! ## The gathered array's 32 row parts -/

/-- A part as a set is its rectangle's elements. -/
theorem outSet_eq (w : Fin 32) : outSet w = (outRect w).set := oV_slice_set _

/-- Part w: rows 10000 w … 10000 w + 9999, every column. -/
theorem mem_outSet (w : Fin 32) (i : S320000x256.Idx) :
    i ∈ outSet w ↔ 10000 * w.val ≤ (i 0).val ∧ (i 0).val < 10000 * w.val + 10000 := by
  rw [outSet_eq, mem_unit2]
  show (w.val * 10000 ≤ (i 0).val ∧ (i 0).val < w.val * 10000 + 10000) ∧ (0 * 256 ≤ (i 1).val ∧ (i 1).val < 0 * 256 + 256) ↔ _
  have := idx2_lt1 i
  constructor
  · intro h; omega
  · intro h; omega

/-- The 32 parts are pairwise disjoint. -/
theorem outSet_disjoint : ∀ w ∈ (Finset.univ : Finset (Fin 32)), ∀ w' ∈ (Finset.univ : Finset (Fin 32)), w ≠ w' →
    Disjoint (outSet w) (outSet w') := fun w _ w' _ h => by
  rw [outSet_eq, outSet_eq]; exact Rect.part_disjoint hdiv32 h

/-- The 32 parts cover the array. -/
theorem outSet_cover : (Finset.univ : Finset (Fin 32)).biUnion outSet = Finset.univ :=
  (Finset.biUnion_congr rfl fun w _ => outSet_eq w).trans (Rect.biUnion_part hdiv32)

/-- The tile number of tile s of SparseCore c is 2 s + c. -/
theorem wid_val (c : Fin τ.nSC) (s : Fin τ.nSub) : (wid c s).val = 2 * s.val + c.val := rfl

/-- The tile number of the tile at L. -/
theorem wid_L (L : grid0.Coords) : (wid (cV L) (jV L)).val = 2 * (L 1).val + (L 0).val := rfl

/-- The pairs (SparseCore, tile) are the 32 tile numbers. -/
def widEquiv : Fin τ.nSC × Fin τ.nSub ≃ Fin 32 where
  toFun p := wid p.1 p.2
  invFun w := (⟨w.val % 2, Nat.mod_lt _ (by decide)⟩, ⟨w.val / 2, by have := w.isLt; show w.val / 2 < 16; omega⟩)
  left_inv p := by
    have h1 : p.1.val < 2 := p.1.isLt
    have h2 : p.2.val < 16 := p.2.isLt
    refine Prod.ext (Fin.ext ?_) (Fin.ext ?_)
    · show (2 * p.2.val + p.1.val) % 2 = p.1.val; omega
    · show (2 * p.2.val + p.1.val) / 2 = p.2.val; omega
  right_inv w := Fin.ext (by show 2 * (w.val / 2) + w.val % 2 = w.val; omega)

theorem widEquiv_apply (c : Fin τ.nSC) (s : Fin τ.nSub) : widEquiv (c, s) = wid c s := rfl

/-! ## The chunks of a part -/

/-- Chunk j of the part of the tile at L, half h: 40 rows from row 10000 w + 40 j, 128 columns from column 128 h. -/
def chunkSet (L : grid0.Coords) (j : Fin 250) (h : Fin 2) : Finset S320000x256.Idx :=
  (Rect.unit (s := S320000x256) ![10000 * (2 * (L 1).val + (L 0).val) + 40 * j.val, 128 * h.val] S40x128.size
    (Rect.inb₂ (by have := L0_lt L; have := L1_lt L; have := j.isLt; show 10000 * (2 * (L 1).val + (L 0).val) + 40 * j.val + 40 ≤ 320000; omega)
      (by have := h.isLt; show 128 * h.val + 128 ≤ 256; omega))).set

theorem mem_chunkSet (L : grid0.Coords) (j : Fin 250) (h : Fin 2) (i : S320000x256.Idx) :
    i ∈ chunkSet L j h
      ↔ (10000 * (2 * (L 1).val + (L 0).val) + 40 * j.val ≤ (i 0).val ∧ (i 0).val < 10000 * (2 * (L 1).val + (L 0).val) + 40 * j.val + 40)
        ∧ (128 * h.val ≤ (i 1).val ∧ (i 1).val < 128 * h.val + 128) := by
  unfold chunkSet
  rw [mem_unit2]
  rfl

/-- The 500 chunk halves of a part are pairwise disjoint. -/
theorem chunkSet_disjoint (L : grid0.Coords) : ∀ p ∈ (Finset.univ : Finset (Fin 250 × Fin 2)), ∀ p' ∈ (Finset.univ : Finset (Fin 250 × Fin 2)),
    p ≠ p' → Disjoint (chunkSet L p.1 p.2) (chunkSet L p'.1 p'.2) := fun p _ p' _ hne =>
  Finset.disjoint_left.2 fun i h1 h2 => by
    rw [mem_chunkSet] at h1 h2
    refine hne (Prod.ext (Fin.ext ?_) (Fin.ext ?_))
    · omega
    · omega

/-- The 500 chunk halves of a part cover it. -/
theorem chunkSet_cover (L : grid0.Coords) :
    (Finset.univ : Finset (Fin 250 × Fin 2)).biUnion (fun p => chunkSet L p.1 p.2) = outSet (wid (cV L) (jV L)) := by
  ext i
  rw [mem_outSet, wid_L]
  simp only [Finset.mem_biUnion, Finset.mem_univ, true_and, mem_chunkSet]
  have h1 := idx2_lt1 i
  constructor
  · rintro ⟨p, hp⟩
    have := p.1.isLt
    omega
  · intro hi
    refine ⟨(⟨((i 0).val - 10000 * (2 * (L 1).val + (L 0).val)) / 40, by omega⟩, ⟨(i 1).val / 128, by omega⟩), ?_⟩
    show (10000 * (2 * (L 1).val + (L 0).val) + 40 * (((i 0).val - 10000 * (2 * (L 1).val + (L 0).val)) / 40) ≤ (i 0).val ∧ (i 0).val < 10000 * (2 * (L 1).val + (L 0).val) + 40 * (((i 0).val - 10000 * (2 * (L 1).val + (L 0).val)) / 40) + 40)
        ∧ (128 * ((i 1).val / 128) ≤ (i 1).val ∧ (i 1).val < 128 * ((i 1).val / 128) + 128)
    omega

/-- The loop runs at most 124 times. -/
theorem trips_le : k0_t1_loop.trips ≤ 124 := k0_t1_abs.2.1

/-- The first two chunks' left halves, as the kernel slices them. -/
theorem slice_off3 (L : grid0.Coords) (r : Fin 2) (inb) :
    ((oV).view.slice (Rect.unit (s := S320000x256) (k0_off3 L (BitVec.ofNat 32 (40 * r.val))) S40x128.size inb)).set
      = chunkSet L ⟨r.val, by have := r.isLt; omega⟩ 0 := by
  ext i
  rw [oV_slice_set, mem_unit2, mem_chunkSet]
  have e0 : k0_off3 L (BitVec.ofNat 32 (40 * r.val)) 0 = 20000 * (L 1).val + 10000 * (L 0).val + 40 * r.val := by rw [k0_off3_eq L r]; rfl
  have e1 : k0_off3 L (BitVec.ofNat 32 (40 * r.val)) 1 = 0 := by rw [k0_off3_eq L r]; rfl
  rw [e0, e1]
  show (_ ≤ (i 0).val ∧ (i 0).val < _ + 40) ∧ (0 ≤ (i 1).val ∧ (i 1).val < 0 + 128) ↔ (10000 * (2 * (L 1).val + (L 0).val) + 40 * r.val ≤ (i 0).val ∧ (i 0).val < 10000 * (2 * (L 1).val + (L 0).val) + 40 * r.val + 40) ∧ (128 * 0 ≤ (i 1).val ∧ (i 1).val < 128 * 0 + 128)
  constructor <;> intro h <;> omega

/-- The first two chunks' right halves. -/
theorem slice_off4 (L : grid0.Coords) (r : Fin 2) (inb) :
    ((oV).view.slice (Rect.unit (s := S320000x256) (k0_off4 L (BitVec.ofNat 32 (40 * r.val))) S40x128.size inb)).set
      = chunkSet L ⟨r.val, by have := r.isLt; omega⟩ 1 := by
  ext i
  rw [oV_slice_set, mem_unit2, mem_chunkSet]
  have e0 : k0_off4 L (BitVec.ofNat 32 (40 * r.val)) 0 = 20000 * (L 1).val + 10000 * (L 0).val + 40 * r.val := by rw [k0_off4_eq L r]; rfl
  have e1 : k0_off4 L (BitVec.ofNat 32 (40 * r.val)) 1 = 128 := by rw [k0_off4_eq L r]; rfl
  rw [e0, e1]
  show (_ ≤ (i 0).val ∧ (i 0).val < _ + 40) ∧ (128 ≤ (i 1).val ∧ (i 1).val < 128 + 128) ↔ (10000 * (2 * (L 1).val + (L 0).val) + 40 * r.val ≤ (i 0).val ∧ (i 0).val < 10000 * (2 * (L 1).val + (L 0).val) + 40 * r.val + 40) ∧ (128 * 1 ≤ (i 1).val ∧ (i 1).val < 128 * 1 + 128)
  constructor <;> intro h <;> omega

/-- The loop's chunks' left halves: trip k, row r of the trip is chunk 2 k + r + 2. -/
theorem slice_off6 (L : grid0.Coords) (k : Fin k0_t1_loop.trips) (r : Fin 2) (inb) :
    ((oV).view.slice (Rect.unit (s := S320000x256) (k0_off6 L k (BitVec.ofNat 32 r.val)) S40x128.size inb)).set
      = chunkSet L ⟨2 * k.val + r.val + 2, by have := r.isLt; have := k.isLt; have := trips_le; omega⟩ 0 := by
  ext i
  rw [oV_slice_set, mem_unit2, mem_chunkSet]
  have e0 : k0_off6 L k (BitVec.ofNat 32 r.val) 0 = 20000 * (L 1).val + 10000 * (L 0).val + 80 * k.val + 40 * r.val + 80 := by rw [k0_off6_eq L k r]; rfl
  have e1 : k0_off6 L k (BitVec.ofNat 32 r.val) 1 = 0 := by rw [k0_off6_eq L k r]; rfl
  rw [e0, e1]
  show (_ ≤ (i 0).val ∧ (i 0).val < _ + 40) ∧ (0 ≤ (i 1).val ∧ (i 1).val < 0 + 128) ↔ (10000 * (2 * (L 1).val + (L 0).val) + 40 * (2 * k.val + r.val + 2) ≤ (i 0).val ∧ (i 0).val < 10000 * (2 * (L 1).val + (L 0).val) + 40 * (2 * k.val + r.val + 2) + 40) ∧ (128 * 0 ≤ (i 1).val ∧ (i 1).val < 128 * 0 + 128)
  constructor <;> intro h <;> omega

/-- The loop's chunks' right halves. -/
theorem slice_off7 (L : grid0.Coords) (k : Fin k0_t1_loop.trips) (r : Fin 2) (inb) :
    ((oV).view.slice (Rect.unit (s := S320000x256) (k0_off7 L k (BitVec.ofNat 32 r.val)) S40x128.size inb)).set
      = chunkSet L ⟨2 * k.val + r.val + 2, by have := r.isLt; have := k.isLt; have := trips_le; omega⟩ 1 := by
  ext i
  rw [oV_slice_set, mem_unit2, mem_chunkSet]
  have e0 : k0_off7 L k (BitVec.ofNat 32 r.val) 0 = 20000 * (L 1).val + 10000 * (L 0).val + 80 * k.val + 40 * r.val + 80 := by rw [k0_off7_eq L k r]; rfl
  have e1 : k0_off7 L k (BitVec.ofNat 32 r.val) 1 = 128 := by rw [k0_off7_eq L k r]; rfl
  rw [e0, e1]
  show (_ ≤ (i 0).val ∧ (i 0).val < _ + 40) ∧ (128 ≤ (i 1).val ∧ (i 1).val < 128 + 128) ↔ (10000 * (2 * (L 1).val + (L 0).val) + 40 * (2 * k.val + r.val + 2) ≤ (i 0).val ∧ (i 0).val < 10000 * (2 * (L 1).val + (L 0).val) + 40 * (2 * k.val + r.val + 2) + 40) ∧ (128 * 1 ≤ (i 1).val ∧ (i 1).val < 128 * 1 + 128)
  constructor <;> intro h <;> omega

/-- The tile's entries of the senders array, as the kernel slices it: entries 10000 w … 10000 w + 9999. -/
theorem mem_slice_off2_s (L : grid0.Coords) (inb) (i : S320000.Idx) :
    i ∈ ((sV).view.slice (Rect.unit (s := S320000) (k0_off2 L) S10000.size inb)).set
      ↔ 10000 * (2 * (L 1).val + (L 0).val) ≤ (i 0).val ∧ (i 0).val < 10000 * (2 * (L 1).val + (L 0).val) + 10000 := by
  rw [sV_slice_set, mem_unit1]
  have e0 : k0_off2 L 0 = 20000 * (L 1).val + 10000 * (L 0).val := by rw [k0_off2_eq L]; rfl
  rw [e0]
  show (_ ≤ (i 0).val ∧ (i 0).val < _ + 10000) ↔ _
  constructor <;> intro h <;> omega

/-- The same for the receivers array. -/
theorem mem_slice_off2_r (L : grid0.Coords) (inb) (i : S320000.Idx) :
    i ∈ ((rV).view.slice (Rect.unit (s := S320000) (k0_off2 L) S10000.size inb)).set
      ↔ 10000 * (2 * (L 1).val + (L 0).val) ≤ (i 0).val ∧ (i 0).val < 10000 * (2 * (L 1).val + (L 0).val) + 10000 := by
  rw [rV_slice_set, mem_unit1]
  have e0 : k0_off2 L 0 = 20000 * (L 1).val + 10000 * (L 0).val := by rw [k0_off2_eq L]; rfl
  rw [e0]
  show (_ ≤ (i 0).val ∧ (i 0).val < _ + 10000) ↔ _
  constructor <;> intro h <;> omega

end Cert.Proof.KB

end
-- ==== Proof.KbSplit.lean ====
/-
  How one SparseCore's operands of the call split among its sixteen tiles, and how the tiles' results join.

  The TensorCore's arrays arrive already cut per tile and pass through. The SparseCore's shared table is among the
  sequencer's own buffers, whole, at some contents: it is cut along the sixteen tiles' parts (pairwise disjoint,
  covering the table), and tile i takes part i. Coming back, tile i returns its sixteenth of a read share of the
  WHOLE table at the node table's contents and the remainder of its own part. Each tile's share of the whole is cut
  along the parts; exchanging the two products gives, per part, all sixteen read shares of it; with the part's
  remainder these are the part at the full share; and the parts are the table.
-/
import proofs.«206088_g82248623718559_cont_9to1c4b_230_21_alg».proof.Proof.KbPay
import proofs.«206088_g82248623718559_cont_9to1c4b_230_21_alg».proof.Proof.KbGeom

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

variable [FloatOps F]

/-! ## Index bookkeeping: the call's sixteen tasks are the sixteen tiles -/

omit [FloatOps F] in
theorem tasks16 (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

omit [FloatOps F] in
theorem sub_cast (i : Fin ((K (F := F)).nSub 0)) : (K (F := F)).sub 0 i = Fin.cast nSub_eq.symm (Fin.cast nSub_zero i) := Fin.ext rfl

/-! ## The handshake payloads, as equations -/

theorem P_st (d : Dev nD) (c : Fin ((K (F := F)).nCore 0)) :
    (P m).st 0 d c = bigSep Finset.univ fun i : Fin 16 => tileArr m d (wid (coreOf c) (Fin.cast nSub_eq.symm i)) (m (oLoc d)) := rfl
theorem P_dn (d : Dev nD) (c : Fin ((K (F := F)).nCore 0)) :
    (P m).dn 0 d c = bigSep Finset.univ fun i : Fin 16 => tileArr m d (wid (coreOf c) (Fin.cast nSub_eq.symm i)) (gatherC m d) := rfl
theorem P_go (d : Dev nD) (c : Fin ((K (F := F)).nCore 0)) (i : Fin ((K (F := F)).nSub 0)) :
    (P m).go 0 d c i = iprop(tileArr m d (wid (coreOf c) (Fin.cast nSub_eq.symm (Fin.cast nSub_zero i))) (m (oLoc d)) ∗ shIn d (coreOf c) (Fin.cast nSub_zero i)) := by
  rw [← sub_cast]; rfl
theorem P_td (d : Dev nD) (c : Fin ((K (F := F)).nCore 0)) (i : Fin ((K (F := F)).nSub 0)) :
    (P m).td 0 d c i = iprop(tileArr m d (wid (coreOf c) (Fin.cast nSub_eq.symm (Fin.cast nSub_zero i))) (gatherC m d) ∗ shOut m d (coreOf c) (Fin.cast nSub_zero i)) := by
  rw [← sub_cast]; rfl

theorem go_all (d : Dev nD) (c : Fin ((K (F := F)).nCore 0)) :
    (bigSep Finset.univ fun i : Fin ((K (F := F)).nSub 0) => (P m).go 0 d c i)
      = iprop((bigSep Finset.univ fun i : Fin 16 => tileArr m d (wid (coreOf c) (Fin.cast nSub_eq.symm i)) (m (oLoc d)))
          ∗ bigSep Finset.univ fun i : Fin 16 => shIn (F := F) d (coreOf c) i) := by
  rw [← bigSep_sep', ← tasks16 (F := F) (fun i => iprop(tileArr m d (wid (coreOf c) (Fin.cast nSub_eq.symm i)) (m (oLoc d)) ∗ shIn d (coreOf c) i))]
  exact bigSep_congr fun i _ => P_go m d c i
theorem td_all (d : Dev nD) (c : Fin ((K (F := F)).nCore 0)) :
    (bigSep Finset.univ fun i : Fin ((K (F := F)).nSub 0) => (P m).td 0 d c i)
      = iprop((bigSep Finset.univ fun i : Fin 16 => tileArr m d (wid (coreOf c) (Fin.cast nSub_eq.symm i)) (gatherC m d))
          ∗ bigSep Finset.univ fun i : Fin 16 => shOut m d (coreOf c) i) := by
  rw [← bigSep_sep', ← tasks16 (F := F) (fun i => iprop(tileArr m d (wid (coreOf c) (Fin.cast nSub_eq.symm i)) (gatherC m d) ∗ shOut m d (coreOf c) i))]
  exact bigSep_congr fun i _ => P_td m d c i

/-! ## The shared table and its sixteen parts -/

omit [FloatOps F] in
/-- The shared table is among the sequencer's own buffers: it, at some contents, and the rest. -/
theorem ownBufs_S (d : Dev nD) (c : Fin τ.nSC) :
    (ownBufs (S d c) : sProp 𝕄)
      = iprop((∃ f, shLoc d c ↦{fullShare} f) ∗ bigSep ((ownRefs (τ := τ) (.scScalar c)).erase (shRef c)) fun b => iprop(∃ f, ((d, b) : Loc nD τ sig) ↦{fullShare} f)) := by
  unfold SparseCore.Cfg.ownBufs
  have h : shRef c ∈ ownRefs (τ := τ) (sig := sig) (.scScalar c) := (mem_ownRefs (p := Proc.scScalar c) (b := shRef c)).mpr rfl
  exact SparseCore.bigSep_erase' h

omit [FloatOps F] in
/-- At any share and contents, the table is its sixteen parts. -/
theorem shPts_blks (d : Dev nD) (c : Fin τ.nSC) (q : PosShare TreeShare) (f : Buf (Elt F) (shLoc d c)) :
    (shLoc d c ↦{q} f : sProp 𝕄) = bigSep Finset.univ fun i : Fin 16 => shLoc d c ↦[blkAll i]{q} f := by
  rw [← pointsTo_biUnion Finset.univ (ℓ := shLoc d c) blkAll blkAll_disjoint, blkAll_cover]; try rfl

omit [FloatOps F] in
/-- Going out: each tile its part, at the contents the table happens to hold. -/
theorem shIn_split (d : Dev nD) (c : Fin τ.nSC) (f : Buf (Elt F) (shLoc d c)) :
    (shLoc d c ↦{fullShare} f : sProp 𝕄) ⊢ bigSep Finset.univ fun i : Fin 16 => shIn (F := F) d c i := by
  rw [shPts_blks d c fullShare f]
  refine bigSep_mono fun i _ => ?_
  unfold shIn
  exact BI.BIClass.exists_intro (Φ := fun g => (shLoc d c ↦[blkAll i]{fullShare} g : sProp 𝕄)) f

/-- Coming back: the sixteen read shares of the whole table and the sixteen remainders of the parts are the table. -/
theorem shOut_join (d : Dev nD) (c : Fin τ.nSC) :
    (bigSep Finset.univ fun i : Fin 16 => shOut m d c i) ⊢ (iprop(∃ f, shLoc d c ↦{fullShare} f) : sProp 𝕄) := by
  unfold shOut
  rw [bigSep_sep']
  have h1 : (bigSep Finset.univ fun i : Fin 16 => (shLoc d c ↦{Transfers.shareTok fullShare 16 i} nodesSh m d c : sProp 𝕄))
      = bigSep Finset.univ fun j : Fin 16 => bigSep Finset.univ fun i : Fin 16 =>
          (shLoc d c ↦[blkAll j]{Transfers.shareTok fullShare 16 i} nodesSh m d c : sProp 𝕄) := by
    rw [← bigSep_univ_comm]
    exact bigSep_congr fun i _ => shPts_blks d c _ _
  rw [h1, ← bigSep_sep']
  refine (bigSep_mono (Ψ := fun j : Fin 16 => (shLoc d c ↦[blkAll j]{fullShare} nodesSh m d c : sProp 𝕄)) fun j _ => ?_).trans ?_
  · exact sep_comm.1.trans (Transfers.pointsTo_toks_join fullShare 16)
  · rw [← shPts_blks d c fullShare (nodesSh m d c)]
    exact BI.BIClass.exists_intro (Φ := fun g => (shLoc d c ↦{fullShare} g : sProp 𝕄)) (nodesSh m d c)

/-! ## The split -/

theorem vecSplit : (K (F := F)).VecSplit (P m) 0 := by
  intro d c
  rw [go_all, td_all, P_st, P_dn, ownBufs_S]
  iintro ⟨Harr, ⟨%fsh, Hsh⟩, Hrest⟩; imodintro
  isplitl [Harr Hsh]
  · isplitl [Harr]; · iexact Harr
    iapply (shIn_split d (coreOf c) fsh); iexact Hsh
  iintro ⟨Harr, Hsh⟩
  isplitl [Harr]; · iexact Harr
  isplitl [Hsh]; · iapply (shOut_join m d (coreOf c)); iexact Hsh
  iexact Hrest

end Cert.Proof.KB

end
-- ==== Proof.KbLaunch.lean ====
/-
  The launch element of the proof's resource algebra, and what the launch hands every thread.

  The element is the handshakes' rounds at launch, the barrier cells' rounds at launch (one cell per tile of both
  SparseCores of every device, and for every pair of tiles of one SparseCore the one tile's duty token in the
  other's round 0), the TensorCore pipeline's staging cells' rounds at launch, and no transfer counted. From it, the
  credit for the tiles' debts and the tiles' free semaphores at zero: the handshakes' element stays whole; the
  barrier cells' invariants are allocated and every tile is dealt its barrier bundle; every device is dealt its
  pipeline's staging cells' launch state and the duty tokens of the transfers its loop will issue.
-/
import proofs.«206088_g82248623718559_cont_9to1c4b_230_21_alg».proof.Proof.KbPay
import proofs.«206088_g82248623718559_cont_9to1c4b_230_21_alg».proof.Proof.Gen.Kernel.Launch

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

variable [FloatOps F]

/-! ## The barrier cells and the duty tokens -/

abbrev DCI : Type := Dev nD × Fin τ.nSC × Fin τ.nSub
abbrev bcell₃ (x : DCI) : GSem nD τ sig := bcell x.1 x.2.1 x.2.2

def bCells : Finset (GSem nD τ sig) := Finset.univ.image bcell₃
/-- Tile i's token in tile j's cell, for every pair of tiles of one SparseCore. -/
def bToks : Finset (GSem nD τ sig × ℕ × ℕ) :=
  Finset.univ.image fun x : DCI × Fin (grid0.bound 1) => (bcell x.1.1 x.1.2.1 (x.2.castLE hsub0), 0, x.1.2.2.val)

/-! ## The TensorCore pipeline's staging cells -/

/-- The one admissible choice of prefetched tables: none. -/
abbrev admL : (p : Fin 1) → (pcfgs (F := F) p).Adm := fun p => (cfgs p).toPCfg_adm
/-- The pipeline's configuration at that choice. -/
abbrev cfgsP : Fin 1 → Pipeline.Cfg sig Λ₀ := Pipeline.pin (pcfgs (F := F)) admL
omit [FloatOps F] in
theorem hinjP : Function.Injective (Pipeline.cellOf (nD := nD) (τ := τ) (cfgsP (F := F))) := cellOf_inj

/-- What the launch deals device d for the pipeline: its staging cells' launch state and its loop's duty tokens. -/
abbrev G (d : Dev nD) : sProp 𝕄 :=
  iprop(Pipeline.cellsGhost (cfgsP (F := F)) ER 0 d ∗ Pipeline.toksInit (cfgsP (F := F)) ER 0 d)

/-! ## The launch element -/

def u₀ : UU :=
  (initOf (K (F := F)).hsCells (K (F := F)).hsToks,
    (initOf bCells bToks, (initOf (Pipeline.cells (cfgsP (F := F)) hinjP) (Pipeline.launchToks (cfgsP (F := F)) hinjP), 1)))

omit [FloatOps F] in
theorem bcell₃_injective : Function.Injective (bcell₃ : DCI → GSem nD τ sig) := fun a b e => by
  obtain ⟨h1, h2⟩ := Prod.mk.inj (Prod.mk.inj e).1; obtain ⟨h3, h4⟩ := Proc.scVector.inj h2
  exact Prod.ext h1 (Prod.ext h3 h4)

omit [FloatOps F] in
/-- The element's three rounds components, each owned through its embedding. -/
theorem ownU_split (a : UH) (b : UB) (r : UR) :
    (ownU ((a, (b, (r, 1))) : UU) : sProp 𝕄) ⊢ iprop(BI.own (EH a) ∗ BI.own (EB b) ∗ BI.own (ER r)) := by
  have h1 : (ownU ((a, (b, (r, 1))) : UU) : sProp 𝕄) ⊢ iprop(BI.own (EH a)
      ∗ BI.own ((uEmb (nD := nD) (sig := sig) (Ix := HIx 1) (Val := Elt F) (Name := ℕ) (U := UU) (Lvl := ℕ)).toEmb ((1 : UH), (b, ((r, 1) : UR × Counters))))) :=
    BI.own_op_elim ((uEmb (nD := nD) (sig := sig) (Ix := HIx 1) (Val := Elt F) (Name := ℕ) (U := UU) (Lvl := ℕ)).toEmb.op_of_mem
      (Prod.mk_mem_op (URA.mem_op_one a) (URA.mem_one_op (b, ((r, 1) : UR × Counters)))))
  have h2 : (BI.own ((uEmb (nD := nD) (sig := sig) (Ix := HIx 1) (Val := Elt F) (Name := ℕ) (U := UU) (Lvl := ℕ)).toEmb ((1 : UH), (b, ((r, 1) : UR × Counters)))) : sProp 𝕄)
      ⊢ iprop(BI.own (EB b) ∗ BI.own (ER r)) :=
    BI.own_op_elim ((uEmb (nD := nD) (sig := sig) (Ix := HIx 1) (Val := Elt F) (Name := ℕ) (U := UU) (Lvl := ℕ)).toEmb.op_of_mem
      (Prod.mk_mem_op (URA.mem_one_op (1 : UH)) (Prod.mk_mem_op (URA.mem_op_one b) (URA.mem_one_op ((r, 1) : UR × Counters)))))
  exact h1.trans (sep_mono .rfl h2)

omit [FloatOps F] in
/-- The pipeline's component funds every device's staging cells and tokens. -/
theorem pipe_fund :
    (BI.own (ER (initOf (Pipeline.cells (cfgsP (F := F)) hinjP) (Pipeline.launchToks (cfgsP (F := F)) hinjP))) : sProp 𝕄)
      ⊢ iprop(|==> bigSep Finset.univ (G (F := F))) := by
  refine (Pipeline.fund_ghost (cfgsP (F := F)) ER hinjP).trans (BI.bupd_mono ?_)
  rw [bigSep_sep']
  refine sep_mono (bigSep_mono fun c _ => ?_) (bigSep_mono fun c _ => ?_)
  · exact Entails.of_eq (bigSep_univ_of_subsingleton (0 : Fin 1))
  · exact Entails.of_eq (bigSep_univ_of_subsingleton (0 : Fin 1))

omit [FloatOps F] in
/-- Every barrier semaphore at zero, out of the free semaphores the launch hands over. -/
theorem sems_b : ((K (F := F)).freeSems0 : sProp 𝕄) ⊢ bigSep bCells fun g => semVal g 0 := by
  unfold SparseCore.Cfg.freeSems0 bCells
  rw [SparseCore.bigSep_image_of_injOn (fun a _ b _ e => bcell₃_injective e)]
  refine sep_elim_right.trans (bigSep_mono fun dci _ => ?_)
  unfold SparseCore.Cfg.vcSems0
  exact bigSep_elim (Φ := fun sm : SemLoc sig => (semVal (V dci.1 dci.2.1 dci.2.2, sm) 0 : sProp 𝕄))
    (Finset.mem_erase.mpr ⟨fun h => sc_bar0_ne_go (SemLoc.reg.inj h), Finset.mem_filter.mpr ⟨Finset.mem_univ _, by decide⟩⟩)

/-- The barrier cells' invariants, allocated at once. -/
theorem invs_b : iprop((bigSep bCells fun g => (semVal g 0 : sProp 𝕄)) ∗ bigSep bCells fun g => roundState EB (bRd (F := F) m) g 0)
    ⊢ |={Set.univ}=> iprop(∃ κ : GSem nD τ sig → ℕ, bigSep bCells fun g => cellInv EB (bRd (F := F) m) (κ g) g) := by
  refine (Rounds.bodies_intro EB (bRd (F := F) m) bCells).trans ((inv_alloc_family bCells (Rounds.body EB (bRd (F := F) m)) ∅ (E := Set.univ)).trans ?_)
  iintro H
  imod H with ⟨%κ, -, Hinv⟩
  imodintro; iexists κ; iexact Hinv

omit [FloatOps F] in
theorem sum_tallyAt_one (g : GSem nD τ sig) (ι : HIx 1) : ∀ n : ℕ, ∑ _ : Fin n, tallyAt g ι 1 = (tallyAt g ι n : CellTallies nD τ sig (HIx 1))
  | 0 => by rw [Finset.sum_empty' Finset.univ_eq_empty, tallyAt_zero]
  | n + 1 => by rw [Fin.sum_univ_castSucc, sum_tallyAt_one g ι n, tallyAt_add]
where
  Finset.sum_empty' {α β : Type} [AddCommMonoid β] {s : Finset α} (h : s = ∅) {f : α → β} : ∑ x ∈ s, f x = 0 := by rw [h, Finset.sum_empty]

/-- The credit for the tiles' debts, regrouped: each tile the sixteen units of its own cell. -/
theorem creds_b : ((P (F := F) m).oxCred : sProp 𝕄)
    ⊢ bigSep Finset.univ fun dci : DCI => if dci.2.1.val < 2 then cred (tallyAt (bcell₃ dci) (some 0) (grid0.bound 1)) else (BI.emp : sProp 𝕄) := by
  unfold SparseCore.Cfg.Pay.oxCred
  rw [SparseCore.Cfg.bigSep_threads (fun thr : Thread nD τ => (cred ((P (F := F) m).oxFrom 0 thr) : sProp 𝕄))]
  refine sep_elim_right.trans (sep_elim_right.trans ?_)
  rw [bigSep_univ_prod, bigSep_univ_prod (fun dci : DCI => if dci.2.1.val < 2 then (cred (tallyAt (bcell₃ dci) (some 0) (grid0.bound 1)) : sProp 𝕄) else BI.emp)]
  refine bigSep_mono fun d _ => ?_
  rw [bigSep_univ_prod, bigSep_univ_prod (fun ci : Fin τ.nSC × Fin τ.nSub => if ci.1.val < 2 then (cred (tallyAt (bcell₃ (d, ci)) (some 0) (grid0.bound 1)) : sProp 𝕄) else BI.emp)]
  refine bigSep_mono fun c _ => ?_
  dsimp only
  by_cases hc : c.val < 2
  · simp only [hc, ↓reduceIte]
    have hox : ∀ i, (P (F := F) m).oxFrom 0 (V d c i) = oxV d c := fun i => by
      rw [show (0 : ℕ) = (0 : Fin 1).val from rfl, (P m).oxFrom_step, (P m).oxFrom_end _ (n := (0 : Fin 1).val + 1) le_rfl, add_zero]; exact if_pos hc
    simp only [hox]
    unfold oxV
    rw [SparseCore.Cfg.cred_finsum, bigSep_univ_comm]
    refine bigSep_mono fun j _ => ?_
    rw [← SparseCore.Cfg.cred_finsum, sum_tallyAt_one]; rfl
  · simp only [hc, ↓reduceIte]
    exact bigSep_mono fun _ _ => fun _ _ => trivial

omit [FloatOps F] in
/-- A persistent resource beside a big separating conjunction goes to each conjunct. -/
theorem bigSep_mono_frame {I : Type} [DecidableEq I] {R : sProp 𝕄} [BI.Persistent R] {s : Finset I} {Φ Ψ : I → sProp 𝕄}
    (h : ∀ i ∈ s, iprop(R ∗ Φ i) ⊢ Ψ i) : iprop(R ∗ bigSep s Φ) ⊢ bigSep s Ψ := by
  induction s using Finset.induction_on with
  | empty => rw [bigSep_empty, bigSep_empty]; exact sep_elim_right
  | insert a s ha ih =>
    rw [SparseCore.bigSep_insert' ha, SparseCore.bigSep_insert' ha]
    iintro ⟨#HR, H1, H2⟩
    isplitl [H1]
    · iapply (h a (Finset.mem_insert_self _ _)); isplitr; · iexact HR
      iexact H1
    · iapply (ih fun i hi => h i (Finset.mem_insert_of_mem hi)); isplitr; · iexact HR
      iexact H2

omit [FloatOps F] in
theorem toks_eq : (bigSep bToks fun x => (dutyTok EB x.1 x.2.1 x.2.2 : sProp 𝕄))
    = bigSep Finset.univ fun dci : DCI => bigSep Finset.univ fun j : Fin (grid0.bound 1) => dutyTok EB (bcell dci.1 dci.2.1 (j.castLE hsub0)) 0 dci.2.2.val := by
  unfold bToks
  rw [SparseCore.bigSep_image_of_injOn, bigSep_univ_prod]
  rintro ⟨⟨d, c, i⟩, j⟩ - ⟨⟨d', c', i'⟩, j'⟩ - e
  have e1 := (Prod.mk.inj (Prod.mk.inj e).1).1
  have e2 : i.val = i'.val := (Prod.mk.inj (Prod.mk.inj e).2).2
  obtain ⟨rfl, h⟩ := Prod.mk.inj e1
  obtain ⟨rfl, hj⟩ := Proc.scVector.inj h
  have hj' : j = j' := Fin.ext (congrArg Fin.val hj)
  subst hj'
  have hi' : i = i' := Fin.ext e2
  subst hi'
  rfl

theorem Px_T (d : Dev nD) : (bigSep Finset.univ fun q : Fin 1 => (P (F := F) m).x q (SparseCore.T d)) = iprop(emp) :=
  bigSep_univ_of_subsingleton (0 : Fin 1)
theorem Px_S (d : Dev nD) (c : Fin τ.nSC) : (bigSep Finset.univ fun q : Fin 1 => (P (F := F) m).x q (S d c)) = iprop(emp) :=
  bigSep_univ_of_subsingleton (0 : Fin 1)
theorem Px_V (d : Dev nD) (c : Fin τ.nSC) (i : Fin τ.nSub) :
    (bigSep Finset.univ fun q : Fin 1 => (P (F := F) m).x q (V d c i)) = if c.val < 2 then bkit m d c i else iprop(emp) :=
  bigSep_univ_of_subsingleton (0 : Fin 1)

omit [FloatOps F] in
theorem bCells_eq (Φ : GSem nD τ sig → sProp 𝕄) : bigSep bCells Φ = bigSep Finset.univ fun x : DCI => Φ (bcell₃ x) := by
  unfold bCells; exact SparseCore.bigSep_image_of_injOn (fun a _ b _ e => bcell₃_injective e) Φ

/-- What every tile is handed alike: every barrier cell's invariant, and that each has reached round 0. -/
abbrev shared : sProp 𝕄 :=
  iprop((∃ κ : GSem nD τ sig → ℕ, bigSep Finset.univ fun x : DCI => cellInv EB (bRd (F := F) m) (κ (bcell₃ x)) (bcell₃ x))
    ∗ bigSep Finset.univ fun x : DCI => reached EB (bcell₃ x) 0)
/-- What each tile is handed of its own: its position, its tokens, its credit. -/
abbrev mine (dci : DCI) : sProp 𝕄 :=
  iprop(atPos EB (bcell₃ dci) 0 ∅ 0
    ∗ (bigSep Finset.univ fun j : Fin (grid0.bound 1) => dutyTok EB (bcell dci.1 dci.2.1 (j.castLE hsub0)) 0 dci.2.2.val)
    ∗ (if dci.2.1.val < 2 then cred (tallyAt (bcell₃ dci) (some 0) (grid0.bound 1)) else BI.emp))

/-- One tile's bundle out of those. -/
theorem kit_intro (dci : DCI) : iprop(shared (F := F) m ∗ mine dci) ⊢ (if dci.2.1.val < 2 then bkit (F := F) m dci.1 dci.2.1 dci.2.2 else iprop(emp) : sProp 𝕄) := by
  obtain ⟨d, c, i⟩ := dci
  iintro ⟨⟨#Hinv, #Hr⟩, Hat, Htok, Hcred⟩
  dsimp only
  split
  · unfold bkit
    isplitr
    · icases Hinv with ⟨%κ, Hinv⟩
      iexists κ
      iapply (SparseCore.ent (bigSep_mono_frame (s := (Finset.univ : Finset (Fin (grid0.bound 1)))) (Φ := fun _ => iprop(emp))
        (R := bigSep Finset.univ fun x : DCI => cellInv EB (bRd (F := F) m) (κ (bcell₃ x)) (bcell₃ x)) fun j _ =>
          sep_elim_left.trans (bigSep_elim (Φ := fun x : DCI => (cellInv EB (bRd (F := F) m) (κ (bcell₃ x)) (bcell₃ x) : sProp 𝕄))
            (i := (d, c, Fin.castLE hsub0 j)) (Finset.mem_univ _))))
      isplitl; · iexact Hinv
      rw [bigSep_emp']; iempintro
    isplitl [Htok]; · iexact Htok
    isplitr
    · iapply (SparseCore.ent (bigSep_mono_frame (s := (Finset.univ : Finset (Fin (grid0.bound 1)))) (Φ := fun _ => iprop(emp))
        (R := bigSep Finset.univ fun x : DCI => reached EB (bcell₃ x) 0) fun j _ =>
          sep_elim_left.trans (bigSep_elim (Φ := fun x : DCI => (reached EB (bcell₃ x) 0 : sProp 𝕄)) (i := (d, c, Fin.castLE hsub0 j)) (Finset.mem_univ _))))
      isplitl; · iexact Hr
      rw [bigSep_emp']; iempintro
    isplitl [Hat]; · iexact Hat
    iexact Hcred
  · iempintro

/-- Each tile its bundle. -/
theorem kits_deal :
    iprop(shared (F := F) m ∗ (bigSep Finset.univ fun x : DCI => atPos EB (bcell₃ x) 0 ∅ 0)
        ∗ (bigSep Finset.univ fun dci : DCI => bigSep Finset.univ fun j : Fin (grid0.bound 1) => dutyTok EB (bcell dci.1 dci.2.1 (j.castLE hsub0)) 0 dci.2.2.val)
        ∗ (bigSep Finset.univ fun dci : DCI => if dci.2.1.val < 2 then cred (tallyAt (bcell₃ dci) (some 0) (grid0.bound 1)) else BI.emp))
      ⊢ (bigSep Finset.univ fun thr : Thread nD τ => bigSep Finset.univ fun q : Fin 1 => (P (F := F) m).x q thr : sProp 𝕄) := by
  rw [SparseCore.Cfg.bigSep_threads (fun thr : Thread nD τ => bigSep Finset.univ fun q : Fin 1 => (P m).x q thr)]
  simp only [Px_T, Px_S, Px_V, bigSep_emp']
  iintro ⟨#Hsh, Hat, Htok, Hcred⟩
  isplitr; · iempintro
  isplitr; · iempintro
  iapply (bigSep_mono_frame (R := shared (F := F) m) (Φ := mine (F := F)) fun dci _ => kit_intro (F := F) m dci)
  isplitr; · iexact Hsh
  unfold mine
  rw [bigSep_sep', bigSep_sep']
  isplitl [Hat]; · iexact Hat
  isplitl [Htok]; · iexact Htok
  iexact Hcred

/-! ## The launch element funds the handshakes, every device's pipeline cells, and every tile's barrier bundle -/

theorem hu₀ : iprop(ownU (u₀ (F := F)) ∗ (P (F := F) m).oxCred ∗ (K (F := F)).freeSems0)
    ⊢ |={Set.univ}=> iprop(BI.own (EH (initOf (K (F := F)).hsCells (K (F := F)).hsToks)) ∗ bigSep Finset.univ (G (F := F))
        ∗ (bigSep Finset.univ fun thr : Thread nD τ => bigSep Finset.univ fun q : Fin 1 => (P m).x q thr) : sProp 𝕄) := by
  unfold u₀
  iintro ⟨Hu, Hcred, Hfree⟩
  ihave H := (ownU_split _ _ _) $$ Hu
  icases H with ⟨HH, HB, HR⟩
  imod (Rounds.fund EB (bRd (F := F) m) bCells bToks) $$ HB with ⟨Hst, #Hr, Hat, Htok⟩
  imod (pipe_fund (F := F)) $$ HR with HG
  ihave Hsems := (sems_b (F := F)) $$ Hfree
  imod (invs_b (F := F) m) $$ [Hsems Hst] with ⟨%κ, #Hinv⟩
  · isplitl [Hsems] <;> iassumption
  ihave Hcred' := (creds_b m) $$ Hcred
  ihave Hinv' := (Entails.of_eq (bCells_eq (F := F) fun g => cellInv EB (bRd (F := F) m) (κ g) g)) $$ Hinv
  ihave Hr' := (Entails.of_eq (bCells_eq (F := F) fun g => reached EB g 0)) $$ Hr
  ihave Hat' := (Entails.of_eq (bCells_eq (F := F) fun g => atPos EB g 0 ∅ 0)) $$ Hat
  ihave Htok' := (Entails.of_eq (toks_eq (F := F))) $$ Htok
  imodintro
  isplitl [HH]; · iexact HH
  isplitl [HG]; · iexact HG
  iapply (kits_deal m)
  isplitr
  · isplitl; · iexists κ; iexact Hinv'
    iexact Hr'
  isplitl [Hat']; · iexact Hat'
  isplitl [Htok']; · iexact Htok'
  iexact Hcred'

end Cert.Proof.KB

end
-- ==== Proof.KbTcRegionBody.lean ====
/-
  The dense network's block program on the TensorCore: what one run of it leaves in its eight staging buffers.

  The program loads the seven input blocks whole, computes the payload, and stores it over the whole output
  block. Run on staging buffers holding input blocks x0 … x6 it therefore ends with the inputs as they were and
  the output buffer at the payload of x0 … x6.
-/
import proofs.«206088_g82248623718559_cont_9to1c4b_230_21_alg».proof.Proof.KbSetup
import proofs.«206088_g82248623718559_cont_9to1c4b_230_21_alg».proof.Proof.Gen.Kernel.Launch
import proofs.«206088_g82248623718559_cont_9to1c4b_230_21_alg».proof.Proof.Gen.Kernel.Points
import Idealize.ShloMosaic.Lib.Pipeline.FrameBody
import Idealize.ShloMosaic.Lib.Ring

set_option maxRecDepth 16384

noncomputable section

namespace Cert.Proof.KB

open Cert.Kernel Cert.Kernel.Gen
open Idealize.ShloMosaic Idealize.ShloMosaic.TcCoe Idealize.ShloMosaic.Tactic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-! ## The body's accesses: each a whole block -/

abbrev r1_0 : Rect S6400x256 := Rect.unit (s := S6400x256) ![0, 0] S6400x256.size inb_S6400x256_S6400x256_0_0
abbrev r1_1 : Rect S6400x16 := Rect.unit (s := S6400x16) ![0, 0] S6400x16.size inb_S6400x16_S6400x16_0_0
abbrev r1_2 : Rect S256x544 := Rect.unit (s := S256x544) ![0, 0] S256x544.size inb_S256x544_S256x544_0_0
abbrev r1_3 : Rect S16x544 := Rect.unit (s := S16x544) ![0, 0] S16x544.size inb_S16x544_S16x544_0_0
abbrev r1_4 : Rect S1x544 := Rect.unit (s := S1x544) ![0, 0] S1x544.size inb_S1x544_S1x544_0_0
abbrev r1_5 : Rect S544x16 := Rect.unit (s := S544x16) ![0, 0] S544x16.size inb_S544x16_S544x16_0_0
abbrev r1_6 : Rect S1x16 := Rect.unit (s := S1x16) ![0, 0] S1x16.size inb_S1x16_S1x16_0_0

/-- The output block after the body, from the seven input blocks: its one store as a piece. -/
def out1_7 (x0 : Vec F S6400x256 .f32) (x1 : Vec F S6400x16 .f32) (x2 : Vec F S256x544 .bf16) (x3 : Vec F S16x544 .bf16)
    (x4 : Vec F S1x544 .f32) (x5 : Vec F S544x16 .bf16) (x6 : Vec F S1x16 .f32) : Vec F S6400x16 .f32 :=
  View.canon [⟨r1_1, k1_pay1 (View.ld x0 r1_0) (View.ld x2 r1_2) (View.ld x1 r1_1) (View.ld x3 r1_3) (View.ld x4 r1_4)
    (View.ld x5 r1_5) (View.ld x6 r1_6)⟩]

/-- The store covers the output block. -/
theorem cover1_7 (p0 : Vec F S6400x16 .f32) (y : S6400x16.Idx) :
    ∃ pc ∈ ([⟨r1_1, p0⟩] : List (View.Piece (Elt F) S6400x16 .f32)), y ∈ pc.1.set :=
  View.cover_of_tiled [⟨r1_1, p0⟩] S6400x16.size (by rfl) y

set_option maxHeartbeats 1000000 in
/-- The block program on whole staging memrefs, the inputs' at x0 … x6 and the output's at anything, runs to the
    continuation holding the inputs' as they were and the output's at the payload of the inputs. -/
theorem sound_kernel (c : Dev nD) (E : Set ℕ) (i : grid1.Coords)
    (arg1 : Memref sig .tc .vmem S6400x256 .f32) (harg1 : arg1.IsWhole) (arg2 : Memref sig .tc .vmem S6400x16 .f32) (harg2 : arg2.IsWhole)
    (arg3 : Memref sig .tc .vmem S256x544 .bf16) (harg3 : arg3.IsWhole) (arg4 : Memref sig .tc .vmem S16x544 .bf16) (harg4 : arg4.IsWhole)
    (arg5 : Memref sig .tc .vmem S1x544 .f32) (harg5 : arg5.IsWhole) (arg6 : Memref sig .tc .vmem S544x16 .bf16) (harg6 : arg6.IsWhole)
    (arg7 : Memref sig .tc .vmem S1x16 .f32) (harg7 : arg7.IsWhole) (arg8 : Memref sig .tc .vmem S6400x16 .f32) (harg8 : arg8.IsWhole)
    (x0 : Vec F S6400x256 .f32) (x1 : Vec F S6400x16 .f32) (x2 : Vec F S256x544 .bf16) (x3 : Vec F S16x544 .bf16)
    (x4 : Vec F S1x544 .f32) (x5 : Vec F S544x16 .bf16) (x6 : Vec F S1x16 .f32) (K' : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare (out1_7 x0 x1 x2 x3 x4 x5 x6)) -∗ K' ⟨⟩))
      ⊢ wp frame (wpE (defs₀ (F := F)) Variants.none c none) E
          (cc1__mlp_body i arg1 harg1 arg2 harg2 arg3 harg3 arg4 harg4 arg5 harg5 arg6 harg6 arg7 harg7 arg8 harg8) K' := by
  simp only [cc1__mlp_body_eq_skeleton]; unfold cc1__mlp_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover1_7 _)

end Cert.Proof.KB

end
-- ==== Proof.KbTcRegion.lean ====
/-
  The dense network's pipeline on the TensorCore as one step of the TensorCore's program.

  The pipeline visits the 50 blocks of 6400 edges in order; at block t it stages block t of the gathered node rows
  and of the edge features (and, once, the weights and biases), runs the block program, and writes the output block
  back to rows 6400 t … 6400 t + 6399 of the result. Its proof data: every input staging buffer holds its array's
  block at every point, the output buffer after the body holds the payload of the input blocks, the core owes
  nothing throughout. From that the region rule gives: entered holding the eight arrays whole, the region returns
  the seven inputs unchanged and the result array with block t equal to the payload of the inputs' blocks at t.
-/
import proofs.«206088_g82248623718559_cont_9to1c4b_230_21_alg».proof.Proof.KbTcRegionBody
import Idealize.ShloMosaic.Lib.Pipeline.Regions
import Idealize.ShloMosaic.Lib.Pipeline.Value

set_option maxRecDepth 16384

noncomputable section

namespace Cert.Proof.KB

open Cert.Kernel Cert.Kernel.Gen
open Idealize.ShloMosaic Idealize.ShloMosaic.TcCoe Idealize.ShloMosaic.Tactic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-- The one admissible choice of prefetched tables: none. -/
abbrev adm : (p : Fin 1) → (pcfgs (F := F) p).Adm := fun p => (cfgs p).toPCfg_adm

variable (B : Set (SemLoc sig × HIx 1)) (Vv : (c : Dev nD) → (b : Ref sig .tc) → Buf (Elt F) ((c : Thread nD τ).loc b))

/-! ## The windows' blocks -/

/-- Window w's block at point t, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (Vv c (Pipeline.arrRef spec1 w))

theorem before1_0_of {c : Dev nD} (dat : Dat τ (Elt F) (HIx 1) ℕ UU ℕ cfg1 c) (hA : dat.A 0 = Vv c (Pipeline.arrRef spec1 0))
    (hafter : ∀ t, dat.after 0 t = iblk Vv c 0 t) (t : Fin cfg1.N) (d) : dat.before 0 t d = iblk Vv c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_1_of {c : Dev nD} (dat : Dat τ (Elt F) (HIx 1) ℕ UU ℕ cfg1 c) (hA : dat.A 1 = Vv c (Pipeline.arrRef spec1 1))
    (hafter : ∀ t, dat.after 1 t = iblk Vv c 1 t) (t : Fin cfg1.N) (d) : dat.before 1 t d = iblk Vv c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before1_2_of {c : Dev nD} (dat : Dat τ (Elt F) (HIx 1) ℕ UU ℕ cfg1 c) (hA : dat.A 2 = Vv c (Pipeline.arrRef spec1 2))
    (hafter : ∀ t, dat.after 2 t = iblk Vv c 2 t) (t : Fin cfg1.N) (d) : dat.before 2 t d = iblk Vv c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before1_3_of {c : Dev nD} (dat : Dat τ (Elt F) (HIx 1) ℕ UU ℕ cfg1 c) (hA : dat.A 3 = Vv c (Pipeline.arrRef spec1 3))
    (hafter : ∀ t, dat.after 3 t = iblk Vv c 3 t) (t : Fin cfg1.N) (d) : dat.before 3 t d = iblk Vv c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before1_4_of {c : Dev nD} (dat : Dat τ (Elt F) (HIx 1) ℕ UU ℕ cfg1 c) (hA : dat.A 4 = Vv c (Pipeline.arrRef spec1 4))
    (hafter : ∀ t, dat.after 4 t = iblk Vv c 4 t) (t : Fin cfg1.N) (d) : dat.before 4 t d = iblk Vv c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before1_5_of {c : Dev nD} (dat : Dat τ (Elt F) (HIx 1) ℕ UU ℕ cfg1 c) (hA : dat.A 5 = Vv c (Pipeline.arrRef spec1 5))
    (hafter : ∀ t, dat.after 5 t = iblk Vv c 5 t) (t : Fin cfg1.N) (d) : dat.before 5 t d = iblk Vv c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before1_6_of {c : Dev nD} (dat : Dat τ (Elt F) (HIx 1) ℕ UU ℕ cfg1 c) (hA : dat.A 6 = Vv c (Pipeline.arrRef spec1 6))
    (hafter : ∀ t, dat.after 6 t = iblk Vv c 6 t) (t : Fin cfg1.N) (d) : dat.before 6 t d = iblk Vv c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The proof data -/

/-- The arrays as the region finds them; after the body at point t each input buffer at its block and the output
    buffer at the payload of the input blocks; nothing of the core's own in the invariant; nothing owed; the recorded
    pairs within B; full shares. -/
def dats (_ : Fin 1) (c : Dev nD) : Dat τ (Elt F) (HIx 1) ℕ UU ℕ cfg1 c where
  A w := Vv c (Pipeline.arrRef spec1 w)
  after w t := match w with
    | ⟨0, _⟩ => iblk Vv c 0 t
    | ⟨1, _⟩ => iblk Vv c 1 t
    | ⟨2, _⟩ => iblk Vv c 2 t
    | ⟨3, _⟩ => iblk Vv c 3 t
    | ⟨4, _⟩ => iblk Vv c 4 t
    | ⟨5, _⟩ => iblk Vv c 5 t
    | ⟨6, _⟩ => iblk Vv c 6 t
    | ⟨7, _⟩ => out1_7 (iblk Vv c 0 t) (iblk Vv c 1 t) (iblk Vv c 2 t) (iblk Vv c 3 t) (iblk Vv c 4 t) (iblk Vv c 5 t) (iblk Vv c 6 t)
  Φ _ := Pipeline.scopedRest spec1 c
  q _ := fullShare
  owed _ := 0
  recorded _ := B

theorem A_eq (c : Dev nD) (w : Fin cfg1.W) : (dats B Vv 0 c).A w = Vv c (Pipeline.arrRef spec1 w) := by
  dsimp only [dats]

theorem after1_0 (c : Dev nD) (t : Fin cfg1.N) : (dats B Vv 0 c).after 0 t = iblk Vv c 0 t := by dsimp only [dats]
theorem after1_1 (c : Dev nD) (t : Fin cfg1.N) : (dats B Vv 0 c).after 1 t = iblk Vv c 1 t := by dsimp only [dats]
theorem after1_2 (c : Dev nD) (t : Fin cfg1.N) : (dats B Vv 0 c).after 2 t = iblk Vv c 2 t := by dsimp only [dats]
theorem after1_3 (c : Dev nD) (t : Fin cfg1.N) : (dats B Vv 0 c).after 3 t = iblk Vv c 3 t := by dsimp only [dats]
theorem after1_4 (c : Dev nD) (t : Fin cfg1.N) : (dats B Vv 0 c).after 4 t = iblk Vv c 4 t := by dsimp only [dats]
theorem after1_5 (c : Dev nD) (t : Fin cfg1.N) : (dats B Vv 0 c).after 5 t = iblk Vv c 5 t := by dsimp only [dats]
theorem after1_6 (c : Dev nD) (t : Fin cfg1.N) : (dats B Vv 0 c).after 6 t = iblk Vv c 6 t := by dsimp only [dats]
theorem after1_7 (c : Dev nD) (t : Fin cfg1.N) :
    (dats B Vv 0 c).after 7 t = out1_7 (iblk Vv c 0 t) (iblk Vv c 1 t) (iblk Vv c 2 t) (iblk Vv c 3 t) (iblk Vv c 4 t) (iblk Vv c 5 t) (iblk Vv c 6 t) := by dsimp only [dats]

theorem before1_0 (c : Dev nD) (t : Fin cfg1.N) (d) : (dats B Vv 0 c).before 0 t d = iblk Vv c 0 t :=
  before1_0_of Vv (dats B Vv 0 c) (A_eq B Vv c 0) (after1_0 B Vv c) t d
theorem before1_1 (c : Dev nD) (t : Fin cfg1.N) (d) : (dats B Vv 0 c).before 1 t d = iblk Vv c 1 t :=
  before1_1_of Vv (dats B Vv 0 c) (A_eq B Vv c 1) (after1_1 B Vv c) t d
theorem before1_2 (c : Dev nD) (t : Fin cfg1.N) (d) : (dats B Vv 0 c).before 2 t d = iblk Vv c 2 t :=
  before1_2_of Vv (dats B Vv 0 c) (A_eq B Vv c 2) (after1_2 B Vv c) t d
theorem before1_3 (c : Dev nD) (t : Fin cfg1.N) (d) : (dats B Vv 0 c).before 3 t d = iblk Vv c 3 t :=
  before1_3_of Vv (dats B Vv 0 c) (A_eq B Vv c 3) (after1_3 B Vv c) t d
theorem before1_4 (c : Dev nD) (t : Fin cfg1.N) (d) : (dats B Vv 0 c).before 4 t d = iblk Vv c 4 t :=
  before1_4_of Vv (dats B Vv 0 c) (A_eq B Vv c 4) (after1_4 B Vv c) t d
theorem before1_5 (c : Dev nD) (t : Fin cfg1.N) (d) : (dats B Vv 0 c).before 5 t d = iblk Vv c 5 t :=
  before1_5_of Vv (dats B Vv 0 c) (A_eq B Vv c 5) (after1_5 B Vv c) t d
theorem before1_6 (c : Dev nD) (t : Fin cfg1.N) (d) : (dats B Vv 0 c).before 6 t d = iblk Vv c 6 t :=
  before1_6_of Vv (dats B Vv 0 c) (A_eq B Vv c 6) (after1_6 B Vv c) t d

/-! ## The body obligation -/

def bodyPre (c : Dev nD) (t : Fin cfg1.N) : sProp 𝕄 :=
  iprop((dats B Vv 0 c).Φ t.castSucc ∗ (dats B Vv 0 c).owesAt (none : HIx 1) t.castSucc
    ∗ (∃ d, owns (c : Thread nD τ) (st1_0 t) fullShare ((dats B Vv 0 c).before 0 t d))
    ∗ (∃ d, owns (c : Thread nD τ) (st1_1 t) fullShare ((dats B Vv 0 c).before 1 t d))
    ∗ (∃ d, owns (c : Thread nD τ) (st1_2 t) fullShare ((dats B Vv 0 c).before 2 t d))
    ∗ (∃ d, owns (c : Thread nD τ) (st1_3 t) fullShare ((dats B Vv 0 c).before 3 t d))
    ∗ (∃ d, owns (c : Thread nD τ) (st1_4 t) fullShare ((dats B Vv 0 c).before 4 t d))
    ∗ (∃ d, owns (c : Thread nD τ) (st1_5 t) fullShare ((dats B Vv 0 c).before 5 t d))
    ∗ (∃ d, owns (c : Thread nD τ) (st1_6 t) fullShare ((dats B Vv 0 c).before 6 t d))
    ∗ (∃ d, owns (c : Thread nD τ) (st1_7 t) fullShare ((dats B Vv 0 c).before 7 t d)))

def bodyPost (c : Dev nD) (t : Fin cfg1.N) : sProp 𝕄 :=
  iprop((dats B Vv 0 c).Φ t.succ ∗ (dats B Vv 0 c).owesAt (none : HIx 1) t.succ
    ∗ owns (c : Thread nD τ) (st1_0 t) fullShare ((dats B Vv 0 c).after 0 t)
    ∗ owns (c : Thread nD τ) (st1_1 t) fullShare ((dats B Vv 0 c).after 1 t)
    ∗ owns (c : Thread nD τ) (st1_2 t) fullShare ((dats B Vv 0 c).after 2 t)
    ∗ owns (c : Thread nD τ) (st1_3 t) fullShare ((dats B Vv 0 c).after 3 t)
    ∗ owns (c : Thread nD τ) (st1_4 t) fullShare ((dats B Vv 0 c).after 4 t)
    ∗ owns (c : Thread nD τ) (st1_5 t) fullShare ((dats B Vv 0 c).after 5 t)
    ∗ owns (c : Thread nD τ) (st1_6 t) fullShare ((dats B Vv 0 c).after 6 t)
    ∗ owns (c : Thread nD τ) (st1_7 t) fullShare ((dats B Vv 0 c).after 7 t))

theorem sound_body (c : Dev nD) (t : Fin cfg1.N) :
    bodyPre B Vv c t ⊢ wp frame (wpE (defs₀ (F := F)) Variants.none c none) Set.univ (bodyAt1 t) (fun _ => bodyPost B Vv c t) := by
  unfold bodyPre bodyPost bodyAt1
  simp only [before1_0, before1_1, before1_2, before1_3, before1_4, before1_5, before1_6]
  rw [show (dats B Vv 0 c).Φ t.succ = (dats B Vv 0 c).Φ t.castSucc from rfl,
    show (dats B Vv 0 c).owesAt (none : HIx 1) t.succ = (dats B Vv 0 c).owesAt (none : HIx 1) t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid1.coords t) _ _ _ _ _ _ _ _ _ _ _ _ _ _ _ _
    (iblk Vv c 0 t) (iblk Vv c 1 t) (iblk Vv c 2 t) (iblk Vv c 3 t) (iblk Vv c 4 t) (iblk Vv c 5 t) (iblk Vv c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation (c : Dev nD) : BodyObligation (dats (F := F) B Vv 0 c) (defs₀ (F := F)) Variants.none (none : HIx 1) Set.univ := fun t => by
  rw [bigSep_W1, bigSep_W1]
  exact sound_body B Vv c t

end Cert.Proof.KB

end
-- ==== Proof.KbTcRegionCall.lean ====
/-
  Entering the dense network's pipeline from the TensorCore's program, and what it returns.
-/
import proofs.«206088_g82248623718559_cont_9to1c4b_230_21_alg».proof.Proof.KbTcRegion

set_option maxRecDepth 16384

noncomputable section

namespace Cert.Proof.KB

open Cert.Kernel Cert.Kernel.Gen
open Idealize.ShloMosaic Idealize.ShloMosaic.TcCoe Idealize.ShloMosaic.Tactic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

variable (L : GSem nD τ sig → Finset (HIx 1)) (lv : GSem nD τ sig → HIx 1 → ℕ)
variable (B : Set (SemLoc sig × HIx 1)) (Vv : (c : Dev nD) → (b : Ref sig .tc) → Buf (Elt F) ((c : Thread nD τ).loc b))

theorem share_full (c : Dev nD) (w : Fin cfg1.W) : (dats B Vv 0 c).share w = fullShare :=
  (dats B Vv 0 c).share_full (fun _ => rfl) w

theorem prefHeld_none (c : Dev nD) (q) (pf) :
    (Pipeline.prefHeld (Ix := HIx 1) (Name := ℕ) (U := UU) (Lvl := ℕ) (Val := Elt F) (pcfgs (F := F) 0).pre c q pf : sProp 𝕄) = BI.emp :=
by
  unfold Pipeline.prefHeld; rw [Finset.univ_eq_empty]; exact bigSep_empty

theorem Φ_eq (c : Dev nD) (t : Fin (cfg1.N + 1)) : (dats B Vv 0 c).Φ t = Pipeline.scopedRest spec1 c := by dsimp only [dats]

theorem scopedRest_pin (c : Dev nD) :
    (Pipeline.scopedRest (τ := τ) (Ix := HIx 1) (Name := ℕ) (U := UU) (Lvl := ℕ) (Val := Elt F) (Pipeline.pin (pcfgs (F := F)) adm 0).spec c)
      = Pipeline.scopedRest spec1 c := rfl

/-- The result array after the region: the write-backs of all 50 points applied to what the array held. -/
def Rout (c : Dev nD) : Buf (Elt F) ((c : Thread nD τ).loc main_v10) := (dats B Vv 0 c).arrAt 7 cfg1.N

/-- What the region is entered with: the eight arrays whole, the core owing nothing with its recorded pairs in B. -/
def regionPre (c : Dev nD) : sProp 𝕄 :=
  iprop((bigSep Finset.univ fun w : Fin 8 => (((c : Thread nD τ).loc (Pipeline.arrRef spec1 w)) ↦{fullShare} Vv c (Pipeline.arrRef spec1 w) : sProp 𝕄))
    ∗ Pipeline.owesWithin c 0 B)

/-- What it returns: the arrays after the write-backs, the core owing nothing. -/
def regionPost (c : Dev nD) : sProp 𝕄 :=
  iprop((bigSep Finset.univ fun w : Fin 8 => (((c : Thread nD τ).loc (Pipeline.arrRef spec1 w)) ↦{fullShare} (dats B Vv 0 c).arrAt w cfg1.N : sProp 𝕄))
    ∗ Pipeline.owesWithin c 0 (B ∪ cfg1.waitPairs (none : HIx 1)))

/-- The region as the region rule reads it. -/
def region : Pipeline.RegionSeg (pcfgs (F := F)) adm (dats B Vv) (none : HIx 1) defs₀ 𝒱₀ L lv (0 : Fin 1) where
  win := winFacts1.to₀
  block_pos := block_pos1
  stage_whole := stage_whole1
  K := PEmpty
  osem k := k.elim
  ho := Pipeline.OwnSemFacts.none _
  hbody c := (body_obligation B Vv c).loose
  hwaits := Pipeline.hwaits_of_owed_zero _ _ _ _ L lv 0 fun _ _ => rfl
  pre := regionPre B Vv
  post := regionPost B Vv
  X _ := BI.emp
  Y _ := BI.emp
  Z _ := BI.emp
  hentry c := by
    rw [Pipeline.ownSems0_none, prefHeld_none, Pipeline.arrays_eq cfgs (dats B Vv) 0 c arr_whole1 (share_full B Vv c)]
    unfold regionPre
    iintro ⟨⟨Ha, ⟨%W, %hW, HO⟩⟩, -, -⟩
    imodintro
    isplitl [Ha]; · iexact Ha
    isplitr; · iempintro
    isplitl [HO]
    · iexists W; isplitr; · ipureintro; exact fun p hp => Or.inl (hW hp)
      iexact HO
    isplitr <;> iempintro
  hin c := by
    rw [scopedRest_pin, Φ_eq]
    iintro ⟨-, -, H⟩; iexact H
  hout c := by
    rw [Pipeline.ownSems0_none, scopedRest_pin, Φ_eq]
    iintro H
    isplitr; · iempintro
    isplitr; · iempintro
    iexact H
  hexit c := by
    rw [Pipeline.arrays_eq cfgs (dats B Vv) 0 c arr_whole1 (share_full B Vv c)]
    unfold regionPost
    iintro ⟨Ha, HO, -, -⟩
    imodintro
    isplitl [Ha]; · iexact Ha
    iexact HO

theorem region_pre (c : Dev nD) : (region L lv B Vv).pre c = regionPre B Vv c := rfl
theorem region_post (c : Dev nD) : (region L lv B Vv).post c = regionPost B Vv c := rfl

/-- The call of the pipeline in the extended signature is the lift of the call in the pipeline's own. -/
theorem lift_entry :
    SparseCore.liftProg (Q := 1) (.op (.customCall (Pipeline.entry (0 : Fin 1)) ()) fun _ => .ret ⟨⟩)
      = (Prog.lift (.customCall (SparseCore.inner (Pipeline.entry 0)) ()) :
          Prog (TpuEff nD τ sig (Elt F) (SparseCore.Sig (ΛP (F := F)) 1) .tc) PUnit) := rfl

/-- The program's staging cells are pairwise distinct, at the one admissible choice of tables. -/
theorem phinj : Function.Injective (Pipeline.cellOf (nD := nD) (τ := τ) (Pipeline.pin (pcfgs (F := F)) adm)) :=
  (launch1.toP (Val := Elt F)).cellOf_inj adm

set_option backward.isDefEq.respectTransparency.types false in
/-- THE REGION as a step of the TensorCore's program: holding the region boundary, the eight arrays whole, the core
    owing nothing, the level facts and the pipeline's staging cells' ghost state, the call of the pipeline runs to the
    continuation, which gets the boundary back, the arrays after the write-backs and the core owing nothing. -/
theorem tc_region (d : Dev nD) {α : Type}
    (k : PUnit → Prog (TpuEff nD τ sig (Elt F) (SparseCore.Sig (ΛP (F := F)) 1) .tc) α) (Q : α → sProp 𝕄) :
    iprop(boundary (d : Thread nD τ) ∗ regionPre B Vv d ∗ levAts L lv
        ∗ Pipeline.cellsGhost (Pipeline.pin (pcfgs (F := F)) adm) ER 0 d ∗ Pipeline.toksInit (Pipeline.pin (pcfgs (F := F)) adm) ER 0 d
        ∗ (iprop(boundary (d : Thread nD τ) ∗ regionPost B Vv d)
            -∗ wp frame (wpE ((K (F := F)).defs D) 𝒱 (d : Thread nD τ) none) Set.univ (k ⟨⟩) Q))
      ⊢ wp frame (wpE ((K (F := F)).defs D) 𝒱 (d : Thread nD τ) none) Set.univ
          (Prog.lift (.customCall (SparseCore.inner (Pipeline.entry 0)) ()) >>= k) Q := by
  rw [wp_bind, ← lift_entry]
  refine BIBase.Entails.trans ?_ ((K (F := F)).wp_liftProg D 𝒱 (d : Thread nD τ) Set.univ none
    (.op (.customCall (Pipeline.entry 0) ()) fun _ => .ret ⟨⟩)
    (fun a => wp frame (wpE ((K (F := F)).defs D) 𝒱 (d : Thread nD τ) none) Set.univ (k a) Q))
  refine BIBase.Entails.trans ?_ (Pipeline.RegionSeg.wp (pcfgs (F := F)) adm (dats B Vv) (none : HIx 1) phinj ER defs₀ 𝒱₀ L lv (region L lv B Vv) d none
    (fun _ h => nomatch h) (fun _ => .ret ⟨⟩)
    (fun a => wp frame (wpE ((K (F := F)).defs D) 𝒱 (d : Thread nD τ) none) Set.univ (k a) Q))
  rw [region_pre, region_post]
  iintro ⟨Hb, Hpre, #Hlev, Hg, Ht, Hk⟩
  isplitl [Hk]
  · iintro ⟨Hb, Hpost⟩
    rw [wp_ret]
    imodintro
    iapply Hk
    isplitl [Hb]; · iexact Hb
    iexact Hpost
  isplitl [Hb]; · iexact Hb
  isplitl [Hpre]; · iexact Hpre
  isplitr; · iexact Hlev
  isplitl [Hg]; · iexact Hg
  iexact Ht

end Cert.Proof.KB

end
-- ==== Proof.KbMainDefs.lean ====
/-
  @main on the TensorCore, the vocabulary: the TensorCore's nineteen arrays, the nine host operations that run before
  the two kernels, the contents of the arrays after them and after the SparseCore call, what @main leaves for the
  claim (the eight arguments unchanged and the result array at what the dense network's pipeline leaves in it), and
  how the final memory reads it.
-/
import proofs.«206088_g82248623718559_cont_9to1c4b_230_21_alg».proof.Proof.KbPay
import proofs.«206088_g82248623718559_cont_9to1c4b_230_21_alg».proof.Proof.KbTcRegionCall
import Idealize.ShloMosaic.Lib.StableHlo.Run

set_option maxRecDepth 16384

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_split held_sdiff_result wp_hlo_within)

variable {F : FTy → Type}

local notation "𝕄" => MT nD τ sig (HIx 1) (Elt F) ℕ UU ℕ

/-! ## The TensorCore's arrays -/

abbrev a0' : DevRef τ sig := Proc.devRef .tc (main_arg0 : Ref sig .tc)
abbrev a1' : DevRef τ sig := Proc.devRef .tc (main_arg1 : Ref sig .tc)
abbrev a2' : DevRef τ sig := Proc.devRef .tc (main_arg2 : Ref sig .tc)
abbrev a3' : DevRef τ sig := Proc.devRef .tc (main_arg3 : Ref sig .tc)
abbrev a4' : DevRef τ sig := Proc.devRef .tc (main_arg4 : Ref sig .tc)
abbrev a5' : DevRef τ sig := Proc.devRef .tc (main_arg5 : Ref sig .tc)
abbrev a6' : DevRef τ sig := Proc.devRef .tc (main_arg6 : Ref sig .tc)
abbrev a7' : DevRef τ sig := Proc.devRef .tc (main_arg7 : Ref sig .tc)
abbrev v0' : DevRef τ sig := Proc.devRef .tc (main_v0 : Ref sig .tc)
abbrev v1' : DevRef τ sig := Proc.devRef .tc (main_v1 : Ref sig .tc)
abbrev v2' : DevRef τ sig := Proc.devRef .tc (main_v2 : Ref sig .tc)
abbrev v3' : DevRef τ sig := Proc.devRef .tc (main_v3 : Ref sig .tc)
abbrev v4' : DevRef τ sig := Proc.devRef .tc (main_v4 : Ref sig .tc)
abbrev v5' : DevRef τ sig := Proc.devRef .tc (main_v5 : Ref sig .tc)
abbrev v6' : DevRef τ sig := Proc.devRef .tc (main_v6 : Ref sig .tc)
abbrev v7' : DevRef τ sig := Proc.devRef .tc (main_v7 : Ref sig .tc)
abbrev v8' : DevRef τ sig := Proc.devRef .tc (main_v8 : Ref sig .tc)
abbrev v9' : DevRef τ sig := Proc.devRef .tc (main_v9 : Ref sig .tc)
abbrev v10' : DevRef τ sig := Proc.devRef .tc (main_v10 : Ref sig .tc)

/-- The TensorCore's nineteen arrays, all unscoped. -/
abbrev S19 : Finset (DevRef τ sig) := {a0', a1', a2', a3', a4', a5', a6', a7', v0', v1', v2', v3', v4', v5', v6', v7', v8', v9', v10'}

variable [FloatOps F]

/-! ## The nine host operations -/

abbrev op0 : HloOp τ sig (Elt F) := StableHlo.unary main_arg2 main_v0 ((transpose S272x544 [1, 0] · transposes_S544x272_S272x544_1_0) : (⟨S544x272, .f32⟩ : BufTy).Contents (Elt F) → (⟨S272x544, .f32⟩ : BufTy).Contents (Elt F))
abbrev op1 : HloOp τ sig (Elt F) := StableHlo.unary main_v0 main_v1 ((extractStridedSlice S256x544 ![0, 0] · slices_S272x544_S256x544_0_0) : (⟨S272x544, .f32⟩ : BufTy).Contents (Elt F) → (⟨S256x544, .f32⟩ : BufTy).Contents (Elt F))
abbrev op2 : HloOp τ sig (Elt F) := StableHlo.unary main_v1 main_v2 ((truncf .bf16 · bitsLt_bf16_f32) : (⟨S256x544, .f32⟩ : BufTy).Contents (Elt F) → (⟨S256x544, .bf16⟩ : BufTy).Contents (Elt F))
abbrev op3 : HloOp τ sig (Elt F) := StableHlo.unary main_v0 main_v3 ((extractStridedSlice S16x544 ![256, 0] · slices_S272x544_S16x544_256_0) : (⟨S272x544, .f32⟩ : BufTy).Contents (Elt F) → (⟨S16x544, .f32⟩ : BufTy).Contents (Elt F))
abbrev op4 : HloOp τ sig (Elt F) := StableHlo.unary main_v3 main_v4 ((truncf .bf16 · bitsLt_bf16_f32) : (⟨S16x544, .f32⟩ : BufTy).Contents (Elt F) → (⟨S16x544, .bf16⟩ : BufTy).Contents (Elt F))
abbrev op5 : HloOp τ sig (Elt F) := StableHlo.reshape main_arg3 main_v5 rfl shapeCasts_S544_S1x544
abbrev op6 : HloOp τ sig (Elt F) := StableHlo.unary main_arg4 main_v6 ((transpose S544x16 [1, 0] · transposes_S16x544_S544x16_1_0) : (⟨S16x544, .f32⟩ : BufTy).Contents (Elt F) → (⟨S544x16, .f32⟩ : BufTy).Contents (Elt F))
abbrev op7 : HloOp τ sig (Elt F) := StableHlo.unary main_v6 main_v7 ((truncf .bf16 · bitsLt_bf16_f32) : (⟨S544x16, .f32⟩ : BufTy).Contents (Elt F) → (⟨S544x16, .bf16⟩ : BufTy).Contents (Elt F))
abbrev op8 : HloOp τ sig (Elt F) := StableHlo.reshape main_arg5 main_v8 rfl shapeCasts_S16_S1x16

variable (m : (ℓ : Loc nD τ sig) → Buf (Elt F) ℓ) (ρ : Dev nD → PrngReg)

/-! ## The valuations -/

/-- The launch valuation. -/
def V0 (d : Dev nD) : Valuation τ sig (Elt F) := fun b => m (d, b)
/-- After the nine host operations. -/
def V9 (d : Dev nD) : Valuation τ sig (Elt F) :=
  (op8 (F := F)).result ((op7 (F := F)).result ((op6 (F := F)).result ((op5 (F := F)).result ((op4 (F := F)).result
    ((op3 (F := F)).result ((op2 (F := F)).result ((op1 (F := F)).result ((op0 (F := F)).result (V0 m d)))))))))
/-- After the SparseCore call: the gathered array in place. -/
def V10 (d : Dev nD) : Valuation τ sig (Elt F) := Function.update (V9 m d) v9' (gatherC m d)
/-- What the region is entered with, as a family over the devices. -/
def Vreg : (c : Dev nD) → (b : Ref sig .tc) → Buf (Elt F) ((c.tc : Thread nD τ).loc b) := fun c b => V10 m c (Proc.devRef .tc b)

/-- The pairs the TensorCore may have recorded when the region is entered: those at or below level 8. -/
def Breg (d : Dev nD) : Set (SemLoc sig × HIx 1) := {p | (K (F := F)).lev (T d, p.1) p.2 ≤ 8}

/-! ## What @main leaves -/

/-- The eight arguments at their launch contents and the result array at what the region leaves in it. -/
def FIN (d : Dev nD) : sProp 𝕄 :=
  iprop(((SparseCore.T d).loc main_arg0 ↦{fullShare} m ((SparseCore.T d).loc main_arg0)) ∗ ((SparseCore.T d).loc main_arg1 ↦{fullShare} m ((SparseCore.T d).loc main_arg1))
    ∗ ((SparseCore.T d).loc main_arg2 ↦{fullShare} m ((SparseCore.T d).loc main_arg2)) ∗ ((SparseCore.T d).loc main_arg3 ↦{fullShare} m ((SparseCore.T d).loc main_arg3))
    ∗ ((SparseCore.T d).loc main_arg4 ↦{fullShare} m ((SparseCore.T d).loc main_arg4)) ∗ ((SparseCore.T d).loc main_arg5 ↦{fullShare} m ((SparseCore.T d).loc main_arg5))
    ∗ ((SparseCore.T d).loc main_arg6 ↦{fullShare} m ((SparseCore.T d).loc main_arg6)) ∗ ((SparseCore.T d).loc main_arg7 ↦{fullShare} m ((SparseCore.T d).loc main_arg7))
    ∗ ((SparseCore.T d).loc main_v10 ↦{fullShare} Rout (Breg (F := F) d) (Vreg m) d))

/-- The final memory: every argument at its launch contents, the result array at the region's result. -/
def fq (d : Dev nD) (s' : Phys nD τ sig (Elt F)) : Prop :=
  s'.mem.mem ((SparseCore.T d).loc main_arg0) = m ((SparseCore.T d).loc main_arg0) ∧ s'.mem.mem ((SparseCore.T d).loc main_arg1) = m ((SparseCore.T d).loc main_arg1)
    ∧ s'.mem.mem ((SparseCore.T d).loc main_arg2) = m ((SparseCore.T d).loc main_arg2) ∧ s'.mem.mem ((SparseCore.T d).loc main_arg3) = m ((SparseCore.T d).loc main_arg3)
    ∧ s'.mem.mem ((SparseCore.T d).loc main_arg4) = m ((SparseCore.T d).loc main_arg4) ∧ s'.mem.mem ((SparseCore.T d).loc main_arg5) = m ((SparseCore.T d).loc main_arg5)
    ∧ s'.mem.mem ((SparseCore.T d).loc main_arg6) = m ((SparseCore.T d).loc main_arg6) ∧ s'.mem.mem ((SparseCore.T d).loc main_arg7) = m ((SparseCore.T d).loc main_arg7)
    ∧ s'.mem.mem ((SparseCore.T d).loc main_v10) = Rout (Breg (F := F) d) (Vreg m) d

/-- A whole array held at the full share has, in the final memory, the contents it is held at. -/
theorem agree_one (s' : Phys nD τ sig (Elt F)) (ℓ : Loc nD τ sig) (f : Buf (Elt F) ℓ) :
    iprop(SI s' ∗ (ℓ ↦{fullShare} f)) ⊢ (iprop(⌜s'.mem.mem ℓ = f⌝ ∗ SI s') : sProp 𝕄) := by
  iintro ⟨HSI, Hx⟩
  ihave H := (persistent_entails_right (SI_pointsTo_agree (st := s') (ℓ := ℓ) (I := Finset.univ) (q := fullShare) (f := f))) $$ [HSI Hx]
  · isplitl [HSI] <;> iassumption
  icases H with ⟨%h1, HSI, -⟩
  isplitr
  · ipureintro; exact funext fun i => h1 i (Finset.mem_univ i)
  · iexact HSI

theorem hfin (d : Dev nD) (s' : Phys nD τ sig (Elt F)) : iprop(FIN m d ∗ SI s') ⊢ (⌜fq m d s'⌝ : sProp 𝕄) := by
  unfold FIN
  iintro ⟨⟨H0, H1, H2, H3, H4, H5, H6, H7, H10⟩, HSI⟩
  ihave H := (agree_one s' _ _) $$ [HSI H0]
  · isplitl [HSI] <;> iassumption
  icases H with ⟨%e0, HSI⟩
  ihave H := (agree_one s' _ _) $$ [HSI H1]
  · isplitl [HSI] <;> iassumption
  icases H with ⟨%e1, HSI⟩
  ihave H := (agree_one s' _ _) $$ [HSI H2]
  · isplitl [HSI] <;> iassumption
  icases H with ⟨%e2, HSI⟩
  ihave H := (agree_one s' _ _) $$ [HSI H3]
  · isplitl [HSI] <;> iassumption
  icases H with ⟨%e3, HSI⟩
  ihave H := (agree_one s' _ _) $$ [HSI H4]
  · isplitl [HSI] <;> iassumption
  icases H with ⟨%e4, HSI⟩
  ihave H := (agree_one s' _ _) $$ [HSI H5]
  · isplitl [HSI] <;> iassumption
  icases H with ⟨%e5, HSI⟩
  ihave H := (agree_one s' _ _) $$ [HSI H6]
  · isplitl [HSI] <;> iassumption
  icases H with ⟨%e6, HSI⟩
  ihave H := (agree_one s' _ _) $$ [HSI H7]
  · isplitl [HSI] <;> iassumption
  icases H with ⟨%e7, HSI⟩
  ihave H := (agree_one s' _ _) $$ [HSI H10]
  · isplitl [HSI] <;> iassumption
  icases H with ⟨%e10, HSI⟩
  ipureintro
  exact ⟨e0, e1, e2, e3, e4, e5, e6, e7, e10⟩

end Cert.Proof.KB

end
-- ==== Proof.KbRun.lean ====
/-
  The whole program's run.

  Every weakly fair execution of the program's threads — @main on the TensorCore, the two sequencers, the thirty-two
  tiles — from a launch memory m terminates without fault, and ends with the eight argument arrays as launched and
  the result array at what the dense network's pipeline leaves in it when entered with the gathered node rows and
  the host operations' values. This is the launch theorem applied to the pieces: the tiles' obligation, the split
  of the call's operands, @main on the TensorCore, the launch element, and the reading of the final memory.
-/
import proofs.«206088_g82248623718559_cont_9to1c4b_230_21_alg».proof.Proof.KbSplit
import proofs.«206088_g82248623718559_cont_9to1c4b_230_21_alg».proof.Proof.KbLaunch
import proofs.«206088_g82248623718559_cont_9to1c4b_230_21_alg».proof.Proof.KbMainDefs
import proofs.«206088_g82248623718559_cont_9to1c4b_230_21_alg».proof.Proof.PreFacts

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F] (m : (ℓ : Loc nD τ sig) → Buf (Elt F) ℓ) (ρ : Dev nD → PrngReg)

/-! ## What the run leaves -/

/-- The result array at the pipeline's result over the launch memory, and the eight arguments unchanged. -/
def QC : PUnit × MemSt nD τ sig (Elt F) → Prop := fun r => ∀ c : Dev nD,
  r.2.mem ((c.tc : Thread nD τ).loc main_v10) = Rout (Breg (F := F) c) (Vreg m) c
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)

theorem QC_of_fq (s' : Phys nD τ sig (Elt F)) (h : ∀ d, fq m d s') : QC m (⟨⟩, s'.mem) := fun c => by
  obtain ⟨e0, e1, e2, e3, e4, e5, e6, e7, e10⟩ := h c
  exact ⟨e10, e0, e1, e2, e3, e4, e5, e6, e7⟩

/-! ## The run -/

/-- The program's run, from the tiles' obligation and @main's. -/
theorem run_main [∀ e, Nonempty (Elt F e)]
    (htile : (K (F := F)).TileObl (D (F := F)) 𝒱 (P m) v₀ 0)
    (hmain : ∀ (κ : GSem nD τ sig → ℕ) (d : Dev nD),
      iprop((K (F := F)).ctx EH (P m) κ ∗ (K (F := F)).tcSt EH d 0 ∗ (K (F := F)).tcRes m ρ d ∗ G (F := F) d)
        ⊢ wp frame (wpE ((K (F := F)).defs (D (F := F))) 𝒱 (SparseCore.T d) none) Set.univ (main (F := F) d)
            fun _ => iprop((K (F := F)).tcSt EH d 1 ∗ FIN m d)) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => htile)
    (fun q _ => match q with | 0 => vecSplit m)
    m ρ main (G (F := F)) (FIN m) (u₀ (F := F)) (hu₀ m) hmain (fq m) (hfin m) (QC m) (QC_of_fq m)

/-- The frame: the run with the result dropped — the eight arguments end as launched. -/
theorem run_frame [∀ e, Nonempty (Elt F e)]
    (htile : (K (F := F)).TileObl (D (F := F)) 𝒱 (P m) v₀ 0)
    (hmain : ∀ (κ : GSem nD τ sig → ℕ) (d : Dev nD),
      iprop((K (F := F)).ctx EH (P m) κ ∗ (K (F := F)).tcSt EH d 0 ∗ (K (F := F)).tcRes m ρ d ∗ G (F := F) d)
        ⊢ wp frame (wpE ((K (F := F)).defs (D (F := F))) 𝒱 (SparseCore.T d) none) Set.univ (main (F := F) d)
            fun _ => iprop((K (F := F)).tcSt EH d 1 ∗ FIN m d)) :
    θ_run (Cert.Kernel.defs (F := F)) (Cert.Kernel.threads (F := F)) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run _ _ _).mono (fun _ h c => (h c).2) (run_main m ρ htile hmain)

/-! ## The precondition gives the row numbers' ranges -/

/-- Where the input predicate holds of the launch memory's arguments on every device, every sender and every receiver
    word is below 10000 read unsigned. -/
theorem idx_of_pre [Cert.Pre_input_domain.Facts]
    (hpre : ∀ c : Dev nD, Cert.Pre_input_domain.fn (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) = fun _ => 1#1) :
    (∀ (d : Dev nD) (e : Fin 320000), (m (sLoc d) (ValueIdx.ix1 e)).toNat < 10000)
      ∧ (∀ (d : Dev nD) (e : Fin 320000), (m (rLoc d) (ValueIdx.ix1 e)).toNat < 10000) :=
  ⟨fun d e => (Cert.PreFacts.idx_lt _ _ _ _ _ _ _ _ (hpre d)).1 e, fun d e => (Cert.PreFacts.idx_lt _ _ _ _ _ _ _ _ (hpre d)).2 e⟩

end Cert.Proof.KB

end
-- ==== Proof.KbMain.lean ====
/-
  @main on the TensorCore: the nine host operations, the SparseCore call, the dense network's pipeline.

  The host operations run over the nineteen arrays held whole. For the SparseCore call the node table and the two
  index arrays go out as 32 read shares each and the gathered array as its 32 row parts, one of each per tile;
  they come back and are joined, the gathered array now holding the gathered rows. The pipeline is then entered with
  its eight arrays whole and returns the seven inputs unchanged and the result array. What is left for the claim is
  the eight arguments at their launch contents and the result array.
-/
import proofs.«206088_g82248623718559_cont_9to1c4b_230_21_alg».proof.Proof.KbMainDefs
import proofs.«206088_g82248623718559_cont_9to1c4b_230_21_alg».proof.Proof.KbGeom

set_option maxRecDepth 16384

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_split held_sdiff_result wp_hlo_within)

variable {F : FTy → Type}

local notation "𝕄" => MT nD τ sig (HIx 1) (Elt F) ℕ UU ℕ

variable [FloatOps F]
variable (m : (ℓ : Loc nD τ sig) → Buf (Elt F) ℓ) (ρ : Dev nD → PrngReg)

/-! ## The nineteen arrays one by one -/

omit [FloatOps F] in
theorem held_S19 (d : Dev nD) (W : Valuation τ sig (Elt F)) :
    (held (SparseCore.T d) S19 W : sProp 𝕄)
      = iprop(((SparseCore.T d).loc main_arg0 ↦{fullShare} W a0')
      ∗ ((SparseCore.T d).loc main_arg1 ↦{fullShare} W a1')
      ∗ ((SparseCore.T d).loc main_arg2 ↦{fullShare} W a2')
      ∗ ((SparseCore.T d).loc main_arg3 ↦{fullShare} W a3')
      ∗ ((SparseCore.T d).loc main_arg4 ↦{fullShare} W a4')
      ∗ ((SparseCore.T d).loc main_arg5 ↦{fullShare} W a5')
      ∗ ((SparseCore.T d).loc main_arg6 ↦{fullShare} W a6')
      ∗ ((SparseCore.T d).loc main_arg7 ↦{fullShare} W a7')
      ∗ ((SparseCore.T d).loc main_v0 ↦{fullShare} W v0')
      ∗ ((SparseCore.T d).loc main_v1 ↦{fullShare} W v1')
      ∗ ((SparseCore.T d).loc main_v2 ↦{fullShare} W v2')
      ∗ ((SparseCore.T d).loc main_v3 ↦{fullShare} W v3')
      ∗ ((SparseCore.T d).loc main_v4 ↦{fullShare} W v4')
      ∗ ((SparseCore.T d).loc main_v5 ↦{fullShare} W v5')
      ∗ ((SparseCore.T d).loc main_v6 ↦{fullShare} W v6')
      ∗ ((SparseCore.T d).loc main_v7 ↦{fullShare} W v7')
      ∗ ((SparseCore.T d).loc main_v8 ↦{fullShare} W v8')
      ∗ ((SparseCore.T d).loc main_v9 ↦{fullShare} W v9')
      ∗ ((SparseCore.T d).loc main_v10 ↦{fullShare} W v10')) := by
  unfold held S19
  rw [SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄)
      = iprop(((SparseCore.T d).loc main_arg0 ↦{fullShare} W main_arg0)
      ∗ ((SparseCore.T d).loc main_arg1 ↦{fullShare} W main_arg1)
      ∗ ((SparseCore.T d).loc main_arg2 ↦{fullShare} W main_arg2)
      ∗ ((SparseCore.T d).loc main_arg3 ↦{fullShare} W main_arg3)
      ∗ ((SparseCore.T d).loc main_arg4 ↦{fullShare} W main_arg4)
      ∗ ((SparseCore.T d).loc main_arg5 ↦{fullShare} W main_arg5)
      ∗ ((SparseCore.T d).loc main_arg6 ↦{fullShare} W main_arg6)
      ∗ ((SparseCore.T d).loc main_arg7 ↦{fullShare} W main_arg7)
      ∗ ((SparseCore.T d).loc main_v0 ↦{fullShare} W main_v0)
      ∗ ((SparseCore.T d).loc main_v1 ↦{fullShare} W main_v1)
      ∗ ((SparseCore.T d).loc main_v2 ↦{fullShare} W main_v2)
      ∗ ((SparseCore.T d).loc main_v3 ↦{fullShare} W main_v3)
      ∗ ((SparseCore.T d).loc main_v4 ↦{fullShare} W main_v4)
      ∗ ((SparseCore.T d).loc main_v5 ↦{fullShare} W main_v5)
      ∗ ((SparseCore.T d).loc main_v6 ↦{fullShare} W main_v6)
      ∗ ((SparseCore.T d).loc main_v7 ↦{fullShare} W main_v7)
      ∗ ((SparseCore.T d).loc main_v8 ↦{fullShare} W main_v8)
      ∗ ((SparseCore.T d).loc main_v9 ↦{fullShare} W main_v9)
      ∗ ((SparseCore.T d).loc main_v10 ↦{fullShare} W main_v10)) := by
  unfold unscopedBufs
  rw [show (Finset.univ.filter fun b : Ref sig .tc => ¬ b.isScoped) = {main_arg0, main_arg1, main_arg2, main_arg3, main_arg4, main_arg5, main_arg6, main_arg7, main_v0, main_v1, main_v2, main_v3, main_v4, main_v5, main_v6, main_v7, main_v8, main_v9, main_v10} by decide,
    SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

omit [FloatOps F] in
theorem unscoped_held (d : Dev nD) : (unscopedBufs d (fun b => m ((SparseCore.T d).loc b)) : sProp 𝕄) = held (SparseCore.T d) S19 (V0 m d) := by
  rw [unscopedBufs_eq, held_S19]; rfl

/-! ## What the host operations leave unchanged -/

/-- An array none of the nine operations writes holds its launch contents after them. -/
theorem V9_keep (d : Dev nD) (b : DevRef τ sig) (h0 : b ∉ ({v0'} : Finset (DevRef τ sig))) (h1 : b ∉ ({v1'} : Finset (DevRef τ sig)))
    (h2 : b ∉ ({v2'} : Finset (DevRef τ sig))) (h3 : b ∉ ({v3'} : Finset (DevRef τ sig))) (h4 : b ∉ ({v4'} : Finset (DevRef τ sig)))
    (h5 : b ∉ ({v5'} : Finset (DevRef τ sig))) (h6 : b ∉ ({v6'} : Finset (DevRef τ sig))) (h7 : b ∉ ({v7'} : Finset (DevRef τ sig)))
    (h8 : b ∉ ({v8'} : Finset (DevRef τ sig))) : V9 m d b = V0 m d b := by
  unfold V9
  rw [(op8 (F := F)).result_of_not_mem _ h8, (op7 (F := F)).result_of_not_mem _ h7, (op6 (F := F)).result_of_not_mem _ h6,
    (op5 (F := F)).result_of_not_mem _ h5, (op4 (F := F)).result_of_not_mem _ h4, (op3 (F := F)).result_of_not_mem _ h3,
    (op2 (F := F)).result_of_not_mem _ h2, (op1 (F := F)).result_of_not_mem _ h1, (op0 (F := F)).result_of_not_mem _ h0]

theorem V9_a0 (d : Dev nD) : V9 m d a0' = m ((SparseCore.T d).loc main_arg0) :=
  V9_keep m d a0' (by decide) (by decide) (by decide) (by decide) (by decide) (by decide) (by decide) (by decide) (by decide)
theorem V9_a1 (d : Dev nD) : V9 m d a1' = m ((SparseCore.T d).loc main_arg1) :=
  V9_keep m d a1' (by decide) (by decide) (by decide) (by decide) (by decide) (by decide) (by decide) (by decide) (by decide)
theorem V9_a2 (d : Dev nD) : V9 m d a2' = m ((SparseCore.T d).loc main_arg2) :=
  V9_keep m d a2' (by decide) (by decide) (by decide) (by decide) (by decide) (by decide) (by decide) (by decide) (by decide)
theorem V9_a3 (d : Dev nD) : V9 m d a3' = m ((SparseCore.T d).loc main_arg3) :=
  V9_keep m d a3' (by decide) (by decide) (by decide) (by decide) (by decide) (by decide) (by decide) (by decide) (by decide)
theorem V9_a4 (d : Dev nD) : V9 m d a4' = m ((SparseCore.T d).loc main_arg4) :=
  V9_keep m d a4' (by decide) (by decide) (by decide) (by decide) (by decide) (by decide) (by decide) (by decide) (by decide)
theorem V9_a5 (d : Dev nD) : V9 m d a5' = m ((SparseCore.T d).loc main_arg5) :=
  V9_keep m d a5' (by decide) (by decide) (by decide) (by decide) (by decide) (by decide) (by decide) (by decide) (by decide)
theorem V9_a6 (d : Dev nD) : V9 m d a6' = m ((SparseCore.T d).loc main_arg6) :=
  V9_keep m d a6' (by decide) (by decide) (by decide) (by decide) (by decide) (by decide) (by decide) (by decide) (by decide)
theorem V9_a7 (d : Dev nD) : V9 m d a7' = m ((SparseCore.T d).loc main_arg7) :=
  V9_keep m d a7' (by decide) (by decide) (by decide) (by decide) (by decide) (by decide) (by decide) (by decide) (by decide)
theorem V9_v9 (d : Dev nD) : V9 m d v9' = m (oLoc d) :=
  V9_keep m d v9' (by decide) (by decide) (by decide) (by decide) (by decide) (by decide) (by decide) (by decide) (by decide)

theorem hop0 : (op0 (F := F)).bufs ⊆ S19 := show ({a2', v0'} : Finset (DevRef τ sig)) ⊆ S19 by decide
theorem hop1 : (op1 (F := F)).bufs ⊆ S19 := show ({v0', v1'} : Finset (DevRef τ sig)) ⊆ S19 by decide
theorem hop2 : (op2 (F := F)).bufs ⊆ S19 := show ({v1', v2'} : Finset (DevRef τ sig)) ⊆ S19 by decide
theorem hop3 : (op3 (F := F)).bufs ⊆ S19 := show ({v0', v3'} : Finset (DevRef τ sig)) ⊆ S19 by decide
theorem hop4 : (op4 (F := F)).bufs ⊆ S19 := show ({v3', v4'} : Finset (DevRef τ sig)) ⊆ S19 by decide
theorem hop5 : (op5 (F := F)).bufs ⊆ S19 := show ({a3', v5'} : Finset (DevRef τ sig)) ⊆ S19 by decide
theorem hop6 : (op6 (F := F)).bufs ⊆ S19 := show ({a4', v6'} : Finset (DevRef τ sig)) ⊆ S19 by decide
theorem hop7 : (op7 (F := F)).bufs ⊆ S19 := show ({v6', v7'} : Finset (DevRef τ sig)) ⊆ S19 by decide
theorem hop8 : (op8 (F := F)).bufs ⊆ S19 := show ({a5', v8'} : Finset (DevRef τ sig)) ⊆ S19 by decide

/-! ## The call's operands among the 32 tile numbers -/

/-- The pairs (SparseCore of the call, tile) are the 32 tile numbers. -/
def wEquiv : Fin ((K (F := F)).nCore 0) × Fin 16 ≃ Fin 32 where
  toFun p := wid (coreOf p.1) (Fin.cast nSub_eq.symm p.2)
  invFun w := (⟨w.val % 2, Nat.mod_lt _ (by decide)⟩, ⟨w.val / 2, by have := w.isLt; omega⟩)
  left_inv p := by
    have h1 : p.1.val < 2 := p.1.isLt
    have h2 : p.2.val < 16 := p.2.isLt
    refine Prod.ext (Fin.ext ?_) (Fin.ext ?_)
    · show (2 * p.2.val + p.1.val) % 2 = p.1.val; omega
    · show (2 * p.2.val + p.1.val) / 2 = p.2.val; omega
  right_inv w := Fin.ext (by show 2 * (w.val / 2) + w.val % 2 = w.val; omega)

omit [FloatOps F] in
theorem bigSep_workers (Φ : Fin 32 → sProp 𝕄) :
    (bigSep Finset.univ fun c : Fin ((K (F := F)).nCore 0) => bigSep Finset.univ fun i : Fin 16 => Φ (wid (coreOf c) (Fin.cast nSub_eq.symm i)))
      = bigSep Finset.univ Φ := by
  rw [bigSep_univ_equiv (wEquiv (F := F)) Φ, bigSep_univ_prod]
  rfl

theorem st_eq (d : Dev nD) (c : Fin ((K (F := F)).nCore 0)) :
    (P m).st 0 d c = bigSep Finset.univ fun i : Fin 16 => tileArr m d (wid (coreOf c) (Fin.cast nSub_eq.symm i)) (m (oLoc d)) := rfl
theorem dn_eq (d : Dev nD) (c : Fin ((K (F := F)).nCore 0)) :
    (P m).dn 0 d c = bigSep Finset.univ fun i : Fin 16 => tileArr m d (wid (coreOf c) (Fin.cast nSub_eq.symm i)) (gatherC m d) := rfl

theorem st0_eq (d : Dev nD) :
    (bigSep Finset.univ fun c : Fin ((K (F := F)).nCore 0) => (P m).st 0 d c) = bigSep Finset.univ fun w : Fin 32 => tileArr m d w (m (oLoc d)) := by
  simp only [st_eq]
  exact bigSep_workers (fun w => tileArr m d w (m (oLoc d)))
theorem dn0_eq (d : Dev nD) :
    (bigSep Finset.univ fun c : Fin ((K (F := F)).nCore 0) => (P m).dn 0 d c) = bigSep Finset.univ fun w : Fin 32 => tileArr m d w (gatherC m d) := by
  simp only [dn_eq]
  exact bigSep_workers (fun w => tileArr m d w (gatherC m d))

omit [FloatOps F] in
/-- The tile numbers' takings, array by array. -/
theorem tiles_eq (d : Dev nD) (g : Buf (Elt F) (oLoc d)) :
    (bigSep Finset.univ fun w : Fin 32 => tileArr m d w g)
      = iprop((bigSep Finset.univ fun w : Fin 32 => xLoc d ↦{tok32 w} m (xLoc d)) ∗ (bigSep Finset.univ fun w : Fin 32 => sLoc d ↦{tok32 w} m (sLoc d))
          ∗ (bigSep Finset.univ fun w : Fin 32 => rLoc d ↦{tok32 w} m (rLoc d)) ∗ (bigSep Finset.univ fun w : Fin 32 => oLoc d ↦[outSet w]{fullShare} g)) := by
  unfold tileArr
  rw [bigSep_sep', bigSep_sep', bigSep_sep']

omit [FloatOps F] in
/-- The gathered array whole is its 32 row parts. -/
theorem o_rows (d : Dev nD) (g : Buf (Elt F) (oLoc d)) :
    (oLoc d ↦{fullShare} g : sProp 𝕄) = bigSep Finset.univ fun w : Fin 32 => oLoc d ↦[outSet w]{fullShare} g := by
  rw [← pointsTo_biUnion Finset.univ (ℓ := oLoc d) outSet outSet_disjoint, outSet_cover]; try rfl

/-- What the TensorCore keeps of the three read arrays while the tile numbers hold their shares. -/
def kept (d : Dev nD) : sProp 𝕄 :=
  iprop((xLoc d ↦{Transfers.shareDrop fullShare 32} m (xLoc d)) ∗ (sLoc d ↦{Transfers.shareDrop fullShare 32} m (sLoc d))
    ∗ (rLoc d ↦{Transfers.shareDrop fullShare 32} m (rLoc d)))

omit [FloatOps F] in
theorem call_split (d : Dev nD) (g : Buf (Elt F) (oLoc d)) :
    iprop((xLoc d ↦{fullShare} m (xLoc d)) ∗ (sLoc d ↦{fullShare} m (sLoc d)) ∗ (rLoc d ↦{fullShare} m (rLoc d)) ∗ (oLoc d ↦{fullShare} g))
      ⊢ (iprop(kept m d ∗ bigSep Finset.univ fun w : Fin 32 => tileArr m d w g) : sProp 𝕄) := by
  rw [tiles_eq, o_rows]
  unfold kept
  iintro ⟨Hx, Hs, Hr, Ho⟩
  ihave Hx' := (Transfers.pointsTo_toks_split fullShare 32) $$ Hx
  icases Hx' with ⟨Hxk, Hxt⟩
  ihave Hs' := (Transfers.pointsTo_toks_split fullShare 32) $$ Hs
  icases Hs' with ⟨Hsk, Hst⟩
  ihave Hr' := (Transfers.pointsTo_toks_split fullShare 32) $$ Hr
  icases Hr' with ⟨Hrk, Hrt⟩
  isplitl [Hxk Hsk Hrk]
  · isplitl [Hxk]; · iexact Hxk
    isplitl [Hsk]; · iexact Hsk
    iexact Hrk
  isplitl [Hxt]; · iexact Hxt
  isplitl [Hst]; · iexact Hst
  isplitl [Hrt]; · iexact Hrt
  iexact Ho

omit [FloatOps F] in
theorem call_join (d : Dev nD) (g : Buf (Elt F) (oLoc d)) :
    iprop(kept m d ∗ bigSep Finset.univ fun w : Fin 32 => tileArr m d w g)
      ⊢ (iprop((xLoc d ↦{fullShare} m (xLoc d)) ∗ (sLoc d ↦{fullShare} m (sLoc d)) ∗ (rLoc d ↦{fullShare} m (rLoc d)) ∗ (oLoc d ↦{fullShare} g)) : sProp 𝕄) := by
  rw [tiles_eq, o_rows]
  unfold kept
  iintro ⟨⟨Hxk, Hsk, Hrk⟩, Hxt, Hst, Hrt, Ho⟩
  isplitl [Hxk Hxt]
  · iapply (Transfers.pointsTo_toks_join fullShare 32)
    isplitl [Hxk] <;> iassumption
  isplitl [Hsk Hst]
  · iapply (Transfers.pointsTo_toks_join fullShare 32)
    isplitl [Hsk] <;> iassumption
  isplitl [Hrk Hrt]
  · iapply (Transfers.pointsTo_toks_join fullShare 32)
    isplitl [Hrk] <;> iassumption
  iexact Ho

/-! ## After the host operations -/

theorem held_V9 (d : Dev nD) :
    (held (SparseCore.T d) S19 ((op8 (F := F)).result ((op7 (F := F)).result ((op6 (F := F)).result ((op5 (F := F)).result ((op4 (F := F)).result ((op3 (F := F)).result ((op2 (F := F)).result ((op1 (F := F)).result ((op0 (F := F)).result (V0 m d)))))))))) : sProp 𝕄)
      = iprop(((SparseCore.T d).loc main_arg0 ↦{fullShare} m ((SparseCore.T d).loc main_arg0))
      ∗ ((SparseCore.T d).loc main_arg1 ↦{fullShare} m ((SparseCore.T d).loc main_arg1))
      ∗ ((SparseCore.T d).loc main_arg2 ↦{fullShare} m ((SparseCore.T d).loc main_arg2))
      ∗ ((SparseCore.T d).loc main_arg3 ↦{fullShare} m ((SparseCore.T d).loc main_arg3))
      ∗ ((SparseCore.T d).loc main_arg4 ↦{fullShare} m ((SparseCore.T d).loc main_arg4))
      ∗ ((SparseCore.T d).loc main_arg5 ↦{fullShare} m ((SparseCore.T d).loc main_arg5))
      ∗ ((SparseCore.T d).loc main_arg6 ↦{fullShare} m ((SparseCore.T d).loc main_arg6))
      ∗ ((SparseCore.T d).loc main_arg7 ↦{fullShare} m ((SparseCore.T d).loc main_arg7))
      ∗ ((SparseCore.T d).loc main_v0 ↦{fullShare} V9 m d v0')
      ∗ ((SparseCore.T d).loc main_v1 ↦{fullShare} V9 m d v1')
      ∗ ((SparseCore.T d).loc main_v2 ↦{fullShare} V9 m d v2')
      ∗ ((SparseCore.T d).loc main_v3 ↦{fullShare} V9 m d v3')
      ∗ ((SparseCore.T d).loc main_v4 ↦{fullShare} V9 m d v4')
      ∗ ((SparseCore.T d).loc main_v5 ↦{fullShare} V9 m d v5')
      ∗ ((SparseCore.T d).loc main_v6 ↦{fullShare} V9 m d v6')
      ∗ ((SparseCore.T d).loc main_v7 ↦{fullShare} V9 m d v7')
      ∗ ((SparseCore.T d).loc main_v8 ↦{fullShare} V9 m d v8')
      ∗ ((SparseCore.T d).loc main_v9 ↦{fullShare} m (oLoc d))
      ∗ ((SparseCore.T d).loc main_v10 ↦{fullShare} V9 m d v10')) := by
  show held (SparseCore.T d) S19 (V9 m d) = _
  rw [held_S19, V9_a0, V9_a1, V9_a2, V9_a3, V9_a4, V9_a5, V9_a6, V9_a7, V9_v9]

/-! ## The region's arrays -/

theorem Vreg_v9 (d : Dev nD) : Vreg m d main_v9 = gatherC m d := by
  show Function.update (V9 m d) v9' (gatherC m d) v9' = _
  exact Function.update_self _ _ _
/-- An array other than the gathered one is, at the region's entry, as the host operations left it. -/
theorem Vreg_ne (d : Dev nD) (b : Ref sig .tc) (h : Proc.devRef .tc b ≠ v9') : Vreg m d b = V9 m d (Proc.devRef .tc b) := by
  show Function.update (V9 m d) v9' (gatherC m d) (Proc.devRef .tc b) = _
  exact Function.update_of_ne h _ _
theorem Vreg_a1 (d : Dev nD) : Vreg m d main_arg1 = m ((SparseCore.T d).loc main_arg1) := (Vreg_ne m d main_arg1 (by decide)).trans (V9_a1 m d)
theorem Vreg_v2 (d : Dev nD) : Vreg m d main_v2 = V9 m d v2' := Vreg_ne m d main_v2 (by decide)
theorem Vreg_v4 (d : Dev nD) : Vreg m d main_v4 = V9 m d v4' := Vreg_ne m d main_v4 (by decide)
theorem Vreg_v5 (d : Dev nD) : Vreg m d main_v5 = V9 m d v5' := Vreg_ne m d main_v5 (by decide)
theorem Vreg_v7 (d : Dev nD) : Vreg m d main_v7 = V9 m d v7' := Vreg_ne m d main_v7 (by decide)
theorem Vreg_v8 (d : Dev nD) : Vreg m d main_v8 = V9 m d v8' := Vreg_ne m d main_v8 (by decide)
theorem Vreg_v10 (d : Dev nD) : Vreg m d main_v10 = V9 m d v10' := Vreg_ne m d main_v10 (by decide)

/-- The region's precondition from the eight arrays as @main holds them after the call. -/
theorem regionPre_intro (d : Dev nD) :
    iprop(((SparseCore.T d).loc main_v9 ↦{fullShare} gatherC m d) ∗ ((SparseCore.T d).loc main_arg1 ↦{fullShare} m ((SparseCore.T d).loc main_arg1))
        ∗ ((SparseCore.T d).loc main_v2 ↦{fullShare} V9 m d v2') ∗ ((SparseCore.T d).loc main_v4 ↦{fullShare} V9 m d v4')
        ∗ ((SparseCore.T d).loc main_v5 ↦{fullShare} V9 m d v5') ∗ ((SparseCore.T d).loc main_v7 ↦{fullShare} V9 m d v7')
        ∗ ((SparseCore.T d).loc main_v8 ↦{fullShare} V9 m d v8') ∗ ((SparseCore.T d).loc main_v10 ↦{fullShare} V9 m d v10')
        ∗ Pipeline.owesWithin d 0 (Breg (F := F) d))
      ⊢ (regionPre (Breg (F := F) d) (Vreg m) d : sProp 𝕄) := by
  unfold regionPre
  rw [bigSep_W1]
  show _ ⊢ iprop((((SparseCore.T d).loc main_v9 ↦{fullShare} Vreg m d main_v9) ∗ ((SparseCore.T d).loc main_arg1 ↦{fullShare} Vreg m d main_arg1)
        ∗ ((SparseCore.T d).loc main_v2 ↦{fullShare} Vreg m d main_v2) ∗ ((SparseCore.T d).loc main_v4 ↦{fullShare} Vreg m d main_v4)
        ∗ ((SparseCore.T d).loc main_v5 ↦{fullShare} Vreg m d main_v5) ∗ ((SparseCore.T d).loc main_v7 ↦{fullShare} Vreg m d main_v7)
        ∗ ((SparseCore.T d).loc main_v8 ↦{fullShare} Vreg m d main_v8) ∗ ((SparseCore.T d).loc main_v10 ↦{fullShare} Vreg m d main_v10))
        ∗ Pipeline.owesWithin d 0 (Breg (F := F) d))
  rw [Vreg_v9, Vreg_a1, Vreg_v2, Vreg_v4, Vreg_v5, Vreg_v7, Vreg_v8, Vreg_v10]
  iintro ⟨H0, H1, H2, H3, H4, H5, H6, H7, HO⟩
  isplitr [HO]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  iexact HO

/-- What the region returns that @main still needs: the edge features unchanged, the result array, what is owed. -/
theorem regionPost_elim (d : Dev nD) :
    (regionPost (Breg (F := F) d) (Vreg m) d : sProp 𝕄)
      ⊢ iprop(((SparseCore.T d).loc main_arg1 ↦{fullShare} m ((SparseCore.T d).loc main_arg1))
          ∗ ((SparseCore.T d).loc main_v10 ↦{fullShare} Rout (Breg (F := F) d) (Vreg m) d)
          ∗ Pipeline.owesWithin d 0 (Breg (F := F) d ∪ cfg1.waitPairs (none : HIx 1))) := by
  unfold regionPost
  rw [bigSep_W1]
  have e1 : (dats (Breg (F := F) d) (Vreg m) 0 d).arrAt 1 cfg1.N = m ((SparseCore.T d).loc main_arg1) :=
    (((dats (Breg (F := F) d) (Vreg m) 0 d).arrAt_in 1 rfl cfg1.N).trans (A_eq (Breg (F := F) d) (Vreg m) d 1)).trans (Vreg_a1 m d)
  rw [e1]
  iintro ⟨⟨-, H1, -, -, -, -, -, H7⟩, HO⟩
  isplitl [H1]; · iexact H1
  isplitl [H7]; · iexact H7
  iexact HO

/-! ## What the TensorCore owes around the region -/

theorem tcSt_region (d : Dev nD) :
    (K (F := F)).tcSt EH d 1
      ⊢ (iprop(Pipeline.owesWithin d 0 (Breg (F := F) d)
          ∗ (Pipeline.owesWithin d 0 (Breg (F := F) d ∪ cfg1.waitPairs (none : HIx 1)) -∗ (K (F := F)).tcSt EH d 1)) : sProp 𝕄) := by
  unfold SparseCore.Cfg.tcSt
  rw [(K (F := F)).Otc_end d (le_refl 1)]
  iintro ⟨⟨%W, %hW, HO⟩, Hrest⟩
  isplitl [HO]
  · iexists W
    isplitr
    · ipureintro; intro p hp; exact hW p (Finset.mem_coe.1 hp)
    · iexact HO
  iintro ⟨%W', %hW', HO'⟩
  isplitl [HO']
  · iexists W'
    isplitr
    · ipureintro
      intro p hp
      rcases hW' (Finset.mem_coe.2 hp) with h | ⟨w, s, rfl⟩
      · exact h
      · exact Nat.zero_le _
    · iexact HO'
  iexact Hrest

/-! ## The region as the last step of @main -/

set_option backward.isDefEq.respectTransparency.types false in
theorem tc_region_ret (L : GSem nD τ sig → Finset (HIx 1)) (lv : GSem nD τ sig → HIx 1 → ℕ) (B : Set (SemLoc sig × HIx 1))
    (Vv : (c : Dev nD) → (b : Ref sig .tc) → Buf (Elt F) ((c.tc : Thread nD τ).loc b)) (d : Dev nD) (Φ : PUnit → sProp 𝕄) :
    iprop(boundary (SparseCore.T d) ∗ regionPre B Vv d ∗ levAts L lv
        ∗ Pipeline.cellsGhost (Pipeline.pin (pcfgs (F := F)) adm) ER 0 d ∗ Pipeline.toksInit (Pipeline.pin (pcfgs (F := F)) adm) ER 0 d
        ∗ (iprop(boundary (SparseCore.T d) ∗ regionPost B Vv d) -∗ Φ ⟨⟩))
      ⊢ wp frame (wpE ((K (F := F)).defs D) 𝒱 (SparseCore.T d) none) Set.univ
          (Prog.lift (.customCall (SparseCore.inner (Pipeline.entry 0)) ())) Φ := by
  refine BIBase.Entails.trans ?_ (tc_region L lv B Vv d (fun a => Prog.ret a) Φ)
  iintro ⟨Hb, Hpre, Hlev, Hg, Ht, Hk⟩
  isplitl [Hb]; · iexact Hb
  isplitl [Hpre]; · iexact Hpre
  isplitl [Hlev]; · iexact Hlev
  isplitl [Hg]; · iexact Hg
  isplitl [Ht]; · iexact Ht
  iintro Hpost
  rw [wp_ret]
  imodintro
  iapply Hk
  iexact Hpost

/-! ## @main -/

/-- @main on device d's TensorCore. -/
theorem hmain (κ : GSem nD τ sig → ℕ) (d : Dev nD) :
    iprop((K (F := F)).ctx EH (P m) κ (K (F := F)).lev ∗ (K (F := F)).tcSt EH d 0 ∗ (K (F := F)).tcRes m ρ d
        ∗ (Pipeline.cellsGhost (Pipeline.pin (pcfgs (F := F)) adm) ER 0 d ∗ Pipeline.toksInit (Pipeline.pin (pcfgs (F := F)) adm) ER 0 d))
      ⊢ wp frame (wpE ((K (F := F)).defs (D (F := F))) 𝒱 (SparseCore.T d) none) Set.univ (main (F := F) d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, Hg, Ht⟩
  iapply (wp_hlo_within 𝒱 (SparseCore.T d) none Set.univ (op := op0) (S := S19) hop0 (V := V0 m d)) $$ [Hb Hheld]
  · isplitl [Hb] <;> iassumption
  iintro ⟨Hb, Hheld⟩
  rw [wp_ret]; imodintro
  iapply (wp_hlo_within 𝒱 (SparseCore.T d) none Set.univ (op := op1) (S := S19) hop1 (V := (op0 (F := F)).result (V0 m d))) $$ [Hb Hheld]
  · isplitl [Hb] <;> iassumption
  iintro ⟨Hb, Hheld⟩
  rw [wp_ret]; imodintro
  iapply (wp_hlo_within 𝒱 (SparseCore.T d) none Set.univ (op := op2) (S := S19) hop2 (V := (op1 (F := F)).result ((op0 (F := F)).result (V0 m d)))) $$ [Hb Hheld]
  · isplitl [Hb] <;> iassumption
  iintro ⟨Hb, Hheld⟩
  rw [wp_ret]; imodintro
  iapply (wp_hlo_within 𝒱 (SparseCore.T d) none Set.univ (op := op3) (S := S19) hop3 (V := (op2 (F := F)).result ((op1 (F := F)).result ((op0 (F := F)).result (V0 m d))))) $$ [Hb Hheld]
  · isplitl [Hb] <;> iassumption
  iintro ⟨Hb, Hheld⟩
  rw [wp_ret]; imodintro
  iapply (wp_hlo_within 𝒱 (SparseCore.T d) none Set.univ (op := op4) (S := S19) hop4 (V := (op3 (F := F)).result ((op2 (F := F)).result ((op1 (F := F)).result ((op0 (F := F)).result (V0 m d)))))) $$ [Hb Hheld]
  · isplitl [Hb] <;> iassumption
  iintro ⟨Hb, Hheld⟩
  rw [wp_ret]; imodintro
  iapply (wp_hlo_within 𝒱 (SparseCore.T d) none Set.univ (op := op5) (S := S19) hop5 (V := (op4 (F := F)).result ((op3 (F := F)).result ((op2 (F := F)).result ((op1 (F := F)).result ((op0 (F := F)).result (V0 m d))))))) $$ [Hb Hheld]
  · isplitl [Hb] <;> iassumption
  iintro ⟨Hb, Hheld⟩
  rw [wp_ret]; imodintro
  iapply (wp_hlo_within 𝒱 (SparseCore.T d) none Set.univ (op := op6) (S := S19) hop6 (V := (op5 (F := F)).result ((op4 (F := F)).result ((op3 (F := F)).result ((op2 (F := F)).result ((op1 (F := F)).result ((op0 (F := F)).result (V0 m d)))))))) $$ [Hb Hheld]
  · isplitl [Hb] <;> iassumption
  iintro ⟨Hb, Hheld⟩
  rw [wp_ret]; imodintro
  iapply (wp_hlo_within 𝒱 (SparseCore.T d) none Set.univ (op := op7) (S := S19) hop7 (V := (op6 (F := F)).result ((op5 (F := F)).result ((op4 (F := F)).result ((op3 (F := F)).result ((op2 (F := F)).result ((op1 (F := F)).result ((op0 (F := F)).result (V0 m d))))))))) $$ [Hb Hheld]
  · isplitl [Hb] <;> iassumption
  iintro ⟨Hb, Hheld⟩
  rw [wp_ret]; imodintro
  iapply (wp_hlo_within 𝒱 (SparseCore.T d) none Set.univ (op := op8) (S := S19) hop8 (V := (op7 (F := F)).result ((op6 (F := F)).result ((op5 (F := F)).result ((op4 (F := F)).result ((op3 (F := F)).result ((op2 (F := F)).result ((op1 (F := F)).result ((op0 (F := F)).result (V0 m d)))))))))) $$ [Hb Hheld]
  · isplitl [Hb] <;> iassumption
  iintro ⟨Hb, Hheld⟩
  rw [wp_ret]; imodintro
  -- the SparseCore call
  ihave Hh := (Entails.of_eq (held_V9 (F := F) m d)) $$ Hheld
  icases Hh with ⟨Ha0, Ha1, Ha2, Ha3, Ha4, Ha5, Ha6, Ha7, Hv0, Hv1, Hv2, Hv3, Hv4, Hv5, Hv6, Hv7, Hv8, Hv9, Hv10⟩
  ihave Hsp := (call_split m d (m (oLoc d))) $$ [Ha0 Ha6 Ha7 Hv9]
  · isplitl [Ha0]; · iexact Ha0
    isplitl [Ha6]; · iexact Ha6
    isplitl [Ha7]; · iexact Ha7
    iexact Hv9
  icases Hsp with ⟨Hkept, Htiles⟩
  iapply ((K (F := F)).wp_run (D (F := F)) 𝒱 (EH := EH) (P := P m) κ d 0) $$ [Hst Htiles Hkept Hb Ha1 Ha2 Ha3 Ha4 Ha5 Hv2 Hv4 Hv5 Hv7 Hv8 Hv10 Hg Ht]
  isplitr; · iexact Hctx
  isplitl [Hst]; · iexact Hst
  isplitl [Htiles]
  · rw [st0_eq]; iexact Htiles
  iintro ⟨Hst, Hdn⟩
  ihave Hdn' := (Entails.of_eq (dn0_eq m d)) $$ Hdn
  ihave Hj := (call_join m d (gatherC m d)) $$ [Hkept Hdn']
  · isplitl [Hkept] <;> iassumption
  icases Hj with ⟨Ha0, Ha6, Ha7, Hv9⟩
  -- the dense network's pipeline
  ihave Hst := (Entails.of_eq (show (K (F := F)).tcSt EH d ((0 : Fin 1).val + 1) = (K (F := F)).tcSt EH d 1 from rfl)) $$ Hst
  ihave Hso := (tcSt_region (F := F) d) $$ Hst
  icases Hso with ⟨HO, Hback⟩
  ihave Hlev := (SparseCore.Cfg.ctx_levAts κ) $$ Hctx
  iapply (tc_region_ret (K (F := F)).L (K (F := F)).lev (Breg (F := F) d) (Vreg m) d _) $$ [Hb Hv9 Ha1 Hv2 Hv4 Hv5 Hv7 Hv8 Hv10 HO Hlev Hg Ht Hback Ha0 Ha2 Ha3 Ha4 Ha5 Ha6 Ha7]
  isplitl [Hb]; · iexact Hb
  isplitl [Hv9 Ha1 Hv2 Hv4 Hv5 Hv7 Hv8 Hv10 HO]
  · iapply (regionPre_intro m d)
    isplitl [Hv9]; · iexact Hv9
    isplitl [Ha1]; · iexact Ha1
    isplitl [Hv2]; · iexact Hv2
    isplitl [Hv4]; · iexact Hv4
    isplitl [Hv5]; · iexact Hv5
    isplitl [Hv7]; · iexact Hv7
    isplitl [Hv8]; · iexact Hv8
    isplitl [Hv10]; · iexact Hv10
    iexact HO
  isplitl [Hlev]; · iexact Hlev
  isplitl [Hg]; · iexact Hg
  isplitl [Ht]; · iexact Ht
  iintro ⟨Hb, Hpost⟩
  ihave Hp := (regionPost_elim m d) $$ Hpost
  icases Hp with ⟨Ha1, Hv10, HO⟩
  imodintro
  isplitl [HO Hback]
  · iapply Hback; iexact HO
  unfold FIN
  isplitl [Ha0]; · iexact Ha0
  isplitl [Ha1]; · iexact Ha1
  isplitl [Ha2]; · iexact Ha2
  isplitl [Ha3]; · iexact Ha3
  isplitl [Ha4]; · iexact Ha4
  isplitl [Ha5]; · iexact Ha5
  isplitl [Ha6]; · iexact Ha6
  isplitl [Ha7]; · iexact Ha7
  iexact Hv10

/-! ## The host stages' values -/

theorem V9_v2 (d : Dev nD) :
    V9 m d v2' = truncf .bf16 (extractStridedSlice S256x544 ![0, 0] (transpose S272x544 [1, 0] (m ((SparseCore.T d).loc main_arg2))
      transposes_S544x272_S272x544_1_0) slices_S272x544_S256x544_0_0) bitsLt_bf16_f32 := by
  unfold V9
  rw [(op8 (F := F)).result_of_not_mem _ (show v2' ∉ ({v8'} : Finset (DevRef τ sig)) by decide),
    (op7 (F := F)).result_of_not_mem _ (show v2' ∉ ({v7'} : Finset (DevRef τ sig)) by decide),
    (op6 (F := F)).result_of_not_mem _ (show v2' ∉ ({v6'} : Finset (DevRef τ sig)) by decide),
    (op5 (F := F)).result_of_not_mem _ (show v2' ∉ ({v5'} : Finset (DevRef τ sig)) by decide),
    (op4 (F := F)).result_of_not_mem _ (show v2' ∉ ({v4'} : Finset (DevRef τ sig)) by decide),
    (op3 (F := F)).result_of_not_mem _ (show v2' ∉ ({v3'} : Finset (DevRef τ sig)) by decide)]
  rw [StableHlo.unary_result, StableHlo.unary_result, StableHlo.unary_result]
  rfl

theorem V9_v4 (d : Dev nD) :
    V9 m d v4' = truncf .bf16 (extractStridedSlice S16x544 ![256, 0] (transpose S272x544 [1, 0] (m ((SparseCore.T d).loc main_arg2))
      transposes_S544x272_S272x544_1_0) slices_S272x544_S16x544_256_0) bitsLt_bf16_f32 := by
  unfold V9
  rw [(op8 (F := F)).result_of_not_mem _ (show v4' ∉ ({v8'} : Finset (DevRef τ sig)) by decide),
    (op7 (F := F)).result_of_not_mem _ (show v4' ∉ ({v7'} : Finset (DevRef τ sig)) by decide),
    (op6 (F := F)).result_of_not_mem _ (show v4' ∉ ({v6'} : Finset (DevRef τ sig)) by decide),
    (op5 (F := F)).result_of_not_mem _ (show v4' ∉ ({v5'} : Finset (DevRef τ sig)) by decide)]
  rw [StableHlo.unary_result, StableHlo.unary_result]
  rw [(op2 (F := F)).result_of_not_mem _ (show v0' ∉ ({v2'} : Finset (DevRef τ sig)) by decide),
    (op1 (F := F)).result_of_not_mem _ (show v0' ∉ ({v1'} : Finset (DevRef τ sig)) by decide)]
  rw [StableHlo.unary_result]
  rfl

theorem V9_v5 (d : Dev nD) : V9 m d v5' = shapeCast S1x544 (m ((SparseCore.T d).loc main_arg3)) shapeCasts_S544_S1x544 := by
  unfold V9
  rw [(op8 (F := F)).result_of_not_mem _ (show v5' ∉ ({v8'} : Finset (DevRef τ sig)) by decide),
    (op7 (F := F)).result_of_not_mem _ (show v5' ∉ ({v7'} : Finset (DevRef τ sig)) by decide),
    (op6 (F := F)).result_of_not_mem _ (show v5' ∉ ({v6'} : Finset (DevRef τ sig)) by decide)]
  rw [StableHlo.reshape_result]
  rw [(op4 (F := F)).result_of_not_mem _ (show a3' ∉ ({v4'} : Finset (DevRef τ sig)) by decide),
    (op3 (F := F)).result_of_not_mem _ (show a3' ∉ ({v3'} : Finset (DevRef τ sig)) by decide),
    (op2 (F := F)).result_of_not_mem _ (show a3' ∉ ({v2'} : Finset (DevRef τ sig)) by decide),
    (op1 (F := F)).result_of_not_mem _ (show a3' ∉ ({v1'} : Finset (DevRef τ sig)) by decide),
    (op0 (F := F)).result_of_not_mem _ (show a3' ∉ ({v0'} : Finset (DevRef τ sig)) by decide)]
  rfl

theorem V9_v7 (d : Dev nD) :
    V9 m d v7' = truncf .bf16 (transpose S544x16 [1, 0] (m ((SparseCore.T d).loc main_arg4)) transposes_S16x544_S544x16_1_0) bitsLt_bf16_f32 := by
  unfold V9
  rw [(op8 (F := F)).result_of_not_mem _ (show v7' ∉ ({v8'} : Finset (DevRef τ sig)) by decide)]
  rw [StableHlo.unary_result, StableHlo.unary_result]
  rw [(op5 (F := F)).result_of_not_mem _ (show a4' ∉ ({v5'} : Finset (DevRef τ sig)) by decide), (op4 (F := F)).result_of_not_mem _ (show a4' ∉ ({v4'} : Finset (DevRef τ sig)) by decide),
    (op3 (F := F)).result_of_not_mem _ (show a4' ∉ ({v3'} : Finset (DevRef τ sig)) by decide),
    (op2 (F := F)).result_of_not_mem _ (show a4' ∉ ({v2'} : Finset (DevRef τ sig)) by decide),
    (op1 (F := F)).result_of_not_mem _ (show a4' ∉ ({v1'} : Finset (DevRef τ sig)) by decide),
    (op0 (F := F)).result_of_not_mem _ (show a4' ∉ ({v0'} : Finset (DevRef τ sig)) by decide)]
  rfl

theorem V9_v8 (d : Dev nD) : V9 m d v8' = shapeCast S1x16 (m ((SparseCore.T d).loc main_arg5)) shapeCasts_S16_S1x16 := by
  unfold V9
  rw [StableHlo.reshape_result]
  rw [(op7 (F := F)).result_of_not_mem _ (show a5' ∉ ({v7'} : Finset (DevRef τ sig)) by decide),
    (op6 (F := F)).result_of_not_mem _ (show a5' ∉ ({v6'} : Finset (DevRef τ sig)) by decide),
    (op5 (F := F)).result_of_not_mem _ (show a5' ∉ ({v5'} : Finset (DevRef τ sig)) by decide),
    (op4 (F := F)).result_of_not_mem _ (show a5' ∉ ({v4'} : Finset (DevRef τ sig)) by decide),
    (op3 (F := F)).result_of_not_mem _ (show a5' ∉ ({v3'} : Finset (DevRef τ sig)) by decide),
    (op2 (F := F)).result_of_not_mem _ (show a5' ∉ ({v2'} : Finset (DevRef τ sig)) by decide),
    (op1 (F := F)).result_of_not_mem _ (show a5' ∉ ({v1'} : Finset (DevRef τ sig)) by decide),
    (op0 (F := F)).result_of_not_mem _ (show a5' ∉ ({v0'} : Finset (DevRef τ sig)) by decide)]
  rfl

/-- The region's eight arrays as functions of the launch memory. -/
theorem Vreg_v2_eq (d : Dev nD) : Vreg m d main_v2 = truncf .bf16 (extractStridedSlice S256x544 ![0, 0] (transpose S272x544 [1, 0] (m ((SparseCore.T d).loc main_arg2))
      transposes_S544x272_S272x544_1_0) slices_S272x544_S256x544_0_0) bitsLt_bf16_f32 := (Vreg_v2 m d).trans (V9_v2 m d)
theorem Vreg_v4_eq (d : Dev nD) : Vreg m d main_v4 = truncf .bf16 (extractStridedSlice S16x544 ![256, 0] (transpose S272x544 [1, 0] (m ((SparseCore.T d).loc main_arg2))
      transposes_S544x272_S272x544_1_0) slices_S272x544_S16x544_256_0) bitsLt_bf16_f32 := (Vreg_v4 m d).trans (V9_v4 m d)
theorem Vreg_v5_eq (d : Dev nD) : Vreg m d main_v5 = shapeCast S1x544 (m ((SparseCore.T d).loc main_arg3)) shapeCasts_S544_S1x544 := (Vreg_v5 m d).trans (V9_v5 m d)
theorem Vreg_v7_eq (d : Dev nD) : Vreg m d main_v7 = truncf .bf16 (transpose S544x16 [1, 0] (m ((SparseCore.T d).loc main_arg4)) transposes_S16x544_S544x16_1_0) bitsLt_bf16_f32 :=
  (Vreg_v7 m d).trans (V9_v7 m d)
theorem Vreg_v8_eq (d : Dev nD) : Vreg m d main_v8 = shapeCast S1x16 (m ((SparseCore.T d).loc main_arg5)) shapeCasts_S16_S1x16 := (Vreg_v8 m d).trans (V9_v8 m d)

end Cert.Proof.KB

end
-- ==== Proof.KbCross.lean ====
/-
  What crosses the subcore barrier, and the shares a tile splits its read share of the shared table into.

  Before the barrier a tile holds its own part of its SparseCore's shared table whole, at the node rows. It splits
  sixteen read shares off it, one per tile of the SparseCore — these are what its duty in each tile's round hands
  over — and keeps the remainder. After the barrier its own round has collected, from each of the sixteen tiles,
  that tile's part at this tile's read share: together the whole shared table at that share. For its four
  concurrent gathers it splits that share into a remainder and four read shares, and joins them back. A tile's own
  part is its block of 624 rows, and on tile 15 also the last sixteen rows.
-/
import proofs.«206088_g82248623718559_cont_9to1c4b_230_21_alg».proof.Proof.KbBarrier
import proofs.«206088_g82248623718559_cont_9to1c4b_230_21_alg».proof.Proof.KbGeom
import proofs.«206088_g82248623718559_cont_9to1c4b_230_21_alg».proof.Proof.KbSplit

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "nV" => (Memref.whole Cert.Kernel.main_arg0_scv : Memref Cert.Kernel.sig Kind.scVector Space.hbm Cert.Kernel.S10000x128 EltTy.f32)
local notation "shV" => (Memref.whole Cert.Kernel.cc0_scratch0 : Memref Cert.Kernel.sig Kind.scVector Space.shared Cert.Kernel.S10000x128 EltTy.f32)

variable (m : (ℓ : Loc nD τ sig) → Buf (Elt F) ℓ)

variable [FloatOps F]

/-- The tile's number among the sixteen of its SparseCore. -/
abbrev jL (L : grid0.Coords) : Fin 16 := Fin.cast (rfl : grid0.bound 1 = 16) (L 1)

/-! ## Across the barrier -/

/-- What tile L's duty in tile j's round hands over: L's own part at the j-th read share. -/
theorem pay_out (d : Dev nD) (L : grid0.Coords) (j : Fin (grid0.bound 1)) :
    (bRd (F := F) m).payload (bcell d (cV L) (j.castLE hsub0)) 0 (jV L).val
      = (shLoc d (cV L) ↦[blkAll (jL L)]{Transfers.shareTokN fullShare j.val} nodesSh m d (cV L) : sProp 𝕄) := by
  show bPay m (bcell d (cV L) (j.castLE hsub0)) (jV L).val = _
  unfold bPay; dsimp only
  rw [dif_pos (show (jV L).val < 16 from (L 1).isLt)]
  rfl

/-- Before the barrier: the tile's own part, whole, is what its sixteen duties hand over and a remainder. -/
theorem pays_intro (d : Dev nD) (L : grid0.Coords) :
    (shLoc d (cV L) ↦[blkAll (jL L)]{fullShare} nodesSh m d (cV L) : sProp 𝕄)
      ⊢ iprop((bigSep Finset.univ fun j : Fin (grid0.bound 1) => (bRd (F := F) m).payload (bcell d (cV L) (j.castLE hsub0)) 0 (jV L).val)
          ∗ (shLoc d (cV L) ↦[blkAll (jL L)]{Transfers.shareDrop fullShare 16} nodesSh m d (cV L))) := by
  have e : (bigSep Finset.univ fun i : Fin 16 => (shLoc d (cV L) ↦[blkAll (jL L)]{Transfers.shareTok fullShare 16 i} nodesSh m d (cV L) : sProp 𝕄))
      = bigSep Finset.univ fun j : Fin (grid0.bound 1) => (bRd (F := F) m).payload (bcell d (cV L) (j.castLE hsub0)) 0 (jV L).val :=
    bigSep_congr fun j _ => (pay_out m d L j).symm
  rw [← e]
  exact (Transfers.pointsTo_toks_split fullShare 16).trans sep_comm.1

/-- What tile i's duty in tile L's round hands over: i's part at L's read share. -/
theorem pay_in (d : Dev nD) (L : grid0.Coords) (i : Fin τ.nSub) :
    (bRd (F := F) m).payload (bcell d (cV L) (jV L)) 0 i.val
      = (shLoc d (cV L) ↦[blkAll (Fin.cast nSub_eq i)]{tok16 (jV L)} nodesSh m d (cV L) : sProp 𝕄) := by
  show bPay m (bcell d (cV L) (jV L)) i.val = _
  unfold bPay; dsimp only
  rw [dif_pos (show i.val < 16 from i.isLt)]
  rfl

/-- After the barrier: what the tile's own round collected is the whole shared table at the tile's read share. -/
theorem pays_elim (d : Dev nD) (L : grid0.Coords) :
    (bigSep ((bRd (F := F) m).duties (bcell d (cV L) (jV L)) 0 \ ∅) fun n => (bRd (F := F) m).payload (bcell d (cV L) (jV L)) 0 n)
      ⊢ (shLoc d (cV L) ↦{tok16 (jV L)} nodesSh m d (cV L) : sProp 𝕄) := by
  rw [Finset.sdiff_empty, bRd_duties₀, SparseCore.bigSep_image_of_injOn (Fin.val_injective.injOn),
    shPts_blks d (cV L) (tok16 (jV L)) (nodesSh m d (cV L))]
  exact Entails.of_eq (bigSep_congr fun i _ => pay_in m d L i)

/-! ## A read share split into a remainder and four read shares -/

omit [FloatOps F] in
theorem bigSep_range4 (Φ : ℕ → sProp 𝕄) : bigSep (Finset.range 4) Φ = iprop(Φ 0 ∗ Φ 1 ∗ Φ 2 ∗ Φ 3) := by
  rw [show Finset.range 4 = insert 0 (insert 1 (insert 2 {3})) from by decide,
    bigSep_insert (by decide), bigSep_insert (by decide), bigSep_insert (by decide), bigSep_singleton]
  rfl

omit [FloatOps F] in
/-- Split: the remainder and the four read shares. -/
theorem share4_split {ℓ : Loc nD τ sig} (Sx : Finset (Idx ℓ)) (q : PosShare TreeShare) (f : Buf (Elt F) ℓ) :
    (ℓ ↦[Sx]{q} f : sProp 𝕄)
      ⊢ iprop((ℓ ↦[Sx]{Transfers.shareDrop q 4} f) ∗ (ℓ ↦[Sx]{Transfers.shareTokN q 0} f) ∗ (ℓ ↦[Sx]{Transfers.shareTokN q 1} f)
          ∗ (ℓ ↦[Sx]{Transfers.shareTokN q 2} f) ∗ (ℓ ↦[Sx]{Transfers.shareTokN q 3} f)) := by
  rw [← bigSep_range4 (fun i => (ℓ ↦[Sx]{Transfers.shareTokN q i} f : sProp 𝕄))]
  exact (Transfers.pointsTo_toks_range q 4).1

omit [FloatOps F] in
/-- Joined back. -/
theorem share4_join {ℓ : Loc nD τ sig} (Sx : Finset (Idx ℓ)) (q : PosShare TreeShare) (f : Buf (Elt F) ℓ) :
    iprop((ℓ ↦[Sx]{Transfers.shareDrop q 4} f) ∗ (ℓ ↦[Sx]{Transfers.shareTokN q 0} f) ∗ (ℓ ↦[Sx]{Transfers.shareTokN q 1} f)
        ∗ (ℓ ↦[Sx]{Transfers.shareTokN q 2} f) ∗ (ℓ ↦[Sx]{Transfers.shareTokN q 3} f))
      ⊢ (ℓ ↦[Sx]{q} f : sProp 𝕄) := by
  rw [← bigSep_range4 (fun i => (ℓ ↦[Sx]{Transfers.shareTokN q i} f : sProp 𝕄))]
  exact (Transfers.pointsTo_toks_range q 4).2

omit [FloatOps F] in
/-- The tile's read share of the whole shared table, split for its four concurrent gathers. -/
theorem tok4_split (d : Dev nD) (L : grid0.Coords) (f : Buf (Elt F) (shLoc d (cV L))) :
    (shLoc d (cV L) ↦{tok16 (jV L)} f : sProp 𝕄)
      ⊢ iprop((shLoc d (cV L) ↦{Transfers.shareDrop (tok16 (jV L)) 4} f) ∗ (shLoc d (cV L) ↦{Transfers.shareTokN (tok16 (jV L)) 0} f)
          ∗ (shLoc d (cV L) ↦{Transfers.shareTokN (tok16 (jV L)) 1} f) ∗ (shLoc d (cV L) ↦{Transfers.shareTokN (tok16 (jV L)) 2} f)
          ∗ (shLoc d (cV L) ↦{Transfers.shareTokN (tok16 (jV L)) 3} f)) :=
  share4_split Finset.univ (tok16 (jV L)) f

omit [FloatOps F] in
theorem tok4_join (d : Dev nD) (L : grid0.Coords) (f : Buf (Elt F) (shLoc d (cV L))) :
    iprop((shLoc d (cV L) ↦{Transfers.shareDrop (tok16 (jV L)) 4} f) ∗ (shLoc d (cV L) ↦{Transfers.shareTokN (tok16 (jV L)) 0} f)
        ∗ (shLoc d (cV L) ↦{Transfers.shareTokN (tok16 (jV L)) 1} f) ∗ (shLoc d (cV L) ↦{Transfers.shareTokN (tok16 (jV L)) 2} f)
        ∗ (shLoc d (cV L) ↦{Transfers.shareTokN (tok16 (jV L)) 3} f))
      ⊢ (shLoc d (cV L) ↦{tok16 (jV L)} f : sProp 𝕄) :=
  share4_join Finset.univ (tok16 (jV L)) f

/-! ## A tile's own part -/

omit [FloatOps F] in
/-- Off tile 15 the tile's part is its block. -/
theorem own_part_eq (d : Dev nD) (L : grid0.Coords) (h : (L 1).val ≠ 15) (q : PosShare TreeShare) (f : Buf (Elt F) (shLoc d (cV L))) :
    (shLoc d (cV L) ↦[blkSet L]{q} f : sProp 𝕄) = shLoc d (cV L) ↦[blkAll (jL L)]{q} f := by
  rw [show blkAll (jL L) = blkSet L from blkAll_eq L h]

omit [FloatOps F] in
/-- On tile 15 it is the block and the last sixteen rows: joined, -/
theorem own_part15_join (d : Dev nD) (L : grid0.Coords) (h : (L 1).val = 15) (q : PosShare TreeShare) (f : Buf (Elt F) (shLoc d (cV L))) :
    iprop((shLoc d (cV L) ↦[blkSet L]{q} f) ∗ (shLoc d (cV L) ↦[tailSet]{q} f)) ⊢ (shLoc d (cV L) ↦[blkAll (jL L)]{q} f : sProp 𝕄) := by
  rw [show blkAll (jL L) = blkSet L ∪ tailSet from blkAll_eq15 L h]
  exact (pointsTo_union (blkSet_disjoint_tailSet L)).2

omit [FloatOps F] in
/-- and split. -/
theorem own_part15_split (d : Dev nD) (L : grid0.Coords) (h : (L 1).val = 15) (q : PosShare TreeShare) (f : Buf (Elt F) (shLoc d (cV L))) :
    (shLoc d (cV L) ↦[blkAll (jL L)]{q} f : sProp 𝕄) ⊢ iprop((shLoc d (cV L) ↦[blkSet L]{q} f) ∗ (shLoc d (cV L) ↦[tailSet]{q} f)) := by
  rw [show blkAll (jL L) = blkSet L ∪ tailSet from blkAll_eq15 L h]
  exact (pointsTo_union (blkSet_disjoint_tailSet L)).1

end Cert.Proof.KB

end
-- ==== Proof.KbTileObl.lean ====
/-
  The gather task as the launch theorem asks for it.

  The launch theorem asks, for tile i of SparseCore c of the call's grid, for a proof about the body table's entry at
  that tile, from what the call hands the tile to what the tile hands back. The table's entry at a tile of the grid is
  the gather program at the tile's coordinates on the whole arrays and the tile's scratch; what the call hands over and
  takes back are the tile's shares of the arrays and its part of the shared table, named by the tile's number.
  So the obligation is the theorem about the gather program at symbolic coordinates, read at the tile's.
-/
import proofs.«206088_g82248623718559_cont_9to1c4b_230_21_alg».proof.Proof.KbCross

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "nV" => (Memref.whole Cert.Kernel.main_arg0_scv : Memref Cert.Kernel.sig Kind.scVector Space.hbm Cert.Kernel.S10000x128 EltTy.f32)
local notation "sV" => (Memref.whole Cert.Kernel.main_arg6_scv : Memref Cert.Kernel.sig Kind.scVector Space.hbm Cert.Kernel.S320000 EltTy.i32)
local notation "rV" => (Memref.whole Cert.Kernel.main_arg7_scv : Memref Cert.Kernel.sig Kind.scVector Space.hbm Cert.Kernel.S320000 EltTy.i32)
local notation "oV" => (Memref.whole Cert.Kernel.main_v9_scv : Memref Cert.Kernel.sig Kind.scVector Space.hbm Cert.Kernel.S320000x256 EltTy.f32)
local notation "shV" => (Memref.whole Cert.Kernel.cc0_scratch0 : Memref Cert.Kernel.sig Kind.scVector Space.shared Cert.Kernel.S10000x128 EltTy.f32)
local notation "isV" => (Memref.whole Cert.Kernel.cc0_scratch1 : Memref Cert.Kernel.sig Kind.scVector Space.vmem Cert.Kernel.S10000 EltTy.i32)
local notation "irV" => (Memref.whole Cert.Kernel.cc0_scratch2 : Memref Cert.Kernel.sig Kind.scVector Space.vmem Cert.Kernel.S10000 EltTy.i32)
local notation "b0V" => (Memref.whole Cert.Kernel.cc0_scratch3 : Memref Cert.Kernel.sig Kind.scVector Space.vmem Cert.Kernel.S40x128 EltTy.f32)
local notation "b1V" => (Memref.whole Cert.Kernel.cc0_scratch4 : Memref Cert.Kernel.sig Kind.scVector Space.vmem Cert.Kernel.S40x128 EltTy.f32)
local notation "b2V" => (Memref.whole Cert.Kernel.cc0_scratch5 : Memref Cert.Kernel.sig Kind.scVector Space.vmem Cert.Kernel.S40x128 EltTy.f32)
local notation "b3V" => (Memref.whole Cert.Kernel.cc0_scratch6 : Memref Cert.Kernel.sig Kind.scVector Space.vmem Cert.Kernel.S40x128 EltTy.f32)

variable (m : (ℓ : Loc nD τ sig) → Buf (Elt F) ℓ)

variable [FloatOps F]

/-- The body table's entry at a vector subcore: the gather program at the subcore's coordinates, on the whole arrays
    and the subcore's scratch, where the subcore is in the grid. -/
theorem defs₀_vector (c : Fin τ.nSC) (s : Fin τ.nSub) :
    defs₀ (F := F) (.scVector c s) 0 ()
      = SparseCore.onTile hcore0 hsub0 (fun c s => cc0__gather_body (coordsV c s) nV (Memref.isWhole_whole _) sV (Memref.isWhole_whole _) rV (Memref.isWhole_whole _) oV (Memref.isWhole_whole _)
          shV (Memref.isWhole_whole _) isV (Memref.isWhole_whole _) irV (Memref.isWhole_whole _) b0V (Memref.isWhole_whole _) b1V (Memref.isWhole_whole _)
          b2V (Memref.isWhole_whole _) b3V (Memref.isWhole_whole _) cc0_scratch7 cc0_scratch8 cc0_scratch9 cc0_scratch10 cc0_scratch11 cc0_scratch12
          cc0_scratch13 cc0_scratch14 cc0_scoped0 cc0_scoped1 cc0_scoped2 cc0_scoped3) ⟨⟩ c s := rfl

set_option maxRecDepth 16384 in
/-- The launch theorem's obligation for the gather call, from the theorem about the gather program at symbolic
    coordinates. -/
theorem tileObl (hF : (K (F := F)).Facts)
    (tile_body : ∀ (d : Dev nD) (L : grid0.Coords) (O : CellTallies nD τ sig (HIx 1)) (W : Waits sig (HIx 1)), (∀ g, O g none = 0) →
      (∀ g ι, 0 < O g ι → 8 * (0 : Fin 1).val + 6 ≤ (K (F := F)).lev g ι) →
      iprop(levAts (K (F := F)).L (K (F := F)).lev ∗ bkit m d (cV L) (jV L)
          ∗ (tileArr m d (wid (cV L) (jV L)) (m (oLoc d)) ∗ shIn d (cV L) (jL L))
          ∗ scopedBufs (V d (cV L) (jV L)) ∗ scopedSems0 (V d (cV L) (jV L)) ∗ owes (V d (cV L) (jV L)) (O + oxV d (cV L)) W)
        ⊢ wp frame (wpE (defs₀ (F := F)) 𝒱₀ (V d (cV L) (jV L)) none) Set.univ
            (cc0__gather_body L nV (Memref.isWhole_whole _) sV (Memref.isWhole_whole _) rV (Memref.isWhole_whole _) oV (Memref.isWhole_whole _)
          shV (Memref.isWhole_whole _) isV (Memref.isWhole_whole _) irV (Memref.isWhole_whole _) b0V (Memref.isWhole_whole _) b1V (Memref.isWhole_whole _)
          b2V (Memref.isWhole_whole _) b3V (Memref.isWhole_whole _) cc0_scratch7 cc0_scratch8 cc0_scratch9 cc0_scratch10 cc0_scratch11 cc0_scratch12
          cc0_scratch13 cc0_scratch14 cc0_scoped0 cc0_scoped1 cc0_scoped2 cc0_scoped3)
            fun _ => iprop((tileArr m d (wid (cV L) (jV L)) (gatherC m d) ∗ shOut m d (cV L) (jL L))
              ∗ scopedBufs (V d (cV L) (jV L)) ∗ scopedSems0 (V d (cV L) (jV L))
              ∗ ∃ W', ⌜∀ p ∈ W', p ∈ W ∨ p.2 = none ∨ p.2 = some (0 : Fin 1)⌝ ∗ owes (V d (cV L) (jV L)) O W')) :
    (K (F := F)).TileObl (D (F := F)) 𝒱 (P m) v₀ 0 := by
  intro d c i O W hO hOlev _
  have hc : ((K (F := F)).core 0 c).val < 2 := c.isLt
  have hci : ((K (F := F)).core 0 c).val < grid0.bound 0 ∧ ((K (F := F)).sub 0 i).val < grid0.bound 1 := ⟨c.isLt, i.isLt⟩
  rw [show (P m).ox 0 (V d ((K (F := F)).core 0 c) ((K (F := F)).sub 0 i)) = oxV d ((K (F := F)).core 0 c) from if_pos hc,
    show (P m).x 0 (V d ((K (F := F)).core 0 c) ((K (F := F)).sub 0 i)) = bkit m d ((K (F := F)).core 0 c) ((K (F := F)).sub 0 i) from if_pos hc]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body d (coordsV ⟨_, hci.1⟩ ⟨_, hci.2⟩) O W hO hOlev

end Cert.Proof.KB

end
-- ==== Proof.KbValue.lean ====
/-
  What a tile's transfers leave, restated through the launch memory.

  A tile copies its 624 rows of the node table (tile 15 also the last sixteen rows) into the same rows of its
  SparseCore's shared table: on those rows the shared table then holds the node table. It copies its 10000 entries
  of each index array into its own lists: entry i of a list is entry 10000 w + i of the array (w the tile's
  number), so every entry of a list, through whichever window it is read, is below 10000.
-/
import proofs.«206088_g82248623718559_cont_9to1c4b_230_21_alg».proof.Proof.KbPay
import proofs.«206088_g82248623718559_cont_9to1c4b_230_21_alg».proof.Proof.KbGeom
import Idealize.ShloMosaic.Lib.Pipeline.Value

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "nV" => (Memref.whole Cert.Kernel.main_arg0_scv : Memref Cert.Kernel.sig Kind.scVector Space.hbm Cert.Kernel.S10000x128 EltTy.f32)
local notation "sV" => (Memref.whole Cert.Kernel.main_arg6_scv : Memref Cert.Kernel.sig Kind.scVector Space.hbm Cert.Kernel.S320000 EltTy.i32)
local notation "rV" => (Memref.whole Cert.Kernel.main_arg7_scv : Memref Cert.Kernel.sig Kind.scVector Space.hbm Cert.Kernel.S320000 EltTy.i32)
local notation "oV" => (Memref.whole Cert.Kernel.main_v9_scv : Memref Cert.Kernel.sig Kind.scVector Space.hbm Cert.Kernel.S320000x256 EltTy.f32)
local notation "shV" => (Memref.whole Cert.Kernel.cc0_scratch0 : Memref Cert.Kernel.sig Kind.scVector Space.shared Cert.Kernel.S10000x128 EltTy.f32)
local notation "isV" => (Memref.whole Cert.Kernel.cc0_scratch1 : Memref Cert.Kernel.sig Kind.scVector Space.vmem Cert.Kernel.S10000 EltTy.i32)
local notation "irV" => (Memref.whole Cert.Kernel.cc0_scratch2 : Memref Cert.Kernel.sig Kind.scVector Space.vmem Cert.Kernel.S10000 EltTy.i32)
local notation "b0V" => (Memref.whole Cert.Kernel.cc0_scratch3 : Memref Cert.Kernel.sig Kind.scVector Space.vmem Cert.Kernel.S40x128 EltTy.f32)
local notation "b1V" => (Memref.whole Cert.Kernel.cc0_scratch4 : Memref Cert.Kernel.sig Kind.scVector Space.vmem Cert.Kernel.S40x128 EltTy.f32)
local notation "b2V" => (Memref.whole Cert.Kernel.cc0_scratch5 : Memref Cert.Kernel.sig Kind.scVector Space.vmem Cert.Kernel.S40x128 EltTy.f32)
local notation "b3V" => (Memref.whole Cert.Kernel.cc0_scratch6 : Memref Cert.Kernel.sig Kind.scVector Space.vmem Cert.Kernel.S40x128 EltTy.f32)

variable [FloatOps F] (m : (ℓ : Loc nD τ sig) → Buf (Elt F) ℓ) (d : Dev nD) (L : grid0.Coords)

/-! ## The shared table's block -/

/-- After the copy of the tile's 624 node rows, the shared table's block holds the node table's rows. -/
theorem shBlk_restate (q : PosShare TreeShare) (fsh : Buf (Elt F) (shLoc d (cV L))) (pay : S624x128.Idx → Elt F .f32)
    (hpay : pay = ReadAs.same.apply (View.read (Elt F) ((nV).slice (blkRect L) (fun _ => rfl)).view (m (xLoc d)))) :
    ((shBlk L).view.loc (V d (cV L) (jV L)) ↦[(shBlk L).view.set]{q} (shBlk L).view.writes (Elt F) fsh [⟨Rect.whole S624x128, pay⟩] : sProp 𝕄)
      = (shLoc d (cV L) ↦[blkSet L]{q} nodesSh m d (cV L)) := by
  subst hpay
  rw [pts_shBlk]
  refine pointsTo_congr fun i hi => ?_
  obtain ⟨x, rfl⟩ := View.exists_emb_of_mem_set (shBlk L).view (show i ∈ (shBlk L).view.set from hi)
  have h1 := View.read_writes_cons_emb (shBlk L).view fsh (Rect.whole S624x128)
    (ReadAs.same.apply (View.read (Elt F) ((nV).slice (blkRect L) (fun _ => rfl)).view (m (xLoc d)))) [] x
  rw [Rect.emb_whole_apply] at h1
  exact ((cast_eq _ _).symm.trans ((View.read_apply _ _).symm.trans h1)).trans ((View.read_apply _ _).trans (cast_eq _ _))

/-- After tile 15's copy of the last sixteen node rows, the shared table's tail holds the node table's rows. -/
theorem shTail_restate (q : PosShare TreeShare) (fsh : Buf (Elt F) (shLoc d (cV L))) (pay : S16x128.Idx → Elt F .f32)
    (hpay : pay = ReadAs.same.apply (View.read (Elt F) ((nV).slice tailRect (fun _ => rfl)).view (m (xLoc d)))) :
    ((shTail).view.loc (V d (cV L) (jV L)) ↦[(shTail).view.set]{q} (shTail).view.writes (Elt F) fsh [⟨Rect.whole S16x128, pay⟩] : sProp 𝕄)
      = (shLoc d (cV L) ↦[tailSet]{q} nodesSh m d (cV L)) := by
  subst hpay
  rw [pts_shTail]
  refine pointsTo_congr fun i hi => ?_
  obtain ⟨x, rfl⟩ := View.exists_emb_of_mem_set (shTail).view (show i ∈ (shTail).view.set from hi)
  have h1 := View.read_writes_cons_emb (shTail).view fsh (Rect.whole S16x128)
    (ReadAs.same.apply (View.read (Elt F) ((nV).slice tailRect (fun _ => rfl)).view (m (xLoc d)))) [] x
  rw [Rect.emb_whole_apply] at h1
  exact ((cast_eq _ _).symm.trans ((View.read_apply _ _).symm.trans h1)).trans ((View.read_apply _ _).trans (cast_eq _ _))

/-! ## The index lists -/

/-- Entry y of the copied window of the senders array is the array's entry 10000 w + y, w the tile's number. -/
theorem pay_s_apply (y : S10000.Idx) :
    ReadAs.same.apply (View.read (Elt F) ((sV).slice (Rect.unit (s := S320000) (k0_off2 L) S10000.size (k0_off2_inb L)) (fun _ => rfl)).view (m (sLoc d))) y
      = m (sLoc d) (ValueIdx.ix1 ⟨10000 * (2 * (L 1).val + (L 0).val) + (y 0).val,
          by have := L0_lt L; have := L1_lt L; have := idx1_lt y; omega⟩) := by
  refine ((View.read_apply _ _).trans (cast_eq _ _)).trans (congrArg (m (sLoc d)) (funext fun a => Fin.ext ?_))
  match a with
  | ⟨0, _⟩ =>
    show k0_off2 L 0 + 1 * (y 0).val = 10000 * (2 * (L 1).val + (L 0).val) + (y 0).val
    have e0 : k0_off2 L 0 = 20000 * (L 1).val + 10000 * (L 0).val := by rw [k0_off2_eq L]; rfl
    rw [e0]; omega

/-- After the copy, entry i of the tile's senders list is entry 10000 w + i of the senders array. -/
theorem s_list_apply (f : Buf (Elt F) ((V d (cV L) (jV L)).loc cc0_scratch1)) (pay : S10000.Idx → Elt F .i32)
    (hpay : pay = ReadAs.same.apply (View.read (Elt F) ((sV).slice (Rect.unit (s := S320000) (k0_off2 L) S10000.size (k0_off2_inb L)) (fun _ => rfl)).view (m (sLoc d))))
    (i : Fin 10000) :
    (View.write (Elt F) (isV).view f pay Finset.univ) (ValueIdx.ix1 i)
      = m (sLoc d) (ValueIdx.ix1 ⟨10000 * (2 * (L 1).val + (L 0).val) + i.val,
          by have := L0_lt L; have := L1_lt L; have := i.isLt; omega⟩) := by
  subst hpay
  rw [View.write_whole_univ]
  exact pay_s_apply m d L (ValueIdx.ix1 i)

/-- Every entry of the tile's senders list, read through any window of the list, is below 10000. -/
theorem idx_inb_s (hlt : ∀ e : Fin 320000, ((m (sLoc d) : IVec S320000 32) (ValueIdx.ix1 e)).toNat < 10000)
    (f : Buf (Elt F) ((V d (cV L) (jV L)).loc cc0_scratch1)) (pay : S10000.Idx → Elt F .i32)
    (hpay : pay = ReadAs.same.apply (View.read (Elt F) ((sV).slice (Rect.unit (s := S320000) (k0_off2 L) S10000.size (k0_off2_inb L)) (fun _ => rfl)).view (m (sLoc d))))
    (r : Rect S10000) (hr : ∀ a, r.stride a = 1) :
    ∀ x, (((isV).slice r hr).view.read (Elt F) (View.write (Elt F) (isV).view f pay Finset.univ) x).toNat < 10000 := by
  subst hpay; intro x
  rw [View.write_whole_univ]
  rw [show ∀ (g : S10000.Idx → Elt F .i32) (y : r.shape.Idx), ((isV).slice r hr).view.read (Elt F) g y = g (r.emb y) from
    fun g y => (View.read_apply _ _).trans (cast_eq _ _)]
  rw [pay_s_apply]
  exact hlt _

/-- Entry y of the copied window of the receivers array is the array's entry 10000 w + y, w the tile's number. -/
theorem pay_r_apply (y : S10000.Idx) :
    ReadAs.same.apply (View.read (Elt F) ((rV).slice (Rect.unit (s := S320000) (k0_off2 L) S10000.size (k0_off2_inb L)) (fun _ => rfl)).view (m (rLoc d))) y
      = m (rLoc d) (ValueIdx.ix1 ⟨10000 * (2 * (L 1).val + (L 0).val) + (y 0).val,
          by have := L0_lt L; have := L1_lt L; have := idx1_lt y; omega⟩) := by
  refine ((View.read_apply _ _).trans (cast_eq _ _)).trans (congrArg (m (rLoc d)) (funext fun a => Fin.ext ?_))
  match a with
  | ⟨0, _⟩ =>
    show k0_off2 L 0 + 1 * (y 0).val = 10000 * (2 * (L 1).val + (L 0).val) + (y 0).val
    have e0 : k0_off2 L 0 = 20000 * (L 1).val + 10000 * (L 0).val := by rw [k0_off2_eq L]; rfl
    rw [e0]; omega

/-- After the copy, entry i of the tile's receivers list is entry 10000 w + i of the receivers array. -/
theorem r_list_apply (f : Buf (Elt F) ((V d (cV L) (jV L)).loc cc0_scratch2)) (pay : S10000.Idx → Elt F .i32)
    (hpay : pay = ReadAs.same.apply (View.read (Elt F) ((rV).slice (Rect.unit (s := S320000) (k0_off2 L) S10000.size (k0_off2_inb L)) (fun _ => rfl)).view (m (rLoc d))))
    (i : Fin 10000) :
    (View.write (Elt F) (irV).view f pay Finset.univ) (ValueIdx.ix1 i)
      = m (rLoc d) (ValueIdx.ix1 ⟨10000 * (2 * (L 1).val + (L 0).val) + i.val,
          by have := L0_lt L; have := L1_lt L; have := i.isLt; omega⟩) := by
  subst hpay
  rw [View.write_whole_univ]
  exact pay_r_apply m d L (ValueIdx.ix1 i)

/-- Every entry of the tile's receivers list, read through any window of the list, is below 10000. -/
theorem idx_inb_r (hlt : ∀ e : Fin 320000, ((m (rLoc d) : IVec S320000 32) (ValueIdx.ix1 e)).toNat < 10000)
    (f : Buf (Elt F) ((V d (cV L) (jV L)).loc cc0_scratch2)) (pay : S10000.Idx → Elt F .i32)
    (hpay : pay = ReadAs.same.apply (View.read (Elt F) ((rV).slice (Rect.unit (s := S320000) (k0_off2 L) S10000.size (k0_off2_inb L)) (fun _ => rfl)).view (m (rLoc d))))
    (r : Rect S10000) (hr : ∀ a, r.stride a = 1) :
    ∀ x, (((irV).slice r hr).view.read (Elt F) (View.write (Elt F) (irV).view f pay Finset.univ) x).toNat < 10000 := by
  subst hpay; intro x
  rw [View.write_whole_univ]
  rw [show ∀ (g : S10000.Idx → Elt F .i32) (y : r.shape.Idx), ((irV).slice r hr).view.read (Elt F) g y = g (r.emb y) from
    fun g y => (View.read_apply _ _).trans (cast_eq _ _)]
  rw [pay_r_apply]
  exact hlt _

end Cert.Proof.KB

end
-- ==== Proof.KbGather.lean ====
/-
  The row gather read at an index.

  A list of 40 row numbers names, for position y, the row whose number is the list's y-th word; the gathered 40 x 128
  array holds at (y, k) entry k of that row of the table.
-/
import proofs.«206088_g82248623718559_cont_9to1c4b_230_21_alg».proof.Proof.KbValue
import Idealize.ShloMosaic.Lib.SparseCore.Stream

noncomputable section

namespace Cert.Proof.KB

open Cert.Kernel Cert.Kernel.Gen

open Idealize.ShloMosaic Idealize.ShloMosaic.ValueIdx

variable {F : FTy → Type}

local notation "shV" => (Memref.whole Cert.Kernel.cc0_scratch0 : Memref Cert.Kernel.sig Kind.scVector Space.shared Cert.Kernel.S10000x128 EltTy.f32)
local notation "isV" => (Memref.whole Cert.Kernel.cc0_scratch1 : Memref Cert.Kernel.sig Kind.scVector Space.vmem Cert.Kernel.S10000 EltTy.i32)
local notation "irV" => (Memref.whole Cert.Kernel.cc0_scratch2 : Memref Cert.Kernel.sig Kind.scVector Space.vmem Cert.Kernel.S10000 EltTy.i32)

/-- A rank-one array's index at a row-major position is that position. -/
theorem rowMajor1_symm {n : Nat} (k : Fin (⟨1, ![n]⟩ : Shape).numel) (h : k.val < n) :
    (⟨1, ![n]⟩ : Shape).rowMajor.symm k = ix1 ⟨k.val, h⟩ := by
  apply (⟨1, ![n]⟩ : Shape).rowMajor.injective
  rw [Equiv.apply_symm_apply]
  exact Fin.ext (Shape.rowMajor_val_one (d := ![n]) (ix1 ⟨k.val, h⟩)).symm

/-- The row that entry k of a list of words names is the k-th word. -/
theorem rows_val {n o z : ℕ} (idx : (⟨1, ![n]⟩ : Shape).Idx → Elt F .i32) (hn : (⟨1, ![n]⟩ : Shape).numel = o)
    (h : ∀ x, (idx x).toNat < z) (k : Fin o) (hk : k.val < n) :
    (SparseCore.rows idx hn h k).val = (idx (ix1 ⟨k.val, hk⟩)).toNat := by
  show (idx ((⟨1, ![n]⟩ : Shape).rowMajor.symm (k.cast hn.symm))).toNat = _
  rw [rowMajor1_symm (k.cast hn.symm) hk]
  rfl

/-- The gathered array at (y, k): entry k of the table's row that position y names. -/
theorem gatherPayload_ix2 (g : S10000x128.Idx → Elt F .f32)
    (r : Fin (S40x128.size gathers_S10000x128_S40x128.axis') → Fin (S10000x128.size gathers_S10000x128_S40x128.axis))
    (y : Fin 40) (k : Fin 128) :
    SparseCore.gatherPayload gathers_S10000x128_S40x128 g r (ix2 y k)
      = g (ix2 (n0 := 10000) (n1 := 128) ⟨(r y).val, (r y).isLt⟩ k) := by
  unfold SparseCore.gatherPayload
  refine congrArg g (funext fun b => Fin.ext ?_)
  match b with
  | ⟨0, _⟩ => exact congrArg Fin.val (Shape.Gathers.idx_axis gathers_S10000x128_S40x128 r (ix2 y k))
  | ⟨1, _⟩ => exact Shape.Gathers.idx_of_ne gathers_S10000x128_S40x128 r (ix2 y k) ⟨1, by decide⟩ (by decide)

/-! ## Reading through the kernel's windows -/

/-- A 40-entry window of the tile's senders list read at y: the list's entry at the window's offset plus y. -/
theorem win_read_s (lst : S10000.Idx → Elt F .i32) (off : Fin 1 → ℕ) (inb : ∀ a, off a + S40.size a ≤ S10000.size a)
    (hr : ∀ a, (Rect.unit (s := S10000) off S40.size inb).stride a = 1) (y : Fin 40) :
    ((isV).slice (Rect.unit (s := S10000) off S40.size inb) hr).view.read (Elt F) lst (ix1 y)
      = lst (ix1 ⟨off 0 + y.val, by have := inb 0; have := y.isLt; show off 0 + y.val < 10000; have e : S40.size 0 = 40 := rfl; have e' : S10000.size 0 = 10000 := rfl; omega⟩) := by
  refine ((View.read_apply _ _).trans (cast_eq _ _)).trans (congrArg lst (funext fun a => Fin.ext ?_))
  match a with
  | ⟨0, _⟩ =>
    show off 0 + 1 * y.val = off 0 + y.val
    omega

/-- A 40-entry window of the tile's receivers list read at y: the list's entry at the window's offset plus y. -/
theorem win_read_r (lst : S10000.Idx → Elt F .i32) (off : Fin 1 → ℕ) (inb : ∀ a, off a + S40.size a ≤ S10000.size a)
    (hr : ∀ a, (Rect.unit (s := S10000) off S40.size inb).stride a = 1) (y : Fin 40) :
    ((irV).slice (Rect.unit (s := S10000) off S40.size inb) hr).view.read (Elt F) lst (ix1 y)
      = lst (ix1 ⟨off 0 + y.val, by have := inb 0; have := y.isLt; show off 0 + y.val < 10000; have e : S40.size 0 = 40 := rfl; have e' : S10000.size 0 = 10000 := rfl; omega⟩) := by
  refine ((View.read_apply _ _).trans (cast_eq _ _)).trans (congrArg lst (funext fun a => Fin.ext ?_))
  match a with
  | ⟨0, _⟩ =>
    show off 0 + 1 * y.val = off 0 + y.val
    omega

/-- The shared table read through its whole-shape window is its contents. -/
theorem sh_read_whole (f : S10000x128.Idx → Elt F .f32) (inb : ∀ a, (![0, 0] : Fin 2 → ℕ) a + S10000x128.size a ≤ S10000x128.size a)
    (hr : ∀ a, (Rect.unit (s := S10000x128) ![0, 0] S10000x128.size inb).stride a = 1) (i : S10000x128.Idx) :
    ((shV).slice (Rect.unit (s := S10000x128) ![0, 0] S10000x128.size inb) hr).view.read (Elt F) f i = f i := by
  refine ((View.read_apply _ _).trans (cast_eq _ _)).trans (congrArg f (funext fun a => Fin.ext ?_))
  match a with
  | ⟨0, _⟩ => show 0 + 1 * (i 0).val = (i 0).val; omega
  | ⟨1, _⟩ => show 0 + 1 * (i 1).val = (i 1).val; omega

/-! ## The gathered array's entries -/

variable [FloatOps F] (m : (ℓ : Loc nD τ sig) → Buf (Elt F) ℓ) (d : Dev nD)

/-- In the left half of a row the gathered array holds the sender's node row. -/
theorem gatherC_left (e : Fin 320000) (k : Fin 128) :
    gatherC m d (ix2 (n0 := 320000) (n1 := 256) e ⟨k.val, by have := k.isLt; omega⟩)
      = m (xLoc d) (ix2 (rowU (m (sLoc d) (ix1 e))) k) := by
  unfold gatherC
  rw [dif_pos (show ((ix2 (n0 := 320000) (n1 := 256) e ⟨k.val, by have := k.isLt; omega⟩ : S320000x256.Idx) 1).val < 128 from k.isLt)]
  rfl

/-- In the right half of a row the gathered array holds the receiver's node row. -/
theorem gatherC_right (e : Fin 320000) (k : Fin 128) :
    gatherC m d (ix2 (n0 := 320000) (n1 := 256) e ⟨128 + k.val, by have := k.isLt; omega⟩)
      = m (xLoc d) (ix2 (rowU (m (rLoc d) (ix1 e))) k) := by
  unfold gatherC
  rw [dif_neg (show ¬ ((ix2 (n0 := 320000) (n1 := 256) e ⟨128 + k.val, by have := k.isLt; omega⟩ : S320000x256.Idx) 1).val < 128 from by
    show ¬ (128 + k.val < 128); omega)]
  refine congrArg (m (xLoc d)) (congrArg (ix2 _) (Fin.ext ?_))
  show 128 + k.val - 128 = k.val
  omega

/-- A gather through a window of the senders list whose y-th word is the senders array's entry base + y, from a
    table that holds the node table: at (y, k) it is the gathered array's entry (base + y, k). -/
theorem gathered_left (gs : S10000x128.Idx → Elt F .f32) (lw : S40.Idx → Elt F .i32)
    (hn : S40.numel = S40x128.size gathers_S10000x128_S40x128.axis')
    (hin : ∀ x, (lw x).toNat < S10000x128.size gathers_S10000x128_S40x128.axis)
    (base : ℕ) (hb : base + 40 ≤ 320000) (hgs : ∀ i, gs i = m (xLoc d) i)
    (hlw : ∀ y : Fin 40, lw (ix1 y) = m (sLoc d) (ix1 ⟨base + y.val, by have := y.isLt; omega⟩))
    (hlt : ∀ e : Fin 320000, ((m (sLoc d) : IVec S320000 32) (ix1 e)).toNat < 10000) (y : Fin 40) (k : Fin 128) :
    SparseCore.gatherPayload gathers_S10000x128_S40x128 gs (SparseCore.rows lw hn hin) (ix2 y k)
      = gatherC m d (ix2 (n0 := 320000) (n1 := 256) ⟨base + y.val, by have := y.isLt; omega⟩ ⟨k.val, by have := k.isLt; omega⟩) := by
  rw [gatherPayload_ix2, hgs, gatherC_left]
  refine congrArg (m (xLoc d)) (congrArg (fun r : Fin 10000 => ix2 r k) (Fin.ext ?_))
  show (SparseCore.rows lw hn hin y).val = (rowU (m (sLoc d) (ix1 ⟨base + y.val, _⟩))).val
  rw [rows_val lw hn hin y y.isLt, hlw y, rowU_val (hlt _)]

/-- A gather through a window of the receivers list whose y-th word is the receivers array's entry base + y, from a
    table that holds the node table: at (y, k) it is the gathered array's entry (base + y, 128 + k). -/
theorem gathered_right (gs : S10000x128.Idx → Elt F .f32) (lw : S40.Idx → Elt F .i32)
    (hn : S40.numel = S40x128.size gathers_S10000x128_S40x128.axis')
    (hin : ∀ x, (lw x).toNat < S10000x128.size gathers_S10000x128_S40x128.axis)
    (base : ℕ) (hb : base + 40 ≤ 320000) (hgs : ∀ i, gs i = m (xLoc d) i)
    (hlw : ∀ y : Fin 40, lw (ix1 y) = m (rLoc d) (ix1 ⟨base + y.val, by have := y.isLt; omega⟩))
    (hlt : ∀ e : Fin 320000, ((m (rLoc d) : IVec S320000 32) (ix1 e)).toNat < 10000) (y : Fin 40) (k : Fin 128) :
    SparseCore.gatherPayload gathers_S10000x128_S40x128 gs (SparseCore.rows lw hn hin) (ix2 y k)
      = gatherC m d (ix2 (n0 := 320000) (n1 := 256) ⟨base + y.val, by have := y.isLt; omega⟩ ⟨128 + k.val, by have := k.isLt; omega⟩) := by
  rw [gatherPayload_ix2, hgs, gatherC_right]
  refine congrArg (m (xLoc d)) (congrArg (fun r : Fin 10000 => ix2 r k) (Fin.ext ?_))
  show (SparseCore.rows lw hn hin y).val = (rowU (m (rLoc d) (ix1 ⟨base + y.val, _⟩))).val
  rw [rows_val lw hn hin y y.isLt, hlw y, rowU_val (hlt _)]

end Cert.Proof.KB

end
-- ==== Proof.KbOwn.lean ====
/-
  A tile's own storage, opened. The launch hands a tile every semaphore of its own at zero and every buffer of its
  own whole at some contents; the kernel uses twelve of the semaphores (one per row buffer and per copy) and six of
  the buffers (the two index lists and the four row buffers). Each is taken out of the tile's set in turn, leaving
  the rest as a set that can be put back.
-/
import proofs.«206088_g82248623718559_cont_9to1c4b_230_21_alg».proof.Proof.KbPay

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The tile's semaphores -/

/-- The cell of a tile's one-semaphore array. -/
abbrev dcell (d : Dev nD) (c : Fin τ.nSC) (i : Fin τ.nSub) (s : DmaSems sig S_) : GSem nD τ sig := (V d c i, .dma s.sem)

/-- Cells of different semaphores are different. -/
theorem dcell_ne (d : Dev nD) (c : Fin τ.nSC) (i : Fin τ.nSub) {s t : DmaSems sig S_} (h : s.sem ≠ t.sem) :
    dcell d c i s ≠ dcell d c i t := fun e => h (SemLoc.dma.inj (Prod.mk.inj e).2)

/-- A scoped semaphore's cell is among the tile's own. -/
theorem dcell_mem (d : Dev nD) (c : Fin τ.nSC) (i : Fin τ.nSub) (s : DmaSems sig S_)
    (h : (SemLoc.dma s.sem : SemLoc sig).isScoped .scVector = true) : dcell d c i s ∈ ownCells (V d c i) :=
  (mem_ownCells (g := dcell d c i s)).mpr ⟨rfl, h⟩

/-- References of different buffers of a tile are different buffers of the device. -/
theorem dref_ne (c : Fin τ.nSC) (i : Fin τ.nSub) {a b : Ref sig .scVector} (h : a ≠ b) :
    (Proc.scVector c i).devRef a ≠ (Proc.scVector (τ := τ) c i).devRef b := fun e => h (Proc.devRef_injective _ e)

variable (d : Dev nD) (L : grid0.Coords)

set_option maxRecDepth 16384 in
/-- The tile's semaphores at zero: the twelve the kernel uses, and the rest. -/
theorem ownSems0_V :
    (ownSems0 (V d (cV L) (jV L)) : sProp 𝕄)
      = iprop(semVal (dcell d (cV L) (jV L) cc0_scratch7) 0
          ∗ semVal (dcell d (cV L) (jV L) cc0_scratch8) 0
          ∗ semVal (dcell d (cV L) (jV L) cc0_scratch9) 0
          ∗ semVal (dcell d (cV L) (jV L) cc0_scratch10) 0
          ∗ semVal (dcell d (cV L) (jV L) cc0_scratch11) 0
          ∗ semVal (dcell d (cV L) (jV L) cc0_scratch12) 0
          ∗ semVal (dcell d (cV L) (jV L) cc0_scratch13) 0
          ∗ semVal (dcell d (cV L) (jV L) cc0_scratch14) 0
          ∗ semVal (dcell d (cV L) (jV L) cc0_scoped0) 0
          ∗ semVal (dcell d (cV L) (jV L) cc0_scoped1) 0
          ∗ semVal (dcell d (cV L) (jV L) cc0_scoped2) 0
          ∗ semVal (dcell d (cV L) (jV L) cc0_scoped3) 0
          ∗ bigSep (((((((((((((ownCells (V d (cV L) (jV L))).erase (dcell d (cV L) (jV L) cc0_scratch7)).erase (dcell d (cV L) (jV L) cc0_scratch8)).erase (dcell d (cV L) (jV L) cc0_scratch9)).erase (dcell d (cV L) (jV L) cc0_scratch10)).erase (dcell d (cV L) (jV L) cc0_scratch11)).erase (dcell d (cV L) (jV L) cc0_scratch12)).erase (dcell d (cV L) (jV L) cc0_scratch13)).erase (dcell d (cV L) (jV L) cc0_scratch14)).erase (dcell d (cV L) (jV L) cc0_scoped0)).erase (dcell d (cV L) (jV L) cc0_scoped1)).erase (dcell d (cV L) (jV L) cc0_scoped2)).erase (dcell d (cV L) (jV L) cc0_scoped3)) fun g => semVal g 0) := by
  unfold SparseCore.Cfg.ownSems0
  rw [SparseCore.bigSep_erase' (dcell_mem d (cV L) (jV L) cc0_scratch7 (by decide)),
    SparseCore.bigSep_erase' (Finset.mem_erase.mpr ⟨dcell_ne d (cV L) (jV L) (by decide), dcell_mem d (cV L) (jV L) cc0_scratch8 (by decide)⟩),
    SparseCore.bigSep_erase' (Finset.mem_erase.mpr ⟨dcell_ne d (cV L) (jV L) (by decide), Finset.mem_erase.mpr ⟨dcell_ne d (cV L) (jV L) (by decide), dcell_mem d (cV L) (jV L) cc0_scratch9 (by decide)⟩⟩),
    SparseCore.bigSep_erase' (Finset.mem_erase.mpr ⟨dcell_ne d (cV L) (jV L) (by decide), Finset.mem_erase.mpr ⟨dcell_ne d (cV L) (jV L) (by decide), Finset.mem_erase.mpr ⟨dcell_ne d (cV L) (jV L) (by decide), dcell_mem d (cV L) (jV L) cc0_scratch10 (by decide)⟩⟩⟩),
    SparseCore.bigSep_erase' (Finset.mem_erase.mpr ⟨dcell_ne d (cV L) (jV L) (by decide), Finset.mem_erase.mpr ⟨dcell_ne d (cV L) (jV L) (by decide), Finset.mem_erase.mpr ⟨dcell_ne d (cV L) (jV L) (by decide), Finset.mem_erase.mpr ⟨dcell_ne d (cV L) (jV L) (by decide), dcell_mem d (cV L) (jV L) cc0_scratch11 (by decide)⟩⟩⟩⟩),
    SparseCore.bigSep_erase' (Finset.mem_erase.mpr ⟨dcell_ne d (cV L) (jV L) (by decide), Finset.mem_erase.mpr ⟨dcell_ne d (cV L) (jV L) (by decide), Finset.mem_erase.mpr ⟨dcell_ne d (cV L) (jV L) (by decide), Finset.mem_erase.mpr ⟨dcell_ne d (cV L) (jV L) (by decide), Finset.mem_erase.mpr ⟨dcell_ne d (cV L) (jV L) (by decide), dcell_mem d (cV L) (jV L) cc0_scratch12 (by decide)⟩⟩⟩⟩⟩),
    SparseCore.bigSep_erase' (Finset.mem_erase.mpr ⟨dcell_ne d (cV L) (jV L) (by decide), Finset.mem_erase.mpr ⟨dcell_ne d (cV L) (jV L) (by decide), Finset.mem_erase.mpr ⟨dcell_ne d (cV L) (jV L) (by decide), Finset.mem_erase.mpr ⟨dcell_ne d (cV L) (jV L) (by decide), Finset.mem_erase.mpr ⟨dcell_ne d (cV L) (jV L) (by decide), Finset.mem_erase.mpr ⟨dcell_ne d (cV L) (jV L) (by decide), dcell_mem d (cV L) (jV L) cc0_scratch13 (by decide)⟩⟩⟩⟩⟩⟩),
    SparseCore.bigSep_erase' (Finset.mem_erase.mpr ⟨dcell_ne d (cV L) (jV L) (by decide), Finset.mem_erase.mpr ⟨dcell_ne d (cV L) (jV L) (by decide), Finset.mem_erase.mpr ⟨dcell_ne d (cV L) (jV L) (by decide), Finset.mem_erase.mpr ⟨dcell_ne d (cV L) (jV L) (by decide), Finset.mem_erase.mpr ⟨dcell_ne d (cV L) (jV L) (by decide), Finset.mem_erase.mpr ⟨dcell_ne d (cV L) (jV L) (by decide), Finset.mem_erase.mpr ⟨dcell_ne d (cV L) (jV L) (by decide), dcell_mem d (cV L) (jV L) cc0_scratch14 (by decide)⟩⟩⟩⟩⟩⟩⟩),
    SparseCore.bigSep_erase' (Finset.mem_erase.mpr ⟨dcell_ne d (cV L) (jV L) (by decide), Finset.mem_erase.mpr ⟨dcell_ne d (cV L) (jV L) (by decide), Finset.mem_erase.mpr ⟨dcell_ne d (cV L) (jV L) (by decide), Finset.mem_erase.mpr ⟨dcell_ne d (cV L) (jV L) (by decide), Finset.mem_erase.mpr ⟨dcell_ne d (cV L) (jV L) (by decide), Finset.mem_erase.mpr ⟨dcell_ne d (cV L) (jV L) (by decide), Finset.mem_erase.mpr ⟨dcell_ne d (cV L) (jV L) (by decide), Finset.mem_erase.mpr ⟨dcell_ne d (cV L) (jV L) (by decide), dcell_mem d (cV L) (jV L) cc0_scoped0 (by decide)⟩⟩⟩⟩⟩⟩⟩⟩),
    SparseCore.bigSep_erase' (Finset.mem_erase.mpr ⟨dcell_ne d (cV L) (jV L) (by decide), Finset.mem_erase.mpr ⟨dcell_ne d (cV L) (jV L) (by decide), Finset.mem_erase.mpr ⟨dcell_ne d (cV L) (jV L) (by decide), Finset.mem_erase.mpr ⟨dcell_ne d (cV L) (jV L) (by decide), Finset.mem_erase.mpr ⟨dcell_ne d (cV L) (jV L) (by decide), Finset.mem_erase.mpr ⟨dcell_ne d (cV L) (jV L) (by decide), Finset.mem_erase.mpr ⟨dcell_ne d (cV L) (jV L) (by decide), Finset.mem_erase.mpr ⟨dcell_ne d (cV L) (jV L) (by decide), Finset.mem_erase.mpr ⟨dcell_ne d (cV L) (jV L) (by decide), dcell_mem d (cV L) (jV L) cc0_scoped1 (by decide)⟩⟩⟩⟩⟩⟩⟩⟩⟩),
    SparseCore.bigSep_erase' (Finset.mem_erase.mpr ⟨dcell_ne d (cV L) (jV L) (by decide), Finset.mem_erase.mpr ⟨dcell_ne d (cV L) (jV L) (by decide), Finset.mem_erase.mpr ⟨dcell_ne d (cV L) (jV L) (by decide), Finset.mem_erase.mpr ⟨dcell_ne d (cV L) (jV L) (by decide), Finset.mem_erase.mpr ⟨dcell_ne d (cV L) (jV L) (by decide), Finset.mem_erase.mpr ⟨dcell_ne d (cV L) (jV L) (by decide), Finset.mem_erase.mpr ⟨dcell_ne d (cV L) (jV L) (by decide), Finset.mem_erase.mpr ⟨dcell_ne d (cV L) (jV L) (by decide), Finset.mem_erase.mpr ⟨dcell_ne d (cV L) (jV L) (by decide), Finset.mem_erase.mpr ⟨dcell_ne d (cV L) (jV L) (by decide), dcell_mem d (cV L) (jV L) cc0_scoped2 (by decide)⟩⟩⟩⟩⟩⟩⟩⟩⟩⟩),
    SparseCore.bigSep_erase' (Finset.mem_erase.mpr ⟨dcell_ne d (cV L) (jV L) (by decide), Finset.mem_erase.mpr ⟨dcell_ne d (cV L) (jV L) (by decide), Finset.mem_erase.mpr ⟨dcell_ne d (cV L) (jV L) (by decide), Finset.mem_erase.mpr ⟨dcell_ne d (cV L) (jV L) (by decide), Finset.mem_erase.mpr ⟨dcell_ne d (cV L) (jV L) (by decide), Finset.mem_erase.mpr ⟨dcell_ne d (cV L) (jV L) (by decide), Finset.mem_erase.mpr ⟨dcell_ne d (cV L) (jV L) (by decide), Finset.mem_erase.mpr ⟨dcell_ne d (cV L) (jV L) (by decide), Finset.mem_erase.mpr ⟨dcell_ne d (cV L) (jV L) (by decide), Finset.mem_erase.mpr ⟨dcell_ne d (cV L) (jV L) (by decide), Finset.mem_erase.mpr ⟨dcell_ne d (cV L) (jV L) (by decide), dcell_mem d (cV L) (jV L) cc0_scoped3 (by decide)⟩⟩⟩⟩⟩⟩⟩⟩⟩⟩⟩)]

/-! ## The tile's buffers -/

/-- The tile's buffers whole at some contents: the two index lists and the four row buffers, and the rest. -/
theorem ownBufs_V :
    (ownBufs (V d (cV L) (jV L)) : sProp 𝕄)
      = iprop((∃ f, (V d (cV L) (jV L)).loc cc0_scratch1 ↦{fullShare} f)
          ∗ (∃ f, (V d (cV L) (jV L)).loc cc0_scratch2 ↦{fullShare} f)
          ∗ (∃ f, (V d (cV L) (jV L)).loc cc0_scratch3 ↦{fullShare} f)
          ∗ (∃ f, (V d (cV L) (jV L)).loc cc0_scratch4 ↦{fullShare} f)
          ∗ (∃ f, (V d (cV L) (jV L)).loc cc0_scratch5 ↦{fullShare} f)
          ∗ (∃ f, (V d (cV L) (jV L)).loc cc0_scratch6 ↦{fullShare} f)
          ∗ bigSep (((((((ownRefs (τ := τ) (.scVector (cV L) (jV L))).erase ((Proc.scVector (cV L) (jV L)).devRef cc0_scratch1)).erase ((Proc.scVector (cV L) (jV L)).devRef cc0_scratch2)).erase ((Proc.scVector (cV L) (jV L)).devRef cc0_scratch3)).erase ((Proc.scVector (cV L) (jV L)).devRef cc0_scratch4)).erase ((Proc.scVector (cV L) (jV L)).devRef cc0_scratch5)).erase ((Proc.scVector (cV L) (jV L)).devRef cc0_scratch6))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L)) (b := (Proc.scVector (cV L) (jV L)).devRef cc0_scratch1) rfl)).trans ?_
  rw [SparseCore.bigSep_erase' (Finset.mem_erase.mpr ⟨dref_ne (cV L) (jV L) (by decide), SparseCore.Cfg.mem_ownRefs_of_owner (p := Proc.scVector (cV L) (jV L)) (b := (Proc.scVector (cV L) (jV L)).devRef cc0_scratch2) rfl⟩),
    SparseCore.bigSep_erase' (Finset.mem_erase.mpr ⟨dref_ne (cV L) (jV L) (by decide), Finset.mem_erase.mpr ⟨dref_ne (cV L) (jV L) (by decide), SparseCore.Cfg.mem_ownRefs_of_owner (p := Proc.scVector (cV L) (jV L)) (b := (Proc.scVector (cV L) (jV L)).devRef cc0_scratch3) rfl⟩⟩),
    SparseCore.bigSep_erase' (Finset.mem_erase.mpr ⟨dref_ne (cV L) (jV L) (by decide), Finset.mem_erase.mpr ⟨dref_ne (cV L) (jV L) (by decide), Finset.mem_erase.mpr ⟨dref_ne (cV L) (jV L) (by decide), SparseCore.Cfg.mem_ownRefs_of_owner (p := Proc.scVector (cV L) (jV L)) (b := (Proc.scVector (cV L) (jV L)).devRef cc0_scratch4) rfl⟩⟩⟩),
    SparseCore.bigSep_erase' (Finset.mem_erase.mpr ⟨dref_ne (cV L) (jV L) (by decide), Finset.mem_erase.mpr ⟨dref_ne (cV L) (jV L) (by decide), Finset.mem_erase.mpr ⟨dref_ne (cV L) (jV L) (by decide), Finset.mem_erase.mpr ⟨dref_ne (cV L) (jV L) (by decide), SparseCore.Cfg.mem_ownRefs_of_owner (p := Proc.scVector (cV L) (jV L)) (b := (Proc.scVector (cV L) (jV L)).devRef cc0_scratch5) rfl⟩⟩⟩⟩),
    SparseCore.bigSep_erase' (Finset.mem_erase.mpr ⟨dref_ne (cV L) (jV L) (by decide), Finset.mem_erase.mpr ⟨dref_ne (cV L) (jV L) (by decide), Finset.mem_erase.mpr ⟨dref_ne (cV L) (jV L) (by decide), Finset.mem_erase.mpr ⟨dref_ne (cV L) (jV L) (by decide), Finset.mem_erase.mpr ⟨dref_ne (cV L) (jV L) (by decide), SparseCore.Cfg.mem_ownRefs_of_owner (p := Proc.scVector (cV L) (jV L)) (b := (Proc.scVector (cV L) (jV L)).devRef cc0_scratch6) rfl⟩⟩⟩⟩⟩)]

end Cert.Proof.KB

end
-- ==== Proof.KbChunks.lean ====
/-
  The chunks of a tile's part of the gathered array, in the order the tile writes them.

  A part is 250 chunks of 40 rows, each in two halves of 128 columns. The tile writes chunks 0 and 1 before its loop
  and chunks 2 k + 2 and 2 k + 3 in trip k, for k = 0 … 123. So the chunks still to be written at the head of trip k
  are those from 2 k + 2 on, and the chunks done are those below 2 k; each set loses, or gains, four halves per trip.
-/
import proofs.«206088_g82248623718559_cont_9to1c4b_230_21_alg».proof.Proof.KbGeom
import proofs.«206088_g82248623718559_cont_9to1c4b_230_21_alg».proof.Proof.KbPay

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-- A tile's part of the gathered array is its 500 chunk halves. -/
theorem out_chunks (d : Dev nD) (L : grid0.Coords) (f : Buf (Elt F) (oLoc d)) :
    (oLoc d ↦[outSet (wid (cV L) (jV L))]{fullShare} f : sProp 𝕄)
      = bigSep (Finset.univ : Finset (Fin 250 × Fin 2)) fun p => oLoc d ↦[chunkSet L p.1 p.2]{fullShare} f := by
  rw [← pointsTo_biUnion Finset.univ (ℓ := oLoc d) (fun p : Fin 250 × Fin 2 => chunkSet L p.1 p.2) (chunkSet_disjoint L), chunkSet_cover]

/-- The loop runs 124 times. -/
theorem trips_eq : k0_t1_loop.trips = 124 := by decide

/-! ## The chunk halves still to be written, and those done -/

/-- At the head of trip k: the halves of the chunks from 2 k + 2 on. -/
def remCh (k : ℕ) : Finset (Fin 250 × Fin 2) := Finset.univ.filter fun p => 2 * k + 2 ≤ p.1.val
/-- At the head of trip k: the halves of the chunks below 2 k. -/
def doneCh (k : ℕ) : Finset (Fin 250 × Fin 2) := Finset.univ.filter fun p => p.1.val < 2 * k

/-- A chunk half is named by its two numbers. -/
theorem mem_pair (p : Fin 250 × Fin 2) (j : Fin 250) (h : Fin 2) : p = (j, h) ↔ p.1.val = j.val ∧ p.2.val = h.val :=
  ⟨fun e => e ▸ ⟨rfl, rfl⟩, fun ⟨h1, h2⟩ => Prod.ext (Fin.ext h1) (Fin.ext h2)⟩

/-- Four elements taken out of a finite separating conjunction. -/
theorem bigSep_four {M : Type} [URA M] {I : Type} [DecidableEq I] (Φ : I → sProp M) (a b c e : I) (t s : Finset I)
    (hs : s = insert a (insert b (insert c (insert e t)))) (ha : a ∉ insert b (insert c (insert e t))) (hb : b ∉ insert c (insert e t))
    (hc : c ∉ insert e t) (he : e ∉ t) :
    bigSep s Φ = iprop(Φ a ∗ Φ b ∗ Φ c ∗ Φ e ∗ bigSep t Φ) := by
  subst hs
  rw [SparseCore.bigSep_insert' ha, SparseCore.bigSep_insert' hb, SparseCore.bigSep_insert' hc, SparseCore.bigSep_insert' he]

/-- All the halves: chunks 0 and 1, written before the loop, and the rest. -/
theorem bigSep_chunks_start {M : Type} [URA M] (Φ : Fin 250 × Fin 2 → sProp M) :
    bigSep Finset.univ Φ
      = iprop(Φ (⟨0, by omega⟩, 0) ∗ Φ (⟨0, by omega⟩, 1) ∗ Φ (⟨1, by omega⟩, 0) ∗ Φ (⟨1, by omega⟩, 1) ∗ bigSep (remCh 0) Φ) :=
  bigSep_four Φ _ _ _ _ (remCh 0) Finset.univ
    (by
    have h0 : ((0 : Fin 2) : ℕ) = 0 := rfl
    have h1 : ((1 : Fin 2) : ℕ) = 1 := rfl
    ext p
    have hp2 := p.2.isLt
    have hp1 := p.1.isLt
    simp only [Finset.mem_insert, Finset.mem_filter, Finset.mem_univ, _root_.true_and, mem_pair, remCh, doneCh]
    constructor
    · intro hh; omega
    · intro hh; first | trivial | omega)
    (by
    have h0 : ((0 : Fin 2) : ℕ) = 0 := rfl
    have h1 : ((1 : Fin 2) : ℕ) = 1 := rfl
    simp only [Finset.mem_insert, Finset.mem_filter, Finset.mem_univ, _root_.true_and, mem_pair, remCh, doneCh, not_or]
    omega)
    (by
    have h0 : ((0 : Fin 2) : ℕ) = 0 := rfl
    have h1 : ((1 : Fin 2) : ℕ) = 1 := rfl
    simp only [Finset.mem_insert, Finset.mem_filter, Finset.mem_univ, _root_.true_and, mem_pair, remCh, doneCh, not_or]
    omega)
    (by
    have h0 : ((0 : Fin 2) : ℕ) = 0 := rfl
    have h1 : ((1 : Fin 2) : ℕ) = 1 := rfl
    simp only [Finset.mem_insert, Finset.mem_filter, Finset.mem_univ, _root_.true_and, mem_pair, remCh, doneCh, not_or]
    omega)
    (by
    have h0 : ((0 : Fin 2) : ℕ) = 0 := rfl
    have h1 : ((1 : Fin 2) : ℕ) = 1 := rfl
    simp only [Finset.mem_insert, Finset.mem_filter, Finset.mem_univ, _root_.true_and, mem_pair, remCh, doneCh, not_or]
    omega)

/-- Trip k writes chunks 2 k + 2 and 2 k + 3. -/
theorem bigSep_remCh_step {M : Type} [URA M] (Φ : Fin 250 × Fin 2 → sProp M) (k : ℕ) (h : k < 124) :
    bigSep (remCh k) Φ
      = iprop(Φ (⟨2 * k + 2, by omega⟩, 0) ∗ Φ (⟨2 * k + 2, by omega⟩, 1) ∗ Φ (⟨2 * k + 3, by omega⟩, 0) ∗ Φ (⟨2 * k + 3, by omega⟩, 1)
          ∗ bigSep (remCh (k + 1)) Φ) :=
  bigSep_four Φ _ _ _ _ (remCh (k + 1)) (remCh k)
    (by
    have h0 : ((0 : Fin 2) : ℕ) = 0 := rfl
    have h1 : ((1 : Fin 2) : ℕ) = 1 := rfl
    ext p
    have hp2 := p.2.isLt
    have hp1 := p.1.isLt
    simp only [Finset.mem_insert, Finset.mem_filter, Finset.mem_univ, _root_.true_and, mem_pair, remCh, doneCh]
    constructor
    · intro hh; omega
    · intro hh; first | trivial | omega)
    (by
    have h0 : ((0 : Fin 2) : ℕ) = 0 := rfl
    have h1 : ((1 : Fin 2) : ℕ) = 1 := rfl
    simp only [Finset.mem_insert, Finset.mem_filter, Finset.mem_univ, _root_.true_and, mem_pair, remCh, doneCh, not_or]
    omega)
    (by
    have h0 : ((0 : Fin 2) : ℕ) = 0 := rfl
    have h1 : ((1 : Fin 2) : ℕ) = 1 := rfl
    simp only [Finset.mem_insert, Finset.mem_filter, Finset.mem_univ, _root_.true_and, mem_pair, remCh, doneCh, not_or]
    omega)
    (by
    have h0 : ((0 : Fin 2) : ℕ) = 0 := rfl
    have h1 : ((1 : Fin 2) : ℕ) = 1 := rfl
    simp only [Finset.mem_insert, Finset.mem_filter, Finset.mem_univ, _root_.true_and, mem_pair, remCh, doneCh, not_or]
    omega)
    (by
    have h0 : ((0 : Fin 2) : ℕ) = 0 := rfl
    have h1 : ((1 : Fin 2) : ℕ) = 1 := rfl
    simp only [Finset.mem_insert, Finset.mem_filter, Finset.mem_univ, _root_.true_and, mem_pair, remCh, doneCh, not_or]
    omega)

/-- After the last trip nothing is left to write. -/
theorem remCh_end : remCh 124 = ∅ :=
  Finset.eq_empty_of_forall_notMem fun p hp => by
    have h := (Finset.mem_filter.1 hp).2
    have := p.1.isLt
    omega

theorem bigSep_remCh_end {M : Type} [URA M] (Φ : Fin 250 × Fin 2 → sProp M) : bigSep (remCh 124) Φ = (BI.emp : sProp M) := by
  rw [remCh_end, bigSep_empty]

/-- Before the first trip nothing is done. -/
theorem doneCh_zero : doneCh 0 = ∅ :=
  Finset.eq_empty_of_forall_notMem fun p hp => by
    have h := (Finset.mem_filter.1 hp).2
    omega

/-- By the head of trip k + 1 chunks 2 k and 2 k + 1 are done as well. -/
theorem bigSep_doneCh_step {M : Type} [URA M] (Φ : Fin 250 × Fin 2 → sProp M) (k : ℕ) (h : k < 125) :
    bigSep (doneCh (k + 1)) Φ
      = iprop(Φ (⟨2 * k, by omega⟩, 0) ∗ Φ (⟨2 * k, by omega⟩, 1) ∗ Φ (⟨2 * k + 1, by omega⟩, 0) ∗ Φ (⟨2 * k + 1, by omega⟩, 1)
          ∗ bigSep (doneCh k) Φ) :=
  bigSep_four Φ _ _ _ _ (doneCh k) (doneCh (k + 1))
    (by
    have h0 : ((0 : Fin 2) : ℕ) = 0 := rfl
    have h1 : ((1 : Fin 2) : ℕ) = 1 := rfl
    ext p
    have hp2 := p.2.isLt
    have hp1 := p.1.isLt
    simp only [Finset.mem_insert, Finset.mem_filter, Finset.mem_univ, _root_.true_and, mem_pair, remCh, doneCh]
    constructor
    · intro hh; omega
    · intro hh; first | trivial | omega)
    (by
    have h0 : ((0 : Fin 2) : ℕ) = 0 := rfl
    have h1 : ((1 : Fin 2) : ℕ) = 1 := rfl
    simp only [Finset.mem_insert, Finset.mem_filter, Finset.mem_univ, _root_.true_and, mem_pair, remCh, doneCh, not_or]
    omega)
    (by
    have h0 : ((0 : Fin 2) : ℕ) = 0 := rfl
    have h1 : ((1 : Fin 2) : ℕ) = 1 := rfl
    simp only [Finset.mem_insert, Finset.mem_filter, Finset.mem_univ, _root_.true_and, mem_pair, remCh, doneCh, not_or]
    omega)
    (by
    have h0 : ((0 : Fin 2) : ℕ) = 0 := rfl
    have h1 : ((1 : Fin 2) : ℕ) = 1 := rfl
    simp only [Finset.mem_insert, Finset.mem_filter, Finset.mem_univ, _root_.true_and, mem_pair, remCh, doneCh, not_or]
    omega)
    (by
    have h0 : ((0 : Fin 2) : ℕ) = 0 := rfl
    have h1 : ((1 : Fin 2) : ℕ) = 1 := rfl
    simp only [Finset.mem_insert, Finset.mem_filter, Finset.mem_univ, _root_.true_and, mem_pair, remCh, doneCh, not_or]
    omega)

/-- In the end every chunk is done. -/
theorem doneCh_end : doneCh 125 = Finset.univ :=
  Finset.filter_true_of_mem fun p _ => by have := p.1.isLt; omega

end Cert.Proof.KB

end
-- ==== Proof.KbChunk.lean ====
/-
  The gathered rows, written out. A row buffer filled by a gather through the 40-entry window at offset 40 j of one of
  the tile's lists holds the gathered array's entries of rows 10000 w + 40 j … + 39 in one half of the columns; copied
  out to that chunk of the gathered array, the chunk holds the gathered array there.
-/
import proofs.«206088_g82248623718559_cont_9to1c4b_230_21_alg».proof.Proof.KbGather

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

local notation "nV" => (Memref.whole Cert.Kernel.main_arg0_scv : Memref Cert.Kernel.sig Kind.scVector Space.hbm Cert.Kernel.S10000x128 EltTy.f32)
local notation "sV" => (Memref.whole Cert.Kernel.main_arg6_scv : Memref Cert.Kernel.sig Kind.scVector Space.hbm Cert.Kernel.S320000 EltTy.i32)
local notation "rV" => (Memref.whole Cert.Kernel.main_arg7_scv : Memref Cert.Kernel.sig Kind.scVector Space.hbm Cert.Kernel.S320000 EltTy.i32)
local notation "oV" => (Memref.whole Cert.Kernel.main_v9_scv : Memref Cert.Kernel.sig Kind.scVector Space.hbm Cert.Kernel.S320000x256 EltTy.f32)
local notation "shV" => (Memref.whole Cert.Kernel.cc0_scratch0 : Memref Cert.Kernel.sig Kind.scVector Space.shared Cert.Kernel.S10000x128 EltTy.f32)
local notation "isV" => (Memref.whole Cert.Kernel.cc0_scratch1 : Memref Cert.Kernel.sig Kind.scVector Space.vmem Cert.Kernel.S10000 EltTy.i32)
local notation "irV" => (Memref.whole Cert.Kernel.cc0_scratch2 : Memref Cert.Kernel.sig Kind.scVector Space.vmem Cert.Kernel.S10000 EltTy.i32)
local notation "b0V" => (Memref.whole Cert.Kernel.cc0_scratch3 : Memref Cert.Kernel.sig Kind.scVector Space.vmem Cert.Kernel.S40x128 EltTy.f32)
local notation "b1V" => (Memref.whole Cert.Kernel.cc0_scratch4 : Memref Cert.Kernel.sig Kind.scVector Space.vmem Cert.Kernel.S40x128 EltTy.f32)
local notation "b2V" => (Memref.whole Cert.Kernel.cc0_scratch5 : Memref Cert.Kernel.sig Kind.scVector Space.vmem Cert.Kernel.S40x128 EltTy.f32)
local notation "b3V" => (Memref.whole Cert.Kernel.cc0_scratch6 : Memref Cert.Kernel.sig Kind.scVector Space.vmem Cert.Kernel.S40x128 EltTy.f32)

/-- A buffer written whole through a view and read back through it is what was written. -/
theorem read_whole_piece {κ : Kind} {sp : Space} {s : Shape} {e : EltTy} (v : View sig κ sp s e) (f : v.ty.Contents (Elt F))
    (G : s.Idx → Elt F e) (x : s.Idx) :
    v.read (Elt F) (v.writes (Elt F) f [⟨Rect.whole s, G⟩]) x = G x := by
  have h := View.read_writes_cons_emb v f (Rect.whole s) G [] x
  rwa [Rect.emb_whole_apply] at h

variable [FloatOps F] (m : (ℓ : Loc nD τ sig) → Buf (Elt F) ℓ) (d : Dev nD) (L : grid0.Coords)

/-! ## What a gather leaves in a row buffer -/

/-- A gather through the 40-entry window at offset 40 j of the tile's senders list, from the shared table holding the
    node table: at (y, k) it is the gathered array's entry (10000 w + 40 j + y, k). -/
theorem gathered_s (off1 : Fin 1 → ℕ) (inb1 : ∀ a, off1 a + S40.size a ≤ S10000.size a) (j : ℕ) (hoff1 : off1 = ![40 * j])
    (hj : 40 * j + 40 ≤ 10000)
    (fl : Buf (Elt F) ((V d (cV L) (jV L)).loc cc0_scratch1)) (pay : S10000.Idx → Elt F .i32)
    (hpay : pay = ReadAs.same.apply (View.read (Elt F) ((sV).slice (Rect.unit (s := S320000) (k0_off2 L) S10000.size (k0_off2_inb L)) (fun _ => rfl)).view (m (sLoc d))))
    (hn : S40.numel = S40x128.size gathers_S10000x128_S40x128.axis')
    (hin : ∀ x, ((View.read (Elt F) ((isV).slice (Rect.unit (s := S10000) off1 S40.size inb1) (fun _ => rfl)).view
      (View.write (Elt F) (isV).view fl pay Finset.univ)) x).toNat < S10000x128.size gathers_S10000x128_S40x128.axis)
    (hlt : ∀ e : Fin 320000, ((m (sLoc d) : IVec S320000 32) (ix1 e)).toNat < 10000) (y : Fin 40) (k : Fin 128) :
    SparseCore.gatherPayload gathers_S10000x128_S40x128
        (View.read (Elt F) ((shV).slice (Rect.unit (s := S10000x128) ![0, 0] S10000x128.size inb_S10000x128_S10000x128_0_0) (fun _ => rfl)).view (nodesSh m d (cV L)))
        (SparseCore.rows (View.read (Elt F) ((isV).slice (Rect.unit (s := S10000) off1 S40.size inb1) (fun _ => rfl)).view
          (View.write (Elt F) (isV).view fl pay Finset.univ)) hn hin) (ix2 y k)
      = gatherC m d (ix2 (n0 := 320000) (n1 := 256)
          ⟨10000 * (2 * (L 1).val + (L 0).val) + 40 * j + y.val, by have := L0_lt L; have := L1_lt L; have := y.isLt; omega⟩
          ⟨k.val, by have := k.isLt; omega⟩) := by
  subst hoff1
  refine gathered_left m d _ _ hn hin (10000 * (2 * (L 1).val + (L 0).val) + 40 * j)
    (by have := L0_lt L; have := L1_lt L; omega) (fun i => sh_read_whole _ _ _ i) (fun y' => ?_) hlt y k
  refine (win_read_s _ _ inb1 _ y').trans ((s_list_apply m d L fl pay hpay _).trans ?_)
  refine congrArg (m (sLoc d)) (congrArg ix1 (Fin.ext ?_))
  show 10000 * (2 * (L 1).val + (L 0).val) + (40 * j + y'.val) = 10000 * (2 * (L 1).val + (L 0).val) + 40 * j + y'.val
  omega

/-- A gather through the 40-entry window at offset 40 j of the tile's receivers list, from the shared table holding the
    node table: at (y, k) it is the gathered array's entry (10000 w + 40 j + y, 128 + k). -/
theorem gathered_r (off1 : Fin 1 → ℕ) (inb1 : ∀ a, off1 a + S40.size a ≤ S10000.size a) (j : ℕ) (hoff1 : off1 = ![40 * j])
    (hj : 40 * j + 40 ≤ 10000)
    (fl : Buf (Elt F) ((V d (cV L) (jV L)).loc cc0_scratch2)) (pay : S10000.Idx → Elt F .i32)
    (hpay : pay = ReadAs.same.apply (View.read (Elt F) ((rV).slice (Rect.unit (s := S320000) (k0_off2 L) S10000.size (k0_off2_inb L)) (fun _ => rfl)).view (m (rLoc d))))
    (hn : S40.numel = S40x128.size gathers_S10000x128_S40x128.axis')
    (hin : ∀ x, ((View.read (Elt F) ((irV).slice (Rect.unit (s := S10000) off1 S40.size inb1) (fun _ => rfl)).view
      (View.write (Elt F) (irV).view fl pay Finset.univ)) x).toNat < S10000x128.size gathers_S10000x128_S40x128.axis)
    (hlt : ∀ e : Fin 320000, ((m (rLoc d) : IVec S320000 32) (ix1 e)).toNat < 10000) (y : Fin 40) (k : Fin 128) :
    SparseCore.gatherPayload gathers_S10000x128_S40x128
        (View.read (Elt F) ((shV).slice (Rect.unit (s := S10000x128) ![0, 0] S10000x128.size inb_S10000x128_S10000x128_0_0) (fun _ => rfl)).view (nodesSh m d (cV L)))
        (SparseCore.rows (View.read (Elt F) ((irV).slice (Rect.unit (s := S10000) off1 S40.size inb1) (fun _ => rfl)).view
          (View.write (Elt F) (irV).view fl pay Finset.univ)) hn hin) (ix2 y k)
      = gatherC m d (ix2 (n0 := 320000) (n1 := 256)
          ⟨10000 * (2 * (L 1).val + (L 0).val) + 40 * j + y.val, by have := L0_lt L; have := L1_lt L; have := y.isLt; omega⟩
          ⟨128 + k.val, by have := k.isLt; omega⟩) := by
  subst hoff1
  refine gathered_right m d _ _ hn hin (10000 * (2 * (L 1).val + (L 0).val) + 40 * j)
    (by have := L0_lt L; have := L1_lt L; omega) (fun i => sh_read_whole _ _ _ i) (fun y' => ?_) hlt y k
  refine (win_read_r _ _ inb1 _ y').trans ((r_list_apply m d L fl pay hpay _).trans ?_)
  refine congrArg (m (rLoc d)) (congrArg ix1 (Fin.ext ?_))
  show 10000 * (2 * (L 1).val + (L 0).val) + (40 * j + y'.val) = 10000 * (2 * (L 1).val + (L 0).val) + 40 * j + y'.val
  omega

/-! ## What the copy out leaves in the chunk -/

/-- Chunk j, half h of the tile's part, written whole with what a row buffer holds after it was written whole with G,
    where G is the gathered array on that chunk: the chunk holds the gathered array. -/
theorem chunk_restate (bM : Memref sig .scVector .vmem S40x128 .f32) (f : bM.view.ty.Contents (Elt F)) (G : S40x128.Idx → Elt F .f32)
    (go : Buf (Elt F) (oLoc d)) (off2 : Fin 2 → ℕ) (inb2 : ∀ a, off2 a + S40x128.size a ≤ S320000x256.size a)
    (j : Fin 250) (h : Fin 2)
    (h0 : off2 0 = 10000 * (2 * (L 1).val + (L 0).val) + 40 * j.val) (h1 : off2 1 = 128 * h.val)
    (hG : ∀ (y : Fin 40) (k : Fin 128), G (ix2 y k) = gatherC m d (ix2 (n0 := 320000) (n1 := 256)
      ⟨10000 * (2 * (L 1).val + (L 0).val) + 40 * j.val + y.val, by have := L0_lt L; have := L1_lt L; have := j.isLt; have := y.isLt; omega⟩
      ⟨128 * h.val + k.val, by have := h.isLt; have := k.isLt; omega⟩)) :
    ((((oV).slice (Rect.unit (s := S320000x256) off2 S40x128.size inb2) (fun _ => rfl)).view.loc (V d (cV L) (jV L)) ↦[((oV).slice (Rect.unit (s := S320000x256) off2 S40x128.size inb2) (fun _ => rfl)).view.set]{fullShare}
        ((oV).slice (Rect.unit (s := S320000x256) off2 S40x128.size inb2) (fun _ => rfl)).view.writes (Elt F) go
          [⟨Rect.whole S40x128, ReadAs.same.apply (View.read (Elt F) bM.view (bM.view.writes (Elt F) f [⟨Rect.whole S40x128, G⟩]))⟩]) : sProp 𝕄)
      = (oLoc d ↦[chunkSet L j h]{fullShare} gatherC m d) := by
  have hset : ((oV).slice (Rect.unit (s := S320000x256) off2 S40x128.size inb2) (fun _ => rfl)).view.set = chunkSet L j h := by
    ext i
    rw [show ((oV).slice (Rect.unit (s := S320000x256) off2 S40x128.size inb2) (fun _ => rfl)).view.set = (Rect.unit (s := S320000x256) off2 S40x128.size inb2).set from oV_slice_set _, mem_unit2, mem_chunkSet, h0, h1]
    rfl
  show (oLoc d ↦[((oV).slice (Rect.unit (s := S320000x256) off2 S40x128.size inb2) (fun _ => rfl)).view.set]{fullShare} _ : sProp 𝕄) = _
  rw [hset]
  refine pointsTo_congr fun i hi => ?_
  rw [← hset] at hi
  obtain ⟨x, rfl⟩ := View.exists_emb_of_mem_set ((oV).slice (Rect.unit (s := S320000x256) off2 S40x128.size inb2) (fun _ => rfl)).view hi
  obtain ⟨y, k, rfl⟩ : ∃ (y : Fin 40) (k : Fin 128), x = ix2 y k := ⟨x 0, x 1, eq_ix2 x⟩
  have e1 := read_whole_piece (F := F) ((oV).slice (Rect.unit (s := S320000x256) off2 S40x128.size inb2) (fun _ => rfl)).view go
    (ReadAs.same.apply (View.read (Elt F) bM.view (bM.view.writes (Elt F) f [⟨Rect.whole S40x128, G⟩]))) (ix2 y k)
  refine ((cast_eq _ _).symm.trans ((View.read_apply _ _).symm.trans e1)).trans ?_
  refine (read_whole_piece (F := F) bM.view f G (ix2 y k)).trans ((hG y k).trans (congrArg (gatherC m d) (funext fun a => Fin.ext ?_)))
  match a with
  | ⟨0, _⟩ =>
    show 10000 * (2 * (L 1).val + (L 0).val) + 40 * j.val + y.val = off2 0 + 1 * y.val
    rw [h0]; omega
  | ⟨1, _⟩ =>
    show 128 * h.val + k.val = off2 1 + 1 * k.val
    rw [h1]; omega

/-- The two steps together for the senders list: the chunk's left half holds the gathered array. -/
theorem chunk_s (bM : Memref sig .scVector .vmem S40x128 .f32) (f : bM.view.ty.Contents (Elt F)) (go : Buf (Elt F) (oLoc d))
    (off1 : Fin 1 → ℕ) (inb1 : ∀ a, off1 a + S40.size a ≤ S10000.size a) (j : ℕ) (hoff1 : off1 = ![40 * j]) (hj : 40 * j + 40 ≤ 10000)
    (fl : Buf (Elt F) ((V d (cV L) (jV L)).loc cc0_scratch1)) (pay : S10000.Idx → Elt F .i32)
    (hpay : pay = ReadAs.same.apply (View.read (Elt F) ((sV).slice (Rect.unit (s := S320000) (k0_off2 L) S10000.size (k0_off2_inb L)) (fun _ => rfl)).view (m (sLoc d))))
    (hn : S40.numel = S40x128.size gathers_S10000x128_S40x128.axis')
    (hin : ∀ x, ((View.read (Elt F) ((isV).slice (Rect.unit (s := S10000) off1 S40.size inb1) (fun _ => rfl)).view
      (View.write (Elt F) (isV).view fl pay Finset.univ)) x).toNat < S10000x128.size gathers_S10000x128_S40x128.axis)
    (hlt : ∀ e : Fin 320000, ((m (sLoc d) : IVec S320000 32) (ix1 e)).toNat < 10000)
    (off2 : Fin 2 → ℕ) (inb2 : ∀ a, off2 a + S40x128.size a ≤ S320000x256.size a)
    (h0 : off2 0 = 10000 * (2 * (L 1).val + (L 0).val) + 40 * j) (h1 : off2 1 = 0) :
    ((((oV).slice (Rect.unit (s := S320000x256) off2 S40x128.size inb2) (fun _ => rfl)).view.loc (V d (cV L) (jV L)) ↦[((oV).slice (Rect.unit (s := S320000x256) off2 S40x128.size inb2) (fun _ => rfl)).view.set]{fullShare}
        ((oV).slice (Rect.unit (s := S320000x256) off2 S40x128.size inb2) (fun _ => rfl)).view.writes (Elt F) go
          [⟨Rect.whole S40x128, ReadAs.same.apply (View.read (Elt F) bM.view (bM.view.writes (Elt F) f [⟨Rect.whole S40x128,
            SparseCore.gatherPayload gathers_S10000x128_S40x128
              (View.read (Elt F) ((shV).slice (Rect.unit (s := S10000x128) ![0, 0] S10000x128.size inb_S10000x128_S10000x128_0_0) (fun _ => rfl)).view (nodesSh m d (cV L)))
              (SparseCore.rows (View.read (Elt F) ((isV).slice (Rect.unit (s := S10000) off1 S40.size inb1) (fun _ => rfl)).view
                (View.write (Elt F) (isV).view fl pay Finset.univ)) hn hin)⟩]))⟩]) : sProp 𝕄)
      = (oLoc d ↦[chunkSet L ⟨j, by omega⟩ 0]{fullShare} gatherC m d) := by
  refine chunk_restate m d L bM f _ go off2 inb2 ⟨j, by omega⟩ 0 h0 (h1.trans rfl) (fun y k => ?_)
  refine (gathered_s m d L off1 inb1 j hoff1 hj fl pay hpay hn hin hlt y k).trans
    (congrArg (gatherC m d) (congrArg (ix2 _) (Fin.ext ?_)))
  show k.val = 128 * 0 + k.val
  omega

/-- The two steps together for the receivers list: the chunk's right half holds the gathered array. -/
theorem chunk_r (bM : Memref sig .scVector .vmem S40x128 .f32) (f : bM.view.ty.Contents (Elt F)) (go : Buf (Elt F) (oLoc d))
    (off1 : Fin 1 → ℕ) (inb1 : ∀ a, off1 a + S40.size a ≤ S10000.size a) (j : ℕ) (hoff1 : off1 = ![40 * j]) (hj : 40 * j + 40 ≤ 10000)
    (fl : Buf (Elt F) ((V d (cV L) (jV L)).loc cc0_scratch2)) (pay : S10000.Idx → Elt F .i32)
    (hpay : pay = ReadAs.same.apply (View.read (Elt F) ((rV).slice (Rect.unit (s := S320000) (k0_off2 L) S10000.size (k0_off2_inb L)) (fun _ => rfl)).view (m (rLoc d))))
    (hn : S40.numel = S40x128.size gathers_S10000x128_S40x128.axis')
    (hin : ∀ x, ((View.read (Elt F) ((irV).slice (Rect.unit (s := S10000) off1 S40.size inb1) (fun _ => rfl)).view
      (View.write (Elt F) (irV).view fl pay Finset.univ)) x).toNat < S10000x128.size gathers_S10000x128_S40x128.axis)
    (hlt : ∀ e : Fin 320000, ((m (rLoc d) : IVec S320000 32) (ix1 e)).toNat < 10000)
    (off2 : Fin 2 → ℕ) (inb2 : ∀ a, off2 a + S40x128.size a ≤ S320000x256.size a)
    (h0 : off2 0 = 10000 * (2 * (L 1).val + (L 0).val) + 40 * j) (h1 : off2 1 = 128) :
    ((((oV).slice (Rect.unit (s := S320000x256) off2 S40x128.size inb2) (fun _ => rfl)).view.loc (V d (cV L) (jV L)) ↦[((oV).slice (Rect.unit (s := S320000x256) off2 S40x128.size inb2) (fun _ => rfl)).view.set]{fullShare}
        ((oV).slice (Rect.unit (s := S320000x256) off2 S40x128.size inb2) (fun _ => rfl)).view.writes (Elt F) go
          [⟨Rect.whole S40x128, ReadAs.same.apply (View.read (Elt F) bM.view (bM.view.writes (Elt F) f [⟨Rect.whole S40x128,
            SparseCore.gatherPayload gathers_S10000x128_S40x128
              (View.read (Elt F) ((shV).slice (Rect.unit (s := S10000x128) ![0, 0] S10000x128.size inb_S10000x128_S10000x128_0_0) (fun _ => rfl)).view (nodesSh m d (cV L)))
              (SparseCore.rows (View.read (Elt F) ((irV).slice (Rect.unit (s := S10000) off1 S40.size inb1) (fun _ => rfl)).view
                (View.write (Elt F) (irV).view fl pay Finset.univ)) hn hin)⟩]))⟩]) : sProp 𝕄)
      = (oLoc d ↦[chunkSet L ⟨j, by omega⟩ 1]{fullShare} gatherC m d) := by
  refine chunk_restate m d L bM f _ go off2 inb2 ⟨j, by omega⟩ 1 h0 (h1.trans rfl) (fun y k => ?_)
  refine (gathered_r m d L off1 inb1 j hoff1 hj fl pay hpay hn hin hlt y k).trans
    (congrArg (gatherC m d) (congrArg (ix2 _) (Fin.ext ?_)))
  show 128 + k.val = 128 * 1 + k.val
  omega

end Cert.Proof.KB

end
-- ==== Proof.KbTileLem.lean ====
import proofs.«206088_g82248623718559_cont_9to1c4b_230_21_alg».proof.Proof.KbValue
import proofs.«206088_g82248623718559_cont_9to1c4b_230_21_alg».proof.Proof.KbGather
import proofs.«206088_g82248623718559_cont_9to1c4b_230_21_alg».proof.Proof.KbOwn
import proofs.«206088_g82248623718559_cont_9to1c4b_230_21_alg».proof.Proof.KbCross
import proofs.«206088_g82248623718559_cont_9to1c4b_230_21_alg».proof.Proof.KbChunks
import proofs.«206088_g82248623718559_cont_9to1c4b_230_21_alg».proof.Proof.KbChunk
import Idealize.ShloMosaic.Lib.SparseCore.Stream

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

open Idealize.ShloMosaic.ValueIdx (ix1 ix2)

variable {F : FTy → Type}

local notation "𝕄" => MT nD τ sig (HIx 1) (Elt F) ℕ UU ℕ

local notation "nV" => (Memref.whole Cert.Kernel.main_arg0_scv : Memref Cert.Kernel.sig Kind.scVector Space.hbm Cert.Kernel.S10000x128 EltTy.f32)
local notation "sV" => (Memref.whole Cert.Kernel.main_arg6_scv : Memref Cert.Kernel.sig Kind.scVector Space.hbm Cert.Kernel.S320000 EltTy.i32)
local notation "rV" => (Memref.whole Cert.Kernel.main_arg7_scv : Memref Cert.Kernel.sig Kind.scVector Space.hbm Cert.Kernel.S320000 EltTy.i32)
local notation "oV" => (Memref.whole Cert.Kernel.main_v9_scv : Memref Cert.Kernel.sig Kind.scVector Space.hbm Cert.Kernel.S320000x256 EltTy.f32)
local notation "shV" => (Memref.whole Cert.Kernel.cc0_scratch0 : Memref Cert.Kernel.sig Kind.scVector Space.shared Cert.Kernel.S10000x128 EltTy.f32)
local notation "isV" => (Memref.whole Cert.Kernel.cc0_scratch1 : Memref Cert.Kernel.sig Kind.scVector Space.vmem Cert.Kernel.S10000 EltTy.i32)
local notation "irV" => (Memref.whole Cert.Kernel.cc0_scratch2 : Memref Cert.Kernel.sig Kind.scVector Space.vmem Cert.Kernel.S10000 EltTy.i32)
local notation "b0V" => (Memref.whole Cert.Kernel.cc0_scratch3 : Memref Cert.Kernel.sig Kind.scVector Space.vmem Cert.Kernel.S40x128 EltTy.f32)
local notation "b1V" => (Memref.whole Cert.Kernel.cc0_scratch4 : Memref Cert.Kernel.sig Kind.scVector Space.vmem Cert.Kernel.S40x128 EltTy.f32)
local notation "b2V" => (Memref.whole Cert.Kernel.cc0_scratch5 : Memref Cert.Kernel.sig Kind.scVector Space.vmem Cert.Kernel.S40x128 EltTy.f32)
local notation "b3V" => (Memref.whole Cert.Kernel.cc0_scratch6 : Memref Cert.Kernel.sig Kind.scVector Space.vmem Cert.Kernel.S40x128 EltTy.f32)

variable (m : (ℓ : Loc nD τ sig) → Buf (Elt F) ℓ)

variable [FloatOps F]

variable (d : Dev nD) (L : grid0.Coords)

/-
  The tile's loop: its invariant, and the restatement of a write-out in flight. A row buffer filled by a gather of
  forty consecutive entries of an index list holds forty node rows; copied out to a chunk of the gathered array it
  leaves that chunk holding exactly the gathered array's entries there.
-/

/-! ## The pre-loop output chunks, as the kernel slices them -/

theorem inb3_0 : ∀ a, (k0_off3 L 0#32) a + S40x128.size a ≤ S320000x256.size a := k0_off3_inb L 0
theorem inb3_1 : ∀ a, (k0_off3 L 40#32) a + S40x128.size a ≤ S320000x256.size a := k0_off3_inb L 1
theorem inb4_0 : ∀ a, (k0_off4 L 0#32) a + S40x128.size a ≤ S320000x256.size a := k0_off4_inb L 0
theorem inb4_1 : ∀ a, (k0_off4 L 40#32) a + S40x128.size a ≤ S320000x256.size a := k0_off4_inb L 1
abbrev oC30 : Memref sig .scVector .hbm S40x128 .f32 := (oV).slice (Rect.unit (s := S320000x256) (k0_off3 L 0#32) S40x128.size (inb3_0 L)) (fun _ => rfl)
abbrev oC31 : Memref sig .scVector .hbm S40x128 .f32 := (oV).slice (Rect.unit (s := S320000x256) (k0_off3 L 40#32) S40x128.size (inb3_1 L)) (fun _ => rfl)
abbrev oC40 : Memref sig .scVector .hbm S40x128 .f32 := (oV).slice (Rect.unit (s := S320000x256) (k0_off4 L 0#32) S40x128.size (inb4_0 L)) (fun _ => rfl)
abbrev oC41 : Memref sig .scVector .hbm S40x128 .f32 := (oV).slice (Rect.unit (s := S320000x256) (k0_off4 L 40#32) S40x128.size (inb4_1 L)) (fun _ => rfl)

/-- The loop's output chunks of trip k, as the kernel slices them. -/
abbrev oC60 (k : Fin k0_t1_loop.trips) : Memref sig .scVector .hbm S40x128 .f32 := (oV).slice (Rect.unit (s := S320000x256) (k0_off6 L k 0#32) S40x128.size (k0_off6_inb L k 0)) (fun _ => rfl)
abbrev oC61 (k : Fin k0_t1_loop.trips) : Memref sig .scVector .hbm S40x128 .f32 := (oV).slice (Rect.unit (s := S320000x256) (k0_off6 L k 1#32) S40x128.size (k0_off6_inb L k 1)) (fun _ => rfl)
abbrev oC70 (k : Fin k0_t1_loop.trips) : Memref sig .scVector .hbm S40x128 .f32 := (oV).slice (Rect.unit (s := S320000x256) (k0_off7 L k 0#32) S40x128.size (k0_off7_inb L k 0)) (fun _ => rfl)
abbrev oC71 (k : Fin k0_t1_loop.trips) : Memref sig .scVector .hbm S40x128 .f32 := (oV).slice (Rect.unit (s := S320000x256) (k0_off7 L k 1#32) S40x128.size (k0_off7_inb L k 1)) (fun _ => rfl)

omit [FloatOps F] in
theorem set_oC30 : (oC30 L).view.set = chunkSet L ⟨0, by omega⟩ 0 := slice_off3 L 0 _
omit [FloatOps F] in
theorem set_oC40 : (oC40 L).view.set = chunkSet L ⟨0, by omega⟩ 1 := slice_off4 L 0 _
omit [FloatOps F] in
theorem set_oC31 : (oC31 L).view.set = chunkSet L ⟨1, by omega⟩ 0 := slice_off3 L 1 _
omit [FloatOps F] in
theorem set_oC41 : (oC41 L).view.set = chunkSet L ⟨1, by omega⟩ 1 := slice_off4 L 1 _
omit [FloatOps F] in
theorem set_oC60 (k : Fin k0_t1_loop.trips) (h : 2 * k.val + 2 < 250) : (oC60 L k).view.set = chunkSet L ⟨2 * k.val + 2, h⟩ 0 :=
  (slice_off6 L k 0 _).trans (by congr 2)
omit [FloatOps F] in
theorem set_oC70 (k : Fin k0_t1_loop.trips) (h : 2 * k.val + 2 < 250) : (oC70 L k).view.set = chunkSet L ⟨2 * k.val + 2, h⟩ 1 :=
  (slice_off7 L k 0 _).trans (by congr 2)
omit [FloatOps F] in
theorem set_oC61 (k : Fin k0_t1_loop.trips) (h : 2 * k.val + 3 < 250) : (oC61 L k).view.set = chunkSet L ⟨2 * k.val + 3, h⟩ 0 :=
  (slice_off6 L k 1 _).trans (by congr 2)
omit [FloatOps F] in
theorem set_oC71 (k : Fin k0_t1_loop.trips) (h : 2 * k.val + 3 < 250) : (oC71 L k).view.set = chunkSet L ⟨2 * k.val + 3, h⟩ 1 :=
  (slice_off7 L k 1 _).trans (by congr 2)

/-! A chunk of the gathered array as the tile's memref addresses it is the TensorCore's array on that chunk. -/
theorem pts_oC30 (g : Buf (Elt F) (oLoc d)) : ((oC30 L).view.loc (V d (cV L) (jV L)) ↦[(oC30 L).view.set]{fullShare} g : sProp 𝕄) = oLoc d ↦[chunkSet L ⟨0, by omega⟩ 0]{fullShare} g := by
  rw [set_oC30]
theorem pts_oC40 (g : Buf (Elt F) (oLoc d)) : ((oC40 L).view.loc (V d (cV L) (jV L)) ↦[(oC40 L).view.set]{fullShare} g : sProp 𝕄) = oLoc d ↦[chunkSet L ⟨0, by omega⟩ 1]{fullShare} g := by
  rw [set_oC40]
theorem pts_oC31 (g : Buf (Elt F) (oLoc d)) : ((oC31 L).view.loc (V d (cV L) (jV L)) ↦[(oC31 L).view.set]{fullShare} g : sProp 𝕄) = oLoc d ↦[chunkSet L ⟨1, by omega⟩ 0]{fullShare} g := by
  rw [set_oC31]
theorem pts_oC41 (g : Buf (Elt F) (oLoc d)) : ((oC41 L).view.loc (V d (cV L) (jV L)) ↦[(oC41 L).view.set]{fullShare} g : sProp 𝕄) = oLoc d ↦[chunkSet L ⟨1, by omega⟩ 1]{fullShare} g := by
  rw [set_oC41]
theorem pts_oC60 (k : Fin k0_t1_loop.trips) (h : 2 * k.val + 2 < 250) (g : Buf (Elt F) (oLoc d)) : ((oC60 L k).view.loc (V d (cV L) (jV L)) ↦[(oC60 L k).view.set]{fullShare} g : sProp 𝕄) = oLoc d ↦[chunkSet L ⟨2 * k.val + 2, h⟩ 0]{fullShare} g := by
  rw [set_oC60 L k h]
theorem pts_oC70 (k : Fin k0_t1_loop.trips) (h : 2 * k.val + 2 < 250) (g : Buf (Elt F) (oLoc d)) : ((oC70 L k).view.loc (V d (cV L) (jV L)) ↦[(oC70 L k).view.set]{fullShare} g : sProp 𝕄) = oLoc d ↦[chunkSet L ⟨2 * k.val + 2, h⟩ 1]{fullShare} g := by
  rw [set_oC70 L k h]
theorem pts_oC61 (k : Fin k0_t1_loop.trips) (h : 2 * k.val + 3 < 250) (g : Buf (Elt F) (oLoc d)) : ((oC61 L k).view.loc (V d (cV L) (jV L)) ↦[(oC61 L k).view.set]{fullShare} g : sProp 𝕄) = oLoc d ↦[chunkSet L ⟨2 * k.val + 3, h⟩ 0]{fullShare} g := by
  rw [set_oC61 L k h]
theorem pts_oC71 (k : Fin k0_t1_loop.trips) (h : 2 * k.val + 3 < 250) (g : Buf (Elt F) (oLoc d)) : ((oC71 L k).view.loc (V d (cV L) (jV L)) ↦[(oC71 L k).view.set]{fullShare} g : sProp 𝕄) = oLoc d ↦[chunkSet L ⟨2 * k.val + 3, h⟩ 1]{fullShare} g := by
  rw [set_oC71 L k h]

/-! ## The recorded waits stay within what the launch allows -/

/-- Every recorded wait is one the tile started with, or sits at the kernel's own index, or at the call's. -/
def okW (W W' : Waits sig (HIx 1)) : Prop := ∀ p ∈ W', p ∈ W ∨ p.2 = none ∨ p.2 = some (0 : Fin 1)
omit [FloatOps F] in
theorem okW_refl (W : Waits sig (HIx 1)) : okW W W := fun _ hp => .inl hp
omit [FloatOps F] in
theorem okW_none {W W' : Waits sig (HIx 1)} (h : okW W W') (s : SemLoc sig) : okW W (insert (s, (default : HIx 1)) W') := by
  intro p hp
  rcases Finset.mem_insert.mp hp with rfl | hp
  · exact .inr (.inl rfl)
  · exact h p hp
omit [FloatOps F] in
theorem okW_some {W W' : Waits sig (HIx 1)} (h : okW W W') (s : SemLoc sig) : okW W (insert (s, (some 0 : HIx 1)) W') := by
  intro p hp
  rcases Finset.mem_insert.mp hp with rfl | hp
  · exact .inr (.inr rfl)
  · exact h p hp

/-! ## The loop's invariant -/

/-- Chunk j, half h, of the tile's rows of the gathered array; empty past the last chunk. -/
def chN (j : ℕ) (h : Fin 2) : Finset S320000x256.Idx := if hj : j < 250 then chunkSet L ⟨j, hj⟩ h else ∅

/-- A write-out in flight on write semaphore s: it delivers the chunk holding its gathered rows, and the row buffer back. -/
def WF (s : DmaSems sig S_) (b : Memref sig .scVector .vmem S40x128 .f32) (j : ℕ) (h : Fin 2) (f : Buf (Elt F) (b.view.loc (V d (cV L) (jV L)))) : sProp 𝕄 :=
  Transfers.Flight countersEmb (V d (cV L) (jV L)) (SemLoc.dma s.sem) (default : HIx 1) 163840
    iprop((oLoc d ↦[chN L j h]{fullShare} gatherC m d) ∗ (b.view.loc (V d (cV L) (jV L)) ↦[b.view.set]{fullShare} f))

/-- Before trip k: the write-outs of chunks 2k and 2k+1 are in flight, the chunks below are done, those from 2k+2 on
    untouched; the gather semaphores are at zero, the tile holds its four read shares of the shared table and its two
    index lists whole. -/
def inv (O : CellTallies nD τ sig (HIx 1)) (W : Waits sig (HIx 1))
    (cs : Buf (Elt F) ((isV).view.loc (V d (cV L) (jV L)))) (cr : Buf (Elt F) ((irV).view.loc (V d (cV L) (jV L))))
    (k : ℕ) (_ : PUnit) : sProp 𝕄 :=
  iprop(Transfers.MayWaits (V d (cV L) (jV L)) (default : HIx 1) O
    ∗ (∃ F0 F1 F2 F3,
        WF m d L cc0_scratch11 b0V (2 * k) 0 F0 ∗ ((b0V).view.loc (V d (cV L) (jV L)) ↦[Finset.univ \ (b0V).view.set]{fullShare} F0)
        ∗ WF m d L cc0_scratch12 b1V (2 * k) 1 F1 ∗ ((b1V).view.loc (V d (cV L) (jV L)) ↦[Finset.univ \ (b1V).view.set]{fullShare} F1)
        ∗ WF m d L cc0_scratch13 b2V (2 * k + 1) 0 F2 ∗ ((b2V).view.loc (V d (cV L) (jV L)) ↦[Finset.univ \ (b2V).view.set]{fullShare} F2)
        ∗ WF m d L cc0_scratch14 b3V (2 * k + 1) 1 F3 ∗ ((b3V).view.loc (V d (cV L) (jV L)) ↦[Finset.univ \ (b3V).view.set]{fullShare} F3))
    ∗ semVal (V d (cV L) (jV L), SemLoc.dma cc0_scratch7.sem) 0 ∗ semVal (V d (cV L) (jV L), SemLoc.dma cc0_scratch8.sem) 0
    ∗ semVal (V d (cV L) (jV L), SemLoc.dma cc0_scratch9.sem) 0 ∗ semVal (V d (cV L) (jV L), SemLoc.dma cc0_scratch10.sem) 0
    ∗ ((shV).view.loc (V d (cV L) (jV L)) ↦{Transfers.shareTokN (tok16 (jV L)) 0} m (xLoc d))
    ∗ ((shV).view.loc (V d (cV L) (jV L)) ↦{Transfers.shareTokN (tok16 (jV L)) 1} m (xLoc d))
    ∗ ((shV).view.loc (V d (cV L) (jV L)) ↦{Transfers.shareTokN (tok16 (jV L)) 2} m (xLoc d))
    ∗ ((shV).view.loc (V d (cV L) (jV L)) ↦{Transfers.shareTokN (tok16 (jV L)) 3} m (xLoc d))
    ∗ ((isV).view.loc (V d (cV L) (jV L)) ↦{fullShare} cs)
    ∗ ((irV).view.loc (V d (cV L) (jV L)) ↦{fullShare} cr)
    ∗ (bigSep (doneCh k) fun p => oLoc d ↦[chunkSet L p.1 p.2]{fullShare} gatherC m d)
    ∗ (bigSep (remCh k) fun p => oLoc d ↦[chunkSet L p.1 p.2]{fullShare} m (oLoc d))
    ∗ ∃ W', ⌜okW W W'⌝ ∗ owes (V d (cV L) (jV L)) O W')

/-! ## The kernel's offsets as numbers -/

omit [FloatOps F] in
theorem off3_0 (r : Fin 2) : k0_off3 L (BitVec.ofNat 32 (40 * r.val)) 0 = 10000 * (2 * (L 1).val + (L 0).val) + 40 * r.val := by
  rw [k0_off3_eq L r]; show 20000 * (L 1).val + 10000 * (L 0).val + 40 * r.val = _; omega
omit [FloatOps F] in
theorem off3_1 (r : Fin 2) : k0_off3 L (BitVec.ofNat 32 (40 * r.val)) 1 = 0 := by rw [k0_off3_eq L r]; rfl
omit [FloatOps F] in
theorem off4_0 (r : Fin 2) : k0_off4 L (BitVec.ofNat 32 (40 * r.val)) 0 = 10000 * (2 * (L 1).val + (L 0).val) + 40 * r.val := by
  rw [k0_off4_eq L r]; show 20000 * (L 1).val + 10000 * (L 0).val + 40 * r.val = _; omega
omit [FloatOps F] in
theorem off4_1 (r : Fin 2) : k0_off4 L (BitVec.ofNat 32 (40 * r.val)) 1 = 128 := by rw [k0_off4_eq L r]; rfl
omit [FloatOps F] in
theorem off6_0 (k : Fin k0_t1_loop.trips) (r : Fin 2) : k0_off6 L k (BitVec.ofNat 32 r.val) 0 = 10000 * (2 * (L 1).val + (L 0).val) + 40 * (2 * k.val + r.val + 2) := by
  rw [k0_off6_eq L k r]; show 20000 * (L 1).val + 10000 * (L 0).val + 80 * k.val + 40 * r.val + 80 = _; omega
omit [FloatOps F] in
theorem off6_1 (k : Fin k0_t1_loop.trips) (r : Fin 2) : k0_off6 L k (BitVec.ofNat 32 r.val) 1 = 0 := by rw [k0_off6_eq L k r]; rfl
omit [FloatOps F] in
theorem off7_0 (k : Fin k0_t1_loop.trips) (r : Fin 2) : k0_off7 L k (BitVec.ofNat 32 r.val) 0 = 10000 * (2 * (L 1).val + (L 0).val) + 40 * (2 * k.val + r.val + 2) := by
  rw [k0_off7_eq L k r]; show 20000 * (L 1).val + 10000 * (L 0).val + 80 * k.val + 40 * r.val + 80 = _; omega
omit [FloatOps F] in
theorem off7_1 (k : Fin k0_t1_loop.trips) (r : Fin 2) : k0_off7 L k (BitVec.ofNat 32 r.val) 1 = 128 := by rw [k0_off7_eq L k r]; rfl
omit [FloatOps F] in
theorem off5 (k : Fin k0_t1_loop.trips) (r : Fin 2) : k0_off5 k (BitVec.ofNat 32 r.val) = ![40 * (2 * k.val + r.val + 2)] := by
  rw [k0_off5_eq k r]; congr 1; omega

/-! ## The loop's offsets at trip k, in the invariant's numbering -/

omit [FloatOps F] in
theorem chN_eq (j : ℕ) (hj : j < 250) (h : Fin 2) : chN L j h = chunkSet L ⟨j, hj⟩ h := dif_pos hj

omit [FloatOps F] in
theorem off5_0 (k : Fin k0_t1_loop.trips) : k0_off5 k 0#32 = ![40 * (2 * (k.val + 1))] :=
  (off5 k 0).trans (by congr 1)
omit [FloatOps F] in
theorem off5_1 (k : Fin k0_t1_loop.trips) : k0_off5 k 1#32 = ![40 * (2 * (k.val + 1) + 1)] :=
  (off5 k 1).trans (by congr 1)
omit [FloatOps F] in
theorem off6_00 (k : Fin k0_t1_loop.trips) : k0_off6 L k 0#32 0 = 10000 * (2 * (L 1).val + (L 0).val) + 40 * (2 * (k.val + 1)) := off6_0 L k 0
omit [FloatOps F] in
theorem off6_10 (k : Fin k0_t1_loop.trips) : k0_off6 L k 1#32 0 = 10000 * (2 * (L 1).val + (L 0).val) + 40 * (2 * (k.val + 1) + 1) := off6_0 L k 1
omit [FloatOps F] in
theorem off7_00 (k : Fin k0_t1_loop.trips) : k0_off7 L k 0#32 0 = 10000 * (2 * (L 1).val + (L 0).val) + 40 * (2 * (k.val + 1)) := off7_0 L k 0
omit [FloatOps F] in
theorem off7_10 (k : Fin k0_t1_loop.trips) : k0_off7 L k 1#32 0 = 10000 * (2 * (L 1).val + (L 0).val) + 40 * (2 * (k.val + 1) + 1) := off7_0 L k 1

/-! ## A write-out in flight delivers its chunk at the gathered array -/

/-- The left half: a row buffer filled by the gather of the senders' entries 40 j … 40 j + 39, being copied out to
    chunk j's columns 0 … 127. -/
theorem wf_s (s : DmaSems sig S_) (bM : Memref sig .scVector .vmem S40x128 .f32) (f : bM.view.ty.Contents (Elt F)) (go : Buf (Elt F) (oLoc d))
    (off1 : Fin 1 → ℕ) (inb1 : ∀ a, off1 a + S40.size a ≤ S10000.size a) (j : ℕ) (hoff1 : off1 = ![40 * j]) (hj : 40 * j + 40 ≤ 10000)
    (fl : Buf (Elt F) ((V d (cV L) (jV L)).loc cc0_scratch1)) (pay : S10000.Idx → Elt F .i32)
    (hpay : pay = ReadAs.same.apply (View.read (Elt F) ((sV).slice (Rect.unit (s := S320000) (k0_off2 L) S10000.size (k0_off2_inb L)) (fun _ => rfl)).view (m (sLoc d))))
    (hn : S40.numel = S40x128.size gathers_S10000x128_S40x128.axis')
    (hin : ∀ x, ((View.read (Elt F) ((isV).slice (Rect.unit (s := S10000) off1 S40.size inb1) (fun _ => rfl)).view
      (View.write (Elt F) (isV).view fl pay Finset.univ)) x).toNat < S10000x128.size gathers_S10000x128_S40x128.axis)
    (hlt : ∀ e : Fin 320000, ((m (sLoc d) : IVec S320000 32) (ix1 e)).toNat < 10000)
    (off2 : Fin 2 → ℕ) (inb2 : ∀ a, off2 a + S40x128.size a ≤ S320000x256.size a)
    (h0 : off2 0 = 10000 * (2 * (L 1).val + (L 0).val) + 40 * j) (h1 : off2 1 = 0)
    (G Dp : S40x128.Idx → Elt F .f32)
    (hG : G = SparseCore.gatherPayload gathers_S10000x128_S40x128
        (View.read (Elt F) ((shV).slice (Rect.unit (s := S10000x128) ![0, 0] S10000x128.size inb_S10000x128_S10000x128_0_0) (fun _ => rfl)).view (nodesSh m d (cV L)))
        (SparseCore.rows (View.read (Elt F) ((isV).slice (Rect.unit (s := S10000) off1 S40.size inb1) (fun _ => rfl)).view
          (View.write (Elt F) (isV).view fl pay Finset.univ)) hn hin))
    (hD : Dp = ReadAs.same.apply (View.read (Elt F) bM.view (bM.view.writes (Elt F) f [⟨Rect.whole S40x128, G⟩]))) :
    (Transfers.Flight countersEmb (V d (cV L) (jV L)) (SemLoc.dma s.sem) (default : HIx 1) 163840
      iprop((((oV).slice (Rect.unit (s := S320000x256) off2 S40x128.size inb2) (fun _ => rfl)).view.loc (V d (cV L) (jV L)) ↦[((oV).slice (Rect.unit (s := S320000x256) off2 S40x128.size inb2) (fun _ => rfl)).view.set]{fullShare}
          ((oV).slice (Rect.unit (s := S320000x256) off2 S40x128.size inb2) (fun _ => rfl)).view.writes (Elt F) go [⟨Rect.whole S40x128, Dp⟩])
        ∗ (bM.view.loc (V d (cV L) (jV L)) ↦[bM.view.set]{fullShare} bM.view.writes (Elt F) f [⟨Rect.whole S40x128, G⟩])) : sProp 𝕄)
      ⊢ WF m d L s bM j 0 (bM.view.writes (Elt F) f [⟨Rect.whole S40x128, G⟩]) := by
  subst hG hD
  unfold WF chN
  rw [dif_pos (show j < 250 by omega), chunk_s m d L bM f go off1 inb1 j hoff1 hj fl pay hpay hn hin hlt off2 inb2 h0 h1]

/-- The right half: the same for the receivers' entries and columns 128 … 255. -/
theorem wf_r (s : DmaSems sig S_) (bM : Memref sig .scVector .vmem S40x128 .f32) (f : bM.view.ty.Contents (Elt F)) (go : Buf (Elt F) (oLoc d))
    (off1 : Fin 1 → ℕ) (inb1 : ∀ a, off1 a + S40.size a ≤ S10000.size a) (j : ℕ) (hoff1 : off1 = ![40 * j]) (hj : 40 * j + 40 ≤ 10000)
    (fl : Buf (Elt F) ((V d (cV L) (jV L)).loc cc0_scratch2)) (pay : S10000.Idx → Elt F .i32)
    (hpay : pay = ReadAs.same.apply (View.read (Elt F) ((rV).slice (Rect.unit (s := S320000) (k0_off2 L) S10000.size (k0_off2_inb L)) (fun _ => rfl)).view (m (rLoc d))))
    (hn : S40.numel = S40x128.size gathers_S10000x128_S40x128.axis')
    (hin : ∀ x, ((View.read (Elt F) ((irV).slice (Rect.unit (s := S10000) off1 S40.size inb1) (fun _ => rfl)).view
      (View.write (Elt F) (irV).view fl pay Finset.univ)) x).toNat < S10000x128.size gathers_S10000x128_S40x128.axis)
    (hlt : ∀ e : Fin 320000, ((m (rLoc d) : IVec S320000 32) (ix1 e)).toNat < 10000)
    (off2 : Fin 2 → ℕ) (inb2 : ∀ a, off2 a + S40x128.size a ≤ S320000x256.size a)
    (h0 : off2 0 = 10000 * (2 * (L 1).val + (L 0).val) + 40 * j) (h1 : off2 1 = 128)
    (G Dp : S40x128.Idx → Elt F .f32)
    (hG : G = SparseCore.gatherPayload gathers_S10000x128_S40x128
        (View.read (Elt F) ((shV).slice (Rect.unit (s := S10000x128) ![0, 0] S10000x128.size inb_S10000x128_S10000x128_0_0) (fun _ => rfl)).view (nodesSh m d (cV L)))
        (SparseCore.rows (View.read (Elt F) ((irV).slice (Rect.unit (s := S10000) off1 S40.size inb1) (fun _ => rfl)).view
          (View.write (Elt F) (irV).view fl pay Finset.univ)) hn hin))
    (hD : Dp = ReadAs.same.apply (View.read (Elt F) bM.view (bM.view.writes (Elt F) f [⟨Rect.whole S40x128, G⟩]))) :
    (Transfers.Flight countersEmb (V d (cV L) (jV L)) (SemLoc.dma s.sem) (default : HIx 1) 163840
      iprop((((oV).slice (Rect.unit (s := S320000x256) off2 S40x128.size inb2) (fun _ => rfl)).view.loc (V d (cV L) (jV L)) ↦[((oV).slice (Rect.unit (s := S320000x256) off2 S40x128.size inb2) (fun _ => rfl)).view.set]{fullShare}
          ((oV).slice (Rect.unit (s := S320000x256) off2 S40x128.size inb2) (fun _ => rfl)).view.writes (Elt F) go [⟨Rect.whole S40x128, Dp⟩])
        ∗ (bM.view.loc (V d (cV L) (jV L)) ↦[bM.view.set]{fullShare} bM.view.writes (Elt F) f [⟨Rect.whole S40x128, G⟩])) : sProp 𝕄)
      ⊢ WF m d L s bM j 1 (bM.view.writes (Elt F) f [⟨Rect.whole S40x128, G⟩]) := by
  subst hG hD
  unfold WF chN
  rw [dif_pos (show j < 250 by omega), chunk_r m d L bM f go off1 inb1 j hoff1 hj fl pay hpay hn hin hlt off2 inb2 h0 h1]

end Cert.Proof.KB

end
-- ==== Proof.KbTile.lean ====
/-
  One tile's task. It copies its block of the node table into its SparseCore's shared table (tile 15 also the last
  sixteen rows) and its 10000 senders and receivers into its two index lists, each copy waited for at once; meets the
  other tiles at the barrier, handing each a read share of what it wrote and leaving with its read share of the whole
  table, which now equals the node table; then gathers, forty entries of a list at a time, the named rows into one
  of four row buffers and copies each buffer out to its chunk of the gathered array, two chunks in flight at a time.
  Each chunk ends holding exactly the gathered array's entries there: row e, columns 0 … 127 the sender's node row,
  columns 128 … 255 the receiver's. The loop's invariant at trip k: chunks below 2k done, chunks 2k and 2k+1 being
  written out, the chunks from 2k+2 on untouched. Every index read is below 10000 by the precondition.
-/
import proofs.«206088_g82248623718559_cont_9to1c4b_230_21_alg».proof.Proof.KbTileLem

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

open Idealize.ShloMosaic.ValueIdx (ix1 ix2)

variable {F : FTy → Type}

local notation "𝕄" => MT nD τ sig (HIx 1) (Elt F) ℕ UU ℕ

local notation "nV" => (Memref.whole Cert.Kernel.main_arg0_scv : Memref Cert.Kernel.sig Kind.scVector Space.hbm Cert.Kernel.S10000x128 EltTy.f32)
local notation "sV" => (Memref.whole Cert.Kernel.main_arg6_scv : Memref Cert.Kernel.sig Kind.scVector Space.hbm Cert.Kernel.S320000 EltTy.i32)
local notation "rV" => (Memref.whole Cert.Kernel.main_arg7_scv : Memref Cert.Kernel.sig Kind.scVector Space.hbm Cert.Kernel.S320000 EltTy.i32)
local notation "oV" => (Memref.whole Cert.Kernel.main_v9_scv : Memref Cert.Kernel.sig Kind.scVector Space.hbm Cert.Kernel.S320000x256 EltTy.f32)
local notation "shV" => (Memref.whole Cert.Kernel.cc0_scratch0 : Memref Cert.Kernel.sig Kind.scVector Space.shared Cert.Kernel.S10000x128 EltTy.f32)
local notation "isV" => (Memref.whole Cert.Kernel.cc0_scratch1 : Memref Cert.Kernel.sig Kind.scVector Space.vmem Cert.Kernel.S10000 EltTy.i32)
local notation "irV" => (Memref.whole Cert.Kernel.cc0_scratch2 : Memref Cert.Kernel.sig Kind.scVector Space.vmem Cert.Kernel.S10000 EltTy.i32)
local notation "b0V" => (Memref.whole Cert.Kernel.cc0_scratch3 : Memref Cert.Kernel.sig Kind.scVector Space.vmem Cert.Kernel.S40x128 EltTy.f32)
local notation "b1V" => (Memref.whole Cert.Kernel.cc0_scratch4 : Memref Cert.Kernel.sig Kind.scVector Space.vmem Cert.Kernel.S40x128 EltTy.f32)
local notation "b2V" => (Memref.whole Cert.Kernel.cc0_scratch5 : Memref Cert.Kernel.sig Kind.scVector Space.vmem Cert.Kernel.S40x128 EltTy.f32)
local notation "b3V" => (Memref.whole Cert.Kernel.cc0_scratch6 : Memref Cert.Kernel.sig Kind.scVector Space.vmem Cert.Kernel.S40x128 EltTy.f32)

variable (m : (ℓ : Loc nD τ sig) → Buf (Elt F) ℓ)

variable [FloatOps F]

section Body

variable (d : Dev nD) (L : grid0.Coords)

set_option maxHeartbeats 8000000 in
/-- The task of a tile other than tile 15. -/
theorem tile_body_lt (hF : (K (F := F)).Facts)
    (hs : ∀ e : Fin 320000, ((m (sLoc d) : IVec S320000 32) (ix1 e)).toNat < 10000)
    (hr : ∀ e : Fin 320000, ((m (rLoc d) : IVec S320000 32) (ix1 e)).toNat < 10000)
    (h15 : (L 1).val ≠ 15)
    (O : CellTallies nD τ sig (HIx 1)) (W : Waits sig (HIx 1)) (hO : ∀ g, O g none = 0)
    (hOlev : ∀ g ι, 0 < O g ι → 8 * (0 : Fin 1).val + 6 ≤ (K (F := F)).lev g ι) :
    iprop(levAts (K (F := F)).L (K (F := F)).lev ∗ bkit m d (cV L) (jV L)
        ∗ (tileArr m d (wid (cV L) (jV L)) (m (oLoc d)) ∗ shIn d (cV L) (jL L))
        ∗ scopedBufs (V d (cV L) (jV L)) ∗ scopedSems0 (V d (cV L) (jV L)) ∗ owes (V d (cV L) (jV L)) (O + oxV d (cV L)) W)
      ⊢ wp frame (wpE (defs₀ (F := F)) 𝒱₀ (V d (cV L) (jV L)) none) Set.univ
          (cc0__gather_body L nV (Memref.isWhole_whole _) sV (Memref.isWhole_whole _) rV (Memref.isWhole_whole _) oV (Memref.isWhole_whole _)
            shV (Memref.isWhole_whole _) isV (Memref.isWhole_whole _) irV (Memref.isWhole_whole _)
            b0V (Memref.isWhole_whole _) b1V (Memref.isWhole_whole _) b2V (Memref.isWhole_whole _) b3V (Memref.isWhole_whole _)
            cc0_scratch7 cc0_scratch8 cc0_scratch9 cc0_scratch10 cc0_scratch11 cc0_scratch12 cc0_scratch13 cc0_scratch14
            cc0_scoped0 cc0_scoped1 cc0_scoped2 cc0_scoped3)
          fun _ => iprop((tileArr m d (wid (cV L) (jV L)) (gatherC m d) ∗ shOut m d (cV L) (jL L))
            ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') := by
  simp only [cc0__gather_body_eq_skeleton]; unfold cc0__gather_body_skel
  simp only [k0_part2_eq_skeleton, k0_part3_eq_skeleton]; unfold k0_part2_skel k0_part3_skel
  rw [(K (F := F)).scopedBufs_V hF d (cV L) (jV L), SparseCore.Cfg.scopedSems0_V (Val := Elt F) d (cV L) (jV L), ownSems0_V, ownBufs_V]
  unfold bkit tileArr shIn
  iintro ⟨#Hlv, ⟨⟨%κ, #Hinv⟩, Htoks, #Hrch, Hat, Hcred⟩, ⟨⟨Hn, Hs, Hr, Ho⟩, ⟨%fsh, Hsh⟩⟩, ⟨⟨%fis, His⟩, ⟨%fir, Hir⟩, ⟨%f0, Hb0⟩, ⟨%f1, Hb1⟩, ⟨%f2, Hb2⟩, ⟨%f3, Hb3⟩, Hbufs⟩, ⟨Hg0, Hg1, Hg2, Hg3, Hw0, Hw1, Hw2, Hw3, Hsem0, Hsem1, Hsem2, Hsem3, Hsems⟩, HO⟩
  have k0_h1 : ¬ (Scalar.cmpi CmpIPredicate.ne (Scalar.extui (Scalar.cmpi CmpIPredicate.eq (BitVec.ofNat 32 (L 1).val) 15#32)) 0#32 = 1#1) :=
    fun h => h15 ((tail_cond L).mp h)
  have hO' : ∀ g, (O + oxV d (cV L)) g none = 0 := fun g => by rw [Pi.add_apply, Finsupp.add_apply, hO g, oxV_none]
  ihave Hmw1 := (show levAts (K (F := F)).L (K (F := F)).lev ⊢ Transfers.MayWaits (V d (cV L) (jV L)) (default : HIx 1) (O + oxV d (cV L)) from
    (K (F := F)).mayWaits_none (thr := V d (cV L) (jV L)) hO') $$ Hlv
  ihave Hmw2 := (show levAts (K (F := F)).L (K (F := F)).lev ⊢ Transfers.MayWaits (V d (cV L) (jV L)) (default : HIx 1) O from
    (K (F := F)).mayWaits_none (thr := V d (cV L) (jV L)) hO) $$ Hlv
  ihave Hn' := (Entails.of_eq (pts_n (F := F) d L _ _).symm) $$ Hn
  ihave Hs' := (Entails.of_eq (pts_s (F := F) d L _ _).symm) $$ Hs
  ihave Hr' := (Entails.of_eq (pts_r (F := F) d L _ _).symm) $$ Hr
  ihave His' := (Entails.of_eq (pts_is (F := F) d L _).symm) $$ His
  ihave Hir' := (Entails.of_eq (pts_ir (F := F) d L _).symm) $$ Hir
  ihave Hsh1 := (Entails.of_eq (own_part_eq (F := F) d L h15 fullShare fsh).symm) $$ Hsh
  ihave Hsh' := (Entails.of_eq (pts_shBlk (F := F) d L fullShare _).symm) $$ Hsh1
  -- the copies of the tile's block of the node table and of its two index lists, each waited for
  sl_exec
  -- the block now holds the node rows; a read share of it goes to every tile across the barrier, and a read share of
  -- every tile's part comes back: the whole shared table at the node rows
  ihave Hsh2 := (Entails.of_eq (shBlk_restate (F := F) m d L fullShare fsh (tile_body_lt.sl.dma0 m d L) rfl)) $$ Hsh'
  ihave Hsh3 := (Entails.of_eq (own_part_eq (F := F) d L h15 fullShare (nodesSh m d (cV L)))) $$ Hsh2
  ihave Hp := (pays_intro (F := F) m d L) $$ Hsh3
  icases Hp with ⟨Hpays, Hdrop⟩
  rw [bind_assoc]
  iapply (SparseCore.wp_subcoreBarrier 𝒱₀ none EB (bRd (F := F) m) d (sc := cV L) (i := jV L) sc_bar0 (grid0.bound 1) hsub0 (L 1) rfl κ (fun _ => 0) (jV L).val
      (fun j => bRd_mem₀ m d _ _ _) (fun _ => rfl) (bRd_expect m d _ _) (some 0) O _) $$ [HO Htoks Hpays Hcred Hat]
  · isplitr; · iexact Hinv
    isplitl [HO]; · iexact HO
    isplitl [Htoks Hpays]
    · rw [bigSep_sep', bigSep_sep']
      isplitl [Htoks]; · iexact Htoks
      isplitl [Hpays]; · iexact Hpays
      iexact Hrch
    isplitl [Hcred]; · iexact Hcred
    isplitl [Hat]; · iexact Hat
    iapply ((K (F := F)).mayOwe_of_bound (thr := V d (cV L) (jV L)) 3 (fun p hp => by
        rw [Finset.mem_singleton] at hp; subst hp
        show (K (F := F)).lev (bcell d (cV L) (jV L)) (some 0) ≤ 3
        rw [(K (F := F)).lev_V_reg d _ _ (show (sc_bar0 : Sem sig) ≠ (K (F := F)).go from sc_bar0_ne_go)]; exact le_rfl)
      (fun g ι hg => lt_of_lt_of_le (by decide) (hOlev g ι hg)))
    iexact Hlv
  iintro ⟨HO, Hat, -, Hgot⟩
  ihave Hwhole := (pays_elim (F := F) m d L) $$ Hgot
  ihave Ht := (tok4_split (F := F) d L _) $$ Hwhole
  icases Ht with ⟨Htd, Ht0, Ht1, Ht2, Ht3⟩
  ihave Ht0' := (Entails.of_eq (pts_sh (F := F) d L _ _).symm) $$ Ht0
  ihave Ht1' := (Entails.of_eq (pts_sh (F := F) d L _ _).symm) $$ Ht1
  ihave Ht2' := (Entails.of_eq (pts_sh (F := F) d L _ _).symm) $$ Ht2
  ihave Ht3' := (Entails.of_eq (pts_sh (F := F) d L _ _).symm) $$ Ht3
  ihave Hb0' := (Entails.of_eq (pts_b0 (F := F) d L _).symm) $$ Hb0
  ihave Hb1' := (Entails.of_eq (pts_b1 (F := F) d L _).symm) $$ Hb1
  ihave Hb2' := (Entails.of_eq (pts_b2 (F := F) d L _).symm) $$ Hb2
  ihave Hb3' := (Entails.of_eq (pts_b3 (F := F) d L _).symm) $$ Hb3
  -- every entry of the two index lists names a row of the table
  have hin_s := idx_inb_s (F := F) m d L hs fis (tile_body_lt.sl.dma0_1 m d L) rfl
  have hin_r := idx_inb_r (F := F) m d L hr fir (tile_body_lt.sl.dma0_2 m d L) rfl
  -- the first two chunks' gathers, the waits for chunk 0's
  sl_exec
  -- the tile's rows of the gathered array, in chunks of 40 rows and two halves
  ihave Hoc := (Entails.of_eq (out_chunks (F := F) d L (m (oLoc d)))) $$ Ho
  ihave Hoc' := (Entails.of_eq (bigSep_chunks_start (fun p : Fin 250 × Fin 2 => (oLoc d ↦[chunkSet L p.1 p.2]{fullShare} m (oLoc d) : sProp 𝕄)))) $$ Hoc
  icases Hoc' with ⟨Hc00, Hc01, Hc10, Hc11, Hrem⟩
  ihave Hc00' := (Entails.of_eq (pts_oC30 (F := F) d L _).symm) $$ Hc00
  ihave Hc01' := (Entails.of_eq (pts_oC40 (F := F) d L _).symm) $$ Hc01
  ihave Hc10' := (Entails.of_eq (pts_oC31 (F := F) d L _).symm) $$ Hc10
  ihave Hc11' := (Entails.of_eq (pts_oC41 (F := F) d L _).symm) $$ Hc11
  -- chunk 0 is copied out, chunk 1's gathers are waited for and it is copied out
  sl_exec
  -- each write-out in flight delivers its chunk at the gathered array
  ihave Hw0 := (wf_s (F := F) m d L cc0_scratch11 b0V f0 (m (oLoc d)) ![0] inb_S10000_S40_0 0 rfl (by omega) fis (tile_body_lt.sl.dma0_1 m d L) rfl rfl (hin_s _ _) hs
    (k0_off3 L 0#32) (inb3_0 L) (off3_0 L 0) (off3_1 L 0) (tile_body_lt.sl.gather0 m d L fis hin_s) (tile_body_lt.sl.dma0_3 m d L fis f0 hin_s) rfl rfl) $$ [Hw0]
  · iexact Hw0
  ihave Hw1 := (wf_r (F := F) m d L cc0_scratch12 b1V f1 (m (oLoc d)) ![0] inb_S10000_S40_0 0 rfl (by omega) fir (tile_body_lt.sl.dma0_2 m d L) rfl rfl (hin_r _ _) hr
    (k0_off4 L 0#32) (inb4_0 L) (off4_0 L 0) (off4_1 L 0) (tile_body_lt.sl.gather1 m d L fir hin_r) (tile_body_lt.sl.dma0_4 m d L fir f1 hin_r) rfl rfl) $$ [Hw1]
  · iexact Hw1
  ihave Hw2 := (wf_s (F := F) m d L cc0_scratch13 b2V f2 (m (oLoc d)) ![40] inb_S10000_S40_40 1 rfl (by omega) fis (tile_body_lt.sl.dma0_1 m d L) rfl rfl (hin_s _ _) hs
    (k0_off3 L 40#32) (inb3_1 L) (off3_0 L 1) (off3_1 L 1) (tile_body_lt.sl.gather2 m d L fis hin_s) (tile_body_lt.sl.dma0_5 m d L fis f2 hin_s) rfl rfl) $$ [Hw2]
  · iexact Hw2
  ihave Hw3 := (wf_r (F := F) m d L cc0_scratch14 b3V f3 (m (oLoc d)) ![40] inb_S10000_S40_40 1 rfl (by omega) fir (tile_body_lt.sl.dma0_2 m d L) rfl rfl (hin_r _ _) hr
    (k0_off4 L 40#32) (inb4_1 L) (off4_0 L 1) (off4_1 L 1) (tile_body_lt.sl.gather3 m d L fir hin_r) (tile_body_lt.sl.dma0_6 m d L fir f3 hin_r) rfl rfl) $$ [Hw3]
  · iexact Hw3
  ihave Hdone := (show (iprop(emp) : sProp 𝕄) ⊢ bigSep (doneCh 0) fun p => oLoc d ↦[chunkSet L p.1 p.2]{fullShare} gatherC m d from by
    rw [doneCh_zero, bigSep_empty]; exact Entails.refl _) $$ []
  · iempintro
  sl_for (inv m d L O W (View.write (Elt F) (isV).view fis (tile_body_lt.sl.dma0_1 m d L) Finset.univ) (View.write (Elt F) (irV).view fir (tile_body_lt.sl.dma0_2 m d L) Finset.univ))
    $$ [Hmw2 Hw0 Hb0' Hw1 Hb1' Hw2 Hb2' Hw3 Hb3' Hg0 Hg1 Hg2 Hg3 Ht0' Ht1' Ht2' Ht3' His' Hir' Hdone Hrem HO]
  case region =>
    intro k _
    have hk : k.val < 124 := lt_of_lt_of_eq k.isLt trips_eq
    unfold inv WF
    iintro ⟨#Hmw, ⟨%F0, %F1, %F2, %F3, Hw0, Hb0, Hw1, Hb1, Hw2, Hb2, Hw3, Hb3⟩, Hg0, Hg1, Hg2, Hg3, Ht0, Ht1, Ht2, Ht3, His, Hir, Hdone, Hrem, %W', %hW', HO⟩
    -- this trip's chunks 2k+2 and 2k+3, out of the untouched ones
    ihave Hrem' := (Entails.of_eq (bigSep_remCh_step (fun p : Fin 250 × Fin 2 => (oLoc d ↦[chunkSet L p.1 p.2]{fullShare} m (oLoc d) : sProp 𝕄)) k.val hk)) $$ Hrem
    icases Hrem' with ⟨Hc00, Hc01, Hc10, Hc11, Hrem⟩
    ihave Hc00' := (Entails.of_eq (pts_oC60 (F := F) d L k _ _).symm) $$ Hc00
    ihave Hc01' := (Entails.of_eq (pts_oC70 (F := F) d L k _ _).symm) $$ Hc01
    ihave Hc10' := (Entails.of_eq (pts_oC61 (F := F) d L k _ _).symm) $$ Hc10
    ihave Hc11' := (Entails.of_eq (pts_oC71 (F := F) d L k _ _).symm) $$ Hc11
    sl_exec (disch := exact View.amount_pos _ _ (show 0 < S40x128.numel by decide))
    sl_step
    -- this trip's four write-outs, each delivering its chunk at the gathered array
    ihave Hw0 := (wf_s (F := F) m d L cc0_scratch11 b0V F0 (m (oLoc d)) (k0_off5 k 0#32) (k0_off5_inb k 0) (2 * (k.val + 1)) (off5_0 k) (by omega) fis (tile_body_lt.sl.dma0_1 m d L) rfl rfl (hin_s _ _) hs
      (k0_off6 L k 0#32) (k0_off6_inb L k 0) (off6_00 L k) (off6_1 L k 0) (tile_body_lt.sl.gather0_1 m d L fis hin_s k) (tile_body_lt.sl.dma0_7 m d L fis hin_s k F0) rfl rfl) $$ [Hw0]
    · iexact Hw0
    ihave Hw1 := (wf_r (F := F) m d L cc0_scratch12 b1V F1 (m (oLoc d)) (k0_off5 k 0#32) (k0_off5_inb k 0) (2 * (k.val + 1)) (off5_0 k) (by omega) fir (tile_body_lt.sl.dma0_2 m d L) rfl rfl (hin_r _ _) hr
      (k0_off7 L k 0#32) (k0_off7_inb L k 0) (off7_00 L k) (off7_1 L k 0) (tile_body_lt.sl.gather1_1 m d L fir hin_r k) (tile_body_lt.sl.dma0_8 m d L fir hin_r k F1) rfl rfl) $$ [Hw1]
    · iexact Hw1
    ihave Hw2 := (wf_s (F := F) m d L cc0_scratch13 b2V F2 (m (oLoc d)) (k0_off5 k 1#32) (k0_off5_inb k 1) (2 * (k.val + 1) + 1) (off5_1 k) (by omega) fis (tile_body_lt.sl.dma0_1 m d L) rfl rfl (hin_s _ _) hs
      (k0_off6 L k 1#32) (k0_off6_inb L k 1) (off6_10 L k) (off6_1 L k 1) (tile_body_lt.sl.gather2_1 m d L fis hin_s k) (tile_body_lt.sl.dma0_9 m d L fis hin_s k F2) rfl rfl) $$ [Hw2]
    · iexact Hw2
    ihave Hw3 := (wf_r (F := F) m d L cc0_scratch14 b3V F3 (m (oLoc d)) (k0_off5 k 1#32) (k0_off5_inb k 1) (2 * (k.val + 1) + 1) (off5_1 k) (by omega) fir (tile_body_lt.sl.dma0_2 m d L) rfl rfl (hin_r _ _) hr
      (k0_off7 L k 1#32) (k0_off7_inb L k 1) (off7_10 L k) (off7_1 L k 1) (tile_body_lt.sl.gather3_1 m d L fir hin_r k) (tile_body_lt.sl.dma0_10 m d L fir hin_r k F3) rfl rfl) $$ [Hw3]
    · iexact Hw3
    unfold WF
    -- chunks 2k and 2k+1 join the done ones
    rw [chN_eq L (2 * k.val) (by omega) 0, chN_eq L (2 * k.val) (by omega) 1, chN_eq L (2 * k.val + 1) (by omega) 0, chN_eq L (2 * k.val + 1) (by omega) 1]
    ihave Hdone := (Entails.of_eq (bigSep_doneCh_step (fun p : Fin 250 × Fin 2 => (oLoc d ↦[chunkSet L p.1 p.2]{fullShare} gatherC m d : sProp 𝕄)) k.val (by omega)).symm) $$ [Hdone Hw0_dst Hw1_dst Hw2_dst Hw3_dst]
    · isplitl [Hw0_dst]; · iexact Hw0_dst
      isplitl [Hw1_dst]; · iexact Hw1_dst
      isplitl [Hw2_dst]; · iexact Hw2_dst
      isplitl [Hw3_dst]; · iexact Hw3_dst
      iexact Hdone
    isplitr; · iexact Hmw
    isplitl [Hw0 Hb0 Hw1 Hb1 Hw2 Hb2 Hw3 Hb3]
    · iexists _; iexists _; iexists _; iexists _
      isplitl [Hw0]; · iexact Hw0
      isplitl [Hb0]; · iexact Hb0
      isplitl [Hw1]; · iexact Hw1
      isplitl [Hb1]; · iexact Hb1
      isplitl [Hw2]; · iexact Hw2
      isplitl [Hb2]; · iexact Hb2
      isplitl [Hw3]; · iexact Hw3
      iexact Hb3
    isplitl [Hg0]; · iexact Hg0
    isplitl [Hg1]; · iexact Hg1
    isplitl [Hg2]; · iexact Hg2
    isplitl [Hg3]; · iexact Hg3
    isplitl [Ht0]; · iexact Ht0
    isplitl [Ht1]; · iexact Ht1
    isplitl [Ht2]; · iexact Ht2
    isplitl [Ht3]; · iexact Ht3
    isplitl [His]; · iexact His
    isplitl [Hir]; · iexact Hir
    isplitl [Hdone]; · iexact Hdone
    isplitl [Hrem]; · iexact Hrem
    iexists _; isplitr
    swap; · iexact HO
    ipureintro
    exact okW_none (okW_none (okW_none (okW_none (okW_none (okW_none (okW_none (okW_none hW' _) _) _) _) _) _) _) _
  -- the invariant holds before the first trip
  · unfold inv
    isplitr; · iexact Hmw2
    isplitl [Hw0 Hb0' Hw1 Hb1' Hw2 Hb2' Hw3 Hb3']
    · iexists _; iexists _; iexists _; iexists _
      isplitl [Hw0]; · iexact Hw0
      isplitl [Hb0']; · iexact Hb0'
      isplitl [Hw1]; · iexact Hw1
      isplitl [Hb1']; · iexact Hb1'
      isplitl [Hw2]; · iexact Hw2
      isplitl [Hb2']; · iexact Hb2'
      isplitl [Hw3]; · iexact Hw3
      iexact Hb3'
    isplitl [Hg0]; · iexact Hg0
    isplitl [Hg1]; · iexact Hg1
    isplitl [Hg2]; · iexact Hg2
    isplitl [Hg3]; · iexact Hg3
    isplitl [Ht0']; · iexact Ht0'
    isplitl [Ht1']; · iexact Ht1'
    isplitl [Ht2']; · iexact Ht2'
    isplitl [Ht3']; · iexact Ht3'
    isplitl [His']; · iexact His'
    isplitl [Hir']; · iexact Hir'
    isplitl [Hdone]; · iexact Hdone
    isplitl [Hrem]; · iexact Hrem
    iexists _; isplitr
    swap; · iexact HO
    ipureintro
    exact okW_none (okW_none (okW_none (okW_none (okW_some (okW_none (okW_none (okW_none (okW_refl W) _) _) _) _) _) _) _) _
  -- after the last trip: the last two chunks' write-outs are waited for
  iintro %_ HI
  unfold inv WF
  icases HI with ⟨-, ⟨%F0, %F1, %F2, %F3, Hw0, Hb0, Hw1, Hb1, Hw2, Hb2, Hw3, Hb3⟩, Hg0, Hg1, Hg2, Hg3, Ht0, Ht1, Ht2, Ht3, His, Hir, Hdone, Hrem, %W', %hW', HO⟩
  sl_exec
  sl_step
  -- all 250 chunks are done: the tile's rows hold the gathered array
  have htr : Scf.trips k0_t1_loop.lb k0_t1_loop.ub k0_t1_loop.st = 124 := trips_eq
  rw [htr, chN_eq L (2 * 124) (by omega) 0, chN_eq L (2 * 124) (by omega) 1, chN_eq L (2 * 124 + 1) (by omega) 0, chN_eq L (2 * 124 + 1) (by omega) 1]
  ihave Hdone := (Entails.of_eq (bigSep_doneCh_step (fun p : Fin 250 × Fin 2 => (oLoc d ↦[chunkSet L p.1 p.2]{fullShare} gatherC m d : sProp 𝕄)) 124 (by omega)).symm) $$ [Hdone Hw0_dst Hw1_dst Hw2_dst Hw3_dst]
  · isplitl [Hw0_dst]; · iexact Hw0_dst
    isplitl [Hw1_dst]; · iexact Hw1_dst
    isplitl [Hw2_dst]; · iexact Hw2_dst
    isplitl [Hw3_dst]; · iexact Hw3_dst
    iexact Hdone
  rw [show doneCh (124 + 1) = Finset.univ from doneCh_end]
  ihave Ho := (Entails.of_eq (out_chunks (F := F) d L (gatherC m d)).symm) $$ Hdone
  isplitl [Hn' Hs' Hr' Ho Htd Ht0 Ht1 Ht2 Ht3 Hdrop]
  · isplitl [Hn' Hs' Hr' Ho]
    · isplitl [Hn']; · iapply (Entails.of_eq (pts_n (F := F) d L _ _)); iexact Hn'
      isplitl [Hs']; · iapply (Entails.of_eq (pts_s (F := F) d L _ _)); iexact Hs'
      isplitl [Hr']; · iapply (Entails.of_eq (pts_r (F := F) d L _ _)); iexact Hr'
      iexact Ho
    · unfold shOut
      isplitl [Htd Ht0 Ht1 Ht2 Ht3]
      · iapply (tok4_join (F := F) d L _)
        isplitl [Htd]; · iexact Htd
        isplitl [Ht0]; · iapply (Entails.of_eq (pts_sh (F := F) d L _ _)); iexact Ht0
        isplitl [Ht1]; · iapply (Entails.of_eq (pts_sh (F := F) d L _ _)); iexact Ht1
        isplitl [Ht2]; · iapply (Entails.of_eq (pts_sh (F := F) d L _ _)); iexact Ht2
        iapply (Entails.of_eq (pts_sh (F := F) d L _ _)); iexact Ht3
      · iexact Hdrop
  isplitl [His Hir Hb0 Hb1 Hb2 Hb3 Hbufs]
  · isplitl [His]; · iexists _; iapply (Entails.of_eq (pts_is (F := F) d L _)); iexact His
    isplitl [Hir]; · iexists _; iapply (Entails.of_eq (pts_ir (F := F) d L _)); iexact Hir
    isplitl [Hb0]; · iexists _; iapply (Entails.of_eq (pts_b0 (F := F) d L _)); iexact Hb0
    isplitl [Hb1]; · iexists _; iapply (Entails.of_eq (pts_b1 (F := F) d L _)); iexact Hb1
    isplitl [Hb2]; · iexists _; iapply (Entails.of_eq (pts_b2 (F := F) d L _)); iexact Hb2
    isplitl [Hb3]; · iexists _; iapply (Entails.of_eq (pts_b3 (F := F) d L _)); iexact Hb3
    iexact Hbufs
  isplitl [Hg0 Hg1 Hg2 Hg3 Hw0 Hw1 Hw2 Hw3 Hsem0 Hsem1 Hsem2 Hsem3 Hsems]
  · isplitl [Hg0]; · iexact Hg0
    isplitl [Hg1]; · iexact Hg1
    isplitl [Hg2]; · iexact Hg2
    isplitl [Hg3]; · iexact Hg3
    isplitl [Hw0]; · iexact Hw0
    isplitl [Hw1]; · iexact Hw1
    isplitl [Hw2]; · iexact Hw2
    isplitl [Hw3]; · iexact Hw3
    isplitl [Hsem0]; · iexact Hsem0
    isplitl [Hsem1]; · iexact Hsem1
    isplitl [Hsem2]; · iexact Hsem2
    isplitl [Hsem3]; · iexact Hsem3
    iexact Hsems
  iexists _; isplitr
  swap; · iexact HO
  ipureintro
  exact okW_none (okW_none (okW_none (okW_none hW' _) _) _) _

set_option maxHeartbeats 8000000 in
/-- The task of tile 15, which also copies the last sixteen rows of the node table. -/
theorem tile_body_15 (hF : (K (F := F)).Facts)
    (hs : ∀ e : Fin 320000, ((m (sLoc d) : IVec S320000 32) (ix1 e)).toNat < 10000)
    (hr : ∀ e : Fin 320000, ((m (rLoc d) : IVec S320000 32) (ix1 e)).toNat < 10000)
    (h15 : (L 1).val = 15)
    (O : CellTallies nD τ sig (HIx 1)) (W : Waits sig (HIx 1)) (hO : ∀ g, O g none = 0)
    (hOlev : ∀ g ι, 0 < O g ι → 8 * (0 : Fin 1).val + 6 ≤ (K (F := F)).lev g ι) :
    iprop(levAts (K (F := F)).L (K (F := F)).lev ∗ bkit m d (cV L) (jV L)
        ∗ (tileArr m d (wid (cV L) (jV L)) (m (oLoc d)) ∗ shIn d (cV L) (jL L))
        ∗ scopedBufs (V d (cV L) (jV L)) ∗ scopedSems0 (V d (cV L) (jV L)) ∗ owes (V d (cV L) (jV L)) (O + oxV d (cV L)) W)
      ⊢ wp frame (wpE (defs₀ (F := F)) 𝒱₀ (V d (cV L) (jV L)) none) Set.univ
          (cc0__gather_body L nV (Memref.isWhole_whole _) sV (Memref.isWhole_whole _) rV (Memref.isWhole_whole _) oV (Memref.isWhole_whole _)
            shV (Memref.isWhole_whole _) isV (Memref.isWhole_whole _) irV (Memref.isWhole_whole _)
            b0V (Memref.isWhole_whole _) b1V (Memref.isWhole_whole _) b2V (Memref.isWhole_whole _) b3V (Memref.isWhole_whole _)
            cc0_scratch7 cc0_scratch8 cc0_scratch9 cc0_scratch10 cc0_scratch11 cc0_scratch12 cc0_scratch13 cc0_scratch14
            cc0_scoped0 cc0_scoped1 cc0_scoped2 cc0_scoped3)
          fun _ => iprop((tileArr m d (wid (cV L) (jV L)) (gatherC m d) ∗ shOut m d (cV L) (jL L))
            ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') := by
  simp only [cc0__gather_body_eq_skeleton]; unfold cc0__gather_body_skel
  simp only [k0_part2_eq_skeleton, k0_part3_eq_skeleton]; unfold k0_part2_skel k0_part3_skel
  rw [(K (F := F)).scopedBufs_V hF d (cV L) (jV L), SparseCore.Cfg.scopedSems0_V (Val := Elt F) d (cV L) (jV L), ownSems0_V, ownBufs_V]
  unfold bkit tileArr shIn
  iintro ⟨#Hlv, ⟨⟨%κ, #Hinv⟩, Htoks, #Hrch, Hat, Hcred⟩, ⟨⟨Hn, Hs, Hr, Ho⟩, ⟨%fsh, Hsh⟩⟩, ⟨⟨%fis, His⟩, ⟨%fir, Hir⟩, ⟨%f0, Hb0⟩, ⟨%f1, Hb1⟩, ⟨%f2, Hb2⟩, ⟨%f3, Hb3⟩, Hbufs⟩, ⟨Hg0, Hg1, Hg2, Hg3, Hw0, Hw1, Hw2, Hw3, Hsem0, Hsem1, Hsem2, Hsem3, Hsems⟩, HO⟩
  have k0_h1 : Scalar.cmpi CmpIPredicate.ne (Scalar.extui (Scalar.cmpi CmpIPredicate.eq (BitVec.ofNat 32 (L 1).val) 15#32)) 0#32 = 1#1 :=
    (tail_cond L).mpr h15
  have hO' : ∀ g, (O + oxV d (cV L)) g none = 0 := fun g => by rw [Pi.add_apply, Finsupp.add_apply, hO g, oxV_none]
  ihave Hmw1 := (show levAts (K (F := F)).L (K (F := F)).lev ⊢ Transfers.MayWaits (V d (cV L) (jV L)) (default : HIx 1) (O + oxV d (cV L)) from
    (K (F := F)).mayWaits_none (thr := V d (cV L) (jV L)) hO') $$ Hlv
  ihave Hmw2 := (show levAts (K (F := F)).L (K (F := F)).lev ⊢ Transfers.MayWaits (V d (cV L) (jV L)) (default : HIx 1) O from
    (K (F := F)).mayWaits_none (thr := V d (cV L) (jV L)) hO) $$ Hlv
  ihave Hn' := (Entails.of_eq (pts_n (F := F) d L _ _).symm) $$ Hn
  ihave Hs' := (Entails.of_eq (pts_s (F := F) d L _ _).symm) $$ Hs
  ihave Hr' := (Entails.of_eq (pts_r (F := F) d L _ _).symm) $$ Hr
  ihave His' := (Entails.of_eq (pts_is (F := F) d L _).symm) $$ His
  ihave Hir' := (Entails.of_eq (pts_ir (F := F) d L _).symm) $$ Hir
  ihave Hsh0 := (own_part15_split (F := F) d L h15 fullShare fsh) $$ Hsh
  icases Hsh0 with ⟨Hsh1, Htl1⟩
  ihave Hsh' := (Entails.of_eq (pts_shBlk (F := F) d L fullShare _).symm) $$ Hsh1
  ihave Htl' := (Entails.of_eq (pts_shTail (F := F) d L fullShare _).symm) $$ Htl1
  -- the copies of the tile's block and of the last sixteen rows of the node table, and of its two index lists, each waited for
  sl_exec
  -- the block now holds the node rows; a read share of it goes to every tile across the barrier, and a read share of
  -- every tile's part comes back: the whole shared table at the node rows
  ihave Hsh2 := (Entails.of_eq (shBlk_restate (F := F) m d L fullShare fsh (tile_body_15.sl.dma0 m d L) rfl)) $$ Hsh'
  ihave Htl2 := (Entails.of_eq (shTail_restate (F := F) m d L fullShare fsh (tile_body_15.sl.dma0_1 m d) rfl)) $$ Htl'
  ihave Hsh3 := (own_part15_join (F := F) d L h15 fullShare (nodesSh m d (cV L))) $$ [Hsh2 Htl2]
  · isplitl [Hsh2]; · iexact Hsh2
    iexact Htl2
  ihave Hp := (pays_intro (F := F) m d L) $$ Hsh3
  icases Hp with ⟨Hpays, Hdrop⟩
  rw [bind_assoc]
  iapply (SparseCore.wp_subcoreBarrier 𝒱₀ none EB (bRd (F := F) m) d (sc := cV L) (i := jV L) sc_bar0 (grid0.bound 1) hsub0 (L 1) rfl κ (fun _ => 0) (jV L).val
      (fun j => bRd_mem₀ m d _ _ _) (fun _ => rfl) (bRd_expect m d _ _) (some 0) O _) $$ [HO Htoks Hpays Hcred Hat]
  · isplitr; · iexact Hinv
    isplitl [HO]; · iexact HO
    isplitl [Htoks Hpays]
    · rw [bigSep_sep', bigSep_sep']
      isplitl [Htoks]; · iexact Htoks
      isplitl [Hpays]; · iexact Hpays
      iexact Hrch
    isplitl [Hcred]; · iexact Hcred
    isplitl [Hat]; · iexact Hat
    iapply ((K (F := F)).mayOwe_of_bound (thr := V d (cV L) (jV L)) 3 (fun p hp => by
        rw [Finset.mem_singleton] at hp; subst hp
        show (K (F := F)).lev (bcell d (cV L) (jV L)) (some 0) ≤ 3
        rw [(K (F := F)).lev_V_reg d _ _ (show (sc_bar0 : Sem sig) ≠ (K (F := F)).go from sc_bar0_ne_go)]; exact le_rfl)
      (fun g ι hg => lt_of_lt_of_le (by decide) (hOlev g ι hg)))
    iexact Hlv
  iintro ⟨HO, Hat, -, Hgot⟩
  ihave Hwhole := (pays_elim (F := F) m d L) $$ Hgot
  ihave Ht := (tok4_split (F := F) d L _) $$ Hwhole
  icases Ht with ⟨Htd, Ht0, Ht1, Ht2, Ht3⟩
  ihave Ht0' := (Entails.of_eq (pts_sh (F := F) d L _ _).symm) $$ Ht0
  ihave Ht1' := (Entails.of_eq (pts_sh (F := F) d L _ _).symm) $$ Ht1
  ihave Ht2' := (Entails.of_eq (pts_sh (F := F) d L _ _).symm) $$ Ht2
  ihave Ht3' := (Entails.of_eq (pts_sh (F := F) d L _ _).symm) $$ Ht3
  ihave Hb0' := (Entails.of_eq (pts_b0 (F := F) d L _).symm) $$ Hb0
  ihave Hb1' := (Entails.of_eq (pts_b1 (F := F) d L _).symm) $$ Hb1
  ihave Hb2' := (Entails.of_eq (pts_b2 (F := F) d L _).symm) $$ Hb2
  ihave Hb3' := (Entails.of_eq (pts_b3 (F := F) d L _).symm) $$ Hb3
  -- every entry of the two index lists names a row of the table
  have hin_s := idx_inb_s (F := F) m d L hs fis (tile_body_15.sl.dma0_2 m d L) rfl
  have hin_r := idx_inb_r (F := F) m d L hr fir (tile_body_15.sl.dma0_3 m d L) rfl
  -- the first two chunks' gathers, the waits for chunk 0's
  sl_exec
  -- the tile's rows of the gathered array, in chunks of 40 rows and two halves
  ihave Hoc := (Entails.of_eq (out_chunks (F := F) d L (m (oLoc d)))) $$ Ho
  ihave Hoc' := (Entails.of_eq (bigSep_chunks_start (fun p : Fin 250 × Fin 2 => (oLoc d ↦[chunkSet L p.1 p.2]{fullShare} m (oLoc d) : sProp 𝕄)))) $$ Hoc
  icases Hoc' with ⟨Hc00, Hc01, Hc10, Hc11, Hrem⟩
  ihave Hc00' := (Entails.of_eq (pts_oC30 (F := F) d L _).symm) $$ Hc00
  ihave Hc01' := (Entails.of_eq (pts_oC40 (F := F) d L _).symm) $$ Hc01
  ihave Hc10' := (Entails.of_eq (pts_oC31 (F := F) d L _).symm) $$ Hc10
  ihave Hc11' := (Entails.of_eq (pts_oC41 (F := F) d L _).symm) $$ Hc11
  -- chunk 0 is copied out, chunk 1's gathers are waited for and it is copied out
  sl_exec
  -- each write-out in flight delivers its chunk at the gathered array
  ihave Hw0 := (wf_s (F := F) m d L cc0_scratch11 b0V f0 (m (oLoc d)) ![0] inb_S10000_S40_0 0 rfl (by omega) fis (tile_body_15.sl.dma0_2 m d L) rfl rfl (hin_s _ _) hs
    (k0_off3 L 0#32) (inb3_0 L) (off3_0 L 0) (off3_1 L 0) (tile_body_15.sl.gather0 m d L fis hin_s) (tile_body_15.sl.dma0_4 m d L fis f0 hin_s) rfl rfl) $$ [Hw0]
  · iexact Hw0
  ihave Hw1 := (wf_r (F := F) m d L cc0_scratch12 b1V f1 (m (oLoc d)) ![0] inb_S10000_S40_0 0 rfl (by omega) fir (tile_body_15.sl.dma0_3 m d L) rfl rfl (hin_r _ _) hr
    (k0_off4 L 0#32) (inb4_0 L) (off4_0 L 0) (off4_1 L 0) (tile_body_15.sl.gather1 m d L fir hin_r) (tile_body_15.sl.dma0_5 m d L fir f1 hin_r) rfl rfl) $$ [Hw1]
  · iexact Hw1
  ihave Hw2 := (wf_s (F := F) m d L cc0_scratch13 b2V f2 (m (oLoc d)) ![40] inb_S10000_S40_40 1 rfl (by omega) fis (tile_body_15.sl.dma0_2 m d L) rfl rfl (hin_s _ _) hs
    (k0_off3 L 40#32) (inb3_1 L) (off3_0 L 1) (off3_1 L 1) (tile_body_15.sl.gather2 m d L fis hin_s) (tile_body_15.sl.dma0_6 m d L fis f2 hin_s) rfl rfl) $$ [Hw2]
  · iexact Hw2
  ihave Hw3 := (wf_r (F := F) m d L cc0_scratch14 b3V f3 (m (oLoc d)) ![40] inb_S10000_S40_40 1 rfl (by omega) fir (tile_body_15.sl.dma0_3 m d L) rfl rfl (hin_r _ _) hr
    (k0_off4 L 40#32) (inb4_1 L) (off4_0 L 1) (off4_1 L 1) (tile_body_15.sl.gather3 m d L fir hin_r) (tile_body_15.sl.dma0_7 m d L fir f3 hin_r) rfl rfl) $$ [Hw3]
  · iexact Hw3
  ihave Hdone := (show (iprop(emp) : sProp 𝕄) ⊢ bigSep (doneCh 0) fun p => oLoc d ↦[chunkSet L p.1 p.2]{fullShare} gatherC m d from by
    rw [doneCh_zero, bigSep_empty]; exact Entails.refl _) $$ []
  · iempintro
  sl_for (inv m d L O W (View.write (Elt F) (isV).view fis (tile_body_15.sl.dma0_2 m d L) Finset.univ) (View.write (Elt F) (irV).view fir (tile_body_15.sl.dma0_3 m d L) Finset.univ))
    $$ [Hmw2 Hw0 Hb0' Hw1 Hb1' Hw2 Hb2' Hw3 Hb3' Hg0 Hg1 Hg2 Hg3 Ht0' Ht1' Ht2' Ht3' His' Hir' Hdone Hrem HO]
  case region =>
    intro k _
    have hk : k.val < 124 := lt_of_lt_of_eq k.isLt trips_eq
    unfold inv WF
    iintro ⟨#Hmw, ⟨%F0, %F1, %F2, %F3, Hw0, Hb0, Hw1, Hb1, Hw2, Hb2, Hw3, Hb3⟩, Hg0, Hg1, Hg2, Hg3, Ht0, Ht1, Ht2, Ht3, His, Hir, Hdone, Hrem, %W', %hW', HO⟩
    -- this trip's chunks 2k+2 and 2k+3, out of the untouched ones
    ihave Hrem' := (Entails.of_eq (bigSep_remCh_step (fun p : Fin 250 × Fin 2 => (oLoc d ↦[chunkSet L p.1 p.2]{fullShare} m (oLoc d) : sProp 𝕄)) k.val hk)) $$ Hrem
    icases Hrem' with ⟨Hc00, Hc01, Hc10, Hc11, Hrem⟩
    ihave Hc00' := (Entails.of_eq (pts_oC60 (F := F) d L k _ _).symm) $$ Hc00
    ihave Hc01' := (Entails.of_eq (pts_oC70 (F := F) d L k _ _).symm) $$ Hc01
    ihave Hc10' := (Entails.of_eq (pts_oC61 (F := F) d L k _ _).symm) $$ Hc10
    ihave Hc11' := (Entails.of_eq (pts_oC71 (F := F) d L k _ _).symm) $$ Hc11
    sl_exec (disch := exact View.amount_pos _ _ (show 0 < S40x128.numel by decide))
    sl_step
    -- this trip's four write-outs, each delivering its chunk at the gathered array
    ihave Hw0 := (wf_s (F := F) m d L cc0_scratch11 b0V F0 (m (oLoc d)) (k0_off5 k 0#32) (k0_off5_inb k 0) (2 * (k.val + 1)) (off5_0 k) (by omega) fis (tile_body_15.sl.dma0_2 m d L) rfl rfl (hin_s _ _) hs
      (k0_off6 L k 0#32) (k0_off6_inb L k 0) (off6_00 L k) (off6_1 L k 0) (tile_body_15.sl.gather0_1 m d L fis hin_s k) (tile_body_15.sl.dma0_8 m d L fis hin_s k F0) rfl rfl) $$ [Hw0]
    · iexact Hw0
    ihave Hw1 := (wf_r (F := F) m d L cc0_scratch12 b1V F1 (m (oLoc d)) (k0_off5 k 0#32) (k0_off5_inb k 0) (2 * (k.val + 1)) (off5_0 k) (by omega) fir (tile_body_15.sl.dma0_3 m d L) rfl rfl (hin_r _ _) hr
      (k0_off7 L k 0#32) (k0_off7_inb L k 0) (off7_00 L k) (off7_1 L k 0) (tile_body_15.sl.gather1_1 m d L fir hin_r k) (tile_body_15.sl.dma0_9 m d L fir hin_r k F1) rfl rfl) $$ [Hw1]
    · iexact Hw1
    ihave Hw2 := (wf_s (F := F) m d L cc0_scratch13 b2V F2 (m (oLoc d)) (k0_off5 k 1#32) (k0_off5_inb k 1) (2 * (k.val + 1) + 1) (off5_1 k) (by omega) fis (tile_body_15.sl.dma0_2 m d L) rfl rfl (hin_s _ _) hs
      (k0_off6 L k 1#32) (k0_off6_inb L k 1) (off6_10 L k) (off6_1 L k 1) (tile_body_15.sl.gather2_1 m d L fis hin_s k) (tile_body_15.sl.dma0_10 m d L fis hin_s k F2) rfl rfl) $$ [Hw2]
    · iexact Hw2
    ihave Hw3 := (wf_r (F := F) m d L cc0_scratch14 b3V F3 (m (oLoc d)) (k0_off5 k 1#32) (k0_off5_inb k 1) (2 * (k.val + 1) + 1) (off5_1 k) (by omega) fir (tile_body_15.sl.dma0_3 m d L) rfl rfl (hin_r _ _) hr
      (k0_off7 L k 1#32) (k0_off7_inb L k 1) (off7_10 L k) (off7_1 L k 1) (tile_body_15.sl.gather3_1 m d L fir hin_r k) (tile_body_15.sl.dma0_11 m d L fir hin_r k F3) rfl rfl) $$ [Hw3]
    · iexact Hw3
    unfold WF
    -- chunks 2k and 2k+1 join the done ones
    rw [chN_eq L (2 * k.val) (by omega) 0, chN_eq L (2 * k.val) (by omega) 1, chN_eq L (2 * k.val + 1) (by omega) 0, chN_eq L (2 * k.val + 1) (by omega) 1]
    ihave Hdone := (Entails.of_eq (bigSep_doneCh_step (fun p : Fin 250 × Fin 2 => (oLoc d ↦[chunkSet L p.1 p.2]{fullShare} gatherC m d : sProp 𝕄)) k.val (by omega)).symm) $$ [Hdone Hw0_dst Hw1_dst Hw2_dst Hw3_dst]
    · isplitl [Hw0_dst]; · iexact Hw0_dst
      isplitl [Hw1_dst]; · iexact Hw1_dst
      isplitl [Hw2_dst]; · iexact Hw2_dst
      isplitl [Hw3_dst]; · iexact Hw3_dst
      iexact Hdone
    isplitr; · iexact Hmw
    isplitl [Hw0 Hb0 Hw1 Hb1 Hw2 Hb2 Hw3 Hb3]
    · iexists _; iexists _; iexists _; iexists _
      isplitl [Hw0]; · iexact Hw0
      isplitl [Hb0]; · iexact Hb0
      isplitl [Hw1]; · iexact Hw1
      isplitl [Hb1]; · iexact Hb1
      isplitl [Hw2]; · iexact Hw2
      isplitl [Hb2]; · iexact Hb2
      isplitl [Hw3]; · iexact Hw3
      iexact Hb3
    isplitl [Hg0]; · iexact Hg0
    isplitl [Hg1]; · iexact Hg1
    isplitl [Hg2]; · iexact Hg2
    isplitl [Hg3]; · iexact Hg3
    isplitl [Ht0]; · iexact Ht0
    isplitl [Ht1]; · iexact Ht1
    isplitl [Ht2]; · iexact Ht2
    isplitl [Ht3]; · iexact Ht3
    isplitl [His]; · iexact His
    isplitl [Hir]; · iexact Hir
    isplitl [Hdone]; · iexact Hdone
    isplitl [Hrem]; · iexact Hrem
    iexists _; isplitr
    swap; · iexact HO
    ipureintro
    exact okW_none (okW_none (okW_none (okW_none (okW_none (okW_none (okW_none (okW_none hW' _) _) _) _) _) _) _) _
  -- the invariant holds before the first trip
  · unfold inv
    isplitr; · iexact Hmw2
    isplitl [Hw0 Hb0' Hw1 Hb1' Hw2 Hb2' Hw3 Hb3']
    · iexists _; iexists _; iexists _; iexists _
      isplitl [Hw0]; · iexact Hw0
      isplitl [Hb0']; · iexact Hb0'
      isplitl [Hw1]; · iexact Hw1
      isplitl [Hb1']; · iexact Hb1'
      isplitl [Hw2]; · iexact Hw2
      isplitl [Hb2']; · iexact Hb2'
      isplitl [Hw3]; · iexact Hw3
      iexact Hb3'
    isplitl [Hg0]; · iexact Hg0
    isplitl [Hg1]; · iexact Hg1
    isplitl [Hg2]; · iexact Hg2
    isplitl [Hg3]; · iexact Hg3
    isplitl [Ht0']; · iexact Ht0'
    isplitl [Ht1']; · iexact Ht1'
    isplitl [Ht2']; · iexact Ht2'
    isplitl [Ht3']; · iexact Ht3'
    isplitl [His']; · iexact His'
    isplitl [Hir']; · iexact Hir'
    isplitl [Hdone]; · iexact Hdone
    isplitl [Hrem]; · iexact Hrem
    iexists _; isplitr
    swap; · iexact HO
    ipureintro
    exact okW_none (okW_none (okW_none (okW_none (okW_some (okW_none (okW_none (okW_none (okW_none (okW_refl W) _) _) _) _) _) _) _) _) _
  -- after the last trip: the last two chunks' write-outs are waited for
  iintro %_ HI
  unfold inv WF
  icases HI with ⟨-, ⟨%F0, %F1, %F2, %F3, Hw0, Hb0, Hw1, Hb1, Hw2, Hb2, Hw3, Hb3⟩, Hg0, Hg1, Hg2, Hg3, Ht0, Ht1, Ht2, Ht3, His, Hir, Hdone, Hrem, %W', %hW', HO⟩
  sl_exec
  sl_step
  -- all 250 chunks are done: the tile's rows hold the gathered array
  have htr : Scf.trips k0_t1_loop.lb k0_t1_loop.ub k0_t1_loop.st = 124 := trips_eq
  rw [htr, chN_eq L (2 * 124) (by omega) 0, chN_eq L (2 * 124) (by omega) 1, chN_eq L (2 * 124 + 1) (by omega) 0, chN_eq L (2 * 124 + 1) (by omega) 1]
  ihave Hdone := (Entails.of_eq (bigSep_doneCh_step (fun p : Fin 250 × Fin 2 => (oLoc d ↦[chunkSet L p.1 p.2]{fullShare} gatherC m d : sProp 𝕄)) 124 (by omega)).symm) $$ [Hdone Hw0_dst Hw1_dst Hw2_dst Hw3_dst]
  · isplitl [Hw0_dst]; · iexact Hw0_dst
    isplitl [Hw1_dst]; · iexact Hw1_dst
    isplitl [Hw2_dst]; · iexact Hw2_dst
    isplitl [Hw3_dst]; · iexact Hw3_dst
    iexact Hdone
  rw [show doneCh (124 + 1) = Finset.univ from doneCh_end]
  ihave Ho := (Entails.of_eq (out_chunks (F := F) d L (gatherC m d)).symm) $$ Hdone
  isplitl [Hn' Hs' Hr' Ho Htd Ht0 Ht1 Ht2 Ht3 Hdrop]
  · isplitl [Hn' Hs' Hr' Ho]
    · isplitl [Hn']; · iapply (Entails.of_eq (pts_n (F := F) d L _ _)); iexact Hn'
      isplitl [Hs']; · iapply (Entails.of_eq (pts_s (F := F) d L _ _)); iexact Hs'
      isplitl [Hr']; · iapply (Entails.of_eq (pts_r (F := F) d L _ _)); iexact Hr'
      iexact Ho
    · unfold shOut
      isplitl [Htd Ht0 Ht1 Ht2 Ht3]
      · iapply (tok4_join (F := F) d L _)
        isplitl [Htd]; · iexact Htd
        isplitl [Ht0]; · iapply (Entails.of_eq (pts_sh (F := F) d L _ _)); iexact Ht0
        isplitl [Ht1]; · iapply (Entails.of_eq (pts_sh (F := F) d L _ _)); iexact Ht1
        isplitl [Ht2]; · iapply (Entails.of_eq (pts_sh (F := F) d L _ _)); iexact Ht2
        iapply (Entails.of_eq (pts_sh (F := F) d L _ _)); iexact Ht3
      · iexact Hdrop
  isplitl [His Hir Hb0 Hb1 Hb2 Hb3 Hbufs]
  · isplitl [His]; · iexists _; iapply (Entails.of_eq (pts_is (F := F) d L _)); iexact His
    isplitl [Hir]; · iexists _; iapply (Entails.of_eq (pts_ir (F := F) d L _)); iexact Hir
    isplitl [Hb0]; · iexists _; iapply (Entails.of_eq (pts_b0 (F := F) d L _)); iexact Hb0
    isplitl [Hb1]; · iexists _; iapply (Entails.of_eq (pts_b1 (F := F) d L _)); iexact Hb1
    isplitl [Hb2]; · iexists _; iapply (Entails.of_eq (pts_b2 (F := F) d L _)); iexact Hb2
    isplitl [Hb3]; · iexists _; iapply (Entails.of_eq (pts_b3 (F := F) d L _)); iexact Hb3
    iexact Hbufs
  isplitl [Hg0 Hg1 Hg2 Hg3 Hw0 Hw1 Hw2 Hw3 Hsem0 Hsem1 Hsem2 Hsem3 Hsems]
  · isplitl [Hg0]; · iexact Hg0
    isplitl [Hg1]; · iexact Hg1
    isplitl [Hg2]; · iexact Hg2
    isplitl [Hg3]; · iexact Hg3
    isplitl [Hw0]; · iexact Hw0
    isplitl [Hw1]; · iexact Hw1
    isplitl [Hw2]; · iexact Hw2
    isplitl [Hw3]; · iexact Hw3
    isplitl [Hsem0]; · iexact Hsem0
    isplitl [Hsem1]; · iexact Hsem1
    isplitl [Hsem2]; · iexact Hsem2
    isplitl [Hsem3]; · iexact Hsem3
    iexact Hsems
  iexists _; isplitr
  swap; · iexact HO
  ipureintro
  exact okW_none (okW_none (okW_none (okW_none hW' _) _) _) _

end Body

/-- One tile's task, whichever tile it is. -/
theorem tile_body (hs : ∀ (d : Dev nD) (e : Fin 320000), ((m (sLoc d) : IVec S320000 32) (ix1 e)).toNat < 10000)
    (hr : ∀ (d : Dev nD) (e : Fin 320000), ((m (rLoc d) : IVec S320000 32) (ix1 e)).toNat < 10000)
    (d : Dev nD) (L : grid0.Coords) (O : CellTallies nD τ sig (HIx 1)) (W : Waits sig (HIx 1)) (hO : ∀ g, O g none = 0)
    (hOlev : ∀ g ι, 0 < O g ι → 8 * (0 : Fin 1).val + 6 ≤ (K (F := F)).lev g ι) :
    iprop(levAts (K (F := F)).L (K (F := F)).lev ∗ bkit m d (cV L) (jV L)
        ∗ (tileArr m d (wid (cV L) (jV L)) (m (oLoc d)) ∗ shIn d (cV L) (jL L))
        ∗ scopedBufs (V d (cV L) (jV L)) ∗ scopedSems0 (V d (cV L) (jV L)) ∗ owes (V d (cV L) (jV L)) (O + oxV d (cV L)) W)
      ⊢ wp frame (wpE (defs₀ (F := F)) 𝒱₀ (V d (cV L) (jV L)) none) Set.univ
          (cc0__gather_body L nV (Memref.isWhole_whole _) sV (Memref.isWhole_whole _) rV (Memref.isWhole_whole _) oV (Memref.isWhole_whole _)
            shV (Memref.isWhole_whole _) isV (Memref.isWhole_whole _) irV (Memref.isWhole_whole _)
            b0V (Memref.isWhole_whole _) b1V (Memref.isWhole_whole _) b2V (Memref.isWhole_whole _) b3V (Memref.isWhole_whole _)
            cc0_scratch7 cc0_scratch8 cc0_scratch9 cc0_scratch10 cc0_scratch11 cc0_scratch12 cc0_scratch13 cc0_scratch14
            cc0_scoped0 cc0_scoped1 cc0_scoped2 cc0_scoped3)
          fun _ => iprop((tileArr m d (wid (cV L) (jV L)) (gatherC m d) ∗ shOut m d (cV L) (jL L))
            ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') := by
  by_cases h15 : (L 1).val = 15
  · exact tile_body_15 m d L facts (hs d) (hr d) h15 O W hO hOlev
  · exact tile_body_lt m d L facts (hs d) (hr d) h15 O W hO hOlev

end Cert.Proof.KB

end
-- ==== Proof.ClaimsBits.lean ====
/-
  The word-level program's frame: under the input predicate the row numbers are in range, so the program as printed
  runs and leaves its arguments as launched. It is the run proved for any float instance, read at the word-level
  instance over the word-level program.
-/
import proofs.«206088_g82248623718559_cont_9to1c4b_230_21_alg».proof.Proof.KbRun
import proofs.«206088_g82248623718559_cont_9to1c4b_230_21_alg».proof.Proof.KbMain
import proofs.«206088_g82248623718559_cont_9to1c4b_230_21_alg».proof.Proof.KbTileObl
import proofs.«206088_g82248623718559_cont_9to1c4b_230_21_alg».proof.Proof.KbTile
import proofs.«206088_g82248623718559_cont_9to1c4b_230_21_alg».proof.Proof.Gen.Pre_input_domain

noncomputable section

namespace Cert.Proof.KB

open Cert.Kernel Cert.Kernel.Gen

open Idealize.ShloMosaic
open Idealize.ShloMosaic.SparseCore (S V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

section Claims

/-- The word-level program runs and leaves its arguments unchanged. -/
theorem frame_K : Cert.frame_Kernel (hKernel := Cert.Kernel.Gen.facts) (hPre_input_domain := Cert.Pre_input_domain.Gen.facts) :=
  fun m g hpre =>
    haveI := Cert.Pre_input_domain.Gen.facts
    have hi := idx_of_pre (F := Bits) m hpre
    run_frame m g (tileObl m facts (tile_body m hi.1 hi.2)) (hmain m g)

end Claims

end Cert.Proof.KB

end
-- ==== Proof.lean ====
/-
  The certificate of the graph-network edge update.

  Both programs compute, for each of the 320000 edges, a two-layer network of the edge's 272 features — the sender's
  node row, the receiver's node row, the edge's own sixteen features —: an affine layer to 544 hidden units, the
  logistic function, an affine layer to sixteen outputs. The reference looks the two node rows up, lays the three
  blocks side by side, multiplies by the transposed weights and writes the logistic function as 1 / (1 + exp (-x)).
  The kernel program gathers the two node rows of every edge into one array of 256 columns on the SparseCores; a
  pipeline on the TensorCore then computes, block by block of 6400 edges, the first layer as the gathered rows times
  the first 256 rows of the transposed weights plus the edge's features times the last sixteen rows, the logistic
  function as (1/2) tanh (x/2) + 1/2, and the second layer.

  At the exact arithmetic the two results are equal, entry by entry. Under the input predicate every row number lies
  between 0 and 9999, so the gathered rows are the node rows the reference's lookups return; every float input is
  finite, so every intermediate value is a real number: the roundings to the narrower float format are the identity,
  (1/2) tanh (x/2) + 1/2 = 1 / (1 + exp (-x)), and a sum over 272 features is the sum over the first 256 and the last
  sixteen.

  Each program runs to its end without fault and leaves its eight arguments as launched. In the kernel program every
  copy a tile starts it waits for before the buffers involved are touched again, one copy at a time per semaphore;
  the sixteen tiles of a SparseCore meet once at the subcore barrier, where each hands every tile a read share of the
  rows it wrote of the shared node table; the arguments are only ever read, under read shares that are joined again
  when the call returns; the TensorCore's pipeline stages blocks of its inputs and writes only the result. The
  word-level program is the same text read at machine words, and its frame is the same argument.
-/
import proofs.«206088_g82248623718559_cont_9to1c4b_230_21_alg».proof.Defs
import proofs.«206088_g82248623718559_cont_9to1c4b_230_21_alg».proof.Proof.Gen.Kernel
import proofs.«206088_g82248623718559_cont_9to1c4b_230_21_alg».proof.Proof.Gen.Kernel.Skeleton
import proofs.«206088_g82248623718559_cont_9to1c4b_230_21_alg».proof.Proof.Gen.Kernel.Launch
import proofs.«206088_g82248623718559_cont_9to1c4b_230_21_alg».proof.Proof.Gen.Kernel.Points
import proofs.«206088_g82248623718559_cont_9to1c4b_230_21_alg».proof.Proof.Gen.KernelIdeal
import proofs.«206088_g82248623718559_cont_9to1c4b_230_21_alg».proof.Proof.Gen.KernelIdeal.Skeleton
import proofs.«206088_g82248623718559_cont_9to1c4b_230_21_alg».proof.Proof.Gen.KernelIdeal.Launch
import proofs.«206088_g82248623718559_cont_9to1c4b_230_21_alg».proof.Proof.Gen.KernelIdeal.Points
import proofs.«206088_g82248623718559_cont_9to1c4b_230_21_alg».proof.Proof.Gen.ReferenceIdeal
import proofs.«206088_g82248623718559_cont_9to1c4b_230_21_alg».proof.Proof.Gen.Pre_input_domain
import proofs.«206088_g82248623718559_cont_9to1c4b_230_21_alg».proof.Proof.ClaimsIdeal
import proofs.«206088_g82248623718559_cont_9to1c4b_230_21_alg».proof.Proof.ClaimsBits
import proofs.«206088_g82248623718559_cont_9to1c4b_230_21_alg».proof.Proof.RefSide
import Idealize.ShloMosaic.Adequacy
import Idealize.ShloMosaic.Init

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_input_domain.Gen.facts,
    Cert.Proof.KB.frame_K, Cert.Proof.KI.frame_KI, Cert.RefSide.frame, trivial, Cert.Proof.KI.algebraic⟩

end Cert.Proof

end
